-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v300)) (v1 : (c : Dev Cert.KernelIdeal.nD) → Buf (Elt Ideal) ((c.tc : Thread Cert.KernelIdeal.nD Cert.KernelIdeal.τ).loc Cert.KernelIdeal.main_v317)) (v2 : (c : Dev Cert.KernelIdeal.nD) → Buf (Elt Ideal) ((c.tc : Thread Cert.KernelIdeal.nD Cert.KernelIdeal.τ).loc Cert.KernelIdeal.main_v334)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v300) = v0 c
          ∧ r.2.mem ((c.tc : Thread Cert.KernelIdeal.nD Cert.KernelIdeal.τ).loc Cert.KernelIdeal.main_v317) = v1 c
          ∧ r.2.mem ((c.tc : Thread Cert.KernelIdeal.nD Cert.KernelIdeal.τ).loc Cert.KernelIdeal.main_v334) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v598) = v0 c
          ∧ r.2.mem ((c.tc : Thread Cert.ReferenceIdeal.nD Cert.ReferenceIdeal.τ).loc Cert.ReferenceIdeal.main_v630) = v1 c
          ∧ r.2.mem ((c.tc : Thread Cert.ReferenceIdeal.nD Cert.ReferenceIdeal.τ).loc Cert.ReferenceIdeal.main_v662) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S50000x4 : Shape := ⟨2, ![50000, 4]⟩
abbrev S5000x3 : Shape := ⟨2, ![5000, 3]⟩
abbrev S2x500000 : Shape := ⟨2, ![2, 500000]⟩
abbrev S2x300000 : Shape := ⟨2, ![2, 300000]⟩
abbrev S2x150000 : Shape := ⟨2, ![2, 150000]⟩
abbrev S128x6 : Shape := ⟨2, ![128, 6]⟩
abbrev S128 : Shape := ⟨1, ![128]⟩
abbrev S128x4 : Shape := ⟨2, ![128, 4]⟩
abbrev S128x3 : Shape := ⟨2, ![128, 3]⟩
abbrev S2x6x128x128 : Shape := ⟨4, ![2, 6, 128, 128]⟩
abbrev S2x6x128 : Shape := ⟨3, ![2, 6, 128]⟩
abbrev S2x3x128 : Shape := ⟨3, ![2, 3, 128]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S5000x3 : S_.BroadcastsInDim S5000x3 (![] : Fin 0 → Fin S5000x3.rank)
  reducesTo_S5000x3_S_d0_1 : S5000x3.ReducesTo [0, 1] S_
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S128x3 : S_.BroadcastsInDim S128x3 (![] : Fin 0 → Fin S128x3.rank)
  reducesTo_S128x3_S_d0_1 : S128x3.ReducesTo [0, 1] S_
  bcast_S_S2x6x128x128 : S_.BroadcastsInDim S2x6x128x128 (![] : Fin 0 → Fin S2x6x128x128.rank)
  reducesTo_S2x6x128x128_S_d0_1_2_3 : S2x6x128x128.ReducesTo [0, 1, 2, 3] S_
  bcast_S_S2x6x128 : S_.BroadcastsInDim S2x6x128 (![] : Fin 0 → Fin S2x6x128.rank)
  reducesTo_S2x6x128_S_d0_1_2 : S2x6x128.ReducesTo [0, 1, 2] S_
  bcast_S_S2x3x128 : S_.BroadcastsInDim S2x3x128 (![] : Fin 0 → Fin S2x3x128.rank)
  reducesTo_S2x3x128_S_d0_1_2 : S2x3x128.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S2x6x128x128 .f32) (main_arg18 : FVec F S2x3x128 .f32) (main_arg19 : FVec F S2x3x128 .f32) (main_v48 : IVec S_ 1) (main_v49 : FVec F S2x6x128 .f32) (main_v50 : FVec F S2x6x128 .f32) : IVec S_ 1 :=
  let main_v51 : IVec S2x6x128 1 := cmpf .olt main_v49 main_v50
  let main_c_19 : IVec S_ 1 := constantI S_ 1 1#1
  let main_v52 : IVec S_ 1 := (fun x v => Host.reduce IntOp.andi x v reducesTo_S2x6x128_S_d0_1_2 h_S_) main_v51 main_c_19
  let main_v53 : IVec S_ 1 := andi main_v48 main_v52
  let main_v54 : FVec F S2x6x128x128 .f32 := Host.absf main_arg17
  let main_cst_20 : FVec F S_ .f32 := constant S_ .f32 0x7F800000#32
  let main_v55 : FVec F S2x6x128x128 .f32 := broadcastInDim S2x6x128x128 ![] bcast_S_S2x6x128x128 main_cst_20
  let main_v56 : IVec S2x6x128x128 1 := cmpf .olt main_v54 main_v55
  let main_c_21 : IVec S_ 1 := constantI S_ 1 1#1
  let main_v57 : IVec S_ 1 := (fun x v => Host.reduce IntOp.andi x v reducesTo_S2x6x128x128_S_d0_1_2_3 h_S_) main_v56 main_c_21
  let main_v58 : IVec S_ 1 := andi main_v53 main_v57
  let main_v59 : FVec F S2x3x128 .f32 := Host.absf main_arg18
  let main_cst_22 : FVec F S_ .f32 := constant S_ .f32 0x7F800000#32
  let main_v60 : FVec F S2x3x128 .f32 := broadcastInDim S2x3x128 ![] bcast_S_S2x3x128 main_cst_22
  let main_v61 : IVec S2x3x128 1 := cmpf .olt main_v59 main_v60
  let main_c_23 : IVec S_ 1 := constantI S_ 1 1#1
  let main_v62 : IVec S_ 1 := (fun x v => Host.reduce IntOp.andi x v reducesTo_S2x3x128_S_d0_1_2 h_S_) main_v61 main_c_23
  let main_v63 : IVec S_ 1 := andi main_v58 main_v62
  let main_v64 : FVec F S2x3x128 .f32 := Host.absf main_arg19
  let main_cst_24 : FVec F S_ .f32 := constant S_ .f32 0x7F800000#32
  let main_v65 : FVec F S2x3x128 .f32 := broadcastInDim S2x3x128 ![] bcast_S_S2x3x128 main_cst_24
  let main_v66 : IVec S2x3x128 1 := cmpf .olt main_v64 main_v65
  let main_c_25 : IVec S_ 1 := constantI S_ 1 1#1
  let main_v67 : IVec S_ 1 := (fun x v => Host.reduce IntOp.andi x v reducesTo_S2x3x128_S_d0_1_2 h_S_) main_v66 main_c_25
  fn_part4 (F := F) main_v63 main_v67

def fn_part2 {F : FTy → Type} [FloatOps F] (main_arg13 : FVec F S128x3 .f32) (main_arg14 : FVec F S128 .f32) (main_arg15 : FVec F S2x6x128x128 .f32) (main_arg16 : FVec F S2x6x128 .f32) (main_arg17 : FVec F S2x6x128x128 .f32) (main_arg18 : FVec F S2x3x128 .f32) (main_arg19 : FVec F S2x3x128 .f32) (main_v33 : IVec S_ 1) : IVec S_ 1 :=
  let main_v34 : FVec F S128x3 .f32 := Host.absf main_arg13
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x6x128x128 .f32 := Host.absf main_arg15
  let main_cst_16 : FVec F S_ .f32 := constant S_ .f32 0x7F800000#32
  let main_v45 : FVec F S2x6x128x128 .f32 := broadcastInDim S2x6x128x128 ![] bcast_S_S2x6x128x128 main_cst_16
  let main_v46 : IVec S2x6x128x128 1 := cmpf .olt main_v44 main_v45
  let main_c_17 : IVec S_ 1 := constantI S_ 1 1#1
  let main_v47 : IVec S_ 1 := (fun x v => Host.reduce IntOp.andi x v reducesTo_S2x6x128x128_S_d0_1_2_3 h_S_) main_v46 main_c_17
  let main_v48 : IVec S_ 1 := andi main_v43 main_v47
  let main_v49 : FVec F S2x6x128 .f32 := Host.absf main_arg16
  let main_cst_18 : FVec F S_ .f32 := constant S_ .f32 0x7F800000#32
  let main_v50 : FVec F S2x6x128 .f32 := broadcastInDim S2x6x128 ![] bcast_S_S2x6x128 main_cst_18
  fn_part3 (F := F) main_arg17 main_arg18 main_arg19 main_v48 main_v49 main_v50

def fn_part1 {F : FTy → Type} [FloatOps F] (main_arg10 : FVec F S128 .f32) (main_arg11 : FVec F S128x4 .f32) (main_arg12 : FVec F S128 .f32) (main_arg13 : FVec F S128x3 .f32) (main_arg14 : FVec F S128 .f32) (main_arg15 : FVec F S2x6x128x128 .f32) (main_arg16 : FVec F S2x6x128 .f32) (main_arg17 : FVec F S2x6x128x128 .f32) (main_arg18 : FVec F S2x3x128 .f32) (main_arg19 : FVec F S2x3x128 .f32) (main_v13 : IVec S_ 1) (main_v16 : IVec S128x6 1) : IVec S_ 1 :=
  let main_c_5 : IVec S_ 1 := constantI S_ 1 1#1
  let main_v17 : IVec S_ 1 := (fun x v => Host.reduce IntOp.andi x v reducesTo_S128x6_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg11
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x6 .f32) (main_arg1 : FVec F S50000x4 .f32) (main_arg2 : FVec F S5000x3 .f32) (main_arg3 : IVec S2x500000 32) (main_arg4 : IVec S2x500000 32) (main_arg5 : IVec S2x300000 32) (main_arg6 : IVec S2x300000 32) (main_arg7 : IVec S2x150000 32) (main_arg8 : IVec S2x150000 32) (main_arg9 : FVec F S128x6 .f32) (main_arg10 : FVec F S128 .f32) (main_arg11 : FVec F S128x4 .f32) (main_arg12 : FVec F S128 .f32) (main_arg13 : FVec F S128x3 .f32) (main_arg14 : FVec F S128 .f32) (main_arg15 : FVec F S2x6x128x128 .f32) (main_arg16 : FVec F S2x6x128 .f32) (main_arg17 : FVec F S2x6x128x128 .f32) (main_arg18 : FVec F S2x3x128 .f32) (main_arg19 : FVec F S2x3x128 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S5000x3 .f32 := Host.absf main_arg2
  let main_cst_2 : FVec F S_ .f32 := constant S_ .f32 0x7F800000#32
  let main_v10 : FVec F S5000x3 .f32 := broadcastInDim S5000x3 ![] bcast_S_S5000x3 main_cst_2
  let main_v11 : IVec S5000x3 1 := cmpf .olt main_v9 main_v10
  let main_c_3 : IVec S_ 1 := constantI S_ 1 1#1
  let main_v12 : IVec S_ 1 := (fun x v => Host.reduce IntOp.andi x v reducesTo_S5000x3_S_d0_1 h_S_) main_v11 main_c_3
  let main_v13 : IVec S_ 1 := andi main_v8 main_v12
  let main_v14 : FVec F S128x6 .f32 := Host.absf main_arg9
  let main_cst_4 : FVec F S_ .f32 := constant S_ .f32 0x7F800000#32
  let main_v15 : FVec F S128x6 .f32 := broadcastInDim S128x6 ![] bcast_S_S128x6 main_cst_4
  let main_v16 : IVec S128x6 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x6 : Shape := ⟨2, ![100000, 6]⟩
abbrev S50000x4 : Shape := ⟨2, ![50000, 4]⟩
abbrev S5000x3 : Shape := ⟨2, ![5000, 3]⟩
abbrev S2x500000 : Shape := ⟨2, ![2, 500000]⟩
abbrev S2x300000 : Shape := ⟨2, ![2, 300000]⟩
abbrev S2x150000 : Shape := ⟨2, ![2, 150000]⟩
abbrev S128x6 : Shape := ⟨2, ![128, 6]⟩
abbrev S128 : Shape := ⟨1, ![128]⟩
abbrev S128x4 : Shape := ⟨2, ![128, 4]⟩
abbrev S128x3 : Shape := ⟨2, ![128, 3]⟩
abbrev S2x6x128x128 : Shape := ⟨4, ![2, 6, 128, 128]⟩
abbrev S2x6x128 : Shape := ⟨3, ![2, 6, 128]⟩
abbrev S2x3x128 : Shape := ⟨3, ![2, 3, 128]⟩
abbrev S6x128 : Shape := ⟨2, ![6, 128]⟩
abbrev S100000x128 : Shape := ⟨2, ![100000, 128]⟩
abbrev S1x128 : Shape := ⟨2, ![1, 128]⟩
abbrev S4x128 : Shape := ⟨2, ![4, 128]⟩
abbrev S50000x128 : Shape := ⟨2, ![50000, 128]⟩
abbrev S3x128 : Shape := ⟨2, ![3, 128]⟩
abbrev S5000x128 : Shape := ⟨2, ![5000, 128]⟩
abbrev S1x500000 : Shape := ⟨2, ![1, 500000]⟩
abbrev S500000 : Shape := ⟨1, ![500000]⟩
abbrev S1x300000 : Shape := ⟨2, ![1, 300000]⟩
abbrev S300000 : Shape := ⟨1, ![300000]⟩
abbrev S1x150000 : Shape := ⟨2, ![1, 150000]⟩
abbrev S150000 : Shape := ⟨1, ![150000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S100000 : Shape := ⟨1, ![100000]⟩
abbrev S100000x1 : Shape := ⟨2, ![100000, 1]⟩
abbrev S5000 : Shape := ⟨1, ![5000]⟩
abbrev S300000x1 : Shape := ⟨2, ![300000, 1]⟩
abbrev S5000x1 : Shape := ⟨2, ![5000, 1]⟩
abbrev S150000x1 : Shape := ⟨2, ![150000, 1]⟩
abbrev S1x6x128x128 : Shape := ⟨4, ![1, 6, 128, 128]⟩
abbrev S6x128x128 : Shape := ⟨3, ![6, 128, 128]⟩
abbrev S1x6x128 : Shape := ⟨3, ![1, 6, 128]⟩
abbrev S500000x128 : Shape := ⟨2, ![500000, 128]⟩
abbrev S300000x128 : Shape := ⟨2, ![300000, 128]⟩
abbrev S150000x128 : Shape := ⟨2, ![150000, 128]⟩
abbrev S1x128x128 : Shape := ⟨3, ![1, 128, 128]⟩
abbrev S128x128 : Shape := ⟨2, ![128, 128]⟩
abbrev S1x1x128 : Shape := ⟨3, ![1, 1, 128]⟩
abbrev S2000x128 : Shape := ⟨2, ![2000, 128]⟩
abbrev S2000x1 : Shape := ⟨2, ![2000, 1]⟩
abbrev S2000 : Shape := ⟨1, ![2000]⟩
abbrev S1000x128 : Shape := ⟨2, ![1000, 128]⟩
abbrev S1000x1 : Shape := ⟨2, ![1000, 1]⟩
abbrev S1000 : Shape := ⟨1, ![1000]⟩

abbrev nBuf : Space → Nat
  | .hbm => 415
  | .vmem => 120
  | .smem => 0
  | _ => 0

abbrev hbmTy0_0 (i : Nat) : BufTy := match i % 128 with
  | 0 => ⟨S100000x6, .f32⟩
  | 1 => ⟨S50000x4, .f32⟩
  | 2 => ⟨S5000x3, .f32⟩
  | 3 => ⟨S2x500000, .i32⟩
  | 4 => ⟨S2x500000, .i32⟩
  | 5 => ⟨S2x300000, .i32⟩
  | 6 => ⟨S2x300000, .i32⟩
  | 7 => ⟨S2x150000, .i32⟩
  | 8 => ⟨S2x150000, .i32⟩
  | 9 => ⟨S128x6, .f32⟩
  | 10 => ⟨S128, .f32⟩
  | 11 => ⟨S128x4, .f32⟩
  | 12 => ⟨S128, .f32⟩
  | 13 => ⟨S128x3, .f32⟩
  | 14 => ⟨S128, .f32⟩
  | 15 => ⟨S2x6x128x128, .f32⟩
  | 16 => ⟨S2x6x128, .f32⟩
  | 17 => ⟨S2x6x128x128, .f32⟩
  | 18 => ⟨S2x3x128, .f32⟩
  | 19 => ⟨S2x3x128, .f32⟩
  | 20 => ⟨S6x128, .f32⟩
  | 21 => ⟨S100000x128, .f32⟩
  | 22 => ⟨S1x128, .f32⟩
  | 23 => ⟨S100000x128, .f32⟩
  | 24 => ⟨S100000x128, .f32⟩
  | 25 => ⟨S4x128, .f32⟩
  | 26 => ⟨S50000x128, .f32⟩
  | 27 => ⟨S1x128, .f32⟩
  | 28 => ⟨S50000x128, .f32⟩
  | 29 => ⟨S50000x128, .f32⟩
  | 30 => ⟨S3x128, .f32⟩
  | 31 => ⟨S5000x128, .f32⟩
  | 32 => ⟨S1x128, .f32⟩
  | 33 => ⟨S5000x128, .f32⟩
  | 34 => ⟨S5000x128, .f32⟩
  | 35 => ⟨S1x500000, .i32⟩
  | 36 => ⟨S500000, .i32⟩
  | 37 => ⟨S1x500000, .i32⟩
  | 38 => ⟨S500000, .i32⟩
  | 39 => ⟨S1x500000, .i32⟩
  | 40 => ⟨S500000, .i32⟩
  | 41 => ⟨S1x500000, .i32⟩
  | 42 => ⟨S500000, .i32⟩
  | 43 => ⟨S1x300000, .i32⟩
  | 44 => ⟨S300000, .i32⟩
  | 45 => ⟨S1x300000, .i32⟩
  | 46 => ⟨S300000, .i32⟩
  | 47 => ⟨S1x300000, .i32⟩
  | 48 => ⟨S300000, .i32⟩
  | 49 => ⟨S1x300000, .i32⟩
  | 50 => ⟨S300000, .i32⟩
  | 51 => ⟨S1x150000, .i32⟩
  | 52 => ⟨S150000, .i32⟩
  | 53 => ⟨S1x150000, .i32⟩
  | 54 => ⟨S150000, .i32⟩
  | 55 => ⟨S1x150000, .i32⟩
  | 56 => ⟨S150000, .i32⟩
  | 57 => ⟨S1x150000, .i32⟩
  | 58 => ⟨S150000, .i32⟩
  | 59 => ⟨S_, .f32⟩
  | 60 => ⟨S500000, .f32⟩
  | 61 => ⟨S_, .f32⟩
  | 62 => ⟨S50000, .f32⟩
  | 63 => ⟨S500000x1, .i32⟩
  | 64 => ⟨S50000, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S_, .f32⟩
  | 73 => ⟨S500000, .f32⟩
  | 74 => ⟨S_, .f32⟩
  | 75 => ⟨S100000, .f32⟩
  | 76 => ⟨S500000x1, .i32⟩
  | 77 => ⟨S100000, .f32⟩
  | 78 => ⟨S_, .f32⟩
  | 79 => ⟨S100000, .f32⟩
  | 80 => ⟨S100000, .f32⟩
  | 81 => ⟨S_, .f32⟩
  | 82 => ⟨S100000, .f32⟩
  | 83 => ⟨S100000, .f32⟩
  | 84 => ⟨S100000x1, .f32⟩
  | 85 => ⟨S_, .f32⟩
  | 86 => ⟨S300000, .f32⟩
  | 87 => ⟨S_, .f32⟩
  | 88 => ⟨S5000, .f32⟩
  | 89 => ⟨S300000x1, .i32⟩
  | 90 => ⟨S5000, .f32⟩
  | 91 => ⟨S_, .f32⟩
  | 92 => ⟨S5000, .f32⟩
  | 93 => ⟨S5000, .f32⟩
  | 94 => ⟨S_, .f32⟩
  | 95 => ⟨S5000, .f32⟩
  | 96 => ⟨S5000, .f32⟩
  | 97 => ⟨S5000x1, .f32⟩
  | 98 => ⟨S_, .f32⟩
  | 99 => ⟨S300000, .f32⟩
  | 100 => ⟨S_, .f32⟩
  | 101 => ⟨S100000, .f32⟩
  | 102 => ⟨S300000x1, .i32⟩
  | 103 => ⟨S100000, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .f32⟩
  | 110 => ⟨S100000x1, .f32⟩
  | 111 => ⟨S_, .f32⟩
  | 112 => ⟨S150000, .f32⟩
  | 113 => ⟨S_, .f32⟩
  | 114 => ⟨S5000, .f32⟩
  | 115 => ⟨S150000x1, .i32⟩
  | 116 => ⟨S5000, .f32⟩
  | 117 => ⟨S_, .f32⟩
  | 118 => ⟨S5000, .f32⟩
  | 119 => ⟨S5000, .f32⟩
  | 120 => ⟨S_, .f32⟩
  | 121 => ⟨S5000, .f32⟩
  | 122 => ⟨S5000, .f32⟩
  | 123 => ⟨S5000x1, .f32⟩
  | 124 => ⟨S_, .f32⟩
  | 125 => ⟨S150000, .f32⟩
  | 126 => ⟨S_, .f32⟩
  | 127 => ⟨S50000, .f32⟩
  | _ => ⟨S100000x6, .f32⟩

abbrev hbmTy0_1 (i : Nat) : BufTy := match i % 128 with
  | 0 => ⟨S150000x1, .i32⟩
  | 1 => ⟨S50000, .f32⟩
  | 2 => ⟨S_, .f32⟩
  | 3 => ⟨S50000, .f32⟩
  | 4 => ⟨S50000, .f32⟩
  | 5 => ⟨S_, .f32⟩
  | 6 => ⟨S50000, .f32⟩
  | 7 => ⟨S50000, .f32⟩
  | 8 => ⟨S50000x1, .f32⟩
  | 9 => ⟨S1x6x128x128, .f32⟩
  | 10 => ⟨S6x128x128, .f32⟩
  | 11 => ⟨S1x6x128, .f32⟩
  | 12 => ⟨S6x128, .f32⟩
  | 13 => ⟨S1x6x128x128, .f32⟩
  | 14 => ⟨S6x128x128, .f32⟩
  | 15 => ⟨S6x128x128, .f32⟩
  | 16 => ⟨S6x128x128, .bf16⟩
  | 17 => ⟨S6x128x128, .f32⟩
  | 18 => ⟨S6x128x128, .bf16⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x128, .f32⟩
  | 28 => ⟨S_, .f32⟩
  | 29 => ⟨S50000x128, .f32⟩
  | 30 => ⟨S500000x1, .i32⟩
  | 31 => ⟨S50000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S100000x128, .f32⟩
  | 43 => ⟨S500000x1, .i32⟩
  | 44 => ⟨S100000x128, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000x128, .f32⟩
  | 54 => ⟨S_, .f32⟩
  | 55 => ⟨S5000x128, .f32⟩
  | 56 => ⟨S300000x1, .i32⟩
  | 57 => ⟨S5000x128, .f32⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x128, .f32⟩
  | 67 => ⟨S_, .f32⟩
  | 68 => ⟨S100000x128, .f32⟩
  | 69 => ⟨S300000x1, .i32⟩
  | 70 => ⟨S100000x128, .f32⟩
  | 71 => ⟨S_, .i32⟩
  | 72 => ⟨S150000, .i32⟩
  | 73 => ⟨S150000, .i1⟩
  | 74 => ⟨S_, .i32⟩
  | 75 => ⟨S150000, .i32⟩
  | 76 => ⟨S150000, .i32⟩
  | 77 => ⟨S150000, .i32⟩
  | 78 => ⟨S150000x1, .i32⟩
  | 79 => ⟨S150000x128, .f32⟩
  | 80 => ⟨S_, .f32⟩
  | 81 => ⟨S5000x128, .f32⟩
  | 82 => ⟨S150000x1, .i32⟩
  | 83 => ⟨S5000x128, .f32⟩
  | 84 => ⟨S_, .i32⟩
  | 85 => ⟨S150000, .i32⟩
  | 86 => ⟨S150000, .i1⟩
  | 87 => ⟨S_, .i32⟩
  | 88 => ⟨S150000, .i32⟩
  | 89 => ⟨S150000, .i32⟩
  | 90 => ⟨S150000, .i32⟩
  | 91 => ⟨S150000x1, .i32⟩
  | 92 => ⟨S150000x128, .f32⟩
  | 93 => ⟨S_, .f32⟩
  | 94 => ⟨S50000x128, .f32⟩
  | 95 => ⟨S150000x1, .i32⟩
  | 96 => ⟨S50000x128, .f32⟩
  | 97 => ⟨S1x128x128, .bf16⟩
  | 98 => ⟨S128x128, .bf16⟩
  | 99 => ⟨S1x128x128, .bf16⟩
  | 100 => ⟨S128x128, .bf16⟩
  | 101 => ⟨S1x128x128, .bf16⟩
  | 102 => ⟨S128x128, .bf16⟩
  | 103 => ⟨S1x128x128, .bf16⟩
  | 104 => ⟨S128x128, .bf16⟩
  | 105 => ⟨S1x128, .f32⟩
  | 106 => ⟨S128, .f32⟩
  | 107 => ⟨S1x128, .f32⟩
  | 108 => ⟨S128, .f32⟩
  | 109 => ⟨S1x1x128, .f32⟩
  | 110 => ⟨S128, .f32⟩
  | 111 => ⟨S1x1x128, .f32⟩
  | 112 => ⟨S128, .f32⟩
  | 113 => ⟨S100000x128, .f32⟩
  | 114 => ⟨S1x128x128, .bf16⟩
  | 115 => ⟨S128x128, .bf16⟩
  | 116 => ⟨S1x128x128, .bf16⟩
  | 117 => ⟨S128x128, .bf16⟩
  | 118 => ⟨S1x128x128, .bf16⟩
  | 119 => ⟨S128x128, .bf16⟩
  | 120 => ⟨S1x128x128, .bf16⟩
  | 121 => ⟨S128x128, .bf16⟩
  | 122 => ⟨S1x128, .f32⟩
  | 123 => ⟨S128, .f32⟩
  | 124 => ⟨S1x128, .f32⟩
  | 125 => ⟨S128, .f32⟩
  | 126 => ⟨S1x1x128, .f32⟩
  | 127 => ⟨S128, .f32⟩
  | _ => ⟨S100000x6, .f32⟩

abbrev hbmTy0_2 (i : Nat) : BufTy := match i % 128 with
  | 0 => ⟨S1x1x128, .f32⟩
  | 1 => ⟨S128, .f32⟩
  | 2 => ⟨S50000x128, .f32⟩
  | 3 => ⟨S1x128x128, .bf16⟩
  | 4 => ⟨S128x128, .bf16⟩
  | 5 => ⟨S1x128x128, .bf16⟩
  | 6 => ⟨S128x128, .bf16⟩
  | 7 => ⟨S1x128x128, .bf16⟩
  | 8 => ⟨S128x128, .bf16⟩
  | 9 => ⟨S1x128x128, .bf16⟩
  | 10 => ⟨S128x128, .bf16⟩
  | 11 => ⟨S1x128, .f32⟩
  | 12 => ⟨S128, .f32⟩
  | 13 => ⟨S1x128, .f32⟩
  | 14 => ⟨S128, .f32⟩
  | 15 => ⟨S1x1x128, .f32⟩
  | 16 => ⟨S128, .f32⟩
  | 17 => ⟨S1x1x128, .f32⟩
  | 18 => ⟨S128, .f32⟩
  | 19 => ⟨S5000x128, .f32⟩
  | 20 => ⟨S1x6x128x128, .f32⟩
  | 21 => ⟨S6x128x128, .f32⟩
  | 22 => ⟨S1x6x128, .f32⟩
  | 23 => ⟨S6x128, .f32⟩
  | 24 => ⟨S1x6x128x128, .f32⟩
  | 25 => ⟨S6x128x128, .f32⟩
  | 26 => ⟨S6x128x128, .f32⟩
  | 27 => ⟨S6x128x128, .bf16⟩
  | 28 => ⟨S6x128x128, .f32⟩
  | 29 => ⟨S6x128x128, .bf16⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .f32⟩
  | 39 => ⟨S_, .f32⟩
  | 40 => ⟨S50000x128, .f32⟩
  | 41 => ⟨S500000x1, .i32⟩
  | 42 => ⟨S50000x128, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S_, .f32⟩
  | 53 => ⟨S100000x128, .f32⟩
  | 54 => ⟨S500000x1, .i32⟩
  | 55 => ⟨S100000x128, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x128, .f32⟩
  | 65 => ⟨S_, .f32⟩
  | 66 => ⟨S5000x128, .f32⟩
  | 67 => ⟨S300000x1, .i32⟩
  | 68 => ⟨S5000x128, .f32⟩
  | 69 => ⟨S_, .i32⟩
  | 70 => ⟨S300000, .i32⟩
  | 71 => ⟨S300000, .i1⟩
  | 72 => ⟨S_, .i32⟩
  | 73 => ⟨S300000, .i32⟩
  | 74 => ⟨S300000, .i32⟩
  | 75 => ⟨S300000, .i32⟩
  | 76 => ⟨S300000x1, .i32⟩
  | 77 => ⟨S300000x128, .f32⟩
  | 78 => ⟨S_, .f32⟩
  | 79 => ⟨S100000x128, .f32⟩
  | 80 => ⟨S300000x1, .i32⟩
  | 81 => ⟨S100000x128, .f32⟩
  | 82 => ⟨S_, .i32⟩
  | 83 => ⟨S150000, .i32⟩
  | 84 => ⟨S150000, .i1⟩
  | 85 => ⟨S_, .i32⟩
  | 86 => ⟨S150000, .i32⟩
  | 87 => ⟨S150000, .i32⟩
  | 88 => ⟨S150000, .i32⟩
  | 89 => ⟨S150000x1, .i32⟩
  | 90 => ⟨S150000x128, .f32⟩
  | 91 => ⟨S_, .f32⟩
  | 92 => ⟨S5000x128, .f32⟩
  | 93 => ⟨S150000x1, .i32⟩
  | 94 => ⟨S5000x128, .f32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x128, .f32⟩
  | 104 => ⟨S_, .f32⟩
  | 105 => ⟨S50000x128, .f32⟩
  | 106 => ⟨S150000x1, .i32⟩
  | 107 => ⟨S50000x128, .f32⟩
  | 108 => ⟨S1x128x128, .bf16⟩
  | 109 => ⟨S128x128, .bf16⟩
  | 110 => ⟨S1x128x128, .bf16⟩
  | 111 => ⟨S128x128, .bf16⟩
  | 112 => ⟨S1x128x128, .bf16⟩
  | 113 => ⟨S128x128, .bf16⟩
  | 114 => ⟨S1x128x128, .bf16⟩
  | 115 => ⟨S128x128, .bf16⟩
  | 116 => ⟨S1x128, .f32⟩
  | 117 => ⟨S128, .f32⟩
  | 118 => ⟨S1x128, .f32⟩
  | 119 => ⟨S128, .f32⟩
  | 120 => ⟨S1x1x128, .f32⟩
  | 121 => ⟨S128, .f32⟩
  | 122 => ⟨S1x1x128, .f32⟩
  | 123 => ⟨S128, .f32⟩
  | 124 => ⟨S100000x128, .f32⟩
  | 125 => ⟨S1x128x128, .bf16⟩
  | 126 => ⟨S128x128, .bf16⟩
  | 127 => ⟨S1x128x128, .bf16⟩
  | _ => ⟨S100000x6, .f32⟩

abbrev hbmTy0_3 (i : Nat) : BufTy := match i % 128 with
  | 0 => ⟨S128x128, .bf16⟩
  | 1 => ⟨S1x128x128, .bf16⟩
  | 2 => ⟨S128x128, .bf16⟩
  | 3 => ⟨S1x128x128, .bf16⟩
  | 4 => ⟨S128x128, .bf16⟩
  | 5 => ⟨S1x128, .f32⟩
  | 6 => ⟨S128, .f32⟩
  | 7 => ⟨S1x128, .f32⟩
  | 8 => ⟨S128, .f32⟩
  | 9 => ⟨S1x1x128, .f32⟩
  | 10 => ⟨S128, .f32⟩
  | 11 => ⟨S1x1x128, .f32⟩
  | 12 => ⟨S128, .f32⟩
  | 13 => ⟨S50000x128, .f32⟩
  | 14 => ⟨S1x128x128, .bf16⟩
  | 15 => ⟨S128x128, .bf16⟩
  | 16 => ⟨S1x128x128, .bf16⟩
  | 17 => ⟨S128x128, .bf16⟩
  | 18 => ⟨S1x128x128, .bf16⟩
  | 19 => ⟨S128x128, .bf16⟩
  | 20 => ⟨S1x128x128, .bf16⟩
  | 21 => ⟨S128x128, .bf16⟩
  | 22 => ⟨S1x128, .f32⟩
  | 23 => ⟨S128, .f32⟩
  | 24 => ⟨S1x128, .f32⟩
  | 25 => ⟨S128, .f32⟩
  | 26 => ⟨S1x1x128, .f32⟩
  | 27 => ⟨S128, .f32⟩
  | 28 => ⟨S1x1x128, .f32⟩
  | 29 => ⟨S128, .f32⟩
  | 30 => ⟨S5000x128, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | _ => ⟨S100000x6, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S2000x128, .f32⟩
  | .local _ .vmem, ⟨29, _⟩ => ⟨S2000x128, .f32⟩
  | .local _ .vmem, ⟨30, _⟩ => ⟨S128x128, .bf16⟩
  | .local _ .vmem, ⟨31, _⟩ => ⟨S128x128, .bf16⟩
  | .local _ .vmem, ⟨32, _⟩ => ⟨S128x128, .bf16⟩
  | .local _ .vmem, ⟨33, _⟩ => ⟨S128x128, .bf16⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S1000x128, .f32⟩
  | .local _ .vmem, ⟨41, _⟩ => ⟨S1000x128, .f32⟩
  | .local _ .vmem, ⟨42, _⟩ => ⟨S1000x1, .f32⟩
  | .local _ .vmem, ⟨43, _⟩ => ⟨S1000x1, .f32⟩
  | .local _ .vmem, ⟨44, _⟩ => ⟨S1000x128, .f32⟩
  | .local _ .vmem, ⟨45, _⟩ => ⟨S1000x128, .f32⟩
  | .local _ .vmem, ⟨46, _⟩ => ⟨S1000x1, .f32⟩
  | .local _ .vmem, ⟨47, _⟩ => ⟨S1000x1, .f32⟩
  | .local _ .vmem, ⟨48, _⟩ => ⟨S1000x128, .f32⟩
  | .local _ .vmem, ⟨49, _⟩ => ⟨S1000x128, .f32⟩
  | .local _ .vmem, ⟨50, _⟩ => ⟨S128x128, .bf16⟩
  | .local _ .vmem, ⟨51, _⟩ => ⟨S128x128, .bf16⟩
  | .local _ .vmem, ⟨52, _⟩ => ⟨S128x128, .bf16⟩
  | .local _ .vmem, ⟨53, _⟩ => ⟨S128x128, .bf16⟩
  | .local _ .vmem, ⟨54, _⟩ => ⟨S128, .f32⟩
  | .local _ .vmem, ⟨55, _⟩ => ⟨S128, .f32⟩
  | .local _ .vmem, ⟨56, _⟩ => ⟨S128, .f32⟩
  | .local _ .vmem, ⟨57, _⟩ => ⟨S128, .f32⟩
  | .local _ .vmem, ⟨58, _⟩ => ⟨S1000x128, .f32⟩
  | .local _ .vmem, ⟨59, _⟩ => ⟨S1000x128, .f32⟩
  | .local _ .vmem, ⟨60, _⟩ => ⟨S2000x128, .f32⟩
  | .local _ .vmem, ⟨61, _⟩ => ⟨S2000x128, .f32⟩
  | .local _ .vmem, ⟨62, _⟩ => ⟨S2000x1, .f32⟩
  | .local _ .vmem, ⟨63, _⟩ => ⟨S2000x1, .f32⟩
  | .local _ .vmem, ⟨64, _⟩ => ⟨S2000x128, .f32⟩
  | .local _ .vmem, ⟨65, _⟩ => ⟨S2000x128, .f32⟩
  | .local _ .vmem, ⟨66, _⟩ => ⟨S2000x1, .f32⟩
  | .local _ .vmem, ⟨67, _⟩ => ⟨S2000x1, .f32⟩
  | .local _ .vmem, ⟨68, _⟩ => ⟨S2000x128, .f32⟩
  | .local _ .vmem, ⟨69, _⟩ => ⟨S2000x128, .f32⟩
  | .local _ .vmem, ⟨70, _⟩ => ⟨S128x128, .bf16⟩
  | .local _ .vmem, ⟨71, _⟩ => ⟨S128x128, .bf16⟩
  | .local _ .vmem, ⟨72, _⟩ => ⟨S128x128, .bf16⟩
  | .local _ .vmem, ⟨73, _⟩ => ⟨S128x128, .bf16⟩
  | .local _ .vmem, ⟨74, _⟩ => ⟨S128, .f32⟩
  | .local _ .vmem, ⟨75, _⟩ => ⟨S128, .f32⟩
  | .local _ .vmem, ⟨76, _⟩ => ⟨S128, .f32⟩
  | .local _ .vmem, ⟨77, _⟩ => ⟨S128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x1, .f32⟩
  | .local _ .vmem, ⟨83, _⟩ => ⟨S2000x1, .f32⟩
  | .local _ .vmem, ⟨84, _⟩ => ⟨S2000x128, .f32⟩
  | .local _ .vmem, ⟨85, _⟩ => ⟨S2000x128, .f32⟩
  | .local _ .vmem, ⟨86, _⟩ => ⟨S2000x1, .f32⟩
  | .local _ .vmem, ⟨87, _⟩ => ⟨S2000x1, .f32⟩
  | .local _ .vmem, ⟨88, _⟩ => ⟨S2000x128, .f32⟩
  | .local _ .vmem, ⟨89, _⟩ => ⟨S2000x128, .f32⟩
  | .local _ .vmem, ⟨90, _⟩ => ⟨S128x128, .bf16⟩
  | .local _ .vmem, ⟨91, _⟩ => ⟨S128x128, .bf16⟩
  | .local _ .vmem, ⟨92, _⟩ => ⟨S128x128, .bf16⟩
  | .local _ .vmem, ⟨93, _⟩ => ⟨S128x128, .bf16⟩
  | .local _ .vmem, ⟨94, _⟩ => ⟨S128, .f32⟩
  | .local _ .vmem, ⟨95, _⟩ => ⟨S128, .f32⟩
  | .local _ .vmem, ⟨96, _⟩ => ⟨S128, .f32⟩
  | .local _ .vmem, ⟨97, _⟩ => ⟨S128, .f32⟩
  | .local _ .vmem, ⟨98, _⟩ => ⟨S2000x128, .f32⟩
  | .local _ .vmem, ⟨99, _⟩ => ⟨S2000x128, .f32⟩
  | .local _ .vmem, ⟨100, _⟩ => ⟨S1000x128, .f32⟩
  | .local _ .vmem, ⟨101, _⟩ => ⟨S1000x128, .f32⟩
  | .local _ .vmem, ⟨102, _⟩ => ⟨S1000x1, .f32⟩
  | .local _ .vmem, ⟨103, _⟩ => ⟨S1000x1, .f32⟩
  | .local _ .vmem, ⟨104, _⟩ => ⟨S1000x128, .f32⟩
  | .local _ .vmem, ⟨105, _⟩ => ⟨S1000x128, .f32⟩
  | .local _ .vmem, ⟨106, _⟩ => ⟨S1000x1, .f32⟩
  | .local _ .vmem, ⟨107, _⟩ => ⟨S1000x1, .f32⟩
  | .local _ .vmem, ⟨108, _⟩ => ⟨S1000x128, .f32⟩
  | .local _ .vmem, ⟨109, _⟩ => ⟨S1000x128, .f32⟩
  | .local _ .vmem, ⟨110, _⟩ => ⟨S128x128, .bf16⟩
  | .local _ .vmem, ⟨111, _⟩ => ⟨S128x128, .bf16⟩
  | .local _ .vmem, ⟨112, _⟩ => ⟨S128x128, .bf16⟩
  | .local _ .vmem, ⟨113, _⟩ => ⟨S128x128, .bf16⟩
  | .local _ .vmem, ⟨114, _⟩ => ⟨S128, .f32⟩
  | .local _ .vmem, ⟨115, _⟩ => ⟨S128, .f32⟩
  | .local _ .vmem, ⟨116, _⟩ => ⟨S128, .f32⟩
  | .local _ .vmem, ⟨117, _⟩ => ⟨S128, .f32⟩
  | .local _ .vmem, ⟨118, _⟩ => ⟨S1000x128, .f32⟩
  | .local _ .vmem, ⟨119, _⟩ => ⟨S1000x128, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_cst_0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_cst_20 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_21 : Ref sig .tc := ⟨.hbm, 130, rfl⟩
abbrev main_v88 : Ref sig .tc := ⟨.hbm, 131, rfl⟩
abbrev main_v89 : Ref sig .tc := ⟨.hbm, 132, rfl⟩
abbrev main_cst_22 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c : Ref sig .tc := ⟨.hbm, 147, rfl⟩
abbrev main_v103 : Ref sig .tc := ⟨.hbm, 148, rfl⟩
abbrev main_v104 : Ref sig .tc := ⟨.hbm, 149, rfl⟩
abbrev main_c_23 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_24 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_25 : Ref sig .tc := ⟨.hbm, 160, rfl⟩
abbrev main_v113 : Ref sig .tc := ⟨.hbm, 161, rfl⟩
abbrev main_v114 : Ref sig .tc := ⟨.hbm, 162, rfl⟩
abbrev main_c_26 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_c_28 : Ref sig .tc := ⟨.hbm, 173, rfl⟩
abbrev main_v123 : Ref sig .tc := ⟨.hbm, 174, rfl⟩
abbrev main_v124 : Ref sig .tc := ⟨.hbm, 175, rfl⟩
abbrev main_c_29 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_30 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_c_31 : Ref sig .tc := ⟨.hbm, 186, rfl⟩
abbrev main_v133 : Ref sig .tc := ⟨.hbm, 187, rfl⟩
abbrev main_v134 : Ref sig .tc := ⟨.hbm, 188, rfl⟩
abbrev main_c_32 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_33 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_c_34 : Ref sig .tc := ⟨.hbm, 199, rfl⟩
abbrev main_v143 : Ref sig .tc := ⟨.hbm, 200, rfl⟩
abbrev main_v144 : Ref sig .tc := ⟨.hbm, 201, rfl⟩
abbrev main_c_35 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_36 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c_37 : Ref sig .tc := ⟨.hbm, 212, rfl⟩
abbrev main_v153 : Ref sig .tc := ⟨.hbm, 213, rfl⟩
abbrev main_v154 : Ref sig .tc := ⟨.hbm, 214, rfl⟩
abbrev main_c_38 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_39 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_c_40 : Ref sig .tc := ⟨.hbm, 286, rfl⟩
abbrev main_v224 : Ref sig .tc := ⟨.hbm, 287, rfl⟩
abbrev main_v225 : Ref sig .tc := ⟨.hbm, 288, rfl⟩
abbrev main_c_41 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_42 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_c_43 : Ref sig .tc := ⟨.hbm, 299, rfl⟩
abbrev main_v234 : Ref sig .tc := ⟨.hbm, 300, rfl⟩
abbrev main_v235 : Ref sig .tc := ⟨.hbm, 301, rfl⟩
abbrev main_c_44 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_45 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_c_46 : Ref sig .tc := ⟨.hbm, 312, rfl⟩
abbrev main_v244 : Ref sig .tc := ⟨.hbm, 313, rfl⟩
abbrev main_v245 : Ref sig .tc := ⟨.hbm, 314, rfl⟩
abbrev main_c_47 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_cst_48 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_c_49 : Ref sig .tc := ⟨.hbm, 325, rfl⟩
abbrev main_v254 : Ref sig .tc := ⟨.hbm, 326, rfl⟩
abbrev main_v255 : Ref sig .tc := ⟨.hbm, 327, rfl⟩
abbrev main_c_50 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_cst_51 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_c_52 : Ref sig .tc := ⟨.hbm, 338, rfl⟩
abbrev main_v264 : Ref sig .tc := ⟨.hbm, 339, rfl⟩
abbrev main_v265 : Ref sig .tc := ⟨.hbm, 340, rfl⟩
abbrev main_c_53 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_54 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_c_55 : Ref sig .tc := ⟨.hbm, 351, rfl⟩
abbrev main_v274 : Ref sig .tc := ⟨.hbm, 352, rfl⟩
abbrev main_v275 : Ref sig .tc := ⟨.hbm, 353, rfl⟩
abbrev main_c_56 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_cst_57 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg12_0 : Ref sig .tc := ⟨.vmem, 37, rfl⟩
abbrev cc1_stg13_0 : Ref sig .tc := ⟨.vmem, 38, rfl⟩
abbrev cc1_stg13_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc2_stg3_0 : Ref sig .tc := ⟨.vmem, 46, rfl⟩
abbrev cc2_stg3_1 : Ref sig .tc := ⟨.vmem, 47, rfl⟩
abbrev cc2_stg4_0 : Ref sig .tc := ⟨.vmem, 48, rfl⟩
abbrev cc2_stg4_1 : Ref sig .tc := ⟨.vmem, 49, rfl⟩
abbrev cc2_stg5_0 : Ref sig .tc := ⟨.vmem, 50, rfl⟩
abbrev cc2_stg6_0 : Ref sig .tc := ⟨.vmem, 51, rfl⟩
abbrev cc2_stg7_0 : Ref sig .tc := ⟨.vmem, 52, rfl⟩
abbrev cc2_stg8_0 : Ref sig .tc := ⟨.vmem, 53, rfl⟩
abbrev cc2_stg9_0 : Ref sig .tc := ⟨.vmem, 54, rfl⟩
abbrev cc2_stg10_0 : Ref sig .tc := ⟨.vmem, 55, rfl⟩
abbrev cc2_stg11_0 : Ref sig .tc := ⟨.vmem, 56, rfl⟩
abbrev cc2_stg12_0 : Ref sig .tc := ⟨.vmem, 57, rfl⟩
abbrev cc2_stg13_0 : Ref sig .tc := ⟨.vmem, 58, rfl⟩
abbrev cc2_stg13_1 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg1_1 : Ref sig .tc := ⟨.vmem, 63, rfl⟩
abbrev cc3_stg2_0 : Ref sig .tc := ⟨.vmem, 64, rfl⟩
abbrev cc3_stg2_1 : Ref sig .tc := ⟨.vmem, 65, rfl⟩
abbrev cc3_stg3_0 : Ref sig .tc := ⟨.vmem, 66, rfl⟩
abbrev cc3_stg3_1 : Ref sig .tc := ⟨.vmem, 67, rfl⟩
abbrev cc3_stg4_0 : Ref sig .tc := ⟨.vmem, 68, rfl⟩
abbrev cc3_stg4_1 : Ref sig .tc := ⟨.vmem, 69, rfl⟩
abbrev cc3_stg5_0 : Ref sig .tc := ⟨.vmem, 70, rfl⟩
abbrev cc3_stg6_0 : Ref sig .tc := ⟨.vmem, 71, rfl⟩
abbrev cc3_stg7_0 : Ref sig .tc := ⟨.vmem, 72, rfl⟩
abbrev cc3_stg8_0 : Ref sig .tc := ⟨.vmem, 73, rfl⟩
abbrev cc3_stg9_0 : Ref sig .tc := ⟨.vmem, 74, rfl⟩
abbrev cc3_stg10_0 : Ref sig .tc := ⟨.vmem, 75, rfl⟩
abbrev cc3_stg11_0 : Ref sig .tc := ⟨.vmem, 76, rfl⟩
abbrev cc3_stg12_0 : Ref sig .tc := ⟨.vmem, 77, rfl⟩
abbrev cc3_stg13_0 : Ref sig .tc := ⟨.vmem, 78, rfl⟩
abbrev cc3_stg13_1 : Ref sig .tc := ⟨.vmem, 79, rfl⟩
abbrev cc4_stg0_0 : Ref sig .tc := ⟨.vmem, 80, rfl⟩
abbrev cc4_stg0_1 : Ref sig .tc := ⟨.vmem, 81, rfl⟩
abbrev cc4_stg1_0 : Ref sig .tc := ⟨.vmem, 82, rfl⟩
abbrev cc4_stg1_1 : Ref sig .tc := ⟨.vmem, 83, rfl⟩
abbrev cc4_stg2_0 : Ref sig .tc := ⟨.vmem, 84, rfl⟩
abbrev cc4_stg2_1 : Ref sig .tc := ⟨.vmem, 85, rfl⟩
abbrev cc4_stg3_0 : Ref sig .tc := ⟨.vmem, 86, rfl⟩
abbrev cc4_stg3_1 : Ref sig .tc := ⟨.vmem, 87, rfl⟩
abbrev cc4_stg4_0 : Ref sig .tc := ⟨.vmem, 88, rfl⟩
abbrev cc4_stg4_1 : Ref sig .tc := ⟨.vmem, 89, rfl⟩
abbrev cc4_stg5_0 : Ref sig .tc := ⟨.vmem, 90, rfl⟩
abbrev cc4_stg6_0 : Ref sig .tc := ⟨.vmem, 91, rfl⟩
abbrev cc4_stg7_0 : Ref sig .tc := ⟨.vmem, 92, rfl⟩
abbrev cc4_stg8_0 : Ref sig .tc := ⟨.vmem, 93, rfl⟩
abbrev cc4_stg9_0 : Ref sig .tc := ⟨.vmem, 94, rfl⟩
abbrev cc4_stg10_0 : Ref sig .tc := ⟨.vmem, 95, rfl⟩
abbrev cc4_stg11_0 : Ref sig .tc := ⟨.vmem, 96, rfl⟩
abbrev cc4_stg12_0 : Ref sig .tc := ⟨.vmem, 97, rfl⟩
abbrev cc4_stg13_0 : Ref sig .tc := ⟨.vmem, 98, rfl⟩
abbrev cc4_stg13_1 : Ref sig .tc := ⟨.vmem, 99, rfl⟩
abbrev cc5_stg0_0 : Ref sig .tc := ⟨.vmem, 100, rfl⟩
abbrev cc5_stg0_1 : Ref sig .tc := ⟨.vmem, 101, rfl⟩
abbrev cc5_stg1_0 : Ref sig .tc := ⟨.vmem, 102, rfl⟩
abbrev cc5_stg1_1 : Ref sig .tc := ⟨.vmem, 103, rfl⟩
abbrev cc5_stg2_0 : Ref sig .tc := ⟨.vmem, 104, rfl⟩
abbrev cc5_stg2_1 : Ref sig .tc := ⟨.vmem, 105, rfl⟩
abbrev cc5_stg3_0 : Ref sig .tc := ⟨.vmem, 106, rfl⟩
abbrev cc5_stg3_1 : Ref sig .tc := ⟨.vmem, 107, rfl⟩
abbrev cc5_stg4_0 : Ref sig .tc := ⟨.vmem, 108, rfl⟩
abbrev cc5_stg4_1 : Ref sig .tc := ⟨.vmem, 109, rfl⟩
abbrev cc5_stg5_0 : Ref sig .tc := ⟨.vmem, 110, rfl⟩
abbrev cc5_stg6_0 : Ref sig .tc := ⟨.vmem, 111, rfl⟩
abbrev cc5_stg7_0 : Ref sig .tc := ⟨.vmem, 112, rfl⟩
abbrev cc5_stg8_0 : Ref sig .tc := ⟨.vmem, 113, rfl⟩
abbrev cc5_stg9_0 : Ref sig .tc := ⟨.vmem, 114, rfl⟩
abbrev cc5_stg10_0 : Ref sig .tc := ⟨.vmem, 115, rfl⟩
abbrev cc5_stg11_0 : Ref sig .tc := ⟨.vmem, 116, rfl⟩
abbrev cc5_stg12_0 : Ref sig .tc := ⟨.vmem, 117, rfl⟩
abbrev cc5_stg13_0 : Ref sig .tc := ⟨.vmem, 118, rfl⟩
abbrev cc5_stg13_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36
abbrev cc1_sem12_0 : DmaSem sig := 37
abbrev cc1_sem13_0 : DmaSem sig := 38
abbrev cc1_sem13_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc2_sem5_0 : DmaSem sig := 50
abbrev cc2_sem6_0 : DmaSem sig := 51
abbrev cc2_sem7_0 : DmaSem sig := 52
abbrev cc2_sem8_0 : DmaSem sig := 53
abbrev cc2_sem9_0 : DmaSem sig := 54
abbrev cc2_sem10_0 : DmaSem sig := 55
abbrev cc2_sem11_0 : DmaSem sig := 56
abbrev cc2_sem12_0 : DmaSem sig := 57
abbrev cc2_sem13_0 : DmaSem sig := 58
abbrev cc2_sem13_1 : DmaSem sig := 59
abbrev cc3_sem0_0 : DmaSem sig := 60
abbrev cc3_sem0_1 : DmaSem sig := 61
abbrev cc3_sem1_0 : DmaSem sig := 62
abbrev cc3_sem1_1 : DmaSem sig := 63
abbrev cc3_sem2_0 : DmaSem sig := 64
abbrev cc3_sem2_1 : DmaSem sig := 65
abbrev cc3_sem3_0 : DmaSem sig := 66
abbrev cc3_sem3_1 : DmaSem sig := 67
abbrev cc3_sem4_0 : DmaSem sig := 68
abbrev cc3_sem4_1 : DmaSem sig := 69
abbrev cc3_sem5_0 : DmaSem sig := 70
abbrev cc3_sem6_0 : DmaSem sig := 71
abbrev cc3_sem7_0 : DmaSem sig := 72
abbrev cc3_sem8_0 : DmaSem sig := 73
abbrev cc3_sem9_0 : DmaSem sig := 74
abbrev cc3_sem10_0 : DmaSem sig := 75
abbrev cc3_sem11_0 : DmaSem sig := 76
abbrev cc3_sem12_0 : DmaSem sig := 77
abbrev cc3_sem13_0 : DmaSem sig := 78
abbrev cc3_sem13_1 : DmaSem sig := 79
abbrev cc4_sem0_0 : DmaSem sig := 80
abbrev cc4_sem0_1 : DmaSem sig := 81
abbrev cc4_sem1_0 : DmaSem sig := 82
abbrev cc4_sem1_1 : DmaSem sig := 83
abbrev cc4_sem2_0 : DmaSem sig := 84
abbrev cc4_sem2_1 : DmaSem sig := 85
abbrev cc4_sem3_0 : DmaSem sig := 86
abbrev cc4_sem3_1 : DmaSem sig := 87
abbrev cc4_sem4_0 : DmaSem sig := 88
abbrev cc4_sem4_1 : DmaSem sig := 89
abbrev cc4_sem5_0 : DmaSem sig := 90
abbrev cc4_sem6_0 : DmaSem sig := 91
abbrev cc4_sem7_0 : DmaSem sig := 92
abbrev cc4_sem8_0 : DmaSem sig := 93
abbrev cc4_sem9_0 : DmaSem sig := 94
abbrev cc4_sem10_0 : DmaSem sig := 95
abbrev cc4_sem11_0 : DmaSem sig := 96
abbrev cc4_sem12_0 : DmaSem sig := 97
abbrev cc4_sem13_0 : DmaSem sig := 98
abbrev cc4_sem13_1 : DmaSem sig := 99
abbrev cc5_sem0_0 : DmaSem sig := 100
abbrev cc5_sem0_1 : DmaSem sig := 101
abbrev cc5_sem1_0 : DmaSem sig := 102
abbrev cc5_sem1_1 : DmaSem sig := 103
abbrev cc5_sem2_0 : DmaSem sig := 104
abbrev cc5_sem2_1 : DmaSem sig := 105
abbrev cc5_sem3_0 : DmaSem sig := 106
abbrev cc5_sem3_1 : DmaSem sig := 107
abbrev cc5_sem4_0 : DmaSem sig := 108
abbrev cc5_sem4_1 : DmaSem sig := 109
abbrev cc5_sem5_0 : DmaSem sig := 110
abbrev cc5_sem6_0 : DmaSem sig := 111
abbrev cc5_sem7_0 : DmaSem sig := 112
abbrev cc5_sem8_0 : DmaSem sig := 113
abbrev cc5_sem9_0 : DmaSem sig := 114
abbrev cc5_sem10_0 : DmaSem sig := 115
abbrev cc5_sem11_0 : DmaSem sig := 116
abbrev cc5_sem12_0 : DmaSem sig := 117
abbrev cc5_sem13_0 : DmaSem sig := 118
abbrev cc5_sem13_1 : DmaSem sig := 119

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S1000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S2000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_12 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S2000x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_12 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S128x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S1000x128 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

class Facts₀ : Prop where
  transposes_S128x6_S6x128_1_0 : S128x6.Transposes [1, 0] S6x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x4_S4x128_1_0 : S128x4.Transposes [1, 0] S4x128
  bcast_S1x128_S50000x128_0_1 : S1x128.BroadcastsInDim S50000x128 (![0, 1] : Fin 2 → Fin S50000x128.rank)
  transposes_S128x3_S3x128_1_0 : S128x3.Transposes [1, 0] S3x128
  bcast_S1x128_S5000x128_0_1 : S1x128.BroadcastsInDim S5000x128 (![0, 1] : Fin 2 → Fin S5000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x300000_S1x300000_0_0 : S2x300000.Slices ![0, 0] S1x300000
  shapeCasts_S1x300000_S300000 : S1x300000.ShapeCasts S300000
  slices_S2x300000_S1x300000_1_0 : S2x300000.Slices ![1, 0] S1x300000
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S300000 : S_.BroadcastsInDim S300000 (![] : Fin 0 → Fin S300000.rank)
  bcast_S_S5000 : S_.BroadcastsInDim S5000 (![] : Fin 0 → Fin S5000.rank)
  bcast_S300000_S300000x1_0 : S300000.BroadcastsInDim S300000x1 (![0] : Fin 1 → Fin S300000x1.rank)
  bcast_S5000_S5000x1_0 : S5000.BroadcastsInDim S5000x1 (![0] : Fin 1 → Fin S5000x1.rank)
  bcast_S_S150000 : S_.BroadcastsInDim S150000 (![] : Fin 0 → Fin S150000.rank)
  bcast_S150000_S150000x1_0 : S150000.BroadcastsInDim S150000x1 (![0] : Fin 1 → Fin S150000x1.rank)
  slices_S2x6x128x128_S1x6x128x128_0_0_0_0 : S2x6x128x128.Slices ![0, 0, 0, 0] S1x6x128x128
  shapeCasts_S1x6x128x128_S6x128x128 : S1x6x128x128.ShapeCasts S6x128x128
  slices_S2x6x128_S1x6x128_0_0_0 : S2x6x128.Slices ![0, 0, 0] S1x6x128
  shapeCasts_S1x6x128_S6x128 : S1x6x128.ShapeCasts S6x128
  transposes_S6x128x128_S6x128x128_0_2_1 : S6x128x128.Transposes [0, 2, 1] S6x128x128
  bitsLt_bf16_f32 : FTy.bits .bf16 < FTy.bits .f32
  bcast_S_S50000x128 : S_.BroadcastsInDim S50000x128 (![] : Fin 0 → Fin S50000x128.rank)
  bcast_S_S100000x128 : S_.BroadcastsInDim S100000x128 (![] : Fin 0 → Fin S100000x128.rank)
  bcast_S_S5000x128 : S_.BroadcastsInDim S5000x128 (![] : Fin 0 → Fin S5000x128.rank)
  slices_S6x128x128_S1x128x128_1_0_0 : S6x128x128.Slices ![1, 0, 0] S1x128x128
  shapeCasts_S1x128x128_S128x128 : S1x128x128.ShapeCasts S128x128
  slices_S6x128x128_S1x128x128_3_0_0 : S6x128x128.Slices ![3, 0, 0] S1x128x128
  slices_S6x128_S1x128_1_0 : S6x128.Slices ![1, 0] S1x128
  shapeCasts_S1x128_S128 : S1x128.ShapeCasts S128
  slices_S6x128_S1x128_3_0 : S6x128.Slices ![3, 0] S1x128
  slices_S2x3x128_S1x1x128_0_0_0 : S2x3x128.Slices ![0, 0, 0] S1x1x128
  shapeCasts_S1x1x128_S128 : S1x1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  slices_S6x128x128_S1x128x128_0_0_0 : S6x128x128.Slices ![0, 0, 0] S1x128x128
  slices_S6x128x128_S1x128x128_5_0_0 : S6x128x128.Slices ![5, 0, 0] S1x128x128
  slices_S6x128_S1x128_0_0 : S6x128.Slices ![0, 0] S1x128
  slices_S6x128_S1x128_5_0 : S6x128.Slices ![5, 0] S1x128
  slices_S2x3x128_S1x1x128_0_1_0 : S2x3x128.Slices ![0, 1, 0] S1x1x128
  slices_S6x128x128_S1x128x128_2_0_0 : S6x128x128.Slices ![2, 0, 0] S1x128x128
  slices_S6x128x128_S1x128x128_4_0_0 : S6x128x128.Slices ![4, 0, 0] S1x128x128
  slices_S6x128_S1x128_2_0 : S6x128.Slices ![2, 0] S1x128
  slices_S6x128_S1x128_4_0 : S6x128.Slices ![4, 0] S1x128
  slices_S2x3x128_S1x1x128_0_2_0 : S2x3x128.Slices ![0, 2, 0] S1x1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  reduces_S1000x128_S1000 : S1000x128.Reduces [1] S1000
  shapeCasts_S1000_S1000x1 : S1000.ShapeCasts S1000x1
  slices_S2x6x128x128_S1x6x128x128_1_0_0_0 : S2x6x128x128.Slices ![1, 0, 0, 0] S1x6x128x128
  slices_S2x6x128_S1x6x128_1_0_0 : S2x6x128.Slices ![1, 0, 0] S1x6x128
  slices_S2x3x128_S1x1x128_1_0_0 : S2x3x128.Slices ![1, 0, 0] S1x1x128
  slices_S2x3x128_S1x1x128_1_1_0 : S2x3x128.Slices ![1, 1, 0] S1x1x128
  slices_S2x3x128_S1x1x128_1_2_0 : S2x3x128.Slices ![1, 2, 0] S1x1x128
  dot_S100000x6_S6x128_S100000x128_1_0_0_1_n_n_wf : DotDims.WF S100000x6 S6x128 S100000x128 [1] [0] [0] [1] [] []
  dot_S50000x4_S4x128_S50000x128_1_0_0_1_n_n_wf : DotDims.WF S50000x4 S4x128 S50000x128 [1] [0] [0] [1] [] []
  dot_S5000x3_S3x128_S5000x128_1_0_0_1_n_n_wf : DotDims.WF S5000x3 S3x128 S5000x128 [1] [0] [0] [1] [] []
  scatter_S50000_S500000x1_S500000_n_0_0_1_wf : ScatterDims.WF S50000 S500000x1 S500000 [] [0] [0] 1
  scatter_S100000_S500000x1_S500000_n_0_0_1_wf : ScatterDims.WF S100000 S500000x1 S500000 [] [0] [0] 1
  scatter_S5000_S300000x1_S300000_n_0_0_1_wf : ScatterDims.WF S5000 S300000x1 S300000 [] [0] [0] 1
  scatter_S100000_S300000x1_S300000_n_0_0_1_wf : ScatterDims.WF S100000 S300000x1 S300000 [] [0] [0] 1
  scatter_S5000_S150000x1_S150000_n_0_0_1_wf : ScatterDims.WF S5000 S150000x1 S150000 [] [0] [0] 1
  scatter_S50000_S150000x1_S150000_n_0_0_1_wf : ScatterDims.WF S50000 S150000x1 S150000 [] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  gather_S100000x128_S300000x1_S300000x128_1_0_n_n_0_1_1128_wf : GatherDims.WF S100000x128 S300000x1 S300000x128 [1] [0] [] [0] [] 1 ![1, 128]
  scatter_S5000x128_S300000x1_S300000x128_1_0_0_1_wf : ScatterDims.WF S5000x128 S300000x1 S300000x128 [1] [0] [0] 1
  gather_S5000x128_S300000x1_S300000x128_1_0_n_n_0_1_1128_wf : GatherDims.WF S5000x128 S300000x1 S300000x128 [1] [0] [] [0] [] 1 ![1, 128]
  scatter_S100000x128_S300000x1_S300000x128_1_0_0_1_wf : ScatterDims.WF S100000x128 S300000x1 S300000x128 [1] [0] [0] 1
  gather_S50000x128_S150000x1_S150000x128_1_0_n_n_0_1_1128_wf : GatherDims.WF S50000x128 S150000x1 S150000x128 [1] [0] [] [0] [] 1 ![1, 128]
  scatter_S5000x128_S150000x1_S150000x128_1_0_0_1_wf : ScatterDims.WF S5000x128 S150000x1 S150000x128 [1] [0] [0] 1
  gather_S5000x128_S150000x1_S150000x128_1_0_n_n_0_1_1128_wf : GatherDims.WF S5000x128 S150000x1 S150000x128 [1] [0] [] [0] [] 1 ![1, 128]
  scatter_S50000x128_S150000x1_S150000x128_1_0_0_1_wf : ScatterDims.WF S50000x128 S150000x1 S150000x128 [1] [0] [0] 1
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S50000x128.size a
  hwx1_13 : ∀ i : grid1.Coords, EltTy.bits .f32 = 32 ∨ (Rect.block (s := S50000x128) S2000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S5000x128.size a
  hwx2_0 : ∀ i : grid2.Coords, EltTy.bits .f32 = 32 ∨ (Rect.block (s := S5000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S5000x1.size a
  hwx2_1 : ∀ i : grid2.Coords, EltTy.bits .f32 = 32 ∨ (Rect.block (s := S5000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S5000x128.size a
  hwx2_2 : ∀ i : grid2.Coords, EltTy.bits .f32 = 32 ∨ (Rect.block (s := S5000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S5000x1.size a
  hwx2_3 : ∀ i : grid2.Coords, EltTy.bits .f32 = 32 ∨ (Rect.block (s := S5000x1) S1000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S5000x128.size a
  hwx2_4 : ∀ i : grid2.Coords, EltTy.bits .f32 = 32 ∨ (Rect.block (s := S5000x128) S1000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .bf16 = 32 ∨ (Rect.block (s := S128x128) S128x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .bf16 = 32 ∨ (Rect.block (s := S128x128) S128x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1000x128.size a ≤ S5000x128.size a
  hwx2_13 : ∀ i : grid2.Coords, EltTy.bits .f32 = 32 ∨ (Rect.block (s := S5000x128) S1000x128.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .f32 = 32 ∨ (Rect.block (s := S100000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .bf16 = 32 ∨ (Rect.block (s := S128x128) S128x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .bf16 = 32 ∨ (Rect.block (s := S128x128) S128x128.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128.size a ≤ S128.size a
  hwx3_10 : ∀ i : grid3.Coords, EltTy.bits .f32 = 32 ∨ (Rect.block (s := S128) S128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S2000x128.size a ≤ S100000x128.size a
  hwx3_13 : ∀ i : grid3.Coords, EltTy.bits .f32 = 32 ∨ (Rect.block (s := S100000x128) S2000x128.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .bf16 = 32 ∨ (Rect.block (s := S128x128) S128x128.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .bf16 = 32 ∨ (Rect.block (s := S128x128) S128x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .bf16 = 32 ∨ (Rect.block (s := S128x128) S128x128.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128.size a ≤ S128.size a
  hwx4_9 : ∀ i : grid4.Coords, EltTy.bits .f32 = 32 ∨ (Rect.block (s := S128) S128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128.size a ≤ S128.size a
  hwx4_10 : ∀ i : grid4.Coords, EltTy.bits .f32 = 32 ∨ (Rect.block (s := S128) S128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128.size a ≤ S128.size a
  hwx4_11 : ∀ i : grid4.Coords, EltTy.bits .f32 = 32 ∨ (Rect.block (s := S128) S128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S128.size a ≤ S128.size a
  hwx4_12 : ∀ i : grid4.Coords, EltTy.bits .f32 = 32 ∨ (Rect.block (s := S128) S128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x128.size a ≤ S50000x128.size a
  hwx4_13 : ∀ i : grid4.Coords, EltTy.bits .f32 = 32 ∨ (Rect.block (s := S50000x128) S2000x128.size (cc4_transform_13 i) (hinb4_13 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S5000x128.size a
  hwx5_0 : ∀ i : grid5.Coords, EltTy.bits .f32 = 32 ∨ (Rect.block (s := S5000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S5000x1.size a
  hwx5_1 : ∀ i : grid5.Coords, EltTy.bits .f32 = 32 ∨ (Rect.block (s := S5000x1) S1000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S5000x128.size a
  hwx5_2 : ∀ i : grid5.Coords, EltTy.bits .f32 = 32 ∨ (Rect.block (s := S5000x128) S1000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x1.size a ≤ S5000x1.size a
  hwx5_3 : ∀ i : grid5.Coords, EltTy.bits .f32 = 32 ∨ (Rect.block (s := S5000x1) S1000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S5000x128.size a
  hwx5_4 : ∀ i : grid5.Coords, EltTy.bits .f32 = 32 ∨ (Rect.block (s := S5000x128) S1000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .bf16 = 32 ∨ (Rect.block (s := S128x128) S128x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .bf16 = 32 ∨ (Rect.block (s := S128x128) S128x128.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .bf16 = 32 ∨ (Rect.block (s := S128x128) S128x128.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .bf16 = 32 ∨ (Rect.block (s := S128x128) S128x128.size (cc5_transform_8 i) (hinb5_8 i)).WholeWords (EltTy.packing .bf16)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128.size a ≤ S128.size a
  hwx5_9 : ∀ i : grid5.Coords, EltTy.bits .f32 = 32 ∨ (Rect.block (s := S128) S128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128.size a ≤ S128.size a
  hwx5_10 : ∀ i : grid5.Coords, EltTy.bits .f32 = 32 ∨ (Rect.block (s := S128) S128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S128.size a ≤ S128.size a
  hwx5_11 : ∀ i : grid5.Coords, EltTy.bits .f32 = 32 ∨ (Rect.block (s := S128) S128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128.size a ≤ S128.size a
  hwx5_12 : ∀ i : grid5.Coords, EltTy.bits .f32 = 32 ∨ (Rect.block (s := S128) S128.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S1000x128.size a ≤ S5000x128.size a
  hwx5_13 : ∀ i : grid5.Coords, EltTy.bits .f32 = 32 ∨ (Rect.block (s := S5000x128) S1000x128.size (cc5_transform_13 i) (hinb5_13 i)).WholeWords (EltTy.packing .f32)

variable [Facts₀]

def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S5000_S300000x1_S300000_n_0_0_1 : ScatterDims S5000 S300000x1 S300000 where
  updateWindowDims := []
  insertedWindowDims := [0]
  scatterDimsToOperandDims := [0]
  indexVectorDim := 1
  wf := scatter_S5000_S300000x1_S300000_n_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def scatter_S5000_S150000x1_S150000_n_0_0_1 : ScatterDims S5000 S150000x1 S150000 where
  updateWindowDims := []
  insertedWindowDims := [0]
  scatterDimsToOperandDims := [0]
  indexVectorDim := 1
  wf := scatter_S5000_S150000x1_S150000_n_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S5000x128_S300000x1_S300000x128_1_0_0_1 : ScatterDims S5000x128 S300000x1 S300000x128 where
  updateWindowDims := [1]
  insertedWindowDims := [0]
  scatterDimsToOperandDims := [0]
  indexVectorDim := 1
  wf := scatter_S5000x128_S300000x1_S300000x128_1_0_0_1_wf
def gather_S5000x128_S300000x1_S300000x128_1_0_n_n_0_1_1128 : GatherDims S5000x128 S300000x1 S300000x128 where
  offsetDims := [1]
  collapsedSliceDims := [0]
  operandBatchingDims := []
  startIndicesBatchingDims := []
  startIndexMap := [0]
  indexVectorDim := 1
  sliceSizes := ![1, 128]
  wf := gather_S5000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S5000x128_S150000x1_S150000x128_1_0_0_1 : ScatterDims S5000x128 S150000x1 S150000x128 where
  updateWindowDims := [1]
  insertedWindowDims := [0]
  scatterDimsToOperandDims := [0]
  indexVectorDim := 1
  wf := scatter_S5000x128_S150000x1_S150000x128_1_0_0_1_wf
def gather_S5000x128_S150000x1_S150000x128_1_0_n_n_0_1_1128 : GatherDims S5000x128 S150000x1 S150000x128 where
  offsetDims := [1]
  collapsedSliceDims := [0]
  operandBatchingDims := []
  startIndicesBatchingDims := []
  startIndexMap := [0]
  indexVectorDim := 1
  sliceSizes := ![1, 128]
  wf := gather_S5000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v122) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v142) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v164) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v166) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v168) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v170) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v172) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v174) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v176) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v178) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v179) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v112) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v162) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v92) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v181) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v183) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v185) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v187) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v189) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v191) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v193) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v195) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v196) S2000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v132) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v152) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v83) S1000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v198) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v200) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v202) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v204) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v206) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v208) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v210) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v212) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v213) S1000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v243) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v263) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v179) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v285) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v287) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v289) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v291) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v293) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v295) S128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v297) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v299) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v300) S2000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v233) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v283) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v92) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v196) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v302) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v304) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v306) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v308) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v310) S128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v312) S128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v314) S128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v316) S128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v317) S2000x128.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v253) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v273) S1000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v213) S1000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v319) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v321) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v323) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v325) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v327) S128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v329) S128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v331) S128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v333) S128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v334) S1000x128.size cc5_transform_13 reads5_13 true false 2 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

class Facts : Prop extends Facts₀ where

variable [Facts]
-- ==== ReferenceIdeal.lean ====
abbrev S100000x6 : Shape := ⟨2, ![100000, 6]⟩
abbrev S50000x4 : Shape := ⟨2, ![50000, 4]⟩
abbrev S5000x3 : Shape := ⟨2, ![5000, 3]⟩
abbrev S2x500000 : Shape := ⟨2, ![2, 500000]⟩
abbrev S2x300000 : Shape := ⟨2, ![2, 300000]⟩
abbrev S2x150000 : Shape := ⟨2, ![2, 150000]⟩
abbrev S128x6 : Shape := ⟨2, ![128, 6]⟩
abbrev S128 : Shape := ⟨1, ![128]⟩
abbrev S128x4 : Shape := ⟨2, ![128, 4]⟩
abbrev S128x3 : Shape := ⟨2, ![128, 3]⟩
abbrev S2x6x128x128 : Shape := ⟨4, ![2, 6, 128, 128]⟩
abbrev S2x6x128 : Shape := ⟨3, ![2, 6, 128]⟩
abbrev S2x3x128 : Shape := ⟨3, ![2, 3, 128]⟩
abbrev S6x128 : Shape := ⟨2, ![6, 128]⟩
abbrev S100000x128 : Shape := ⟨2, ![100000, 128]⟩
abbrev S1x128 : Shape := ⟨2, ![1, 128]⟩
abbrev S4x128 : Shape := ⟨2, ![4, 128]⟩
abbrev S50000x128 : Shape := ⟨2, ![50000, 128]⟩
abbrev S3x128 : Shape := ⟨2, ![3, 128]⟩
abbrev S5000x128 : Shape := ⟨2, ![5000, 128]⟩
abbrev S1x6x128x128 : Shape := ⟨4, ![1, 6, 128, 128]⟩
abbrev S6x128x128 : Shape := ⟨3, ![6, 128, 128]⟩
abbrev S1x6x128 : Shape := ⟨3, ![1, 6, 128]⟩
abbrev S1x128x128 : Shape := ⟨3, ![1, 128, 128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x300000 : Shape := ⟨2, ![1, 300000]⟩
abbrev S300000 : Shape := ⟨1, ![300000]⟩
abbrev S300000x1 : Shape := ⟨2, ![300000, 1]⟩
abbrev S300000x128 : Shape := ⟨2, ![300000, 128]⟩
abbrev S5000 : Shape := ⟨1, ![5000]⟩
abbrev S5000x1 : Shape := ⟨2, ![5000, 1]⟩
abbrev S1x150000 : Shape := ⟨2, ![1, 150000]⟩
abbrev S150000 : Shape := ⟨1, ![150000]⟩
abbrev S150000x1 : Shape := ⟨2, ![150000, 1]⟩
abbrev S150000x128 : Shape := ⟨2, ![150000, 128]⟩
abbrev S1x1x128 : Shape := ⟨3, ![1, 1, 128]⟩

abbrev nBuf : Space → Nat
  | .hbm => 803
  | .vmem => 0
  | .smem => 0
  | _ => 0

abbrev hbmTy0_0 (i : Nat) : BufTy := match i % 128 with
  | 0 => ⟨S100000x6, .f32⟩
  | 1 => ⟨S50000x4, .f32⟩
  | 2 => ⟨S5000x3, .f32⟩
  | 3 => ⟨S2x500000, .i32⟩
  | 4 => ⟨S2x500000, .i32⟩
  | 5 => ⟨S2x300000, .i32⟩
  | 6 => ⟨S2x300000, .i32⟩
  | 7 => ⟨S2x150000, .i32⟩
  | 8 => ⟨S2x150000, .i32⟩
  | 9 => ⟨S128x6, .f32⟩
  | 10 => ⟨S128, .f32⟩
  | 11 => ⟨S128x4, .f32⟩
  | 12 => ⟨S128, .f32⟩
  | 13 => ⟨S128x3, .f32⟩
  | 14 => ⟨S128, .f32⟩
  | 15 => ⟨S2x6x128x128, .f32⟩
  | 16 => ⟨S2x6x128, .f32⟩
  | 17 => ⟨S2x6x128x128, .f32⟩
  | 18 => ⟨S2x3x128, .f32⟩
  | 19 => ⟨S2x3x128, .f32⟩
  | 20 => ⟨S6x128, .f32⟩
  | 21 => ⟨S100000x128, .f32⟩
  | 22 => ⟨S1x128, .f32⟩
  | 23 => ⟨S100000x128, .f32⟩
  | 24 => ⟨S100000x128, .f32⟩
  | 25 => ⟨S4x128, .f32⟩
  | 26 => ⟨S50000x128, .f32⟩
  | 27 => ⟨S1x128, .f32⟩
  | 28 => ⟨S50000x128, .f32⟩
  | 29 => ⟨S50000x128, .f32⟩
  | 30 => ⟨S3x128, .f32⟩
  | 31 => ⟨S5000x128, .f32⟩
  | 32 => ⟨S1x128, .f32⟩
  | 33 => ⟨S5000x128, .f32⟩
  | 34 => ⟨S5000x128, .f32⟩
  | 35 => ⟨S1x6x128x128, .f32⟩
  | 36 => ⟨S6x128x128, .f32⟩
  | 37 => ⟨S1x6x128, .f32⟩
  | 38 => ⟨S6x128, .f32⟩
  | 39 => ⟨S1x6x128x128, .f32⟩
  | 40 => ⟨S6x128x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x500000, .i32⟩
  | 48 => ⟨S500000, .i32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S_, .f32⟩
  | 65 => ⟨S500000, .f32⟩
  | 66 => ⟨S_, .f32⟩
  | 67 => ⟨S50000, .f32⟩
  | 68 => ⟨S500000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S128x128, .f32⟩
  | 77 => ⟨S50000x128, .f32⟩
  | 78 => ⟨S1x128, .f32⟩
  | 79 => ⟨S50000x128, .f32⟩
  | 80 => ⟨S50000x128, .f32⟩
  | 81 => ⟨S128x128, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S100000x128, .f32⟩
  | 105 => ⟨S500000x1, .i32⟩
  | 106 => ⟨S100000x128, .f32⟩
  | 107 => ⟨S_, .f32⟩
  | 108 => ⟨S500000, .f32⟩
  | 109 => ⟨S_, .f32⟩
  | 110 => ⟨S100000, .f32⟩
  | 111 => ⟨S500000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S128x128, .f32⟩
  | 120 => ⟨S100000x128, .f32⟩
  | 121 => ⟨S1x128, .f32⟩
  | 122 => ⟨S100000x128, .f32⟩
  | 123 => ⟨S100000x128, .f32⟩
  | 124 => ⟨S128x128, .f32⟩
  | 125 => ⟨S100000x128, .f32⟩
  | 126 => ⟨S100000x128, .f32⟩
  | 127 => ⟨S1x128x128, .f32⟩
  | _ => ⟨S100000x6, .f32⟩

abbrev hbmTy0_1 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x300000, .i32⟩
  | 6 => ⟨S300000, .i32⟩
  | 7 => ⟨S1x300000, .i32⟩
  | 8 => ⟨S300000, .i32⟩
  | 9 => ⟨S_, .i32⟩
  | 10 => ⟨S300000, .i32⟩
  | 11 => ⟨S300000, .i1⟩
  | 12 => ⟨S_, .i32⟩
  | 13 => ⟨S300000, .i32⟩
  | 14 => ⟨S300000, .i32⟩
  | 15 => ⟨S300000, .i32⟩
  | 16 => ⟨S300000x1, .i32⟩
  | 17 => ⟨S300000x128, .f32⟩
  | 18 => ⟨S_, .f32⟩
  | 19 => ⟨S5000x128, .f32⟩
  | 20 => ⟨S300000x1, .i32⟩
  | 21 => ⟨S5000x128, .f32⟩
  | 22 => ⟨S_, .f32⟩
  | 23 => ⟨S300000, .f32⟩
  | 24 => ⟨S_, .f32⟩
  | 25 => ⟨S5000, .f32⟩
  | 26 => ⟨S300000x1, .i32⟩
  | 27 => ⟨S5000, .f32⟩
  | 28 => ⟨S_, .f32⟩
  | 29 => ⟨S5000, .f32⟩
  | 30 => ⟨S5000, .f32⟩
  | 31 => ⟨S5000x1, .f32⟩
  | 32 => ⟨S5000x128, .f32⟩
  | 33 => ⟨S5000x128, .f32⟩
  | 34 => ⟨S128x128, .f32⟩
  | 35 => ⟨S5000x128, .f32⟩
  | 36 => ⟨S1x128, .f32⟩
  | 37 => ⟨S5000x128, .f32⟩
  | 38 => ⟨S5000x128, .f32⟩
  | 39 => ⟨S128x128, .f32⟩
  | 40 => ⟨S5000x128, .f32⟩
  | 41 => ⟨S5000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x300000, .i32⟩
  | 49 => ⟨S300000, .i32⟩
  | 50 => ⟨S1x300000, .i32⟩
  | 51 => ⟨S300000, .i32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x128, .f32⟩
  | 61 => ⟨S_, .f32⟩
  | 62 => ⟨S100000x128, .f32⟩
  | 63 => ⟨S300000x1, .i32⟩
  | 64 => ⟨S100000x128, .f32⟩
  | 65 => ⟨S_, .f32⟩
  | 66 => ⟨S300000, .f32⟩
  | 67 => ⟨S_, .f32⟩
  | 68 => ⟨S100000, .f32⟩
  | 69 => ⟨S300000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S128x128, .f32⟩
  | 78 => ⟨S100000x128, .f32⟩
  | 79 => ⟨S1x128, .f32⟩
  | 80 => ⟨S100000x128, .f32⟩
  | 81 => ⟨S100000x128, .f32⟩
  | 82 => ⟨S128x128, .f32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x150000, .i32⟩
  | 92 => ⟨S150000, .i32⟩
  | 93 => ⟨S1x150000, .i32⟩
  | 94 => ⟨S150000, .i32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x128, .f32⟩
  | 104 => ⟨S_, .f32⟩
  | 105 => ⟨S5000x128, .f32⟩
  | 106 => ⟨S150000x1, .i32⟩
  | 107 => ⟨S5000x128, .f32⟩
  | 108 => ⟨S_, .f32⟩
  | 109 => ⟨S150000, .f32⟩
  | 110 => ⟨S_, .f32⟩
  | 111 => ⟨S5000, .f32⟩
  | 112 => ⟨S150000x1, .i32⟩
  | 113 => ⟨S5000, .f32⟩
  | 114 => ⟨S_, .f32⟩
  | 115 => ⟨S5000, .f32⟩
  | 116 => ⟨S5000, .f32⟩
  | 117 => ⟨S5000x1, .f32⟩
  | 118 => ⟨S5000x128, .f32⟩
  | 119 => ⟨S5000x128, .f32⟩
  | 120 => ⟨S128x128, .f32⟩
  | 121 => ⟨S5000x128, .f32⟩
  | 122 => ⟨S1x128, .f32⟩
  | 123 => ⟨S5000x128, .f32⟩
  | 124 => ⟨S5000x128, .f32⟩
  | 125 => ⟨S128x128, .f32⟩
  | 126 => ⟨S5000x128, .f32⟩
  | 127 => ⟨S5000x128, .f32⟩
  | _ => ⟨S100000x6, .f32⟩

abbrev hbmTy0_2 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x150000, .i32⟩
  | 7 => ⟨S150000, .i32⟩
  | 8 => ⟨S1x150000, .i32⟩
  | 9 => ⟨S150000, .i32⟩
  | 10 => ⟨S_, .i32⟩
  | 11 => ⟨S150000, .i32⟩
  | 12 => ⟨S150000, .i1⟩
  | 13 => ⟨S_, .i32⟩
  | 14 => ⟨S150000, .i32⟩
  | 15 => ⟨S150000, .i32⟩
  | 16 => ⟨S150000, .i32⟩
  | 17 => ⟨S150000x1, .i32⟩
  | 18 => ⟨S150000x128, .f32⟩
  | 19 => ⟨S_, .f32⟩
  | 20 => ⟨S50000x128, .f32⟩
  | 21 => ⟨S150000x1, .i32⟩
  | 22 => ⟨S50000x128, .f32⟩
  | 23 => ⟨S_, .f32⟩
  | 24 => ⟨S150000, .f32⟩
  | 25 => ⟨S_, .f32⟩
  | 26 => ⟨S50000, .f32⟩
  | 27 => ⟨S150000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S128x128, .f32⟩
  | 41 => ⟨S50000x128, .f32⟩
  | 42 => ⟨S50000x128, .f32⟩
  | 43 => ⟨S100000x128, .f32⟩
  | 44 => ⟨S_, .f32⟩
  | 45 => ⟨S100000x128, .f32⟩
  | 46 => ⟨S100000x128, .f32⟩
  | 47 => ⟨S1x1x128, .f32⟩
  | 48 => ⟨S128, .f32⟩
  | 49 => ⟨S1x1x128, .f32⟩
  | 50 => ⟨S128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S50000x128, .f32⟩
  | 84 => ⟨S_, .f32⟩
  | 85 => ⟨S50000x128, .f32⟩
  | 86 => ⟨S50000x128, .f32⟩
  | 87 => ⟨S1x1x128, .f32⟩
  | 88 => ⟨S128, .f32⟩
  | 89 => ⟨S1x1x128, .f32⟩
  | 90 => ⟨S128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S5000x128, .f32⟩
  | 124 => ⟨S_, .f32⟩
  | 125 => ⟨S5000x128, .f32⟩
  | 126 => ⟨S5000x128, .f32⟩
  | 127 => ⟨S1x1x128, .f32⟩
  | _ => ⟨S100000x6, .f32⟩

abbrev hbmTy0_3 (i : Nat) : BufTy := match i % 128 with
  | 0 => ⟨S128, .f32⟩
  | 1 => ⟨S1x1x128, .f32⟩
  | 2 => ⟨S128, .f32⟩
  | 3 => ⟨S_, .f32⟩
  | 4 => ⟨S5000, .f32⟩
  | 5 => ⟨S5000x1, .f32⟩
  | 6 => ⟨S_, .f32⟩
  | 7 => ⟨S5000x1, .f32⟩
  | 8 => ⟨S5000x1, .f32⟩
  | 9 => ⟨S5000x128, .f32⟩
  | 10 => ⟨S5000x128, .f32⟩
  | 11 => ⟨S5000x128, .f32⟩
  | 12 => ⟨S_, .f32⟩
  | 13 => ⟨S5000, .f32⟩
  | 14 => ⟨S5000x1, .f32⟩
  | 15 => ⟨S_, .f32⟩
  | 16 => ⟨S5000x1, .f32⟩
  | 17 => ⟨S5000x1, .f32⟩
  | 18 => ⟨S5000x128, .f32⟩
  | 19 => ⟨S5000x128, .f32⟩
  | 20 => ⟨S_, .f32⟩
  | 21 => ⟨S5000x1, .f32⟩
  | 22 => ⟨S5000x1, .f32⟩
  | 23 => ⟨S5000x1, .f32⟩
  | 24 => ⟨S5000x128, .f32⟩
  | 25 => ⟨S5000x128, .f32⟩
  | 26 => ⟨S1x128, .f32⟩
  | 27 => ⟨S5000x128, .f32⟩
  | 28 => ⟨S5000x128, .f32⟩
  | 29 => ⟨S1x128, .f32⟩
  | 30 => ⟨S5000x128, .f32⟩
  | 31 => ⟨S5000x128, .f32⟩
  | 32 => ⟨S_, .f32⟩
  | 33 => ⟨S5000x128, .f32⟩
  | 34 => ⟨S5000x128, .f32⟩
  | 35 => ⟨S1x6x128x128, .f32⟩
  | 36 => ⟨S6x128x128, .f32⟩
  | 37 => ⟨S1x6x128, .f32⟩
  | 38 => ⟨S6x128, .f32⟩
  | 39 => ⟨S1x6x128x128, .f32⟩
  | 40 => ⟨S6x128x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x500000, .i32⟩
  | 48 => ⟨S500000, .i32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S_, .f32⟩
  | 65 => ⟨S500000, .f32⟩
  | 66 => ⟨S_, .f32⟩
  | 67 => ⟨S50000, .f32⟩
  | 68 => ⟨S500000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S128x128, .f32⟩
  | 77 => ⟨S50000x128, .f32⟩
  | 78 => ⟨S1x128, .f32⟩
  | 79 => ⟨S50000x128, .f32⟩
  | 80 => ⟨S50000x128, .f32⟩
  | 81 => ⟨S128x128, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S100000x128, .f32⟩
  | 105 => ⟨S500000x1, .i32⟩
  | 106 => ⟨S100000x128, .f32⟩
  | 107 => ⟨S_, .f32⟩
  | 108 => ⟨S500000, .f32⟩
  | 109 => ⟨S_, .f32⟩
  | 110 => ⟨S100000, .f32⟩
  | 111 => ⟨S500000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S128x128, .f32⟩
  | 120 => ⟨S100000x128, .f32⟩
  | 121 => ⟨S1x128, .f32⟩
  | 122 => ⟨S100000x128, .f32⟩
  | 123 => ⟨S100000x128, .f32⟩
  | 124 => ⟨S128x128, .f32⟩
  | 125 => ⟨S100000x128, .f32⟩
  | 126 => ⟨S100000x128, .f32⟩
  | 127 => ⟨S1x128x128, .f32⟩
  | _ => ⟨S100000x6, .f32⟩

abbrev hbmTy0_4 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x300000, .i32⟩
  | 6 => ⟨S300000, .i32⟩
  | 7 => ⟨S1x300000, .i32⟩
  | 8 => ⟨S300000, .i32⟩
  | 9 => ⟨S_, .i32⟩
  | 10 => ⟨S300000, .i32⟩
  | 11 => ⟨S300000, .i1⟩
  | 12 => ⟨S_, .i32⟩
  | 13 => ⟨S300000, .i32⟩
  | 14 => ⟨S300000, .i32⟩
  | 15 => ⟨S300000, .i32⟩
  | 16 => ⟨S300000x1, .i32⟩
  | 17 => ⟨S300000x128, .f32⟩
  | 18 => ⟨S_, .f32⟩
  | 19 => ⟨S5000x128, .f32⟩
  | 20 => ⟨S300000x1, .i32⟩
  | 21 => ⟨S5000x128, .f32⟩
  | 22 => ⟨S_, .f32⟩
  | 23 => ⟨S300000, .f32⟩
  | 24 => ⟨S_, .f32⟩
  | 25 => ⟨S5000, .f32⟩
  | 26 => ⟨S300000x1, .i32⟩
  | 27 => ⟨S5000, .f32⟩
  | 28 => ⟨S_, .f32⟩
  | 29 => ⟨S5000, .f32⟩
  | 30 => ⟨S5000, .f32⟩
  | 31 => ⟨S5000x1, .f32⟩
  | 32 => ⟨S5000x128, .f32⟩
  | 33 => ⟨S5000x128, .f32⟩
  | 34 => ⟨S128x128, .f32⟩
  | 35 => ⟨S5000x128, .f32⟩
  | 36 => ⟨S1x128, .f32⟩
  | 37 => ⟨S5000x128, .f32⟩
  | 38 => ⟨S5000x128, .f32⟩
  | 39 => ⟨S128x128, .f32⟩
  | 40 => ⟨S5000x128, .f32⟩
  | 41 => ⟨S5000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x300000, .i32⟩
  | 49 => ⟨S300000, .i32⟩
  | 50 => ⟨S1x300000, .i32⟩
  | 51 => ⟨S300000, .i32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x128, .f32⟩
  | 61 => ⟨S_, .f32⟩
  | 62 => ⟨S100000x128, .f32⟩
  | 63 => ⟨S300000x1, .i32⟩
  | 64 => ⟨S100000x128, .f32⟩
  | 65 => ⟨S_, .f32⟩
  | 66 => ⟨S300000, .f32⟩
  | 67 => ⟨S_, .f32⟩
  | 68 => ⟨S100000, .f32⟩
  | 69 => ⟨S300000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S128x128, .f32⟩
  | 78 => ⟨S100000x128, .f32⟩
  | 79 => ⟨S1x128, .f32⟩
  | 80 => ⟨S100000x128, .f32⟩
  | 81 => ⟨S100000x128, .f32⟩
  | 82 => ⟨S128x128, .f32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x150000, .i32⟩
  | 92 => ⟨S150000, .i32⟩
  | 93 => ⟨S1x150000, .i32⟩
  | 94 => ⟨S150000, .i32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x128, .f32⟩
  | 104 => ⟨S_, .f32⟩
  | 105 => ⟨S5000x128, .f32⟩
  | 106 => ⟨S150000x1, .i32⟩
  | 107 => ⟨S5000x128, .f32⟩
  | 108 => ⟨S_, .f32⟩
  | 109 => ⟨S150000, .f32⟩
  | 110 => ⟨S_, .f32⟩
  | 111 => ⟨S5000, .f32⟩
  | 112 => ⟨S150000x1, .i32⟩
  | 113 => ⟨S5000, .f32⟩
  | 114 => ⟨S_, .f32⟩
  | 115 => ⟨S5000, .f32⟩
  | 116 => ⟨S5000, .f32⟩
  | 117 => ⟨S5000x1, .f32⟩
  | 118 => ⟨S5000x128, .f32⟩
  | 119 => ⟨S5000x128, .f32⟩
  | 120 => ⟨S128x128, .f32⟩
  | 121 => ⟨S5000x128, .f32⟩
  | 122 => ⟨S1x128, .f32⟩
  | 123 => ⟨S5000x128, .f32⟩
  | 124 => ⟨S5000x128, .f32⟩
  | 125 => ⟨S128x128, .f32⟩
  | 126 => ⟨S5000x128, .f32⟩
  | 127 => ⟨S5000x128, .f32⟩
  | _ => ⟨S100000x6, .f32⟩

abbrev hbmTy0_5 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x150000, .i32⟩
  | 7 => ⟨S150000, .i32⟩
  | 8 => ⟨S1x150000, .i32⟩
  | 9 => ⟨S150000, .i32⟩
  | 10 => ⟨S_, .i32⟩
  | 11 => ⟨S150000, .i32⟩
  | 12 => ⟨S150000, .i1⟩
  | 13 => ⟨S_, .i32⟩
  | 14 => ⟨S150000, .i32⟩
  | 15 => ⟨S150000, .i32⟩
  | 16 => ⟨S150000, .i32⟩
  | 17 => ⟨S150000x1, .i32⟩
  | 18 => ⟨S150000x128, .f32⟩
  | 19 => ⟨S_, .f32⟩
  | 20 => ⟨S50000x128, .f32⟩
  | 21 => ⟨S150000x1, .i32⟩
  | 22 => ⟨S50000x128, .f32⟩
  | 23 => ⟨S_, .f32⟩
  | 24 => ⟨S150000, .f32⟩
  | 25 => ⟨S_, .f32⟩
  | 26 => ⟨S50000, .f32⟩
  | 27 => ⟨S150000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S128x128, .f32⟩
  | 41 => ⟨S50000x128, .f32⟩
  | 42 => ⟨S50000x128, .f32⟩
  | 43 => ⟨S100000x128, .f32⟩
  | 44 => ⟨S_, .f32⟩
  | 45 => ⟨S100000x128, .f32⟩
  | 46 => ⟨S100000x128, .f32⟩
  | 47 => ⟨S1x1x128, .f32⟩
  | 48 => ⟨S128, .f32⟩
  | 49 => ⟨S1x1x128, .f32⟩
  | 50 => ⟨S128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S50000x128, .f32⟩
  | 84 => ⟨S_, .f32⟩
  | 85 => ⟨S50000x128, .f32⟩
  | 86 => ⟨S50000x128, .f32⟩
  | 87 => ⟨S1x1x128, .f32⟩
  | 88 => ⟨S128, .f32⟩
  | 89 => ⟨S1x1x128, .f32⟩
  | 90 => ⟨S128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S5000x128, .f32⟩
  | 124 => ⟨S_, .f32⟩
  | 125 => ⟨S5000x128, .f32⟩
  | 126 => ⟨S5000x128, .f32⟩
  | 127 => ⟨S1x1x128, .f32⟩
  | _ => ⟨S100000x6, .f32⟩

abbrev hbmTy0_6 (i : Nat) : BufTy := match i % 128 with
  | 0 => ⟨S128, .f32⟩
  | 1 => ⟨S1x1x128, .f32⟩
  | 2 => ⟨S128, .f32⟩
  | 3 => ⟨S_, .f32⟩
  | 4 => ⟨S5000, .f32⟩
  | 5 => ⟨S5000x1, .f32⟩
  | 6 => ⟨S_, .f32⟩
  | 7 => ⟨S5000x1, .f32⟩
  | 8 => ⟨S5000x1, .f32⟩
  | 9 => ⟨S5000x128, .f32⟩
  | 10 => ⟨S5000x128, .f32⟩
  | 11 => ⟨S5000x128, .f32⟩
  | 12 => ⟨S_, .f32⟩
  | 13 => ⟨S5000, .f32⟩
  | 14 => ⟨S5000x1, .f32⟩
  | 15 => ⟨S_, .f32⟩
  | 16 => ⟨S5000x1, .f32⟩
  | 17 => ⟨S5000x1, .f32⟩
  | 18 => ⟨S5000x128, .f32⟩
  | 19 => ⟨S5000x128, .f32⟩
  | 20 => ⟨S_, .f32⟩
  | 21 => ⟨S5000x1, .f32⟩
  | 22 => ⟨S5000x1, .f32⟩
  | 23 => ⟨S5000x1, .f32⟩
  | 24 => ⟨S5000x128, .f32⟩
  | 25 => ⟨S5000x128, .f32⟩
  | 26 => ⟨S1x128, .f32⟩
  | 27 => ⟨S5000x128, .f32⟩
  | 28 => ⟨S5000x128, .f32⟩
  | 29 => ⟨S1x128, .f32⟩
  | 30 => ⟨S5000x128, .f32⟩
  | 31 => ⟨S5000x128, .f32⟩
  | 32 => ⟨S_, .f32⟩
  | 33 => ⟨S5000x128, .f32⟩
  | 34 => ⟨S5000x128, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_cst_2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_4 : Ref sig .tc := ⟨.hbm, 94, rfl⟩
abbrev main_v68 : Ref sig .tc := ⟨.hbm, 95, rfl⟩
abbrev main_v69 : Ref sig .tc := ⟨.hbm, 96, rfl⟩
abbrev main_c_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_6 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_7 : Ref sig .tc := ⟨.hbm, 107, rfl⟩
abbrev main_v78 : Ref sig .tc := ⟨.hbm, 108, rfl⟩
abbrev main_cst_8 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_10 : Ref sig .tc := ⟨.hbm, 137, rfl⟩
abbrev main_v105 : Ref sig .tc := ⟨.hbm, 138, rfl⟩
abbrev main_v106 : Ref sig .tc := ⟨.hbm, 139, rfl⟩
abbrev main_c_11 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_12 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_13 : Ref sig .tc := ⟨.hbm, 150, rfl⟩
abbrev main_v115 : Ref sig .tc := ⟨.hbm, 151, rfl⟩
abbrev main_cst_14 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_15 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_16 : Ref sig .tc := ⟨.hbm, 180, rfl⟩
abbrev main_v142 : Ref sig .tc := ⟨.hbm, 181, rfl⟩
abbrev main_v143 : Ref sig .tc := ⟨.hbm, 182, rfl⟩
abbrev main_c_17 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_18 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_19 : Ref sig .tc := ⟨.hbm, 193, rfl⟩
abbrev main_v152 : Ref sig .tc := ⟨.hbm, 194, rfl⟩
abbrev main_cst_20 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_21 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_c_22 : Ref sig .tc := ⟨.hbm, 223, rfl⟩
abbrev main_v179 : Ref sig .tc := ⟨.hbm, 224, rfl⟩
abbrev main_v180 : Ref sig .tc := ⟨.hbm, 225, rfl⟩
abbrev main_c_23 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_24 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_25 : Ref sig .tc := ⟨.hbm, 236, rfl⟩
abbrev main_v189 : Ref sig .tc := ⟨.hbm, 237, rfl⟩
abbrev main_cst_26 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_cst_27 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_c_28 : Ref sig .tc := ⟨.hbm, 266, rfl⟩
abbrev main_v216 : Ref sig .tc := ⟨.hbm, 267, rfl⟩
abbrev main_v217 : Ref sig .tc := ⟨.hbm, 268, rfl⟩
abbrev main_c_29 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_cst_30 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_cst_31 : Ref sig .tc := ⟨.hbm, 279, rfl⟩
abbrev main_v226 : Ref sig .tc := ⟨.hbm, 280, rfl⟩
abbrev main_cst_32 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_33 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_cst_34 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_35 : Ref sig .tc := ⟨.hbm, 307, rfl⟩
abbrev main_v250 : Ref sig .tc := ⟨.hbm, 308, rfl⟩
abbrev main_v251 : Ref sig .tc := ⟨.hbm, 309, rfl⟩
abbrev main_cst_36 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_cst_37 : Ref sig .tc := ⟨.hbm, 316, rfl⟩
abbrev main_v257 : Ref sig .tc := ⟨.hbm, 317, rfl⟩
abbrev main_v258 : Ref sig .tc := ⟨.hbm, 318, rfl⟩
abbrev main_cst_38 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_cst_39 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_call0_cst : Ref sig .tc := ⟨.hbm, 336, rfl⟩
abbrev main_call0_v0 : Ref sig .tc := ⟨.hbm, 337, rfl⟩
abbrev main_v274 : Ref sig .tc := ⟨.hbm, 338, rfl⟩
abbrev main_v275 : Ref sig .tc := ⟨.hbm, 339, rfl⟩
abbrev main_cst_40 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_cst_41 : Ref sig .tc := ⟨.hbm, 347, rfl⟩
abbrev main_v282 : Ref sig .tc := ⟨.hbm, 348, rfl⟩
abbrev main_v283 : Ref sig .tc := ⟨.hbm, 349, rfl⟩
abbrev main_cst_42 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_cst_43 : Ref sig .tc := ⟨.hbm, 356, rfl⟩
abbrev main_v289 : Ref sig .tc := ⟨.hbm, 357, rfl⟩
abbrev main_v290 : Ref sig .tc := ⟨.hbm, 358, rfl⟩
abbrev main_cst_44 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_cst_45 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_call1_cst : Ref sig .tc := ⟨.hbm, 376, rfl⟩
abbrev main_call1_v0 : Ref sig .tc := ⟨.hbm, 377, rfl⟩
abbrev main_v306 : Ref sig .tc := ⟨.hbm, 378, rfl⟩
abbrev main_v307 : Ref sig .tc := ⟨.hbm, 379, rfl⟩
abbrev main_cst_46 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_cst_47 : Ref sig .tc := ⟨.hbm, 387, rfl⟩
abbrev main_v314 : Ref sig .tc := ⟨.hbm, 388, rfl⟩
abbrev main_v315 : Ref sig .tc := ⟨.hbm, 389, rfl⟩
abbrev main_cst_48 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_cst_49 : Ref sig .tc := ⟨.hbm, 396, rfl⟩
abbrev main_v321 : Ref sig .tc := ⟨.hbm, 397, rfl⟩
abbrev main_v322 : Ref sig .tc := ⟨.hbm, 398, rfl⟩
abbrev main_cst_50 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_cst_51 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_call2_cst : Ref sig .tc := ⟨.hbm, 416, rfl⟩
abbrev main_call2_v0 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_c_52 : Ref sig .tc := ⟨.hbm, 435, rfl⟩
abbrev main_v355 : Ref sig .tc := ⟨.hbm, 436, rfl⟩
abbrev main_v356 : Ref sig .tc := ⟨.hbm, 437, rfl⟩
abbrev main_c_53 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_cst_54 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_cst_55 : Ref sig .tc := ⟨.hbm, 448, rfl⟩
abbrev main_v365 : Ref sig .tc := ⟨.hbm, 449, rfl⟩
abbrev main_cst_56 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_cst_57 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_c_58 : Ref sig .tc := ⟨.hbm, 478, rfl⟩
abbrev main_v392 : Ref sig .tc := ⟨.hbm, 479, rfl⟩
abbrev main_v393 : Ref sig .tc := ⟨.hbm, 480, rfl⟩
abbrev main_c_59 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_cst_60 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_cst_61 : Ref sig .tc := ⟨.hbm, 491, rfl⟩
abbrev main_v402 : Ref sig .tc := ⟨.hbm, 492, rfl⟩
abbrev main_cst_62 : Ref sig .tc := ⟨.hbm, 493, rfl⟩
abbrev main_v403 : Ref sig .tc := ⟨.hbm, 494, rfl⟩
abbrev main_v404 : Ref sig .tc := ⟨.hbm, 495, rfl⟩
abbrev main_v405 : Ref sig .tc := ⟨.hbm, 496, rfl⟩
abbrev main_cst_63 : Ref sig .tc := ⟨.hbm, 497, rfl⟩
abbrev main_v406 : Ref sig .tc := ⟨.hbm, 498, rfl⟩
abbrev main_v407 : Ref sig .tc := ⟨.hbm, 499, rfl⟩
abbrev main_v408 : Ref sig .tc := ⟨.hbm, 500, rfl⟩
abbrev main_v409 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_c_64 : Ref sig .tc := ⟨.hbm, 521, rfl⟩
abbrev main_v429 : Ref sig .tc := ⟨.hbm, 522, rfl⟩
abbrev main_v430 : Ref sig .tc := ⟨.hbm, 523, rfl⟩
abbrev main_c_65 : Ref sig .tc := ⟨.hbm, 524, rfl⟩
abbrev main_v431 : Ref sig .tc := ⟨.hbm, 525, rfl⟩
abbrev main_v432 : Ref sig .tc := ⟨.hbm, 526, rfl⟩
abbrev main_v433 : Ref sig .tc := ⟨.hbm, 527, rfl⟩
abbrev main_v434 : Ref sig .tc := ⟨.hbm, 528, rfl⟩
abbrev main_v435 : Ref sig .tc := ⟨.hbm, 529, rfl⟩
abbrev main_cst_66 : Ref sig .tc := ⟨.hbm, 530, rfl⟩
abbrev main_v436 : Ref sig .tc := ⟨.hbm, 531, rfl⟩
abbrev main_v437 : Ref sig .tc := ⟨.hbm, 532, rfl⟩
abbrev main_v438 : Ref sig .tc := ⟨.hbm, 533, rfl⟩
abbrev main_cst_67 : Ref sig .tc := ⟨.hbm, 534, rfl⟩
abbrev main_v439 : Ref sig .tc := ⟨.hbm, 535, rfl⟩
abbrev main_cst_68 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_cst_69 : Ref sig .tc := ⟨.hbm, 540, rfl⟩
abbrev main_v443 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_v448 : Ref sig .tc := ⟨.hbm, 546, rfl⟩
abbrev main_v449 : Ref sig .tc := ⟨.hbm, 547, rfl⟩
abbrev main_v450 : Ref sig .tc := ⟨.hbm, 548, rfl⟩
abbrev main_v451 : Ref sig .tc := ⟨.hbm, 549, rfl⟩
abbrev main_v452 : Ref sig .tc := ⟨.hbm, 550, rfl⟩
abbrev main_v453 : Ref sig .tc := ⟨.hbm, 551, rfl⟩
abbrev main_v454 : Ref sig .tc := ⟨.hbm, 552, rfl⟩
abbrev main_v455 : Ref sig .tc := ⟨.hbm, 553, rfl⟩
abbrev main_v456 : Ref sig .tc := ⟨.hbm, 554, rfl⟩
abbrev main_v457 : Ref sig .tc := ⟨.hbm, 555, rfl⟩
abbrev main_v458 : Ref sig .tc := ⟨.hbm, 556, rfl⟩
abbrev main_v459 : Ref sig .tc := ⟨.hbm, 557, rfl⟩
abbrev main_v460 : Ref sig .tc := ⟨.hbm, 558, rfl⟩
abbrev main_v461 : Ref sig .tc := ⟨.hbm, 559, rfl⟩
abbrev main_v462 : Ref sig .tc := ⟨.hbm, 560, rfl⟩
abbrev main_v463 : Ref sig .tc := ⟨.hbm, 561, rfl⟩
abbrev main_v464 : Ref sig .tc := ⟨.hbm, 562, rfl⟩
abbrev main_v465 : Ref sig .tc := ⟨.hbm, 563, rfl⟩
abbrev main_c_70 : Ref sig .tc := ⟨.hbm, 564, rfl⟩
abbrev main_v466 : Ref sig .tc := ⟨.hbm, 565, rfl⟩
abbrev main_v467 : Ref sig .tc := ⟨.hbm, 566, rfl⟩
abbrev main_c_71 : Ref sig .tc := ⟨.hbm, 567, rfl⟩
abbrev main_v468 : Ref sig .tc := ⟨.hbm, 568, rfl⟩
abbrev main_v469 : Ref sig .tc := ⟨.hbm, 569, rfl⟩
abbrev main_v470 : Ref sig .tc := ⟨.hbm, 570, rfl⟩
abbrev main_v471 : Ref sig .tc := ⟨.hbm, 571, rfl⟩
abbrev main_v472 : Ref sig .tc := ⟨.hbm, 572, rfl⟩
abbrev main_cst_72 : Ref sig .tc := ⟨.hbm, 573, rfl⟩
abbrev main_v473 : Ref sig .tc := ⟨.hbm, 574, rfl⟩
abbrev main_v474 : Ref sig .tc := ⟨.hbm, 575, rfl⟩
abbrev main_v475 : Ref sig .tc := ⟨.hbm, 576, rfl⟩
abbrev main_cst_73 : Ref sig .tc := ⟨.hbm, 577, rfl⟩
abbrev main_v476 : Ref sig .tc := ⟨.hbm, 578, rfl⟩
abbrev main_cst_74 : Ref sig .tc := ⟨.hbm, 579, rfl⟩
abbrev main_v477 : Ref sig .tc := ⟨.hbm, 580, rfl⟩
abbrev main_v478 : Ref sig .tc := ⟨.hbm, 581, rfl⟩
abbrev main_v479 : Ref sig .tc := ⟨.hbm, 582, rfl⟩
abbrev main_cst_75 : Ref sig .tc := ⟨.hbm, 583, rfl⟩
abbrev main_v480 : Ref sig .tc := ⟨.hbm, 584, rfl⟩
abbrev main_v481 : Ref sig .tc := ⟨.hbm, 585, rfl⟩
abbrev main_v482 : Ref sig .tc := ⟨.hbm, 586, rfl⟩
abbrev main_v483 : Ref sig .tc := ⟨.hbm, 587, rfl⟩
abbrev main_v484 : Ref sig .tc := ⟨.hbm, 588, rfl⟩
abbrev main_v485 : Ref sig .tc := ⟨.hbm, 589, rfl⟩
abbrev main_v486 : Ref sig .tc := ⟨.hbm, 590, rfl⟩
abbrev main_v487 : Ref sig .tc := ⟨.hbm, 591, rfl⟩
abbrev main_v488 : Ref sig .tc := ⟨.hbm, 592, rfl⟩
abbrev main_v489 : Ref sig .tc := ⟨.hbm, 593, rfl⟩
abbrev main_v490 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_v496 : Ref sig .tc := ⟨.hbm, 600, rfl⟩
abbrev main_v497 : Ref sig .tc := ⟨.hbm, 601, rfl⟩
abbrev main_v498 : Ref sig .tc := ⟨.hbm, 602, rfl⟩
abbrev main_v499 : Ref sig .tc := ⟨.hbm, 603, rfl⟩
abbrev main_v500 : Ref sig .tc := ⟨.hbm, 604, rfl⟩
abbrev main_v501 : Ref sig .tc := ⟨.hbm, 605, rfl⟩
abbrev main_v502 : Ref sig .tc := ⟨.hbm, 606, rfl⟩
abbrev main_c_76 : Ref sig .tc := ⟨.hbm, 607, rfl⟩
abbrev main_v503 : Ref sig .tc := ⟨.hbm, 608, rfl⟩
abbrev main_v504 : Ref sig .tc := ⟨.hbm, 609, rfl⟩
abbrev main_c_77 : Ref sig .tc := ⟨.hbm, 610, rfl⟩
abbrev main_v505 : Ref sig .tc := ⟨.hbm, 611, rfl⟩
abbrev main_v506 : Ref sig .tc := ⟨.hbm, 612, rfl⟩
abbrev main_v507 : Ref sig .tc := ⟨.hbm, 613, rfl⟩
abbrev main_v508 : Ref sig .tc := ⟨.hbm, 614, rfl⟩
abbrev main_v509 : Ref sig .tc := ⟨.hbm, 615, rfl⟩
abbrev main_cst_78 : Ref sig .tc := ⟨.hbm, 616, rfl⟩
abbrev main_v510 : Ref sig .tc := ⟨.hbm, 617, rfl⟩
abbrev main_v511 : Ref sig .tc := ⟨.hbm, 618, rfl⟩
abbrev main_v512 : Ref sig .tc := ⟨.hbm, 619, rfl⟩
abbrev main_cst_79 : Ref sig .tc := ⟨.hbm, 620, rfl⟩
abbrev main_v513 : Ref sig .tc := ⟨.hbm, 621, rfl⟩
abbrev main_cst_80 : Ref sig .tc := ⟨.hbm, 622, rfl⟩
abbrev main_v514 : Ref sig .tc := ⟨.hbm, 623, rfl⟩
abbrev main_v515 : Ref sig .tc := ⟨.hbm, 624, rfl⟩
abbrev main_v516 : Ref sig .tc := ⟨.hbm, 625, rfl⟩
abbrev main_cst_81 : Ref sig .tc := ⟨.hbm, 626, rfl⟩
abbrev main_v517 : Ref sig .tc := ⟨.hbm, 627, rfl⟩
abbrev main_v518 : Ref sig .tc := ⟨.hbm, 628, rfl⟩
abbrev main_v519 : Ref sig .tc := ⟨.hbm, 629, rfl⟩
abbrev main_v520 : Ref sig .tc := ⟨.hbm, 630, rfl⟩
abbrev main_v521 : Ref sig .tc := ⟨.hbm, 631, rfl⟩
abbrev main_v522 : Ref sig .tc := ⟨.hbm, 632, rfl⟩
abbrev main_v523 : Ref sig .tc := ⟨.hbm, 633, rfl⟩
abbrev main_v524 : Ref sig .tc := ⟨.hbm, 634, rfl⟩
abbrev main_v525 : Ref sig .tc := ⟨.hbm, 635, rfl⟩
abbrev main_v526 : Ref sig .tc := ⟨.hbm, 636, rfl⟩
abbrev main_v527 : Ref sig .tc := ⟨.hbm, 637, rfl⟩
abbrev main_v528 : Ref sig .tc := ⟨.hbm, 638, rfl⟩
abbrev main_v529 : Ref sig .tc := ⟨.hbm, 639, rfl⟩
abbrev main_v530 : Ref sig .tc := ⟨.hbm, 640, rfl⟩
abbrev main_v531 : Ref sig .tc := ⟨.hbm, 641, rfl⟩
abbrev main_v532 : Ref sig .tc := ⟨.hbm, 642, rfl⟩
abbrev main_v533 : Ref sig .tc := ⟨.hbm, 643, rfl⟩
abbrev main_v534 : Ref sig .tc := ⟨.hbm, 644, rfl⟩
abbrev main_v535 : Ref sig .tc := ⟨.hbm, 645, rfl⟩
abbrev main_v536 : Ref sig .tc := ⟨.hbm, 646, rfl⟩
abbrev main_v537 : Ref sig .tc := ⟨.hbm, 647, rfl⟩
abbrev main_v538 : Ref sig .tc := ⟨.hbm, 648, rfl⟩
abbrev main_v539 : Ref sig .tc := ⟨.hbm, 649, rfl⟩
abbrev main_c_82 : Ref sig .tc := ⟨.hbm, 650, rfl⟩
abbrev main_v540 : Ref sig .tc := ⟨.hbm, 651, rfl⟩
abbrev main_v541 : Ref sig .tc := ⟨.hbm, 652, rfl⟩
abbrev main_c_83 : Ref sig .tc := ⟨.hbm, 653, rfl⟩
abbrev main_v542 : Ref sig .tc := ⟨.hbm, 654, rfl⟩
abbrev main_v543 : Ref sig .tc := ⟨.hbm, 655, rfl⟩
abbrev main_v544 : Ref sig .tc := ⟨.hbm, 656, rfl⟩
abbrev main_v545 : Ref sig .tc := ⟨.hbm, 657, rfl⟩
abbrev main_v546 : Ref sig .tc := ⟨.hbm, 658, rfl⟩
abbrev main_cst_84 : Ref sig .tc := ⟨.hbm, 659, rfl⟩
abbrev main_v547 : Ref sig .tc := ⟨.hbm, 660, rfl⟩
abbrev main_v548 : Ref sig .tc := ⟨.hbm, 661, rfl⟩
abbrev main_v549 : Ref sig .tc := ⟨.hbm, 662, rfl⟩
abbrev main_cst_85 : Ref sig .tc := ⟨.hbm, 663, rfl⟩
abbrev main_v550 : Ref sig .tc := ⟨.hbm, 664, rfl⟩
abbrev main_cst_86 : Ref sig .tc := ⟨.hbm, 665, rfl⟩
abbrev main_v551 : Ref sig .tc := ⟨.hbm, 666, rfl⟩
abbrev main_v552 : Ref sig .tc := ⟨.hbm, 667, rfl⟩
abbrev main_v553 : Ref sig .tc := ⟨.hbm, 668, rfl⟩
abbrev main_cst_87 : Ref sig .tc := ⟨.hbm, 669, rfl⟩
abbrev main_v554 : Ref sig .tc := ⟨.hbm, 670, rfl⟩
abbrev main_v555 : Ref sig .tc := ⟨.hbm, 671, rfl⟩
abbrev main_v556 : Ref sig .tc := ⟨.hbm, 672, rfl⟩
abbrev main_v557 : Ref sig .tc := ⟨.hbm, 673, rfl⟩
abbrev main_v558 : Ref sig .tc := ⟨.hbm, 674, rfl⟩
abbrev main_v559 : Ref sig .tc := ⟨.hbm, 675, rfl⟩
abbrev main_v560 : Ref sig .tc := ⟨.hbm, 676, rfl⟩
abbrev main_v561 : Ref sig .tc := ⟨.hbm, 677, rfl⟩
abbrev main_v562 : Ref sig .tc := ⟨.hbm, 678, rfl⟩
abbrev main_v563 : Ref sig .tc := ⟨.hbm, 679, rfl⟩
abbrev main_v564 : Ref sig .tc := ⟨.hbm, 680, rfl⟩
abbrev main_v565 : Ref sig .tc := ⟨.hbm, 681, rfl⟩
abbrev main_v566 : Ref sig .tc := ⟨.hbm, 682, rfl⟩
abbrev main_v567 : Ref sig .tc := ⟨.hbm, 683, rfl⟩
abbrev main_cst_88 : Ref sig .tc := ⟨.hbm, 684, rfl⟩
abbrev main_v568 : Ref sig .tc := ⟨.hbm, 685, rfl⟩
abbrev main_v569 : Ref sig .tc := ⟨.hbm, 686, rfl⟩
abbrev main_v570 : Ref sig .tc := ⟨.hbm, 687, rfl⟩
abbrev main_v571 : Ref sig .tc := ⟨.hbm, 688, rfl⟩
abbrev main_v572 : Ref sig .tc := ⟨.hbm, 689, rfl⟩
abbrev main_v573 : Ref sig .tc := ⟨.hbm, 690, rfl⟩
abbrev main_cst_89 : Ref sig .tc := ⟨.hbm, 691, rfl⟩
abbrev main_v574 : Ref sig .tc := ⟨.hbm, 692, rfl⟩
abbrev main_v575 : Ref sig .tc := ⟨.hbm, 693, rfl⟩
abbrev main_cst_90 : Ref sig .tc := ⟨.hbm, 694, rfl⟩
abbrev main_v576 : Ref sig .tc := ⟨.hbm, 695, rfl⟩
abbrev main_v577 : Ref sig .tc := ⟨.hbm, 696, rfl⟩
abbrev main_v578 : Ref sig .tc := ⟨.hbm, 697, rfl⟩
abbrev main_v579 : Ref sig .tc := ⟨.hbm, 698, rfl⟩
abbrev main_v580 : Ref sig .tc := ⟨.hbm, 699, rfl⟩
abbrev main_cst_91 : Ref sig .tc := ⟨.hbm, 700, rfl⟩
abbrev main_v581 : Ref sig .tc := ⟨.hbm, 701, rfl⟩
abbrev main_v582 : Ref sig .tc := ⟨.hbm, 702, rfl⟩
abbrev main_cst_92 : Ref sig .tc := ⟨.hbm, 703, rfl⟩
abbrev main_v583 : Ref sig .tc := ⟨.hbm, 704, rfl⟩
abbrev main_v584 : Ref sig .tc := ⟨.hbm, 705, rfl⟩
abbrev main_v585 : Ref sig .tc := ⟨.hbm, 706, rfl⟩
abbrev main_v586 : Ref sig .tc := ⟨.hbm, 707, rfl⟩
abbrev main_cst_93 : Ref sig .tc := ⟨.hbm, 708, rfl⟩
abbrev main_v587 : Ref sig .tc := ⟨.hbm, 709, rfl⟩
abbrev main_v588 : Ref sig .tc := ⟨.hbm, 710, rfl⟩
abbrev main_v589 : Ref sig .tc := ⟨.hbm, 711, rfl⟩
abbrev main_v590 : Ref sig .tc := ⟨.hbm, 712, rfl⟩
abbrev main_v591 : Ref sig .tc := ⟨.hbm, 713, rfl⟩
abbrev main_v592 : Ref sig .tc := ⟨.hbm, 714, rfl⟩
abbrev main_v593 : Ref sig .tc := ⟨.hbm, 715, rfl⟩
abbrev main_v594 : Ref sig .tc := ⟨.hbm, 716, rfl⟩
abbrev main_v595 : Ref sig .tc := ⟨.hbm, 717, rfl⟩
abbrev main_v596 : Ref sig .tc := ⟨.hbm, 718, rfl⟩
abbrev main_v597 : Ref sig .tc := ⟨.hbm, 719, rfl⟩
abbrev main_call3_cst : Ref sig .tc := ⟨.hbm, 720, rfl⟩
abbrev main_call3_v0 : Ref sig .tc := ⟨.hbm, 721, rfl⟩
abbrev main_v598 : Ref sig .tc := ⟨.hbm, 722, rfl⟩
abbrev main_v599 : Ref sig .tc := ⟨.hbm, 723, rfl⟩
abbrev main_cst_94 : Ref sig .tc := ⟨.hbm, 724, rfl⟩
abbrev main_v600 : Ref sig .tc := ⟨.hbm, 725, rfl⟩
abbrev main_v601 : Ref sig .tc := ⟨.hbm, 726, rfl⟩
abbrev main_v602 : Ref sig .tc := ⟨.hbm, 727, rfl⟩
abbrev main_v603 : Ref sig .tc := ⟨.hbm, 728, rfl⟩
abbrev main_v604 : Ref sig .tc := ⟨.hbm, 729, rfl⟩
abbrev main_v605 : Ref sig .tc := ⟨.hbm, 730, rfl⟩
abbrev main_cst_95 : Ref sig .tc := ⟨.hbm, 731, rfl⟩
abbrev main_v606 : Ref sig .tc := ⟨.hbm, 732, rfl⟩
abbrev main_v607 : Ref sig .tc := ⟨.hbm, 733, rfl⟩
abbrev main_cst_96 : Ref sig .tc := ⟨.hbm, 734, rfl⟩
abbrev main_v608 : Ref sig .tc := ⟨.hbm, 735, rfl⟩
abbrev main_v609 : Ref sig .tc := ⟨.hbm, 736, rfl⟩
abbrev main_v610 : Ref sig .tc := ⟨.hbm, 737, rfl⟩
abbrev main_v611 : Ref sig .tc := ⟨.hbm, 738, rfl⟩
abbrev main_v612 : Ref sig .tc := ⟨.hbm, 739, rfl⟩
abbrev main_cst_97 : Ref sig .tc := ⟨.hbm, 740, rfl⟩
abbrev main_v613 : Ref sig .tc := ⟨.hbm, 741, rfl⟩
abbrev main_v614 : Ref sig .tc := ⟨.hbm, 742, rfl⟩
abbrev main_cst_98 : Ref sig .tc := ⟨.hbm, 743, rfl⟩
abbrev main_v615 : Ref sig .tc := ⟨.hbm, 744, rfl⟩
abbrev main_v616 : Ref sig .tc := ⟨.hbm, 745, rfl⟩
abbrev main_v617 : Ref sig .tc := ⟨.hbm, 746, rfl⟩
abbrev main_v618 : Ref sig .tc := ⟨.hbm, 747, rfl⟩
abbrev main_cst_99 : Ref sig .tc := ⟨.hbm, 748, rfl⟩
abbrev main_v619 : Ref sig .tc := ⟨.hbm, 749, rfl⟩
abbrev main_v620 : Ref sig .tc := ⟨.hbm, 750, rfl⟩
abbrev main_v621 : Ref sig .tc := ⟨.hbm, 751, rfl⟩
abbrev main_v622 : Ref sig .tc := ⟨.hbm, 752, rfl⟩
abbrev main_v623 : Ref sig .tc := ⟨.hbm, 753, rfl⟩
abbrev main_v624 : Ref sig .tc := ⟨.hbm, 754, rfl⟩
abbrev main_v625 : Ref sig .tc := ⟨.hbm, 755, rfl⟩
abbrev main_v626 : Ref sig .tc := ⟨.hbm, 756, rfl⟩
abbrev main_v627 : Ref sig .tc := ⟨.hbm, 757, rfl⟩
abbrev main_v628 : Ref sig .tc := ⟨.hbm, 758, rfl⟩
abbrev main_v629 : Ref sig .tc := ⟨.hbm, 759, rfl⟩
abbrev main_call4_cst : Ref sig .tc := ⟨.hbm, 760, rfl⟩
abbrev main_call4_v0 : Ref sig .tc := ⟨.hbm, 761, rfl⟩
abbrev main_v630 : Ref sig .tc := ⟨.hbm, 762, rfl⟩
abbrev main_v631 : Ref sig .tc := ⟨.hbm, 763, rfl⟩
abbrev main_cst_100 : Ref sig .tc := ⟨.hbm, 764, rfl⟩
abbrev main_v632 : Ref sig .tc := ⟨.hbm, 765, rfl⟩
abbrev main_v633 : Ref sig .tc := ⟨.hbm, 766, rfl⟩
abbrev main_v634 : Ref sig .tc := ⟨.hbm, 767, rfl⟩
abbrev main_v635 : Ref sig .tc := ⟨.hbm, 768, rfl⟩
abbrev main_v636 : Ref sig .tc := ⟨.hbm, 769, rfl⟩
abbrev main_v637 : Ref sig .tc := ⟨.hbm, 770, rfl⟩
abbrev main_cst_101 : Ref sig .tc := ⟨.hbm, 771, rfl⟩
abbrev main_v638 : Ref sig .tc := ⟨.hbm, 772, rfl⟩
abbrev main_v639 : Ref sig .tc := ⟨.hbm, 773, rfl⟩
abbrev main_cst_102 : Ref sig .tc := ⟨.hbm, 774, rfl⟩
abbrev main_v640 : Ref sig .tc := ⟨.hbm, 775, rfl⟩
abbrev main_v641 : Ref sig .tc := ⟨.hbm, 776, rfl⟩
abbrev main_v642 : Ref sig .tc := ⟨.hbm, 777, rfl⟩
abbrev main_v643 : Ref sig .tc := ⟨.hbm, 778, rfl⟩
abbrev main_v644 : Ref sig .tc := ⟨.hbm, 779, rfl⟩
abbrev main_cst_103 : Ref sig .tc := ⟨.hbm, 780, rfl⟩
abbrev main_v645 : Ref sig .tc := ⟨.hbm, 781, rfl⟩
abbrev main_v646 : Ref sig .tc := ⟨.hbm, 782, rfl⟩
abbrev main_cst_104 : Ref sig .tc := ⟨.hbm, 783, rfl⟩
abbrev main_v647 : Ref sig .tc := ⟨.hbm, 784, rfl⟩
abbrev main_v648 : Ref sig .tc := ⟨.hbm, 785, rfl⟩
abbrev main_v649 : Ref sig .tc := ⟨.hbm, 786, rfl⟩
abbrev main_v650 : Ref sig .tc := ⟨.hbm, 787, rfl⟩
abbrev main_cst_105 : Ref sig .tc := ⟨.hbm, 788, rfl⟩
abbrev main_v651 : Ref sig .tc := ⟨.hbm, 789, rfl⟩
abbrev main_v652 : Ref sig .tc := ⟨.hbm, 790, rfl⟩
abbrev main_v653 : Ref sig .tc := ⟨.hbm, 791, rfl⟩
abbrev main_v654 : Ref sig .tc := ⟨.hbm, 792, rfl⟩
abbrev main_v655 : Ref sig .tc := ⟨.hbm, 793, rfl⟩
abbrev main_v656 : Ref sig .tc := ⟨.hbm, 794, rfl⟩
abbrev main_v657 : Ref sig .tc := ⟨.hbm, 795, rfl⟩
abbrev main_v658 : Ref sig .tc := ⟨.hbm, 796, rfl⟩
abbrev main_v659 : Ref sig .tc := ⟨.hbm, 797, rfl⟩
abbrev main_v660 : Ref sig .tc := ⟨.hbm, 798, rfl⟩
abbrev main_v661 : Ref sig .tc := ⟨.hbm, 799, rfl⟩
abbrev main_call5_cst : Ref sig .tc := ⟨.hbm, 800, rfl⟩
abbrev main_call5_v0 : Ref sig .tc := ⟨.hbm, 801, rfl⟩
abbrev main_v662 : Ref sig .tc := ⟨.hbm, 802, rfl⟩

abbrev nD : Nat := 1
abbrev τ : Topo := Topo.v7x

variable {F : FTy → Type} [FloatOps F]

class Facts₀ : Prop where
  transposes_S128x6_S6x128_1_0 : S128x6.Transposes [1, 0] S6x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x4_S4x128_1_0 : S128x4.Transposes [1, 0] S4x128
  bcast_S1x128_S50000x128_0_1 : S1x128.BroadcastsInDim S50000x128 (![0, 1] : Fin 2 → Fin S50000x128.rank)
  transposes_S128x3_S3x128_1_0 : S128x3.Transposes [1, 0] S3x128
  bcast_S1x128_S5000x128_0_1 : S1x128.BroadcastsInDim S5000x128 (![0, 1] : Fin 2 → Fin S5000x128.rank)
  slices_S2x6x128x128_S1x6x128x128_0_0_0_0 : S2x6x128x128.Slices ![0, 0, 0, 0] S1x6x128x128
  shapeCasts_S1x6x128x128_S6x128x128 : S1x6x128x128.ShapeCasts S6x128x128
  slices_S2x6x128_S1x6x128_0_0_0 : S2x6x128.Slices ![0, 0, 0] S1x6x128
  shapeCasts_S1x6x128_S6x128 : S1x6x128.ShapeCasts S6x128
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  slices_S6x128x128_S1x128x128_1_0_0 : S6x128x128.Slices ![1, 0, 0] S1x128x128
  slices_S6x128_S1x128_1_0 : S6x128.Slices ![1, 0] S1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S6x128x128_S1x128x128_2_0_0 : S6x128x128.Slices ![2, 0, 0] S1x128x128
  slices_S6x128_S1x128_2_0 : S6x128.Slices ![2, 0] S1x128
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  slices_S6x128x128_S1x128x128_5_0_0 : S6x128x128.Slices ![5, 0, 0] S1x128x128
  slices_S6x128_S1x128_5_0 : S6x128.Slices ![5, 0] S1x128
  slices_S2x3x128_S1x1x128_0_0_0 : S2x3x128.Slices ![0, 0, 0] S1x1x128
  shapeCasts_S1x1x128_S128 : S1x1x128.ShapeCasts S128
  reducesTo_S100000x128_S100000_d1 : S100000x128.ReducesTo [1] S100000
  h_S_ : 0 < S_.numel
  bcast_S_S100000x1 : S_.BroadcastsInDim S100000x1 (![] : Fin 0 → Fin S100000x1.rank)
  slices_S2x3x128_S1x1x128_0_1_0 : S2x3x128.Slices ![0, 1, 0] S1x1x128
  reducesTo_S50000x128_S50000_d1 : S50000x128.ReducesTo [1] S50000
  bcast_S_S50000x1 : S_.BroadcastsInDim S50000x1 (![] : Fin 0 → Fin S50000x1.rank)
  slices_S2x3x128_S1x1x128_0_2_0 : S2x3x128.Slices ![0, 2, 0] S1x1x128
  reducesTo_S5000x128_S5000_d1 : S5000x128.ReducesTo [1] S5000
  bcast_S_S5000x1 : S_.BroadcastsInDim S5000x1 (![] : Fin 0 → Fin S5000x1.rank)
  slices_S2x6x128x128_S1x6x128x128_1_0_0_0 : S2x6x128x128.Slices ![1, 0, 0, 0] S1x6x128x128
  slices_S2x6x128_S1x6x128_1_0_0 : S2x6x128.Slices ![1, 0, 0] S1x6x128
  slices_S2x3x128_S1x1x128_1_0_0 : S2x3x128.Slices ![1, 0, 0] S1x1x128
  slices_S2x3x128_S1x1x128_1_1_0 : S2x3x128.Slices ![1, 1, 0] S1x1x128
  slices_S2x3x128_S1x1x128_1_2_0 : S2x3x128.Slices ![1, 2, 0] S1x1x128
  dot_S100000x6_S6x128_S100000x128_1_0_0_1_n_n_wf : DotDims.WF S100000x6 S6x128 S100000x128 [1] [0] [0] [1] [] []
  dot_S50000x4_S4x128_S50000x128_1_0_0_1_n_n_wf : DotDims.WF S50000x4 S4x128 S50000x128 [1] [0] [0] [1] [] []
  dot_S5000x3_S3x128_S5000x128_1_0_0_1_n_n_wf : DotDims.WF S5000x3 S3x128 S5000x128 [1] [0] [0] [1] [] []
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S100000x128_S300000x1_S300000x128_1_0_n_n_0_1_1128_wf : GatherDims.WF S100000x128 S300000x1 S300000x128 [1] [0] [] [0] [] 1 ![1, 128]
  scatter_S5000x128_S300000x1_S300000x128_1_0_0_1_wf : ScatterDims.WF S5000x128 S300000x1 S300000x128 [1] [0] [0] 1
  scatter_S5000_S300000x1_S300000_n_0_0_1_wf : ScatterDims.WF S5000 S300000x1 S300000 [] [0] [0] 1
  dot_S5000x128_S128x128_S5000x128_1_0_0_1_n_n_wf : DotDims.WF S5000x128 S128x128 S5000x128 [1] [0] [0] [1] [] []
  gather_S5000x128_S300000x1_S300000x128_1_0_n_n_0_1_1128_wf : GatherDims.WF S5000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  gather_S50000x128_S150000x1_S150000x128_1_0_n_n_0_1_1128_wf : GatherDims.WF S50000x128 S150000x1 S150000x128 [1] [0] [] [0] [] 1 ![1, 128]
  scatter_S5000x128_S150000x1_S150000x128_1_0_0_1_wf : ScatterDims.WF S5000x128 S150000x1 S150000x128 [1] [0] [0] 1
  scatter_S5000_S150000x1_S150000_n_0_0_1_wf : ScatterDims.WF S5000 S150000x1 S150000 [] [0] [0] 1
  gather_S5000x128_S150000x1_S150000x128_1_0_n_n_0_1_1128_wf : GatherDims.WF S5000x128 S150000x1 S150000x128 [1] [0] [] [0] [] 1 ![1, 128]
  scatter_S50000x128_S150000x1_S150000x128_1_0_0_1_wf : ScatterDims.WF S50000x128 S150000x1 S150000x128 [1] [0] [0] 1
  scatter_S50000_S150000x1_S150000_n_0_0_1_wf : ScatterDims.WF S50000 S150000x1 S150000 [] [0] [0] 1

variable [Facts₀]

def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S5000x128_S300000x1_S300000x128_1_0_0_1 : ScatterDims S5000x128 S300000x1 S300000x128 where
  updateWindowDims := [1]
  insertedWindowDims := [0]
  scatterDimsToOperandDims := [0]
  indexVectorDim := 1
  wf := scatter_S5000x128_S300000x1_S300000x128_1_0_0_1_wf
def scatter_S5000_S300000x1_S300000_n_0_0_1 : ScatterDims S5000 S300000x1 S300000 where
  updateWindowDims := []
  insertedWindowDims := [0]
  scatterDimsToOperandDims := [0]
  indexVectorDim := 1
  wf := scatter_S5000_S300000x1_S300000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x128_S300000x1_S300000x128_1_0_n_n_0_1_1128 : GatherDims S5000x128 S300000x1 S300000x128 where
  offsetDims := [1]
  collapsedSliceDims := [0]
  operandBatchingDims := []
  startIndicesBatchingDims := []
  startIndexMap := [0]
  indexVectorDim := 1
  sliceSizes := ![1, 128]
  wf := gather_S5000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S5000x128_S150000x1_S150000x128_1_0_0_1 : ScatterDims S5000x128 S150000x1 S150000x128 where
  updateWindowDims := [1]
  insertedWindowDims := [0]
  scatterDimsToOperandDims := [0]
  indexVectorDim := 1
  wf := scatter_S5000x128_S150000x1_S150000x128_1_0_0_1_wf
def scatter_S5000_S150000x1_S150000_n_0_0_1 : ScatterDims S5000 S150000x1 S150000 where
  updateWindowDims := []
  insertedWindowDims := [0]
  scatterDimsToOperandDims := [0]
  indexVectorDim := 1
  wf := scatter_S5000_S150000x1_S150000_n_0_0_1_wf
def gather_S5000x128_S150000x1_S150000x128_1_0_n_n_0_1_1128 : GatherDims S5000x128 S150000x1 S150000x128 where
  offsetDims := [1]
  collapsedSliceDims := [0]
  operandBatchingDims := []
  startIndicesBatchingDims := []
  startIndexMap := [0]
  indexVectorDim := 1
  sliceSizes := ![1, 128]
  wf := gather_S5000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf

class Facts : Prop extends Facts₀ where

variable [Facts]
-- ==== Proof.KernelRun.lean ====
/-
  The idealized kernel's whole run with its three results named.

  The program is six launches of the fused layer kernel among stretches of host operations.  Run from any memory with
  zero counters, every weakly fair execution terminates without a fault; at the end each of the three result buffers holds
  what the fold of the segments leaves there — the host stretches applied in order, each launch replacing its output
  array by the blocks its grid points wrote — and every argument array is as launched.  The launch theorem is applied to
  the same segments and the same per-launch data as in the frame statement; only the last step differs, which here keeps
  the results' final contents instead of forgetting them.
-/
import proofs.«172654_j31121333027532_2_alg».proof.Proof.FrameIdealP

set_option maxRecDepth 16384
set_option maxHeartbeats 4000000

noncomputable section

namespace Cert.KernelIdeal.Results

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the three results at the final contents of the segments' fold and the
    arguments unchanged. -/
theorem run : θ_run defs (onTc (τ := τ) (main (F := F))) ⟨m, fun _ => 0, ρ⟩ (fun r => ∀ c : Dev nD,
      r.2.mem ((c.tc : Thread nD τ).loc main_v300) = W12 m ρ c (Proc.devRef .tc main_v300)
      ∧       r.2.mem ((c.tc : Thread nD τ).loc main_v317) = W12 m ρ c (Proc.devRef .tc main_v317)
      ∧       r.2.mem ((c.tc : Thread nD τ).loc main_v334) = W12 m ρ c (Proc.devRef .tc main_v334)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v300 (by decide)),
       h c _ (mem_uc main_v317 (by decide)),
       h c _ (mem_uc main_v334 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.Results

end
-- ==== Proof.RowSpec.lean ====
/-
  One row of a two-relation mean-aggregating graph-convolution layer followed by layer normalisation and the
  positive part, on the extended reals.

  For one destination node the layer receives two aggregated messages `msg1 msg2` (128 features each), the node's own
  features `x`, and for each relation a neighbour matrix `wl`, a root matrix `wr` (both read as `w k j`: input
  feature `k`, output feature `j`) and a bias `b`.  A relation's output is `(msg · wl + b) + x · wr`; the two
  relations are averaged with the factor one half; the averaged row is normalised — subtract its mean, multiply by the
  reciprocal square root of its variance plus a small constant, scale by `g` and shift by `be` — and negative entries
  are replaced by zero.  Both programs compute exactly this function of a row; they differ only in how the message
  is formed from the neighbour sum and the neighbour count (`msg_eq` below).
-/
import Idealize.ShloMosaic.PureOps.Ideal
import Idealize.ShloMosaic.Lib.ValueIdx

noncomputable section

namespace Cert.RowSpec

open Idealize.ShloMosaic Idealize.ShloMosaic.ValueIdx

/-- The float constants the programs spell, as the extended reals their patterns denote. -/
def zero32 : EReal := Ideal.ofBits .f32 0x00000000#32
def one32 : EReal := Ideal.ofBits .f32 0x3F800000#32
def half32 : EReal := Ideal.ofBits .f32 0x3F000000#32
def c128 : EReal := Ideal.ofBits .f32 0x43000000#32
def eps32 : EReal := Ideal.ofBits .f32 0x3727C5AC#32

/-- One relation's output row: `(msg · wl + b) + x · wr`. -/
def rel (msg x : Fin 128 → EReal) (wl wr : Fin 128 → Fin 128 → EReal) (b : Fin 128 → EReal) (j : Fin 128) : EReal :=
  ((∑ k : Fin 128, msg k * wl k j) + b j) + ∑ k : Fin 128, x k * wr k j

/-- The mean of a row of 128 entries: the sum from zero, divided by 128. -/
def mean (o : Fin 128 → EReal) : EReal := Ideal.div (zero32 + ∑ j : Fin 128, o j) c128

/-- Layer normalisation of a row, scaled and shifted, then the positive part. -/
def lnrelu (o g be : Fin 128 → EReal) (j : Fin 128) : EReal :=
  max ((((o j - mean o) * Ideal.rsqrt (mean (fun i => (o i - mean o) * (o i - mean o)) + eps32)) * g j) + be j) zero32

/-- The whole row: the two relations averaged, normalised, positive part. -/
def rowOut (msg1 msg2 x : Fin 128 → EReal) (wl1 wl2 wr1 wr2 : Fin 128 → Fin 128 → EReal) (b1 b2 g be : Fin 128 → EReal) :
    Fin 128 → EReal :=
  lnrelu (fun j => half32 * (rel msg1 x wl1 wr1 b1 j + rel msg2 x wl2 wr2 b2 j)) g be

/-- The pattern `0x3F800000` denotes the number one. -/
theorem one32_eq : one32 = 1 := by
  unfold one32
  simp [Ideal.ofBits, Ideal.ieee]
  rw [← EReal.coe_mul, ← EReal.coe_one]
  congr 1
  norm_num

/-- The largest of a count and one is never zero. -/
theorem max_one_ne_zero (c : EReal) : max c one32 ≠ 0 := by
  rw [one32_eq]
  have : (0 : EReal) < max c 1 := lt_of_lt_of_le zero_lt_one (le_max_right c 1)
  exact this.ne'

/-- Scaling a neighbour sum by the reciprocal of `max count 1` is dividing it by `max count 1`: the divisor is not
    zero, so both are the product with its inverse — on every extended real, infinite sums and counts included. -/
theorem msg_eq (s c : EReal) : s * Ideal.div one32 (max c one32) = Ideal.div s (max c one32) := by
  unfold Ideal.div
  rw [if_neg (max_one_ne_zero c), if_neg (max_one_ne_zero c), one32_eq, one_mul]

/-! ## The layer over whole arrays

For `n` destination nodes the layer reads two neighbour-sum arrays `a0 a2` and the nodes' own features `a4`
(`n × 128`), two columns `a1 a3` (`n × 1`) that scale the sums row by row, four `128 × 128` matrices `a5 a6`
(neighbour) and `a7 a8` (root), read as `w (k, j)` with `k` the contracted feature, and four vectors of length 128:
two biases, a scale and a shift. -/

/-- Entry `(r, j)` of the layer's output from the thirteen arrays it reads. -/
def layerAt {n : Nat} (a0 : (⟨2, ![n, 128]⟩ : Shape).Idx → EReal) (a1 : (⟨2, ![n, 1]⟩ : Shape).Idx → EReal)
    (a2 : (⟨2, ![n, 128]⟩ : Shape).Idx → EReal) (a3 : (⟨2, ![n, 1]⟩ : Shape).Idx → EReal)
    (a4 : (⟨2, ![n, 128]⟩ : Shape).Idx → EReal)
    (a5 a6 a7 a8 : (⟨2, ![128, 128]⟩ : Shape).Idx → EReal) (a9 a10 a11 a12 : (⟨1, ![128]⟩ : Shape).Idx → EReal)
    (r : Fin n) (j : Fin 128) : EReal :=
  rowOut (fun k => a0 (ix2 r k) * a1 (ix2 r 0)) (fun k => a2 (ix2 r k) * a3 (ix2 r 0)) (fun k => a4 (ix2 r k))
    (fun k j => a5 (ix2 k j)) (fun k j => a6 (ix2 k j)) (fun k j => a7 (ix2 k j)) (fun k j => a8 (ix2 k j))
    (fun j => a9 (ix1 j)) (fun j => a10 (ix1 j)) (fun j => a11 (ix1 j)) (fun j => a12 (ix1 j)) j

/-- The row function respects equality of its arguments entry by entry. -/
theorem rowOut_congr {m1 m2 x m1' m2' x' : Fin 128 → EReal} {wl1 wl2 wr1 wr2 wl1' wl2' wr1' wr2' : Fin 128 → Fin 128 → EReal}
    {b1 b2 g be b1' b2' g' be' : Fin 128 → EReal} {j j' : Fin 128}
    (h1 : ∀ k, m1 k = m1' k) (h2 : ∀ k, m2 k = m2' k) (hx : ∀ k, x k = x' k)
    (hwl1 : ∀ k j, wl1 k j = wl1' k j) (hwl2 : ∀ k j, wl2 k j = wl2' k j)
    (hwr1 : ∀ k j, wr1 k j = wr1' k j) (hwr2 : ∀ k j, wr2 k j = wr2' k j)
    (hb1 : ∀ j, b1 j = b1' j) (hb2 : ∀ j, b2 j = b2' j) (hg : ∀ j, g j = g' j) (hbe : ∀ j, be j = be' j) (hj : j = j') :
    rowOut m1 m2 x wl1 wl2 wr1 wr2 b1 b2 g be j = rowOut m1' m2' x' wl1' wl2' wr1' wr2' b1' b2' g' be' j' := by
  obtain rfl : m1 = m1' := funext h1
  obtain rfl : m2 = m2' := funext h2
  obtain rfl : x = x' := funext hx
  obtain rfl : wl1 = wl1' := funext fun k => funext (hwl1 k)
  obtain rfl : wl2 = wl2' := funext fun k => funext (hwl2 k)
  obtain rfl : wr1 = wr1' := funext fun k => funext (hwr1 k)
  obtain rfl : wr2 = wr2' := funext fun k => funext (hwr2 k)
  obtain rfl : b1 = b1' := funext hb1
  obtain rfl : b2 = b2' := funext hb2
  obtain rfl : g = g' := funext hg
  obtain rfl : be = be' := funext hbe
  rw [hj]

end Cert.RowSpec

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«172654_j31121333027532_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.BodyRowOps.lean ====
/-
  Row-wise readings, on the extended reals, of the pieces a fused two-relation graph-convolution layer with layer
  normalisation is assembled from.  Every statement is about a block of n rows and 128 features, for any n, read at
  the entry (r, j):

  * the neighbour sum scaled by the reciprocal-count column and multiplied by a weight matrix:
    the sum over k of (s r k * c r) * w k j;
  * one relation's output (message times wl, plus the bias laid along every row, plus the node's own row times wr);
  * the mean of a row as the kernel takes it (the lane sum from zero, viewed as a column, divided by 128);
  * the whole normalisation of a matrix o (subtract the row mean, multiply by the reciprocal square root of the row
    variance plus a small constant, scale, shift, positive part): the function lnrelu of the row r of o.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«172654_j31121333027532_2_alg».proof.Proof.RowSpec
import proofs.«172654_j31121333027532_2_alg».proof.Proof.LibMatmulPlain
import proofs.«172654_j31121333027532_2_alg».proof.Proof.LibKeepdims
import proofs.«172654_j31121333027532_2_alg».proof.Proof.LibRows

noncomputable section

open scoped BigOperators

namespace Cert.BodyOps

open Idealize.ShloMosaic Idealize.ShloMosaic.ValueIdx

variable {n : Nat}

/-- A vector of 128 entries cast to its own shape, then to one row, then laid along every row: the entry (r, j) is
    the vector's entry j. -/
theorem bias2_apply (b : FVec Ideal ⟨1, ![128]⟩ .f32) (h0 : (⟨1, ![128]⟩ : Shape).ShapeCasts ⟨1, ![128]⟩)
    (h1 : (⟨1, ![128]⟩ : Shape).ShapeCasts ⟨2, ![1, 128]⟩) (hb : (⟨2, ![1, 128]⟩ : Shape).Broadcasts ⟨2, ![n, 128]⟩)
    (r : Fin n) (j : Fin 128) :
    broadcastTo ⟨2, ![n, 128]⟩ (shapeCast ⟨2, ![1, 128]⟩ (shapeCast ⟨1, ![128]⟩ b h0) h1) hb (ix2 r j) = b (ix1 j) := by
  rw [broadcastTo_1b_ab_apply, shapeCast_a_1a_apply, shapeCast_self]

/-- The same without the cast to its own shape. -/
theorem bias1_apply (b : FVec Ideal ⟨1, ![128]⟩ .f32)
    (h1 : (⟨1, ![128]⟩ : Shape).ShapeCasts ⟨2, ![1, 128]⟩) (hb : (⟨2, ![1, 128]⟩ : Shape).Broadcasts ⟨2, ![n, 128]⟩)
    (r : Fin n) (j : Fin 128) :
    broadcastTo ⟨2, ![n, 128]⟩ (shapeCast ⟨2, ![1, 128]⟩ b h1) hb (ix2 r j) = b (ix1 j) := by
  rw [broadcastTo_1b_ab_apply, shapeCast_a_1a_apply]

/-- A block times a weight matrix, both cast to their own shapes, the block rounded to the narrower format (the
    identity here), accumulated from zero: the inner product of row r with column j. -/
theorem own_matmul_apply (dd : DotDims ⟨2, ![n, 128]⟩ ⟨2, ![128, 128]⟩ ⟨2, ![n, 128]⟩) (hdd : dd = DotDims.plain n 128 128)
    (x : FVec Ideal ⟨2, ![n, 128]⟩ .f32) (w : FVec Ideal ⟨2, ![128, 128]⟩ .bf16)
    (h1 : (⟨2, ![n, 128]⟩ : Shape).ShapeCasts ⟨2, ![n, 128]⟩) (h3 : (⟨2, ![128, 128]⟩ : Shape).ShapeCasts ⟨2, ![128, 128]⟩)
    (hlt : FTy.bits .bf16 < FTy.bits .f32) (r : Fin n) (j : Fin 128) :
    matmul dd none (truncf .bf16 (shapeCast ⟨2, ![n, 128]⟩ x h1) hlt) (shapeCast ⟨2, ![128, 128]⟩ w h3)
        (constant (F := Ideal) ⟨2, ![n, 128]⟩ .f32 0x00000000#32) (ix2 r j)
      = ∑ k : Fin 128, x (ix2 r k) * w (ix2 k j) := by
  subst hdd
  rw [LibMatmulPlain.matmul_plain_zero_apply, shapeCast_self, shapeCast_self]
  rfl

/-- The neighbour sum scaled row by row by a column, rounded (the identity here), times a weight matrix, accumulated
    from zero: the sum over k of (s r k * c r) * w k j. -/
theorem scaled_matmul_apply (dd : DotDims ⟨2, ![n, 128]⟩ ⟨2, ![128, 128]⟩ ⟨2, ![n, 128]⟩) (hdd : dd = DotDims.plain n 128 128)
    (s : FVec Ideal ⟨2, ![n, 128]⟩ .f32) (c : FVec Ideal ⟨2, ![n, 1]⟩ .f32) (w : FVec Ideal ⟨2, ![128, 128]⟩ .bf16)
    (h1 : (⟨2, ![n, 128]⟩ : Shape).ShapeCasts ⟨2, ![n, 128]⟩) (h2 : (⟨2, ![n, 1]⟩ : Shape).ShapeCasts ⟨2, ![n, 1]⟩)
    (hb : (⟨2, ![n, 1]⟩ : Shape).Broadcasts ⟨2, ![n, 128]⟩) (h3 : (⟨2, ![128, 128]⟩ : Shape).ShapeCasts ⟨2, ![128, 128]⟩)
    (hlt : FTy.bits .bf16 < FTy.bits .f32) (r : Fin n) (j : Fin 128) :
    matmul dd none
        (truncf .bf16 (mulf (shapeCast ⟨2, ![n, 128]⟩ s h1) (broadcastTo ⟨2, ![n, 128]⟩ (shapeCast ⟨2, ![n, 1]⟩ c h2) hb)) hlt)
        (shapeCast ⟨2, ![128, 128]⟩ w h3) (constant (F := Ideal) ⟨2, ![n, 128]⟩ .f32 0x00000000#32) (ix2 r j)
      = ∑ k : Fin 128, (s (ix2 r k) * c (ix2 r (0 : Fin 1))) * w (ix2 k j) := by
  subst hdd
  rw [LibMatmulPlain.matmul_plain_zero_apply, shapeCast_self, shapeCast_self, shapeCast_self]
  refine Finset.sum_congr rfl fun k _ => ?_
  rw [truncf_apply, mulf_apply, Keepdims.broadcastTo_a1_ab_apply]

/-- One relation's output: the scaled neighbour sum times wl, plus the bias along every row, plus the node's own row
    times wr. -/
theorem rel_apply (dd : DotDims ⟨2, ![n, 128]⟩ ⟨2, ![128, 128]⟩ ⟨2, ![n, 128]⟩) (hdd : dd = DotDims.plain n 128 128)
    (s : FVec Ideal ⟨2, ![n, 128]⟩ .f32) (c : FVec Ideal ⟨2, ![n, 1]⟩ .f32) (x : FVec Ideal ⟨2, ![n, 128]⟩ .f32)
    (wl wr : FVec Ideal ⟨2, ![128, 128]⟩ .bf16) (b : FVec Ideal ⟨1, ![128]⟩ .f32)
    (h1 : (⟨2, ![n, 128]⟩ : Shape).ShapeCasts ⟨2, ![n, 128]⟩) (h2 : (⟨2, ![n, 1]⟩ : Shape).ShapeCasts ⟨2, ![n, 1]⟩)
    (hb : (⟨2, ![n, 1]⟩ : Shape).Broadcasts ⟨2, ![n, 128]⟩) (h3 : (⟨2, ![128, 128]⟩ : Shape).ShapeCasts ⟨2, ![128, 128]⟩)
    (hlt : FTy.bits .bf16 < FTy.bits .f32) (h0 : (⟨1, ![128]⟩ : Shape).ShapeCasts ⟨1, ![128]⟩)
    (h4 : (⟨1, ![128]⟩ : Shape).ShapeCasts ⟨2, ![1, 128]⟩) (hb2 : (⟨2, ![1, 128]⟩ : Shape).Broadcasts ⟨2, ![n, 128]⟩)
    (r : Fin n) (j : Fin 128) :
    addf
        (addf
          (matmul dd none
            (truncf .bf16 (mulf (shapeCast ⟨2, ![n, 128]⟩ s h1) (broadcastTo ⟨2, ![n, 128]⟩ (shapeCast ⟨2, ![n, 1]⟩ c h2) hb)) hlt)
            (shapeCast ⟨2, ![128, 128]⟩ wl h3) (constant (F := Ideal) ⟨2, ![n, 128]⟩ .f32 0x00000000#32))
          (broadcastTo ⟨2, ![n, 128]⟩ (shapeCast ⟨2, ![1, 128]⟩ (shapeCast ⟨1, ![128]⟩ b h0) h4) hb2))
        (matmul dd none (truncf .bf16 (shapeCast ⟨2, ![n, 128]⟩ x h1) hlt) (shapeCast ⟨2, ![128, 128]⟩ wr h3)
          (constant (F := Ideal) ⟨2, ![n, 128]⟩ .f32 0x00000000#32)) (ix2 r j)
      = RowSpec.rel (fun k => s (ix2 r k) * c (ix2 r (0 : Fin 1))) (fun k => x (ix2 r k)) (fun k j => wl (ix2 k j))
          (fun k j => wr (ix2 k j)) (fun j => b (ix1 j)) j := by
  rw [addf_apply, addf_apply, scaled_matmul_apply dd hdd, bias2_apply, own_matmul_apply dd hdd]
  rfl

/-- The mean of a row as the kernel takes it: the lane sum from zero, viewed as a column, divided by 128. -/
theorem mean_col_apply (o : FVec Ideal ⟨2, ![n, 128]⟩ .f32) (h : (⟨2, ![n, 128]⟩ : Shape).Reduces [1] ⟨1, ![n]⟩)
    (hφ : FKind.Formats .f32) (hacc : (0x00000000#32 : BitVec FTy.f32.bits) = FKind.add.neutral .f32 hφ)
    (hc : (⟨1, ![n]⟩ : Shape).ShapeCasts ⟨2, ![n, 1]⟩) (r : Fin n) :
    (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) (ix2 r (0 : Fin 1))
      = RowSpec.mean (fun j => o (ix2 r j)) := by
  rw [divf_apply, Keepdims.shapeCast_a_a1_apply, LibRows.lane_sum_apply, broadcast_apply]
  unfold RowSpec.mean RowSpec.zero32 RowSpec.c128
  rw [Ideal.ofBits_zero_f32, zero_add]
  rfl

/-- Layer normalisation of a block row by row, scaled, shifted, positive part: at (r, j) it is lnrelu of row r. -/
theorem lnrelu_apply (o : FVec Ideal ⟨2, ![n, 128]⟩ .f32) (g be : FVec Ideal ⟨1, ![128]⟩ .f32)
    (h : (⟨2, ![n, 128]⟩ : Shape).Reduces [1] ⟨1, ![n]⟩)
    (hφ : FKind.Formats .f32) (hacc : (0x00000000#32 : BitVec FTy.f32.bits) = FKind.add.neutral .f32 hφ)
    (hc : (⟨1, ![n]⟩ : Shape).ShapeCasts ⟨2, ![n, 1]⟩) (hb : (⟨2, ![n, 1]⟩ : Shape).Broadcasts ⟨2, ![n, 128]⟩)
    (h0 : (⟨1, ![128]⟩ : Shape).ShapeCasts ⟨1, ![128]⟩)
    (h4 : (⟨1, ![128]⟩ : Shape).ShapeCasts ⟨2, ![1, 128]⟩) (hb2 : (⟨2, ![1, 128]⟩ : Shape).Broadcasts ⟨2, ![n, 128]⟩)
    (r : Fin n) (j : Fin 128) :
    maximumf
      (addf
        (mulf
          (mulf (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb))
            (broadcastTo ⟨2, ![n, 128]⟩ (rsqrt (addf (divf (shapeCast ⟨2, ![n, 1]⟩ (multiReduction .add [1] ⟨1, ![n]⟩ (mulf (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb)) (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb))) 0x00000000#32 h hφ hacc) hc) (broadcast ⟨2, ![n, 1]⟩ (Scalar.ofBits (F := Ideal) .f32 0x43000000#32))) (broadcast ⟨2, ![n, 1]⟩ (Scalar.ofBits (F := Ideal) .f32 0x3727C5AC#32)))) hb))
          (broadcastTo ⟨2, ![n, 128]⟩ (shapeCast ⟨2, ![1, 128]⟩ (shapeCast ⟨1, ![128]⟩ g h0) h4) hb2))
        (broadcastTo ⟨2, ![n, 128]⟩ (shapeCast ⟨2, ![1, 128]⟩ (shapeCast ⟨1, ![128]⟩ be h0) h4) hb2))
      (broadcast ⟨2, ![n, 128]⟩ (Scalar.ofBits (F := Ideal) .f32 0x00000000#32)) (ix2 r j)
      = RowSpec.lnrelu (fun j => o (ix2 r j)) (fun j => g (ix1 j)) (fun j => be (ix1 j)) j := by
  have hm := mean_col_apply o h hφ hacc hc r
  have hsub : ∀ i : Fin 128, (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb)) (ix2 r i)
      = o (ix2 r i) - RowSpec.mean (fun j => o (ix2 r j)) := fun i => by
    rw [subf_apply, Keepdims.broadcastTo_a1_ab_apply, hm]
  have hv : (divf (shapeCast ⟨2, ![n, 1]⟩ (multiReduction .add [1] ⟨1, ![n]⟩ (mulf (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb)) (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb))) 0x00000000#32 h hφ hacc) hc) (broadcast ⟨2, ![n, 1]⟩ (Scalar.ofBits (F := Ideal) .f32 0x43000000#32))) (ix2 r (0 : Fin 1))
      = RowSpec.mean (fun i => (o (ix2 r i) - RowSpec.mean (fun j => o (ix2 r j))) * (o (ix2 r i) - RowSpec.mean (fun j => o (ix2 r j)))) := by
    rw [mean_col_apply]
    refine congrArg RowSpec.mean (funext fun i => ?_)
    rw [mulf_apply, hsub]
  rw [maximumf_apply, addf_apply, mulf_apply, mulf_apply, hsub, Keepdims.broadcastTo_a1_ab_apply, bias2_apply, bias2_apply,
    broadcast_apply]
  show max ((((o (ix2 r j) - RowSpec.mean (fun j => o (ix2 r j)))
      * Ideal.rsqrt ((divf (shapeCast ⟨2, ![n, 1]⟩ (multiReduction .add [1] ⟨1, ![n]⟩ (mulf (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb)) (subf o (broadcastTo ⟨2, ![n, 128]⟩ (divf (shapeCast ⟨2, ![n, 1]⟩ (multiReduction .add [1] ⟨1, ![n]⟩ o 0x00000000#32 h hφ hacc) hc) (broadcast ⟨2, ![n, 1]⟩ (Scalar.ofBits (F := Ideal) .f32 0x43000000#32))) hb))) 0x00000000#32 h hφ hacc) hc) (broadcast ⟨2, ![n, 1]⟩ (Scalar.ofBits (F := Ideal) .f32 0x43000000#32))) (ix2 r (0 : Fin 1)) + Ideal.ofBits .f32 0x3727C5AC#32)) * g (ix1 j)) + be (ix1 j))
      (Ideal.ofBits .f32 0x00000000#32) = _
  rw [hv]
  rfl

/-- The whole body of one block: from the neighbour sums, the reciprocal-count columns, the node's own rows, the four
    weight matrices, the two biases and the normalisation's scale and shift, the entry (r, j) of what the body leaves
    is the row function of the specification at the block's row r. -/
theorem body_apply (dd : DotDims ⟨2, ![n, 128]⟩ ⟨2, ![128, 128]⟩ ⟨2, ![n, 128]⟩) (hdd : dd = DotDims.plain n 128 128)
    (x0 : FVec Ideal ⟨2, ![n, 128]⟩ .f32) (x1 : FVec Ideal ⟨2, ![n, 1]⟩ .f32)
    (x2 : FVec Ideal ⟨2, ![n, 128]⟩ .f32) (x3 : FVec Ideal ⟨2, ![n, 1]⟩ .f32) (x4 : FVec Ideal ⟨2, ![n, 128]⟩ .f32)
    (x5 x6 x7 x8 : FVec Ideal ⟨2, ![128, 128]⟩ .bf16) (x9 x10 x11 x12 : FVec Ideal ⟨1, ![128]⟩ .f32)
    (h1 : (⟨2, ![n, 128]⟩ : Shape).ShapeCasts ⟨2, ![n, 128]⟩) (h2 : (⟨2, ![n, 1]⟩ : Shape).ShapeCasts ⟨2, ![n, 1]⟩)
    (hb : (⟨2, ![n, 1]⟩ : Shape).Broadcasts ⟨2, ![n, 128]⟩) (h3 : (⟨2, ![128, 128]⟩ : Shape).ShapeCasts ⟨2, ![128, 128]⟩)
    (hlt : FTy.bits .bf16 < FTy.bits .f32) (h0 : (⟨1, ![128]⟩ : Shape).ShapeCasts ⟨1, ![128]⟩)
    (h4 : (⟨1, ![128]⟩ : Shape).ShapeCasts ⟨2, ![1, 128]⟩) (hb2 : (⟨2, ![1, 128]⟩ : Shape).Broadcasts ⟨2, ![n, 128]⟩)
    (h : (⟨2, ![n, 128]⟩ : Shape).Reduces [1] ⟨1, ![n]⟩)
    (hφ : FKind.Formats .f32) (hacc : (0x00000000#32 : BitVec FTy.f32.bits) = FKind.add.neutral .f32 hφ)
    (hc : (⟨1, ![n]⟩ : Shape).ShapeCasts ⟨2, ![n, 1]⟩) (r : Fin n) (j : Fin 128) :
    maximumf
      (addf
        (mulf
          (mulf (subf (mulf (broadcast ⟨2, ![n, 128]⟩ (Scalar.ofBits (F := Ideal) .f32 0x3F000000#32))
        (addf (addf (addf (matmul dd none (truncf .bf16 (mulf (shapeCast ⟨2, ![n, 128]⟩ x0 h1) (broadcastTo ⟨2, ![n, 128]⟩ (shapeCast ⟨2, ![n, 1]⟩ x1 h2) hb)) hlt) (shapeCast ⟨2, ![128, 128]⟩ x5 h3) (constant (F := Ideal) ⟨2, ![n, 128]⟩ .f32 0x00000000#32)) (broadcastTo ⟨2, ![n, 128]⟩ (shapeCast ⟨2, ![1, 128]⟩ (shapeCast ⟨1, ![128]⟩ x9 h0) h4) hb2)) (matmul dd none (truncf .bf16 (shapeCast ⟨2, ![n, 128]⟩ x4 h1) hlt) (shapeCast ⟨2, ![128, 128]⟩ x7 h3) (constant (F := Ideal) ⟨2, ![n, 128]⟩ .f32 0x00000000#32)))
          (addf (addf (matmul dd none (truncf .bf16 (mulf (shapeCast ⟨2, ![n, 128]⟩ x2 h1) (broadcastTo ⟨2, ![n, 128]⟩ (shapeCast ⟨2, ![n, 1]⟩ x3 h2) hb)) hlt) (shapeCast ⟨2, ![128, 128]⟩ x6 h3) (constant (F := Ideal) ⟨2, ![n, 128]⟩ .f32 0x00000000#32)) (broadcastTo ⟨2, ![n, 128]⟩ (shapeCast ⟨2, ![1, 128]⟩ (shapeCast ⟨1, ![128]⟩ x10 h0) h4) hb2)) (matmul dd none (truncf .bf16 (shapeCast ⟨2, ![n, 128]⟩ x4 h1) hlt) (shapeCast ⟨2, ![128, 128]⟩ x8 h3) (constant (F := Ideal) ⟨2, ![n, 128]⟩ .f32 0x00000000#32))))) (broadcastTo ⟨2, ![n, 128]⟩ (divf (shapeCast ⟨2, ![n, 1]⟩ (multiReduction .add [1] ⟨1, ![n]⟩ (mulf (broadcast ⟨2, ![n, 128]⟩ (Scalar.ofBits (F := Ideal) .f32 0x3F000000#32))
        (addf (addf (addf (matmul dd none (truncf .bf16 (mulf (shapeCast ⟨2, ![n, 128]⟩ x0 h1) (broadcastTo ⟨2, ![n, 128]⟩ (shapeCast ⟨2, ![n, 1]⟩ x1 h2) hb)) hlt) (shapeCast ⟨2, ![128, 128]⟩ x5 h3) (constant (F := Ideal) ⟨2, ![n, 128]⟩ .f32 0x00000000#32)) (broadcastTo ⟨2, ![n, 128]⟩ (shapeCast ⟨2, ![1, 128]⟩ (shapeCast ⟨1, ![128]⟩ x9 h0) h4) hb2)) (matmul dd none (truncf .bf16 (shapeCast ⟨2, ![n, 128]⟩ x4 h1) hlt) (shapeCast ⟨2, ![128, 128]⟩ x7 h3) (constant (F := Ideal) ⟨2, ![n, 128]⟩ .f32 0x00000000#32)))
          (addf (addf (matmul dd none (truncf .bf16 (mulf (shapeCast ⟨2, ![n, 128]⟩ x2 h1) (broadcastTo ⟨2, ![n, 128]⟩ (shapeCast ⟨2, ![n, 1]⟩ x3 h2) hb)) hlt) (shapeCast ⟨2, ![128, 128]⟩ x6 h3) (constant (F := Ideal) ⟨2, ![n, 128]⟩ .f32 0x00000000#32)) (broadcastTo ⟨2, ![n, 128]⟩ (shapeCast ⟨2, ![1, 128]⟩ (shapeCast ⟨1, ![128]⟩ x10 h0) h4) hb2)) (matmul dd none (truncf .bf16 (shapeCast ⟨2, ![n, 128]⟩ x4 h1) hlt) (shapeCast ⟨2, ![128, 128]⟩ x8 h3) (constant (F := Ideal) ⟨2, ![n, 128]⟩ .f32 0x00000000#32))))) 0x00000000#32 h hφ hacc) hc) (broadcast ⟨2, ![n, 1]⟩ (Scalar.ofBits (F := Ideal) .f32 0x43000000#32))) hb))
            (broadcastTo ⟨2, ![n, 128]⟩ (rsqrt (addf (divf (shapeCast ⟨2, ![n, 1]⟩ (multiReduction .add [1] ⟨1, ![n]⟩ (mulf (subf (mulf (broadcast ⟨2, ![n, 128]⟩ (Scalar.ofBits (F := Ideal) .f32 0x3F000000#32))
        (addf (addf (addf (matmul dd none (truncf .bf16 (mulf (shapeCast ⟨2, ![n, 128]⟩ x0 h1) (broadcastTo ⟨2, ![n, 128]⟩ (shapeCast ⟨2, ![n, 1]⟩ x1 h2) hb)) hlt) (shapeCast ⟨2, ![128, 128]⟩ x5 h3) (constant (F := Ideal) ⟨2, ![n, 128]⟩ .f32 0x00000000#32)) (broadcastTo ⟨2, ![n, 128]⟩ (shapeCast ⟨2, ![1, 128]⟩ (shapeCast ⟨1, ![128]⟩ x9 h0) h4) hb2)) (matmul dd none (truncf .bf16 (shapeCast ⟨2, ![n, 128]⟩ x4 h1) hlt) (shapeCast ⟨2, ![128, 128]⟩ x7 h3) (constant (F := Ideal) ⟨2, ![n, 128]⟩ .f32 0x00000000#32)))
          (addf (addf (matmul dd none (truncf .bf16 (mulf (shapeCast ⟨2, ![n, 128]⟩ x2 h1) (broadcastTo ⟨2, ![n, 128]⟩ (shapeCast ⟨2, ![n, 1]⟩ x3 h2) hb)) hlt) (shapeCast ⟨2, ![128, 128]⟩ x6 h3) (constant (F := Ideal) ⟨2, ![n, 128]⟩ .f32 0x00000000#32)) (broadcastTo ⟨2, ![n, 128]⟩ (shapeCast ⟨2, ![1, 128]⟩ (shapeCast ⟨1, ![128]⟩ x10 h0) h4) hb2)) (matmul dd none (truncf .bf16 (shapeCast ⟨2, ![n, 128]⟩ x4 h1) hlt) (shapeCast ⟨2, ![128, 128]⟩ x8 h3) (constant (F := Ideal) ⟨2, ![n, 128]⟩ .f32 0x00000000#32))))) (broadcastTo ⟨2, ![n, 128]⟩ (divf (shapeCast ⟨2, ![n, 1]⟩ (multiReduction .add [1] ⟨1, ![n]⟩ (mulf (broadcast ⟨2, ![n, 128]⟩ (Scalar.ofBits (F := Ideal) .f32 0x3F000000#32))
        (addf (addf (addf (matmul dd none (truncf .bf16 (mulf (shapeCast ⟨2, ![n, 128]⟩ x0 h1) (broadcastTo ⟨2, ![n, 128]⟩ (shapeCast ⟨2, ![n, 1]⟩ x1 h2) hb)) hlt) (shapeCast ⟨2, ![128, 128]⟩ x5 h3) (constant (F := Ideal) ⟨2, ![n, 128]⟩ .f32 0x00000000#32)) (broadcastTo ⟨2, ![n, 128]⟩ (shapeCast ⟨2, ![1, 128]⟩ (shapeCast ⟨1, ![128]⟩ x9 h0) h4) hb2)) (matmul dd none (truncf .bf16 (shapeCast ⟨2, ![n, 128]⟩ x4 h1) hlt) (shapeCast ⟨2, ![128, 128]⟩ x7 h3) (constant (F := Ideal) ⟨2, ![n, 128]⟩ .f32 0x00000000#32)))
          (addf (addf (matmul dd none (truncf .bf16 (mulf (shapeCast ⟨2, ![n, 128]⟩ x2 h1) (broadcastTo ⟨2, ![n, 128]⟩ (shapeCast ⟨2, ![n, 1]⟩ x3 h2) hb)) hlt) (shapeCast ⟨2, ![128, 128]⟩ x6 h3) (constant (F := Ideal) ⟨2, ![n, 128]⟩ .f32 0x00000000#32)) (broadcastTo ⟨2, ![n, 128]⟩ (shapeCast ⟨2, ![1, 128]⟩ (shapeCast ⟨1, ![128]⟩ x10 h0) h4) hb2)) (matmul dd none (truncf .bf16 (shapeCast ⟨2, ![n, 128]⟩ x4 h1) hlt) (shapeCast ⟨2, ![128, 128]⟩ x8 h3) (constant (F := Ideal) ⟨2, ![n, 128]⟩ .f32 0x00000000#32))))) 0x00000000#32 h hφ hacc) hc) (broadcast ⟨2, ![n, 1]⟩ (Scalar.ofBits (F := Ideal) .f32 0x43000000#32))) hb)) (subf (mulf (broadcast ⟨2, ![n, 128]⟩ (Scalar.ofBits (F := Ideal) .f32 0x3F000000#32))
        (addf (addf (addf (matmul dd none (truncf .bf16 (mulf (shapeCast ⟨2, ![n, 128]⟩ x0 h1) (broadcastTo ⟨2, ![n, 128]⟩ (shapeCast ⟨2, ![n, 1]⟩ x1 h2) hb)) hlt) (shapeCast ⟨2, ![128, 128]⟩ x5 h3) (constant (F := Ideal) ⟨2, ![n, 128]⟩ .f32 0x00000000#32)) (broadcastTo ⟨2, ![n, 128]⟩ (shapeCast ⟨2, ![1, 128]⟩ (shapeCast ⟨1, ![128]⟩ x9 h0) h4) hb2)) (matmul dd none (truncf .bf16 (shapeCast ⟨2, ![n, 128]⟩ x4 h1) hlt) (shapeCast ⟨2, ![128, 128]⟩ x7 h3) (constant (F := Ideal) ⟨2, ![n, 128]⟩ .f32 0x00000000#32)))
          (addf (addf (matmul dd none (truncf .bf16 (mulf (shapeCast ⟨2, ![n, 128]⟩ x2 h1) (broadcastTo ⟨2, ![n, 128]⟩ (shapeCast ⟨2, ![n, 1]⟩ x3 h2) hb)) hlt) (shapeCast ⟨2, ![128, 128]⟩ x6 h3) (constant (F := Ideal) ⟨2, ![n, 128]⟩ .f32 0x00000000#32)) (broadcastTo ⟨2, ![n, 128]⟩ (shapeCast ⟨2, ![1, 128]⟩ (shapeCast ⟨1, ![128]⟩ x10 h0) h4) hb2)) (matmul dd none (truncf .bf16 (shapeCast ⟨2, ![n, 128]⟩ x4 h1) hlt) (shapeCast ⟨2, ![128, 128]⟩ x8 h3) (constant (F := Ideal) ⟨2, ![n, 128]⟩ .f32 0x00000000#32))))) (broadcastTo ⟨2, ![n, 128]⟩ (divf (shapeCast ⟨2, ![n, 1]⟩ (multiReduction .add [1] ⟨1, ![n]⟩ (mulf (broadcast ⟨2, ![n, 128]⟩ (Scalar.ofBits (F := Ideal) .f32 0x3F000000#32))
        (addf (addf (addf (matmul dd none (truncf .bf16 (mulf (shapeCast ⟨2, ![n, 128]⟩ x0 h1) (broadcastTo ⟨2, ![n, 128]⟩ (shapeCast ⟨2, ![n, 1]⟩ x1 h2) hb)) hlt) (shapeCast ⟨2, ![128, 128]⟩ x5 h3) (constant (F := Ideal) ⟨2, ![n, 128]⟩ .f32 0x00000000#32)) (broadcastTo ⟨2, ![n, 128]⟩ (shapeCast ⟨2, ![1, 128]⟩ (shapeCast ⟨1, ![128]⟩ x9 h0) h4) hb2)) (matmul dd none (truncf .bf16 (shapeCast ⟨2, ![n, 128]⟩ x4 h1) hlt) (shapeCast ⟨2, ![128, 128]⟩ x7 h3) (constant (F := Ideal) ⟨2, ![n, 128]⟩ .f32 0x00000000#32)))
          (addf (addf (matmul dd none (truncf .bf16 (mulf (shapeCast ⟨2, ![n, 128]⟩ x2 h1) (broadcastTo ⟨2, ![n, 128]⟩ (shapeCast ⟨2, ![n, 1]⟩ x3 h2) hb)) hlt) (shapeCast ⟨2, ![128, 128]⟩ x6 h3) (constant (F := Ideal) ⟨2, ![n, 128]⟩ .f32 0x00000000#32)) (broadcastTo ⟨2, ![n, 128]⟩ (shapeCast ⟨2, ![1, 128]⟩ (shapeCast ⟨1, ![128]⟩ x10 h0) h4) hb2)) (matmul dd none (truncf .bf16 (shapeCast ⟨2, ![n, 128]⟩ x4 h1) hlt) (shapeCast ⟨2, ![128, 128]⟩ x8 h3) (constant (F := Ideal) ⟨2, ![n, 128]⟩ .f32 0x00000000#32))))) 0x00000000#32 h hφ hacc) hc) (broadcast ⟨2, ![n, 1]⟩ (Scalar.ofBits (F := Ideal) .f32 0x43000000#32))) hb))) 0x00000000#32 h hφ hacc) hc) (broadcast ⟨2, ![n, 1]⟩ (Scalar.ofBits (F := Ideal) .f32 0x43000000#32))) (broadcast ⟨2, ![n, 1]⟩ (Scalar.ofBits (F := Ideal) .f32 0x3727C5AC#32)))) hb))
          (broadcastTo ⟨2, ![n, 128]⟩ (shapeCast ⟨2, ![1, 128]⟩ (shapeCast ⟨1, ![128]⟩ x11 h0) h4) hb2))
        (broadcastTo ⟨2, ![n, 128]⟩ (shapeCast ⟨2, ![1, 128]⟩ (shapeCast ⟨1, ![128]⟩ x12 h0) h4) hb2))
      (broadcast ⟨2, ![n, 128]⟩ (Scalar.ofBits (F := Ideal) .f32 0x00000000#32)) (ix2 r j)
      = RowSpec.rowOut (fun k => x0 (ix2 r k) * x1 (ix2 r (0 : Fin 1))) (fun k => x2 (ix2 r k) * x3 (ix2 r (0 : Fin 1)))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  refine (lnrelu_apply _ x11 x12 h hφ hacc hc hb h0 h4 hb2 r j).trans ?_
  unfold RowSpec.rowOut
  refine congrArg (fun f => RowSpec.lnrelu f (fun j => x11 (ix1 j)) (fun j => x12 (ix1 j)) j) (funext fun i => ?_)
  rw [mulf_apply, broadcast_apply, addf_apply, rel_apply dd hdd, addf_apply, addf_apply, scaled_matmul_apply dd hdd,
    bias2_apply, own_matmul_apply dd hdd]
  rfl

end Cert.BodyOps

end
-- ==== Proof.BodyPay2000.lean ====
/-
  The six kernels of the layer run one and the same body on blocks of 2000 or of 1000 rows.  For each kernel on
  blocks of 2000 rows, what the body's one store leaves at the entry (r, j) of its block — the normalised, averaged
  two-relation row — is the specification's row function at row r of the block's loads: an instance of the reading
  proved once for any number of rows.
-/
import proofs.«172654_j31121333027532_2_alg».proof.Proof.Gen.KernelIdeal.Skeleton
import proofs.«172654_j31121333027532_2_alg».proof.Proof.BodyRowOps

noncomputable section

namespace Cert.BodyRow

open Idealize.ShloMosaic Idealize.ShloMosaic.ValueIdx
open Cert.KernelIdeal Cert.KernelIdeal.Gen

/-- The body of kernel 0's block (2000 rows): what its store leaves at (r, j), over the block's loads. -/
theorem pay0_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    k0_pay1 (F := Ideal) (k0_pay2 x4) (k0_pay3 x8) (k0_pay4 x0 x1 x4 x5 x7 x9) (k0_pay5 x2 x3 x6) (k0_pay6 x10) x11 x12
        (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j :=
  Cert.BodyOps.body_apply (n := 2000) dot_S2000x128_S128x128_S2000x128_1_0_0_1_n_n rfl x0 x1 x2 x3 x4 x5 x6 x7 x8 x9 x10 x11 x12
    shapeCasts_S2000x128_S2000x128 shapeCasts_S2000x1_S2000x1 broadcasts_S2000x1_S2000x128 shapeCasts_S128x128_S128x128
    bitsLt_bf16_f32 shapeCasts_S128_S128 shapeCasts_S128_S1x128 broadcasts_S1x128_S2000x128 reduces_S2000x128_S2000
    (.inl rfl) rfl shapeCasts_S2000_S2000x1 r j

/-- The body of kernel 1's block (2000 rows): what its store leaves at (r, j), over the block's loads. -/
theorem pay1_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    k1_pay1 (F := Ideal) (k1_pay2 x4) (k1_pay3 x8) (k1_pay4 x0 x1 x4 x5 x7 x9) (k1_pay5 x2 x3 x6) (k1_pay6 x10) x11 x12
        (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j :=
  Cert.BodyOps.body_apply (n := 2000) dot_S2000x128_S128x128_S2000x128_1_0_0_1_n_n rfl x0 x1 x2 x3 x4 x5 x6 x7 x8 x9 x10 x11 x12
    shapeCasts_S2000x128_S2000x128 shapeCasts_S2000x1_S2000x1 broadcasts_S2000x1_S2000x128 shapeCasts_S128x128_S128x128
    bitsLt_bf16_f32 shapeCasts_S128_S128 shapeCasts_S128_S1x128 broadcasts_S1x128_S2000x128 reduces_S2000x128_S2000
    (.inl rfl) rfl shapeCasts_S2000_S2000x1 r j

/-- The body of kernel 3's block (2000 rows): what its store leaves at (r, j), over the block's loads. -/
theorem pay3_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    k3_pay1 (F := Ideal) (k3_pay2 x4) (k3_pay3 x8) (k3_pay4 x0 x1 x4 x5 x7 x9) (k3_pay5 x2 x3 x6) (k3_pay6 x10) x11 x12
        (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j :=
  Cert.BodyOps.body_apply (n := 2000) dot_S2000x128_S128x128_S2000x128_1_0_0_1_n_n rfl x0 x1 x2 x3 x4 x5 x6 x7 x8 x9 x10 x11 x12
    shapeCasts_S2000x128_S2000x128 shapeCasts_S2000x1_S2000x1 broadcasts_S2000x1_S2000x128 shapeCasts_S128x128_S128x128
    bitsLt_bf16_f32 shapeCasts_S128_S128 shapeCasts_S128_S1x128 broadcasts_S1x128_S2000x128 reduces_S2000x128_S2000
    (.inl rfl) rfl shapeCasts_S2000_S2000x1 r j

/-- The body of kernel 4's block (2000 rows): what its store leaves at (r, j), over the block's loads. -/
theorem pay4_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    k4_pay1 (F := Ideal) (k4_pay2 x4) (k4_pay3 x8) (k4_pay4 x0 x1 x4 x5 x7 x9) (k4_pay5 x2 x3 x6) (k4_pay6 x10) x11 x12
        (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j :=
  Cert.BodyOps.body_apply (n := 2000) dot_S2000x128_S128x128_S2000x128_1_0_0_1_n_n rfl x0 x1 x2 x3 x4 x5 x6 x7 x8 x9 x10 x11 x12
    shapeCasts_S2000x128_S2000x128 shapeCasts_S2000x1_S2000x1 broadcasts_S2000x1_S2000x128 shapeCasts_S128x128_S128x128
    bitsLt_bf16_f32 shapeCasts_S128_S128 shapeCasts_S128_S1x128 broadcasts_S1x128_S2000x128 reduces_S2000x128_S2000
    (.inl rfl) rfl shapeCasts_S2000_S2000x1 r j

end Cert.BodyRow

end
-- ==== Proof.BodyRow2000.lean ====
/-
  What the body of each kernel on blocks of 2000 rows leaves in its output block, read at an entry: the block is
  written by one store of the whole block and every input block is read by one load of the whole block, so the
  entry (r, j) is the body's arithmetic on the blocks themselves — the specification's row function at row r.
-/
import proofs.«172654_j31121333027532_2_alg».proof.Proof.FrameIdealP
import proofs.«172654_j31121333027532_2_alg».proof.Proof.BodyPay2000

noncomputable section

namespace Cert.BodyRow

open Idealize.ShloMosaic Idealize.ShloMosaic.ValueIdx
open Cert.KernelIdeal Cert.KernelIdeal.Gen Cert.KernelIdeal.GenP

/-- The offsets of a whole-block access of a matrix are zero. -/
private theorem zero2 : (![0, 0] : Fin 2 → Nat) = fun _ => 0 := funext fun a => by fin_cases a <;> rfl

/-- The offset of a whole-block access of a vector is zero. -/
private theorem zero1 : (![0] : Fin 1 → Nat) = fun _ => 0 := funext fun a => by fin_cases a; rfl

/-- What kernel 0's body leaves in its output block (2000 rows), read at (r, j): the specification's row function at
    row r of the point's input blocks.  The block is stored whole and every input is loaded whole, so the stored
    block is the payload and each load is the block itself. -/
theorem out0_13_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    Cert.KernelIdeal.GenP.out0_13 (F := Ideal) x0 x1 x2 x3 x4 x5 x6 x7 x8 x9 x10 x11 x12 (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  unfold Cert.KernelIdeal.GenP.out0_13
  rw [View.canon_unit_zero zero2]
  simp only [View.ld_unit_zero (S := S2000x128) zero2, View.ld_unit_zero (S := S2000x1) zero2,
    View.ld_unit_zero (S := S128x128) zero2, View.ld_unit_zero (S := S128) zero1]
  exact pay0_apply x0 x2 x4 x1 x3 x5 x6 x7 x8 x9 x10 x11 x12 r j

/-- What kernel 1's body leaves in its output block (2000 rows), read at (r, j): the specification's row function at
    row r of the point's input blocks.  The block is stored whole and every input is loaded whole, so the stored
    block is the payload and each load is the block itself. -/
theorem out1_13_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    Cert.KernelIdeal.GenP.out1_13 (F := Ideal) x0 x1 x2 x3 x4 x5 x6 x7 x8 x9 x10 x11 x12 (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  unfold Cert.KernelIdeal.GenP.out1_13
  rw [View.canon_unit_zero zero2]
  simp only [View.ld_unit_zero (S := S2000x128) zero2, View.ld_unit_zero (S := S2000x1) zero2,
    View.ld_unit_zero (S := S128x128) zero2, View.ld_unit_zero (S := S128) zero1]
  exact pay1_apply x0 x2 x4 x1 x3 x5 x6 x7 x8 x9 x10 x11 x12 r j

/-- What kernel 3's body leaves in its output block (2000 rows), read at (r, j): the specification's row function at
    row r of the point's input blocks.  The block is stored whole and every input is loaded whole, so the stored
    block is the payload and each load is the block itself. -/
theorem out3_13_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    Cert.KernelIdeal.GenP.out3_13 (F := Ideal) x0 x1 x2 x3 x4 x5 x6 x7 x8 x9 x10 x11 x12 (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  unfold Cert.KernelIdeal.GenP.out3_13
  rw [View.canon_unit_zero zero2]
  simp only [View.ld_unit_zero (S := S2000x128) zero2, View.ld_unit_zero (S := S2000x1) zero2,
    View.ld_unit_zero (S := S128x128) zero2, View.ld_unit_zero (S := S128) zero1]
  exact pay3_apply x0 x2 x4 x1 x3 x5 x6 x7 x8 x9 x10 x11 x12 r j

/-- What kernel 4's body leaves in its output block (2000 rows), read at (r, j): the specification's row function at
    row r of the point's input blocks.  The block is stored whole and every input is loaded whole, so the stored
    block is the payload and each load is the block itself. -/
theorem out4_13_apply (x0 x2 x4 : Vec Ideal S2000x128 .f32) (x1 x3 : Vec Ideal S2000x1 .f32)
    (x5 x6 x7 x8 : Vec Ideal S128x128 .bf16) (x9 x10 x11 x12 : Vec Ideal S128 .f32) (r : Fin 2000) (j : Fin 128) :
    Cert.KernelIdeal.GenP.out4_13 (F := Ideal) x0 x1 x2 x3 x4 x5 x6 x7 x8 x9 x10 x11 x12 (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  unfold Cert.KernelIdeal.GenP.out4_13
  rw [View.canon_unit_zero zero2]
  simp only [View.ld_unit_zero (S := S2000x128) zero2, View.ld_unit_zero (S := S2000x1) zero2,
    View.ld_unit_zero (S := S128x128) zero2, View.ld_unit_zero (S := S128) zero1]
  exact pay4_apply x0 x2 x4 x1 x3 x5 x6 x7 x8 x9 x10 x11 x12 r j

end Cert.BodyRow

end
-- ==== Proof.Blocks3.lean ====
/-
  Launch 3, from blocks to the array: the grid points' blocks tile the output array row block by row block, each input
  block is the matching rows of its array (a matrix or a vector is one block), so the output array ends holding the
  layer's output over the arrays the launch finds.
-/
import proofs.«172654_j31121333027532_2_alg».proof.Proof.FrameIdealP
import proofs.«172654_j31121333027532_2_alg».proof.Proof.RowSpec
import proofs.«172654_j31121333027532_2_alg».proof.Proof.BodyRow2000
import Idealize.ShloMosaic.Lib.Pipeline.Value
import Idealize.ShloMosaic.Lib.ValueIdx

set_option maxRecDepth 16384

noncomputable section

namespace Cert.Blocks

open Cert.KernelIdeal Cert.KernelIdeal.Gen Cert.KernelIdeal.GenP Cert.RowSpec Cert.BodyRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 3: 100000 rows in blocks of 2000 -/

/-- The block index maps over the grid: a row window's block at point `t` is block row `t`, column block 0; a matrix or a vector is
    one block. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0
    ∧ win3_13.index t (0 : Fin 2) = t.val
    ∧ win3_13.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 1) = 0
    ∧ win3_10.index t (0 : Fin 1) = 0
    ∧ win3_11.index t (0 : Fin 1) = 0
    ∧ win3_12.index t (0 : Fin 1) = 0 :=
  (by decide +kernel : ∀ t : Fin grid3.N, _)

/-- The array row that row `p` of point `t`'s block is. -/
def row3 (t : Fin cfg3.N) (p : Fin 2000) : Fin 100000 :=
  ⟨t.val * 2000 + p.val, by have h := lt_of_lt_of_eq t.isLt N_3; have := p.isLt; omega⟩

theorem blk3_0 (c : Dev nD) (t : Fin cfg3.N) (p : Fin 2000) (k : Fin 128) :
    iblk3 V c 0 t (ix2 p k) = (V c main_v243 : S100000x128.Idx → EReal) (ix2 (row3 t p) k) := by
  show (V c main_v243 : S100000x128.Idx → EReal) (((cfg3.win 0).blk t).view.emb (ix2 p k)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_0.index t (0 : Fin 2) * 2000 + 1 * p.val = t.val * 2000 + p.val; rw [f0]; omega
  | ⟨1, _⟩ => show win3_0.index t (1 : Fin 2) * 128 + 1 * k.val = k.val; rw [f1]; omega

theorem blk3_2 (c : Dev nD) (t : Fin cfg3.N) (p : Fin 2000) (k : Fin 128) :
    iblk3 V c 2 t (ix2 p k) = (V c main_v263 : S100000x128.Idx → EReal) (ix2 (row3 t p) k) := by
  show (V c main_v263 : S100000x128.Idx → EReal) (((cfg3.win 2).blk t).view.emb (ix2 p k)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_2.index t (0 : Fin 2) * 2000 + 1 * p.val = t.val * 2000 + p.val; rw [f4]; omega
  | ⟨1, _⟩ => show win3_2.index t (1 : Fin 2) * 128 + 1 * k.val = k.val; rw [f5]; omega

theorem blk3_4 (c : Dev nD) (t : Fin cfg3.N) (p : Fin 2000) (k : Fin 128) :
    iblk3 V c 4 t (ix2 p k) = (V c main_v179 : S100000x128.Idx → EReal) (ix2 (row3 t p) k) := by
  show (V c main_v179 : S100000x128.Idx → EReal) (((cfg3.win 4).blk t).view.emb (ix2 p k)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_4.index t (0 : Fin 2) * 2000 + 1 * p.val = t.val * 2000 + p.val; rw [f8]; omega
  | ⟨1, _⟩ => show win3_4.index t (1 : Fin 2) * 128 + 1 * k.val = k.val; rw [f9]; omega

theorem blk3_1 (c : Dev nD) (t : Fin cfg3.N) (p : Fin 2000) :
    iblk3 V c 1 t (ix2 p (0 : Fin 1)) = (V c main_v56 : S100000x1.Idx → EReal) (ix2 (row3 t p) (0 : Fin 1)) := by
  show (V c main_v56 : S100000x1.Idx → EReal) (((cfg3.win 1).blk t).view.emb (ix2 p (0 : Fin 1))) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_1.index t (0 : Fin 2) * 2000 + 1 * p.val = t.val * 2000 + p.val; rw [f2]; omega
  | ⟨1, _⟩ => show win3_1.index t (1 : Fin 2) * 1 + 1 * 0 = 0; rw [f3]

theorem blk3_3 (c : Dev nD) (t : Fin cfg3.N) (p : Fin 2000) :
    iblk3 V c 3 t (ix2 p (0 : Fin 1)) = (V c main_v74 : S100000x1.Idx → EReal) (ix2 (row3 t p) (0 : Fin 1)) := by
  show (V c main_v74 : S100000x1.Idx → EReal) (((cfg3.win 3).blk t).view.emb (ix2 p (0 : Fin 1))) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_3.index t (0 : Fin 2) * 2000 + 1 * p.val = t.val * 2000 + p.val; rw [f6]; omega
  | ⟨1, _⟩ => show win3_3.index t (1 : Fin 2) * 1 + 1 * 0 = 0; rw [f7]

theorem blk3_5 (c : Dev nD) (t : Fin cfg3.N) (k j : Fin 128) :
    iblk3 V c 5 t (ix2 k j) = (V c main_v285 : S128x128.Idx → EReal) (ix2 k j) := by
  show (V c main_v285 : S128x128.Idx → EReal) (((cfg3.win 5).blk t).view.emb (ix2 k j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_5.index t (0 : Fin 2) * 128 + 1 * k.val = k.val; rw [f12]; omega
  | ⟨1, _⟩ => show win3_5.index t (1 : Fin 2) * 128 + 1 * j.val = j.val; rw [f13]; omega

theorem blk3_6 (c : Dev nD) (t : Fin cfg3.N) (k j : Fin 128) :
    iblk3 V c 6 t (ix2 k j) = (V c main_v287 : S128x128.Idx → EReal) (ix2 k j) := by
  show (V c main_v287 : S128x128.Idx → EReal) (((cfg3.win 6).blk t).view.emb (ix2 k j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_6.index t (0 : Fin 2) * 128 + 1 * k.val = k.val; rw [f14]; omega
  | ⟨1, _⟩ => show win3_6.index t (1 : Fin 2) * 128 + 1 * j.val = j.val; rw [f15]; omega

theorem blk3_7 (c : Dev nD) (t : Fin cfg3.N) (k j : Fin 128) :
    iblk3 V c 7 t (ix2 k j) = (V c main_v289 : S128x128.Idx → EReal) (ix2 k j) := by
  show (V c main_v289 : S128x128.Idx → EReal) (((cfg3.win 7).blk t).view.emb (ix2 k j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_7.index t (0 : Fin 2) * 128 + 1 * k.val = k.val; rw [f16]; omega
  | ⟨1, _⟩ => show win3_7.index t (1 : Fin 2) * 128 + 1 * j.val = j.val; rw [f17]; omega

theorem blk3_8 (c : Dev nD) (t : Fin cfg3.N) (k j : Fin 128) :
    iblk3 V c 8 t (ix2 k j) = (V c main_v291 : S128x128.Idx → EReal) (ix2 k j) := by
  show (V c main_v291 : S128x128.Idx → EReal) (((cfg3.win 8).blk t).view.emb (ix2 k j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_8.index t (0 : Fin 2) * 128 + 1 * k.val = k.val; rw [f18]; omega
  | ⟨1, _⟩ => show win3_8.index t (1 : Fin 2) * 128 + 1 * j.val = j.val; rw [f19]; omega

theorem blk3_9 (c : Dev nD) (t : Fin cfg3.N) (j : Fin 128) :
    iblk3 V c 9 t (ix1 j) = (V c main_v293 : S128.Idx → EReal) (ix1 j) := by
  show (V c main_v293 : S128.Idx → EReal) (((cfg3.win 9).blk t).view.emb (ix1 j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_9.index t (0 : Fin 1) * 128 + 1 * j.val = j.val; rw [f20]; omega

theorem blk3_10 (c : Dev nD) (t : Fin cfg3.N) (j : Fin 128) :
    iblk3 V c 10 t (ix1 j) = (V c main_v295 : S128.Idx → EReal) (ix1 j) := by
  show (V c main_v295 : S128.Idx → EReal) (((cfg3.win 10).blk t).view.emb (ix1 j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_10.index t (0 : Fin 1) * 128 + 1 * j.val = j.val; rw [f21]; omega

theorem blk3_11 (c : Dev nD) (t : Fin cfg3.N) (j : Fin 128) :
    iblk3 V c 11 t (ix1 j) = (V c main_v297 : S128.Idx → EReal) (ix1 j) := by
  show (V c main_v297 : S128.Idx → EReal) (((cfg3.win 11).blk t).view.emb (ix1 j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_11.index t (0 : Fin 1) * 128 + 1 * j.val = j.val; rw [f22]; omega

theorem blk3_12 (c : Dev nD) (t : Fin cfg3.N) (j : Fin 128) :
    iblk3 V c 12 t (ix1 j) = (V c main_v299 : S128.Idx → EReal) (ix1 j) := by
  show (V c main_v299 : S128.Idx → EReal) (((cfg3.win 12).blk t).view.emb (ix1 j)) = _
  obtain ⟨f0, f1, f2, f3, f4, f5, f6, f7, f8, f9, f10, f11, f12, f13, f14, f15, f16, f17, f18, f19, f20, f21, f22, f23⟩ := idx_facts3 t
  refine congrArg _ (funext fun a => Fin.ext ?_)
  match a with
  | ⟨0, _⟩ => show win3_12.index t (0 : Fin 1) * 128 + 1 * j.val = j.val; rw [f23]; omega

/-- The layer's output over the arrays launch 3 reads, as it finds them. -/
def G3 (c : Dev nD) : S100000x128.Idx → EReal := fun i =>
  layerAt (n := 100000) (V c main_v243 : S100000x128.Idx → EReal) (V c main_v56 : S100000x1.Idx → EReal) (V c main_v263 : S100000x128.Idx → EReal) (V c main_v74 : S100000x1.Idx → EReal) (V c main_v179 : S100000x128.Idx → EReal) (V c main_v285 : S128x128.Idx → EReal) (V c main_v287 : S128x128.Idx → EReal) (V c main_v289 : S128x128.Idx → EReal) (V c main_v291 : S128x128.Idx → EReal) (V c main_v293 : S128.Idx → EReal) (V c main_v295 : S128.Idx → EReal) (V c main_v297 : S128.Idx → EReal) (V c main_v299 : S128.Idx → EReal) (i 0) (i 1)

theorem emb3_13 (t : Fin cfg3.N) (p : Fin 2000) (q : Fin 128) :
    ((cfg3.win 13).blk t).view.emb (ix2 p q) = (ix2 (row3 t p) q : S100000x128.Idx) := by
  obtain ⟨f0, f1, f2, f3, f4, f5, f6, f7, f8, f9, f10, f11, f12, f13, f14, f15, f16, f17, f18, f19, f20, f21, f22, f23⟩ := idx_facts3 t
  refine funext fun a => Fin.ext ?_
  match a with
  | ⟨0, _⟩ => show win3_13.index t (0 : Fin 2) * 2000 + 1 * p.val = t.val * 2000 + p.val; rw [f10]; omega
  | ⟨1, _⟩ => show win3_13.index t (1 : Fin 2) * 128 + 1 * q.val = q.val; rw [f11]; omega

set_option maxHeartbeats 4000000 in
/-- What point `t` writes back is block `t` of the layer's output over the entry arrays. -/
theorem flushed3_eq (c : Dev nD) (t : Fin cfg3.N) :
    (dat3 V c).flushed 13 t = ((cfg3.win 13).blk t).view.read (Elt Ideal) (G3 V c) := by
  show (cfg3.win 13).cut (grid3.coords t) ((dat3 V c).after 13 t) = _
  rw [after3_13]
  funext y
  obtain ⟨p, q, rfl⟩ : ∃ (p : Fin 2000) (q : Fin 128), y = ix2 p q := ⟨y 0, y 1, eq_ix2 y⟩
  show out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (ix2 p q) = G3 V c (((cfg3.win 13).blk t).view.emb (ix2 p q))
  rw [emb3_13]
  refine (out3_13_apply (iblk3 V c 0 t) (iblk3 V c 2 t) (iblk3 V c 4 t) (iblk3 V c 1 t) (iblk3 V c 3 t) (iblk3 V c 5 t) (iblk3 V c 6 t) (iblk3 V c 7 t) (iblk3 V c 8 t) (iblk3 V c 9 t) (iblk3 V c 10 t) (iblk3 V c 11 t) (iblk3 V c 12 t) p q).trans ?_
  exact rowOut_congr (fun k => by rw [blk3_0 V c t p k, blk3_1 V c t p]) (fun k => by rw [blk3_2 V c t p k, blk3_3 V c t p]) (fun k => blk3_4 V c t p k)
    (fun k j => blk3_5 V c t k j) (fun k j => blk3_6 V c t k j) (fun k j => blk3_7 V c t k j) (fun k j => blk3_8 V c t k j)
    (fun j => blk3_9 V c t j) (fun j => blk3_10 V c t j) (fun j => blk3_11 V c t j) (fun j => blk3_12 V c t j) rfl

/-- Every row lies in the block of the point its block row names. -/
theorem cover3 (i : S100000x128.Idx) : ∃ t : Fin cfg3.N, (cfg3.win 13).flush t = true ∧ i ∈ ((cfg3.win 13).blk t).view.set := by
  have h0 : (i 0).val < 100000 := (i 0).isLt
  have h1 : (i 1).val < 128 := (i 1).isLt
  have hN : cfg3.N = 50 := N_3
  let t : Fin cfg3.N := ⟨(i 0).val / 2000, by rw [hN]; omega⟩
  refine ⟨t, flush3_13 t, ?_⟩
  show i ∈ ((View.whole main_v300).slice (win3_13.rect t)).set
  rw [View.set_slice_whole, Rect.mem_set_unit]
  obtain ⟨f0, f1, f2, f3, f4, f5, f6, f7, f8, f9, f10, f11, f12, f13, f14, f15, f16, f17, f18, f19, f20, f21, f22, f23⟩ := idx_facts3 t
  intro a
  match a with
  | ⟨0, _⟩ => show win3_13.index t (0 : Fin 2) * 2000 ≤ (i 0).val ∧ (i 0).val < win3_13.index t (0 : Fin 2) * 2000 + 2000; rw [f10]; show (i 0).val / 2000 * 2000 ≤ (i 0).val ∧ (i 0).val < (i 0).val / 2000 * 2000 + 2000; omega
  | ⟨1, _⟩ => show win3_13.index t (1 : Fin 2) * 128 ≤ (i 1).val ∧ (i 1).val < win3_13.index t (1 : Fin 2) * 128 + 128; rw [f11]; omega

/-- After launch 3 its output array holds the layer's output over the arrays it read. -/
theorem final3 (c : Dev nD) : (dat3 V c).arrAt 13 cfg3.N = G3 V c :=
  (dat3 V c).arrAt_eq_of_cover 13 (G3 V c) (fun t _ => flushed3_eq V c t) (cover3)

end Cert.Blocks

end
-- ==== Proof.Bridge.lean ====
/-
  The layer over a launch's arrays is the reference's row function.

  Suppose the arrays a launch reads agree, entry by entry, with what the reference holds at the same site: the two
  neighbour-sum arrays and the nodes' own features are the reference's arrays; each scaling column is one over the larger
  of the reference's neighbour count and one; the four matrices, the two biases, the scale and the shift are given
  functions of the feature coordinates.  Then entry `(r, j)` of the layer's output is the row function applied to the
  reference's messages `sum / max count 1`: scaling a sum by the reciprocal of a nonzero number is dividing by it
  (`RowSpec.msg_eq`), and everything else is the same function of equal arguments.
-/
import proofs.«172654_j31121333027532_2_alg».proof.Proof.RowSpec

noncomputable section

namespace Cert.RowSpec

open Idealize.ShloMosaic Idealize.ShloMosaic.ValueIdx

theorem site_bridge {n : Nat}
    (a0 : (⟨2, ![n, 128]⟩ : Shape).Idx → EReal) (a1 : (⟨2, ![n, 1]⟩ : Shape).Idx → EReal)
    (a2 : (⟨2, ![n, 128]⟩ : Shape).Idx → EReal) (a3 : (⟨2, ![n, 1]⟩ : Shape).Idx → EReal)
    (a4 : (⟨2, ![n, 128]⟩ : Shape).Idx → EReal)
    (a5 a6 a7 a8 : (⟨2, ![128, 128]⟩ : Shape).Idx → EReal) (a9 a10 a11 a12 : (⟨1, ![128]⟩ : Shape).Idx → EReal)
    (s1 s2 x : (⟨2, ![n, 128]⟩ : Shape).Idx → EReal) (c1 c2 : (⟨1, ![n]⟩ : Shape).Idx → EReal)
    (wl1 wl2 wr1 wr2 : Fin 128 → Fin 128 → EReal) (b1 b2 g be : Fin 128 → EReal)
    (h0 : a0 = s1) (h2 : a2 = s2) (h4 : a4 = x)
    (h1 : ∀ r : Fin n, a1 (ix2 r (0 : Fin 1)) = Ideal.div one32 (max (c1 (ix1 r)) one32))
    (h3 : ∀ r : Fin n, a3 (ix2 r (0 : Fin 1)) = Ideal.div one32 (max (c2 (ix1 r)) one32))
    (h5 : ∀ k j : Fin 128, a5 (ix2 k j) = wl1 k j) (h6 : ∀ k j : Fin 128, a6 (ix2 k j) = wl2 k j)
    (h7 : ∀ k j : Fin 128, a7 (ix2 k j) = wr1 k j) (h8 : ∀ k j : Fin 128, a8 (ix2 k j) = wr2 k j)
    (h9 : ∀ j : Fin 128, a9 (ix1 j) = b1 j) (h10 : ∀ j : Fin 128, a10 (ix1 j) = b2 j)
    (h11 : ∀ j : Fin 128, a11 (ix1 j) = g j) (h12 : ∀ j : Fin 128, a12 (ix1 j) = be j)
    (r : Fin n) (j : Fin 128) :
    layerAt a0 a1 a2 a3 a4 a5 a6 a7 a8 a9 a10 a11 a12 r j
      = rowOut (fun k => Ideal.div (s1 (ix2 r k)) (max (c1 (ix1 r)) one32))
          (fun k => Ideal.div (s2 (ix2 r k)) (max (c2 (ix1 r)) one32)) (fun k => x (ix2 r k))
          wl1 wl2 wr1 wr2 b1 b2 g be j := by
  subst h0 h2 h4
  unfold layerAt
  exact rowOut_congr (fun k => by rw [h1 r]; exact msg_eq _ _) (fun k => by rw [h3 r]; exact msg_eq _ _) (fun _ => rfl)
    h5 h6 h7 h8 h9 h10 h11 h12 rfl

end Cert.RowSpec

end
-- ==== Proof.HostReads.lean ====
/-
  Small host-side layouts read at an index, on the extended reals.

  The layer's parameters reach a launch through slices, reshapes and transposes of the stacked parameter arrays.
  Each lemma reads one such chain at an index and lands on an entry of the stacked array:
  * a neighbour or root matrix: relation `a` of layer `l` of a `[2,6,128,128]` stack, with its two feature axes swapped
    and its format narrowed, read at `(k, j)` is the stack's entry `(l, a, j, k)`;
  * a bias: entry `(l, a, j)` of a `[2,6,128]` stack; a scale or shift: entry `(l, t, j)` of a `[2,3,128]` stack;
  * the column that turns a neighbour sum into a mean: one over the larger of the neighbour count and one.
-/
import Idealize.ShloMosaic.PureOps.Ideal
import Idealize.ShloMosaic.Lib.Pipeline.Value
import Idealize.ShloMosaic.Lib.ValueIdx

noncomputable section

namespace Cert.HostReads

open Idealize.ShloMosaic Idealize.ShloMosaic.ValueIdx

abbrev T2x6x128x128 : Shape := ⟨4, ![2, 6, 128, 128]⟩
abbrev T1x6x128x128 : Shape := ⟨4, ![1, 6, 128, 128]⟩
abbrev T6x128x128 : Shape := ⟨3, ![6, 128, 128]⟩
abbrev T1x128x128 : Shape := ⟨3, ![1, 128, 128]⟩
abbrev T128x128 : Shape := ⟨2, ![128, 128]⟩
abbrev T2x6x128 : Shape := ⟨3, ![2, 6, 128]⟩
abbrev T1x6x128 : Shape := ⟨3, ![1, 6, 128]⟩
abbrev T6x128 : Shape := ⟨2, ![6, 128]⟩
abbrev T1x128 : Shape := ⟨2, ![1, 128]⟩
abbrev T128 : Shape := ⟨1, ![128]⟩
abbrev T2x3x128 : Shape := ⟨3, ![2, 3, 128]⟩
abbrev T1x1x128 : Shape := ⟨3, ![1, 1, 128]⟩

/-- Layer `l` of a `[2,6,128,128]` stack, as a `[6,128,128]` array, read at `(a, p, q)`. -/
theorem layer4_apply (x : T2x6x128x128.Idx → EReal) (l : Nat) (hl : l < 2)
    (h1 : T2x6x128x128.Slices ![l, 0, 0, 0] T1x6x128x128) (h2 : T1x6x128x128.ShapeCasts T6x128x128)
    (a : Fin 6) (p q : Fin 128) :
    shapeCast T6x128x128 (extractStridedSlice T1x6x128x128 ![l, 0, 0, 0] x h1) h2 (ix3 a p q) = x (ix4 ⟨l, hl⟩ a p q) := by
  refine (shapeCast_apply _ h2 (ix3 a p q) (ix4 (0 : Fin 1) a p q) ?_).trans ?_
  · rewrite [Shape.rowMajor_val_four, Shape.rowMajor_val_three]
    show ((0 * 6 + a.val) * 128 + p.val) * 128 + q.val = (a.val * 128 + p.val) * 128 + q.val
    omega
  · exact extractStridedSlice_apply ![l, 0, 0, 0] x h1 (ix4 (0 : Fin 1) a p q) (ix4 ⟨l, hl⟩ a p q) (fun b => match b with
      | ⟨0, _⟩ => by show l = l + 0; omega
      | ⟨1, _⟩ => by show a.val = 0 + a.val; omega
      | ⟨2, _⟩ => by show p.val = 0 + p.val; omega
      | ⟨3, _⟩ => by show q.val = 0 + q.val; omega)

/-- Relation `a` of a `[6,128,128]` array with its last two axes swapped and its format narrowed, as a matrix, read at
    `(k, j)`: the array's entry `(a, j, k)`. -/
theorem swapped_slice_apply (y : FVec Ideal T6x128x128 .f32) (a : Nat) (ha : a < 6)
    (h3 : T6x128x128.Transposes [0, 2, 1] T6x128x128) (hb : FTy.bf16.bits < FTy.f32.bits)
    (h4 : T6x128x128.Slices ![a, 0, 0] T1x128x128) (h5 : T1x128x128.ShapeCasts T128x128) (k j : Fin 128) :
    shapeCast T128x128 (extractStridedSlice T1x128x128 ![a, 0, 0] (truncf .bf16 (transpose T6x128x128 [0, 2, 1] y h3) hb) h4) h5 (ix2 k j)
      = y (ix3 ⟨a, ha⟩ j k) := by
  refine (shapeCast_apply _ h5 (ix2 k j) (ix3 (0 : Fin 1) k j) ?_).trans ?_
  · rewrite [Shape.rowMajor_val_three, Shape.rowMajor_val_two]
    show (0 * 128 + k.val) * 128 + j.val = k.val * 128 + j.val
    omega
  refine (extractStridedSlice_apply ![a, 0, 0] _ h4 (ix3 (0 : Fin 1) k j) (ix3 ⟨a, ha⟩ k j) (fun b => match b with
      | ⟨0, _⟩ => by show a = a + 0; omega
      | ⟨1, _⟩ => by show k.val = 0 + k.val; omega
      | ⟨2, _⟩ => by show j.val = 0 + j.val; omega)).trans ?_
  refine (truncf_apply _ hb _).trans ?_
  exact transpose_apply [0, 2, 1] y h3 (ix3 ⟨a, ha⟩ k j) (ix3 ⟨a, ha⟩ j k) (fun b => match b with
      | ⟨0, _⟩ => rfl
      | ⟨1, _⟩ => rfl
      | ⟨2, _⟩ => rfl)

/-- Layer `l` of a `[2,6,128]` stack, as a `[6,128]` array, read at `(a, j)`. -/
theorem layer3_apply (x : T2x6x128.Idx → EReal) (l : Nat) (hl : l < 2)
    (h1 : T2x6x128.Slices ![l, 0, 0] T1x6x128) (h2 : T1x6x128.ShapeCasts T6x128) (a : Fin 6) (j : Fin 128) :
    shapeCast T6x128 (extractStridedSlice T1x6x128 ![l, 0, 0] x h1) h2 (ix2 a j) = x (ix3 ⟨l, hl⟩ a j) := by
  refine (shapeCast_apply _ h2 (ix2 a j) (ix3 (0 : Fin 1) a j) ?_).trans ?_
  · rewrite [Shape.rowMajor_val_three, Shape.rowMajor_val_two]
    show (0 * 6 + a.val) * 128 + j.val = a.val * 128 + j.val
    omega
  · exact extractStridedSlice_apply ![l, 0, 0] x h1 (ix3 (0 : Fin 1) a j) (ix3 ⟨l, hl⟩ a j) (fun b => match b with
      | ⟨0, _⟩ => by show l = l + 0; omega
      | ⟨1, _⟩ => by show a.val = 0 + a.val; omega
      | ⟨2, _⟩ => by show j.val = 0 + j.val; omega)

/-- Row `a` of a `[6,128]` array as a vector, read at `j`. -/
theorem row_apply (y : T6x128.Idx → EReal) (a : Nat) (ha : a < 6)
    (h3 : T6x128.Slices ![a, 0] T1x128) (h4 : T1x128.ShapeCasts T128) (j : Fin 128) :
    shapeCast T128 (extractStridedSlice T1x128 ![a, 0] y h3) h4 (ix1 j) = y (ix2 ⟨a, ha⟩ j) := by
  refine (shapeCast_apply _ h4 (ix1 j) (ix2 (0 : Fin 1) j) ?_).trans ?_
  · rewrite [Shape.rowMajor_val_two, Shape.rowMajor_val_one]
    show 0 * 128 + j.val = j.val
    omega
  · exact extractStridedSlice_apply ![a, 0] y h3 (ix2 (0 : Fin 1) j) (ix2 ⟨a, ha⟩ j) (fun b => match b with
      | ⟨0, _⟩ => by show a = a + 0; omega
      | ⟨1, _⟩ => by show j.val = 0 + j.val; omega)

/-- Entry `(l, t, ·)` of a `[2,3,128]` stack as a vector, read at `j`. -/
theorem norm_param_apply (x : T2x3x128.Idx → EReal) (l t : Nat) (hl : l < 2) (ht : t < 3)
    (h1 : T2x3x128.Slices ![l, t, 0] T1x1x128) (h2 : T1x1x128.ShapeCasts T128) (j : Fin 128) :
    shapeCast T128 (extractStridedSlice T1x1x128 ![l, t, 0] x h1) h2 (ix1 j) = x (ix3 ⟨l, hl⟩ ⟨t, ht⟩ j) := by
  refine (shapeCast_apply _ h2 (ix1 j) (ix3 (0 : Fin 1) (0 : Fin 1) j) ?_).trans ?_
  · rewrite [Shape.rowMajor_val_three, Shape.rowMajor_val_one]
    show (0 * 1 + 0) * 128 + j.val = j.val
    omega
  · exact extractStridedSlice_apply ![l, t, 0] x h1 (ix3 (0 : Fin 1) (0 : Fin 1) j) (ix3 ⟨l, hl⟩ ⟨t, ht⟩ j) (fun b => match b with
      | ⟨0, _⟩ => by show l = l + 0; omega
      | ⟨1, _⟩ => by show t = t + 0; omega
      | ⟨2, _⟩ => by show j.val = 0 + j.val; omega)

/-- The column `[n] → [n,1]` of one over the larger of a count and one, read at row `r`. -/
theorem recip_col_apply {n : Nat} (C : FVec Ideal ⟨1, ![n]⟩ .f32)
    (hb1 hb2 : (⟨0, ![]⟩ : Shape).BroadcastsInDim ⟨1, ![n]⟩ ![])
    (hb3 : (⟨1, ![n]⟩ : Shape).BroadcastsInDim ⟨2, ![n, 1]⟩ ![0]) (r : Fin n) :
    broadcastInDim ⟨2, ![n, 1]⟩ ![0] hb3
        (Host.divf (broadcastInDim ⟨1, ![n]⟩ ![] hb1 (constant (F := Ideal) ⟨0, ![]⟩ .f32 0x3F800000#32))
          (maximumf C (broadcastInDim ⟨1, ![n]⟩ ![] hb2 (constant (F := Ideal) ⟨0, ![]⟩ .f32 0x3F800000#32))))
        (ix2 r (0 : Fin 1))
      = Ideal.div (Ideal.ofBits .f32 0x3F800000#32) (max (C (ix1 r)) (Ideal.ofBits .f32 0x3F800000#32)) := by
  refine (broadcastInDim_apply ![0] hb3 _ (ix2 r (0 : Fin 1)) (ix1 r) (fun a => match a with
    | ⟨0, _⟩ => ?_)).trans ?_
  · show r.val = if n = 1 then 0 else r.val
    split
    · have := r.isLt; omega
    · rfl
  · show Ideal.div (broadcastInDim ⟨1, ![n]⟩ ![] hb1 (constant (F := Ideal) ⟨0, ![]⟩ .f32 0x3F800000#32) (ix1 r))
        (max (C (ix1 r)) (broadcastInDim ⟨1, ![n]⟩ ![] hb2 (constant (F := Ideal) ⟨0, ![]⟩ .f32 0x3F800000#32) (ix1 r))) = _
    rw [broadcastInDim_apply ![] hb1 _ (ix1 r) ix0 (fun a => a.elim0)]
    rfl

end Cert.HostReads

end
-- ==== Proof.KKeep.lean ====
/-
  Buffers that cross segments unchanged: a buffer that no host operation of a stretch writes reads after the stretch as
  before it, and a buffer that is not one of a launch's arrays reads after the launch as before it.  One lemma per
  buffer and pair of segment boundaries the value proof needs.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

theorem keep_arg15_0_6 (c : Dev nD) : W6 m ρ c (Proc.devRef .tc main_arg15) = W0 m ρ c (Proc.devRef .tc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg16_0_6 (c : Dev nD) : W6 m ρ c (Proc.devRef .tc main_arg16) = W0 m ρ c (Proc.devRef .tc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg17_0_6 (c : Dev nD) : W6 m ρ c (Proc.devRef .tc main_arg17) = W0 m ρ c (Proc.devRef .tc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg18_0_2 (c : Dev nD) : W2 m ρ c (Proc.devRef .tc main_arg18) = W0 m ρ c (Proc.devRef .tc main_arg18) :=
  calc W2 m ρ c (Proc.devRef .tc main_arg18)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg18_0_4 (c : Dev nD) : W4 m ρ c (Proc.devRef .tc main_arg18) = W0 m ρ c (Proc.devRef .tc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg18_0_6 (c : Dev nD) : W6 m ρ c (Proc.devRef .tc main_arg18) = W0 m ρ c (Proc.devRef .tc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg18_0_8 (c : Dev nD) : W8 m ρ c (Proc.devRef .tc main_arg18) = W0 m ρ c (Proc.devRef .tc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg18_0_10 (c : Dev nD) : W10 m ρ c (Proc.devRef .tc main_arg18) = W0 m ρ c (Proc.devRef .tc main_arg18) :=
  calc W10 m ρ c (Proc.devRef .tc main_arg18)
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg19_0_2 (c : Dev nD) : W2 m ρ c (Proc.devRef .tc main_arg19) = W0 m ρ c (Proc.devRef .tc main_arg19) :=
  calc W2 m ρ c (Proc.devRef .tc main_arg19)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg19_0_4 (c : Dev nD) : W4 m ρ c (Proc.devRef .tc main_arg19) = W0 m ρ c (Proc.devRef .tc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg19_0_6 (c : Dev nD) : W6 m ρ c (Proc.devRef .tc main_arg19) = W0 m ρ c (Proc.devRef .tc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg19_0_8 (c : Dev nD) : W8 m ρ c (Proc.devRef .tc main_arg19) = W0 m ρ c (Proc.devRef .tc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg19_0_10 (c : Dev nD) : W10 m ρ c (Proc.devRef .tc main_arg19) = W0 m ρ c (Proc.devRef .tc main_arg19) :=
  calc W10 m ρ c (Proc.devRef .tc main_arg19)
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v16_1_6 (c : Dev nD) : W6 m ρ c (Proc.devRef .tc main_v16) = W1 m ρ c (Proc.devRef .tc main_v16) :=
  calc W6 m ρ c (Proc.devRef .tc main_v16)
    _ = W5 m ρ c (Proc.devRef .tc main_v16) := W6_of_ne m ρ c main_v16 (by decide)
    _ = W4 m ρ c (Proc.devRef .tc main_v16) := StableHlo.after_of_forall_not_mem (b := Proc.devRef .tc main_v16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v16) := W4_of_ne m ρ c main_v16 (by decide)
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v16) := W2_of_ne m ρ c main_v16 (by decide)

theorem keep_v18_1_6 (c : Dev nD) : W6 m ρ c (Proc.devRef .tc main_v18) = W1 m ρ c (Proc.devRef .tc main_v18) :=
  calc W6 m ρ c (Proc.devRef .tc main_v18)
    _ = W5 m ρ c (Proc.devRef .tc main_v18) := W6_of_ne m ρ c main_v18 (by decide)
    _ = W4 m ρ c (Proc.devRef .tc main_v18) := StableHlo.after_of_forall_not_mem (b := Proc.devRef .tc main_v18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18) := W4_of_ne m ρ c main_v18 (by decide)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v18) := W2_of_ne m ρ c main_v18 (by decide)

theorem keep_v20_1_6 (c : Dev nD) : W6 m ρ c (Proc.devRef .tc main_v20) = W1 m ρ c (Proc.devRef .tc main_v20) :=
  calc W6 m ρ c (Proc.devRef .tc main_v20)
    _ = W5 m ρ c (Proc.devRef .tc main_v20) := W6_of_ne m ρ c main_v20 (by decide)
    _ = W4 m ρ c (Proc.devRef .tc main_v20) := StableHlo.after_of_forall_not_mem (b := Proc.devRef .tc main_v20) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v20) := W4_of_ne m ρ c main_v20 (by decide)
    _ = W2 m ρ c (Proc.devRef .tc main_v20) := StableHlo.after_of_forall_not_mem (b := Proc.devRef .tc main_v20) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v20) := W2_of_ne m ρ c main_v20 (by decide)

theorem keep_v22_1_6 (c : Dev nD) : W6 m ρ c (Proc.devRef .tc main_v22) = W1 m ρ c (Proc.devRef .tc main_v22) :=
  calc W6 m ρ c (Proc.devRef .tc main_v22)
    _ = W5 m ρ c (Proc.devRef .tc main_v22) := W6_of_ne m ρ c main_v22 (by decide)
    _ = W4 m ρ c (Proc.devRef .tc main_v22) := StableHlo.after_of_forall_not_mem (b := Proc.devRef .tc main_v22) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v22) := W4_of_ne m ρ c main_v22 (by decide)
    _ = W2 m ρ c (Proc.devRef .tc main_v22) := StableHlo.after_of_forall_not_mem (b := Proc.devRef .tc main_v22) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v22) := W2_of_ne m ρ c main_v22 (by decide)

theorem keep_v24_1_6 (c : Dev nD) : W6 m ρ c (Proc.devRef .tc main_v24) = W1 m ρ c (Proc.devRef .tc main_v24) :=
  calc W6 m ρ c (Proc.devRef .tc main_v24)
    _ = W5 m ρ c (Proc.devRef .tc main_v24) := W6_of_ne m ρ c main_v24 (by decide)
    _ = W4 m ρ c (Proc.devRef .tc main_v24) := StableHlo.after_of_forall_not_mem (b := Proc.devRef .tc main_v24) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v24) := W4_of_ne m ρ c main_v24 (by decide)
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v24) := W2_of_ne m ρ c main_v24 (by decide)

theorem keep_v26_1_6 (c : Dev nD) : W6 m ρ c (Proc.devRef .tc main_v26) = W1 m ρ c (Proc.devRef .tc main_v26) :=
  calc W6 m ρ c (Proc.devRef .tc main_v26)
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

theorem keep_v28_1_6 (c : Dev nD) : W6 m ρ c (Proc.devRef .tc main_v28) = W1 m ρ c (Proc.devRef .tc main_v28) :=
  calc W6 m ρ c (Proc.devRef .tc main_v28)
    _ = W5 m ρ c (Proc.devRef .tc main_v28) := W6_of_ne m ρ c main_v28 (by decide)
    _ = W4 m ρ c (Proc.devRef .tc main_v28) := StableHlo.after_of_forall_not_mem (b := Proc.devRef .tc main_v28) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v28) := W4_of_ne m ρ c main_v28 (by decide)
    _ = W2 m ρ c (Proc.devRef .tc main_v28) := StableHlo.after_of_forall_not_mem (b := Proc.devRef .tc main_v28) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v28) := W2_of_ne m ρ c main_v28 (by decide)

theorem keep_v30_1_6 (c : Dev nD) : W6 m ρ c (Proc.devRef .tc main_v30) = W1 m ρ c (Proc.devRef .tc main_v30) :=
  calc W6 m ρ c (Proc.devRef .tc main_v30)
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v30) := W4_of_ne m ρ c main_v30 (by decide)
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v30) := W2_of_ne m ρ c main_v30 (by decide)

theorem keep_v32_1_6 (c : Dev nD) : W6 m ρ c (Proc.devRef .tc main_v32) = W1 m ρ c (Proc.devRef .tc main_v32) :=
  calc W6 m ρ c (Proc.devRef .tc main_v32)
    _ = W5 m ρ c (Proc.devRef .tc main_v32) := W6_of_ne m ρ c main_v32 (by decide)
    _ = W4 m ρ c (Proc.devRef .tc main_v32) := StableHlo.after_of_forall_not_mem (b := Proc.devRef .tc main_v32) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v32) := W4_of_ne m ρ c main_v32 (by decide)
    _ = W2 m ρ c (Proc.devRef .tc main_v32) := StableHlo.after_of_forall_not_mem (b := Proc.devRef .tc main_v32) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v32) := W2_of_ne m ρ c main_v32 (by decide)

theorem keep_v34_1_6 (c : Dev nD) : W6 m ρ c (Proc.devRef .tc main_v34) = W1 m ρ c (Proc.devRef .tc main_v34) :=
  calc W6 m ρ c (Proc.devRef .tc main_v34)
    _ = W5 m ρ c (Proc.devRef .tc main_v34) := W6_of_ne m ρ c main_v34 (by decide)
    _ = W4 m ρ c (Proc.devRef .tc main_v34) := StableHlo.after_of_forall_not_mem (b := Proc.devRef .tc main_v34) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v34) := W4_of_ne m ρ c main_v34 (by decide)
    _ = W2 m ρ c (Proc.devRef .tc main_v34) := StableHlo.after_of_forall_not_mem (b := Proc.devRef .tc main_v34) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v34) := W2_of_ne m ρ c main_v34 (by decide)

theorem keep_v36_1_6 (c : Dev nD) : W6 m ρ c (Proc.devRef .tc main_v36) = W1 m ρ c (Proc.devRef .tc main_v36) :=
  calc W6 m ρ c (Proc.devRef .tc main_v36)
    _ = W5 m ρ c (Proc.devRef .tc main_v36) := W6_of_ne m ρ c main_v36 (by decide)
    _ = W4 m ρ c (Proc.devRef .tc main_v36) := StableHlo.after_of_forall_not_mem (b := Proc.devRef .tc main_v36) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v36) := W4_of_ne m ρ c main_v36 (by decide)
    _ = W2 m ρ c (Proc.devRef .tc main_v36) := StableHlo.after_of_forall_not_mem (b := Proc.devRef .tc main_v36) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v36) := W2_of_ne m ρ c main_v36 (by decide)

theorem keep_v38_1_6 (c : Dev nD) : W6 m ρ c (Proc.devRef .tc main_v38) = W1 m ρ c (Proc.devRef .tc main_v38) :=
  calc W6 m ρ c (Proc.devRef .tc main_v38)
    _ = W5 m ρ c (Proc.devRef .tc main_v38) := W6_of_ne m ρ c main_v38 (by decide)
    _ = W4 m ρ c (Proc.devRef .tc main_v38) := StableHlo.after_of_forall_not_mem (b := Proc.devRef .tc main_v38) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v38) := W4_of_ne m ρ c main_v38 (by decide)
    _ = W2 m ρ c (Proc.devRef .tc main_v38) := StableHlo.after_of_forall_not_mem (b := Proc.devRef .tc main_v38) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v38) := W2_of_ne m ρ c main_v38 (by decide)

theorem keep_v9_1_3 (c : Dev nD) : W3 m ρ c (Proc.devRef .tc main_v9) = W1 m ρ c (Proc.devRef .tc main_v9) :=
  calc W3 m ρ c (Proc.devRef .tc main_v9)
    _ = W2 m ρ c (Proc.devRef .tc main_v9) := StableHlo.after_of_forall_not_mem (b := Proc.devRef .tc main_v9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v9) := W2_of_ne m ρ c main_v9 (by decide)

theorem keep_v14_1_5 (c : Dev nD) : W5 m ρ c (Proc.devRef .tc main_v14) = W1 m ρ c (Proc.devRef .tc main_v14) :=
  calc W5 m ρ c (Proc.devRef .tc main_v14)
    _ = W4 m ρ c (Proc.devRef .tc main_v14) := StableHlo.after_of_forall_not_mem (b := Proc.devRef .tc main_v14) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := W4_of_ne m ρ c main_v14 (by decide)
    _ = W2 m ρ c (Proc.devRef .tc main_v14) := StableHlo.after_of_forall_not_mem (b := Proc.devRef .tc main_v14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v14) := W2_of_ne m ρ c main_v14 (by decide)

theorem keep_v112_1_3 (c : Dev nD) : W3 m ρ c (Proc.devRef .tc main_v112) = W1 m ρ c (Proc.devRef .tc main_v112) :=
  calc W3 m ρ c (Proc.devRef .tc main_v112)
    _ = W2 m ρ c (Proc.devRef .tc main_v112) := StableHlo.after_of_forall_not_mem (b := Proc.devRef .tc main_v112) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v112) := W2_of_ne m ρ c main_v112 (by decide)

theorem keep_v162_1_3 (c : Dev nD) : W3 m ρ c (Proc.devRef .tc main_v162) = W1 m ρ c (Proc.devRef .tc main_v162) :=
  calc W3 m ρ c (Proc.devRef .tc main_v162)
    _ = W2 m ρ c (Proc.devRef .tc main_v162) := StableHlo.after_of_forall_not_mem (b := Proc.devRef .tc main_v162) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v162) := W2_of_ne m ρ c main_v162 (by decide)

theorem keep_v132_1_5 (c : Dev nD) : W5 m ρ c (Proc.devRef .tc main_v132) = W1 m ρ c (Proc.devRef .tc main_v132) :=
  calc W5 m ρ c (Proc.devRef .tc main_v132)
    _ = W4 m ρ c (Proc.devRef .tc main_v132) := StableHlo.after_of_forall_not_mem (b := Proc.devRef .tc main_v132) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v132) := W4_of_ne m ρ c main_v132 (by decide)
    _ = W2 m ρ c (Proc.devRef .tc main_v132) := StableHlo.after_of_forall_not_mem (b := Proc.devRef .tc main_v132) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v132) := W2_of_ne m ρ c main_v132 (by decide)

theorem keep_v152_1_5 (c : Dev nD) : W5 m ρ c (Proc.devRef .tc main_v152) = W1 m ρ c (Proc.devRef .tc main_v152) :=
  calc W5 m ρ c (Proc.devRef .tc main_v152)
    _ = W4 m ρ c (Proc.devRef .tc main_v152) := StableHlo.after_of_forall_not_mem (b := Proc.devRef .tc main_v152) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v152) := W4_of_ne m ρ c main_v152 (by decide)
    _ = W2 m ρ c (Proc.devRef .tc main_v152) := StableHlo.after_of_forall_not_mem (b := Proc.devRef .tc main_v152) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v152) := W2_of_ne m ρ c main_v152 (by decide)

theorem keep_v56_1_7 (c : Dev nD) : W7 m ρ c (Proc.devRef .tc main_v56) = W1 m ρ c (Proc.devRef .tc main_v56) :=
  calc W7 m ρ c (Proc.devRef .tc main_v56)
    _ = W6 m ρ c (Proc.devRef .tc main_v56) := StableHlo.after_of_forall_not_mem (b := Proc.devRef .tc main_v56) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v56) := W6_of_ne m ρ c main_v56 (by decide)
    _ = W4 m ρ c (Proc.devRef .tc main_v56) := StableHlo.after_of_forall_not_mem (b := Proc.devRef .tc main_v56) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v56) := W4_of_ne m ρ c main_v56 (by decide)
    _ = W2 m ρ c (Proc.devRef .tc main_v56) := StableHlo.after_of_forall_not_mem (b := Proc.devRef .tc main_v56) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v56) := (W2_arr m ρ c 1).trans (((dat0 (V1 m ρ) c).arrAt_in 1 rfl cfg0.N).trans (A_eq0 (V1 m ρ) c 1))

theorem keep_v74_1_7 (c : Dev nD) : W7 m ρ c (Proc.devRef .tc main_v74) = W1 m ρ c (Proc.devRef .tc main_v74) :=
  calc W7 m ρ c (Proc.devRef .tc main_v74)
    _ = W6 m ρ c (Proc.devRef .tc main_v74) := StableHlo.after_of_forall_not_mem (b := Proc.devRef .tc main_v74) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v74) := W6_of_ne m ρ c main_v74 (by decide)
    _ = W4 m ρ c (Proc.devRef .tc main_v74) := StableHlo.after_of_forall_not_mem (b := Proc.devRef .tc main_v74) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v74) := W4_of_ne m ρ c main_v74 (by decide)
    _ = W2 m ρ c (Proc.devRef .tc main_v74) := StableHlo.after_of_forall_not_mem (b := Proc.devRef .tc main_v74) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v74) := (W2_arr m ρ c 3).trans (((dat0 (V1 m ρ) c).arrAt_in 3 rfl cfg0.N).trans (A_eq0 (V1 m ρ) c 3))

theorem keep_v47_1_3 (c : Dev nD) : W3 m ρ c (Proc.devRef .tc main_v47) = W1 m ρ c (Proc.devRef .tc main_v47) :=
  calc W3 m ρ c (Proc.devRef .tc main_v47)
    _ = W2 m ρ c (Proc.devRef .tc main_v47) := StableHlo.after_of_forall_not_mem (b := Proc.devRef .tc main_v47) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v47) := W2_of_ne m ρ c main_v47 (by decide)

theorem keep_v92_1_3 (c : Dev nD) : W3 m ρ c (Proc.devRef .tc main_v92) = W1 m ρ c (Proc.devRef .tc main_v92) :=
  calc W3 m ρ c (Proc.devRef .tc main_v92)
    _ = W2 m ρ c (Proc.devRef .tc main_v92) := StableHlo.after_of_forall_not_mem (b := Proc.devRef .tc main_v92) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v92) := W2_of_ne m ρ c main_v92 (by decide)

theorem keep_v47_1_9 (c : Dev nD) : W9 m ρ c (Proc.devRef .tc main_v47) = W1 m ρ c (Proc.devRef .tc main_v47) :=
  calc W9 m ρ c (Proc.devRef .tc main_v47)
    _ = W8 m ρ c (Proc.devRef .tc main_v47) := StableHlo.after_of_forall_not_mem (b := Proc.devRef .tc main_v47) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v47) := W8_of_ne m ρ c main_v47 (by decide)
    _ = W6 m ρ c (Proc.devRef .tc main_v47) := StableHlo.after_of_forall_not_mem (b := Proc.devRef .tc main_v47) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v47) := W6_of_ne m ρ c main_v47 (by decide)
    _ = W4 m ρ c (Proc.devRef .tc main_v47) := StableHlo.after_of_forall_not_mem (b := Proc.devRef .tc main_v47) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := (W4_arr m ρ c 1).trans (((dat1 (V3 m ρ) c).arrAt_in 1 rfl cfg1.N).trans (A_eq1 (V3 m ρ) c 1))
    _ = W2 m ρ c (Proc.devRef .tc main_v47) := StableHlo.after_of_forall_not_mem (b := Proc.devRef .tc main_v47) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v47) := W2_of_ne m ρ c main_v47 (by decide)

theorem keep_v92_1_9 (c : Dev nD) : W9 m ρ c (Proc.devRef .tc main_v92) = W1 m ρ c (Proc.devRef .tc main_v92) :=
  calc W9 m ρ c (Proc.devRef .tc main_v92)
    _ = W8 m ρ c (Proc.devRef .tc main_v92) := StableHlo.after_of_forall_not_mem (b := Proc.devRef .tc main_v92) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v92) := W8_of_ne m ρ c main_v92 (by decide)
    _ = W6 m ρ c (Proc.devRef .tc main_v92) := StableHlo.after_of_forall_not_mem (b := Proc.devRef .tc main_v92) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v92) := W6_of_ne m ρ c main_v92 (by decide)
    _ = W4 m ρ c (Proc.devRef .tc main_v92) := StableHlo.after_of_forall_not_mem (b := Proc.devRef .tc main_v92) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v92) := (W4_arr m ρ c 3).trans (((dat1 (V3 m ρ) c).arrAt_in 3 rfl cfg1.N).trans (A_eq1 (V3 m ρ) c 3))
    _ = W2 m ρ c (Proc.devRef .tc main_v92) := StableHlo.after_of_forall_not_mem (b := Proc.devRef .tc main_v92) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v92) := W2_of_ne m ρ c main_v92 (by decide)

theorem keep_v65_1_5 (c : Dev nD) : W5 m ρ c (Proc.devRef .tc main_v65) = W1 m ρ c (Proc.devRef .tc main_v65) :=
  calc W5 m ρ c (Proc.devRef .tc main_v65)
    _ = W4 m ρ c (Proc.devRef .tc main_v65) := StableHlo.after_of_forall_not_mem (b := Proc.devRef .tc main_v65) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v65) := W4_of_ne m ρ c main_v65 (by decide)
    _ = W2 m ρ c (Proc.devRef .tc main_v65) := StableHlo.after_of_forall_not_mem (b := Proc.devRef .tc main_v65) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v65) := W2_of_ne m ρ c main_v65 (by decide)

theorem keep_v83_1_5 (c : Dev nD) : W5 m ρ c (Proc.devRef .tc main_v83) = W1 m ρ c (Proc.devRef .tc main_v83) :=
  calc W5 m ρ c (Proc.devRef .tc main_v83)
    _ = W4 m ρ c (Proc.devRef .tc main_v83) := StableHlo.after_of_forall_not_mem (b := Proc.devRef .tc main_v83) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v83) := W4_of_ne m ρ c main_v83 (by decide)
    _ = W2 m ρ c (Proc.devRef .tc main_v83) := StableHlo.after_of_forall_not_mem (b := Proc.devRef .tc main_v83) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v83) := W2_of_ne m ρ c main_v83 (by decide)

theorem keep_v65_1_11 (c : Dev nD) : W11 m ρ c (Proc.devRef .tc main_v65) = W1 m ρ c (Proc.devRef .tc main_v65) :=
  calc W11 m ρ c (Proc.devRef .tc main_v65)
    _ = W10 m ρ c (Proc.devRef .tc main_v65) := StableHlo.after_of_forall_not_mem (b := Proc.devRef .tc main_v65) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v65) := W10_of_ne m ρ c main_v65 (by decide)
    _ = W8 m ρ c (Proc.devRef .tc main_v65) := StableHlo.after_of_forall_not_mem (b := Proc.devRef .tc main_v65) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v65) := W8_of_ne m ρ c main_v65 (by decide)
    _ = W6 m ρ c (Proc.devRef .tc main_v65) := StableHlo.after_of_forall_not_mem (b := Proc.devRef .tc main_v65) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v65) := (W6_arr m ρ c 1).trans (((dat2 (V5 m ρ) c).arrAt_in 1 rfl cfg2.N).trans (A_eq2 (V5 m ρ) c 1))
    _ = W4 m ρ c (Proc.devRef .tc main_v65) := StableHlo.after_of_forall_not_mem (b := Proc.devRef .tc main_v65) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v65) := W4_of_ne m ρ c main_v65 (by decide)
    _ = W2 m ρ c (Proc.devRef .tc main_v65) := StableHlo.after_of_forall_not_mem (b := Proc.devRef .tc main_v65) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v65) := W2_of_ne m ρ c main_v65 (by decide)

theorem keep_v83_1_11 (c : Dev nD) : W11 m ρ c (Proc.devRef .tc main_v83) = W1 m ρ c (Proc.devRef .tc main_v83) :=
  calc W11 m ρ c (Proc.devRef .tc main_v83)
    _ = W10 m ρ c (Proc.devRef .tc main_v83) := StableHlo.after_of_forall_not_mem (b := Proc.devRef .tc main_v83) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v83) := W10_of_ne m ρ c main_v83 (by decide)
    _ = W8 m ρ c (Proc.devRef .tc main_v83) := StableHlo.after_of_forall_not_mem (b := Proc.devRef .tc main_v83) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v83) := W8_of_ne m ρ c main_v83 (by decide)
    _ = W6 m ρ c (Proc.devRef .tc main_v83) := StableHlo.after_of_forall_not_mem (b := Proc.devRef .tc main_v83) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v83) := (W6_arr m ρ c 3).trans (((dat2 (V5 m ρ) c).arrAt_in 3 rfl cfg2.N).trans (A_eq2 (V5 m ρ) c 3))
    _ = W4 m ρ c (Proc.devRef .tc main_v83) := StableHlo.after_of_forall_not_mem (b := Proc.devRef .tc main_v83) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v83) := W4_of_ne m ρ c main_v83 (by decide)
    _ = W2 m ρ c (Proc.devRef .tc main_v83) := StableHlo.after_of_forall_not_mem (b := Proc.devRef .tc main_v83) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v83) := W2_of_ne m ρ c main_v83 (by decide)

theorem keep_v100_1_2 (c : Dev nD) : W2 m ρ c (Proc.devRef .tc main_v100) = W1 m ρ c (Proc.devRef .tc main_v100) :=
  calc W2 m ρ c (Proc.devRef .tc main_v100)
    _ = W1 m ρ c (Proc.devRef .tc main_v100) := W2_of_ne m ρ c main_v100 (by decide)

theorem keep_v100_1_4 (c : Dev nD) : W4 m ρ c (Proc.devRef .tc main_v100) = W1 m ρ c (Proc.devRef .tc main_v100) :=
  calc W4 m ρ c (Proc.devRef .tc main_v100)
    _ = W3 m ρ c (Proc.devRef .tc main_v100) := W4_of_ne m ρ c main_v100 (by decide)
    _ = W2 m ρ c (Proc.devRef .tc main_v100) := StableHlo.after_of_forall_not_mem (b := Proc.devRef .tc main_v100) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v100) := W2_of_ne m ρ c main_v100 (by decide)

theorem keep_v102_1_2 (c : Dev nD) : W2 m ρ c (Proc.devRef .tc main_v102) = W1 m ρ c (Proc.devRef .tc main_v102) :=
  calc W2 m ρ c (Proc.devRef .tc main_v102)
    _ = W1 m ρ c (Proc.devRef .tc main_v102) := W2_of_ne m ρ c main_v102 (by decide)

theorem keep_v102_1_4 (c : Dev nD) : W4 m ρ c (Proc.devRef .tc main_v102) = W1 m ρ c (Proc.devRef .tc main_v102) :=
  calc W4 m ρ c (Proc.devRef .tc main_v102)
    _ = W3 m ρ c (Proc.devRef .tc main_v102) := W4_of_ne m ρ c main_v102 (by decide)
    _ = W2 m ρ c (Proc.devRef .tc main_v102) := StableHlo.after_of_forall_not_mem (b := Proc.devRef .tc main_v102) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v102) := W2_of_ne m ρ c main_v102 (by decide)

theorem keep_v96_1_2 (c : Dev nD) : W2 m ρ c (Proc.devRef .tc main_v96) = W1 m ρ c (Proc.devRef .tc main_v96) :=
  calc W2 m ρ c (Proc.devRef .tc main_v96)
    _ = W1 m ρ c (Proc.devRef .tc main_v96) := W2_of_ne m ρ c main_v96 (by decide)

theorem keep_v96_1_4 (c : Dev nD) : W4 m ρ c (Proc.devRef .tc main_v96) = W1 m ρ c (Proc.devRef .tc main_v96) :=
  calc W4 m ρ c (Proc.devRef .tc main_v96)
    _ = W3 m ρ c (Proc.devRef .tc main_v96) := W4_of_ne m ρ c main_v96 (by decide)
    _ = W2 m ρ c (Proc.devRef .tc main_v96) := StableHlo.after_of_forall_not_mem (b := Proc.devRef .tc main_v96) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v96) := W2_of_ne m ρ c main_v96 (by decide)

theorem keep_v179_2_6 (c : Dev nD) : W6 m ρ c (Proc.devRef .tc main_v179) = W2 m ρ c (Proc.devRef .tc main_v179) :=
  calc W6 m ρ c (Proc.devRef .tc main_v179)
    _ = W5 m ρ c (Proc.devRef .tc main_v179) := W6_of_ne m ρ c main_v179 (by decide)
    _ = W4 m ρ c (Proc.devRef .tc main_v179) := StableHlo.after_of_forall_not_mem (b := Proc.devRef .tc main_v179) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v179) := W4_of_ne m ρ c main_v179 (by decide)
    _ = W2 m ρ c (Proc.devRef .tc main_v179) := StableHlo.after_of_forall_not_mem (b := Proc.devRef .tc main_v179) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v179_2_7 (c : Dev nD) : W7 m ρ c (Proc.devRef .tc main_v179) = W2 m ρ c (Proc.devRef .tc main_v179) :=
  calc W7 m ρ c (Proc.devRef .tc main_v179)
    _ = W6 m ρ c (Proc.devRef .tc main_v179) := StableHlo.after_of_forall_not_mem (b := Proc.devRef .tc main_v179) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v179) := W6_of_ne m ρ c main_v179 (by decide)
    _ = W4 m ρ c (Proc.devRef .tc main_v179) := StableHlo.after_of_forall_not_mem (b := Proc.devRef .tc main_v179) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v179) := W4_of_ne m ρ c main_v179 (by decide)
    _ = W2 m ρ c (Proc.devRef .tc main_v179) := StableHlo.after_of_forall_not_mem (b := Proc.devRef .tc main_v179) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v196_4_6 (c : Dev nD) : W6 m ρ c (Proc.devRef .tc main_v196) = W4 m ρ c (Proc.devRef .tc main_v196) :=
  calc W6 m ρ c (Proc.devRef .tc main_v196)
    _ = W5 m ρ c (Proc.devRef .tc main_v196) := W6_of_ne m ρ c main_v196 (by decide)
    _ = W4 m ρ c (Proc.devRef .tc main_v196) := StableHlo.after_of_forall_not_mem (b := Proc.devRef .tc main_v196) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v196_4_9 (c : Dev nD) : W9 m ρ c (Proc.devRef .tc main_v196) = W4 m ρ c (Proc.devRef .tc main_v196) :=
  calc W9 m ρ c (Proc.devRef .tc main_v196)
    _ = W8 m ρ c (Proc.devRef .tc main_v196) := StableHlo.after_of_forall_not_mem (b := Proc.devRef .tc main_v196) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v196) := W8_of_ne m ρ c main_v196 (by decide)
    _ = W6 m ρ c (Proc.devRef .tc main_v196) := StableHlo.after_of_forall_not_mem (b := Proc.devRef .tc main_v196) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v196) := W6_of_ne m ρ c main_v196 (by decide)
    _ = W4 m ρ c (Proc.devRef .tc main_v196) := StableHlo.after_of_forall_not_mem (b := Proc.devRef .tc main_v196) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v213_6_11 (c : Dev nD) : W11 m ρ c (Proc.devRef .tc main_v213) = W6 m ρ c (Proc.devRef .tc main_v213) :=
  calc W11 m ρ c (Proc.devRef .tc main_v213)
    _ = W10 m ρ c (Proc.devRef .tc main_v213) := StableHlo.after_of_forall_not_mem (b := Proc.devRef .tc main_v213) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v213) := W10_of_ne m ρ c main_v213 (by decide)
    _ = W8 m ρ c (Proc.devRef .tc main_v213) := StableHlo.after_of_forall_not_mem (b := Proc.devRef .tc main_v213) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v213) := W8_of_ne m ρ c main_v213 (by decide)
    _ = W6 m ρ c (Proc.devRef .tc main_v213) := StableHlo.after_of_forall_not_mem (b := Proc.devRef .tc main_v213) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v221_7_8 (c : Dev nD) : W8 m ρ c (Proc.devRef .tc main_v221) = W7 m ρ c (Proc.devRef .tc main_v221) :=
  calc W8 m ρ c (Proc.devRef .tc main_v221)
    _ = W7 m ρ c (Proc.devRef .tc main_v221) := W8_of_ne m ρ c main_v221 (by decide)

theorem keep_v221_7_10 (c : Dev nD) : W10 m ρ c (Proc.devRef .tc main_v221) = W7 m ρ c (Proc.devRef .tc main_v221) :=
  calc W10 m ρ c (Proc.devRef .tc main_v221)
    _ = W9 m ρ c (Proc.devRef .tc main_v221) := W10_of_ne m ρ c main_v221 (by decide)
    _ = W8 m ρ c (Proc.devRef .tc main_v221) := StableHlo.after_of_forall_not_mem (b := Proc.devRef .tc main_v221) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v221) := W8_of_ne m ρ c main_v221 (by decide)

theorem keep_v223_7_8 (c : Dev nD) : W8 m ρ c (Proc.devRef .tc main_v223) = W7 m ρ c (Proc.devRef .tc main_v223) :=
  calc W8 m ρ c (Proc.devRef .tc main_v223)
    _ = W7 m ρ c (Proc.devRef .tc main_v223) := W8_of_ne m ρ c main_v223 (by decide)

theorem keep_v223_7_10 (c : Dev nD) : W10 m ρ c (Proc.devRef .tc main_v223) = W7 m ρ c (Proc.devRef .tc main_v223) :=
  calc W10 m ρ c (Proc.devRef .tc main_v223)
    _ = W9 m ρ c (Proc.devRef .tc main_v223) := W10_of_ne m ρ c main_v223 (by decide)
    _ = W8 m ρ c (Proc.devRef .tc main_v223) := StableHlo.after_of_forall_not_mem (b := Proc.devRef .tc main_v223) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v223) := W8_of_ne m ρ c main_v223 (by decide)

theorem keep_v217_7_8 (c : Dev nD) : W8 m ρ c (Proc.devRef .tc main_v217) = W7 m ρ c (Proc.devRef .tc main_v217) :=
  calc W8 m ρ c (Proc.devRef .tc main_v217)
    _ = W7 m ρ c (Proc.devRef .tc main_v217) := W8_of_ne m ρ c main_v217 (by decide)

theorem keep_v217_7_10 (c : Dev nD) : W10 m ρ c (Proc.devRef .tc main_v217) = W7 m ρ c (Proc.devRef .tc main_v217) :=
  calc W10 m ρ c (Proc.devRef .tc main_v217)
    _ = W9 m ρ c (Proc.devRef .tc main_v217) := W10_of_ne m ρ c main_v217 (by decide)
    _ = W8 m ρ c (Proc.devRef .tc main_v217) := StableHlo.after_of_forall_not_mem (b := Proc.devRef .tc main_v217) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v217) := W8_of_ne m ρ c main_v217 (by decide)

theorem keep_v233_7_9 (c : Dev nD) : W9 m ρ c (Proc.devRef .tc main_v233) = W7 m ρ c (Proc.devRef .tc main_v233) :=
  calc W9 m ρ c (Proc.devRef .tc main_v233)
    _ = W8 m ρ c (Proc.devRef .tc main_v233) := StableHlo.after_of_forall_not_mem (b := Proc.devRef .tc main_v233) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v233) := W8_of_ne m ρ c main_v233 (by decide)

theorem keep_v283_7_9 (c : Dev nD) : W9 m ρ c (Proc.devRef .tc main_v283) = W7 m ρ c (Proc.devRef .tc main_v283) :=
  calc W9 m ρ c (Proc.devRef .tc main_v283)
    _ = W8 m ρ c (Proc.devRef .tc main_v283) := StableHlo.after_of_forall_not_mem (b := Proc.devRef .tc main_v283) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v283) := W8_of_ne m ρ c main_v283 (by decide)

theorem keep_v253_7_11 (c : Dev nD) : W11 m ρ c (Proc.devRef .tc main_v253) = W7 m ρ c (Proc.devRef .tc main_v253) :=
  calc W11 m ρ c (Proc.devRef .tc main_v253)
    _ = W10 m ρ c (Proc.devRef .tc main_v253) := StableHlo.after_of_forall_not_mem (b := Proc.devRef .tc main_v253) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v253) := W10_of_ne m ρ c main_v253 (by decide)
    _ = W8 m ρ c (Proc.devRef .tc main_v253) := StableHlo.after_of_forall_not_mem (b := Proc.devRef .tc main_v253) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v253) := W8_of_ne m ρ c main_v253 (by decide)

theorem keep_v273_7_11 (c : Dev nD) : W11 m ρ c (Proc.devRef .tc main_v273) = W7 m ρ c (Proc.devRef .tc main_v273) :=
  calc W11 m ρ c (Proc.devRef .tc main_v273)
    _ = W10 m ρ c (Proc.devRef .tc main_v273) := StableHlo.after_of_forall_not_mem (b := Proc.devRef .tc main_v273) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v273) := W10_of_ne m ρ c main_v273 (by decide)
    _ = W8 m ρ c (Proc.devRef .tc main_v273) := StableHlo.after_of_forall_not_mem (b := Proc.devRef .tc main_v273) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v273) := W8_of_ne m ρ c main_v273 (by decide)

theorem keep_v300_8_12 (c : Dev nD) : W12 m ρ c (Proc.devRef .tc main_v300) = W8 m ρ c (Proc.devRef .tc main_v300) :=
  calc W12 m ρ c (Proc.devRef .tc main_v300)
    _ = W11 m ρ c (Proc.devRef .tc main_v300) := W12_of_ne m ρ c main_v300 (by decide)
    _ = W10 m ρ c (Proc.devRef .tc main_v300) := StableHlo.after_of_forall_not_mem (b := Proc.devRef .tc main_v300) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v300) := W10_of_ne m ρ c main_v300 (by decide)
    _ = W8 m ρ c (Proc.devRef .tc main_v300) := StableHlo.after_of_forall_not_mem (b := Proc.devRef .tc main_v300) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v317_10_12 (c : Dev nD) : W12 m ρ c (Proc.devRef .tc main_v317) = W10 m ρ c (Proc.devRef .tc main_v317) :=
  calc W12 m ρ c (Proc.devRef .tc main_v317)
    _ = W11 m ρ c (Proc.devRef .tc main_v317) := W12_of_ne m ρ c main_v317 (by decide)
    _ = W10 m ρ c (Proc.devRef .tc main_v317) := StableHlo.after_of_forall_not_mem (b := Proc.devRef .tc main_v317) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KStages

end
-- ==== Proof.KBorn3.lean ====
/-
  What stretch 3 of host operations leaves in the buffers the launches read, each as the composition of its
  operations over the buffers the stretch finds.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

set_option maxHeartbeats 4000000 in
theorem born3 (c : Dev nD) :
    W7 m ρ c (Proc.devRef .tc main_v221) = (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32)
    ∧ W7 m ρ c (Proc.devRef .tc main_v223) = (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32)
    ∧ W7 m ρ c (Proc.devRef .tc main_v217) = (shapeCast _ (extractStridedSlice S1x6x128 ![1, 0, 0] (W6 m ρ c (Proc.devRef .tc main_arg16)) slices_S2x6x128_S1x6x128_1_0_0) shapeCasts_S1x6x128_S6x128)
    ∧ W7 m ρ c (Proc.devRef .tc main_v243) = (Host.scatterAdd scatter_S100000x128_S500000x1_S500000x128_1_0_0_1 (broadcastInDim S100000x128 ![] bcast_S_S100000x128 ((constant (F := F) S_ .f32 0x00000000#32))) (broadcastInDim S500000x1 ![0] bcast_S500000_S500000x1_0 (W6 m ρ c (Proc.devRef .tc main_v22))) (Host.gather gather_S50000x128_S500000x1_S500000x128_1_0_n_n_0_1_1128 (W6 m ρ c (Proc.devRef .tc main_v196)) (broadcastInDim S500000x1 ![0] bcast_S500000_S500000x1_0 (select (cmpi .slt (W6 m ρ c (Proc.devRef .tc main_v20)) (broadcastInDim S500000 ![] bcast_S_S500000 ((constantI S_ 32 0#32)))) (addi (W6 m ρ c (Proc.devRef .tc main_v20)) (broadcastInDim S500000 ![] bcast_S_S500000 ((constantI S_ 32 50000#32)))) (W6 m ρ c (Proc.devRef .tc main_v20))))))
    ∧ W7 m ρ c (Proc.devRef .tc main_v263) = (Host.scatterAdd scatter_S100000x128_S300000x1_S300000x128_1_0_0_1 (broadcastInDim S100000x128 ![] bcast_S_S100000x128 ((constant (F := F) S_ .f32 0x00000000#32))) (broadcastInDim S300000x1 ![0] bcast_S300000_S300000x1_0 (W6 m ρ c (Proc.devRef .tc main_v30))) (Host.gather gather_S5000x128_S300000x1_S300000x128_1_0_n_n_0_1_1128 (W6 m ρ c (Proc.devRef .tc main_v213)) (broadcastInDim S300000x1 ![0] bcast_S300000_S300000x1_0 (select (cmpi .slt (W6 m ρ c (Proc.devRef .tc main_v28)) (broadcastInDim S300000 ![] bcast_S_S300000 ((constantI S_ 32 0#32)))) (addi (W6 m ρ c (Proc.devRef .tc main_v28)) (broadcastInDim S300000 ![] bcast_S_S300000 ((constantI S_ 32 5000#32)))) (W6 m ρ c (Proc.devRef .tc main_v28))))))
    ∧ W7 m ρ c (Proc.devRef .tc main_v233) = (Host.scatterAdd scatter_S50000x128_S500000x1_S500000x128_1_0_0_1 (broadcastInDim S50000x128 ![] bcast_S_S50000x128 ((constant (F := F) S_ .f32 0x00000000#32))) (broadcastInDim S500000x1 ![0] bcast_S500000_S500000x1_0 (W6 m ρ c (Proc.devRef .tc main_v18))) (Host.gather gather_S100000x128_S500000x1_S500000x128_1_0_n_n_0_1_1128 (W6 m ρ c (Proc.devRef .tc main_v179)) (broadcastInDim S500000x1 ![0] bcast_S500000_S500000x1_0 (select (cmpi .slt (W6 m ρ c (Proc.devRef .tc main_v16)) (broadcastInDim S500000 ![] bcast_S_S500000 ((constantI S_ 32 0#32)))) (addi (W6 m ρ c (Proc.devRef .tc main_v16)) (broadcastInDim S500000 ![] bcast_S_S500000 ((constantI S_ 32 100000#32)))) (W6 m ρ c (Proc.devRef .tc main_v16))))))
    ∧ W7 m ρ c (Proc.devRef .tc main_v283) = (Host.scatterAdd scatter_S50000x128_S150000x1_S150000x128_1_0_0_1 (broadcastInDim S50000x128 ![] bcast_S_S50000x128 ((constant (F := F) S_ .f32 0x00000000#32))) (broadcastInDim S150000x1 ![0] bcast_S150000_S150000x1_0 (W6 m ρ c (Proc.devRef .tc main_v38))) (Host.gather gather_S5000x128_S150000x1_S150000x128_1_0_n_n_0_1_1128 (W6 m ρ c (Proc.devRef .tc main_v213)) (broadcastInDim S150000x1 ![0] bcast_S150000_S150000x1_0 (select (cmpi .slt (W6 m ρ c (Proc.devRef .tc main_v36)) (broadcastInDim S150000 ![] bcast_S_S150000 ((constantI S_ 32 0#32)))) (addi (W6 m ρ c (Proc.devRef .tc main_v36)) (broadcastInDim S150000 ![] bcast_S_S150000 ((constantI S_ 32 5000#32)))) (W6 m ρ c (Proc.devRef .tc main_v36))))))
    ∧ W7 m ρ c (Proc.devRef .tc main_v253) = (Host.scatterAdd scatter_S5000x128_S300000x1_S300000x128_1_0_0_1 (broadcastInDim S5000x128 ![] bcast_S_S5000x128 ((constant (F := F) S_ .f32 0x00000000#32))) (broadcastInDim S300000x1 ![0] bcast_S300000_S300000x1_0 (W6 m ρ c (Proc.devRef .tc main_v26))) (Host.gather gather_S100000x128_S300000x1_S300000x128_1_0_n_n_0_1_1128 (W6 m ρ c (Proc.devRef .tc main_v179)) (broadcastInDim S300000x1 ![0] bcast_S300000_S300000x1_0 (select (cmpi .slt (W6 m ρ c (Proc.devRef .tc main_v24)) (broadcastInDim S300000 ![] bcast_S_S300000 ((constantI S_ 32 0#32)))) (addi (W6 m ρ c (Proc.devRef .tc main_v24)) (broadcastInDim S300000 ![] bcast_S_S300000 ((constantI S_ 32 100000#32)))) (W6 m ρ c (Proc.devRef .tc main_v24))))))
    ∧ W7 m ρ c (Proc.devRef .tc main_v273) = (Host.scatterAdd scatter_S5000x128_S150000x1_S150000x128_1_0_0_1 (broadcastInDim S5000x128 ![] bcast_S_S5000x128 ((constant (F := F) S_ .f32 0x00000000#32))) (broadcastInDim S150000x1 ![0] bcast_S150000_S150000x1_0 (W6 m ρ c (Proc.devRef .tc main_v34))) (Host.gather gather_S50000x128_S150000x1_S150000x128_1_0_n_n_0_1_1128 (W6 m ρ c (Proc.devRef .tc main_v196)) (broadcastInDim S150000x1 ![0] bcast_S150000_S150000x1_0 (select (cmpi .slt (W6 m ρ c (Proc.devRef .tc main_v32)) (broadcastInDim S150000 ![] bcast_S_S150000 ((constantI S_ 32 0#32)))) (addi (W6 m ρ c (Proc.devRef .tc main_v32)) (broadcastInDim S150000 ![] bcast_S_S150000 ((constantI S_ 32 50000#32)))) (W6 m ρ c (Proc.devRef .tc main_v32))))))
    ∧ W7 m ρ c (Proc.devRef .tc main_v285) = (shapeCast _ (extractStridedSlice S1x128x128 ![1, 0, 0] (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) slices_S6x128x128_S1x128x128_1_0_0) shapeCasts_S1x128x128_S128x128)
    ∧ W7 m ρ c (Proc.devRef .tc main_v287) = (shapeCast _ (extractStridedSlice S1x128x128 ![3, 0, 0] (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) slices_S6x128x128_S1x128x128_3_0_0) shapeCasts_S1x128x128_S128x128)
    ∧ W7 m ρ c (Proc.devRef .tc main_v289) = (shapeCast _ (extractStridedSlice S1x128x128 ![1, 0, 0] (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) slices_S6x128x128_S1x128x128_1_0_0) shapeCasts_S1x128x128_S128x128)
    ∧ W7 m ρ c (Proc.devRef .tc main_v291) = (shapeCast _ (extractStridedSlice S1x128x128 ![3, 0, 0] (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) slices_S6x128x128_S1x128x128_3_0_0) shapeCasts_S1x128x128_S128x128)
    ∧ W7 m ρ c (Proc.devRef .tc main_v293) = (shapeCast _ (extractStridedSlice S1x128 ![1, 0] (shapeCast _ (extractStridedSlice S1x6x128 ![1, 0, 0] (W6 m ρ c (Proc.devRef .tc main_arg16)) slices_S2x6x128_S1x6x128_1_0_0) shapeCasts_S1x6x128_S6x128) slices_S6x128_S1x128_1_0) shapeCasts_S1x128_S128)
    ∧ W7 m ρ c (Proc.devRef .tc main_v295) = (shapeCast _ (extractStridedSlice S1x128 ![3, 0] (shapeCast _ (extractStridedSlice S1x6x128 ![1, 0, 0] (W6 m ρ c (Proc.devRef .tc main_arg16)) slices_S2x6x128_S1x6x128_1_0_0) shapeCasts_S1x6x128_S6x128) slices_S6x128_S1x128_3_0) shapeCasts_S1x128_S128)
    ∧ W7 m ρ c (Proc.devRef .tc main_v297) = (shapeCast _ (extractStridedSlice S1x1x128 ![1, 0, 0] (W6 m ρ c (Proc.devRef .tc main_arg18)) slices_S2x3x128_S1x1x128_1_0_0) shapeCasts_S1x1x128_S128)
    ∧ W7 m ρ c (Proc.devRef .tc main_v299) = (shapeCast _ (extractStridedSlice S1x1x128 ![1, 0, 0] (W6 m ρ c (Proc.devRef .tc main_arg19)) slices_S2x3x128_S1x1x128_1_0_0) shapeCasts_S1x1x128_S128) := by
  show StableHlo.after hostOps3 (W6 m ρ c) (Proc.devRef .tc main_v221) = (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32)
    ∧ StableHlo.after hostOps3 (W6 m ρ c) (Proc.devRef .tc main_v223) = (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32)
    ∧ StableHlo.after hostOps3 (W6 m ρ c) (Proc.devRef .tc main_v217) = (shapeCast _ (extractStridedSlice S1x6x128 ![1, 0, 0] (W6 m ρ c (Proc.devRef .tc main_arg16)) slices_S2x6x128_S1x6x128_1_0_0) shapeCasts_S1x6x128_S6x128)
    ∧ StableHlo.after hostOps3 (W6 m ρ c) (Proc.devRef .tc main_v243) = (Host.scatterAdd scatter_S100000x128_S500000x1_S500000x128_1_0_0_1 (broadcastInDim S100000x128 ![] bcast_S_S100000x128 ((constant (F := F) S_ .f32 0x00000000#32))) (broadcastInDim S500000x1 ![0] bcast_S500000_S500000x1_0 (W6 m ρ c (Proc.devRef .tc main_v22))) (Host.gather gather_S50000x128_S500000x1_S500000x128_1_0_n_n_0_1_1128 (W6 m ρ c (Proc.devRef .tc main_v196)) (broadcastInDim S500000x1 ![0] bcast_S500000_S500000x1_0 (select (cmpi .slt (W6 m ρ c (Proc.devRef .tc main_v20)) (broadcastInDim S500000 ![] bcast_S_S500000 ((constantI S_ 32 0#32)))) (addi (W6 m ρ c (Proc.devRef .tc main_v20)) (broadcastInDim S500000 ![] bcast_S_S500000 ((constantI S_ 32 50000#32)))) (W6 m ρ c (Proc.devRef .tc main_v20))))))
    ∧ StableHlo.after hostOps3 (W6 m ρ c) (Proc.devRef .tc main_v263) = (Host.scatterAdd scatter_S100000x128_S300000x1_S300000x128_1_0_0_1 (broadcastInDim S100000x128 ![] bcast_S_S100000x128 ((constant (F := F) S_ .f32 0x00000000#32))) (broadcastInDim S300000x1 ![0] bcast_S300000_S300000x1_0 (W6 m ρ c (Proc.devRef .tc main_v30))) (Host.gather gather_S5000x128_S300000x1_S300000x128_1_0_n_n_0_1_1128 (W6 m ρ c (Proc.devRef .tc main_v213)) (broadcastInDim S300000x1 ![0] bcast_S300000_S300000x1_0 (select (cmpi .slt (W6 m ρ c (Proc.devRef .tc main_v28)) (broadcastInDim S300000 ![] bcast_S_S300000 ((constantI S_ 32 0#32)))) (addi (W6 m ρ c (Proc.devRef .tc main_v28)) (broadcastInDim S300000 ![] bcast_S_S300000 ((constantI S_ 32 5000#32)))) (W6 m ρ c (Proc.devRef .tc main_v28))))))
    ∧ StableHlo.after hostOps3 (W6 m ρ c) (Proc.devRef .tc main_v233) = (Host.scatterAdd scatter_S50000x128_S500000x1_S500000x128_1_0_0_1 (broadcastInDim S50000x128 ![] bcast_S_S50000x128 ((constant (F := F) S_ .f32 0x00000000#32))) (broadcastInDim S500000x1 ![0] bcast_S500000_S500000x1_0 (W6 m ρ c (Proc.devRef .tc main_v18))) (Host.gather gather_S100000x128_S500000x1_S500000x128_1_0_n_n_0_1_1128 (W6 m ρ c (Proc.devRef .tc main_v179)) (broadcastInDim S500000x1 ![0] bcast_S500000_S500000x1_0 (select (cmpi .slt (W6 m ρ c (Proc.devRef .tc main_v16)) (broadcastInDim S500000 ![] bcast_S_S500000 ((constantI S_ 32 0#32)))) (addi (W6 m ρ c (Proc.devRef .tc main_v16)) (broadcastInDim S500000 ![] bcast_S_S500000 ((constantI S_ 32 100000#32)))) (W6 m ρ c (Proc.devRef .tc main_v16))))))
    ∧ StableHlo.after hostOps3 (W6 m ρ c) (Proc.devRef .tc main_v283) = (Host.scatterAdd scatter_S50000x128_S150000x1_S150000x128_1_0_0_1 (broadcastInDim S50000x128 ![] bcast_S_S50000x128 ((constant (F := F) S_ .f32 0x00000000#32))) (broadcastInDim S150000x1 ![0] bcast_S150000_S150000x1_0 (W6 m ρ c (Proc.devRef .tc main_v38))) (Host.gather gather_S5000x128_S150000x1_S150000x128_1_0_n_n_0_1_1128 (W6 m ρ c (Proc.devRef .tc main_v213)) (broadcastInDim S150000x1 ![0] bcast_S150000_S150000x1_0 (select (cmpi .slt (W6 m ρ c (Proc.devRef .tc main_v36)) (broadcastInDim S150000 ![] bcast_S_S150000 ((constantI S_ 32 0#32)))) (addi (W6 m ρ c (Proc.devRef .tc main_v36)) (broadcastInDim S150000 ![] bcast_S_S150000 ((constantI S_ 32 5000#32)))) (W6 m ρ c (Proc.devRef .tc main_v36))))))
    ∧ StableHlo.after hostOps3 (W6 m ρ c) (Proc.devRef .tc main_v253) = (Host.scatterAdd scatter_S5000x128_S300000x1_S300000x128_1_0_0_1 (broadcastInDim S5000x128 ![] bcast_S_S5000x128 ((constant (F := F) S_ .f32 0x00000000#32))) (broadcastInDim S300000x1 ![0] bcast_S300000_S300000x1_0 (W6 m ρ c (Proc.devRef .tc main_v26))) (Host.gather gather_S100000x128_S300000x1_S300000x128_1_0_n_n_0_1_1128 (W6 m ρ c (Proc.devRef .tc main_v179)) (broadcastInDim S300000x1 ![0] bcast_S300000_S300000x1_0 (select (cmpi .slt (W6 m ρ c (Proc.devRef .tc main_v24)) (broadcastInDim S300000 ![] bcast_S_S300000 ((constantI S_ 32 0#32)))) (addi (W6 m ρ c (Proc.devRef .tc main_v24)) (broadcastInDim S300000 ![] bcast_S_S300000 ((constantI S_ 32 100000#32)))) (W6 m ρ c (Proc.devRef .tc main_v24))))))
    ∧ StableHlo.after hostOps3 (W6 m ρ c) (Proc.devRef .tc main_v273) = (Host.scatterAdd scatter_S5000x128_S150000x1_S150000x128_1_0_0_1 (broadcastInDim S5000x128 ![] bcast_S_S5000x128 ((constant (F := F) S_ .f32 0x00000000#32))) (broadcastInDim S150000x1 ![0] bcast_S150000_S150000x1_0 (W6 m ρ c (Proc.devRef .tc main_v34))) (Host.gather gather_S50000x128_S150000x1_S150000x128_1_0_n_n_0_1_1128 (W6 m ρ c (Proc.devRef .tc main_v196)) (broadcastInDim S150000x1 ![0] bcast_S150000_S150000x1_0 (select (cmpi .slt (W6 m ρ c (Proc.devRef .tc main_v32)) (broadcastInDim S150000 ![] bcast_S_S150000 ((constantI S_ 32 0#32)))) (addi (W6 m ρ c (Proc.devRef .tc main_v32)) (broadcastInDim S150000 ![] bcast_S_S150000 ((constantI S_ 32 50000#32)))) (W6 m ρ c (Proc.devRef .tc main_v32))))))
    ∧ StableHlo.after hostOps3 (W6 m ρ c) (Proc.devRef .tc main_v285) = (shapeCast _ (extractStridedSlice S1x128x128 ![1, 0, 0] (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) slices_S6x128x128_S1x128x128_1_0_0) shapeCasts_S1x128x128_S128x128)
    ∧ StableHlo.after hostOps3 (W6 m ρ c) (Proc.devRef .tc main_v287) = (shapeCast _ (extractStridedSlice S1x128x128 ![3, 0, 0] (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) slices_S6x128x128_S1x128x128_3_0_0) shapeCasts_S1x128x128_S128x128)
    ∧ StableHlo.after hostOps3 (W6 m ρ c) (Proc.devRef .tc main_v289) = (shapeCast _ (extractStridedSlice S1x128x128 ![1, 0, 0] (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) slices_S6x128x128_S1x128x128_1_0_0) shapeCasts_S1x128x128_S128x128)
    ∧ StableHlo.after hostOps3 (W6 m ρ c) (Proc.devRef .tc main_v291) = (shapeCast _ (extractStridedSlice S1x128x128 ![3, 0, 0] (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) slices_S6x128x128_S1x128x128_3_0_0) shapeCasts_S1x128x128_S128x128)
    ∧ StableHlo.after hostOps3 (W6 m ρ c) (Proc.devRef .tc main_v293) = (shapeCast _ (extractStridedSlice S1x128 ![1, 0] (shapeCast _ (extractStridedSlice S1x6x128 ![1, 0, 0] (W6 m ρ c (Proc.devRef .tc main_arg16)) slices_S2x6x128_S1x6x128_1_0_0) shapeCasts_S1x6x128_S6x128) slices_S6x128_S1x128_1_0) shapeCasts_S1x128_S128)
    ∧ StableHlo.after hostOps3 (W6 m ρ c) (Proc.devRef .tc main_v295) = (shapeCast _ (extractStridedSlice S1x128 ![3, 0] (shapeCast _ (extractStridedSlice S1x6x128 ![1, 0, 0] (W6 m ρ c (Proc.devRef .tc main_arg16)) slices_S2x6x128_S1x6x128_1_0_0) shapeCasts_S1x6x128_S6x128) slices_S6x128_S1x128_3_0) shapeCasts_S1x128_S128)
    ∧ StableHlo.after hostOps3 (W6 m ρ c) (Proc.devRef .tc main_v297) = (shapeCast _ (extractStridedSlice S1x1x128 ![1, 0, 0] (W6 m ρ c (Proc.devRef .tc main_arg18)) slices_S2x3x128_S1x1x128_1_0_0) shapeCasts_S1x1x128_S128)
    ∧ StableHlo.after hostOps3 (W6 m ρ c) (Proc.devRef .tc main_v299) = (shapeCast _ (extractStridedSlice S1x1x128 ![1, 0, 0] (W6 m ρ c (Proc.devRef .tc main_arg19)) slices_S2x3x128_S1x1x128_1_0_0) shapeCasts_S1x1x128_S128)
  after_results_simp
  all_goals (first | done | (repeat' constructor) <;> rfl)

theorem born_v221 (c : Dev nD) : W7 m ρ c (Proc.devRef .tc main_v221) = (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) :=
  (born3 m ρ c).1

theorem born_v223 (c : Dev nD) : W7 m ρ c (Proc.devRef .tc main_v223) = (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) :=
  (born3 m ρ c).2.1

theorem born_v217 (c : Dev nD) : W7 m ρ c (Proc.devRef .tc main_v217) = (shapeCast _ (extractStridedSlice S1x6x128 ![1, 0, 0] (W6 m ρ c (Proc.devRef .tc main_arg16)) slices_S2x6x128_S1x6x128_1_0_0) shapeCasts_S1x6x128_S6x128) :=
  (born3 m ρ c).2.2.1

theorem born_v243 (c : Dev nD) : W7 m ρ c (Proc.devRef .tc main_v243) = (Host.scatterAdd scatter_S100000x128_S500000x1_S500000x128_1_0_0_1 (broadcastInDim S100000x128 ![] bcast_S_S100000x128 ((constant (F := F) S_ .f32 0x00000000#32))) (broadcastInDim S500000x1 ![0] bcast_S500000_S500000x1_0 (W6 m ρ c (Proc.devRef .tc main_v22))) (Host.gather gather_S50000x128_S500000x1_S500000x128_1_0_n_n_0_1_1128 (W6 m ρ c (Proc.devRef .tc main_v196)) (broadcastInDim S500000x1 ![0] bcast_S500000_S500000x1_0 (select (cmpi .slt (W6 m ρ c (Proc.devRef .tc main_v20)) (broadcastInDim S500000 ![] bcast_S_S500000 ((constantI S_ 32 0#32)))) (addi (W6 m ρ c (Proc.devRef .tc main_v20)) (broadcastInDim S500000 ![] bcast_S_S500000 ((constantI S_ 32 50000#32)))) (W6 m ρ c (Proc.devRef .tc main_v20)))))) :=
  (born3 m ρ c).2.2.2.1

theorem born_v263 (c : Dev nD) : W7 m ρ c (Proc.devRef .tc main_v263) = (Host.scatterAdd scatter_S100000x128_S300000x1_S300000x128_1_0_0_1 (broadcastInDim S100000x128 ![] bcast_S_S100000x128 ((constant (F := F) S_ .f32 0x00000000#32))) (broadcastInDim S300000x1 ![0] bcast_S300000_S300000x1_0 (W6 m ρ c (Proc.devRef .tc main_v30))) (Host.gather gather_S5000x128_S300000x1_S300000x128_1_0_n_n_0_1_1128 (W6 m ρ c (Proc.devRef .tc main_v213)) (broadcastInDim S300000x1 ![0] bcast_S300000_S300000x1_0 (select (cmpi .slt (W6 m ρ c (Proc.devRef .tc main_v28)) (broadcastInDim S300000 ![] bcast_S_S300000 ((constantI S_ 32 0#32)))) (addi (W6 m ρ c (Proc.devRef .tc main_v28)) (broadcastInDim S300000 ![] bcast_S_S300000 ((constantI S_ 32 5000#32)))) (W6 m ρ c (Proc.devRef .tc main_v28)))))) :=
  (born3 m ρ c).2.2.2.2.1

theorem born_v233 (c : Dev nD) : W7 m ρ c (Proc.devRef .tc main_v233) = (Host.scatterAdd scatter_S50000x128_S500000x1_S500000x128_1_0_0_1 (broadcastInDim S50000x128 ![] bcast_S_S50000x128 ((constant (F := F) S_ .f32 0x00000000#32))) (broadcastInDim S500000x1 ![0] bcast_S500000_S500000x1_0 (W6 m ρ c (Proc.devRef .tc main_v18))) (Host.gather gather_S100000x128_S500000x1_S500000x128_1_0_n_n_0_1_1128 (W6 m ρ c (Proc.devRef .tc main_v179)) (broadcastInDim S500000x1 ![0] bcast_S500000_S500000x1_0 (select (cmpi .slt (W6 m ρ c (Proc.devRef .tc main_v16)) (broadcastInDim S500000 ![] bcast_S_S500000 ((constantI S_ 32 0#32)))) (addi (W6 m ρ c (Proc.devRef .tc main_v16)) (broadcastInDim S500000 ![] bcast_S_S500000 ((constantI S_ 32 100000#32)))) (W6 m ρ c (Proc.devRef .tc main_v16)))))) :=
  (born3 m ρ c).2.2.2.2.2.1

theorem born_v283 (c : Dev nD) : W7 m ρ c (Proc.devRef .tc main_v283) = (Host.scatterAdd scatter_S50000x128_S150000x1_S150000x128_1_0_0_1 (broadcastInDim S50000x128 ![] bcast_S_S50000x128 ((constant (F := F) S_ .f32 0x00000000#32))) (broadcastInDim S150000x1 ![0] bcast_S150000_S150000x1_0 (W6 m ρ c (Proc.devRef .tc main_v38))) (Host.gather gather_S5000x128_S150000x1_S150000x128_1_0_n_n_0_1_1128 (W6 m ρ c (Proc.devRef .tc main_v213)) (broadcastInDim S150000x1 ![0] bcast_S150000_S150000x1_0 (select (cmpi .slt (W6 m ρ c (Proc.devRef .tc main_v36)) (broadcastInDim S150000 ![] bcast_S_S150000 ((constantI S_ 32 0#32)))) (addi (W6 m ρ c (Proc.devRef .tc main_v36)) (broadcastInDim S150000 ![] bcast_S_S150000 ((constantI S_ 32 5000#32)))) (W6 m ρ c (Proc.devRef .tc main_v36)))))) :=
  (born3 m ρ c).2.2.2.2.2.2.1

theorem born_v253 (c : Dev nD) : W7 m ρ c (Proc.devRef .tc main_v253) = (Host.scatterAdd scatter_S5000x128_S300000x1_S300000x128_1_0_0_1 (broadcastInDim S5000x128 ![] bcast_S_S5000x128 ((constant (F := F) S_ .f32 0x00000000#32))) (broadcastInDim S300000x1 ![0] bcast_S300000_S300000x1_0 (W6 m ρ c (Proc.devRef .tc main_v26))) (Host.gather gather_S100000x128_S300000x1_S300000x128_1_0_n_n_0_1_1128 (W6 m ρ c (Proc.devRef .tc main_v179)) (broadcastInDim S300000x1 ![0] bcast_S300000_S300000x1_0 (select (cmpi .slt (W6 m ρ c (Proc.devRef .tc main_v24)) (broadcastInDim S300000 ![] bcast_S_S300000 ((constantI S_ 32 0#32)))) (addi (W6 m ρ c (Proc.devRef .tc main_v24)) (broadcastInDim S300000 ![] bcast_S_S300000 ((constantI S_ 32 100000#32)))) (W6 m ρ c (Proc.devRef .tc main_v24)))))) :=
  (born3 m ρ c).2.2.2.2.2.2.2.1

theorem born_v273 (c : Dev nD) : W7 m ρ c (Proc.devRef .tc main_v273) = (Host.scatterAdd scatter_S5000x128_S150000x1_S150000x128_1_0_0_1 (broadcastInDim S5000x128 ![] bcast_S_S5000x128 ((constant (F := F) S_ .f32 0x00000000#32))) (broadcastInDim S150000x1 ![0] bcast_S150000_S150000x1_0 (W6 m ρ c (Proc.devRef .tc main_v34))) (Host.gather gather_S50000x128_S150000x1_S150000x128_1_0_n_n_0_1_1128 (W6 m ρ c (Proc.devRef .tc main_v196)) (broadcastInDim S150000x1 ![0] bcast_S150000_S150000x1_0 (select (cmpi .slt (W6 m ρ c (Proc.devRef .tc main_v32)) (broadcastInDim S150000 ![] bcast_S_S150000 ((constantI S_ 32 0#32)))) (addi (W6 m ρ c (Proc.devRef .tc main_v32)) (broadcastInDim S150000 ![] bcast_S_S150000 ((constantI S_ 32 50000#32)))) (W6 m ρ c (Proc.devRef .tc main_v32)))))) :=
  (born3 m ρ c).2.2.2.2.2.2.2.2.1

theorem born_v285 (c : Dev nD) : W7 m ρ c (Proc.devRef .tc main_v285) = (shapeCast _ (extractStridedSlice S1x128x128 ![1, 0, 0] (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) slices_S6x128x128_S1x128x128_1_0_0) shapeCasts_S1x128x128_S128x128) :=
  (born3 m ρ c).2.2.2.2.2.2.2.2.2.1

theorem born_v287 (c : Dev nD) : W7 m ρ c (Proc.devRef .tc main_v287) = (shapeCast _ (extractStridedSlice S1x128x128 ![3, 0, 0] (truncf .bf16 (transpose S6x128x128 [0, 2, 1] (shapeCast _ (extractStridedSlice S1x6x128x128 ![1, 0, 0, 0] (W6 m ρ c (Proc.devRef .tc main_arg15)) slices_S2x6x128x128_S1x6x128x128_1_0_0_0) shapeCasts_S1x6x128x128_S6x128x128) transposes_S6x128x128_S6x128x128_0_2_1) bitsLt_bf16_f32) slices_S6x128x128_S1x128x128_3_0_0) shapeCasts_S1x128x128_S128x128) :=
  (born3 m ρ c).2.2.2.2.2.2.2.2.2.2.1

theorem born_v289 (c : Dev nD) : W7 m ρ c (Proc.devRef .tc main_v289) = (shapeCast _ (extractStridedSlice S1x128x128 ![1, 0, 0] (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) slices_S6x128x128_S1x128x128_1_0_0) shapeCasts_S1x128x128_S128x128) :=
  (born3 m ρ c).2.2.2.2.2.2.2.2.2.2.2.1

theorem born_v291 (c : Dev nD) : W7 m ρ c (Proc.devRef .tc main_v291) = (shapeCast _ (extractStridedSlice S1x128x128 ![3, 0, 0] (truncf .bf16 (transpose S6x128x128 [0, 2, 1] (shapeCast _ (extractStridedSlice S1x6x128x128 ![1, 0, 0, 0] (W6 m ρ c (Proc.devRef .tc main_arg17)) slices_S2x6x128x128_S1x6x128x128_1_0_0_0) shapeCasts_S1x6x128x128_S6x128x128) transposes_S6x128x128_S6x128x128_0_2_1) bitsLt_bf16_f32) slices_S6x128x128_S1x128x128_3_0_0) shapeCasts_S1x128x128_S128x128) :=
  (born3 m ρ c).2.2.2.2.2.2.2.2.2.2.2.2.1

theorem born_v293 (c : Dev nD) : W7 m ρ c (Proc.devRef .tc main_v293) = (shapeCast _ (extractStridedSlice S1x128 ![1, 0] (shapeCast _ (extractStridedSlice S1x6x128 ![1, 0, 0] (W6 m ρ c (Proc.devRef .tc main_arg16)) slices_S2x6x128_S1x6x128_1_0_0) shapeCasts_S1x6x128_S6x128) slices_S6x128_S1x128_1_0) shapeCasts_S1x128_S128) :=
  (born3 m ρ c).2.2.2.2.2.2.2.2.2.2.2.2.2.1

theorem born_v295 (c : Dev nD) : W7 m ρ c (Proc.devRef .tc main_v295) = (shapeCast _ (extractStridedSlice S1x128 ![3, 0] (shapeCast _ (extractStridedSlice S1x6x128 ![1, 0, 0] (W6 m ρ c (Proc.devRef .tc main_arg16)) slices_S2x6x128_S1x6x128_1_0_0) shapeCasts_S1x6x128_S6x128) slices_S6x128_S1x128_3_0) shapeCasts_S1x128_S128) :=
  (born3 m ρ c).2.2.2.2.2.2.2.2.2.2.2.2.2.2.1

theorem born_v297 (c : Dev nD) : W7 m ρ c (Proc.devRef .tc main_v297) = (shapeCast _ (extractStridedSlice S1x1x128 ![1, 0, 0] (W6 m ρ c (Proc.devRef .tc main_arg18)) slices_S2x3x128_S1x1x128_1_0_0) shapeCasts_S1x1x128_S128) :=
  (born3 m ρ c).2.2.2.2.2.2.2.2.2.2.2.2.2.2.2.1

theorem born_v299 (c : Dev nD) : W7 m ρ c (Proc.devRef .tc main_v299) = (shapeCast _ (extractStridedSlice S1x1x128 ![1, 0, 0] (W6 m ρ c (Proc.devRef .tc main_arg19)) slices_S2x3x128_S1x1x128_1_0_0) shapeCasts_S1x1x128_S128) :=
  (born3 m ρ c).2.2.2.2.2.2.2.2.2.2.2.2.2.2.2.2

end Cert.KStages

end
-- ==== Proof.RefSite1c.lean ====
/-
  The reference program's node-type output of layer 1 for the customer nodes, read at a row and a feature:
  it is the row function `Cert.RowSpec.rowOut` of the two neighbour means (relations 1 and 3), the node's own
  features, and the slices of the weights, biases, scale and shift that the layer and the relations select.
  Every step is unfolding an operation at an index and identifying the composed index maps with coordinates.
-/
import proofs.«172654_j31121333027532_2_alg».proof.Proof.ReadP
import proofs.«172654_j31121333027532_2_alg».proof.Proof.RowSpec

set_option maxHeartbeats 1600000

noncomputable section

namespace Cert.RefSite

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

/-- The neighbour matrix of relation 1, transposed for the product: entry `(k, j)` is `Wl[1, 1, j, k]`. -/
theorem wl_1_c_a (k j : Fin 128) :
    val_main_v411 (F := Ideal) x15 (ix2 k j) = x15 (ix4 (1 : Fin 2) (1 : Fin 6) j k) := by
  rw [val_main_v411_apply, val_main_v383_apply, val_main_v382_apply, val_main_v340_apply, val_main_v339_apply]
  refine congrArg x15 (funext fun e => Fin.ext ?_)
  have hj := j.isLt
  have hk := k.isLt
  match e with
  | ⟨0, _⟩ => rfl
  | ⟨1, _⟩ =>
    show (((1 + 0) * 128 + (j.val * 128 + k.val) / 128 % 128) * 128 + (j.val * 128 + k.val) % 128) / 16384 % 6 = 1
    omega
  | ⟨2, _⟩ =>
    show (((1 + 0) * 128 + (j.val * 128 + k.val) / 128 % 128) * 128 + (j.val * 128 + k.val) % 128) / 128 % 128 = j.val
    omega
  | ⟨3, _⟩ =>
    show (((1 + 0) * 128 + (j.val * 128 + k.val) / 128 % 128) * 128 + (j.val * 128 + k.val) % 128) % 128 = k.val
    omega

/-- The root matrix of relation 1, transposed for the product: entry `(k, j)` is `Wr[1, 1, j, k]`. -/
theorem wr_1_c_a (k j : Fin 128) :
    val_main_v416 (F := Ideal) x17 (ix2 k j) = x17 (ix4 (1 : Fin 2) (1 : Fin 6) j k) := by
  rw [val_main_v416_apply, val_main_v387_apply, val_main_v386_apply, val_main_v344_apply, val_main_v343_apply]
  refine congrArg x17 (funext fun e => Fin.ext ?_)
  have hj := j.isLt
  have hk := k.isLt
  match e with
  | ⟨0, _⟩ => rfl
  | ⟨1, _⟩ =>
    show (((1 + 0) * 128 + (j.val * 128 + k.val) / 128 % 128) * 128 + (j.val * 128 + k.val) % 128) / 16384 % 6 = 1
    omega
  | ⟨2, _⟩ =>
    show (((1 + 0) * 128 + (j.val * 128 + k.val) / 128 % 128) * 128 + (j.val * 128 + k.val) % 128) / 128 % 128 = j.val
    omega
  | ⟨3, _⟩ =>
    show (((1 + 0) * 128 + (j.val * 128 + k.val) / 128 % 128) * 128 + (j.val * 128 + k.val) % 128) % 128 = k.val
    omega

/-- The bias of relation 1, repeated along the rows: entry `(r, j)` is `bl[1, 1, j]`. -/
theorem bl_1_c_a (r : Fin 100000) (j : Fin 128) :
    val_main_v414 (F := Ideal) x16 (ix2 r j) = x16 (ix3 (1 : Fin 2) (1 : Fin 6) j) := by
  rw [val_main_v414_apply, val_main_v413_apply, val_main_v385_apply, val_main_v384_apply, val_main_v342_apply, val_main_v341_apply]
  refine congrArg x16 (funext fun e => Fin.ext ?_)
  have hj := j.isLt
  match e with
  | ⟨0, _⟩ => rfl
  | ⟨1, _⟩ =>
    show ((1 + 0) * 128 + j.val % 128) / 128 % 6 = 1
    omega
  | ⟨2, _⟩ =>
    show ((1 + 0) * 128 + j.val % 128) % 128 = j.val
    omega

/-- The neighbour mean of relation 1: the neighbour sum divided by the larger of the neighbour count and one. -/
theorem msg_1_c_a (r : Fin 100000) (k : Fin 128) :
    val_main_v410 (F := Ideal) x0 x1 x2 x3 x4 x8 x9 x10 x11 x12 x13 x14 x15 x16 x17 x18 x19 (ix2 r k)
      = Ideal.div (val_main_v401 (F := Ideal) x0 x1 x2 x3 x4 x8 x9 x10 x11 x12 x13 x14 x15 x16 x17 x18 x19 (ix2 r k)) (max (val_main_v405 (F := Ideal) x4 (ix1 r)) Cert.RowSpec.one32) := by
  rw [val_main_v410_apply, val_main_v409_apply, val_main_v408_apply, val_main_v407_apply, val_main_v406_apply, val_main_cst_63_apply]
  have h : idx_main_v408 (idx_main_v409 (ix2 r k)) = ix1 r := funext fun e => by match e with | ⟨0, _⟩ => rfl
  rw [h]
  rfl

/-- The output of relation 1 at a row and a feature. -/
theorem rel_1_c_a (r : Fin 100000) (j : Fin 128) :
    val_main_v418 (F := Ideal) x0 x1 x2 x3 x4 x6 x8 x9 x10 x11 x12 x13 x14 x15 x16 x17 x18 x19 (ix2 r j)
      = Cert.RowSpec.rel
          (fun k => Ideal.div (val_main_v401 (F := Ideal) x0 x1 x2 x3 x4 x8 x9 x10 x11 x12 x13 x14 x15 x16 x17 x18 x19 (ix2 r k)) (max (val_main_v405 (F := Ideal) x4 (ix1 r)) Cert.RowSpec.one32))
          (fun k => val_main_v274 (F := Ideal) x0 x1 x2 x4 x6 x9 x10 x11 x12 x13 x14 x15 x16 x17 x18 x19 (ix2 r k))
          (fun k j => x15 (ix4 (1 : Fin 2) (1 : Fin 6) j k)) (fun k j => x17 (ix4 (1 : Fin 2) (1 : Fin 6) j k))
          (fun j => x16 (ix3 (1 : Fin 2) (1 : Fin 6) j)) j := by
  rw [val_main_v418_apply, val_main_v415_apply, val_main_v412_apply, val_main_v417_apply]
  have hl1 : ∀ k, lidx_main_v412 (ix2 r j) k = ix2 r k := fun k => funext fun e => by match e with | ⟨0, _⟩ => rfl | ⟨1, _⟩ => rfl
  have hr1 : ∀ k, ridx_main_v412 (ix2 r j) k = ix2 k j := fun k => funext fun e => by match e with | ⟨0, _⟩ => rfl | ⟨1, _⟩ => rfl
  have hl2 : ∀ k, lidx_main_v417 (ix2 r j) k = ix2 r k := fun k => funext fun e => by match e with | ⟨0, _⟩ => rfl | ⟨1, _⟩ => rfl
  have hr2 : ∀ k, ridx_main_v417 (ix2 r j) k = ix2 k j := fun k => funext fun e => by match e with | ⟨0, _⟩ => rfl | ⟨1, _⟩ => rfl
  simp only [hl1, hr1, hl2, hr2, msg_1_c_a, wl_1_c_a, wr_1_c_a, bl_1_c_a]
  rfl

/-- The neighbour matrix of relation 3, transposed for the product: entry `(k, j)` is `Wl[1, 3, j, k]`. -/
theorem wl_1_c_b (k j : Fin 128) :
    val_main_v485 (F := Ideal) x15 (ix2 k j) = x15 (ix4 (1 : Fin 2) (3 : Fin 6) j k) := by
  rw [val_main_v485_apply, val_main_v457_apply, val_main_v456_apply, val_main_v340_apply, val_main_v339_apply]
  refine congrArg x15 (funext fun e => Fin.ext ?_)
  have hj := j.isLt
  have hk := k.isLt
  match e with
  | ⟨0, _⟩ => rfl
  | ⟨1, _⟩ =>
    show (((3 + 0) * 128 + (j.val * 128 + k.val) / 128 % 128) * 128 + (j.val * 128 + k.val) % 128) / 16384 % 6 = 3
    omega
  | ⟨2, _⟩ =>
    show (((3 + 0) * 128 + (j.val * 128 + k.val) / 128 % 128) * 128 + (j.val * 128 + k.val) % 128) / 128 % 128 = j.val
    omega
  | ⟨3, _⟩ =>
    show (((3 + 0) * 128 + (j.val * 128 + k.val) / 128 % 128) * 128 + (j.val * 128 + k.val) % 128) % 128 = k.val
    omega

/-- The root matrix of relation 3, transposed for the product: entry `(k, j)` is `Wr[1, 3, j, k]`. -/
theorem wr_1_c_b (k j : Fin 128) :
    val_main_v490 (F := Ideal) x17 (ix2 k j) = x17 (ix4 (1 : Fin 2) (3 : Fin 6) j k) := by
  rw [val_main_v490_apply, val_main_v461_apply, val_main_v460_apply, val_main_v344_apply, val_main_v343_apply]
  refine congrArg x17 (funext fun e => Fin.ext ?_)
  have hj := j.isLt
  have hk := k.isLt
  match e with
  | ⟨0, _⟩ => rfl
  | ⟨1, _⟩ =>
    show (((3 + 0) * 128 + (j.val * 128 + k.val) / 128 % 128) * 128 + (j.val * 128 + k.val) % 128) / 16384 % 6 = 3
    omega
  | ⟨2, _⟩ =>
    show (((3 + 0) * 128 + (j.val * 128 + k.val) / 128 % 128) * 128 + (j.val * 128 + k.val) % 128) / 128 % 128 = j.val
    omega
  | ⟨3, _⟩ =>
    show (((3 + 0) * 128 + (j.val * 128 + k.val) / 128 % 128) * 128 + (j.val * 128 + k.val) % 128) % 128 = k.val
    omega

/-- The bias of relation 3, repeated along the rows: entry `(r, j)` is `bl[1, 3, j]`. -/
theorem bl_1_c_b (r : Fin 100000) (j : Fin 128) :
    val_main_v488 (F := Ideal) x16 (ix2 r j) = x16 (ix3 (1 : Fin 2) (3 : Fin 6) j) := by
  rw [val_main_v488_apply, val_main_v487_apply, val_main_v459_apply, val_main_v458_apply, val_main_v342_apply, val_main_v341_apply]
  refine congrArg x16 (funext fun e => Fin.ext ?_)
  have hj := j.isLt
  match e with
  | ⟨0, _⟩ => rfl
  | ⟨1, _⟩ =>
    show ((3 + 0) * 128 + j.val % 128) / 128 % 6 = 3
    omega
  | ⟨2, _⟩ =>
    show ((3 + 0) * 128 + j.val % 128) % 128 = j.val
    omega

/-- The neighbour mean of relation 3: the neighbour sum divided by the larger of the neighbour count and one. -/
theorem msg_1_c_b (r : Fin 100000) (k : Fin 128) :
    val_main_v484 (F := Ideal) x0 x1 x2 x5 x6 x7 x9 x10 x11 x12 x13 x14 x15 x16 x17 x18 x19 (ix2 r k)
      = Ideal.div (val_main_v475 (F := Ideal) x0 x1 x2 x5 x6 x7 x9 x10 x11 x12 x13 x14 x15 x16 x17 x18 x19 (ix2 r k)) (max (val_main_v479 (F := Ideal) x6 (ix1 r)) Cert.RowSpec.one32) := by
  rw [val_main_v484_apply, val_main_v483_apply, val_main_v482_apply, val_main_v481_apply, val_main_v480_apply, val_main_cst_75_apply]
  have h : idx_main_v482 (idx_main_v483 (ix2 r k)) = ix1 r := funext fun e => by match e with | ⟨0, _⟩ => rfl
  rw [h]
  rfl

/-- The output of relation 3 at a row and a feature. -/
theorem rel_1_c_b (r : Fin 100000) (j : Fin 128) :
    val_main_v492 (F := Ideal) x0 x1 x2 x4 x5 x6 x7 x9 x10 x11 x12 x13 x14 x15 x16 x17 x18 x19 (ix2 r j)
      = Cert.RowSpec.rel
          (fun k => Ideal.div (val_main_v475 (F := Ideal) x0 x1 x2 x5 x6 x7 x9 x10 x11 x12 x13 x14 x15 x16 x17 x18 x19 (ix2 r k)) (max (val_main_v479 (F := Ideal) x6 (ix1 r)) Cert.RowSpec.one32))
          (fun k => val_main_v274 (F := Ideal) x0 x1 x2 x4 x6 x9 x10 x11 x12 x13 x14 x15 x16 x17 x18 x19 (ix2 r k))
          (fun k j => x15 (ix4 (1 : Fin 2) (3 : Fin 6) j k)) (fun k j => x17 (ix4 (1 : Fin 2) (3 : Fin 6) j k))
          (fun j => x16 (ix3 (1 : Fin 2) (3 : Fin 6) j)) j := by
  rw [val_main_v492_apply, val_main_v489_apply, val_main_v486_apply, val_main_v491_apply]
  have hl1 : ∀ k, lidx_main_v486 (ix2 r j) k = ix2 r k := fun k => funext fun e => by match e with | ⟨0, _⟩ => rfl | ⟨1, _⟩ => rfl
  have hr1 : ∀ k, ridx_main_v486 (ix2 r j) k = ix2 k j := fun k => funext fun e => by match e with | ⟨0, _⟩ => rfl | ⟨1, _⟩ => rfl
  have hl2 : ∀ k, lidx_main_v491 (ix2 r j) k = ix2 r k := fun k => funext fun e => by match e with | ⟨0, _⟩ => rfl | ⟨1, _⟩ => rfl
  have hr2 : ∀ k, ridx_main_v491 (ix2 r j) k = ix2 k j := fun k => funext fun e => by match e with | ⟨0, _⟩ => rfl | ⟨1, _⟩ => rfl
  simp only [hl1, hr1, hl2, hr2, msg_1_c_b, wl_1_c_b, wr_1_c_b, bl_1_c_b]
  rfl

/-- The averaged row before normalisation: one half of the sum of the two relations' outputs. -/
theorem avg_1_c (r : Fin 100000) (j : Fin 128) :
    val_main_v569 (F := Ideal) x0 x1 x2 x3 x4 x5 x6 x7 x8 x9 x10 x11 x12 x13 x14 x15 x16 x17 x18 x19 (ix2 r j)
      = Cert.RowSpec.half32 * (val_main_v418 (F := Ideal) x0 x1 x2 x3 x4 x6 x8 x9 x10 x11 x12 x13 x14 x15 x16 x17 x18 x19 (ix2 r j) + val_main_v492 (F := Ideal) x0 x1 x2 x4 x5 x6 x7 x9 x10 x11 x12 x13 x14 x15 x16 x17 x18 x19 (ix2 r j)) := by
  rw [val_main_v569_apply, val_main_v568_apply, val_main_cst_88_apply, val_main_v567_apply]
  rfl

/-- The row's mean, as the program forms it: the sum from zero over the 128 features, divided by 128. -/
theorem mean_1_c (r : Fin 100000) :
    val_main_v577 (F := Ideal) x0 x1 x2 x3 x4 x5 x6 x7 x8 x9 x10 x11 x12 x13 x14 x15 x16 x17 x18 x19 (ix2 r (0 : Fin 1))
      = Cert.RowSpec.mean (fun j => val_main_v569 (F := Ideal) x0 x1 x2 x3 x4 x5 x6 x7 x8 x9 x10 x11 x12 x13 x14 x15 x16 x17 x18 x19 (ix2 r j)) := by
  rw [val_main_v577_apply, val_main_v575_apply, val_main_v574_apply, val_main_cst_89_apply, val_main_v576_apply, val_main_cst_90_apply]
  have h : ∀ k, idx_main_v574 (idx_main_v575 (ix2 r (0 : Fin 1))) k = ix2 r k := fun k => funext fun e => by match e with | ⟨0, _⟩ => rfl | ⟨1, _⟩ => rfl
  simp only [h]
  rfl

/-- The row's variance: the mean of the squared deviations from the mean. -/
theorem var_1_c (r : Fin 100000) :
    val_main_v584 (F := Ideal) x0 x1 x2 x3 x4 x5 x6 x7 x8 x9 x10 x11 x12 x13 x14 x15 x16 x17 x18 x19 (ix2 r (0 : Fin 1))
      = Cert.RowSpec.mean (fun i =>
          (val_main_v569 (F := Ideal) x0 x1 x2 x3 x4 x5 x6 x7 x8 x9 x10 x11 x12 x13 x14 x15 x16 x17 x18 x19 (ix2 r i) - Cert.RowSpec.mean (fun j => val_main_v569 (F := Ideal) x0 x1 x2 x3 x4 x5 x6 x7 x8 x9 x10 x11 x12 x13 x14 x15 x16 x17 x18 x19 (ix2 r j)))
            * (val_main_v569 (F := Ideal) x0 x1 x2 x3 x4 x5 x6 x7 x8 x9 x10 x11 x12 x13 x14 x15 x16 x17 x18 x19 (ix2 r i) - Cert.RowSpec.mean (fun j => val_main_v569 (F := Ideal) x0 x1 x2 x3 x4 x5 x6 x7 x8 x9 x10 x11 x12 x13 x14 x15 x16 x17 x18 x19 (ix2 r j)))) := by
  rw [val_main_v584_apply, val_main_v582_apply, val_main_v581_apply, val_main_cst_91_apply, val_main_v583_apply, val_main_cst_92_apply]
  have h : ∀ k, idx_main_v581 (idx_main_v582 (ix2 r (0 : Fin 1))) k = ix2 r k := fun k => funext fun e => by match e with | ⟨0, _⟩ => rfl | ⟨1, _⟩ => rfl
  have h0 : ∀ k : Fin 128, idx_main_v578 (ix2 r k) = ix2 r (0 : Fin 1) := fun k => funext fun e => by match e with | ⟨0, _⟩ => rfl | ⟨1, _⟩ => rfl
  simp only [h, val_main_v580_apply, val_main_v579_apply, val_main_v578_apply, h0, mean_1_c]
  rfl

/-- The scale of the normalisation, repeated along the rows: entry `(r, j)` is `gamma[1, 0, j]`. -/
theorem gamma_1_c (r : Fin 100000) (j : Fin 128) :
    val_main_v593 (F := Ideal) x18 (ix2 r j) = x18 (ix3 (1 : Fin 2) (0 : Fin 3) j) := by
  rw [val_main_v593_apply, val_main_v592_apply, val_main_v571_apply, val_main_v570_apply]
  refine congrArg x18 (funext fun e => Fin.ext ?_)
  have hj := j.isLt
  match e with
  | ⟨0, _⟩ => rfl
  | ⟨1, _⟩ => rfl
  | ⟨2, _⟩ =>
    show j.val % 128 = j.val
    omega

/-- The shift of the normalisation, repeated along the rows: entry `(r, j)` is `beta[1, 0, j]`. -/
theorem beta_1_c (r : Fin 100000) (j : Fin 128) :
    val_main_v596 (F := Ideal) x19 (ix2 r j) = x19 (ix3 (1 : Fin 2) (0 : Fin 3) j) := by
  rw [val_main_v596_apply, val_main_v595_apply, val_main_v573_apply, val_main_v572_apply]
  refine congrArg x19 (funext fun e => Fin.ext ?_)
  have hj := j.isLt
  match e with
  | ⟨0, _⟩ => rfl
  | ⟨1, _⟩ => rfl
  | ⟨2, _⟩ =>
    show j.val % 128 = j.val
    omega

/-- The normalised, scaled, shifted row with its negative entries replaced by zero, in terms of the averaged row. -/
theorem out_1_c (r : Fin 100000) (j : Fin 128) :
    val_main_v598 (F := Ideal) x0 x1 x2 x3 x4 x5 x6 x7 x8 x9 x10 x11 x12 x13 x14 x15 x16 x17 x18 x19 (ix2 r j)
      = Cert.RowSpec.lnrelu (fun j => val_main_v569 (F := Ideal) x0 x1 x2 x3 x4 x5 x6 x7 x8 x9 x10 x11 x12 x13 x14 x15 x16 x17 x18 x19 (ix2 r j))
          (fun j => x18 (ix3 (1 : Fin 2) (0 : Fin 3) j)) (fun j => x19 (ix3 (1 : Fin 2) (0 : Fin 3) j)) j := by
  rw [val_main_v598_apply, val_main_call3_v0_apply, val_main_call3_cst_apply, val_main_v597_apply, val_main_v594_apply, val_main_v591_apply,
    val_main_v586_apply, val_main_v585_apply, val_main_v590_apply, val_main_v589_apply, val_main_v588_apply, val_main_v587_apply, val_main_cst_93_apply,
    gamma_1_c, beta_1_c]
  have h0 : idx_main_v585 (ix2 r j) = ix2 r (0 : Fin 1) := funext fun e => by match e with | ⟨0, _⟩ => rfl | ⟨1, _⟩ => rfl
  have h1 : idx_main_v590 (ix2 r j) = ix2 r (0 : Fin 1) := funext fun e => by match e with | ⟨0, _⟩ => rfl | ⟨1, _⟩ => rfl
  rw [h0, h1, mean_1_c, var_1_c]
  rfl

/-- The layer-1 output for the customer nodes at row `r` and feature `j` is the row function of the two
    neighbour means, the node's own features and the selected parameter slices. -/
theorem site_1_c (r : Fin 100000) (j : Fin 128) :
    val_main_v598 (F := Ideal) x0 x1 x2 x3 x4 x5 x6 x7 x8 x9 x10 x11 x12 x13 x14 x15 x16 x17 x18 x19 (ix2 r j)
      = Cert.RowSpec.rowOut
          (fun k => Ideal.div (val_main_v401 (F := Ideal) x0 x1 x2 x3 x4 x8 x9 x10 x11 x12 x13 x14 x15 x16 x17 x18 x19 (ix2 r k)) (max (val_main_v405 (F := Ideal) x4 (ix1 r)) Cert.RowSpec.one32))
          (fun k => Ideal.div (val_main_v475 (F := Ideal) x0 x1 x2 x5 x6 x7 x9 x10 x11 x12 x13 x14 x15 x16 x17 x18 x19 (ix2 r k)) (max (val_main_v479 (F := Ideal) x6 (ix1 r)) Cert.RowSpec.one32))
          (fun k => val_main_v274 (F := Ideal) x0 x1 x2 x4 x6 x9 x10 x11 x12 x13 x14 x15 x16 x17 x18 x19 (ix2 r k))
          (fun k j => x15 (ix4 (1 : Fin 2) (1 : Fin 6) j k)) (fun k j => x15 (ix4 (1 : Fin 2) (3 : Fin 6) j k))
          (fun k j => x17 (ix4 (1 : Fin 2) (1 : Fin 6) j k)) (fun k j => x17 (ix4 (1 : Fin 2) (3 : Fin 6) j k))
          (fun j => x16 (ix3 (1 : Fin 2) (1 : Fin 6) j)) (fun j => x16 (ix3 (1 : Fin 2) (3 : Fin 6) j))
          (fun j => x18 (ix3 (1 : Fin 2) (0 : Fin 3) j)) (fun j => x19 (ix3 (1 : Fin 2) (0 : Fin 3) j)) j := by
  rw [out_1_c]
  unfold Cert.RowSpec.rowOut
  simp only [avg_1_c, rel_1_c_a, rel_1_c_b]

end Cert.RefSite

end
-- ==== Proof.KBorn0.lean ====
/-
  What stretch 0 of host operations leaves in the buffers the launches read, each as the composition of its
  operations over the buffers the stretch finds.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

set_option maxHeartbeats 4000000 in
theorem born0 (c : Dev nD) :
    W1 m ρ c (Proc.devRef .tc main_v4) = (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10)))))
    ∧ W1 m ρ c (Proc.devRef .tc main_v9) = (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12)))))
    ∧ W1 m ρ c (Proc.devRef .tc main_v14) = (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14)))))
    ∧ W1 m ρ c (Proc.devRef .tc main_v122) = (Host.scatterAdd scatter_S100000x128_S500000x1_S500000x128_1_0_0_1 (broadcastInDim S100000x128 ![] bcast_S_S100000x128 ((constant (F := F) S_ .f32 0x00000000#32))) (broadcastInDim S500000x1 ![0] bcast_S500000_S500000x1_0 (shapeCast _ (extractStridedSlice S1x500000 ![1, 0] (W0 m ρ c (Proc.devRef .tc main_arg4)) slices_S2x500000_S1x500000_1_0) shapeCasts_S1x500000_S500000)) (Host.gather gather_S50000x128_S500000x1_S500000x128_1_0_n_n_0_1_1128 (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) (broadcastInDim S500000x1 ![0] bcast_S500000_S500000x1_0 (select (cmpi .slt (shapeCast _ (extractStridedSlice S1x500000 ![0, 0] (W0 m ρ c (Proc.devRef .tc main_arg4)) slices_S2x500000_S1x500000_0_0) shapeCasts_S1x500000_S500000) (broadcastInDim S500000 ![] bcast_S_S500000 ((constantI S_ 32 0#32)))) (addi (shapeCast _ (extractStridedSlice S1x500000 ![0, 0] (W0 m ρ c (Proc.devRef .tc main_arg4)) slices_S2x500000_S1x500000_0_0) shapeCasts_S1x500000_S500000) (broadcastInDim S500000 ![] bcast_S_S500000 ((constantI S_ 32 50000#32)))) (shapeCast _ (extractStridedSlice S1x500000 ![0, 0] (W0 m ρ c (Proc.devRef .tc main_arg4)) slices_S2x500000_S1x500000_0_0) shapeCasts_S1x500000_S500000)))))
    ∧ W1 m ρ c (Proc.devRef .tc main_v142) = (Host.scatterAdd scatter_S100000x128_S300000x1_S300000x128_1_0_0_1 (broadcastInDim S100000x128 ![] bcast_S_S100000x128 ((constant (F := F) S_ .f32 0x00000000#32))) (broadcastInDim S300000x1 ![0] bcast_S300000_S300000x1_0 (shapeCast _ (extractStridedSlice S1x300000 ![1, 0] (W0 m ρ c (Proc.devRef .tc main_arg6)) slices_S2x300000_S1x300000_1_0) shapeCasts_S1x300000_S300000)) (Host.gather gather_S5000x128_S300000x1_S300000x128_1_0_n_n_0_1_1128 (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) (broadcastInDim S300000x1 ![0] bcast_S300000_S300000x1_0 (select (cmpi .slt (shapeCast _ (extractStridedSlice S1x300000 ![0, 0] (W0 m ρ c (Proc.devRef .tc main_arg6)) slices_S2x300000_S1x300000_0_0) shapeCasts_S1x300000_S300000) (broadcastInDim S300000 ![] bcast_S_S300000 ((constantI S_ 32 0#32)))) (addi (shapeCast _ (extractStridedSlice S1x300000 ![0, 0] (W0 m ρ c (Proc.devRef .tc main_arg6)) slices_S2x300000_S1x300000_0_0) shapeCasts_S1x300000_S300000) (broadcastInDim S300000 ![] bcast_S_S300000 ((constantI S_ 32 5000#32)))) (shapeCast _ (extractStridedSlice S1x300000 ![0, 0] (W0 m ρ c (Proc.devRef .tc main_arg6)) slices_S2x300000_S1x300000_0_0) shapeCasts_S1x300000_S300000)))))
    ∧ W1 m ρ c (Proc.devRef .tc main_v112) = (Host.scatterAdd scatter_S50000x128_S500000x1_S500000x128_1_0_0_1 (broadcastInDim S50000x128 ![] bcast_S_S50000x128 ((constant (F := F) S_ .f32 0x00000000#32))) (broadcastInDim S500000x1 ![0] bcast_S500000_S500000x1_0 (shapeCast _ (extractStridedSlice S1x500000 ![1, 0] (W0 m ρ c (Proc.devRef .tc main_arg3)) slices_S2x500000_S1x500000_1_0) shapeCasts_S1x500000_S500000)) (Host.gather gather_S100000x128_S500000x1_S500000x128_1_0_n_n_0_1_1128 (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) (broadcastInDim S500000x1 ![0] bcast_S500000_S500000x1_0 (select (cmpi .slt (shapeCast _ (extractStridedSlice S1x500000 ![0, 0] (W0 m ρ c (Proc.devRef .tc main_arg3)) slices_S2x500000_S1x500000_0_0) shapeCasts_S1x500000_S500000) (broadcastInDim S500000 ![] bcast_S_S500000 ((constantI S_ 32 0#32)))) (addi (shapeCast _ (extractStridedSlice S1x500000 ![0, 0] (W0 m ρ c (Proc.devRef .tc main_arg3)) slices_S2x500000_S1x500000_0_0) shapeCasts_S1x500000_S500000) (broadcastInDim S500000 ![] bcast_S_S500000 ((constantI S_ 32 100000#32)))) (shapeCast _ (extractStridedSlice S1x500000 ![0, 0] (W0 m ρ c (Proc.devRef .tc main_arg3)) slices_S2x500000_S1x500000_0_0) shapeCasts_S1x500000_S500000)))))
    ∧ W1 m ρ c (Proc.devRef .tc main_v162) = (Host.scatterAdd scatter_S50000x128_S150000x1_S150000x128_1_0_0_1 (broadcastInDim S50000x128 ![] bcast_S_S50000x128 ((constant (F := F) S_ .f32 0x00000000#32))) (broadcastInDim S150000x1 ![0] bcast_S150000_S150000x1_0 (shapeCast _ (extractStridedSlice S1x150000 ![1, 0] (W0 m ρ c (Proc.devRef .tc main_arg8)) slices_S2x150000_S1x150000_1_0) shapeCasts_S1x150000_S150000)) (Host.gather gather_S5000x128_S150000x1_S150000x128_1_0_n_n_0_1_1128 (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) (broadcastInDim S150000x1 ![0] bcast_S150000_S150000x1_0 (select (cmpi .slt (shapeCast _ (extractStridedSlice S1x150000 ![0, 0] (W0 m ρ c (Proc.devRef .tc main_arg8)) slices_S2x150000_S1x150000_0_0) shapeCasts_S1x150000_S150000) (broadcastInDim S150000 ![] bcast_S_S150000 ((constantI S_ 32 0#32)))) (addi (shapeCast _ (extractStridedSlice S1x150000 ![0, 0] (W0 m ρ c (Proc.devRef .tc main_arg8)) slices_S2x150000_S1x150000_0_0) shapeCasts_S1x150000_S150000) (broadcastInDim S150000 ![] bcast_S_S150000 ((constantI S_ 32 5000#32)))) (shapeCast _ (extractStridedSlice S1x150000 ![0, 0] (W0 m ρ c (Proc.devRef .tc main_arg8)) slices_S2x150000_S1x150000_0_0) shapeCasts_S1x150000_S150000)))))
    ∧ W1 m ρ c (Proc.devRef .tc main_v132) = (Host.scatterAdd scatter_S5000x128_S300000x1_S300000x128_1_0_0_1 (broadcastInDim S5000x128 ![] bcast_S_S5000x128 ((constant (F := F) S_ .f32 0x00000000#32))) (broadcastInDim S300000x1 ![0] bcast_S300000_S300000x1_0 (shapeCast _ (extractStridedSlice S1x300000 ![1, 0] (W0 m ρ c (Proc.devRef .tc main_arg5)) slices_S2x300000_S1x300000_1_0) shapeCasts_S1x300000_S300000)) (Host.gather gather_S100000x128_S300000x1_S300000x128_1_0_n_n_0_1_1128 (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) (broadcastInDim S300000x1 ![0] bcast_S300000_S300000x1_0 (select (cmpi .slt (shapeCast _ (extractStridedSlice S1x300000 ![0, 0] (W0 m ρ c (Proc.devRef .tc main_arg5)) slices_S2x300000_S1x300000_0_0) shapeCasts_S1x300000_S300000) (broadcastInDim S300000 ![] bcast_S_S300000 ((constantI S_ 32 0#32)))) (addi (shapeCast _ (extractStridedSlice S1x300000 ![0, 0] (W0 m ρ c (Proc.devRef .tc main_arg5)) slices_S2x300000_S1x300000_0_0) shapeCasts_S1x300000_S300000) (broadcastInDim S300000 ![] bcast_S_S300000 ((constantI S_ 32 100000#32)))) (shapeCast _ (extractStridedSlice S1x300000 ![0, 0] (W0 m ρ c (Proc.devRef .tc main_arg5)) slices_S2x300000_S1x300000_0_0) shapeCasts_S1x300000_S300000)))))
    ∧ W1 m ρ c (Proc.devRef .tc main_v152) = (Host.scatterAdd scatter_S5000x128_S150000x1_S150000x128_1_0_0_1 (broadcastInDim S5000x128 ![] bcast_S_S5000x128 ((constant (F := F) S_ .f32 0x00000000#32))) (broadcastInDim S150000x1 ![0] bcast_S150000_S150000x1_0 (shapeCast _ (extractStridedSlice S1x150000 ![1, 0] (W0 m ρ c (Proc.devRef .tc main_arg7)) slices_S2x150000_S1x150000_1_0) shapeCasts_S1x150000_S150000)) (Host.gather gather_S50000x128_S150000x1_S150000x128_1_0_n_n_0_1_1128 (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) (broadcastInDim S150000x1 ![0] bcast_S150000_S150000x1_0 (select (cmpi .slt (shapeCast _ (extractStridedSlice S1x150000 ![0, 0] (W0 m ρ c (Proc.devRef .tc main_arg7)) slices_S2x150000_S1x150000_0_0) shapeCasts_S1x150000_S150000) (broadcastInDim S150000 ![] bcast_S_S150000 ((constantI S_ 32 0#32)))) (addi (shapeCast _ (extractStridedSlice S1x150000 ![0, 0] (W0 m ρ c (Proc.devRef .tc main_arg7)) slices_S2x150000_S1x150000_0_0) shapeCasts_S1x150000_S150000) (broadcastInDim S150000 ![] bcast_S_S150000 ((constantI S_ 32 50000#32)))) (shapeCast _ (extractStridedSlice S1x150000 ![0, 0] (W0 m ρ c (Proc.devRef .tc main_arg7)) slices_S2x150000_S1x150000_0_0) shapeCasts_S1x150000_S150000)))))
    ∧ W1 m ρ c (Proc.devRef .tc main_v56) = (broadcastInDim S100000x1 ![0] bcast_S100000_S100000x1_0 (Host.divf (broadcastInDim S100000 ![] bcast_S_S100000 ((constant (F := F) S_ .f32 0x3F800000#32))) (maximumf (Host.scatterAdd scatter_S100000_S500000x1_S500000_n_0_0_1 (broadcastInDim S100000 ![] bcast_S_S100000 ((constant (F := F) S_ .f32 0x00000000#32))) (broadcastInDim S500000x1 ![0] bcast_S500000_S500000x1_0 (shapeCast _ (extractStridedSlice S1x500000 ![1, 0] (W0 m ρ c (Proc.devRef .tc main_arg4)) slices_S2x500000_S1x500000_1_0) shapeCasts_S1x500000_S500000)) (broadcastInDim S500000 ![] bcast_S_S500000 ((constant (F := F) S_ .f32 0x3F800000#32)))) (broadcastInDim S100000 ![] bcast_S_S100000 ((constant (F := F) S_ .f32 0x3F800000#32))))))
    ∧ W1 m ρ c (Proc.devRef .tc main_v74) = (broadcastInDim S100000x1 ![0] bcast_S100000_S100000x1_0 (Host.divf (broadcastInDim S100000 ![] bcast_S_S100000 ((constant (F := F) S_ .f32 0x3F800000#32))) (maximumf (Host.scatterAdd scatter_S100000_S300000x1_S300000_n_0_0_1 (broadcastInDim S100000 ![] bcast_S_S100000 ((constant (F := F) S_ .f32 0x00000000#32))) (broadcastInDim S300000x1 ![0] bcast_S300000_S300000x1_0 (shapeCast _ (extractStridedSlice S1x300000 ![1, 0] (W0 m ρ c (Proc.devRef .tc main_arg6)) slices_S2x300000_S1x300000_1_0) shapeCasts_S1x300000_S300000)) (broadcastInDim S300000 ![] bcast_S_S300000 ((constant (F := F) S_ .f32 0x3F800000#32)))) (broadcastInDim S100000 ![] bcast_S_S100000 ((constant (F := F) S_ .f32 0x3F800000#32))))))
    ∧ W1 m ρ c (Proc.devRef .tc main_v47) = (broadcastInDim S50000x1 ![0] bcast_S50000_S50000x1_0 (Host.divf (broadcastInDim S50000 ![] bcast_S_S50000 ((constant (F := F) S_ .f32 0x3F800000#32))) (maximumf (Host.scatterAdd scatter_S50000_S500000x1_S500000_n_0_0_1 (broadcastInDim S50000 ![] bcast_S_S50000 ((constant (F := F) S_ .f32 0x00000000#32))) (broadcastInDim S500000x1 ![0] bcast_S500000_S500000x1_0 (shapeCast _ (extractStridedSlice S1x500000 ![1, 0] (W0 m ρ c (Proc.devRef .tc main_arg3)) slices_S2x500000_S1x500000_1_0) shapeCasts_S1x500000_S500000)) (broadcastInDim S500000 ![] bcast_S_S500000 ((constant (F := F) S_ .f32 0x3F800000#32)))) (broadcastInDim S50000 ![] bcast_S_S50000 ((constant (F := F) S_ .f32 0x3F800000#32))))))
    ∧ W1 m ρ c (Proc.devRef .tc main_v92) = (broadcastInDim S50000x1 ![0] bcast_S50000_S50000x1_0 (Host.divf (broadcastInDim S50000 ![] bcast_S_S50000 ((constant (F := F) S_ .f32 0x3F800000#32))) (maximumf (Host.scatterAdd scatter_S50000_S150000x1_S150000_n_0_0_1 (broadcastInDim S50000 ![] bcast_S_S50000 ((constant (F := F) S_ .f32 0x00000000#32))) (broadcastInDim S150000x1 ![0] bcast_S150000_S150000x1_0 (shapeCast _ (extractStridedSlice S1x150000 ![1, 0] (W0 m ρ c (Proc.devRef .tc main_arg8)) slices_S2x150000_S1x150000_1_0) shapeCasts_S1x150000_S150000)) (broadcastInDim S150000 ![] bcast_S_S150000 ((constant (F := F) S_ .f32 0x3F800000#32)))) (broadcastInDim S50000 ![] bcast_S_S50000 ((constant (F := F) S_ .f32 0x3F800000#32))))))
    ∧ W1 m ρ c (Proc.devRef .tc main_v65) = (broadcastInDim S5000x1 ![0] bcast_S5000_S5000x1_0 (Host.divf (broadcastInDim S5000 ![] bcast_S_S5000 ((constant (F := F) S_ .f32 0x3F800000#32))) (maximumf (Host.scatterAdd scatter_S5000_S300000x1_S300000_n_0_0_1 (broadcastInDim S5000 ![] bcast_S_S5000 ((constant (F := F) S_ .f32 0x00000000#32))) (broadcastInDim S300000x1 ![0] bcast_S300000_S300000x1_0 (shapeCast _ (extractStridedSlice S1x300000 ![1, 0] (W0 m ρ c (Proc.devRef .tc main_arg5)) slices_S2x300000_S1x300000_1_0) shapeCasts_S1x300000_S300000)) (broadcastInDim S300000 ![] bcast_S_S300000 ((constant (F := F) S_ .f32 0x3F800000#32)))) (broadcastInDim S5000 ![] bcast_S_S5000 ((constant (F := F) S_ .f32 0x3F800000#32))))))
    ∧ W1 m ρ c (Proc.devRef .tc main_v83) = (broadcastInDim S5000x1 ![0] bcast_S5000_S5000x1_0 (Host.divf (broadcastInDim S5000 ![] bcast_S_S5000 ((constant (F := F) S_ .f32 0x3F800000#32))) (maximumf (Host.scatterAdd scatter_S5000_S150000x1_S150000_n_0_0_1 (broadcastInDim S5000 ![] bcast_S_S5000 ((constant (F := F) S_ .f32 0x00000000#32))) (broadcastInDim S150000x1 ![0] bcast_S150000_S150000x1_0 (shapeCast _ (extractStridedSlice S1x150000 ![1, 0] (W0 m ρ c (Proc.devRef .tc main_arg7)) slices_S2x150000_S1x150000_1_0) shapeCasts_S1x150000_S150000)) (broadcastInDim S150000 ![] bcast_S_S150000 ((constant (F := F) S_ .f32 0x3F800000#32)))) (broadcastInDim S5000 ![] bcast_S_S5000 ((constant (F := F) S_ .f32 0x3F800000#32))))))
    ∧ W1 m ρ c (Proc.devRef .tc main_v100) = (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32)
    ∧ W1 m ρ c (Proc.devRef .tc main_v102) = (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32)
    ∧ W1 m ρ c (Proc.devRef .tc main_v96) = (shapeCast _ (extractStridedSlice S1x6x128 ![0, 0, 0] (W0 m ρ c (Proc.devRef .tc main_arg16)) slices_S2x6x128_S1x6x128_0_0_0) shapeCasts_S1x6x128_S6x128)
    ∧ W1 m ρ c (Proc.devRef .tc main_v164) = (shapeCast _ (extractStridedSlice S1x128x128 ![1, 0, 0] (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) slices_S6x128x128_S1x128x128_1_0_0) shapeCasts_S1x128x128_S128x128)
    ∧ W1 m ρ c (Proc.devRef .tc main_v166) = (shapeCast _ (extractStridedSlice S1x128x128 ![3, 0, 0] (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) slices_S6x128x128_S1x128x128_3_0_0) shapeCasts_S1x128x128_S128x128)
    ∧ W1 m ρ c (Proc.devRef .tc main_v168) = (shapeCast _ (extractStridedSlice S1x128x128 ![1, 0, 0] (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) slices_S6x128x128_S1x128x128_1_0_0) shapeCasts_S1x128x128_S128x128)
    ∧ W1 m ρ c (Proc.devRef .tc main_v170) = (shapeCast _ (extractStridedSlice S1x128x128 ![3, 0, 0] (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) slices_S6x128x128_S1x128x128_3_0_0) shapeCasts_S1x128x128_S128x128)
    ∧ W1 m ρ c (Proc.devRef .tc main_v172) = (shapeCast _ (extractStridedSlice S1x128 ![1, 0] (shapeCast _ (extractStridedSlice S1x6x128 ![0, 0, 0] (W0 m ρ c (Proc.devRef .tc main_arg16)) slices_S2x6x128_S1x6x128_0_0_0) shapeCasts_S1x6x128_S6x128) slices_S6x128_S1x128_1_0) shapeCasts_S1x128_S128)
    ∧ W1 m ρ c (Proc.devRef .tc main_v174) = (shapeCast _ (extractStridedSlice S1x128 ![3, 0] (shapeCast _ (extractStridedSlice S1x6x128 ![0, 0, 0] (W0 m ρ c (Proc.devRef .tc main_arg16)) slices_S2x6x128_S1x6x128_0_0_0) shapeCasts_S1x6x128_S6x128) slices_S6x128_S1x128_3_0) shapeCasts_S1x128_S128)
    ∧ W1 m ρ c (Proc.devRef .tc main_v176) = (shapeCast _ (extractStridedSlice S1x1x128 ![0, 0, 0] (W0 m ρ c (Proc.devRef .tc main_arg18)) slices_S2x3x128_S1x1x128_0_0_0) shapeCasts_S1x1x128_S128)
    ∧ W1 m ρ c (Proc.devRef .tc main_v178) = (shapeCast _ (extractStridedSlice S1x1x128 ![0, 0, 0] (W0 m ρ c (Proc.devRef .tc main_arg19)) slices_S2x3x128_S1x1x128_0_0_0) shapeCasts_S1x1x128_S128)
    ∧ W1 m ρ c (Proc.devRef .tc main_v16) = (shapeCast _ (extractStridedSlice S1x500000 ![0, 0] (W0 m ρ c (Proc.devRef .tc main_arg3)) slices_S2x500000_S1x500000_0_0) shapeCasts_S1x500000_S500000)
    ∧ W1 m ρ c (Proc.devRef .tc main_v18) = (shapeCast _ (extractStridedSlice S1x500000 ![1, 0] (W0 m ρ c (Proc.devRef .tc main_arg3)) slices_S2x500000_S1x500000_1_0) shapeCasts_S1x500000_S500000)
    ∧ W1 m ρ c (Proc.devRef .tc main_v20) = (shapeCast _ (extractStridedSlice S1x500000 ![0, 0] (W0 m ρ c (Proc.devRef .tc main_arg4)) slices_S2x500000_S1x500000_0_0) shapeCasts_S1x500000_S500000)
    ∧ W1 m ρ c (Proc.devRef .tc main_v22) = (shapeCast _ (extractStridedSlice S1x500000 ![1, 0] (W0 m ρ c (Proc.devRef .tc main_arg4)) slices_S2x500000_S1x500000_1_0) shapeCasts_S1x500000_S500000)
    ∧ W1 m ρ c (Proc.devRef .tc main_v24) = (shapeCast _ (extractStridedSlice S1x300000 ![0, 0] (W0 m ρ c (Proc.devRef .tc main_arg5)) slices_S2x300000_S1x300000_0_0) shapeCasts_S1x300000_S300000)
    ∧ W1 m ρ c (Proc.devRef .tc main_v26) = (shapeCast _ (extractStridedSlice S1x300000 ![1, 0] (W0 m ρ c (Proc.devRef .tc main_arg5)) slices_S2x300000_S1x300000_1_0) shapeCasts_S1x300000_S300000)
    ∧ W1 m ρ c (Proc.devRef .tc main_v28) = (shapeCast _ (extractStridedSlice S1x300000 ![0, 0] (W0 m ρ c (Proc.devRef .tc main_arg6)) slices_S2x300000_S1x300000_0_0) shapeCasts_S1x300000_S300000)
    ∧ W1 m ρ c (Proc.devRef .tc main_v30) = (shapeCast _ (extractStridedSlice S1x300000 ![1, 0] (W0 m ρ c (Proc.devRef .tc main_arg6)) slices_S2x300000_S1x300000_1_0) shapeCasts_S1x300000_S300000)
    ∧ W1 m ρ c (Proc.devRef .tc main_v32) = (shapeCast _ (extractStridedSlice S1x150000 ![0, 0] (W0 m ρ c (Proc.devRef .tc main_arg7)) slices_S2x150000_S1x150000_0_0) shapeCasts_S1x150000_S150000)
    ∧ W1 m ρ c (Proc.devRef .tc main_v34) = (shapeCast _ (extractStridedSlice S1x150000 ![1, 0] (W0 m ρ c (Proc.devRef .tc main_arg7)) slices_S2x150000_S1x150000_1_0) shapeCasts_S1x150000_S150000)
    ∧ W1 m ρ c (Proc.devRef .tc main_v36) = (shapeCast _ (extractStridedSlice S1x150000 ![0, 0] (W0 m ρ c (Proc.devRef .tc main_arg8)) slices_S2x150000_S1x150000_0_0) shapeCasts_S1x150000_S150000)
    ∧ W1 m ρ c (Proc.devRef .tc main_v38) = (shapeCast _ (extractStridedSlice S1x150000 ![1, 0] (W0 m ρ c (Proc.devRef .tc main_arg8)) slices_S2x150000_S1x150000_1_0) shapeCasts_S1x150000_S150000) := by
  show StableHlo.after hostOps0 (W0 m ρ c) (Proc.devRef .tc main_v4) = (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10)))))
    ∧ StableHlo.after hostOps0 (W0 m ρ c) (Proc.devRef .tc main_v9) = (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12)))))
    ∧ StableHlo.after hostOps0 (W0 m ρ c) (Proc.devRef .tc main_v14) = (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14)))))
    ∧ StableHlo.after hostOps0 (W0 m ρ c) (Proc.devRef .tc main_v122) = (Host.scatterAdd scatter_S100000x128_S500000x1_S500000x128_1_0_0_1 (broadcastInDim S100000x128 ![] bcast_S_S100000x128 ((constant (F := F) S_ .f32 0x00000000#32))) (broadcastInDim S500000x1 ![0] bcast_S500000_S500000x1_0 (shapeCast _ (extractStridedSlice S1x500000 ![1, 0] (W0 m ρ c (Proc.devRef .tc main_arg4)) slices_S2x500000_S1x500000_1_0) shapeCasts_S1x500000_S500000)) (Host.gather gather_S50000x128_S500000x1_S500000x128_1_0_n_n_0_1_1128 (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) (broadcastInDim S500000x1 ![0] bcast_S500000_S500000x1_0 (select (cmpi .slt (shapeCast _ (extractStridedSlice S1x500000 ![0, 0] (W0 m ρ c (Proc.devRef .tc main_arg4)) slices_S2x500000_S1x500000_0_0) shapeCasts_S1x500000_S500000) (broadcastInDim S500000 ![] bcast_S_S500000 ((constantI S_ 32 0#32)))) (addi (shapeCast _ (extractStridedSlice S1x500000 ![0, 0] (W0 m ρ c (Proc.devRef .tc main_arg4)) slices_S2x500000_S1x500000_0_0) shapeCasts_S1x500000_S500000) (broadcastInDim S500000 ![] bcast_S_S500000 ((constantI S_ 32 50000#32)))) (shapeCast _ (extractStridedSlice S1x500000 ![0, 0] (W0 m ρ c (Proc.devRef .tc main_arg4)) slices_S2x500000_S1x500000_0_0) shapeCasts_S1x500000_S500000)))))
    ∧ StableHlo.after hostOps0 (W0 m ρ c) (Proc.devRef .tc main_v142) = (Host.scatterAdd scatter_S100000x128_S300000x1_S300000x128_1_0_0_1 (broadcastInDim S100000x128 ![] bcast_S_S100000x128 ((constant (F := F) S_ .f32 0x00000000#32))) (broadcastInDim S300000x1 ![0] bcast_S300000_S300000x1_0 (shapeCast _ (extractStridedSlice S1x300000 ![1, 0] (W0 m ρ c (Proc.devRef .tc main_arg6)) slices_S2x300000_S1x300000_1_0) shapeCasts_S1x300000_S300000)) (Host.gather gather_S5000x128_S300000x1_S300000x128_1_0_n_n_0_1_1128 (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) (broadcastInDim S300000x1 ![0] bcast_S300000_S300000x1_0 (select (cmpi .slt (shapeCast _ (extractStridedSlice S1x300000 ![0, 0] (W0 m ρ c (Proc.devRef .tc main_arg6)) slices_S2x300000_S1x300000_0_0) shapeCasts_S1x300000_S300000) (broadcastInDim S300000 ![] bcast_S_S300000 ((constantI S_ 32 0#32)))) (addi (shapeCast _ (extractStridedSlice S1x300000 ![0, 0] (W0 m ρ c (Proc.devRef .tc main_arg6)) slices_S2x300000_S1x300000_0_0) shapeCasts_S1x300000_S300000) (broadcastInDim S300000 ![] bcast_S_S300000 ((constantI S_ 32 5000#32)))) (shapeCast _ (extractStridedSlice S1x300000 ![0, 0] (W0 m ρ c (Proc.devRef .tc main_arg6)) slices_S2x300000_S1x300000_0_0) shapeCasts_S1x300000_S300000)))))
    ∧ StableHlo.after hostOps0 (W0 m ρ c) (Proc.devRef .tc main_v112) = (Host.scatterAdd scatter_S50000x128_S500000x1_S500000x128_1_0_0_1 (broadcastInDim S50000x128 ![] bcast_S_S50000x128 ((constant (F := F) S_ .f32 0x00000000#32))) (broadcastInDim S500000x1 ![0] bcast_S500000_S500000x1_0 (shapeCast _ (extractStridedSlice S1x500000 ![1, 0] (W0 m ρ c (Proc.devRef .tc main_arg3)) slices_S2x500000_S1x500000_1_0) shapeCasts_S1x500000_S500000)) (Host.gather gather_S100000x128_S500000x1_S500000x128_1_0_n_n_0_1_1128 (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) (broadcastInDim S500000x1 ![0] bcast_S500000_S500000x1_0 (select (cmpi .slt (shapeCast _ (extractStridedSlice S1x500000 ![0, 0] (W0 m ρ c (Proc.devRef .tc main_arg3)) slices_S2x500000_S1x500000_0_0) shapeCasts_S1x500000_S500000) (broadcastInDim S500000 ![] bcast_S_S500000 ((constantI S_ 32 0#32)))) (addi (shapeCast _ (extractStridedSlice S1x500000 ![0, 0] (W0 m ρ c (Proc.devRef .tc main_arg3)) slices_S2x500000_S1x500000_0_0) shapeCasts_S1x500000_S500000) (broadcastInDim S500000 ![] bcast_S_S500000 ((constantI S_ 32 100000#32)))) (shapeCast _ (extractStridedSlice S1x500000 ![0, 0] (W0 m ρ c (Proc.devRef .tc main_arg3)) slices_S2x500000_S1x500000_0_0) shapeCasts_S1x500000_S500000)))))
    ∧ StableHlo.after hostOps0 (W0 m ρ c) (Proc.devRef .tc main_v162) = (Host.scatterAdd scatter_S50000x128_S150000x1_S150000x128_1_0_0_1 (broadcastInDim S50000x128 ![] bcast_S_S50000x128 ((constant (F := F) S_ .f32 0x00000000#32))) (broadcastInDim S150000x1 ![0] bcast_S150000_S150000x1_0 (shapeCast _ (extractStridedSlice S1x150000 ![1, 0] (W0 m ρ c (Proc.devRef .tc main_arg8)) slices_S2x150000_S1x150000_1_0) shapeCasts_S1x150000_S150000)) (Host.gather gather_S5000x128_S150000x1_S150000x128_1_0_n_n_0_1_1128 (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) (broadcastInDim S150000x1 ![0] bcast_S150000_S150000x1_0 (select (cmpi .slt (shapeCast _ (extractStridedSlice S1x150000 ![0, 0] (W0 m ρ c (Proc.devRef .tc main_arg8)) slices_S2x150000_S1x150000_0_0) shapeCasts_S1x150000_S150000) (broadcastInDim S150000 ![] bcast_S_S150000 ((constantI S_ 32 0#32)))) (addi (shapeCast _ (extractStridedSlice S1x150000 ![0, 0] (W0 m ρ c (Proc.devRef .tc main_arg8)) slices_S2x150000_S1x150000_0_0) shapeCasts_S1x150000_S150000) (broadcastInDim S150000 ![] bcast_S_S150000 ((constantI S_ 32 5000#32)))) (shapeCast _ (extractStridedSlice S1x150000 ![0, 0] (W0 m ρ c (Proc.devRef .tc main_arg8)) slices_S2x150000_S1x150000_0_0) shapeCasts_S1x150000_S150000)))))
    ∧ StableHlo.after hostOps0 (W0 m ρ c) (Proc.devRef .tc main_v132) = (Host.scatterAdd scatter_S5000x128_S300000x1_S300000x128_1_0_0_1 (broadcastInDim S5000x128 ![] bcast_S_S5000x128 ((constant (F := F) S_ .f32 0x00000000#32))) (broadcastInDim S300000x1 ![0] bcast_S300000_S300000x1_0 (shapeCast _ (extractStridedSlice S1x300000 ![1, 0] (W0 m ρ c (Proc.devRef .tc main_arg5)) slices_S2x300000_S1x300000_1_0) shapeCasts_S1x300000_S300000)) (Host.gather gather_S100000x128_S300000x1_S300000x128_1_0_n_n_0_1_1128 (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) (broadcastInDim S300000x1 ![0] bcast_S300000_S300000x1_0 (select (cmpi .slt (shapeCast _ (extractStridedSlice S1x300000 ![0, 0] (W0 m ρ c (Proc.devRef .tc main_arg5)) slices_S2x300000_S1x300000_0_0) shapeCasts_S1x300000_S300000) (broadcastInDim S300000 ![] bcast_S_S300000 ((constantI S_ 32 0#32)))) (addi (shapeCast _ (extractStridedSlice S1x300000 ![0, 0] (W0 m ρ c (Proc.devRef .tc main_arg5)) slices_S2x300000_S1x300000_0_0) shapeCasts_S1x300000_S300000) (broadcastInDim S300000 ![] bcast_S_S300000 ((constantI S_ 32 100000#32)))) (shapeCast _ (extractStridedSlice S1x300000 ![0, 0] (W0 m ρ c (Proc.devRef .tc main_arg5)) slices_S2x300000_S1x300000_0_0) shapeCasts_S1x300000_S300000)))))
    ∧ StableHlo.after hostOps0 (W0 m ρ c) (Proc.devRef .tc main_v152) = (Host.scatterAdd scatter_S5000x128_S150000x1_S150000x128_1_0_0_1 (broadcastInDim S5000x128 ![] bcast_S_S5000x128 ((constant (F := F) S_ .f32 0x00000000#32))) (broadcastInDim S150000x1 ![0] bcast_S150000_S150000x1_0 (shapeCast _ (extractStridedSlice S1x150000 ![1, 0] (W0 m ρ c (Proc.devRef .tc main_arg7)) slices_S2x150000_S1x150000_1_0) shapeCasts_S1x150000_S150000)) (Host.gather gather_S50000x128_S150000x1_S150000x128_1_0_n_n_0_1_1128 (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) (broadcastInDim S150000x1 ![0] bcast_S150000_S150000x1_0 (select (cmpi .slt (shapeCast _ (extractStridedSlice S1x150000 ![0, 0] (W0 m ρ c (Proc.devRef .tc main_arg7)) slices_S2x150000_S1x150000_0_0) shapeCasts_S1x150000_S150000) (broadcastInDim S150000 ![] bcast_S_S150000 ((constantI S_ 32 0#32)))) (addi (shapeCast _ (extractStridedSlice S1x150000 ![0, 0] (W0 m ρ c (Proc.devRef .tc main_arg7)) slices_S2x150000_S1x150000_0_0) shapeCasts_S1x150000_S150000) (broadcastInDim S150000 ![] bcast_S_S150000 ((constantI S_ 32 50000#32)))) (shapeCast _ (extractStridedSlice S1x150000 ![0, 0] (W0 m ρ c (Proc.devRef .tc main_arg7)) slices_S2x150000_S1x150000_0_0) shapeCasts_S1x150000_S150000)))))
    ∧ StableHlo.after hostOps0 (W0 m ρ c) (Proc.devRef .tc main_v56) = (broadcastInDim S100000x1 ![0] bcast_S100000_S100000x1_0 (Host.divf (broadcastInDim S100000 ![] bcast_S_S100000 ((constant (F := F) S_ .f32 0x3F800000#32))) (maximumf (Host.scatterAdd scatter_S100000_S500000x1_S500000_n_0_0_1 (broadcastInDim S100000 ![] bcast_S_S100000 ((constant (F := F) S_ .f32 0x00000000#32))) (broadcastInDim S500000x1 ![0] bcast_S500000_S500000x1_0 (shapeCast _ (extractStridedSlice S1x500000 ![1, 0] (W0 m ρ c (Proc.devRef .tc main_arg4)) slices_S2x500000_S1x500000_1_0) shapeCasts_S1x500000_S500000)) (broadcastInDim S500000 ![] bcast_S_S500000 ((constant (F := F) S_ .f32 0x3F800000#32)))) (broadcastInDim S100000 ![] bcast_S_S100000 ((constant (F := F) S_ .f32 0x3F800000#32))))))
    ∧ StableHlo.after hostOps0 (W0 m ρ c) (Proc.devRef .tc main_v74) = (broadcastInDim S100000x1 ![0] bcast_S100000_S100000x1_0 (Host.divf (broadcastInDim S100000 ![] bcast_S_S100000 ((constant (F := F) S_ .f32 0x3F800000#32))) (maximumf (Host.scatterAdd scatter_S100000_S300000x1_S300000_n_0_0_1 (broadcastInDim S100000 ![] bcast_S_S100000 ((constant (F := F) S_ .f32 0x00000000#32))) (broadcastInDim S300000x1 ![0] bcast_S300000_S300000x1_0 (shapeCast _ (extractStridedSlice S1x300000 ![1, 0] (W0 m ρ c (Proc.devRef .tc main_arg6)) slices_S2x300000_S1x300000_1_0) shapeCasts_S1x300000_S300000)) (broadcastInDim S300000 ![] bcast_S_S300000 ((constant (F := F) S_ .f32 0x3F800000#32)))) (broadcastInDim S100000 ![] bcast_S_S100000 ((constant (F := F) S_ .f32 0x3F800000#32))))))
    ∧ StableHlo.after hostOps0 (W0 m ρ c) (Proc.devRef .tc main_v47) = (broadcastInDim S50000x1 ![0] bcast_S50000_S50000x1_0 (Host.divf (broadcastInDim S50000 ![] bcast_S_S50000 ((constant (F := F) S_ .f32 0x3F800000#32))) (maximumf (Host.scatterAdd scatter_S50000_S500000x1_S500000_n_0_0_1 (broadcastInDim S50000 ![] bcast_S_S50000 ((constant (F := F) S_ .f32 0x00000000#32))) (broadcastInDim S500000x1 ![0] bcast_S500000_S500000x1_0 (shapeCast _ (extractStridedSlice S1x500000 ![1, 0] (W0 m ρ c (Proc.devRef .tc main_arg3)) slices_S2x500000_S1x500000_1_0) shapeCasts_S1x500000_S500000)) (broadcastInDim S500000 ![] bcast_S_S500000 ((constant (F := F) S_ .f32 0x3F800000#32)))) (broadcastInDim S50000 ![] bcast_S_S50000 ((constant (F := F) S_ .f32 0x3F800000#32))))))
    ∧ StableHlo.after hostOps0 (W0 m ρ c) (Proc.devRef .tc main_v92) = (broadcastInDim S50000x1 ![0] bcast_S50000_S50000x1_0 (Host.divf (broadcastInDim S50000 ![] bcast_S_S50000 ((constant (F := F) S_ .f32 0x3F800000#32))) (maximumf (Host.scatterAdd scatter_S50000_S150000x1_S150000_n_0_0_1 (broadcastInDim S50000 ![] bcast_S_S50000 ((constant (F := F) S_ .f32 0x00000000#32))) (broadcastInDim S150000x1 ![0] bcast_S150000_S150000x1_0 (shapeCast _ (extractStridedSlice S1x150000 ![1, 0] (W0 m ρ c (Proc.devRef .tc main_arg8)) slices_S2x150000_S1x150000_1_0) shapeCasts_S1x150000_S150000)) (broadcastInDim S150000 ![] bcast_S_S150000 ((constant (F := F) S_ .f32 0x3F800000#32)))) (broadcastInDim S50000 ![] bcast_S_S50000 ((constant (F := F) S_ .f32 0x3F800000#32))))))
    ∧ StableHlo.after hostOps0 (W0 m ρ c) (Proc.devRef .tc main_v65) = (broadcastInDim S5000x1 ![0] bcast_S5000_S5000x1_0 (Host.divf (broadcastInDim S5000 ![] bcast_S_S5000 ((constant (F := F) S_ .f32 0x3F800000#32))) (maximumf (Host.scatterAdd scatter_S5000_S300000x1_S300000_n_0_0_1 (broadcastInDim S5000 ![] bcast_S_S5000 ((constant (F := F) S_ .f32 0x00000000#32))) (broadcastInDim S300000x1 ![0] bcast_S300000_S300000x1_0 (shapeCast _ (extractStridedSlice S1x300000 ![1, 0] (W0 m ρ c (Proc.devRef .tc main_arg5)) slices_S2x300000_S1x300000_1_0) shapeCasts_S1x300000_S300000)) (broadcastInDim S300000 ![] bcast_S_S300000 ((constant (F := F) S_ .f32 0x3F800000#32)))) (broadcastInDim S5000 ![] bcast_S_S5000 ((constant (F := F) S_ .f32 0x3F800000#32))))))
    ∧ StableHlo.after hostOps0 (W0 m ρ c) (Proc.devRef .tc main_v83) = (broadcastInDim S5000x1 ![0] bcast_S5000_S5000x1_0 (Host.divf (broadcastInDim S5000 ![] bcast_S_S5000 ((constant (F := F) S_ .f32 0x3F800000#32))) (maximumf (Host.scatterAdd scatter_S5000_S150000x1_S150000_n_0_0_1 (broadcastInDim S5000 ![] bcast_S_S5000 ((constant (F := F) S_ .f32 0x00000000#32))) (broadcastInDim S150000x1 ![0] bcast_S150000_S150000x1_0 (shapeCast _ (extractStridedSlice S1x150000 ![1, 0] (W0 m ρ c (Proc.devRef .tc main_arg7)) slices_S2x150000_S1x150000_1_0) shapeCasts_S1x150000_S150000)) (broadcastInDim S150000 ![] bcast_S_S150000 ((constant (F := F) S_ .f32 0x3F800000#32)))) (broadcastInDim S5000 ![] bcast_S_S5000 ((constant (F := F) S_ .f32 0x3F800000#32))))))
    ∧ StableHlo.after hostOps0 (W0 m ρ c) (Proc.devRef .tc main_v100) = (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32)
    ∧ StableHlo.after hostOps0 (W0 m ρ c) (Proc.devRef .tc main_v102) = (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32)
    ∧ StableHlo.after hostOps0 (W0 m ρ c) (Proc.devRef .tc main_v96) = (shapeCast _ (extractStridedSlice S1x6x128 ![0, 0, 0] (W0 m ρ c (Proc.devRef .tc main_arg16)) slices_S2x6x128_S1x6x128_0_0_0) shapeCasts_S1x6x128_S6x128)
    ∧ StableHlo.after hostOps0 (W0 m ρ c) (Proc.devRef .tc main_v164) = (shapeCast _ (extractStridedSlice S1x128x128 ![1, 0, 0] (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) slices_S6x128x128_S1x128x128_1_0_0) shapeCasts_S1x128x128_S128x128)
    ∧ StableHlo.after hostOps0 (W0 m ρ c) (Proc.devRef .tc main_v166) = (shapeCast _ (extractStridedSlice S1x128x128 ![3, 0, 0] (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) slices_S6x128x128_S1x128x128_3_0_0) shapeCasts_S1x128x128_S128x128)
    ∧ StableHlo.after hostOps0 (W0 m ρ c) (Proc.devRef .tc main_v168) = (shapeCast _ (extractStridedSlice S1x128x128 ![1, 0, 0] (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) slices_S6x128x128_S1x128x128_1_0_0) shapeCasts_S1x128x128_S128x128)
    ∧ StableHlo.after hostOps0 (W0 m ρ c) (Proc.devRef .tc main_v170) = (shapeCast _ (extractStridedSlice S1x128x128 ![3, 0, 0] (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) slices_S6x128x128_S1x128x128_3_0_0) shapeCasts_S1x128x128_S128x128)
    ∧ StableHlo.after hostOps0 (W0 m ρ c) (Proc.devRef .tc main_v172) = (shapeCast _ (extractStridedSlice S1x128 ![1, 0] (shapeCast _ (extractStridedSlice S1x6x128 ![0, 0, 0] (W0 m ρ c (Proc.devRef .tc main_arg16)) slices_S2x6x128_S1x6x128_0_0_0) shapeCasts_S1x6x128_S6x128) slices_S6x128_S1x128_1_0) shapeCasts_S1x128_S128)
    ∧ StableHlo.after hostOps0 (W0 m ρ c) (Proc.devRef .tc main_v174) = (shapeCast _ (extractStridedSlice S1x128 ![3, 0] (shapeCast _ (extractStridedSlice S1x6x128 ![0, 0, 0] (W0 m ρ c (Proc.devRef .tc main_arg16)) slices_S2x6x128_S1x6x128_0_0_0) shapeCasts_S1x6x128_S6x128) slices_S6x128_S1x128_3_0) shapeCasts_S1x128_S128)
    ∧ StableHlo.after hostOps0 (W0 m ρ c) (Proc.devRef .tc main_v176) = (shapeCast _ (extractStridedSlice S1x1x128 ![0, 0, 0] (W0 m ρ c (Proc.devRef .tc main_arg18)) slices_S2x3x128_S1x1x128_0_0_0) shapeCasts_S1x1x128_S128)
    ∧ StableHlo.after hostOps0 (W0 m ρ c) (Proc.devRef .tc main_v178) = (shapeCast _ (extractStridedSlice S1x1x128 ![0, 0, 0] (W0 m ρ c (Proc.devRef .tc main_arg19)) slices_S2x3x128_S1x1x128_0_0_0) shapeCasts_S1x1x128_S128)
    ∧ StableHlo.after hostOps0 (W0 m ρ c) (Proc.devRef .tc main_v16) = (shapeCast _ (extractStridedSlice S1x500000 ![0, 0] (W0 m ρ c (Proc.devRef .tc main_arg3)) slices_S2x500000_S1x500000_0_0) shapeCasts_S1x500000_S500000)
    ∧ StableHlo.after hostOps0 (W0 m ρ c) (Proc.devRef .tc main_v18) = (shapeCast _ (extractStridedSlice S1x500000 ![1, 0] (W0 m ρ c (Proc.devRef .tc main_arg3)) slices_S2x500000_S1x500000_1_0) shapeCasts_S1x500000_S500000)
    ∧ StableHlo.after hostOps0 (W0 m ρ c) (Proc.devRef .tc main_v20) = (shapeCast _ (extractStridedSlice S1x500000 ![0, 0] (W0 m ρ c (Proc.devRef .tc main_arg4)) slices_S2x500000_S1x500000_0_0) shapeCasts_S1x500000_S500000)
    ∧ StableHlo.after hostOps0 (W0 m ρ c) (Proc.devRef .tc main_v22) = (shapeCast _ (extractStridedSlice S1x500000 ![1, 0] (W0 m ρ c (Proc.devRef .tc main_arg4)) slices_S2x500000_S1x500000_1_0) shapeCasts_S1x500000_S500000)
    ∧ StableHlo.after hostOps0 (W0 m ρ c) (Proc.devRef .tc main_v24) = (shapeCast _ (extractStridedSlice S1x300000 ![0, 0] (W0 m ρ c (Proc.devRef .tc main_arg5)) slices_S2x300000_S1x300000_0_0) shapeCasts_S1x300000_S300000)
    ∧ StableHlo.after hostOps0 (W0 m ρ c) (Proc.devRef .tc main_v26) = (shapeCast _ (extractStridedSlice S1x300000 ![1, 0] (W0 m ρ c (Proc.devRef .tc main_arg5)) slices_S2x300000_S1x300000_1_0) shapeCasts_S1x300000_S300000)
    ∧ StableHlo.after hostOps0 (W0 m ρ c) (Proc.devRef .tc main_v28) = (shapeCast _ (extractStridedSlice S1x300000 ![0, 0] (W0 m ρ c (Proc.devRef .tc main_arg6)) slices_S2x300000_S1x300000_0_0) shapeCasts_S1x300000_S300000)
    ∧ StableHlo.after hostOps0 (W0 m ρ c) (Proc.devRef .tc main_v30) = (shapeCast _ (extractStridedSlice S1x300000 ![1, 0] (W0 m ρ c (Proc.devRef .tc main_arg6)) slices_S2x300000_S1x300000_1_0) shapeCasts_S1x300000_S300000)
    ∧ StableHlo.after hostOps0 (W0 m ρ c) (Proc.devRef .tc main_v32) = (shapeCast _ (extractStridedSlice S1x150000 ![0, 0] (W0 m ρ c (Proc.devRef .tc main_arg7)) slices_S2x150000_S1x150000_0_0) shapeCasts_S1x150000_S150000)
    ∧ StableHlo.after hostOps0 (W0 m ρ c) (Proc.devRef .tc main_v34) = (shapeCast _ (extractStridedSlice S1x150000 ![1, 0] (W0 m ρ c (Proc.devRef .tc main_arg7)) slices_S2x150000_S1x150000_1_0) shapeCasts_S1x150000_S150000)
    ∧ StableHlo.after hostOps0 (W0 m ρ c) (Proc.devRef .tc main_v36) = (shapeCast _ (extractStridedSlice S1x150000 ![0, 0] (W0 m ρ c (Proc.devRef .tc main_arg8)) slices_S2x150000_S1x150000_0_0) shapeCasts_S1x150000_S150000)
    ∧ StableHlo.after hostOps0 (W0 m ρ c) (Proc.devRef .tc main_v38) = (shapeCast _ (extractStridedSlice S1x150000 ![1, 0] (W0 m ρ c (Proc.devRef .tc main_arg8)) slices_S2x150000_S1x150000_1_0) shapeCasts_S1x150000_S150000)
  after_results_simp
  all_goals (first | done | (repeat' constructor) <;> rfl)

theorem born_v4 (c : Dev nD) : W1 m ρ c (Proc.devRef .tc main_v4) = (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) :=
  (born0 m ρ c).1

theorem born_v9 (c : Dev nD) : W1 m ρ c (Proc.devRef .tc main_v9) = (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) :=
  (born0 m ρ c).2.1

theorem born_v14 (c : Dev nD) : W1 m ρ c (Proc.devRef .tc main_v14) = (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) :=
  (born0 m ρ c).2.2.1

theorem born_v122 (c : Dev nD) : W1 m ρ c (Proc.devRef .tc main_v122) = (Host.scatterAdd scatter_S100000x128_S500000x1_S500000x128_1_0_0_1 (broadcastInDim S100000x128 ![] bcast_S_S100000x128 ((constant (F := F) S_ .f32 0x00000000#32))) (broadcastInDim S500000x1 ![0] bcast_S500000_S500000x1_0 (shapeCast _ (extractStridedSlice S1x500000 ![1, 0] (W0 m ρ c (Proc.devRef .tc main_arg4)) slices_S2x500000_S1x500000_1_0) shapeCasts_S1x500000_S500000)) (Host.gather gather_S50000x128_S500000x1_S500000x128_1_0_n_n_0_1_1128 (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) (broadcastInDim S500000x1 ![0] bcast_S500000_S500000x1_0 (select (cmpi .slt (shapeCast _ (extractStridedSlice S1x500000 ![0, 0] (W0 m ρ c (Proc.devRef .tc main_arg4)) slices_S2x500000_S1x500000_0_0) shapeCasts_S1x500000_S500000) (broadcastInDim S500000 ![] bcast_S_S500000 ((constantI S_ 32 0#32)))) (addi (shapeCast _ (extractStridedSlice S1x500000 ![0, 0] (W0 m ρ c (Proc.devRef .tc main_arg4)) slices_S2x500000_S1x500000_0_0) shapeCasts_S1x500000_S500000) (broadcastInDim S500000 ![] bcast_S_S500000 ((constantI S_ 32 50000#32)))) (shapeCast _ (extractStridedSlice S1x500000 ![0, 0] (W0 m ρ c (Proc.devRef .tc main_arg4)) slices_S2x500000_S1x500000_0_0) shapeCasts_S1x500000_S500000))))) :=
  (born0 m ρ c).2.2.2.1

theorem born_v142 (c : Dev nD) : W1 m ρ c (Proc.devRef .tc main_v142) = (Host.scatterAdd scatter_S100000x128_S300000x1_S300000x128_1_0_0_1 (broadcastInDim S100000x128 ![] bcast_S_S100000x128 ((constant (F := F) S_ .f32 0x00000000#32))) (broadcastInDim S300000x1 ![0] bcast_S300000_S300000x1_0 (shapeCast _ (extractStridedSlice S1x300000 ![1, 0] (W0 m ρ c (Proc.devRef .tc main_arg6)) slices_S2x300000_S1x300000_1_0) shapeCasts_S1x300000_S300000)) (Host.gather gather_S5000x128_S300000x1_S300000x128_1_0_n_n_0_1_1128 (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) (broadcastInDim S300000x1 ![0] bcast_S300000_S300000x1_0 (select (cmpi .slt (shapeCast _ (extractStridedSlice S1x300000 ![0, 0] (W0 m ρ c (Proc.devRef .tc main_arg6)) slices_S2x300000_S1x300000_0_0) shapeCasts_S1x300000_S300000) (broadcastInDim S300000 ![] bcast_S_S300000 ((constantI S_ 32 0#32)))) (addi (shapeCast _ (extractStridedSlice S1x300000 ![0, 0] (W0 m ρ c (Proc.devRef .tc main_arg6)) slices_S2x300000_S1x300000_0_0) shapeCasts_S1x300000_S300000) (broadcastInDim S300000 ![] bcast_S_S300000 ((constantI S_ 32 5000#32)))) (shapeCast _ (extractStridedSlice S1x300000 ![0, 0] (W0 m ρ c (Proc.devRef .tc main_arg6)) slices_S2x300000_S1x300000_0_0) shapeCasts_S1x300000_S300000))))) :=
  (born0 m ρ c).2.2.2.2.1

theorem born_v112 (c : Dev nD) : W1 m ρ c (Proc.devRef .tc main_v112) = (Host.scatterAdd scatter_S50000x128_S500000x1_S500000x128_1_0_0_1 (broadcastInDim S50000x128 ![] bcast_S_S50000x128 ((constant (F := F) S_ .f32 0x00000000#32))) (broadcastInDim S500000x1 ![0] bcast_S500000_S500000x1_0 (shapeCast _ (extractStridedSlice S1x500000 ![1, 0] (W0 m ρ c (Proc.devRef .tc main_arg3)) slices_S2x500000_S1x500000_1_0) shapeCasts_S1x500000_S500000)) (Host.gather gather_S100000x128_S500000x1_S500000x128_1_0_n_n_0_1_1128 (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) (broadcastInDim S500000x1 ![0] bcast_S500000_S500000x1_0 (select (cmpi .slt (shapeCast _ (extractStridedSlice S1x500000 ![0, 0] (W0 m ρ c (Proc.devRef .tc main_arg3)) slices_S2x500000_S1x500000_0_0) shapeCasts_S1x500000_S500000) (broadcastInDim S500000 ![] bcast_S_S500000 ((constantI S_ 32 0#32)))) (addi (shapeCast _ (extractStridedSlice S1x500000 ![0, 0] (W0 m ρ c (Proc.devRef .tc main_arg3)) slices_S2x500000_S1x500000_0_0) shapeCasts_S1x500000_S500000) (broadcastInDim S500000 ![] bcast_S_S500000 ((constantI S_ 32 100000#32)))) (shapeCast _ (extractStridedSlice S1x500000 ![0, 0] (W0 m ρ c (Proc.devRef .tc main_arg3)) slices_S2x500000_S1x500000_0_0) shapeCasts_S1x500000_S500000))))) :=
  (born0 m ρ c).2.2.2.2.2.1

theorem born_v162 (c : Dev nD) : W1 m ρ c (Proc.devRef .tc main_v162) = (Host.scatterAdd scatter_S50000x128_S150000x1_S150000x128_1_0_0_1 (broadcastInDim S50000x128 ![] bcast_S_S50000x128 ((constant (F := F) S_ .f32 0x00000000#32))) (broadcastInDim S150000x1 ![0] bcast_S150000_S150000x1_0 (shapeCast _ (extractStridedSlice S1x150000 ![1, 0] (W0 m ρ c (Proc.devRef .tc main_arg8)) slices_S2x150000_S1x150000_1_0) shapeCasts_S1x150000_S150000)) (Host.gather gather_S5000x128_S150000x1_S150000x128_1_0_n_n_0_1_1128 (addf (Host.dotGeneral dot_S5000x3_S3x128_S5000x128_1_0_0_1_n_n none (W0 m ρ c (Proc.devRef .tc main_arg2)) (transpose S3x128 [1, 0] (W0 m ρ c (Proc.devRef .tc main_arg13)) transposes_S128x3_S3x128_1_0)) (broadcastInDim S5000x128 ![0, 1] bcast_S1x128_S5000x128_0_1 (broadcastInDim S1x128 ![1] bcast_S128_S1x128_1 (W0 m ρ c (Proc.devRef .tc main_arg14))))) (broadcastInDim S150000x1 ![0] bcast_S150000_S150000x1_0 (select (cmpi .slt (shapeCast _ (extractStridedSlice S1x150000 ![0, 0] (W0 m ρ c (Proc.devRef .tc main_arg8)) slices_S2x150000_S1x150000_0_0) shapeCasts_S1x150000_S150000) (broadcastInDim S150000 ![] bcast_S_S150000 ((constantI S_ 32 0#32)))) (addi (shapeCast _ (extractStridedSlice S1x150000 ![0, 0] (W0 m ρ c (Proc.devRef .tc main_arg8)) slices_S2x150000_S1x150000_0_0) shapeCasts_S1x150000_S150000) (broadcastInDim S150000 ![] bcast_S_S150000 ((constantI S_ 32 5000#32)))) (shapeCast _ (extractStridedSlice S1x150000 ![0, 0] (W0 m ρ c (Proc.devRef .tc main_arg8)) slices_S2x150000_S1x150000_0_0) shapeCasts_S1x150000_S150000))))) :=
  (born0 m ρ c).2.2.2.2.2.2.1

theorem born_v132 (c : Dev nD) : W1 m ρ c (Proc.devRef .tc main_v132) = (Host.scatterAdd scatter_S5000x128_S300000x1_S300000x128_1_0_0_1 (broadcastInDim S5000x128 ![] bcast_S_S5000x128 ((constant (F := F) S_ .f32 0x00000000#32))) (broadcastInDim S300000x1 ![0] bcast_S300000_S300000x1_0 (shapeCast _ (extractStridedSlice S1x300000 ![1, 0] (W0 m ρ c (Proc.devRef .tc main_arg5)) slices_S2x300000_S1x300000_1_0) shapeCasts_S1x300000_S300000)) (Host.gather gather_S100000x128_S300000x1_S300000x128_1_0_n_n_0_1_1128 (addf (Host.dotGeneral dot_S100000x6_S6x128_S100000x128_1_0_0_1_n_n none (W0 m ρ c (Proc.devRef .tc main_arg0)) (transpose S6x128 [1, 0] (W0 m ρ c (Proc.devRef .tc main_arg9)) transposes_S128x6_S6x128_1_0)) (broadcastInDim S100000x128 ![0, 1] bcast_S1x128_S100000x128_0_1 (broadcastInDim S1x128 ![1] bcast_S128_S1x128_1 (W0 m ρ c (Proc.devRef .tc main_arg10))))) (broadcastInDim S300000x1 ![0] bcast_S300000_S300000x1_0 (select (cmpi .slt (shapeCast _ (extractStridedSlice S1x300000 ![0, 0] (W0 m ρ c (Proc.devRef .tc main_arg5)) slices_S2x300000_S1x300000_0_0) shapeCasts_S1x300000_S300000) (broadcastInDim S300000 ![] bcast_S_S300000 ((constantI S_ 32 0#32)))) (addi (shapeCast _ (extractStridedSlice S1x300000 ![0, 0] (W0 m ρ c (Proc.devRef .tc main_arg5)) slices_S2x300000_S1x300000_0_0) shapeCasts_S1x300000_S300000) (broadcastInDim S300000 ![] bcast_S_S300000 ((constantI S_ 32 100000#32)))) (shapeCast _ (extractStridedSlice S1x300000 ![0, 0] (W0 m ρ c (Proc.devRef .tc main_arg5)) slices_S2x300000_S1x300000_0_0) shapeCasts_S1x300000_S300000))))) :=
  (born0 m ρ c).2.2.2.2.2.2.2.1

theorem born_v152 (c : Dev nD) : W1 m ρ c (Proc.devRef .tc main_v152) = (Host.scatterAdd scatter_S5000x128_S150000x1_S150000x128_1_0_0_1 (broadcastInDim S5000x128 ![] bcast_S_S5000x128 ((constant (F := F) S_ .f32 0x00000000#32))) (broadcastInDim S150000x1 ![0] bcast_S150000_S150000x1_0 (shapeCast _ (extractStridedSlice S1x150000 ![1, 0] (W0 m ρ c (Proc.devRef .tc main_arg7)) slices_S2x150000_S1x150000_1_0) shapeCasts_S1x150000_S150000)) (Host.gather gather_S50000x128_S150000x1_S150000x128_1_0_n_n_0_1_1128 (addf (Host.dotGeneral dot_S50000x4_S4x128_S50000x128_1_0_0_1_n_n none (W0 m ρ c (Proc.devRef .tc main_arg1)) (transpose S4x128 [1, 0] (W0 m ρ c (Proc.devRef .tc main_arg11)) transposes_S128x4_S4x128_1_0)) (broadcastInDim S50000x128 ![0, 1] bcast_S1x128_S50000x128_0_1 (broadcastInDim S1x128 ![1] bcast_S128_S1x128_1 (W0 m ρ c (Proc.devRef .tc main_arg12))))) (broadcastInDim S150000x1 ![0] bcast_S150000_S150000x1_0 (select (cmpi .slt (shapeCast _ (extractStridedSlice S1x150000 ![0, 0] (W0 m ρ c (Proc.devRef .tc main_arg7)) slices_S2x150000_S1x150000_0_0) shapeCasts_S1x150000_S150000) (broadcastInDim S150000 ![] bcast_S_S150000 ((constantI S_ 32 0#32)))) (addi (shapeCast _ (extractStridedSlice S1x150000 ![0, 0] (W0 m ρ c (Proc.devRef .tc main_arg7)) slices_S2x150000_S1x150000_0_0) shapeCasts_S1x150000_S150000) (broadcastInDim S150000 ![] bcast_S_S150000 ((constantI S_ 32 50000#32)))) (shapeCast _ (extractStridedSlice S1x150000 ![0, 0] (W0 m ρ c (Proc.devRef .tc main_arg7)) slices_S2x150000_S1x150000_0_0) shapeCasts_S1x150000_S150000))))) :=
  (born0 m ρ c).2.2.2.2.2.2.2.2.1

theorem born_v56 (c : Dev nD) : W1 m ρ c (Proc.devRef .tc main_v56) = (broadcastInDim S100000x1 ![0] bcast_S100000_S100000x1_0 (Host.divf (broadcastInDim S100000 ![] bcast_S_S100000 ((constant (F := F) S_ .f32 0x3F800000#32))) (maximumf (Host.scatterAdd scatter_S100000_S500000x1_S500000_n_0_0_1 (broadcastInDim S100000 ![] bcast_S_S100000 ((constant (F := F) S_ .f32 0x00000000#32))) (broadcastInDim S500000x1 ![0] bcast_S500000_S500000x1_0 (shapeCast _ (extractStridedSlice S1x500000 ![1, 0] (W0 m ρ c (Proc.devRef .tc main_arg4)) slices_S2x500000_S1x500000_1_0) shapeCasts_S1x500000_S500000)) (broadcastInDim S500000 ![] bcast_S_S500000 ((constant (F := F) S_ .f32 0x3F800000#32)))) (broadcastInDim S100000 ![] bcast_S_S100000 ((constant (F := F) S_ .f32 0x3F800000#32)))))) :=
  (born0 m ρ c).2.2.2.2.2.2.2.2.2.1

theorem born_v74 (c : Dev nD) : W1 m ρ c (Proc.devRef .tc main_v74) = (broadcastInDim S100000x1 ![0] bcast_S100000_S100000x1_0 (Host.divf (broadcastInDim S100000 ![] bcast_S_S100000 ((constant (F := F) S_ .f32 0x3F800000#32))) (maximumf (Host.scatterAdd scatter_S100000_S300000x1_S300000_n_0_0_1 (broadcastInDim S100000 ![] bcast_S_S100000 ((constant (F := F) S_ .f32 0x00000000#32))) (broadcastInDim S300000x1 ![0] bcast_S300000_S300000x1_0 (shapeCast _ (extractStridedSlice S1x300000 ![1, 0] (W0 m ρ c (Proc.devRef .tc main_arg6)) slices_S2x300000_S1x300000_1_0) shapeCasts_S1x300000_S300000)) (broadcastInDim S300000 ![] bcast_S_S300000 ((constant (F := F) S_ .f32 0x3F800000#32)))) (broadcastInDim S100000 ![] bcast_S_S100000 ((constant (F := F) S_ .f32 0x3F800000#32)))))) :=
  (born0 m ρ c).2.2.2.2.2.2.2.2.2.2.1

theorem born_v47 (c : Dev nD) : W1 m ρ c (Proc.devRef .tc main_v47) = (broadcastInDim S50000x1 ![0] bcast_S50000_S50000x1_0 (Host.divf (broadcastInDim S50000 ![] bcast_S_S50000 ((constant (F := F) S_ .f32 0x3F800000#32))) (maximumf (Host.scatterAdd scatter_S50000_S500000x1_S500000_n_0_0_1 (broadcastInDim S50000 ![] bcast_S_S50000 ((constant (F := F) S_ .f32 0x00000000#32))) (broadcastInDim S500000x1 ![0] bcast_S500000_S500000x1_0 (shapeCast _ (extractStridedSlice S1x500000 ![1, 0] (W0 m ρ c (Proc.devRef .tc main_arg3)) slices_S2x500000_S1x500000_1_0) shapeCasts_S1x500000_S500000)) (broadcastInDim S500000 ![] bcast_S_S500000 ((constant (F := F) S_ .f32 0x3F800000#32)))) (broadcastInDim S50000 ![] bcast_S_S50000 ((constant (F := F) S_ .f32 0x3F800000#32)))))) :=
  (born0 m ρ c).2.2.2.2.2.2.2.2.2.2.2.1

theorem born_v92 (c : Dev nD) : W1 m ρ c (Proc.devRef .tc main_v92) = (broadcastInDim S50000x1 ![0] bcast_S50000_S50000x1_0 (Host.divf (broadcastInDim S50000 ![] bcast_S_S50000 ((constant (F := F) S_ .f32 0x3F800000#32))) (maximumf (Host.scatterAdd scatter_S50000_S150000x1_S150000_n_0_0_1 (broadcastInDim S50000 ![] bcast_S_S50000 ((constant (F := F) S_ .f32 0x00000000#32))) (broadcastInDim S150000x1 ![0] bcast_S150000_S150000x1_0 (shapeCast _ (extractStridedSlice S1x150000 ![1, 0] (W0 m ρ c (Proc.devRef .tc main_arg8)) slices_S2x150000_S1x150000_1_0) shapeCasts_S1x150000_S150000)) (broadcastInDim S150000 ![] bcast_S_S150000 ((constant (F := F) S_ .f32 0x3F800000#32)))) (broadcastInDim S50000 ![] bcast_S_S50000 ((constant (F := F) S_ .f32 0x3F800000#32)))))) :=
  (born0 m ρ c).2.2.2.2.2.2.2.2.2.2.2.2.1

theorem born_v65 (c : Dev nD) : W1 m ρ c (Proc.devRef .tc main_v65) = (broadcastInDim S5000x1 ![0] bcast_S5000_S5000x1_0 (Host.divf (broadcastInDim S5000 ![] bcast_S_S5000 ((constant (F := F) S_ .f32 0x3F800000#32))) (maximumf (Host.scatterAdd scatter_S5000_S300000x1_S300000_n_0_0_1 (broadcastInDim S5000 ![] bcast_S_S5000 ((constant (F := F) S_ .f32 0x00000000#32))) (broadcastInDim S300000x1 ![0] bcast_S300000_S300000x1_0 (shapeCast _ (extractStridedSlice S1x300000 ![1, 0] (W0 m ρ c (Proc.devRef .tc main_arg5)) slices_S2x300000_S1x300000_1_0) shapeCasts_S1x300000_S300000)) (broadcastInDim S300000 ![] bcast_S_S300000 ((constant (F := F) S_ .f32 0x3F800000#32)))) (broadcastInDim S5000 ![] bcast_S_S5000 ((constant (F := F) S_ .f32 0x3F800000#32)))))) :=
  (born0 m ρ c).2.2.2.2.2.2.2.2.2.2.2.2.2.1

theorem born_v83 (c : Dev nD) : W1 m ρ c (Proc.devRef .tc main_v83) = (broadcastInDim S5000x1 ![0] bcast_S5000_S5000x1_0 (Host.divf (broadcastInDim S5000 ![] bcast_S_S5000 ((constant (F := F) S_ .f32 0x3F800000#32))) (maximumf (Host.scatterAdd scatter_S5000_S150000x1_S150000_n_0_0_1 (broadcastInDim S5000 ![] bcast_S_S5000 ((constant (F := F) S_ .f32 0x00000000#32))) (broadcastInDim S150000x1 ![0] bcast_S150000_S150000x1_0 (shapeCast _ (extractStridedSlice S1x150000 ![1, 0] (W0 m ρ c (Proc.devRef .tc main_arg7)) slices_S2x150000_S1x150000_1_0) shapeCasts_S1x150000_S150000)) (broadcastInDim S150000 ![] bcast_S_S150000 ((constant (F := F) S_ .f32 0x3F800000#32)))) (broadcastInDim S5000 ![] bcast_S_S5000 ((constant (F := F) S_ .f32 0x3F800000#32)))))) :=
  (born0 m ρ c).2.2.2.2.2.2.2.2.2.2.2.2.2.2.1

theorem born_v100 (c : Dev nD) : W1 m ρ c (Proc.devRef .tc main_v100) = (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) :=
  (born0 m ρ c).2.2.2.2.2.2.2.2.2.2.2.2.2.2.2.1

theorem born_v102 (c : Dev nD) : W1 m ρ c (Proc.devRef .tc main_v102) = (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) :=
  (born0 m ρ c).2.2.2.2.2.2.2.2.2.2.2.2.2.2.2.2.1

theorem born_v96 (c : Dev nD) : W1 m ρ c (Proc.devRef .tc main_v96) = (shapeCast _ (extractStridedSlice S1x6x128 ![0, 0, 0] (W0 m ρ c (Proc.devRef .tc main_arg16)) slices_S2x6x128_S1x6x128_0_0_0) shapeCasts_S1x6x128_S6x128) :=
  (born0 m ρ c).2.2.2.2.2.2.2.2.2.2.2.2.2.2.2.2.2.1

theorem born_v164 (c : Dev nD) : W1 m ρ c (Proc.devRef .tc main_v164) = (shapeCast _ (extractStridedSlice S1x128x128 ![1, 0, 0] (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) slices_S6x128x128_S1x128x128_1_0_0) shapeCasts_S1x128x128_S128x128) :=
  (born0 m ρ c).2.2.2.2.2.2.2.2.2.2.2.2.2.2.2.2.2.2.1

theorem born_v166 (c : Dev nD) : W1 m ρ c (Proc.devRef .tc main_v166) = (shapeCast _ (extractStridedSlice S1x128x128 ![3, 0, 0] (truncf .bf16 (transpose S6x128x128 [0, 2, 1] (shapeCast _ (extractStridedSlice S1x6x128x128 ![0, 0, 0, 0] (W0 m ρ c (Proc.devRef .tc main_arg15)) slices_S2x6x128x128_S1x6x128x128_0_0_0_0) shapeCasts_S1x6x128x128_S6x128x128) transposes_S6x128x128_S6x128x128_0_2_1) bitsLt_bf16_f32) slices_S6x128x128_S1x128x128_3_0_0) shapeCasts_S1x128x128_S128x128) :=
  (born0 m ρ c).2.2.2.2.2.2.2.2.2.2.2.2.2.2.2.2.2.2.2.1

theorem born_v168 (c : Dev nD) : W1 m ρ c (Proc.devRef .tc main_v168) = (shapeCast _ (extractStridedSlice S1x128x128 ![1, 0, 0] (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) slices_S6x128x128_S1x128x128_1_0_0) shapeCasts_S1x128x128_S128x128) :=
  (born0 m ρ c).2.2.2.2.2.2.2.2.2.2.2.2.2.2.2.2.2.2.2.2.1

theorem born_v170 (c : Dev nD) : W1 m ρ c (Proc.devRef .tc main_v170) = (shapeCast _ (extractStridedSlice S1x128x128 ![3, 0, 0] (truncf .bf16 (transpose S6x128x128 [0, 2, 1] (shapeCast _ (extractStridedSlice S1x6x128x128 ![0, 0, 0, 0] (W0 m ρ c (Proc.devRef .tc main_arg17)) slices_S2x6x128x128_S1x6x128x128_0_0_0_0) shapeCasts_S1x6x128x128_S6x128x128) transposes_S6x128x128_S6x128x128_0_2_1) bitsLt_bf16_f32) slices_S6x128x128_S1x128x128_3_0_0) shapeCasts_S1x128x128_S128x128) :=
  (born0 m ρ c).2.2.2.2.2.2.2.2.2.2.2.2.2.2.2.2.2.2.2.2.2.1

theorem born_v172 (c : Dev nD) : W1 m ρ c (Proc.devRef .tc main_v172) = (shapeCast _ (extractStridedSlice S1x128 ![1, 0] (shapeCast _ (extractStridedSlice S1x6x128 ![0, 0, 0] (W0 m ρ c (Proc.devRef .tc main_arg16)) slices_S2x6x128_S1x6x128_0_0_0) shapeCasts_S1x6x128_S6x128) slices_S6x128_S1x128_1_0) shapeCasts_S1x128_S128) :=
  (born0 m ρ c).2.2.2.2.2.2.2.2.2.2.2.2.2.2.2.2.2.2.2.2.2.2.1

theorem born_v174 (c : Dev nD) : W1 m ρ c (Proc.devRef .tc main_v174) = (shapeCast _ (extractStridedSlice S1x128 ![3, 0] (shapeCast _ (extractStridedSlice S1x6x128 ![0, 0, 0] (W0 m ρ c (Proc.devRef .tc main_arg16)) slices_S2x6x128_S1x6x128_0_0_0) shapeCasts_S1x6x128_S6x128) slices_S6x128_S1x128_3_0) shapeCasts_S1x128_S128) :=
  (born0 m ρ c).2.2.2.2.2.2.2.2.2.2.2.2.2.2.2.2.2.2.2.2.2.2.2.1

theorem born_v176 (c : Dev nD) : W1 m ρ c (Proc.devRef .tc main_v176) = (shapeCast _ (extractStridedSlice S1x1x128 ![0, 0, 0] (W0 m ρ c (Proc.devRef .tc main_arg18)) slices_S2x3x128_S1x1x128_0_0_0) shapeCasts_S1x1x128_S128) :=
  (born0 m ρ c).2.2.2.2.2.2.2.2.2.2.2.2.2.2.2.2.2.2.2.2.2.2.2.2.1

theorem born_v178 (c : Dev nD) : W1 m ρ c (Proc.devRef .tc main_v178) = (shapeCast _ (extractStridedSlice S1x1x128 ![0, 0, 0] (W0 m ρ c (Proc.devRef .tc main_arg19)) slices_S2x3x128_S1x1x128_0_0_0) shapeCasts_S1x1x128_S128) :=
  (born0 m ρ c).2.2.2.2.2.2.2.2.2.2.2.2.2.2.2.2.2.2.2.2.2.2.2.2.2.1

theorem born_v16 (c : Dev nD) : W1 m ρ c (Proc.devRef .tc main_v16) = (shapeCast _ (extractStridedSlice S1x500000 ![0, 0] (W0 m ρ c (Proc.devRef .tc main_arg3)) slices_S2x500000_S1x500000_0_0) shapeCasts_S1x500000_S500000) :=
  (born0 m ρ c).2.2.2.2.2.2.2.2.2.2.2.2.2.2.2.2.2.2.2.2.2.2.2.2.2.2.1

theorem born_v18 (c : Dev nD) : W1 m ρ c (Proc.devRef .tc main_v18) = (shapeCast _ (extractStridedSlice S1x500000 ![1, 0] (W0 m ρ c (Proc.devRef .tc main_arg3)) slices_S2x500000_S1x500000_1_0) shapeCasts_S1x500000_S500000) :=
  (born0 m ρ c).2.2.2.2.2.2.2.2.2.2.2.2.2.2.2.2.2.2.2.2.2.2.2.2.2.2.2.1

theorem born_v20 (c : Dev nD) : W1 m ρ c (Proc.devRef .tc main_v20) = (shapeCast _ (extractStridedSlice S1x500000 ![0, 0] (W0 m ρ c (Proc.devRef .tc main_arg4)) slices_S2x500000_S1x500000_0_0) shapeCasts_S1x500000_S500000) :=
  (born0 m ρ c).2.2.2.2.2.2.2.2.2.2.2.2.2.2.2.2.2.2.2.2.2.2.2.2.2.2.2.2.1

theorem born_v22 (c : Dev nD) : W1 m ρ c (Proc.devRef .tc main_v22) = (shapeCast _ (extractStridedSlice S1x500000 ![1, 0] (W0 m ρ c (Proc.devRef .tc main_arg4)) slices_S2x500000_S1x500000_1_0) shapeCasts_S1x500000_S500000) :=
  (born0 m ρ c).2.2.2.2.2.2.2.2.2.2.2.2.2.2.2.2.2.2.2.2.2.2.2.2.2.2.2.2.2.1

theorem born_v24 (c : Dev nD) : W1 m ρ c (Proc.devRef .tc main_v24) = (shapeCast _ (extractStridedSlice S1x300000 ![0, 0] (W0 m ρ c (Proc.devRef .tc main_arg5)) slices_S2x300000_S1x300000_0_0) shapeCasts_S1x300000_S300000) :=
  (born0 m ρ c).2.2.2.2.2.2.2.2.2.2.2.2.2.2.2.2.2.2.2.2.2.2.2.2.2.2.2.2.2.2.1

theorem born_v26 (c : Dev nD) : W1 m ρ c (Proc.devRef .tc main_v26) = (shapeCast _ (extractStridedSlice S1x300000 ![1, 0] (W0 m ρ c (Proc.devRef .tc main_arg5)) slices_S2x300000_S1x300000_1_0) shapeCasts_S1x300000_S300000) :=
  (born0 m ρ c).2.2.2.2.2.2.2.2.2.2.2.2.2.2.2.2.2.2.2.2.2.2.2.2.2.2.2.2.2.2.2.1

theorem born_v28 (c : Dev nD) : W1 m ρ c (Proc.devRef .tc main_v28) = (shapeCast _ (extractStridedSlice S1x300000 ![0, 0] (W0 m ρ c (Proc.devRef .tc main_arg6)) slices_S2x300000_S1x300000_0_0) shapeCasts_S1x300000_S300000) :=
  (born0 m ρ c).2.2.2.2.2.2.2.2.2.2.2.2.2.2.2.2.2.2.2.2.2.2.2.2.2.2.2.2.2.2.2.2.1

theorem born_v30 (c : Dev nD) : W1 m ρ c (Proc.devRef .tc main_v30) = (shapeCast _ (extractStridedSlice S1x300000 ![1, 0] (W0 m ρ c (Proc.devRef .tc main_arg6)) slices_S2x300000_S1x300000_1_0) shapeCasts_S1x300000_S300000) :=
  (born0 m ρ c).2.2.2.2.2.2.2.2.2.2.2.2.2.2.2.2.2.2.2.2.2.2.2.2.2.2.2.2.2.2.2.2.2.1

theorem born_v32 (c : Dev nD) : W1 m ρ c (Proc.devRef .tc main_v32) = (shapeCast _ (extractStridedSlice S1x150000 ![0, 0] (W0 m ρ c (Proc.devRef .tc main_arg7)) slices_S2x150000_S1x150000_0_0) shapeCasts_S1x150000_S150000) :=
  (born0 m ρ c).2.2.2.2.2.2.2.2.2.2.2.2.2.2.2.2.2.2.2.2.2.2.2.2.2.2.2.2.2.2.2.2.2.2.1

theorem born_v34 (c : Dev nD) : W1 m ρ c (Proc.devRef .tc main_v34) = (shapeCast _ (extractStridedSlice S1x150000 ![1, 0] (W0 m ρ c (Proc.devRef .tc main_arg7)) slices_S2x150000_S1x150000_1_0) shapeCasts_S1x150000_S150000) :=
  (born0 m ρ c).2.2.2.2.2.2.2.2.2.2.2.2.2.2.2.2.2.2.2.2.2.2.2.2.2.2.2.2.2.2.2.2.2.2.2.1

theorem born_v36 (c : Dev nD) : W1 m ρ c (Proc.devRef .tc main_v36) = (shapeCast _ (extractStridedSlice S1x150000 ![0, 0] (W0 m ρ c (Proc.devRef .tc main_arg8)) slices_S2x150000_S1x150000_0_0) shapeCasts_S1x150000_S150000) :=
  (born0 m ρ c).2.2.2.2.2.2.2.2.2.2.2.2.2.2.2.2.2.2.2.2.2.2.2.2.2.2.2.2.2.2.2.2.2.2.2.2.1

theorem born_v38 (c : Dev nD) : W1 m ρ c (Proc.devRef .tc main_v38) = (shapeCast _ (extractStridedSlice S1x150000 ![1, 0] (W0 m ρ c (Proc.devRef .tc main_arg8)) slices_S2x150000_S1x150000_1_0) shapeCasts_S1x150000_S150000) :=
  (born0 m ρ c).2.2.2.2.2.2.2.2.2.2.2.2.2.2.2.2.2.2.2.2.2.2.2.2.2.2.2.2.2.2.2.2.2.2.2.2.2

end Cert.KStages

end
-- ==== Proof.Blocks0.lean ====
/-
  Launch 0, from blocks to the array: the grid points' blocks tile the output array row block by row block, each input
  block is the matching rows of its array (a matrix or a vector is one block), so the output array ends holding the
  layer's output over the arrays the launch finds.
-/
import proofs.«172654_j31121333027532_2_alg».proof.Proof.FrameIdealP
import proofs.«172654_j31121333027532_2_alg».proof.Proof.RowSpec
import proofs.«172654_j31121333027532_2_alg».proof.Proof.BodyRow2000
import Idealize.ShloMosaic.Lib.Pipeline.Value
import Idealize.ShloMosaic.Lib.ValueIdx

set_option maxRecDepth 16384

noncomputable section

namespace Cert.Blocks

open Cert.KernelIdeal Cert.KernelIdeal.Gen Cert.KernelIdeal.GenP Cert.RowSpec Cert.BodyRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 0: 100000 rows in blocks of 2000 -/

/-- The block index maps over the grid: a row window's block at point `t` is block row `t`, column block 0; a matrix or a vector is
    one block. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_13.index t (0 : Fin 2) = t.val
    ∧ win0_13.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 1) = 0
    ∧ win0_12.index t (0 : Fin 1) = 0 :=
  (by decide +kernel : ∀ t : Fin grid0.N, _)

/-- The array row that row `p` of point `t`'s block is. -/
def row0 (t : Fin cfg0.N) (p : Fin 2000) : Fin 100000 :=
  ⟨t.val * 2000 + p.val, by have h := lt_of_lt_of_eq t.isLt N_0; have := p.isLt; omega⟩

theorem blk0_0 (c : Dev nD) (t : Fin cfg0.N) (p : Fin 2000) (k : Fin 128) :
    iblk0 V c 0 t (ix2 p k) = (V c main_v122 : S100000x128.Idx → EReal) (ix2 (row0 t p) k) := by
  show (V c main_v122 : S100000x128.Idx → EReal) (((cfg0.win 0).blk t).view.emb (ix2 p k)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_0.index t (0 : Fin 2) * 2000 + 1 * p.val = t.val * 2000 + p.val; rw [f0]; omega
  | ⟨1, _⟩ => show win0_0.index t (1 : Fin 2) * 128 + 1 * k.val = k.val; rw [f1]; omega

theorem blk0_2 (c : Dev nD) (t : Fin cfg0.N) (p : Fin 2000) (k : Fin 128) :
    iblk0 V c 2 t (ix2 p k) = (V c main_v142 : S100000x128.Idx → EReal) (ix2 (row0 t p) k) := by
  show (V c main_v142 : S100000x128.Idx → EReal) (((cfg0.win 2).blk t).view.emb (ix2 p k)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_2.index t (0 : Fin 2) * 2000 + 1 * p.val = t.val * 2000 + p.val; rw [f4]; omega
  | ⟨1, _⟩ => show win0_2.index t (1 : Fin 2) * 128 + 1 * k.val = k.val; rw [f5]; omega

theorem blk0_4 (c : Dev nD) (t : Fin cfg0.N) (p : Fin 2000) (k : Fin 128) :
    iblk0 V c 4 t (ix2 p k) = (V c main_v4 : S100000x128.Idx → EReal) (ix2 (row0 t p) k) := by
  show (V c main_v4 : S100000x128.Idx → EReal) (((cfg0.win 4).blk t).view.emb (ix2 p k)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_4.index t (0 : Fin 2) * 2000 + 1 * p.val = t.val * 2000 + p.val; rw [f8]; omega
  | ⟨1, _⟩ => show win0_4.index t (1 : Fin 2) * 128 + 1 * k.val = k.val; rw [f9]; omega

theorem blk0_1 (c : Dev nD) (t : Fin cfg0.N) (p : Fin 2000) :
    iblk0 V c 1 t (ix2 p (0 : Fin 1)) = (V c main_v56 : S100000x1.Idx → EReal) (ix2 (row0 t p) (0 : Fin 1)) := by
  show (V c main_v56 : S100000x1.Idx → EReal) (((cfg0.win 1).blk t).view.emb (ix2 p (0 : Fin 1))) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_1.index t (0 : Fin 2) * 2000 + 1 * p.val = t.val * 2000 + p.val; rw [f2]; omega
  | ⟨1, _⟩ => show win0_1.index t (1 : Fin 2) * 1 + 1 * 0 = 0; rw [f3]

theorem blk0_3 (c : Dev nD) (t : Fin cfg0.N) (p : Fin 2000) :
    iblk0 V c 3 t (ix2 p (0 : Fin 1)) = (V c main_v74 : S100000x1.Idx → EReal) (ix2 (row0 t p) (0 : Fin 1)) := by
  show (V c main_v74 : S100000x1.Idx → EReal) (((cfg0.win 3).blk t).view.emb (ix2 p (0 : Fin 1))) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_3.index t (0 : Fin 2) * 2000 + 1 * p.val = t.val * 2000 + p.val; rw [f6]; omega
  | ⟨1, _⟩ => show win0_3.index t (1 : Fin 2) * 1 + 1 * 0 = 0; rw [f7]

theorem blk0_5 (c : Dev nD) (t : Fin cfg0.N) (k j : Fin 128) :
    iblk0 V c 5 t (ix2 k j) = (V c main_v164 : S128x128.Idx → EReal) (ix2 k j) := by
  show (V c main_v164 : S128x128.Idx → EReal) (((cfg0.win 5).blk t).view.emb (ix2 k j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_5.index t (0 : Fin 2) * 128 + 1 * k.val = k.val; rw [f12]; omega
  | ⟨1, _⟩ => show win0_5.index t (1 : Fin 2) * 128 + 1 * j.val = j.val; rw [f13]; omega

theorem blk0_6 (c : Dev nD) (t : Fin cfg0.N) (k j : Fin 128) :
    iblk0 V c 6 t (ix2 k j) = (V c main_v166 : S128x128.Idx → EReal) (ix2 k j) := by
  show (V c main_v166 : S128x128.Idx → EReal) (((cfg0.win 6).blk t).view.emb (ix2 k j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_6.index t (0 : Fin 2) * 128 + 1 * k.val = k.val; rw [f14]; omega
  | ⟨1, _⟩ => show win0_6.index t (1 : Fin 2) * 128 + 1 * j.val = j.val; rw [f15]; omega

theorem blk0_7 (c : Dev nD) (t : Fin cfg0.N) (k j : Fin 128) :
    iblk0 V c 7 t (ix2 k j) = (V c main_v168 : S128x128.Idx → EReal) (ix2 k j) := by
  show (V c main_v168 : S128x128.Idx → EReal) (((cfg0.win 7).blk t).view.emb (ix2 k j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_7.index t (0 : Fin 2) * 128 + 1 * k.val = k.val; rw [f16]; omega
  | ⟨1, _⟩ => show win0_7.index t (1 : Fin 2) * 128 + 1 * j.val = j.val; rw [f17]; omega

theorem blk0_8 (c : Dev nD) (t : Fin cfg0.N) (k j : Fin 128) :
    iblk0 V c 8 t (ix2 k j) = (V c main_v170 : S128x128.Idx → EReal) (ix2 k j) := by
  show (V c main_v170 : S128x128.Idx → EReal) (((cfg0.win 8).blk t).view.emb (ix2 k j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_8.index t (0 : Fin 2) * 128 + 1 * k.val = k.val; rw [f18]; omega
  | ⟨1, _⟩ => show win0_8.index t (1 : Fin 2) * 128 + 1 * j.val = j.val; rw [f19]; omega

theorem blk0_9 (c : Dev nD) (t : Fin cfg0.N) (j : Fin 128) :
    iblk0 V c 9 t (ix1 j) = (V c main_v172 : S128.Idx → EReal) (ix1 j) := by
  show (V c main_v172 : S128.Idx → EReal) (((cfg0.win 9).blk t).view.emb (ix1 j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_9.index t (0 : Fin 1) * 128 + 1 * j.val = j.val; rw [f20]; omega

theorem blk0_10 (c : Dev nD) (t : Fin cfg0.N) (j : Fin 128) :
    iblk0 V c 10 t (ix1 j) = (V c main_v174 : S128.Idx → EReal) (ix1 j) := by
  show (V c main_v174 : S128.Idx → EReal) (((cfg0.win 10).blk t).view.emb (ix1 j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_10.index t (0 : Fin 1) * 128 + 1 * j.val = j.val; rw [f21]; omega

theorem blk0_11 (c : Dev nD) (t : Fin cfg0.N) (j : Fin 128) :
    iblk0 V c 11 t (ix1 j) = (V c main_v176 : S128.Idx → EReal) (ix1 j) := by
  show (V c main_v176 : S128.Idx → EReal) (((cfg0.win 11).blk t).view.emb (ix1 j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_11.index t (0 : Fin 1) * 128 + 1 * j.val = j.val; rw [f22]; omega

theorem blk0_12 (c : Dev nD) (t : Fin cfg0.N) (j : Fin 128) :
    iblk0 V c 12 t (ix1 j) = (V c main_v178 : S128.Idx → EReal) (ix1 j) := by
  show (V c main_v178 : S128.Idx → EReal) (((cfg0.win 12).blk t).view.emb (ix1 j)) = _
  obtain ⟨f0, f1, f2, f3, f4, f5, f6, f7, f8, f9, f10, f11, f12, f13, f14, f15, f16, f17, f18, f19, f20, f21, f22, f23⟩ := idx_facts0 t
  refine congrArg _ (funext fun a => Fin.ext ?_)
  match a with
  | ⟨0, _⟩ => show win0_12.index t (0 : Fin 1) * 128 + 1 * j.val = j.val; rw [f23]; omega

/-- The layer's output over the arrays launch 0 reads, as it finds them. -/
def G0 (c : Dev nD) : S100000x128.Idx → EReal := fun i =>
  layerAt (n := 100000) (V c main_v122 : S100000x128.Idx → EReal) (V c main_v56 : S100000x1.Idx → EReal) (V c main_v142 : S100000x128.Idx → EReal) (V c main_v74 : S100000x1.Idx → EReal) (V c main_v4 : S100000x128.Idx → EReal) (V c main_v164 : S128x128.Idx → EReal) (V c main_v166 : S128x128.Idx → EReal) (V c main_v168 : S128x128.Idx → EReal) (V c main_v170 : S128x128.Idx → EReal) (V c main_v172 : S128.Idx → EReal) (V c main_v174 : S128.Idx → EReal) (V c main_v176 : S128.Idx → EReal) (V c main_v178 : S128.Idx → EReal) (i 0) (i 1)

theorem emb0_13 (t : Fin cfg0.N) (p : Fin 2000) (q : Fin 128) :
    ((cfg0.win 13).blk t).view.emb (ix2 p q) = (ix2 (row0 t p) q : S100000x128.Idx) := by
  obtain ⟨f0, f1, f2, f3, f4, f5, f6, f7, f8, f9, f10, f11, f12, f13, f14, f15, f16, f17, f18, f19, f20, f21, f22, f23⟩ := idx_facts0 t
  refine funext fun a => Fin.ext ?_
  match a with
  | ⟨0, _⟩ => show win0_13.index t (0 : Fin 2) * 2000 + 1 * p.val = t.val * 2000 + p.val; rw [f10]; omega
  | ⟨1, _⟩ => show win0_13.index t (1 : Fin 2) * 128 + 1 * q.val = q.val; rw [f11]; omega

set_option maxHeartbeats 4000000 in
/-- What point `t` writes back is block `t` of the layer's output over the entry arrays. -/
theorem flushed0_eq (c : Dev nD) (t : Fin cfg0.N) :
    (dat0 V c).flushed 13 t = ((cfg0.win 13).blk t).view.read (Elt Ideal) (G0 V c) := by
  show (cfg0.win 13).cut (grid0.coords t) ((dat0 V c).after 13 t) = _
  rw [after0_13]
  funext y
  obtain ⟨p, q, rfl⟩ : ∃ (p : Fin 2000) (q : Fin 128), y = ix2 p q := ⟨y 0, y 1, eq_ix2 y⟩
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q) = G0 V c (((cfg0.win 13).blk t).view.emb (ix2 p q))
  rw [emb0_13]
  refine (out0_13_apply (iblk0 V c 0 t) (iblk0 V c 2 t) (iblk0 V c 4 t) (iblk0 V c 1 t) (iblk0 V c 3 t) (iblk0 V c 5 t) (iblk0 V c 6 t) (iblk0 V c 7 t) (iblk0 V c 8 t) (iblk0 V c 9 t) (iblk0 V c 10 t) (iblk0 V c 11 t) (iblk0 V c 12 t) p q).trans ?_
  exact rowOut_congr (fun k => by rw [blk0_0 V c t p k, blk0_1 V c t p]) (fun k => by rw [blk0_2 V c t p k, blk0_3 V c t p]) (fun k => blk0_4 V c t p k)
    (fun k j => blk0_5 V c t k j) (fun k j => blk0_6 V c t k j) (fun k j => blk0_7 V c t k j) (fun k j => blk0_8 V c t k j)
    (fun j => blk0_9 V c t j) (fun j => blk0_10 V c t j) (fun j => blk0_11 V c t j) (fun j => blk0_12 V c t j) rfl

/-- Every row lies in the block of the point its block row names. -/
theorem cover0 (i : S100000x128.Idx) : ∃ t : Fin cfg0.N, (cfg0.win 13).flush t = true ∧ i ∈ ((cfg0.win 13).blk t).view.set := by
  have h0 : (i 0).val < 100000 := (i 0).isLt
  have h1 : (i 1).val < 128 := (i 1).isLt
  have hN : cfg0.N = 50 := N_0
  let t : Fin cfg0.N := ⟨(i 0).val / 2000, by rw [hN]; omega⟩
  refine ⟨t, flush0_13 t, ?_⟩
  show i ∈ ((View.whole main_v179).slice (win0_13.rect t)).set
  rw [View.set_slice_whole, Rect.mem_set_unit]
  obtain ⟨f0, f1, f2, f3, f4, f5, f6, f7, f8, f9, f10, f11, f12, f13, f14, f15, f16, f17, f18, f19, f20, f21, f22, f23⟩ := idx_facts0 t
  intro a
  match a with
  | ⟨0, _⟩ => show win0_13.index t (0 : Fin 2) * 2000 ≤ (i 0).val ∧ (i 0).val < win0_13.index t (0 : Fin 2) * 2000 + 2000; rw [f10]; show (i 0).val / 2000 * 2000 ≤ (i 0).val ∧ (i 0).val < (i 0).val / 2000 * 2000 + 2000; omega
  | ⟨1, _⟩ => show win0_13.index t (1 : Fin 2) * 128 ≤ (i 1).val ∧ (i 1).val < win0_13.index t (1 : Fin 2) * 128 + 128; rw [f11]; omega

/-- After launch 0 its output array holds the layer's output over the arrays it read. -/
theorem final0 (c : Dev nD) : (dat0 V c).arrAt 13 cfg0.N = G0 V c :=
  (dat0 V c).arrAt_eq_of_cover 13 (G0 V c) (fun t _ => flushed0_eq V c t) (cover0)

end Cert.Blocks

end
-- ==== Proof.RefSite0c.lean ====
/-
  The reference program's node-type output of layer 0 for the customer nodes, read at a row and a feature:
  it is the row function `Cert.RowSpec.rowOut` of the two neighbour means (relations 1 and 3), the node's own
  features, and the slices of the weights, biases, scale and shift that the layer and the relations select.
  Every step is unfolding an operation at an index and identifying the composed index maps with coordinates.
-/
import proofs.«172654_j31121333027532_2_alg».proof.Proof.ReadP
import proofs.«172654_j31121333027532_2_alg».proof.Proof.RowSpec

set_option maxHeartbeats 1600000

noncomputable section

namespace Cert.RefSite

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x4 : (⟨S2x500000, .i32⟩ : BufTy).Contents (Elt Ideal))
  (x6 : (⟨S2x300000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

/-- The neighbour matrix of relation 1, transposed for the product: entry `(k, j)` is `Wl[0, 1, j, k]`. -/
theorem wl_0_c_a (k j : Fin 128) :
    val_main_v87 (F := Ideal) x15 (ix2 k j) = x15 (ix4 (0 : Fin 2) (1 : Fin 6) j k) := by
  rw [val_main_v87_apply, val_main_v59_apply, val_main_v58_apply, val_main_v16_apply, val_main_v15_apply]
  refine congrArg x15 (funext fun e => Fin.ext ?_)
  have hj := j.isLt
  have hk := k.isLt
  match e with
  | ⟨0, _⟩ => rfl
  | ⟨1, _⟩ =>
    show (((1 + 0) * 128 + (j.val * 128 + k.val) / 128 % 128) * 128 + (j.val * 128 + k.val) % 128) / 16384 % 6 = 1
    omega
  | ⟨2, _⟩ =>
    show (((1 + 0) * 128 + (j.val * 128 + k.val) / 128 % 128) * 128 + (j.val * 128 + k.val) % 128) / 128 % 128 = j.val
    omega
  | ⟨3, _⟩ =>
    show (((1 + 0) * 128 + (j.val * 128 + k.val) / 128 % 128) * 128 + (j.val * 128 + k.val) % 128) % 128 = k.val
    omega

/-- The root matrix of relation 1, transposed for the product: entry `(k, j)` is `Wr[0, 1, j, k]`. -/
theorem wr_0_c_a (k j : Fin 128) :
    val_main_v92 (F := Ideal) x17 (ix2 k j) = x17 (ix4 (0 : Fin 2) (1 : Fin 6) j k) := by
  rw [val_main_v92_apply, val_main_v63_apply, val_main_v62_apply, val_main_v20_apply, val_main_v19_apply]
  refine congrArg x17 (funext fun e => Fin.ext ?_)
  have hj := j.isLt
  have hk := k.isLt
  match e with
  | ⟨0, _⟩ => rfl
  | ⟨1, _⟩ =>
    show (((1 + 0) * 128 + (j.val * 128 + k.val) / 128 % 128) * 128 + (j.val * 128 + k.val) % 128) / 16384 % 6 = 1
    omega
  | ⟨2, _⟩ =>
    show (((1 + 0) * 128 + (j.val * 128 + k.val) / 128 % 128) * 128 + (j.val * 128 + k.val) % 128) / 128 % 128 = j.val
    omega
  | ⟨3, _⟩ =>
    show (((1 + 0) * 128 + (j.val * 128 + k.val) / 128 % 128) * 128 + (j.val * 128 + k.val) % 128) % 128 = k.val
    omega

/-- The bias of relation 1, repeated along the rows: entry `(r, j)` is `bl[0, 1, j]`. -/
theorem bl_0_c_a (r : Fin 100000) (j : Fin 128) :
    val_main_v90 (F := Ideal) x16 (ix2 r j) = x16 (ix3 (0 : Fin 2) (1 : Fin 6) j) := by
  rw [val_main_v90_apply, val_main_v89_apply, val_main_v61_apply, val_main_v60_apply, val_main_v18_apply, val_main_v17_apply]
  refine congrArg x16 (funext fun e => Fin.ext ?_)
  have hj := j.isLt
  match e with
  | ⟨0, _⟩ => rfl
  | ⟨1, _⟩ =>
    show ((1 + 0) * 128 + j.val % 128) / 128 % 6 = 1
    omega
  | ⟨2, _⟩ =>
    show ((1 + 0) * 128 + j.val % 128) % 128 = j.val
    omega

/-- The neighbour mean of relation 1: the neighbour sum divided by the larger of the neighbour count and one. -/
theorem msg_0_c_a (r : Fin 100000) (k : Fin 128) :
    val_main_v86 (F := Ideal) x1 x4 x11 x12 (ix2 r k)
      = Ideal.div (val_main_v77 (F := Ideal) x1 x4 x11 x12 (ix2 r k)) (max (val_main_v81 (F := Ideal) x4 (ix1 r)) Cert.RowSpec.one32) := by
  rw [val_main_v86_apply, val_main_v85_apply, val_main_v84_apply, val_main_v83_apply, val_main_v82_apply, val_main_cst_9_apply]
  have h : idx_main_v84 (idx_main_v85 (ix2 r k)) = ix1 r := funext fun e => by match e with | ⟨0, _⟩ => rfl
  rw [h]
  rfl

/-- The output of relation 1 at a row and a feature. -/
theorem rel_0_c_a (r : Fin 100000) (j : Fin 128) :
    val_main_v94 (F := Ideal) x0 x1 x4 x9 x10 x11 x12 x15 x16 x17 (ix2 r j)
      = Cert.RowSpec.rel
          (fun k => Ideal.div (val_main_v77 (F := Ideal) x1 x4 x11 x12 (ix2 r k)) (max (val_main_v81 (F := Ideal) x4 (ix1 r)) Cert.RowSpec.one32))
          (fun k => val_main_v4 (F := Ideal) x0 x9 x10 (ix2 r k))
          (fun k j => x15 (ix4 (0 : Fin 2) (1 : Fin 6) j k)) (fun k j => x17 (ix4 (0 : Fin 2) (1 : Fin 6) j k))
          (fun j => x16 (ix3 (0 : Fin 2) (1 : Fin 6) j)) j := by
  rw [val_main_v94_apply, val_main_v91_apply, val_main_v88_apply, val_main_v93_apply]
  have hl1 : ∀ k, lidx_main_v88 (ix2 r j) k = ix2 r k := fun k => funext fun e => by match e with | ⟨0, _⟩ => rfl | ⟨1, _⟩ => rfl
  have hr1 : ∀ k, ridx_main_v88 (ix2 r j) k = ix2 k j := fun k => funext fun e => by match e with | ⟨0, _⟩ => rfl | ⟨1, _⟩ => rfl
  have hl2 : ∀ k, lidx_main_v93 (ix2 r j) k = ix2 r k := fun k => funext fun e => by match e with | ⟨0, _⟩ => rfl | ⟨1, _⟩ => rfl
  have hr2 : ∀ k, ridx_main_v93 (ix2 r j) k = ix2 k j := fun k => funext fun e => by match e with | ⟨0, _⟩ => rfl | ⟨1, _⟩ => rfl
  simp only [hl1, hr1, hl2, hr2, msg_0_c_a, wl_0_c_a, wr_0_c_a, bl_0_c_a]
  rfl

/-- The neighbour matrix of relation 3, transposed for the product: entry `(k, j)` is `Wl[0, 3, j, k]`. -/
theorem wl_0_c_b (k j : Fin 128) :
    val_main_v161 (F := Ideal) x15 (ix2 k j) = x15 (ix4 (0 : Fin 2) (3 : Fin 6) j k) := by
  rw [val_main_v161_apply, val_main_v133_apply, val_main_v132_apply, val_main_v16_apply, val_main_v15_apply]
  refine congrArg x15 (funext fun e => Fin.ext ?_)
  have hj := j.isLt
  have hk := k.isLt
  match e with
  | ⟨0, _⟩ => rfl
  | ⟨1, _⟩ =>
    show (((3 + 0) * 128 + (j.val * 128 + k.val) / 128 % 128) * 128 + (j.val * 128 + k.val) % 128) / 16384 % 6 = 3
    omega
  | ⟨2, _⟩ =>
    show (((3 + 0) * 128 + (j.val * 128 + k.val) / 128 % 128) * 128 + (j.val * 128 + k.val) % 128) / 128 % 128 = j.val
    omega
  | ⟨3, _⟩ =>
    show (((3 + 0) * 128 + (j.val * 128 + k.val) / 128 % 128) * 128 + (j.val * 128 + k.val) % 128) % 128 = k.val
    omega

/-- The root matrix of relation 3, transposed for the product: entry `(k, j)` is `Wr[0, 3, j, k]`. -/
theorem wr_0_c_b (k j : Fin 128) :
    val_main_v166 (F := Ideal) x17 (ix2 k j) = x17 (ix4 (0 : Fin 2) (3 : Fin 6) j k) := by
  rw [val_main_v166_apply, val_main_v137_apply, val_main_v136_apply, val_main_v20_apply, val_main_v19_apply]
  refine congrArg x17 (funext fun e => Fin.ext ?_)
  have hj := j.isLt
  have hk := k.isLt
  match e with
  | ⟨0, _⟩ => rfl
  | ⟨1, _⟩ =>
    show (((3 + 0) * 128 + (j.val * 128 + k.val) / 128 % 128) * 128 + (j.val * 128 + k.val) % 128) / 16384 % 6 = 3
    omega
  | ⟨2, _⟩ =>
    show (((3 + 0) * 128 + (j.val * 128 + k.val) / 128 % 128) * 128 + (j.val * 128 + k.val) % 128) / 128 % 128 = j.val
    omega
  | ⟨3, _⟩ =>
    show (((3 + 0) * 128 + (j.val * 128 + k.val) / 128 % 128) * 128 + (j.val * 128 + k.val) % 128) % 128 = k.val
    omega

/-- The bias of relation 3, repeated along the rows: entry `(r, j)` is `bl[0, 3, j]`. -/
theorem bl_0_c_b (r : Fin 100000) (j : Fin 128) :
    val_main_v164 (F := Ideal) x16 (ix2 r j) = x16 (ix3 (0 : Fin 2) (3 : Fin 6) j) := by
  rw [val_main_v164_apply, val_main_v163_apply, val_main_v135_apply, val_main_v134_apply, val_main_v18_apply, val_main_v17_apply]
  refine congrArg x16 (funext fun e => Fin.ext ?_)
  have hj := j.isLt
  match e with
  | ⟨0, _⟩ => rfl
  | ⟨1, _⟩ =>
    show ((3 + 0) * 128 + j.val % 128) / 128 % 6 = 3
    omega
  | ⟨2, _⟩ =>
    show ((3 + 0) * 128 + j.val % 128) % 128 = j.val
    omega

/-- The neighbour mean of relation 3: the neighbour sum divided by the larger of the neighbour count and one. -/
theorem msg_0_c_b (r : Fin 100000) (k : Fin 128) :
    val_main_v160 (F := Ideal) x2 x6 x13 x14 (ix2 r k)
      = Ideal.div (val_main_v151 (F := Ideal) x2 x6 x13 x14 (ix2 r k)) (max (val_main_v155 (F := Ideal) x6 (ix1 r)) Cert.RowSpec.one32) := by
  rw [val_main_v160_apply, val_main_v159_apply, val_main_v158_apply, val_main_v157_apply, val_main_v156_apply, val_main_cst_21_apply]
  have h : idx_main_v158 (idx_main_v159 (ix2 r k)) = ix1 r := funext fun e => by match e with | ⟨0, _⟩ => rfl
  rw [h]
  rfl

/-- The output of relation 3 at a row and a feature. -/
theorem rel_0_c_b (r : Fin 100000) (j : Fin 128) :
    val_main_v168 (F := Ideal) x0 x2 x6 x9 x10 x13 x14 x15 x16 x17 (ix2 r j)
      = Cert.RowSpec.rel
          (fun k => Ideal.div (val_main_v151 (F := Ideal) x2 x6 x13 x14 (ix2 r k)) (max (val_main_v155 (F := Ideal) x6 (ix1 r)) Cert.RowSpec.one32))
          (fun k => val_main_v4 (F := Ideal) x0 x9 x10 (ix2 r k))
          (fun k j => x15 (ix4 (0 : Fin 2) (3 : Fin 6) j k)) (fun k j => x17 (ix4 (0 : Fin 2) (3 : Fin 6) j k))
          (fun j => x16 (ix3 (0 : Fin 2) (3 : Fin 6) j)) j := by
  rw [val_main_v168_apply, val_main_v165_apply, val_main_v162_apply, val_main_v167_apply]
  have hl1 : ∀ k, lidx_main_v162 (ix2 r j) k = ix2 r k := fun k => funext fun e => by match e with | ⟨0, _⟩ => rfl | ⟨1, _⟩ => rfl
  have hr1 : ∀ k, ridx_main_v162 (ix2 r j) k = ix2 k j := fun k => funext fun e => by match e with | ⟨0, _⟩ => rfl | ⟨1, _⟩ => rfl
  have hl2 : ∀ k, lidx_main_v167 (ix2 r j) k = ix2 r k := fun k => funext fun e => by match e with | ⟨0, _⟩ => rfl | ⟨1, _⟩ => rfl
  have hr2 : ∀ k, ridx_main_v167 (ix2 r j) k = ix2 k j := fun k => funext fun e => by match e with | ⟨0, _⟩ => rfl | ⟨1, _⟩ => rfl
  simp only [hl1, hr1, hl2, hr2, msg_0_c_b, wl_0_c_b, wr_0_c_b, bl_0_c_b]
  rfl

/-- The averaged row before normalisation: one half of the sum of the two relations' outputs. -/
theorem avg_0_c (r : Fin 100000) (j : Fin 128) :
    val_main_v245 (F := Ideal) x0 x1 x2 x4 x6 x9 x10 x11 x12 x13 x14 x15 x16 x17 (ix2 r j)
      = Cert.RowSpec.half32 * (val_main_v94 (F := Ideal) x0 x1 x4 x9 x10 x11 x12 x15 x16 x17 (ix2 r j) + val_main_v168 (F := Ideal) x0 x2 x6 x9 x10 x13 x14 x15 x16 x17 (ix2 r j)) := by
  rw [val_main_v245_apply, val_main_v244_apply, val_main_cst_34_apply, val_main_v243_apply]
  rfl

/-- The row's mean, as the program forms it: the sum from zero over the 128 features, divided by 128. -/
theorem mean_0_c (r : Fin 100000) :
    val_main_v253 (F := Ideal) x0 x1 x2 x4 x6 x9 x10 x11 x12 x13 x14 x15 x16 x17 (ix2 r (0 : Fin 1))
      = Cert.RowSpec.mean (fun j => val_main_v245 (F := Ideal) x0 x1 x2 x4 x6 x9 x10 x11 x12 x13 x14 x15 x16 x17 (ix2 r j)) := by
  rw [val_main_v253_apply, val_main_v251_apply, val_main_v250_apply, val_main_cst_35_apply, val_main_v252_apply, val_main_cst_36_apply]
  have h : ∀ k, idx_main_v250 (idx_main_v251 (ix2 r (0 : Fin 1))) k = ix2 r k := fun k => funext fun e => by match e with | ⟨0, _⟩ => rfl | ⟨1, _⟩ => rfl
  simp only [h]
  rfl

/-- The row's variance: the mean of the squared deviations from the mean. -/
theorem var_0_c (r : Fin 100000) :
    val_main_v260 (F := Ideal) x0 x1 x2 x4 x6 x9 x10 x11 x12 x13 x14 x15 x16 x17 (ix2 r (0 : Fin 1))
      = Cert.RowSpec.mean (fun i =>
          (val_main_v245 (F := Ideal) x0 x1 x2 x4 x6 x9 x10 x11 x12 x13 x14 x15 x16 x17 (ix2 r i) - Cert.RowSpec.mean (fun j => val_main_v245 (F := Ideal) x0 x1 x2 x4 x6 x9 x10 x11 x12 x13 x14 x15 x16 x17 (ix2 r j)))
            * (val_main_v245 (F := Ideal) x0 x1 x2 x4 x6 x9 x10 x11 x12 x13 x14 x15 x16 x17 (ix2 r i) - Cert.RowSpec.mean (fun j => val_main_v245 (F := Ideal) x0 x1 x2 x4 x6 x9 x10 x11 x12 x13 x14 x15 x16 x17 (ix2 r j)))) := by
  rw [val_main_v260_apply, val_main_v258_apply, val_main_v257_apply, val_main_cst_37_apply, val_main_v259_apply, val_main_cst_38_apply]
  have h : ∀ k, idx_main_v257 (idx_main_v258 (ix2 r (0 : Fin 1))) k = ix2 r k := fun k => funext fun e => by match e with | ⟨0, _⟩ => rfl | ⟨1, _⟩ => rfl
  have h0 : ∀ k : Fin 128, idx_main_v254 (ix2 r k) = ix2 r (0 : Fin 1) := fun k => funext fun e => by match e with | ⟨0, _⟩ => rfl | ⟨1, _⟩ => rfl
  simp only [h, val_main_v256_apply, val_main_v255_apply, val_main_v254_apply, h0, mean_0_c]
  rfl

/-- The scale of the normalisation, repeated along the rows: entry `(r, j)` is `gamma[0, 0, j]`. -/
theorem gamma_0_c (r : Fin 100000) (j : Fin 128) :
    val_main_v269 (F := Ideal) x18 (ix2 r j) = x18 (ix3 (0 : Fin 2) (0 : Fin 3) j) := by
  rw [val_main_v269_apply, val_main_v268_apply, val_main_v247_apply, val_main_v246_apply]
  refine congrArg x18 (funext fun e => Fin.ext ?_)
  have hj := j.isLt
  match e with
  | ⟨0, _⟩ => rfl
  | ⟨1, _⟩ => rfl
  | ⟨2, _⟩ =>
    show j.val % 128 = j.val
    omega

/-- The shift of the normalisation, repeated along the rows: entry `(r, j)` is `beta[0, 0, j]`. -/
theorem beta_0_c (r : Fin 100000) (j : Fin 128) :
    val_main_v272 (F := Ideal) x19 (ix2 r j) = x19 (ix3 (0 : Fin 2) (0 : Fin 3) j) := by
  rw [val_main_v272_apply, val_main_v271_apply, val_main_v249_apply, val_main_v248_apply]
  refine congrArg x19 (funext fun e => Fin.ext ?_)
  have hj := j.isLt
  match e with
  | ⟨0, _⟩ => rfl
  | ⟨1, _⟩ => rfl
  | ⟨2, _⟩ =>
    show j.val % 128 = j.val
    omega

/-- The normalised, scaled, shifted row with its negative entries replaced by zero, in terms of the averaged row. -/
theorem out_0_c (r : Fin 100000) (j : Fin 128) :
    val_main_v274 (F := Ideal) x0 x1 x2 x4 x6 x9 x10 x11 x12 x13 x14 x15 x16 x17 x18 x19 (ix2 r j)
      = Cert.RowSpec.lnrelu (fun j => val_main_v245 (F := Ideal) x0 x1 x2 x4 x6 x9 x10 x11 x12 x13 x14 x15 x16 x17 (ix2 r j))
          (fun j => x18 (ix3 (0 : Fin 2) (0 : Fin 3) j)) (fun j => x19 (ix3 (0 : Fin 2) (0 : Fin 3) j)) j := by
  rw [val_main_v274_apply, val_main_call0_v0_apply, val_main_call0_cst_apply, val_main_v273_apply, val_main_v270_apply, val_main_v267_apply,
    val_main_v262_apply, val_main_v261_apply, val_main_v266_apply, val_main_v265_apply, val_main_v264_apply, val_main_v263_apply, val_main_cst_39_apply,
    gamma_0_c, beta_0_c]
  have h0 : idx_main_v261 (ix2 r j) = ix2 r (0 : Fin 1) := funext fun e => by match e with | ⟨0, _⟩ => rfl | ⟨1, _⟩ => rfl
  have h1 : idx_main_v266 (ix2 r j) = ix2 r (0 : Fin 1) := funext fun e => by match e with | ⟨0, _⟩ => rfl | ⟨1, _⟩ => rfl
  rw [h0, h1, mean_0_c, var_0_c]
  rfl

/-- The layer-0 output for the customer nodes at row `r` and feature `j` is the row function of the two
    neighbour means, the node's own features and the selected parameter slices. -/
theorem site_0_c (r : Fin 100000) (j : Fin 128) :
    val_main_v274 (F := Ideal) x0 x1 x2 x4 x6 x9 x10 x11 x12 x13 x14 x15 x16 x17 x18 x19 (ix2 r j)
      = Cert.RowSpec.rowOut
          (fun k => Ideal.div (val_main_v77 (F := Ideal) x1 x4 x11 x12 (ix2 r k)) (max (val_main_v81 (F := Ideal) x4 (ix1 r)) Cert.RowSpec.one32))
          (fun k => Ideal.div (val_main_v151 (F := Ideal) x2 x6 x13 x14 (ix2 r k)) (max (val_main_v155 (F := Ideal) x6 (ix1 r)) Cert.RowSpec.one32))
          (fun k => val_main_v4 (F := Ideal) x0 x9 x10 (ix2 r k))
          (fun k j => x15 (ix4 (0 : Fin 2) (1 : Fin 6) j k)) (fun k j => x15 (ix4 (0 : Fin 2) (3 : Fin 6) j k))
          (fun k j => x17 (ix4 (0 : Fin 2) (1 : Fin 6) j k)) (fun k j => x17 (ix4 (0 : Fin 2) (3 : Fin 6) j k))
          (fun j => x16 (ix3 (0 : Fin 2) (1 : Fin 6) j)) (fun j => x16 (ix3 (0 : Fin 2) (3 : Fin 6) j))
          (fun j => x18 (ix3 (0 : Fin 2) (0 : Fin 3) j)) (fun j => x19 (ix3 (0 : Fin 2) (0 : Fin 3) j)) j := by
  rw [out_0_c]
  unfold Cert.RowSpec.rowOut
  simp only [avg_0_c, rel_0_c_a, rel_0_c_b]

end Cert.RefSite

end
-- ==== Proof.KSite0.lean ====
/-
  Launch 0: the arrays it reads, and the array it leaves, against the reference's stages at the same site.
-/
import proofs.«172654_j31121333027532_2_alg».proof.Proof.Blocks0
import proofs.«172654_j31121333027532_2_alg».proof.Proof.Bridge
import proofs.«172654_j31121333027532_2_alg».proof.Proof.HostReads
import proofs.«172654_j31121333027532_2_alg».proof.Proof.KKeep
import proofs.«172654_j31121333027532_2_alg».proof.Proof.KBorn0
import proofs.«172654_j31121333027532_2_alg».proof.Proof.RefSite0c

set_option maxRecDepth 16384

noncomputable section

namespace Cert.KStages

open Cert.KernelIdeal Cert.KernelIdeal.Gen Cert.KernelIdeal.GenP Cert.RowSpec Cert.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

theorem win0_0 (c : Dev nD) : (W1 m ρ c (Proc.devRef .tc main_v122)) = (Cert.ReferenceIdeal.ReadP.val_main_v77 (F := Ideal) (m ((c : Thread nD τ).loc main_arg1)) (m ((c : Thread nD τ).loc main_arg4)) (m ((c : Thread nD τ).loc main_arg11)) (m ((c : Thread nD τ).loc main_arg12))) := by
  rw [born_v122 m ρ c]
  all_goals rfl

theorem win0_2 (c : Dev nD) : (W1 m ρ c (Proc.devRef .tc main_v142)) = (Cert.ReferenceIdeal.ReadP.val_main_v151 (F := Ideal) (m ((c : Thread nD τ).loc main_arg2)) (m ((c : Thread nD τ).loc main_arg6)) (m ((c : Thread nD τ).loc main_arg13)) (m ((c : Thread nD τ).loc main_arg14))) := by
  rw [born_v142 m ρ c]
  all_goals rfl

theorem win0_4 (c : Dev nD) : (W1 m ρ c (Proc.devRef .tc main_v4)) = (Cert.ReferenceIdeal.ReadP.val_main_v4 (F := Ideal) (m ((c : Thread nD τ).loc main_arg0)) (m ((c : Thread nD τ).loc main_arg9)) (m ((c : Thread nD τ).loc main_arg10))) := by
  rw [born_v4 m ρ c]
  all_goals rfl

theorem win0_1 (c : Dev nD) (r : Fin 100000) : (W1 m ρ c (Proc.devRef .tc main_v56)) (ix2 r (0 : Fin 1)) = Ideal.div one32 (max ((Cert.ReferenceIdeal.ReadP.val_main_v81 (F := Ideal) (m ((c : Thread nD τ).loc main_arg4))) (ix1 r)) one32) := by
  rw [born_v56 m ρ c]
  exact recip_col_apply (n := 100000) (Cert.ReferenceIdeal.ReadP.val_main_v81 (F := Ideal) (m ((c : Thread nD τ).loc main_arg4))) bcast_S_S100000 bcast_S_S100000 bcast_S100000_S100000x1_0 r

theorem win0_3 (c : Dev nD) (r : Fin 100000) : (W1 m ρ c (Proc.devRef .tc main_v74)) (ix2 r (0 : Fin 1)) = Ideal.div one32 (max ((Cert.ReferenceIdeal.ReadP.val_main_v155 (F := Ideal) (m ((c : Thread nD τ).loc main_arg6))) (ix1 r)) one32) := by
  rw [born_v74 m ρ c]
  exact recip_col_apply (n := 100000) (Cert.ReferenceIdeal.ReadP.val_main_v155 (F := Ideal) (m ((c : Thread nD τ).loc main_arg6))) bcast_S_S100000 bcast_S_S100000 bcast_S100000_S100000x1_0 r

theorem win0_5 (c : Dev nD) (k j : Fin 128) : (W1 m ρ c (Proc.devRef .tc main_v164)) (ix2 k j) = (m ((c : Thread nD τ).loc main_arg15)) (ix4 (0 : Fin 2) (1 : Fin 6) j k) := by
  rw [born_v164 m ρ c]
  exact (swapped_slice_apply _ 1 (by decide) _ _ _ _ k j).trans (layer4_apply (W0 m ρ c (Proc.devRef .tc main_arg15)) 0 (by decide) _ _ (1 : Fin 6) j k)

theorem win0_6 (c : Dev nD) (k j : Fin 128) : (W1 m ρ c (Proc.devRef .tc main_v166)) (ix2 k j) = (m ((c : Thread nD τ).loc main_arg15)) (ix4 (0 : Fin 2) (3 : Fin 6) j k) := by
  rw [born_v166 m ρ c]
  exact (swapped_slice_apply _ 3 (by decide) _ _ _ _ k j).trans (layer4_apply (W0 m ρ c (Proc.devRef .tc main_arg15)) 0 (by decide) _ _ (3 : Fin 6) j k)

theorem win0_7 (c : Dev nD) (k j : Fin 128) : (W1 m ρ c (Proc.devRef .tc main_v168)) (ix2 k j) = (m ((c : Thread nD τ).loc main_arg17)) (ix4 (0 : Fin 2) (1 : Fin 6) j k) := by
  rw [born_v168 m ρ c]
  exact (swapped_slice_apply _ 1 (by decide) _ _ _ _ k j).trans (layer4_apply (W0 m ρ c (Proc.devRef .tc main_arg17)) 0 (by decide) _ _ (1 : Fin 6) j k)

theorem win0_8 (c : Dev nD) (k j : Fin 128) : (W1 m ρ c (Proc.devRef .tc main_v170)) (ix2 k j) = (m ((c : Thread nD τ).loc main_arg17)) (ix4 (0 : Fin 2) (3 : Fin 6) j k) := by
  rw [born_v170 m ρ c]
  exact (swapped_slice_apply _ 3 (by decide) _ _ _ _ k j).trans (layer4_apply (W0 m ρ c (Proc.devRef .tc main_arg17)) 0 (by decide) _ _ (3 : Fin 6) j k)

theorem win0_9 (c : Dev nD) (j : Fin 128) : (W1 m ρ c (Proc.devRef .tc main_v172)) (ix1 j) = (m ((c : Thread nD τ).loc main_arg16)) (ix3 (0 : Fin 2) (1 : Fin 6) j) := by
  rw [born_v172 m ρ c]
  exact (row_apply _ 1 (by decide) _ _ j).trans (layer3_apply (W0 m ρ c (Proc.devRef .tc main_arg16)) 0 (by decide) _ _ (1 : Fin 6) j)

theorem win0_10 (c : Dev nD) (j : Fin 128) : (W1 m ρ c (Proc.devRef .tc main_v174)) (ix1 j) = (m ((c : Thread nD τ).loc main_arg16)) (ix3 (0 : Fin 2) (3 : Fin 6) j) := by
  rw [born_v174 m ρ c]
  exact (row_apply _ 3 (by decide) _ _ j).trans (layer3_apply (W0 m ρ c (Proc.devRef .tc main_arg16)) 0 (by decide) _ _ (3 : Fin 6) j)

theorem win0_11 (c : Dev nD) (j : Fin 128) : (W1 m ρ c (Proc.devRef .tc main_v176)) (ix1 j) = (m ((c : Thread nD τ).loc main_arg18)) (ix3 (0 : Fin 2) (0 : Fin 3) j) := by
  rw [born_v176 m ρ c]
  exact norm_param_apply (W0 m ρ c (Proc.devRef .tc main_arg18)) 0 0 (by decide) (by decide) _ _ j

theorem win0_12 (c : Dev nD) (j : Fin 128) : (W1 m ρ c (Proc.devRef .tc main_v178)) (ix1 j) = (m ((c : Thread nD τ).loc main_arg19)) (ix3 (0 : Fin 2) (0 : Fin 3) j) := by
  rw [born_v178 m ρ c]
  exact norm_param_apply (W0 m ρ c (Proc.devRef .tc main_arg19)) 0 0 (by decide) (by decide) _ _ j

/-- After launch 0 its output array is the reference's output at the same site. -/
theorem out0 (c : Dev nD) : W2 m ρ c (Proc.devRef .tc main_v179) = (Cert.ReferenceIdeal.ReadP.val_main_v274 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W2_arr m ρ c 13).trans ?_
  refine (Cert.Blocks.final0 (V1 m ρ) c).trans ?_
  funext i
  obtain ⟨r, j, rfl⟩ : ∃ (r : Fin 100000) (j : Fin 128), i = ix2 r j := ⟨i 0, i 1, eq_ix2 i⟩
  refine (site_bridge (n := 100000) _ _ _ _ _ _ _ _ _ _ _ _ _ (Cert.ReferenceIdeal.ReadP.val_main_v77 (F := Ideal) (m ((c : Thread nD τ).loc main_arg1)) (m ((c : Thread nD τ).loc main_arg4)) (m ((c : Thread nD τ).loc main_arg11)) (m ((c : Thread nD τ).loc main_arg12))) (Cert.ReferenceIdeal.ReadP.val_main_v151 (F := Ideal) (m ((c : Thread nD τ).loc main_arg2)) (m ((c : Thread nD τ).loc main_arg6)) (m ((c : Thread nD τ).loc main_arg13)) (m ((c : Thread nD τ).loc main_arg14))) (Cert.ReferenceIdeal.ReadP.val_main_v4 (F := Ideal) (m ((c : Thread nD τ).loc main_arg0)) (m ((c : Thread nD τ).loc main_arg9)) (m ((c : Thread nD τ).loc main_arg10))) (Cert.ReferenceIdeal.ReadP.val_main_v81 (F := Ideal) (m ((c : Thread nD τ).loc main_arg4))) (Cert.ReferenceIdeal.ReadP.val_main_v155 (F := Ideal) (m ((c : Thread nD τ).loc main_arg6)))
    _ _ _ _ _ _ _ _
    (win0_0 m ρ c) (win0_2 m ρ c) (win0_4 m ρ c) (win0_1 m ρ c) (win0_3 m ρ c)
    (win0_5 m ρ c) (win0_6 m ρ c) (win0_7 m ρ c) (win0_8 m ρ c) (win0_9 m ρ c) (win0_10 m ρ c) (win0_11 m ρ c) (win0_12 m ρ c) r j).trans ?_
  exact (Cert.RefSite.site_0_c (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r j).symm

end Cert.KStages

end
-- ==== Proof.Blocks1.lean ====
/-
  Launch 1, from blocks to the array: the grid points' blocks tile the output array row block by row block, each input
  block is the matching rows of its array (a matrix or a vector is one block), so the output array ends holding the
  layer's output over the arrays the launch finds.
-/
import proofs.«172654_j31121333027532_2_alg».proof.Proof.FrameIdealP
import proofs.«172654_j31121333027532_2_alg».proof.Proof.RowSpec
import proofs.«172654_j31121333027532_2_alg».proof.Proof.BodyRow2000
import Idealize.ShloMosaic.Lib.Pipeline.Value
import Idealize.ShloMosaic.Lib.ValueIdx

set_option maxRecDepth 16384

noncomputable section

namespace Cert.Blocks

open Cert.KernelIdeal Cert.KernelIdeal.Gen Cert.KernelIdeal.GenP Cert.RowSpec Cert.BodyRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 1: 50000 rows in blocks of 2000 -/

/-- The block index maps over the grid: a row window's block at point `t` is block row `t`, column block 0; a matrix or a vector is
    one block. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_13.index t (0 : Fin 2) = t.val
    ∧ win1_13.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 1) = 0
    ∧ win1_10.index t (0 : Fin 1) = 0
    ∧ win1_11.index t (0 : Fin 1) = 0
    ∧ win1_12.index t (0 : Fin 1) = 0 :=
  (by decide +kernel : ∀ t : Fin grid1.N, _)

/-- The array row that row `p` of point `t`'s block is. -/
def row1 (t : Fin cfg1.N) (p : Fin 2000) : Fin 50000 :=
  ⟨t.val * 2000 + p.val, by have h := lt_of_lt_of_eq t.isLt N_1; have := p.isLt; omega⟩

theorem blk1_0 (c : Dev nD) (t : Fin cfg1.N) (p : Fin 2000) (k : Fin 128) :
    iblk1 V c 0 t (ix2 p k) = (V c main_v112 : S50000x128.Idx → EReal) (ix2 (row1 t p) k) := by
  show (V c main_v112 : S50000x128.Idx → EReal) (((cfg1.win 0).blk t).view.emb (ix2 p k)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_0.index t (0 : Fin 2) * 2000 + 1 * p.val = t.val * 2000 + p.val; rw [f0]; omega
  | ⟨1, _⟩ => show win1_0.index t (1 : Fin 2) * 128 + 1 * k.val = k.val; rw [f1]; omega

theorem blk1_2 (c : Dev nD) (t : Fin cfg1.N) (p : Fin 2000) (k : Fin 128) :
    iblk1 V c 2 t (ix2 p k) = (V c main_v162 : S50000x128.Idx → EReal) (ix2 (row1 t p) k) := by
  show (V c main_v162 : S50000x128.Idx → EReal) (((cfg1.win 2).blk t).view.emb (ix2 p k)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_2.index t (0 : Fin 2) * 2000 + 1 * p.val = t.val * 2000 + p.val; rw [f4]; omega
  | ⟨1, _⟩ => show win1_2.index t (1 : Fin 2) * 128 + 1 * k.val = k.val; rw [f5]; omega

theorem blk1_4 (c : Dev nD) (t : Fin cfg1.N) (p : Fin 2000) (k : Fin 128) :
    iblk1 V c 4 t (ix2 p k) = (V c main_v9 : S50000x128.Idx → EReal) (ix2 (row1 t p) k) := by
  show (V c main_v9 : S50000x128.Idx → EReal) (((cfg1.win 4).blk t).view.emb (ix2 p k)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_4.index t (0 : Fin 2) * 2000 + 1 * p.val = t.val * 2000 + p.val; rw [f8]; omega
  | ⟨1, _⟩ => show win1_4.index t (1 : Fin 2) * 128 + 1 * k.val = k.val; rw [f9]; omega

theorem blk1_1 (c : Dev nD) (t : Fin cfg1.N) (p : Fin 2000) :
    iblk1 V c 1 t (ix2 p (0 : Fin 1)) = (V c main_v47 : S50000x1.Idx → EReal) (ix2 (row1 t p) (0 : Fin 1)) := by
  show (V c main_v47 : S50000x1.Idx → EReal) (((cfg1.win 1).blk t).view.emb (ix2 p (0 : Fin 1))) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_1.index t (0 : Fin 2) * 2000 + 1 * p.val = t.val * 2000 + p.val; rw [f2]; omega
  | ⟨1, _⟩ => show win1_1.index t (1 : Fin 2) * 1 + 1 * 0 = 0; rw [f3]

theorem blk1_3 (c : Dev nD) (t : Fin cfg1.N) (p : Fin 2000) :
    iblk1 V c 3 t (ix2 p (0 : Fin 1)) = (V c main_v92 : S50000x1.Idx → EReal) (ix2 (row1 t p) (0 : Fin 1)) := by
  show (V c main_v92 : S50000x1.Idx → EReal) (((cfg1.win 3).blk t).view.emb (ix2 p (0 : Fin 1))) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_3.index t (0 : Fin 2) * 2000 + 1 * p.val = t.val * 2000 + p.val; rw [f6]; omega
  | ⟨1, _⟩ => show win1_3.index t (1 : Fin 2) * 1 + 1 * 0 = 0; rw [f7]

theorem blk1_5 (c : Dev nD) (t : Fin cfg1.N) (k j : Fin 128) :
    iblk1 V c 5 t (ix2 k j) = (V c main_v181 : S128x128.Idx → EReal) (ix2 k j) := by
  show (V c main_v181 : S128x128.Idx → EReal) (((cfg1.win 5).blk t).view.emb (ix2 k j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_5.index t (0 : Fin 2) * 128 + 1 * k.val = k.val; rw [f12]; omega
  | ⟨1, _⟩ => show win1_5.index t (1 : Fin 2) * 128 + 1 * j.val = j.val; rw [f13]; omega

theorem blk1_6 (c : Dev nD) (t : Fin cfg1.N) (k j : Fin 128) :
    iblk1 V c 6 t (ix2 k j) = (V c main_v183 : S128x128.Idx → EReal) (ix2 k j) := by
  show (V c main_v183 : S128x128.Idx → EReal) (((cfg1.win 6).blk t).view.emb (ix2 k j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_6.index t (0 : Fin 2) * 128 + 1 * k.val = k.val; rw [f14]; omega
  | ⟨1, _⟩ => show win1_6.index t (1 : Fin 2) * 128 + 1 * j.val = j.val; rw [f15]; omega

theorem blk1_7 (c : Dev nD) (t : Fin cfg1.N) (k j : Fin 128) :
    iblk1 V c 7 t (ix2 k j) = (V c main_v185 : S128x128.Idx → EReal) (ix2 k j) := by
  show (V c main_v185 : S128x128.Idx → EReal) (((cfg1.win 7).blk t).view.emb (ix2 k j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_7.index t (0 : Fin 2) * 128 + 1 * k.val = k.val; rw [f16]; omega
  | ⟨1, _⟩ => show win1_7.index t (1 : Fin 2) * 128 + 1 * j.val = j.val; rw [f17]; omega

theorem blk1_8 (c : Dev nD) (t : Fin cfg1.N) (k j : Fin 128) :
    iblk1 V c 8 t (ix2 k j) = (V c main_v187 : S128x128.Idx → EReal) (ix2 k j) := by
  show (V c main_v187 : S128x128.Idx → EReal) (((cfg1.win 8).blk t).view.emb (ix2 k j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_8.index t (0 : Fin 2) * 128 + 1 * k.val = k.val; rw [f18]; omega
  | ⟨1, _⟩ => show win1_8.index t (1 : Fin 2) * 128 + 1 * j.val = j.val; rw [f19]; omega

theorem blk1_9 (c : Dev nD) (t : Fin cfg1.N) (j : Fin 128) :
    iblk1 V c 9 t (ix1 j) = (V c main_v189 : S128.Idx → EReal) (ix1 j) := by
  show (V c main_v189 : S128.Idx → EReal) (((cfg1.win 9).blk t).view.emb (ix1 j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_9.index t (0 : Fin 1) * 128 + 1 * j.val = j.val; rw [f20]; omega

theorem blk1_10 (c : Dev nD) (t : Fin cfg1.N) (j : Fin 128) :
    iblk1 V c 10 t (ix1 j) = (V c main_v191 : S128.Idx → EReal) (ix1 j) := by
  show (V c main_v191 : S128.Idx → EReal) (((cfg1.win 10).blk t).view.emb (ix1 j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_10.index t (0 : Fin 1) * 128 + 1 * j.val = j.val; rw [f21]; omega

theorem blk1_11 (c : Dev nD) (t : Fin cfg1.N) (j : Fin 128) :
    iblk1 V c 11 t (ix1 j) = (V c main_v193 : S128.Idx → EReal) (ix1 j) := by
  show (V c main_v193 : S128.Idx → EReal) (((cfg1.win 11).blk t).view.emb (ix1 j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_11.index t (0 : Fin 1) * 128 + 1 * j.val = j.val; rw [f22]; omega

theorem blk1_12 (c : Dev nD) (t : Fin cfg1.N) (j : Fin 128) :
    iblk1 V c 12 t (ix1 j) = (V c main_v195 : S128.Idx → EReal) (ix1 j) := by
  show (V c main_v195 : S128.Idx → EReal) (((cfg1.win 12).blk t).view.emb (ix1 j)) = _
  obtain ⟨f0, f1, f2, f3, f4, f5, f6, f7, f8, f9, f10, f11, f12, f13, f14, f15, f16, f17, f18, f19, f20, f21, f22, f23⟩ := idx_facts1 t
  refine congrArg _ (funext fun a => Fin.ext ?_)
  match a with
  | ⟨0, _⟩ => show win1_12.index t (0 : Fin 1) * 128 + 1 * j.val = j.val; rw [f23]; omega

/-- The layer's output over the arrays launch 1 reads, as it finds them. -/
def G1 (c : Dev nD) : S50000x128.Idx → EReal := fun i =>
  layerAt (n := 50000) (V c main_v112 : S50000x128.Idx → EReal) (V c main_v47 : S50000x1.Idx → EReal) (V c main_v162 : S50000x128.Idx → EReal) (V c main_v92 : S50000x1.Idx → EReal) (V c main_v9 : S50000x128.Idx → EReal) (V c main_v181 : S128x128.Idx → EReal) (V c main_v183 : S128x128.Idx → EReal) (V c main_v185 : S128x128.Idx → EReal) (V c main_v187 : S128x128.Idx → EReal) (V c main_v189 : S128.Idx → EReal) (V c main_v191 : S128.Idx → EReal) (V c main_v193 : S128.Idx → EReal) (V c main_v195 : S128.Idx → EReal) (i 0) (i 1)

theorem emb1_13 (t : Fin cfg1.N) (p : Fin 2000) (q : Fin 128) :
    ((cfg1.win 13).blk t).view.emb (ix2 p q) = (ix2 (row1 t p) q : S50000x128.Idx) := by
  obtain ⟨f0, f1, f2, f3, f4, f5, f6, f7, f8, f9, f10, f11, f12, f13, f14, f15, f16, f17, f18, f19, f20, f21, f22, f23⟩ := idx_facts1 t
  refine funext fun a => Fin.ext ?_
  match a with
  | ⟨0, _⟩ => show win1_13.index t (0 : Fin 2) * 2000 + 1 * p.val = t.val * 2000 + p.val; rw [f10]; omega
  | ⟨1, _⟩ => show win1_13.index t (1 : Fin 2) * 128 + 1 * q.val = q.val; rw [f11]; omega

set_option maxHeartbeats 4000000 in
/-- What point `t` writes back is block `t` of the layer's output over the entry arrays. -/
theorem flushed1_eq (c : Dev nD) (t : Fin cfg1.N) :
    (dat1 V c).flushed 13 t = ((cfg1.win 13).blk t).view.read (Elt Ideal) (G1 V c) := by
  show (cfg1.win 13).cut (grid1.coords t) ((dat1 V c).after 13 t) = _
  rw [after1_13]
  funext y
  obtain ⟨p, q, rfl⟩ : ∃ (p : Fin 2000) (q : Fin 128), y = ix2 p q := ⟨y 0, y 1, eq_ix2 y⟩
  show out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 p q) = G1 V c (((cfg1.win 13).blk t).view.emb (ix2 p q))
  rw [emb1_13]
  refine (out1_13_apply (iblk1 V c 0 t) (iblk1 V c 2 t) (iblk1 V c 4 t) (iblk1 V c 1 t) (iblk1 V c 3 t) (iblk1 V c 5 t) (iblk1 V c 6 t) (iblk1 V c 7 t) (iblk1 V c 8 t) (iblk1 V c 9 t) (iblk1 V c 10 t) (iblk1 V c 11 t) (iblk1 V c 12 t) p q).trans ?_
  exact rowOut_congr (fun k => by rw [blk1_0 V c t p k, blk1_1 V c t p]) (fun k => by rw [blk1_2 V c t p k, blk1_3 V c t p]) (fun k => blk1_4 V c t p k)
    (fun k j => blk1_5 V c t k j) (fun k j => blk1_6 V c t k j) (fun k j => blk1_7 V c t k j) (fun k j => blk1_8 V c t k j)
    (fun j => blk1_9 V c t j) (fun j => blk1_10 V c t j) (fun j => blk1_11 V c t j) (fun j => blk1_12 V c t j) rfl

/-- Every row lies in the block of the point its block row names. -/
theorem cover1 (i : S50000x128.Idx) : ∃ t : Fin cfg1.N, (cfg1.win 13).flush t = true ∧ i ∈ ((cfg1.win 13).blk t).view.set := by
  have h0 : (i 0).val < 50000 := (i 0).isLt
  have h1 : (i 1).val < 128 := (i 1).isLt
  have hN : cfg1.N = 25 := N_1
  let t : Fin cfg1.N := ⟨(i 0).val / 2000, by rw [hN]; omega⟩
  refine ⟨t, flush1_13 t, ?_⟩
  show i ∈ ((View.whole main_v196).slice (win1_13.rect t)).set
  rw [View.set_slice_whole, Rect.mem_set_unit]
  obtain ⟨f0, f1, f2, f3, f4, f5, f6, f7, f8, f9, f10, f11, f12, f13, f14, f15, f16, f17, f18, f19, f20, f21, f22, f23⟩ := idx_facts1 t
  intro a
  match a with
  | ⟨0, _⟩ => show win1_13.index t (0 : Fin 2) * 2000 ≤ (i 0).val ∧ (i 0).val < win1_13.index t (0 : Fin 2) * 2000 + 2000; rw [f10]; show (i 0).val / 2000 * 2000 ≤ (i 0).val ∧ (i 0).val < (i 0).val / 2000 * 2000 + 2000; omega
  | ⟨1, _⟩ => show win1_13.index t (1 : Fin 2) * 128 ≤ (i 1).val ∧ (i 1).val < win1_13.index t (1 : Fin 2) * 128 + 128; rw [f11]; omega

/-- After launch 1 its output array holds the layer's output over the arrays it read. -/
theorem final1 (c : Dev nD) : (dat1 V c).arrAt 13 cfg1.N = G1 V c :=
  (dat1 V c).arrAt_eq_of_cover 13 (G1 V c) (fun t _ => flushed1_eq V c t) (cover1)

end Cert.Blocks

end
-- ==== Proof.KBorn1.lean ====
/-
  What stretch 1 of host operations leaves in the buffers the launches read, each as the composition of its
  operations over the buffers the stretch finds.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

set_option maxHeartbeats 4000000 in
theorem born1 (c : Dev nD) :
    W3 m ρ c (Proc.devRef .tc main_v181) = (shapeCast _ (extractStridedSlice S1x128x128 ![0, 0, 0] (W2 m ρ c (Proc.devRef .tc main_v100)) slices_S6x128x128_S1x128x128_0_0_0) shapeCasts_S1x128x128_S128x128)
    ∧ W3 m ρ c (Proc.devRef .tc main_v183) = (shapeCast _ (extractStridedSlice S1x128x128 ![5, 0, 0] (W2 m ρ c (Proc.devRef .tc main_v100)) slices_S6x128x128_S1x128x128_5_0_0) shapeCasts_S1x128x128_S128x128)
    ∧ W3 m ρ c (Proc.devRef .tc main_v185) = (shapeCast _ (extractStridedSlice S1x128x128 ![0, 0, 0] (W2 m ρ c (Proc.devRef .tc main_v102)) slices_S6x128x128_S1x128x128_0_0_0) shapeCasts_S1x128x128_S128x128)
    ∧ W3 m ρ c (Proc.devRef .tc main_v187) = (shapeCast _ (extractStridedSlice S1x128x128 ![5, 0, 0] (W2 m ρ c (Proc.devRef .tc main_v102)) slices_S6x128x128_S1x128x128_5_0_0) shapeCasts_S1x128x128_S128x128)
    ∧ W3 m ρ c (Proc.devRef .tc main_v189) = (shapeCast _ (extractStridedSlice S1x128 ![0, 0] (W2 m ρ c (Proc.devRef .tc main_v96)) slices_S6x128_S1x128_0_0) shapeCasts_S1x128_S128)
    ∧ W3 m ρ c (Proc.devRef .tc main_v191) = (shapeCast _ (extractStridedSlice S1x128 ![5, 0] (W2 m ρ c (Proc.devRef .tc main_v96)) slices_S6x128_S1x128_5_0) shapeCasts_S1x128_S128)
    ∧ W3 m ρ c (Proc.devRef .tc main_v193) = (shapeCast _ (extractStridedSlice S1x1x128 ![0, 1, 0] (W2 m ρ c (Proc.devRef .tc main_arg18)) slices_S2x3x128_S1x1x128_0_1_0) shapeCasts_S1x1x128_S128)
    ∧ W3 m ρ c (Proc.devRef .tc main_v195) = (shapeCast _ (extractStridedSlice S1x1x128 ![0, 1, 0] (W2 m ρ c (Proc.devRef .tc main_arg19)) slices_S2x3x128_S1x1x128_0_1_0) shapeCasts_S1x1x128_S128) := by
  show StableHlo.after hostOps1 (W2 m ρ c) (Proc.devRef .tc main_v181) = (shapeCast _ (extractStridedSlice S1x128x128 ![0, 0, 0] (W2 m ρ c (Proc.devRef .tc main_v100)) slices_S6x128x128_S1x128x128_0_0_0) shapeCasts_S1x128x128_S128x128)
    ∧ StableHlo.after hostOps1 (W2 m ρ c) (Proc.devRef .tc main_v183) = (shapeCast _ (extractStridedSlice S1x128x128 ![5, 0, 0] (W2 m ρ c (Proc.devRef .tc main_v100)) slices_S6x128x128_S1x128x128_5_0_0) shapeCasts_S1x128x128_S128x128)
    ∧ StableHlo.after hostOps1 (W2 m ρ c) (Proc.devRef .tc main_v185) = (shapeCast _ (extractStridedSlice S1x128x128 ![0, 0, 0] (W2 m ρ c (Proc.devRef .tc main_v102)) slices_S6x128x128_S1x128x128_0_0_0) shapeCasts_S1x128x128_S128x128)
    ∧ StableHlo.after hostOps1 (W2 m ρ c) (Proc.devRef .tc main_v187) = (shapeCast _ (extractStridedSlice S1x128x128 ![5, 0, 0] (W2 m ρ c (Proc.devRef .tc main_v102)) slices_S6x128x128_S1x128x128_5_0_0) shapeCasts_S1x128x128_S128x128)
    ∧ StableHlo.after hostOps1 (W2 m ρ c) (Proc.devRef .tc main_v189) = (shapeCast _ (extractStridedSlice S1x128 ![0, 0] (W2 m ρ c (Proc.devRef .tc main_v96)) slices_S6x128_S1x128_0_0) shapeCasts_S1x128_S128)
    ∧ StableHlo.after hostOps1 (W2 m ρ c) (Proc.devRef .tc main_v191) = (shapeCast _ (extractStridedSlice S1x128 ![5, 0] (W2 m ρ c (Proc.devRef .tc main_v96)) slices_S6x128_S1x128_5_0) shapeCasts_S1x128_S128)
    ∧ StableHlo.after hostOps1 (W2 m ρ c) (Proc.devRef .tc main_v193) = (shapeCast _ (extractStridedSlice S1x1x128 ![0, 1, 0] (W2 m ρ c (Proc.devRef .tc main_arg18)) slices_S2x3x128_S1x1x128_0_1_0) shapeCasts_S1x1x128_S128)
    ∧ StableHlo.after hostOps1 (W2 m ρ c) (Proc.devRef .tc main_v195) = (shapeCast _ (extractStridedSlice S1x1x128 ![0, 1, 0] (W2 m ρ c (Proc.devRef .tc main_arg19)) slices_S2x3x128_S1x1x128_0_1_0) shapeCasts_S1x1x128_S128)
  after_results_simp
  all_goals (first | done | (repeat' constructor) <;> rfl)

theorem born_v181 (c : Dev nD) : W3 m ρ c (Proc.devRef .tc main_v181) = (shapeCast _ (extractStridedSlice S1x128x128 ![0, 0, 0] (W2 m ρ c (Proc.devRef .tc main_v100)) slices_S6x128x128_S1x128x128_0_0_0) shapeCasts_S1x128x128_S128x128) :=
  (born1 m ρ c).1

theorem born_v183 (c : Dev nD) : W3 m ρ c (Proc.devRef .tc main_v183) = (shapeCast _ (extractStridedSlice S1x128x128 ![5, 0, 0] (W2 m ρ c (Proc.devRef .tc main_v100)) slices_S6x128x128_S1x128x128_5_0_0) shapeCasts_S1x128x128_S128x128) :=
  (born1 m ρ c).2.1

theorem born_v185 (c : Dev nD) : W3 m ρ c (Proc.devRef .tc main_v185) = (shapeCast _ (extractStridedSlice S1x128x128 ![0, 0, 0] (W2 m ρ c (Proc.devRef .tc main_v102)) slices_S6x128x128_S1x128x128_0_0_0) shapeCasts_S1x128x128_S128x128) :=
  (born1 m ρ c).2.2.1

theorem born_v187 (c : Dev nD) : W3 m ρ c (Proc.devRef .tc main_v187) = (shapeCast _ (extractStridedSlice S1x128x128 ![5, 0, 0] (W2 m ρ c (Proc.devRef .tc main_v102)) slices_S6x128x128_S1x128x128_5_0_0) shapeCasts_S1x128x128_S128x128) :=
  (born1 m ρ c).2.2.2.1

theorem born_v189 (c : Dev nD) : W3 m ρ c (Proc.devRef .tc main_v189) = (shapeCast _ (extractStridedSlice S1x128 ![0, 0] (W2 m ρ c (Proc.devRef .tc main_v96)) slices_S6x128_S1x128_0_0) shapeCasts_S1x128_S128) :=
  (born1 m ρ c).2.2.2.2.1

theorem born_v191 (c : Dev nD) : W3 m ρ c (Proc.devRef .tc main_v191) = (shapeCast _ (extractStridedSlice S1x128 ![5, 0] (W2 m ρ c (Proc.devRef .tc main_v96)) slices_S6x128_S1x128_5_0) shapeCasts_S1x128_S128) :=
  (born1 m ρ c).2.2.2.2.2.1

theorem born_v193 (c : Dev nD) : W3 m ρ c (Proc.devRef .tc main_v193) = (shapeCast _ (extractStridedSlice S1x1x128 ![0, 1, 0] (W2 m ρ c (Proc.devRef .tc main_arg18)) slices_S2x3x128_S1x1x128_0_1_0) shapeCasts_S1x1x128_S128) :=
  (born1 m ρ c).2.2.2.2.2.2.1

theorem born_v195 (c : Dev nD) : W3 m ρ c (Proc.devRef .tc main_v195) = (shapeCast _ (extractStridedSlice S1x1x128 ![0, 1, 0] (W2 m ρ c (Proc.devRef .tc main_arg19)) slices_S2x3x128_S1x1x128_0_1_0) shapeCasts_S1x1x128_S128) :=
  (born1 m ρ c).2.2.2.2.2.2.2

end Cert.KStages

end
-- ==== Proof.RefSite0p.lean ====
/-
  The reference program's node-type output of layer 0 for the product nodes, read at a row and a feature:
  it is the row function `Cert.RowSpec.rowOut` of the two neighbour means (relations 0 and 5), the node's own
  features, and the slices of the weights, biases, scale and shift that the layer and the relations select.
  Every step is unfolding an operation at an index and identifying the composed index maps with coordinates.
-/
import proofs.«172654_j31121333027532_2_alg».proof.Proof.ReadP
import proofs.«172654_j31121333027532_2_alg».proof.Proof.RowSpec

set_option maxHeartbeats 1600000

noncomputable section

namespace Cert.RefSite

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

/-- The neighbour matrix of relation 0, transposed for the product: entry `(k, j)` is `Wl[0, 0, j, k]`. -/
theorem wl_0_p_a (k j : Fin 128) :
    val_main_v50 (F := Ideal) x15 (ix2 k j) = x15 (ix4 (0 : Fin 2) (0 : Fin 6) j k) := by
  rw [val_main_v50_apply, val_main_v22_apply, val_main_v21_apply, val_main_v16_apply, val_main_v15_apply]
  refine congrArg x15 (funext fun e => Fin.ext ?_)
  have hj := j.isLt
  have hk := k.isLt
  match e with
  | ⟨0, _⟩ => rfl
  | ⟨1, _⟩ =>
    show (((0 + 0) * 128 + (j.val * 128 + k.val) / 128 % 128) * 128 + (j.val * 128 + k.val) % 128) / 16384 % 6 = 0
    omega
  | ⟨2, _⟩ =>
    show (((0 + 0) * 128 + (j.val * 128 + k.val) / 128 % 128) * 128 + (j.val * 128 + k.val) % 128) / 128 % 128 = j.val
    omega
  | ⟨3, _⟩ =>
    show (((0 + 0) * 128 + (j.val * 128 + k.val) / 128 % 128) * 128 + (j.val * 128 + k.val) % 128) % 128 = k.val
    omega

/-- The root matrix of relation 0, transposed for the product: entry `(k, j)` is `Wr[0, 0, j, k]`. -/
theorem wr_0_p_a (k j : Fin 128) :
    val_main_v55 (F := Ideal) x17 (ix2 k j) = x17 (ix4 (0 : Fin 2) (0 : Fin 6) j k) := by
  rw [val_main_v55_apply, val_main_v26_apply, val_main_v25_apply, val_main_v20_apply, val_main_v19_apply]
  refine congrArg x17 (funext fun e => Fin.ext ?_)
  have hj := j.isLt
  have hk := k.isLt
  match e with
  | ⟨0, _⟩ => rfl
  | ⟨1, _⟩ =>
    show (((0 + 0) * 128 + (j.val * 128 + k.val) / 128 % 128) * 128 + (j.val * 128 + k.val) % 128) / 16384 % 6 = 0
    omega
  | ⟨2, _⟩ =>
    show (((0 + 0) * 128 + (j.val * 128 + k.val) / 128 % 128) * 128 + (j.val * 128 + k.val) % 128) / 128 % 128 = j.val
    omega
  | ⟨3, _⟩ =>
    show (((0 + 0) * 128 + (j.val * 128 + k.val) / 128 % 128) * 128 + (j.val * 128 + k.val) % 128) % 128 = k.val
    omega

/-- The bias of relation 0, repeated along the rows: entry `(r, j)` is `bl[0, 0, j]`. -/
theorem bl_0_p_a (r : Fin 50000) (j : Fin 128) :
    val_main_v53 (F := Ideal) x16 (ix2 r j) = x16 (ix3 (0 : Fin 2) (0 : Fin 6) j) := by
  rw [val_main_v53_apply, val_main_v52_apply, val_main_v24_apply, val_main_v23_apply, val_main_v18_apply, val_main_v17_apply]
  refine congrArg x16 (funext fun e => Fin.ext ?_)
  have hj := j.isLt
  match e with
  | ⟨0, _⟩ => rfl
  | ⟨1, _⟩ =>
    show ((0 + 0) * 128 + j.val % 128) / 128 % 6 = 0
    omega
  | ⟨2, _⟩ =>
    show ((0 + 0) * 128 + j.val % 128) % 128 = j.val
    omega

/-- The neighbour mean of relation 0: the neighbour sum divided by the larger of the neighbour count and one. -/
theorem msg_0_p_a (r : Fin 50000) (k : Fin 128) :
    val_main_v49 (F := Ideal) x0 x3 x9 x10 (ix2 r k)
      = Ideal.div (val_main_v40 (F := Ideal) x0 x3 x9 x10 (ix2 r k)) (max (val_main_v44 (F := Ideal) x3 (ix1 r)) Cert.RowSpec.one32) := by
  rw [val_main_v49_apply, val_main_v48_apply, val_main_v47_apply, val_main_v46_apply, val_main_v45_apply, val_main_cst_3_apply]
  have h : idx_main_v47 (idx_main_v48 (ix2 r k)) = ix1 r := funext fun e => by match e with | ⟨0, _⟩ => rfl
  rw [h]
  rfl

/-- The output of relation 0 at a row and a feature. -/
theorem rel_0_p_a (r : Fin 50000) (j : Fin 128) :
    val_main_v57 (F := Ideal) x0 x1 x3 x9 x10 x11 x12 x15 x16 x17 (ix2 r j)
      = Cert.RowSpec.rel
          (fun k => Ideal.div (val_main_v40 (F := Ideal) x0 x3 x9 x10 (ix2 r k)) (max (val_main_v44 (F := Ideal) x3 (ix1 r)) Cert.RowSpec.one32))
          (fun k => val_main_v9 (F := Ideal) x1 x11 x12 (ix2 r k))
          (fun k j => x15 (ix4 (0 : Fin 2) (0 : Fin 6) j k)) (fun k j => x17 (ix4 (0 : Fin 2) (0 : Fin 6) j k))
          (fun j => x16 (ix3 (0 : Fin 2) (0 : Fin 6) j)) j := by
  rw [val_main_v57_apply, val_main_v54_apply, val_main_v51_apply, val_main_v56_apply]
  have hl1 : ∀ k, lidx_main_v51 (ix2 r j) k = ix2 r k := fun k => funext fun e => by match e with | ⟨0, _⟩ => rfl | ⟨1, _⟩ => rfl
  have hr1 : ∀ k, ridx_main_v51 (ix2 r j) k = ix2 k j := fun k => funext fun e => by match e with | ⟨0, _⟩ => rfl | ⟨1, _⟩ => rfl
  have hl2 : ∀ k, lidx_main_v56 (ix2 r j) k = ix2 r k := fun k => funext fun e => by match e with | ⟨0, _⟩ => rfl | ⟨1, _⟩ => rfl
  have hr2 : ∀ k, ridx_main_v56 (ix2 r j) k = ix2 k j := fun k => funext fun e => by match e with | ⟨0, _⟩ => rfl | ⟨1, _⟩ => rfl
  simp only [hl1, hr1, hl2, hr2, msg_0_p_a, wl_0_p_a, wr_0_p_a, bl_0_p_a]
  rfl

/-- The neighbour matrix of relation 5, transposed for the product: entry `(k, j)` is `Wl[0, 5, j, k]`. -/
theorem wl_0_p_b (k j : Fin 128) :
    val_main_v235 (F := Ideal) x15 (ix2 k j) = x15 (ix4 (0 : Fin 2) (5 : Fin 6) j k) := by
  rw [val_main_v235_apply, val_main_v207_apply, val_main_v206_apply, val_main_v16_apply, val_main_v15_apply]
  refine congrArg x15 (funext fun e => Fin.ext ?_)
  have hj := j.isLt
  have hk := k.isLt
  match e with
  | ⟨0, _⟩ => rfl
  | ⟨1, _⟩ =>
    show (((5 + 0) * 128 + (j.val * 128 + k.val) / 128 % 128) * 128 + (j.val * 128 + k.val) % 128) / 16384 % 6 = 5
    omega
  | ⟨2, _⟩ =>
    show (((5 + 0) * 128 + (j.val * 128 + k.val) / 128 % 128) * 128 + (j.val * 128 + k.val) % 128) / 128 % 128 = j.val
    omega
  | ⟨3, _⟩ =>
    show (((5 + 0) * 128 + (j.val * 128 + k.val) / 128 % 128) * 128 + (j.val * 128 + k.val) % 128) % 128 = k.val
    omega

/-- The root matrix of relation 5, transposed for the product: entry `(k, j)` is `Wr[0, 5, j, k]`. -/
theorem wr_0_p_b (k j : Fin 128) :
    val_main_v240 (F := Ideal) x17 (ix2 k j) = x17 (ix4 (0 : Fin 2) (5 : Fin 6) j k) := by
  rw [val_main_v240_apply, val_main_v211_apply, val_main_v210_apply, val_main_v20_apply, val_main_v19_apply]
  refine congrArg x17 (funext fun e => Fin.ext ?_)
  have hj := j.isLt
  have hk := k.isLt
  match e with
  | ⟨0, _⟩ => rfl
  | ⟨1, _⟩ =>
    show (((5 + 0) * 128 + (j.val * 128 + k.val) / 128 % 128) * 128 + (j.val * 128 + k.val) % 128) / 16384 % 6 = 5
    omega
  | ⟨2, _⟩ =>
    show (((5 + 0) * 128 + (j.val * 128 + k.val) / 128 % 128) * 128 + (j.val * 128 + k.val) % 128) / 128 % 128 = j.val
    omega
  | ⟨3, _⟩ =>
    show (((5 + 0) * 128 + (j.val * 128 + k.val) / 128 % 128) * 128 + (j.val * 128 + k.val) % 128) % 128 = k.val
    omega

/-- The bias of relation 5, repeated along the rows: entry `(r, j)` is `bl[0, 5, j]`. -/
theorem bl_0_p_b (r : Fin 50000) (j : Fin 128) :
    val_main_v238 (F := Ideal) x16 (ix2 r j) = x16 (ix3 (0 : Fin 2) (5 : Fin 6) j) := by
  rw [val_main_v238_apply, val_main_v237_apply, val_main_v209_apply, val_main_v208_apply, val_main_v18_apply, val_main_v17_apply]
  refine congrArg x16 (funext fun e => Fin.ext ?_)
  have hj := j.isLt
  match e with
  | ⟨0, _⟩ => rfl
  | ⟨1, _⟩ =>
    show ((5 + 0) * 128 + j.val % 128) / 128 % 6 = 5
    omega
  | ⟨2, _⟩ =>
    show ((5 + 0) * 128 + j.val % 128) % 128 = j.val
    omega

/-- The neighbour mean of relation 5: the neighbour sum divided by the larger of the neighbour count and one. -/
theorem msg_0_p_b (r : Fin 50000) (k : Fin 128) :
    val_main_v234 (F := Ideal) x2 x8 x13 x14 (ix2 r k)
      = Ideal.div (val_main_v225 (F := Ideal) x2 x8 x13 x14 (ix2 r k)) (max (val_main_v229 (F := Ideal) x8 (ix1 r)) Cert.RowSpec.one32) := by
  rw [val_main_v234_apply, val_main_v233_apply, val_main_v232_apply, val_main_v231_apply, val_main_v230_apply, val_main_cst_33_apply]
  have h : idx_main_v232 (idx_main_v233 (ix2 r k)) = ix1 r := funext fun e => by match e with | ⟨0, _⟩ => rfl
  rw [h]
  rfl

/-- The output of relation 5 at a row and a feature. -/
theorem rel_0_p_b (r : Fin 50000) (j : Fin 128) :
    val_main_v242 (F := Ideal) x1 x2 x8 x11 x12 x13 x14 x15 x16 x17 (ix2 r j)
      = Cert.RowSpec.rel
          (fun k => Ideal.div (val_main_v225 (F := Ideal) x2 x8 x13 x14 (ix2 r k)) (max (val_main_v229 (F := Ideal) x8 (ix1 r)) Cert.RowSpec.one32))
          (fun k => val_main_v9 (F := Ideal) x1 x11 x12 (ix2 r k))
          (fun k j => x15 (ix4 (0 : Fin 2) (5 : Fin 6) j k)) (fun k j => x17 (ix4 (0 : Fin 2) (5 : Fin 6) j k))
          (fun j => x16 (ix3 (0 : Fin 2) (5 : Fin 6) j)) j := by
  rw [val_main_v242_apply, val_main_v239_apply, val_main_v236_apply, val_main_v241_apply]
  have hl1 : ∀ k, lidx_main_v236 (ix2 r j) k = ix2 r k := fun k => funext fun e => by match e with | ⟨0, _⟩ => rfl | ⟨1, _⟩ => rfl
  have hr1 : ∀ k, ridx_main_v236 (ix2 r j) k = ix2 k j := fun k => funext fun e => by match e with | ⟨0, _⟩ => rfl | ⟨1, _⟩ => rfl
  have hl2 : ∀ k, lidx_main_v241 (ix2 r j) k = ix2 r k := fun k => funext fun e => by match e with | ⟨0, _⟩ => rfl | ⟨1, _⟩ => rfl
  have hr2 : ∀ k, ridx_main_v241 (ix2 r j) k = ix2 k j := fun k => funext fun e => by match e with | ⟨0, _⟩ => rfl | ⟨1, _⟩ => rfl
  simp only [hl1, hr1, hl2, hr2, msg_0_p_b, wl_0_p_b, wr_0_p_b, bl_0_p_b]
  rfl

/-- The averaged row before normalisation: one half of the sum of the two relations' outputs. -/
theorem avg_0_p (r : Fin 50000) (j : Fin 128) :
    val_main_v277 (F := Ideal) x0 x1 x2 x3 x8 x9 x10 x11 x12 x13 x14 x15 x16 x17 (ix2 r j)
      = Cert.RowSpec.half32 * (val_main_v57 (F := Ideal) x0 x1 x3 x9 x10 x11 x12 x15 x16 x17 (ix2 r j) + val_main_v242 (F := Ideal) x1 x2 x8 x11 x12 x13 x14 x15 x16 x17 (ix2 r j)) := by
  rw [val_main_v277_apply, val_main_v276_apply, val_main_cst_40_apply, val_main_v275_apply]
  rfl

/-- The row's mean, as the program forms it: the sum from zero over the 128 features, divided by 128. -/
theorem mean_0_p (r : Fin 50000) :
    val_main_v285 (F := Ideal) x0 x1 x2 x3 x8 x9 x10 x11 x12 x13 x14 x15 x16 x17 (ix2 r (0 : Fin 1))
      = Cert.RowSpec.mean (fun j => val_main_v277 (F := Ideal) x0 x1 x2 x3 x8 x9 x10 x11 x12 x13 x14 x15 x16 x17 (ix2 r j)) := by
  rw [val_main_v285_apply, val_main_v283_apply, val_main_v282_apply, val_main_cst_41_apply, val_main_v284_apply, val_main_cst_42_apply]
  have h : ∀ k, idx_main_v282 (idx_main_v283 (ix2 r (0 : Fin 1))) k = ix2 r k := fun k => funext fun e => by match e with | ⟨0, _⟩ => rfl | ⟨1, _⟩ => rfl
  simp only [h]
  rfl

/-- The row's variance: the mean of the squared deviations from the mean. -/
theorem var_0_p (r : Fin 50000) :
    val_main_v292 (F := Ideal) x0 x1 x2 x3 x8 x9 x10 x11 x12 x13 x14 x15 x16 x17 (ix2 r (0 : Fin 1))
      = Cert.RowSpec.mean (fun i =>
          (val_main_v277 (F := Ideal) x0 x1 x2 x3 x8 x9 x10 x11 x12 x13 x14 x15 x16 x17 (ix2 r i) - Cert.RowSpec.mean (fun j => val_main_v277 (F := Ideal) x0 x1 x2 x3 x8 x9 x10 x11 x12 x13 x14 x15 x16 x17 (ix2 r j)))
            * (val_main_v277 (F := Ideal) x0 x1 x2 x3 x8 x9 x10 x11 x12 x13 x14 x15 x16 x17 (ix2 r i) - Cert.RowSpec.mean (fun j => val_main_v277 (F := Ideal) x0 x1 x2 x3 x8 x9 x10 x11 x12 x13 x14 x15 x16 x17 (ix2 r j)))) := by
  rw [val_main_v292_apply, val_main_v290_apply, val_main_v289_apply, val_main_cst_43_apply, val_main_v291_apply, val_main_cst_44_apply]
  have h : ∀ k, idx_main_v289 (idx_main_v290 (ix2 r (0 : Fin 1))) k = ix2 r k := fun k => funext fun e => by match e with | ⟨0, _⟩ => rfl | ⟨1, _⟩ => rfl
  have h0 : ∀ k : Fin 128, idx_main_v286 (ix2 r k) = ix2 r (0 : Fin 1) := fun k => funext fun e => by match e with | ⟨0, _⟩ => rfl | ⟨1, _⟩ => rfl
  simp only [h, val_main_v288_apply, val_main_v287_apply, val_main_v286_apply, h0, mean_0_p]
  rfl

/-- The scale of the normalisation, repeated along the rows: entry `(r, j)` is `gamma[0, 1, j]`. -/
theorem gamma_0_p (r : Fin 50000) (j : Fin 128) :
    val_main_v301 (F := Ideal) x18 (ix2 r j) = x18 (ix3 (0 : Fin 2) (1 : Fin 3) j) := by
  rw [val_main_v301_apply, val_main_v300_apply, val_main_v279_apply, val_main_v278_apply]
  refine congrArg x18 (funext fun e => Fin.ext ?_)
  have hj := j.isLt
  match e with
  | ⟨0, _⟩ => rfl
  | ⟨1, _⟩ => rfl
  | ⟨2, _⟩ =>
    show j.val % 128 = j.val
    omega

/-- The shift of the normalisation, repeated along the rows: entry `(r, j)` is `beta[0, 1, j]`. -/
theorem beta_0_p (r : Fin 50000) (j : Fin 128) :
    val_main_v304 (F := Ideal) x19 (ix2 r j) = x19 (ix3 (0 : Fin 2) (1 : Fin 3) j) := by
  rw [val_main_v304_apply, val_main_v303_apply, val_main_v281_apply, val_main_v280_apply]
  refine congrArg x19 (funext fun e => Fin.ext ?_)
  have hj := j.isLt
  match e with
  | ⟨0, _⟩ => rfl
  | ⟨1, _⟩ => rfl
  | ⟨2, _⟩ =>
    show j.val % 128 = j.val
    omega

/-- The normalised, scaled, shifted row with its negative entries replaced by zero, in terms of the averaged row. -/
theorem out_0_p (r : Fin 50000) (j : Fin 128) :
    val_main_v306 (F := Ideal) x0 x1 x2 x3 x8 x9 x10 x11 x12 x13 x14 x15 x16 x17 x18 x19 (ix2 r j)
      = Cert.RowSpec.lnrelu (fun j => val_main_v277 (F := Ideal) x0 x1 x2 x3 x8 x9 x10 x11 x12 x13 x14 x15 x16 x17 (ix2 r j))
          (fun j => x18 (ix3 (0 : Fin 2) (1 : Fin 3) j)) (fun j => x19 (ix3 (0 : Fin 2) (1 : Fin 3) j)) j := by
  rw [val_main_v306_apply, val_main_call1_v0_apply, val_main_call1_cst_apply, val_main_v305_apply, val_main_v302_apply, val_main_v299_apply,
    val_main_v294_apply, val_main_v293_apply, val_main_v298_apply, val_main_v297_apply, val_main_v296_apply, val_main_v295_apply, val_main_cst_45_apply,
    gamma_0_p, beta_0_p]
  have h0 : idx_main_v293 (ix2 r j) = ix2 r (0 : Fin 1) := funext fun e => by match e with | ⟨0, _⟩ => rfl | ⟨1, _⟩ => rfl
  have h1 : idx_main_v298 (ix2 r j) = ix2 r (0 : Fin 1) := funext fun e => by match e with | ⟨0, _⟩ => rfl | ⟨1, _⟩ => rfl
  rw [h0, h1, mean_0_p, var_0_p]
  rfl

/-- The layer-0 output for the product nodes at row `r` and feature `j` is the row function of the two
    neighbour means, the node's own features and the selected parameter slices. -/
theorem site_0_p (r : Fin 50000) (j : Fin 128) :
    val_main_v306 (F := Ideal) x0 x1 x2 x3 x8 x9 x10 x11 x12 x13 x14 x15 x16 x17 x18 x19 (ix2 r j)
      = Cert.RowSpec.rowOut
          (fun k => Ideal.div (val_main_v40 (F := Ideal) x0 x3 x9 x10 (ix2 r k)) (max (val_main_v44 (F := Ideal) x3 (ix1 r)) Cert.RowSpec.one32))
          (fun k => Ideal.div (val_main_v225 (F := Ideal) x2 x8 x13 x14 (ix2 r k)) (max (val_main_v229 (F := Ideal) x8 (ix1 r)) Cert.RowSpec.one32))
          (fun k => val_main_v9 (F := Ideal) x1 x11 x12 (ix2 r k))
          (fun k j => x15 (ix4 (0 : Fin 2) (0 : Fin 6) j k)) (fun k j => x15 (ix4 (0 : Fin 2) (5 : Fin 6) j k))
          (fun k j => x17 (ix4 (0 : Fin 2) (0 : Fin 6) j k)) (fun k j => x17 (ix4 (0 : Fin 2) (5 : Fin 6) j k))
          (fun j => x16 (ix3 (0 : Fin 2) (0 : Fin 6) j)) (fun j => x16 (ix3 (0 : Fin 2) (5 : Fin 6) j))
          (fun j => x18 (ix3 (0 : Fin 2) (1 : Fin 3) j)) (fun j => x19 (ix3 (0 : Fin 2) (1 : Fin 3) j)) j := by
  rw [out_0_p]
  unfold Cert.RowSpec.rowOut
  simp only [avg_0_p, rel_0_p_a, rel_0_p_b]

end Cert.RefSite

end
-- ==== Proof.KSite1.lean ====
/-
  Launch 1: the arrays it reads, and the array it leaves, against the reference's stages at the same site.
-/
import proofs.«172654_j31121333027532_2_alg».proof.Proof.Blocks1
import proofs.«172654_j31121333027532_2_alg».proof.Proof.Bridge
import proofs.«172654_j31121333027532_2_alg».proof.Proof.HostReads
import proofs.«172654_j31121333027532_2_alg».proof.Proof.KKeep
import proofs.«172654_j31121333027532_2_alg».proof.Proof.KBorn1
import proofs.«172654_j31121333027532_2_alg».proof.Proof.RefSite0p
import proofs.«172654_j31121333027532_2_alg».proof.Proof.KBorn0

set_option maxRecDepth 16384

noncomputable section

namespace Cert.KStages

open Cert.KernelIdeal Cert.KernelIdeal.Gen Cert.KernelIdeal.GenP Cert.RowSpec Cert.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

theorem win1_0 (c : Dev nD) : (W3 m ρ c (Proc.devRef .tc main_v112)) = (Cert.ReferenceIdeal.ReadP.val_main_v40 (F := Ideal) (m ((c : Thread nD τ).loc main_arg0)) (m ((c : Thread nD τ).loc main_arg3)) (m ((c : Thread nD τ).loc main_arg9)) (m ((c : Thread nD τ).loc main_arg10))) := by
  rw [keep_v112_1_3 m ρ c, born_v112 m ρ c]
  all_goals rfl

theorem win1_2 (c : Dev nD) : (W3 m ρ c (Proc.devRef .tc main_v162)) = (Cert.ReferenceIdeal.ReadP.val_main_v225 (F := Ideal) (m ((c : Thread nD τ).loc main_arg2)) (m ((c : Thread nD τ).loc main_arg8)) (m ((c : Thread nD τ).loc main_arg13)) (m ((c : Thread nD τ).loc main_arg14))) := by
  rw [keep_v162_1_3 m ρ c, born_v162 m ρ c]
  all_goals rfl

theorem win1_4 (c : Dev nD) : (W3 m ρ c (Proc.devRef .tc main_v9)) = (Cert.ReferenceIdeal.ReadP.val_main_v9 (F := Ideal) (m ((c : Thread nD τ).loc main_arg1)) (m ((c : Thread nD τ).loc main_arg11)) (m ((c : Thread nD τ).loc main_arg12))) := by
  rw [keep_v9_1_3 m ρ c, born_v9 m ρ c]
  all_goals rfl

theorem win1_1 (c : Dev nD) (r : Fin 50000) : (W3 m ρ c (Proc.devRef .tc main_v47)) (ix2 r (0 : Fin 1)) = Ideal.div one32 (max ((Cert.ReferenceIdeal.ReadP.val_main_v44 (F := Ideal) (m ((c : Thread nD τ).loc main_arg3))) (ix1 r)) one32) := by
  rw [keep_v47_1_3 m ρ c, born_v47 m ρ c]
  exact recip_col_apply (n := 50000) (Cert.ReferenceIdeal.ReadP.val_main_v44 (F := Ideal) (m ((c : Thread nD τ).loc main_arg3))) bcast_S_S50000 bcast_S_S50000 bcast_S50000_S50000x1_0 r

theorem win1_3 (c : Dev nD) (r : Fin 50000) : (W3 m ρ c (Proc.devRef .tc main_v92)) (ix2 r (0 : Fin 1)) = Ideal.div one32 (max ((Cert.ReferenceIdeal.ReadP.val_main_v229 (F := Ideal) (m ((c : Thread nD τ).loc main_arg8))) (ix1 r)) one32) := by
  rw [keep_v92_1_3 m ρ c, born_v92 m ρ c]
  exact recip_col_apply (n := 50000) (Cert.ReferenceIdeal.ReadP.val_main_v229 (F := Ideal) (m ((c : Thread nD τ).loc main_arg8))) bcast_S_S50000 bcast_S_S50000 bcast_S50000_S50000x1_0 r

theorem win1_5 (c : Dev nD) (k j : Fin 128) : (W3 m ρ c (Proc.devRef .tc main_v181)) (ix2 k j) = (m ((c : Thread nD τ).loc main_arg15)) (ix4 (0 : Fin 2) (0 : Fin 6) j k) := by
  rw [born_v181 m ρ c, keep_v100_1_2 m ρ c, born_v100 m ρ c]
  exact (swapped_slice_apply _ 0 (by decide) _ _ _ _ k j).trans (layer4_apply (W0 m ρ c (Proc.devRef .tc main_arg15)) 0 (by decide) _ _ (0 : Fin 6) j k)

theorem win1_6 (c : Dev nD) (k j : Fin 128) : (W3 m ρ c (Proc.devRef .tc main_v183)) (ix2 k j) = (m ((c : Thread nD τ).loc main_arg15)) (ix4 (0 : Fin 2) (5 : Fin 6) j k) := by
  rw [born_v183 m ρ c, keep_v100_1_2 m ρ c, born_v100 m ρ c]
  exact (swapped_slice_apply _ 5 (by decide) _ _ _ _ k j).trans (layer4_apply (W0 m ρ c (Proc.devRef .tc main_arg15)) 0 (by decide) _ _ (5 : Fin 6) j k)

theorem win1_7 (c : Dev nD) (k j : Fin 128) : (W3 m ρ c (Proc.devRef .tc main_v185)) (ix2 k j) = (m ((c : Thread nD τ).loc main_arg17)) (ix4 (0 : Fin 2) (0 : Fin 6) j k) := by
  rw [born_v185 m ρ c, keep_v102_1_2 m ρ c, born_v102 m ρ c]
  exact (swapped_slice_apply _ 0 (by decide) _ _ _ _ k j).trans (layer4_apply (W0 m ρ c (Proc.devRef .tc main_arg17)) 0 (by decide) _ _ (0 : Fin 6) j k)

theorem win1_8 (c : Dev nD) (k j : Fin 128) : (W3 m ρ c (Proc.devRef .tc main_v187)) (ix2 k j) = (m ((c : Thread nD τ).loc main_arg17)) (ix4 (0 : Fin 2) (5 : Fin 6) j k) := by
  rw [born_v187 m ρ c, keep_v102_1_2 m ρ c, born_v102 m ρ c]
  exact (swapped_slice_apply _ 5 (by decide) _ _ _ _ k j).trans (layer4_apply (W0 m ρ c (Proc.devRef .tc main_arg17)) 0 (by decide) _ _ (5 : Fin 6) j k)

theorem win1_9 (c : Dev nD) (j : Fin 128) : (W3 m ρ c (Proc.devRef .tc main_v189)) (ix1 j) = (m ((c : Thread nD τ).loc main_arg16)) (ix3 (0 : Fin 2) (0 : Fin 6) j) := by
  rw [born_v189 m ρ c, keep_v96_1_2 m ρ c, born_v96 m ρ c]
  exact (row_apply _ 0 (by decide) _ _ j).trans (layer3_apply (W0 m ρ c (Proc.devRef .tc main_arg16)) 0 (by decide) _ _ (0 : Fin 6) j)

theorem win1_10 (c : Dev nD) (j : Fin 128) : (W3 m ρ c (Proc.devRef .tc main_v191)) (ix1 j) = (m ((c : Thread nD τ).loc main_arg16)) (ix3 (0 : Fin 2) (5 : Fin 6) j) := by
  rw [born_v191 m ρ c, keep_v96_1_2 m ρ c, born_v96 m ρ c]
  exact (row_apply _ 5 (by decide) _ _ j).trans (layer3_apply (W0 m ρ c (Proc.devRef .tc main_arg16)) 0 (by decide) _ _ (5 : Fin 6) j)

theorem win1_11 (c : Dev nD) (j : Fin 128) : (W3 m ρ c (Proc.devRef .tc main_v193)) (ix1 j) = (m ((c : Thread nD τ).loc main_arg18)) (ix3 (0 : Fin 2) (1 : Fin 3) j) := by
  rw [born_v193 m ρ c, keep_arg18_0_2 m ρ c]
  exact norm_param_apply (W0 m ρ c (Proc.devRef .tc main_arg18)) 0 1 (by decide) (by decide) _ _ j

theorem win1_12 (c : Dev nD) (j : Fin 128) : (W3 m ρ c (Proc.devRef .tc main_v195)) (ix1 j) = (m ((c : Thread nD τ).loc main_arg19)) (ix3 (0 : Fin 2) (1 : Fin 3) j) := by
  rw [born_v195 m ρ c, keep_arg19_0_2 m ρ c]
  exact norm_param_apply (W0 m ρ c (Proc.devRef .tc main_arg19)) 0 1 (by decide) (by decide) _ _ j

/-- After launch 1 its output array is the reference's output at the same site. -/
theorem out1 (c : Dev nD) : W4 m ρ c (Proc.devRef .tc main_v196) = (Cert.ReferenceIdeal.ReadP.val_main_v306 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W4_arr m ρ c 13).trans ?_
  refine (Cert.Blocks.final1 (V3 m ρ) c).trans ?_
  funext i
  obtain ⟨r, j, rfl⟩ : ∃ (r : Fin 50000) (j : Fin 128), i = ix2 r j := ⟨i 0, i 1, eq_ix2 i⟩
  refine (site_bridge (n := 50000) _ _ _ _ _ _ _ _ _ _ _ _ _ (Cert.ReferenceIdeal.ReadP.val_main_v40 (F := Ideal) (m ((c : Thread nD τ).loc main_arg0)) (m ((c : Thread nD τ).loc main_arg3)) (m ((c : Thread nD τ).loc main_arg9)) (m ((c : Thread nD τ).loc main_arg10))) (Cert.ReferenceIdeal.ReadP.val_main_v225 (F := Ideal) (m ((c : Thread nD τ).loc main_arg2)) (m ((c : Thread nD τ).loc main_arg8)) (m ((c : Thread nD τ).loc main_arg13)) (m ((c : Thread nD τ).loc main_arg14))) (Cert.ReferenceIdeal.ReadP.val_main_v9 (F := Ideal) (m ((c : Thread nD τ).loc main_arg1)) (m ((c : Thread nD τ).loc main_arg11)) (m ((c : Thread nD τ).loc main_arg12))) (Cert.ReferenceIdeal.ReadP.val_main_v44 (F := Ideal) (m ((c : Thread nD τ).loc main_arg3))) (Cert.ReferenceIdeal.ReadP.val_main_v229 (F := Ideal) (m ((c : Thread nD τ).loc main_arg8)))
    _ _ _ _ _ _ _ _
    (win1_0 m ρ c) (win1_2 m ρ c) (win1_4 m ρ c) (win1_1 m ρ c) (win1_3 m ρ c)
    (win1_5 m ρ c) (win1_6 m ρ c) (win1_7 m ρ c) (win1_8 m ρ c) (win1_9 m ρ c) (win1_10 m ρ c) (win1_11 m ρ c) (win1_12 m ρ c) r j).trans ?_
  exact (Cert.RefSite.site_0_p (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r j).symm

end Cert.KStages

end
-- ==== Proof.BodyPay1000.lean ====
/-
  The six kernels of the layer run one and the same body on blocks of 2000 or of 1000 rows.  For each kernel on
  blocks of 1000 rows, what the body's one store leaves at the entry (r, j) of its block — the normalised, averaged
  two-relation row — is the specification's row function at row r of the block's loads: an instance of the reading
  proved once for any number of rows.
-/
import proofs.«172654_j31121333027532_2_alg».proof.Proof.Gen.KernelIdeal.Skeleton
import proofs.«172654_j31121333027532_2_alg».proof.Proof.BodyRowOps

noncomputable section

namespace Cert.BodyRow

open Idealize.ShloMosaic Idealize.ShloMosaic.ValueIdx
open Cert.KernelIdeal Cert.KernelIdeal.Gen

/-- The body of kernel 2's block (1000 rows): what its store leaves at (r, j), over the block's loads. -/
theorem pay2_apply (x0 x2 x4 : Vec Ideal S1000x128 .f32) (x1 x3 : Vec Ideal S1000x1 .f32)
    (x5 x6 x7 x8 : Vec Ideal S128x128 .bf16) (x9 x10 x11 x12 : Vec Ideal S128 .f32) (r : Fin 1000) (j : Fin 128) :
    k2_pay1 (F := Ideal) (k2_pay2 x4) (k2_pay3 x8) (k2_pay4 x0 x1 x4 x5 x7 x9) (k2_pay5 x2 x3 x6) (k2_pay6 x10) x11 x12
        (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j :=
  Cert.BodyOps.body_apply (n := 1000) dot_S1000x128_S128x128_S1000x128_1_0_0_1_n_n rfl x0 x1 x2 x3 x4 x5 x6 x7 x8 x9 x10 x11 x12
    shapeCasts_S1000x128_S1000x128 shapeCasts_S1000x1_S1000x1 broadcasts_S1000x1_S1000x128 shapeCasts_S128x128_S128x128
    bitsLt_bf16_f32 shapeCasts_S128_S128 shapeCasts_S128_S1x128 broadcasts_S1x128_S1000x128 reduces_S1000x128_S1000
    (.inl rfl) rfl shapeCasts_S1000_S1000x1 r j

/-- The body of kernel 5's block (1000 rows): what its store leaves at (r, j), over the block's loads. -/
theorem pay5_apply (x0 x2 x4 : Vec Ideal S1000x128 .f32) (x1 x3 : Vec Ideal S1000x1 .f32)
    (x5 x6 x7 x8 : Vec Ideal S128x128 .bf16) (x9 x10 x11 x12 : Vec Ideal S128 .f32) (r : Fin 1000) (j : Fin 128) :
    k5_pay1 (F := Ideal) (k5_pay2 x4) (k5_pay3 x8) (k5_pay4 x0 x1 x4 x5 x7 x9) (k5_pay5 x2 x3 x6) (k5_pay6 x10) x11 x12
        (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j :=
  Cert.BodyOps.body_apply (n := 1000) dot_S1000x128_S128x128_S1000x128_1_0_0_1_n_n rfl x0 x1 x2 x3 x4 x5 x6 x7 x8 x9 x10 x11 x12
    shapeCasts_S1000x128_S1000x128 shapeCasts_S1000x1_S1000x1 broadcasts_S1000x1_S1000x128 shapeCasts_S128x128_S128x128
    bitsLt_bf16_f32 shapeCasts_S128_S128 shapeCasts_S128_S1x128 broadcasts_S1x128_S1000x128 reduces_S1000x128_S1000
    (.inl rfl) rfl shapeCasts_S1000_S1000x1 r j

end Cert.BodyRow

end
-- ==== Proof.BodyRow1000.lean ====
/-
  What the body of each kernel on blocks of 1000 rows leaves in its output block, read at an entry: the block is
  written by one store of the whole block and every input block is read by one load of the whole block, so the
  entry (r, j) is the body's arithmetic on the blocks themselves — the specification's row function at row r.
-/
import proofs.«172654_j31121333027532_2_alg».proof.Proof.FrameIdealP
import proofs.«172654_j31121333027532_2_alg».proof.Proof.BodyPay1000

noncomputable section

namespace Cert.BodyRow

open Idealize.ShloMosaic Idealize.ShloMosaic.ValueIdx
open Cert.KernelIdeal Cert.KernelIdeal.Gen Cert.KernelIdeal.GenP

/-- The offsets of a whole-block access of a matrix are zero. -/
private theorem zero2 : (![0, 0] : Fin 2 → Nat) = fun _ => 0 := funext fun a => by fin_cases a <;> rfl

/-- The offset of a whole-block access of a vector is zero. -/
private theorem zero1 : (![0] : Fin 1 → Nat) = fun _ => 0 := funext fun a => by fin_cases a; rfl

/-- What kernel 2's body leaves in its output block (1000 rows), read at (r, j): the specification's row function at
    row r of the point's input blocks.  The block is stored whole and every input is loaded whole, so the stored
    block is the payload and each load is the block itself. -/
theorem out2_13_apply (x0 x2 x4 : Vec Ideal S1000x128 .f32) (x1 x3 : Vec Ideal S1000x1 .f32)
    (x5 x6 x7 x8 : Vec Ideal S128x128 .bf16) (x9 x10 x11 x12 : Vec Ideal S128 .f32) (r : Fin 1000) (j : Fin 128) :
    Cert.KernelIdeal.GenP.out2_13 (F := Ideal) x0 x1 x2 x3 x4 x5 x6 x7 x8 x9 x10 x11 x12 (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  unfold Cert.KernelIdeal.GenP.out2_13
  rw [View.canon_unit_zero zero2]
  simp only [View.ld_unit_zero (S := S1000x128) zero2, View.ld_unit_zero (S := S1000x1) zero2,
    View.ld_unit_zero (S := S128x128) zero2, View.ld_unit_zero (S := S128) zero1]
  exact pay2_apply x0 x2 x4 x1 x3 x5 x6 x7 x8 x9 x10 x11 x12 r j

/-- What kernel 5's body leaves in its output block (1000 rows), read at (r, j): the specification's row function at
    row r of the point's input blocks.  The block is stored whole and every input is loaded whole, so the stored
    block is the payload and each load is the block itself. -/
theorem out5_13_apply (x0 x2 x4 : Vec Ideal S1000x128 .f32) (x1 x3 : Vec Ideal S1000x1 .f32)
    (x5 x6 x7 x8 : Vec Ideal S128x128 .bf16) (x9 x10 x11 x12 : Vec Ideal S128 .f32) (r : Fin 1000) (j : Fin 128) :
    Cert.KernelIdeal.GenP.out5_13 (F := Ideal) x0 x1 x2 x3 x4 x5 x6 x7 x8 x9 x10 x11 x12 (ix2 r j)
      = Cert.RowSpec.rowOut (fun k => x0 (ix2 r k) * x1 (ix2 r 0)) (fun k => x2 (ix2 r k) * x3 (ix2 r 0))
          (fun k => x4 (ix2 r k)) (fun k j => x5 (ix2 k j)) (fun k j => x6 (ix2 k j)) (fun k j => x7 (ix2 k j))
          (fun k j => x8 (ix2 k j)) (fun j => x9 (ix1 j)) (fun j => x10 (ix1 j)) (fun j => x11 (ix1 j))
          (fun j => x12 (ix1 j)) j := by
  unfold Cert.KernelIdeal.GenP.out5_13
  rw [View.canon_unit_zero zero2]
  simp only [View.ld_unit_zero (S := S1000x128) zero2, View.ld_unit_zero (S := S1000x1) zero2,
    View.ld_unit_zero (S := S128x128) zero2, View.ld_unit_zero (S := S128) zero1]
  exact pay5_apply x0 x2 x4 x1 x3 x5 x6 x7 x8 x9 x10 x11 x12 r j

end Cert.BodyRow

end
-- ==== Proof.Blocks2.lean ====
/-
  Launch 2, from blocks to the array: the grid points' blocks tile the output array row block by row block, each input
  block is the matching rows of its array (a matrix or a vector is one block), so the output array ends holding the
  layer's output over the arrays the launch finds.
-/
import proofs.«172654_j31121333027532_2_alg».proof.Proof.FrameIdealP
import proofs.«172654_j31121333027532_2_alg».proof.Proof.RowSpec
import proofs.«172654_j31121333027532_2_alg».proof.Proof.BodyRow1000
import Idealize.ShloMosaic.Lib.Pipeline.Value
import Idealize.ShloMosaic.Lib.ValueIdx

set_option maxRecDepth 16384

noncomputable section

namespace Cert.Blocks

open Cert.KernelIdeal Cert.KernelIdeal.Gen Cert.KernelIdeal.GenP Cert.RowSpec Cert.BodyRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 2: 5000 rows in blocks of 1000 -/

/-- The block index maps over the grid: a row window's block at point `t` is block row `t`, column block 0; a matrix or a vector is
    one block. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0
    ∧ win2_13.index t (0 : Fin 2) = t.val
    ∧ win2_13.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 1) = 0
    ∧ win2_10.index t (0 : Fin 1) = 0
    ∧ win2_11.index t (0 : Fin 1) = 0
    ∧ win2_12.index t (0 : Fin 1) = 0 :=
  (by decide +kernel : ∀ t : Fin grid2.N, _)

/-- The array row that row `p` of point `t`'s block is. -/
def row2 (t : Fin cfg2.N) (p : Fin 1000) : Fin 5000 :=
  ⟨t.val * 1000 + p.val, by have h := lt_of_lt_of_eq t.isLt N_2; have := p.isLt; omega⟩

theorem blk2_0 (c : Dev nD) (t : Fin cfg2.N) (p : Fin 1000) (k : Fin 128) :
    iblk2 V c 0 t (ix2 p k) = (V c main_v132 : S5000x128.Idx → EReal) (ix2 (row2 t p) k) := by
  show (V c main_v132 : S5000x128.Idx → EReal) (((cfg2.win 0).blk t).view.emb (ix2 p k)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_0.index t (0 : Fin 2) * 1000 + 1 * p.val = t.val * 1000 + p.val; rw [f0]; omega
  | ⟨1, _⟩ => show win2_0.index t (1 : Fin 2) * 128 + 1 * k.val = k.val; rw [f1]; omega

theorem blk2_2 (c : Dev nD) (t : Fin cfg2.N) (p : Fin 1000) (k : Fin 128) :
    iblk2 V c 2 t (ix2 p k) = (V c main_v152 : S5000x128.Idx → EReal) (ix2 (row2 t p) k) := by
  show (V c main_v152 : S5000x128.Idx → EReal) (((cfg2.win 2).blk t).view.emb (ix2 p k)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_2.index t (0 : Fin 2) * 1000 + 1 * p.val = t.val * 1000 + p.val; rw [f4]; omega
  | ⟨1, _⟩ => show win2_2.index t (1 : Fin 2) * 128 + 1 * k.val = k.val; rw [f5]; omega

theorem blk2_4 (c : Dev nD) (t : Fin cfg2.N) (p : Fin 1000) (k : Fin 128) :
    iblk2 V c 4 t (ix2 p k) = (V c main_v14 : S5000x128.Idx → EReal) (ix2 (row2 t p) k) := by
  show (V c main_v14 : S5000x128.Idx → EReal) (((cfg2.win 4).blk t).view.emb (ix2 p k)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_4.index t (0 : Fin 2) * 1000 + 1 * p.val = t.val * 1000 + p.val; rw [f8]; omega
  | ⟨1, _⟩ => show win2_4.index t (1 : Fin 2) * 128 + 1 * k.val = k.val; rw [f9]; omega

theorem blk2_1 (c : Dev nD) (t : Fin cfg2.N) (p : Fin 1000) :
    iblk2 V c 1 t (ix2 p (0 : Fin 1)) = (V c main_v65 : S5000x1.Idx → EReal) (ix2 (row2 t p) (0 : Fin 1)) := by
  show (V c main_v65 : S5000x1.Idx → EReal) (((cfg2.win 1).blk t).view.emb (ix2 p (0 : Fin 1))) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_1.index t (0 : Fin 2) * 1000 + 1 * p.val = t.val * 1000 + p.val; rw [f2]; omega
  | ⟨1, _⟩ => show win2_1.index t (1 : Fin 2) * 1 + 1 * 0 = 0; rw [f3]

theorem blk2_3 (c : Dev nD) (t : Fin cfg2.N) (p : Fin 1000) :
    iblk2 V c 3 t (ix2 p (0 : Fin 1)) = (V c main_v83 : S5000x1.Idx → EReal) (ix2 (row2 t p) (0 : Fin 1)) := by
  show (V c main_v83 : S5000x1.Idx → EReal) (((cfg2.win 3).blk t).view.emb (ix2 p (0 : Fin 1))) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_3.index t (0 : Fin 2) * 1000 + 1 * p.val = t.val * 1000 + p.val; rw [f6]; omega
  | ⟨1, _⟩ => show win2_3.index t (1 : Fin 2) * 1 + 1 * 0 = 0; rw [f7]

theorem blk2_5 (c : Dev nD) (t : Fin cfg2.N) (k j : Fin 128) :
    iblk2 V c 5 t (ix2 k j) = (V c main_v198 : S128x128.Idx → EReal) (ix2 k j) := by
  show (V c main_v198 : S128x128.Idx → EReal) (((cfg2.win 5).blk t).view.emb (ix2 k j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_5.index t (0 : Fin 2) * 128 + 1 * k.val = k.val; rw [f12]; omega
  | ⟨1, _⟩ => show win2_5.index t (1 : Fin 2) * 128 + 1 * j.val = j.val; rw [f13]; omega

theorem blk2_6 (c : Dev nD) (t : Fin cfg2.N) (k j : Fin 128) :
    iblk2 V c 6 t (ix2 k j) = (V c main_v200 : S128x128.Idx → EReal) (ix2 k j) := by
  show (V c main_v200 : S128x128.Idx → EReal) (((cfg2.win 6).blk t).view.emb (ix2 k j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_6.index t (0 : Fin 2) * 128 + 1 * k.val = k.val; rw [f14]; omega
  | ⟨1, _⟩ => show win2_6.index t (1 : Fin 2) * 128 + 1 * j.val = j.val; rw [f15]; omega

theorem blk2_7 (c : Dev nD) (t : Fin cfg2.N) (k j : Fin 128) :
    iblk2 V c 7 t (ix2 k j) = (V c main_v202 : S128x128.Idx → EReal) (ix2 k j) := by
  show (V c main_v202 : S128x128.Idx → EReal) (((cfg2.win 7).blk t).view.emb (ix2 k j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_7.index t (0 : Fin 2) * 128 + 1 * k.val = k.val; rw [f16]; omega
  | ⟨1, _⟩ => show win2_7.index t (1 : Fin 2) * 128 + 1 * j.val = j.val; rw [f17]; omega

theorem blk2_8 (c : Dev nD) (t : Fin cfg2.N) (k j : Fin 128) :
    iblk2 V c 8 t (ix2 k j) = (V c main_v204 : S128x128.Idx → EReal) (ix2 k j) := by
  show (V c main_v204 : S128x128.Idx → EReal) (((cfg2.win 8).blk t).view.emb (ix2 k j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_8.index t (0 : Fin 2) * 128 + 1 * k.val = k.val; rw [f18]; omega
  | ⟨1, _⟩ => show win2_8.index t (1 : Fin 2) * 128 + 1 * j.val = j.val; rw [f19]; omega

theorem blk2_9 (c : Dev nD) (t : Fin cfg2.N) (j : Fin 128) :
    iblk2 V c 9 t (ix1 j) = (V c main_v206 : S128.Idx → EReal) (ix1 j) := by
  show (V c main_v206 : S128.Idx → EReal) (((cfg2.win 9).blk t).view.emb (ix1 j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_9.index t (0 : Fin 1) * 128 + 1 * j.val = j.val; rw [f20]; omega

theorem blk2_10 (c : Dev nD) (t : Fin cfg2.N) (j : Fin 128) :
    iblk2 V c 10 t (ix1 j) = (V c main_v208 : S128.Idx → EReal) (ix1 j) := by
  show (V c main_v208 : S128.Idx → EReal) (((cfg2.win 10).blk t).view.emb (ix1 j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_10.index t (0 : Fin 1) * 128 + 1 * j.val = j.val; rw [f21]; omega

theorem blk2_11 (c : Dev nD) (t : Fin cfg2.N) (j : Fin 128) :
    iblk2 V c 11 t (ix1 j) = (V c main_v210 : S128.Idx → EReal) (ix1 j) := by
  show (V c main_v210 : S128.Idx → EReal) (((cfg2.win 11).blk t).view.emb (ix1 j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_11.index t (0 : Fin 1) * 128 + 1 * j.val = j.val; rw [f22]; omega

theorem blk2_12 (c : Dev nD) (t : Fin cfg2.N) (j : Fin 128) :
    iblk2 V c 12 t (ix1 j) = (V c main_v212 : S128.Idx → EReal) (ix1 j) := by
  show (V c main_v212 : S128.Idx → EReal) (((cfg2.win 12).blk t).view.emb (ix1 j)) = _
  obtain ⟨f0, f1, f2, f3, f4, f5, f6, f7, f8, f9, f10, f11, f12, f13, f14, f15, f16, f17, f18, f19, f20, f21, f22, f23⟩ := idx_facts2 t
  refine congrArg _ (funext fun a => Fin.ext ?_)
  match a with
  | ⟨0, _⟩ => show win2_12.index t (0 : Fin 1) * 128 + 1 * j.val = j.val; rw [f23]; omega

/-- The layer's output over the arrays launch 2 reads, as it finds them. -/
def G2 (c : Dev nD) : S5000x128.Idx → EReal := fun i =>
  layerAt (n := 5000) (V c main_v132 : S5000x128.Idx → EReal) (V c main_v65 : S5000x1.Idx → EReal) (V c main_v152 : S5000x128.Idx → EReal) (V c main_v83 : S5000x1.Idx → EReal) (V c main_v14 : S5000x128.Idx → EReal) (V c main_v198 : S128x128.Idx → EReal) (V c main_v200 : S128x128.Idx → EReal) (V c main_v202 : S128x128.Idx → EReal) (V c main_v204 : S128x128.Idx → EReal) (V c main_v206 : S128.Idx → EReal) (V c main_v208 : S128.Idx → EReal) (V c main_v210 : S128.Idx → EReal) (V c main_v212 : S128.Idx → EReal) (i 0) (i 1)

theorem emb2_13 (t : Fin cfg2.N) (p : Fin 1000) (q : Fin 128) :
    ((cfg2.win 13).blk t).view.emb (ix2 p q) = (ix2 (row2 t p) q : S5000x128.Idx) := by
  obtain ⟨f0, f1, f2, f3, f4, f5, f6, f7, f8, f9, f10, f11, f12, f13, f14, f15, f16, f17, f18, f19, f20, f21, f22, f23⟩ := idx_facts2 t
  refine funext fun a => Fin.ext ?_
  match a with
  | ⟨0, _⟩ => show win2_13.index t (0 : Fin 2) * 1000 + 1 * p.val = t.val * 1000 + p.val; rw [f10]; omega
  | ⟨1, _⟩ => show win2_13.index t (1 : Fin 2) * 128 + 1 * q.val = q.val; rw [f11]; omega

set_option maxHeartbeats 4000000 in
/-- What point `t` writes back is block `t` of the layer's output over the entry arrays. -/
theorem flushed2_eq (c : Dev nD) (t : Fin cfg2.N) :
    (dat2 V c).flushed 13 t = ((cfg2.win 13).blk t).view.read (Elt Ideal) (G2 V c) := by
  show (cfg2.win 13).cut (grid2.coords t) ((dat2 V c).after 13 t) = _
  rw [after2_13]
  funext y
  obtain ⟨p, q, rfl⟩ : ∃ (p : Fin 1000) (q : Fin 128), y = ix2 p q := ⟨y 0, y 1, eq_ix2 y⟩
  show out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 p q) = G2 V c (((cfg2.win 13).blk t).view.emb (ix2 p q))
  rw [emb2_13]
  refine (out2_13_apply (iblk2 V c 0 t) (iblk2 V c 2 t) (iblk2 V c 4 t) (iblk2 V c 1 t) (iblk2 V c 3 t) (iblk2 V c 5 t) (iblk2 V c 6 t) (iblk2 V c 7 t) (iblk2 V c 8 t) (iblk2 V c 9 t) (iblk2 V c 10 t) (iblk2 V c 11 t) (iblk2 V c 12 t) p q).trans ?_
  exact rowOut_congr (fun k => by rw [blk2_0 V c t p k, blk2_1 V c t p]) (fun k => by rw [blk2_2 V c t p k, blk2_3 V c t p]) (fun k => blk2_4 V c t p k)
    (fun k j => blk2_5 V c t k j) (fun k j => blk2_6 V c t k j) (fun k j => blk2_7 V c t k j) (fun k j => blk2_8 V c t k j)
    (fun j => blk2_9 V c t j) (fun j => blk2_10 V c t j) (fun j => blk2_11 V c t j) (fun j => blk2_12 V c t j) rfl

/-- Every row lies in the block of the point its block row names. -/
theorem cover2 (i : S5000x128.Idx) : ∃ t : Fin cfg2.N, (cfg2.win 13).flush t = true ∧ i ∈ ((cfg2.win 13).blk t).view.set := by
  have h0 : (i 0).val < 5000 := (i 0).isLt
  have h1 : (i 1).val < 128 := (i 1).isLt
  have hN : cfg2.N = 5 := N_2
  let t : Fin cfg2.N := ⟨(i 0).val / 1000, by rw [hN]; omega⟩
  refine ⟨t, flush2_13 t, ?_⟩
  show i ∈ ((View.whole main_v213).slice (win2_13.rect t)).set
  rw [View.set_slice_whole, Rect.mem_set_unit]
  obtain ⟨f0, f1, f2, f3, f4, f5, f6, f7, f8, f9, f10, f11, f12, f13, f14, f15, f16, f17, f18, f19, f20, f21, f22, f23⟩ := idx_facts2 t
  intro a
  match a with
  | ⟨0, _⟩ => show win2_13.index t (0 : Fin 2) * 1000 ≤ (i 0).val ∧ (i 0).val < win2_13.index t (0 : Fin 2) * 1000 + 1000; rw [f10]; show (i 0).val / 1000 * 1000 ≤ (i 0).val ∧ (i 0).val < (i 0).val / 1000 * 1000 + 1000; omega
  | ⟨1, _⟩ => show win2_13.index t (1 : Fin 2) * 128 ≤ (i 1).val ∧ (i 1).val < win2_13.index t (1 : Fin 2) * 128 + 128; rw [f11]; omega

/-- After launch 2 its output array holds the layer's output over the arrays it read. -/
theorem final2 (c : Dev nD) : (dat2 V c).arrAt 13 cfg2.N = G2 V c :=
  (dat2 V c).arrAt_eq_of_cover 13 (G2 V c) (fun t _ => flushed2_eq V c t) (cover2)

end Cert.Blocks

end
-- ==== Proof.KBorn2.lean ====
/-
  What stretch 2 of host operations leaves in the buffers the launches read, each as the composition of its
  operations over the buffers the stretch finds.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

set_option maxHeartbeats 4000000 in
theorem born2 (c : Dev nD) :
    W5 m ρ c (Proc.devRef .tc main_v198) = (shapeCast _ (extractStridedSlice S1x128x128 ![2, 0, 0] (W4 m ρ c (Proc.devRef .tc main_v100)) slices_S6x128x128_S1x128x128_2_0_0) shapeCasts_S1x128x128_S128x128)
    ∧ W5 m ρ c (Proc.devRef .tc main_v200) = (shapeCast _ (extractStridedSlice S1x128x128 ![4, 0, 0] (W4 m ρ c (Proc.devRef .tc main_v100)) slices_S6x128x128_S1x128x128_4_0_0) shapeCasts_S1x128x128_S128x128)
    ∧ W5 m ρ c (Proc.devRef .tc main_v202) = (shapeCast _ (extractStridedSlice S1x128x128 ![2, 0, 0] (W4 m ρ c (Proc.devRef .tc main_v102)) slices_S6x128x128_S1x128x128_2_0_0) shapeCasts_S1x128x128_S128x128)
    ∧ W5 m ρ c (Proc.devRef .tc main_v204) = (shapeCast _ (extractStridedSlice S1x128x128 ![4, 0, 0] (W4 m ρ c (Proc.devRef .tc main_v102)) slices_S6x128x128_S1x128x128_4_0_0) shapeCasts_S1x128x128_S128x128)
    ∧ W5 m ρ c (Proc.devRef .tc main_v206) = (shapeCast _ (extractStridedSlice S1x128 ![2, 0] (W4 m ρ c (Proc.devRef .tc main_v96)) slices_S6x128_S1x128_2_0) shapeCasts_S1x128_S128)
    ∧ W5 m ρ c (Proc.devRef .tc main_v208) = (shapeCast _ (extractStridedSlice S1x128 ![4, 0] (W4 m ρ c (Proc.devRef .tc main_v96)) slices_S6x128_S1x128_4_0) shapeCasts_S1x128_S128)
    ∧ W5 m ρ c (Proc.devRef .tc main_v210) = (shapeCast _ (extractStridedSlice S1x1x128 ![0, 2, 0] (W4 m ρ c (Proc.devRef .tc main_arg18)) slices_S2x3x128_S1x1x128_0_2_0) shapeCasts_S1x1x128_S128)
    ∧ W5 m ρ c (Proc.devRef .tc main_v212) = (shapeCast _ (extractStridedSlice S1x1x128 ![0, 2, 0] (W4 m ρ c (Proc.devRef .tc main_arg19)) slices_S2x3x128_S1x1x128_0_2_0) shapeCasts_S1x1x128_S128) := by
  show StableHlo.after hostOps2 (W4 m ρ c) (Proc.devRef .tc main_v198) = (shapeCast _ (extractStridedSlice S1x128x128 ![2, 0, 0] (W4 m ρ c (Proc.devRef .tc main_v100)) slices_S6x128x128_S1x128x128_2_0_0) shapeCasts_S1x128x128_S128x128)
    ∧ StableHlo.after hostOps2 (W4 m ρ c) (Proc.devRef .tc main_v200) = (shapeCast _ (extractStridedSlice S1x128x128 ![4, 0, 0] (W4 m ρ c (Proc.devRef .tc main_v100)) slices_S6x128x128_S1x128x128_4_0_0) shapeCasts_S1x128x128_S128x128)
    ∧ StableHlo.after hostOps2 (W4 m ρ c) (Proc.devRef .tc main_v202) = (shapeCast _ (extractStridedSlice S1x128x128 ![2, 0, 0] (W4 m ρ c (Proc.devRef .tc main_v102)) slices_S6x128x128_S1x128x128_2_0_0) shapeCasts_S1x128x128_S128x128)
    ∧ StableHlo.after hostOps2 (W4 m ρ c) (Proc.devRef .tc main_v204) = (shapeCast _ (extractStridedSlice S1x128x128 ![4, 0, 0] (W4 m ρ c (Proc.devRef .tc main_v102)) slices_S6x128x128_S1x128x128_4_0_0) shapeCasts_S1x128x128_S128x128)
    ∧ StableHlo.after hostOps2 (W4 m ρ c) (Proc.devRef .tc main_v206) = (shapeCast _ (extractStridedSlice S1x128 ![2, 0] (W4 m ρ c (Proc.devRef .tc main_v96)) slices_S6x128_S1x128_2_0) shapeCasts_S1x128_S128)
    ∧ StableHlo.after hostOps2 (W4 m ρ c) (Proc.devRef .tc main_v208) = (shapeCast _ (extractStridedSlice S1x128 ![4, 0] (W4 m ρ c (Proc.devRef .tc main_v96)) slices_S6x128_S1x128_4_0) shapeCasts_S1x128_S128)
    ∧ StableHlo.after hostOps2 (W4 m ρ c) (Proc.devRef .tc main_v210) = (shapeCast _ (extractStridedSlice S1x1x128 ![0, 2, 0] (W4 m ρ c (Proc.devRef .tc main_arg18)) slices_S2x3x128_S1x1x128_0_2_0) shapeCasts_S1x1x128_S128)
    ∧ StableHlo.after hostOps2 (W4 m ρ c) (Proc.devRef .tc main_v212) = (shapeCast _ (extractStridedSlice S1x1x128 ![0, 2, 0] (W4 m ρ c (Proc.devRef .tc main_arg19)) slices_S2x3x128_S1x1x128_0_2_0) shapeCasts_S1x1x128_S128)
  after_results_simp
  all_goals (first | done | (repeat' constructor) <;> rfl)

theorem born_v198 (c : Dev nD) : W5 m ρ c (Proc.devRef .tc main_v198) = (shapeCast _ (extractStridedSlice S1x128x128 ![2, 0, 0] (W4 m ρ c (Proc.devRef .tc main_v100)) slices_S6x128x128_S1x128x128_2_0_0) shapeCasts_S1x128x128_S128x128) :=
  (born2 m ρ c).1

theorem born_v200 (c : Dev nD) : W5 m ρ c (Proc.devRef .tc main_v200) = (shapeCast _ (extractStridedSlice S1x128x128 ![4, 0, 0] (W4 m ρ c (Proc.devRef .tc main_v100)) slices_S6x128x128_S1x128x128_4_0_0) shapeCasts_S1x128x128_S128x128) :=
  (born2 m ρ c).2.1

theorem born_v202 (c : Dev nD) : W5 m ρ c (Proc.devRef .tc main_v202) = (shapeCast _ (extractStridedSlice S1x128x128 ![2, 0, 0] (W4 m ρ c (Proc.devRef .tc main_v102)) slices_S6x128x128_S1x128x128_2_0_0) shapeCasts_S1x128x128_S128x128) :=
  (born2 m ρ c).2.2.1

theorem born_v204 (c : Dev nD) : W5 m ρ c (Proc.devRef .tc main_v204) = (shapeCast _ (extractStridedSlice S1x128x128 ![4, 0, 0] (W4 m ρ c (Proc.devRef .tc main_v102)) slices_S6x128x128_S1x128x128_4_0_0) shapeCasts_S1x128x128_S128x128) :=
  (born2 m ρ c).2.2.2.1

theorem born_v206 (c : Dev nD) : W5 m ρ c (Proc.devRef .tc main_v206) = (shapeCast _ (extractStridedSlice S1x128 ![2, 0] (W4 m ρ c (Proc.devRef .tc main_v96)) slices_S6x128_S1x128_2_0) shapeCasts_S1x128_S128) :=
  (born2 m ρ c).2.2.2.2.1

theorem born_v208 (c : Dev nD) : W5 m ρ c (Proc.devRef .tc main_v208) = (shapeCast _ (extractStridedSlice S1x128 ![4, 0] (W4 m ρ c (Proc.devRef .tc main_v96)) slices_S6x128_S1x128_4_0) shapeCasts_S1x128_S128) :=
  (born2 m ρ c).2.2.2.2.2.1

theorem born_v210 (c : Dev nD) : W5 m ρ c (Proc.devRef .tc main_v210) = (shapeCast _ (extractStridedSlice S1x1x128 ![0, 2, 0] (W4 m ρ c (Proc.devRef .tc main_arg18)) slices_S2x3x128_S1x1x128_0_2_0) shapeCasts_S1x1x128_S128) :=
  (born2 m ρ c).2.2.2.2.2.2.1

theorem born_v212 (c : Dev nD) : W5 m ρ c (Proc.devRef .tc main_v212) = (shapeCast _ (extractStridedSlice S1x1x128 ![0, 2, 0] (W4 m ρ c (Proc.devRef .tc main_arg19)) slices_S2x3x128_S1x1x128_0_2_0) shapeCasts_S1x1x128_S128) :=
  (born2 m ρ c).2.2.2.2.2.2.2

end Cert.KStages

end
-- ==== Proof.RefSite0s.lean ====
/-
  The reference program's node-type output of layer 0 for the store nodes, read at a row and a feature:
  it is the row function `Cert.RowSpec.rowOut` of the two neighbour means (relations 2 and 4), the node's own
  features, and the slices of the weights, biases, scale and shift that the layer and the relations select.
  Every step is unfolding an operation at an index and identifying the composed index maps with coordinates.
-/
import proofs.«172654_j31121333027532_2_alg».proof.Proof.ReadP
import proofs.«172654_j31121333027532_2_alg».proof.Proof.RowSpec

set_option maxHeartbeats 1600000

noncomputable section

namespace Cert.RefSite

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x5 : (⟨S2x300000, .i32⟩ : BufTy).Contents (Elt Ideal))
  (x7 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

/-- The neighbour matrix of relation 2, transposed for the product: entry `(k, j)` is `Wl[0, 2, j, k]`. -/
theorem wl_0_s_a (k j : Fin 128) :
    val_main_v124 (F := Ideal) x15 (ix2 k j) = x15 (ix4 (0 : Fin 2) (2 : Fin 6) j k) := by
  rw [val_main_v124_apply, val_main_v96_apply, val_main_v95_apply, val_main_v16_apply, val_main_v15_apply]
  refine congrArg x15 (funext fun e => Fin.ext ?_)
  have hj := j.isLt
  have hk := k.isLt
  match e with
  | ⟨0, _⟩ => rfl
  | ⟨1, _⟩ =>
    show (((2 + 0) * 128 + (j.val * 128 + k.val) / 128 % 128) * 128 + (j.val * 128 + k.val) % 128) / 16384 % 6 = 2
    omega
  | ⟨2, _⟩ =>
    show (((2 + 0) * 128 + (j.val * 128 + k.val) / 128 % 128) * 128 + (j.val * 128 + k.val) % 128) / 128 % 128 = j.val
    omega
  | ⟨3, _⟩ =>
    show (((2 + 0) * 128 + (j.val * 128 + k.val) / 128 % 128) * 128 + (j.val * 128 + k.val) % 128) % 128 = k.val
    omega

/-- The root matrix of relation 2, transposed for the product: entry `(k, j)` is `Wr[0, 2, j, k]`. -/
theorem wr_0_s_a (k j : Fin 128) :
    val_main_v129 (F := Ideal) x17 (ix2 k j) = x17 (ix4 (0 : Fin 2) (2 : Fin 6) j k) := by
  rw [val_main_v129_apply, val_main_v100_apply, val_main_v99_apply, val_main_v20_apply, val_main_v19_apply]
  refine congrArg x17 (funext fun e => Fin.ext ?_)
  have hj := j.isLt
  have hk := k.isLt
  match e with
  | ⟨0, _⟩ => rfl
  | ⟨1, _⟩ =>
    show (((2 + 0) * 128 + (j.val * 128 + k.val) / 128 % 128) * 128 + (j.val * 128 + k.val) % 128) / 16384 % 6 = 2
    omega
  | ⟨2, _⟩ =>
    show (((2 + 0) * 128 + (j.val * 128 + k.val) / 128 % 128) * 128 + (j.val * 128 + k.val) % 128) / 128 % 128 = j.val
    omega
  | ⟨3, _⟩ =>
    show (((2 + 0) * 128 + (j.val * 128 + k.val) / 128 % 128) * 128 + (j.val * 128 + k.val) % 128) % 128 = k.val
    omega

/-- The bias of relation 2, repeated along the rows: entry `(r, j)` is `bl[0, 2, j]`. -/
theorem bl_0_s_a (r : Fin 5000) (j : Fin 128) :
    val_main_v127 (F := Ideal) x16 (ix2 r j) = x16 (ix3 (0 : Fin 2) (2 : Fin 6) j) := by
  rw [val_main_v127_apply, val_main_v126_apply, val_main_v98_apply, val_main_v97_apply, val_main_v18_apply, val_main_v17_apply]
  refine congrArg x16 (funext fun e => Fin.ext ?_)
  have hj := j.isLt
  match e with
  | ⟨0, _⟩ => rfl
  | ⟨1, _⟩ =>
    show ((2 + 0) * 128 + j.val % 128) / 128 % 6 = 2
    omega
  | ⟨2, _⟩ =>
    show ((2 + 0) * 128 + j.val % 128) % 128 = j.val
    omega

/-- The neighbour mean of relation 2: the neighbour sum divided by the larger of the neighbour count and one. -/
theorem msg_0_s_a (r : Fin 5000) (k : Fin 128) :
    val_main_v123 (F := Ideal) x0 x5 x9 x10 (ix2 r k)
      = Ideal.div (val_main_v114 (F := Ideal) x0 x5 x9 x10 (ix2 r k)) (max (val_main_v118 (F := Ideal) x5 (ix1 r)) Cert.RowSpec.one32) := by
  rw [val_main_v123_apply, val_main_v122_apply, val_main_v121_apply, val_main_v120_apply, val_main_v119_apply, val_main_cst_15_apply]
  have h : idx_main_v121 (idx_main_v122 (ix2 r k)) = ix1 r := funext fun e => by match e with | ⟨0, _⟩ => rfl
  rw [h]
  rfl

/-- The output of relation 2 at a row and a feature. -/
theorem rel_0_s_a (r : Fin 5000) (j : Fin 128) :
    val_main_v131 (F := Ideal) x0 x2 x5 x9 x10 x13 x14 x15 x16 x17 (ix2 r j)
      = Cert.RowSpec.rel
          (fun k => Ideal.div (val_main_v114 (F := Ideal) x0 x5 x9 x10 (ix2 r k)) (max (val_main_v118 (F := Ideal) x5 (ix1 r)) Cert.RowSpec.one32))
          (fun k => val_main_v14 (F := Ideal) x2 x13 x14 (ix2 r k))
          (fun k j => x15 (ix4 (0 : Fin 2) (2 : Fin 6) j k)) (fun k j => x17 (ix4 (0 : Fin 2) (2 : Fin 6) j k))
          (fun j => x16 (ix3 (0 : Fin 2) (2 : Fin 6) j)) j := by
  rw [val_main_v131_apply, val_main_v128_apply, val_main_v125_apply, val_main_v130_apply]
  have hl1 : ∀ k, lidx_main_v125 (ix2 r j) k = ix2 r k := fun k => funext fun e => by match e with | ⟨0, _⟩ => rfl | ⟨1, _⟩ => rfl
  have hr1 : ∀ k, ridx_main_v125 (ix2 r j) k = ix2 k j := fun k => funext fun e => by match e with | ⟨0, _⟩ => rfl | ⟨1, _⟩ => rfl
  have hl2 : ∀ k, lidx_main_v130 (ix2 r j) k = ix2 r k := fun k => funext fun e => by match e with | ⟨0, _⟩ => rfl | ⟨1, _⟩ => rfl
  have hr2 : ∀ k, ridx_main_v130 (ix2 r j) k = ix2 k j := fun k => funext fun e => by match e with | ⟨0, _⟩ => rfl | ⟨1, _⟩ => rfl
  simp only [hl1, hr1, hl2, hr2, msg_0_s_a, wl_0_s_a, wr_0_s_a, bl_0_s_a]
  rfl

/-- The neighbour matrix of relation 4, transposed for the product: entry `(k, j)` is `Wl[0, 4, j, k]`. -/
theorem wl_0_s_b (k j : Fin 128) :
    val_main_v198 (F := Ideal) x15 (ix2 k j) = x15 (ix4 (0 : Fin 2) (4 : Fin 6) j k) := by
  rw [val_main_v198_apply, val_main_v170_apply, val_main_v169_apply, val_main_v16_apply, val_main_v15_apply]
  refine congrArg x15 (funext fun e => Fin.ext ?_)
  have hj := j.isLt
  have hk := k.isLt
  match e with
  | ⟨0, _⟩ => rfl
  | ⟨1, _⟩ =>
    show (((4 + 0) * 128 + (j.val * 128 + k.val) / 128 % 128) * 128 + (j.val * 128 + k.val) % 128) / 16384 % 6 = 4
    omega
  | ⟨2, _⟩ =>
    show (((4 + 0) * 128 + (j.val * 128 + k.val) / 128 % 128) * 128 + (j.val * 128 + k.val) % 128) / 128 % 128 = j.val
    omega
  | ⟨3, _⟩ =>
    show (((4 + 0) * 128 + (j.val * 128 + k.val) / 128 % 128) * 128 + (j.val * 128 + k.val) % 128) % 128 = k.val
    omega

/-- The root matrix of relation 4, transposed for the product: entry `(k, j)` is `Wr[0, 4, j, k]`. -/
theorem wr_0_s_b (k j : Fin 128) :
    val_main_v203 (F := Ideal) x17 (ix2 k j) = x17 (ix4 (0 : Fin 2) (4 : Fin 6) j k) := by
  rw [val_main_v203_apply, val_main_v174_apply, val_main_v173_apply, val_main_v20_apply, val_main_v19_apply]
  refine congrArg x17 (funext fun e => Fin.ext ?_)
  have hj := j.isLt
  have hk := k.isLt
  match e with
  | ⟨0, _⟩ => rfl
  | ⟨1, _⟩ =>
    show (((4 + 0) * 128 + (j.val * 128 + k.val) / 128 % 128) * 128 + (j.val * 128 + k.val) % 128) / 16384 % 6 = 4
    omega
  | ⟨2, _⟩ =>
    show (((4 + 0) * 128 + (j.val * 128 + k.val) / 128 % 128) * 128 + (j.val * 128 + k.val) % 128) / 128 % 128 = j.val
    omega
  | ⟨3, _⟩ =>
    show (((4 + 0) * 128 + (j.val * 128 + k.val) / 128 % 128) * 128 + (j.val * 128 + k.val) % 128) % 128 = k.val
    omega

/-- The bias of relation 4, repeated along the rows: entry `(r, j)` is `bl[0, 4, j]`. -/
theorem bl_0_s_b (r : Fin 5000) (j : Fin 128) :
    val_main_v201 (F := Ideal) x16 (ix2 r j) = x16 (ix3 (0 : Fin 2) (4 : Fin 6) j) := by
  rw [val_main_v201_apply, val_main_v200_apply, val_main_v172_apply, val_main_v171_apply, val_main_v18_apply, val_main_v17_apply]
  refine congrArg x16 (funext fun e => Fin.ext ?_)
  have hj := j.isLt
  match e with
  | ⟨0, _⟩ => rfl
  | ⟨1, _⟩ =>
    show ((4 + 0) * 128 + j.val % 128) / 128 % 6 = 4
    omega
  | ⟨2, _⟩ =>
    show ((4 + 0) * 128 + j.val % 128) % 128 = j.val
    omega

/-- The neighbour mean of relation 4: the neighbour sum divided by the larger of the neighbour count and one. -/
theorem msg_0_s_b (r : Fin 5000) (k : Fin 128) :
    val_main_v197 (F := Ideal) x1 x7 x11 x12 (ix2 r k)
      = Ideal.div (val_main_v188 (F := Ideal) x1 x7 x11 x12 (ix2 r k)) (max (val_main_v192 (F := Ideal) x7 (ix1 r)) Cert.RowSpec.one32) := by
  rw [val_main_v197_apply, val_main_v196_apply, val_main_v195_apply, val_main_v194_apply, val_main_v193_apply, val_main_cst_27_apply]
  have h : idx_main_v195 (idx_main_v196 (ix2 r k)) = ix1 r := funext fun e => by match e with | ⟨0, _⟩ => rfl
  rw [h]
  rfl

/-- The output of relation 4 at a row and a feature. -/
theorem rel_0_s_b (r : Fin 5000) (j : Fin 128) :
    val_main_v205 (F := Ideal) x1 x2 x7 x11 x12 x13 x14 x15 x16 x17 (ix2 r j)
      = Cert.RowSpec.rel
          (fun k => Ideal.div (val_main_v188 (F := Ideal) x1 x7 x11 x12 (ix2 r k)) (max (val_main_v192 (F := Ideal) x7 (ix1 r)) Cert.RowSpec.one32))
          (fun k => val_main_v14 (F := Ideal) x2 x13 x14 (ix2 r k))
          (fun k j => x15 (ix4 (0 : Fin 2) (4 : Fin 6) j k)) (fun k j => x17 (ix4 (0 : Fin 2) (4 : Fin 6) j k))
          (fun j => x16 (ix3 (0 : Fin 2) (4 : Fin 6) j)) j := by
  rw [val_main_v205_apply, val_main_v202_apply, val_main_v199_apply, val_main_v204_apply]
  have hl1 : ∀ k, lidx_main_v199 (ix2 r j) k = ix2 r k := fun k => funext fun e => by match e with | ⟨0, _⟩ => rfl | ⟨1, _⟩ => rfl
  have hr1 : ∀ k, ridx_main_v199 (ix2 r j) k = ix2 k j := fun k => funext fun e => by match e with | ⟨0, _⟩ => rfl | ⟨1, _⟩ => rfl
  have hl2 : ∀ k, lidx_main_v204 (ix2 r j) k = ix2 r k := fun k => funext fun e => by match e with | ⟨0, _⟩ => rfl | ⟨1, _⟩ => rfl
  have hr2 : ∀ k, ridx_main_v204 (ix2 r j) k = ix2 k j := fun k => funext fun e => by match e with | ⟨0, _⟩ => rfl | ⟨1, _⟩ => rfl
  simp only [hl1, hr1, hl2, hr2, msg_0_s_b, wl_0_s_b, wr_0_s_b, bl_0_s_b]
  rfl

/-- The averaged row before normalisation: one half of the sum of the two relations' outputs. -/
theorem avg_0_s (r : Fin 5000) (j : Fin 128) :
    val_main_v309 (F := Ideal) x0 x1 x2 x5 x7 x9 x10 x11 x12 x13 x14 x15 x16 x17 (ix2 r j)
      = Cert.RowSpec.half32 * (val_main_v131 (F := Ideal) x0 x2 x5 x9 x10 x13 x14 x15 x16 x17 (ix2 r j) + val_main_v205 (F := Ideal) x1 x2 x7 x11 x12 x13 x14 x15 x16 x17 (ix2 r j)) := by
  rw [val_main_v309_apply, val_main_v308_apply, val_main_cst_46_apply, val_main_v307_apply]
  rfl

/-- The row's mean, as the program forms it: the sum from zero over the 128 features, divided by 128. -/
theorem mean_0_s (r : Fin 5000) :
    val_main_v317 (F := Ideal) x0 x1 x2 x5 x7 x9 x10 x11 x12 x13 x14 x15 x16 x17 (ix2 r (0 : Fin 1))
      = Cert.RowSpec.mean (fun j => val_main_v309 (F := Ideal) x0 x1 x2 x5 x7 x9 x10 x11 x12 x13 x14 x15 x16 x17 (ix2 r j)) := by
  rw [val_main_v317_apply, val_main_v315_apply, val_main_v314_apply, val_main_cst_47_apply, val_main_v316_apply, val_main_cst_48_apply]
  have h : ∀ k, idx_main_v314 (idx_main_v315 (ix2 r (0 : Fin 1))) k = ix2 r k := fun k => funext fun e => by match e with | ⟨0, _⟩ => rfl | ⟨1, _⟩ => rfl
  simp only [h]
  rfl

/-- The row's variance: the mean of the squared deviations from the mean. -/
theorem var_0_s (r : Fin 5000) :
    val_main_v324 (F := Ideal) x0 x1 x2 x5 x7 x9 x10 x11 x12 x13 x14 x15 x16 x17 (ix2 r (0 : Fin 1))
      = Cert.RowSpec.mean (fun i =>
          (val_main_v309 (F := Ideal) x0 x1 x2 x5 x7 x9 x10 x11 x12 x13 x14 x15 x16 x17 (ix2 r i) - Cert.RowSpec.mean (fun j => val_main_v309 (F := Ideal) x0 x1 x2 x5 x7 x9 x10 x11 x12 x13 x14 x15 x16 x17 (ix2 r j)))
            * (val_main_v309 (F := Ideal) x0 x1 x2 x5 x7 x9 x10 x11 x12 x13 x14 x15 x16 x17 (ix2 r i) - Cert.RowSpec.mean (fun j => val_main_v309 (F := Ideal) x0 x1 x2 x5 x7 x9 x10 x11 x12 x13 x14 x15 x16 x17 (ix2 r j)))) := by
  rw [val_main_v324_apply, val_main_v322_apply, val_main_v321_apply, val_main_cst_49_apply, val_main_v323_apply, val_main_cst_50_apply]
  have h : ∀ k, idx_main_v321 (idx_main_v322 (ix2 r (0 : Fin 1))) k = ix2 r k := fun k => funext fun e => by match e with | ⟨0, _⟩ => rfl | ⟨1, _⟩ => rfl
  have h0 : ∀ k : Fin 128, idx_main_v318 (ix2 r k) = ix2 r (0 : Fin 1) := fun k => funext fun e => by match e with | ⟨0, _⟩ => rfl | ⟨1, _⟩ => rfl
  simp only [h, val_main_v320_apply, val_main_v319_apply, val_main_v318_apply, h0, mean_0_s]
  rfl

/-- The scale of the normalisation, repeated along the rows: entry `(r, j)` is `gamma[0, 2, j]`. -/
theorem gamma_0_s (r : Fin 5000) (j : Fin 128) :
    val_main_v333 (F := Ideal) x18 (ix2 r j) = x18 (ix3 (0 : Fin 2) (2 : Fin 3) j) := by
  rw [val_main_v333_apply, val_main_v332_apply, val_main_v311_apply, val_main_v310_apply]
  refine congrArg x18 (funext fun e => Fin.ext ?_)
  have hj := j.isLt
  match e with
  | ⟨0, _⟩ => rfl
  | ⟨1, _⟩ => rfl
  | ⟨2, _⟩ =>
    show j.val % 128 = j.val
    omega

/-- The shift of the normalisation, repeated along the rows: entry `(r, j)` is `beta[0, 2, j]`. -/
theorem beta_0_s (r : Fin 5000) (j : Fin 128) :
    val_main_v336 (F := Ideal) x19 (ix2 r j) = x19 (ix3 (0 : Fin 2) (2 : Fin 3) j) := by
  rw [val_main_v336_apply, val_main_v335_apply, val_main_v313_apply, val_main_v312_apply]
  refine congrArg x19 (funext fun e => Fin.ext ?_)
  have hj := j.isLt
  match e with
  | ⟨0, _⟩ => rfl
  | ⟨1, _⟩ => rfl
  | ⟨2, _⟩ =>
    show j.val % 128 = j.val
    omega

/-- The normalised, scaled, shifted row with its negative entries replaced by zero, in terms of the averaged row. -/
theorem out_0_s (r : Fin 5000) (j : Fin 128) :
    val_main_v338 (F := Ideal) x0 x1 x2 x5 x7 x9 x10 x11 x12 x13 x14 x15 x16 x17 x18 x19 (ix2 r j)
      = Cert.RowSpec.lnrelu (fun j => val_main_v309 (F := Ideal) x0 x1 x2 x5 x7 x9 x10 x11 x12 x13 x14 x15 x16 x17 (ix2 r j))
          (fun j => x18 (ix3 (0 : Fin 2) (2 : Fin 3) j)) (fun j => x19 (ix3 (0 : Fin 2) (2 : Fin 3) j)) j := by
  rw [val_main_v338_apply, val_main_call2_v0_apply, val_main_call2_cst_apply, val_main_v337_apply, val_main_v334_apply, val_main_v331_apply,
    val_main_v326_apply, val_main_v325_apply, val_main_v330_apply, val_main_v329_apply, val_main_v328_apply, val_main_v327_apply, val_main_cst_51_apply,
    gamma_0_s, beta_0_s]
  have h0 : idx_main_v325 (ix2 r j) = ix2 r (0 : Fin 1) := funext fun e => by match e with | ⟨0, _⟩ => rfl | ⟨1, _⟩ => rfl
  have h1 : idx_main_v330 (ix2 r j) = ix2 r (0 : Fin 1) := funext fun e => by match e with | ⟨0, _⟩ => rfl | ⟨1, _⟩ => rfl
  rw [h0, h1, mean_0_s, var_0_s]
  rfl

/-- The layer-0 output for the store nodes at row `r` and feature `j` is the row function of the two
    neighbour means, the node's own features and the selected parameter slices. -/
theorem site_0_s (r : Fin 5000) (j : Fin 128) :
    val_main_v338 (F := Ideal) x0 x1 x2 x5 x7 x9 x10 x11 x12 x13 x14 x15 x16 x17 x18 x19 (ix2 r j)
      = Cert.RowSpec.rowOut
          (fun k => Ideal.div (val_main_v114 (F := Ideal) x0 x5 x9 x10 (ix2 r k)) (max (val_main_v118 (F := Ideal) x5 (ix1 r)) Cert.RowSpec.one32))
          (fun k => Ideal.div (val_main_v188 (F := Ideal) x1 x7 x11 x12 (ix2 r k)) (max (val_main_v192 (F := Ideal) x7 (ix1 r)) Cert.RowSpec.one32))
          (fun k => val_main_v14 (F := Ideal) x2 x13 x14 (ix2 r k))
          (fun k j => x15 (ix4 (0 : Fin 2) (2 : Fin 6) j k)) (fun k j => x15 (ix4 (0 : Fin 2) (4 : Fin 6) j k))
          (fun k j => x17 (ix4 (0 : Fin 2) (2 : Fin 6) j k)) (fun k j => x17 (ix4 (0 : Fin 2) (4 : Fin 6) j k))
          (fun j => x16 (ix3 (0 : Fin 2) (2 : Fin 6) j)) (fun j => x16 (ix3 (0 : Fin 2) (4 : Fin 6) j))
          (fun j => x18 (ix3 (0 : Fin 2) (2 : Fin 3) j)) (fun j => x19 (ix3 (0 : Fin 2) (2 : Fin 3) j)) j := by
  rw [out_0_s]
  unfold Cert.RowSpec.rowOut
  simp only [avg_0_s, rel_0_s_a, rel_0_s_b]

end Cert.RefSite

end
-- ==== Proof.KSite2.lean ====
/-
  Launch 2: the arrays it reads, and the array it leaves, against the reference's stages at the same site.
-/
import proofs.«172654_j31121333027532_2_alg».proof.Proof.Blocks2
import proofs.«172654_j31121333027532_2_alg».proof.Proof.Bridge
import proofs.«172654_j31121333027532_2_alg».proof.Proof.HostReads
import proofs.«172654_j31121333027532_2_alg».proof.Proof.KKeep
import proofs.«172654_j31121333027532_2_alg».proof.Proof.KBorn2
import proofs.«172654_j31121333027532_2_alg».proof.Proof.RefSite0s
import proofs.«172654_j31121333027532_2_alg».proof.Proof.KBorn0

set_option maxRecDepth 16384

noncomputable section

namespace Cert.KStages

open Cert.KernelIdeal Cert.KernelIdeal.Gen Cert.KernelIdeal.GenP Cert.RowSpec Cert.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

theorem win2_0 (c : Dev nD) : (W5 m ρ c (Proc.devRef .tc main_v132)) = (Cert.ReferenceIdeal.ReadP.val_main_v114 (F := Ideal) (m ((c : Thread nD τ).loc main_arg0)) (m ((c : Thread nD τ).loc main_arg5)) (m ((c : Thread nD τ).loc main_arg9)) (m ((c : Thread nD τ).loc main_arg10))) := by
  rw [keep_v132_1_5 m ρ c, born_v132 m ρ c]
  all_goals rfl

theorem win2_2 (c : Dev nD) : (W5 m ρ c (Proc.devRef .tc main_v152)) = (Cert.ReferenceIdeal.ReadP.val_main_v188 (F := Ideal) (m ((c : Thread nD τ).loc main_arg1)) (m ((c : Thread nD τ).loc main_arg7)) (m ((c : Thread nD τ).loc main_arg11)) (m ((c : Thread nD τ).loc main_arg12))) := by
  rw [keep_v152_1_5 m ρ c, born_v152 m ρ c]
  all_goals rfl

theorem win2_4 (c : Dev nD) : (W5 m ρ c (Proc.devRef .tc main_v14)) = (Cert.ReferenceIdeal.ReadP.val_main_v14 (F := Ideal) (m ((c : Thread nD τ).loc main_arg2)) (m ((c : Thread nD τ).loc main_arg13)) (m ((c : Thread nD τ).loc main_arg14))) := by
  rw [keep_v14_1_5 m ρ c, born_v14 m ρ c]
  all_goals rfl

theorem win2_1 (c : Dev nD) (r : Fin 5000) : (W5 m ρ c (Proc.devRef .tc main_v65)) (ix2 r (0 : Fin 1)) = Ideal.div one32 (max ((Cert.ReferenceIdeal.ReadP.val_main_v118 (F := Ideal) (m ((c : Thread nD τ).loc main_arg5))) (ix1 r)) one32) := by
  rw [keep_v65_1_5 m ρ c, born_v65 m ρ c]
  exact recip_col_apply (n := 5000) (Cert.ReferenceIdeal.ReadP.val_main_v118 (F := Ideal) (m ((c : Thread nD τ).loc main_arg5))) bcast_S_S5000 bcast_S_S5000 bcast_S5000_S5000x1_0 r

theorem win2_3 (c : Dev nD) (r : Fin 5000) : (W5 m ρ c (Proc.devRef .tc main_v83)) (ix2 r (0 : Fin 1)) = Ideal.div one32 (max ((Cert.ReferenceIdeal.ReadP.val_main_v192 (F := Ideal) (m ((c : Thread nD τ).loc main_arg7))) (ix1 r)) one32) := by
  rw [keep_v83_1_5 m ρ c, born_v83 m ρ c]
  exact recip_col_apply (n := 5000) (Cert.ReferenceIdeal.ReadP.val_main_v192 (F := Ideal) (m ((c : Thread nD τ).loc main_arg7))) bcast_S_S5000 bcast_S_S5000 bcast_S5000_S5000x1_0 r

theorem win2_5 (c : Dev nD) (k j : Fin 128) : (W5 m ρ c (Proc.devRef .tc main_v198)) (ix2 k j) = (m ((c : Thread nD τ).loc main_arg15)) (ix4 (0 : Fin 2) (2 : Fin 6) j k) := by
  rw [born_v198 m ρ c, keep_v100_1_4 m ρ c, born_v100 m ρ c]
  exact (swapped_slice_apply _ 2 (by decide) _ _ _ _ k j).trans (layer4_apply (W0 m ρ c (Proc.devRef .tc main_arg15)) 0 (by decide) _ _ (2 : Fin 6) j k)

theorem win2_6 (c : Dev nD) (k j : Fin 128) : (W5 m ρ c (Proc.devRef .tc main_v200)) (ix2 k j) = (m ((c : Thread nD τ).loc main_arg15)) (ix4 (0 : Fin 2) (4 : Fin 6) j k) := by
  rw [born_v200 m ρ c, keep_v100_1_4 m ρ c, born_v100 m ρ c]
  exact (swapped_slice_apply _ 4 (by decide) _ _ _ _ k j).trans (layer4_apply (W0 m ρ c (Proc.devRef .tc main_arg15)) 0 (by decide) _ _ (4 : Fin 6) j k)

theorem win2_7 (c : Dev nD) (k j : Fin 128) : (W5 m ρ c (Proc.devRef .tc main_v202)) (ix2 k j) = (m ((c : Thread nD τ).loc main_arg17)) (ix4 (0 : Fin 2) (2 : Fin 6) j k) := by
  rw [born_v202 m ρ c, keep_v102_1_4 m ρ c, born_v102 m ρ c]
  exact (swapped_slice_apply _ 2 (by decide) _ _ _ _ k j).trans (layer4_apply (W0 m ρ c (Proc.devRef .tc main_arg17)) 0 (by decide) _ _ (2 : Fin 6) j k)

theorem win2_8 (c : Dev nD) (k j : Fin 128) : (W5 m ρ c (Proc.devRef .tc main_v204)) (ix2 k j) = (m ((c : Thread nD τ).loc main_arg17)) (ix4 (0 : Fin 2) (4 : Fin 6) j k) := by
  rw [born_v204 m ρ c, keep_v102_1_4 m ρ c, born_v102 m ρ c]
  exact (swapped_slice_apply _ 4 (by decide) _ _ _ _ k j).trans (layer4_apply (W0 m ρ c (Proc.devRef .tc main_arg17)) 0 (by decide) _ _ (4 : Fin 6) j k)

theorem win2_9 (c : Dev nD) (j : Fin 128) : (W5 m ρ c (Proc.devRef .tc main_v206)) (ix1 j) = (m ((c : Thread nD τ).loc main_arg16)) (ix3 (0 : Fin 2) (2 : Fin 6) j) := by
  rw [born_v206 m ρ c, keep_v96_1_4 m ρ c, born_v96 m ρ c]
  exact (row_apply _ 2 (by decide) _ _ j).trans (layer3_apply (W0 m ρ c (Proc.devRef .tc main_arg16)) 0 (by decide) _ _ (2 : Fin 6) j)

theorem win2_10 (c : Dev nD) (j : Fin 128) : (W5 m ρ c (Proc.devRef .tc main_v208)) (ix1 j) = (m ((c : Thread nD τ).loc main_arg16)) (ix3 (0 : Fin 2) (4 : Fin 6) j) := by
  rw [born_v208 m ρ c, keep_v96_1_4 m ρ c, born_v96 m ρ c]
  exact (row_apply _ 4 (by decide) _ _ j).trans (layer3_apply (W0 m ρ c (Proc.devRef .tc main_arg16)) 0 (by decide) _ _ (4 : Fin 6) j)

theorem win2_11 (c : Dev nD) (j : Fin 128) : (W5 m ρ c (Proc.devRef .tc main_v210)) (ix1 j) = (m ((c : Thread nD τ).loc main_arg18)) (ix3 (0 : Fin 2) (2 : Fin 3) j) := by
  rw [born_v210 m ρ c, keep_arg18_0_4 m ρ c]
  exact norm_param_apply (W0 m ρ c (Proc.devRef .tc main_arg18)) 0 2 (by decide) (by decide) _ _ j

theorem win2_12 (c : Dev nD) (j : Fin 128) : (W5 m ρ c (Proc.devRef .tc main_v212)) (ix1 j) = (m ((c : Thread nD τ).loc main_arg19)) (ix3 (0 : Fin 2) (2 : Fin 3) j) := by
  rw [born_v212 m ρ c, keep_arg19_0_4 m ρ c]
  exact norm_param_apply (W0 m ρ c (Proc.devRef .tc main_arg19)) 0 2 (by decide) (by decide) _ _ j

/-- After launch 2 its output array is the reference's output at the same site. -/
theorem out2 (c : Dev nD) : W6 m ρ c (Proc.devRef .tc main_v213) = (Cert.ReferenceIdeal.ReadP.val_main_v338 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W6_arr m ρ c 13).trans ?_
  refine (Cert.Blocks.final2 (V5 m ρ) c).trans ?_
  funext i
  obtain ⟨r, j, rfl⟩ : ∃ (r : Fin 5000) (j : Fin 128), i = ix2 r j := ⟨i 0, i 1, eq_ix2 i⟩
  refine (site_bridge (n := 5000) _ _ _ _ _ _ _ _ _ _ _ _ _ (Cert.ReferenceIdeal.ReadP.val_main_v114 (F := Ideal) (m ((c : Thread nD τ).loc main_arg0)) (m ((c : Thread nD τ).loc main_arg5)) (m ((c : Thread nD τ).loc main_arg9)) (m ((c : Thread nD τ).loc main_arg10))) (Cert.ReferenceIdeal.ReadP.val_main_v188 (F := Ideal) (m ((c : Thread nD τ).loc main_arg1)) (m ((c : Thread nD τ).loc main_arg7)) (m ((c : Thread nD τ).loc main_arg11)) (m ((c : Thread nD τ).loc main_arg12))) (Cert.ReferenceIdeal.ReadP.val_main_v14 (F := Ideal) (m ((c : Thread nD τ).loc main_arg2)) (m ((c : Thread nD τ).loc main_arg13)) (m ((c : Thread nD τ).loc main_arg14))) (Cert.ReferenceIdeal.ReadP.val_main_v118 (F := Ideal) (m ((c : Thread nD τ).loc main_arg5))) (Cert.ReferenceIdeal.ReadP.val_main_v192 (F := Ideal) (m ((c : Thread nD τ).loc main_arg7)))
    _ _ _ _ _ _ _ _
    (win2_0 m ρ c) (win2_2 m ρ c) (win2_4 m ρ c) (win2_1 m ρ c) (win2_3 m ρ c)
    (win2_5 m ρ c) (win2_6 m ρ c) (win2_7 m ρ c) (win2_8 m ρ c) (win2_9 m ρ c) (win2_10 m ρ c) (win2_11 m ρ c) (win2_12 m ρ c) r j).trans ?_
  exact (Cert.RefSite.site_0_s (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r j).symm

end Cert.KStages

end
-- ==== Proof.KSite3.lean ====
/-
  Launch 3: the arrays it reads, and the array it leaves, against the reference's stages at the same site.
-/
import proofs.«172654_j31121333027532_2_alg».proof.Proof.Blocks3
import proofs.«172654_j31121333027532_2_alg».proof.Proof.Bridge
import proofs.«172654_j31121333027532_2_alg».proof.Proof.HostReads
import proofs.«172654_j31121333027532_2_alg».proof.Proof.KKeep
import proofs.«172654_j31121333027532_2_alg».proof.Proof.KBorn3
import proofs.«172654_j31121333027532_2_alg».proof.Proof.RefSite1c
import proofs.«172654_j31121333027532_2_alg».proof.Proof.KBorn0
import proofs.«172654_j31121333027532_2_alg».proof.Proof.KSite0
import proofs.«172654_j31121333027532_2_alg».proof.Proof.KSite1
import proofs.«172654_j31121333027532_2_alg».proof.Proof.KSite2

set_option maxRecDepth 16384

noncomputable section

namespace Cert.KStages

open Cert.KernelIdeal Cert.KernelIdeal.Gen Cert.KernelIdeal.GenP Cert.RowSpec Cert.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

theorem win3_0 (c : Dev nD) : (W7 m ρ c (Proc.devRef .tc main_v243)) = (Cert.ReferenceIdeal.ReadP.val_main_v401 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [born_v243 m ρ c, keep_v22_1_6 m ρ c, born_v22 m ρ c, keep_v196_4_6 m ρ c, out1 m ρ c, keep_v20_1_6 m ρ c, born_v20 m ρ c]
  all_goals rfl

theorem win3_2 (c : Dev nD) : (W7 m ρ c (Proc.devRef .tc main_v263)) = (Cert.ReferenceIdeal.ReadP.val_main_v475 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [born_v263 m ρ c, keep_v30_1_6 m ρ c, born_v30 m ρ c, out2 m ρ c, keep_v28_1_6 m ρ c, born_v28 m ρ c]
  all_goals rfl

theorem win3_4 (c : Dev nD) : (W7 m ρ c (Proc.devRef .tc main_v179)) = (Cert.ReferenceIdeal.ReadP.val_main_v274 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v179_2_7 m ρ c, out0 m ρ c]
  all_goals rfl

theorem win3_1 (c : Dev nD) (r : Fin 100000) : (W7 m ρ c (Proc.devRef .tc main_v56)) (ix2 r (0 : Fin 1)) = Ideal.div one32 (max ((Cert.ReferenceIdeal.ReadP.val_main_v405 (F := Ideal) (m ((c : Thread nD τ).loc main_arg4))) (ix1 r)) one32) := by
  rw [keep_v56_1_7 m ρ c, born_v56 m ρ c]
  exact recip_col_apply (n := 100000) (Cert.ReferenceIdeal.ReadP.val_main_v405 (F := Ideal) (m ((c : Thread nD τ).loc main_arg4))) bcast_S_S100000 bcast_S_S100000 bcast_S100000_S100000x1_0 r

theorem win3_3 (c : Dev nD) (r : Fin 100000) : (W7 m ρ c (Proc.devRef .tc main_v74)) (ix2 r (0 : Fin 1)) = Ideal.div one32 (max ((Cert.ReferenceIdeal.ReadP.val_main_v479 (F := Ideal) (m ((c : Thread nD τ).loc main_arg6))) (ix1 r)) one32) := by
  rw [keep_v74_1_7 m ρ c, born_v74 m ρ c]
  exact recip_col_apply (n := 100000) (Cert.ReferenceIdeal.ReadP.val_main_v479 (F := Ideal) (m ((c : Thread nD τ).loc main_arg6))) bcast_S_S100000 bcast_S_S100000 bcast_S100000_S100000x1_0 r

theorem win3_5 (c : Dev nD) (k j : Fin 128) : (W7 m ρ c (Proc.devRef .tc main_v285)) (ix2 k j) = (m ((c : Thread nD τ).loc main_arg15)) (ix4 (1 : Fin 2) (1 : Fin 6) j k) := by
  rw [born_v285 m ρ c, keep_arg15_0_6 m ρ c]
  exact (swapped_slice_apply _ 1 (by decide) _ _ _ _ k j).trans (layer4_apply (W0 m ρ c (Proc.devRef .tc main_arg15)) 1 (by decide) _ _ (1 : Fin 6) j k)

theorem win3_6 (c : Dev nD) (k j : Fin 128) : (W7 m ρ c (Proc.devRef .tc main_v287)) (ix2 k j) = (m ((c : Thread nD τ).loc main_arg15)) (ix4 (1 : Fin 2) (3 : Fin 6) j k) := by
  rw [born_v287 m ρ c, keep_arg15_0_6 m ρ c]
  exact (swapped_slice_apply _ 3 (by decide) _ _ _ _ k j).trans (layer4_apply (W0 m ρ c (Proc.devRef .tc main_arg15)) 1 (by decide) _ _ (3 : Fin 6) j k)

theorem win3_7 (c : Dev nD) (k j : Fin 128) : (W7 m ρ c (Proc.devRef .tc main_v289)) (ix2 k j) = (m ((c : Thread nD τ).loc main_arg17)) (ix4 (1 : Fin 2) (1 : Fin 6) j k) := by
  rw [born_v289 m ρ c, keep_arg17_0_6 m ρ c]
  exact (swapped_slice_apply _ 1 (by decide) _ _ _ _ k j).trans (layer4_apply (W0 m ρ c (Proc.devRef .tc main_arg17)) 1 (by decide) _ _ (1 : Fin 6) j k)

theorem win3_8 (c : Dev nD) (k j : Fin 128) : (W7 m ρ c (Proc.devRef .tc main_v291)) (ix2 k j) = (m ((c : Thread nD τ).loc main_arg17)) (ix4 (1 : Fin 2) (3 : Fin 6) j k) := by
  rw [born_v291 m ρ c, keep_arg17_0_6 m ρ c]
  exact (swapped_slice_apply _ 3 (by decide) _ _ _ _ k j).trans (layer4_apply (W0 m ρ c (Proc.devRef .tc main_arg17)) 1 (by decide) _ _ (3 : Fin 6) j k)

theorem win3_9 (c : Dev nD) (j : Fin 128) : (W7 m ρ c (Proc.devRef .tc main_v293)) (ix1 j) = (m ((c : Thread nD τ).loc main_arg16)) (ix3 (1 : Fin 2) (1 : Fin 6) j) := by
  rw [born_v293 m ρ c, keep_arg16_0_6 m ρ c]
  exact (row_apply _ 1 (by decide) _ _ j).trans (layer3_apply (W0 m ρ c (Proc.devRef .tc main_arg16)) 1 (by decide) _ _ (1 : Fin 6) j)

theorem win3_10 (c : Dev nD) (j : Fin 128) : (W7 m ρ c (Proc.devRef .tc main_v295)) (ix1 j) = (m ((c : Thread nD τ).loc main_arg16)) (ix3 (1 : Fin 2) (3 : Fin 6) j) := by
  rw [born_v295 m ρ c, keep_arg16_0_6 m ρ c]
  exact (row_apply _ 3 (by decide) _ _ j).trans (layer3_apply (W0 m ρ c (Proc.devRef .tc main_arg16)) 1 (by decide) _ _ (3 : Fin 6) j)

theorem win3_11 (c : Dev nD) (j : Fin 128) : (W7 m ρ c (Proc.devRef .tc main_v297)) (ix1 j) = (m ((c : Thread nD τ).loc main_arg18)) (ix3 (1 : Fin 2) (0 : Fin 3) j) := by
  rw [born_v297 m ρ c, keep_arg18_0_6 m ρ c]
  exact norm_param_apply (W0 m ρ c (Proc.devRef .tc main_arg18)) 1 0 (by decide) (by decide) _ _ j

theorem win3_12 (c : Dev nD) (j : Fin 128) : (W7 m ρ c (Proc.devRef .tc main_v299)) (ix1 j) = (m ((c : Thread nD τ).loc main_arg19)) (ix3 (1 : Fin 2) (0 : Fin 3) j) := by
  rw [born_v299 m ρ c, keep_arg19_0_6 m ρ c]
  exact norm_param_apply (W0 m ρ c (Proc.devRef .tc main_arg19)) 1 0 (by decide) (by decide) _ _ j

/-- After launch 3 its output array is the reference's output at the same site. -/
theorem out3 (c : Dev nD) : W8 m ρ c (Proc.devRef .tc main_v300) = (Cert.ReferenceIdeal.ReadP.val_main_v598 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W8_arr m ρ c 13).trans ?_
  refine (Cert.Blocks.final3 (V7 m ρ) c).trans ?_
  funext i
  obtain ⟨r, j, rfl⟩ : ∃ (r : Fin 100000) (j : Fin 128), i = ix2 r j := ⟨i 0, i 1, eq_ix2 i⟩
  refine (site_bridge (n := 100000) _ _ _ _ _ _ _ _ _ _ _ _ _ (Cert.ReferenceIdeal.ReadP.val_main_v401 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v475 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v274 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v405 (F := Ideal) (m ((c : Thread nD τ).loc main_arg4))) (Cert.ReferenceIdeal.ReadP.val_main_v479 (F := Ideal) (m ((c : Thread nD τ).loc main_arg6)))
    _ _ _ _ _ _ _ _
    (win3_0 m ρ c) (win3_2 m ρ c) (win3_4 m ρ c) (win3_1 m ρ c) (win3_3 m ρ c)
    (win3_5 m ρ c) (win3_6 m ρ c) (win3_7 m ρ c) (win3_8 m ρ c) (win3_9 m ρ c) (win3_10 m ρ c) (win3_11 m ρ c) (win3_12 m ρ c) r j).trans ?_
  exact (Cert.RefSite.site_1_c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r j).symm

end Cert.KStages

end
-- ==== Proof.Blocks4.lean ====
/-
  Launch 4, from blocks to the array: the grid points' blocks tile the output array row block by row block, each input
  block is the matching rows of its array (a matrix or a vector is one block), so the output array ends holding the
  layer's output over the arrays the launch finds.
-/
import proofs.«172654_j31121333027532_2_alg».proof.Proof.FrameIdealP
import proofs.«172654_j31121333027532_2_alg».proof.Proof.RowSpec
import proofs.«172654_j31121333027532_2_alg».proof.Proof.BodyRow2000
import Idealize.ShloMosaic.Lib.Pipeline.Value
import Idealize.ShloMosaic.Lib.ValueIdx

set_option maxRecDepth 16384

noncomputable section

namespace Cert.Blocks

open Cert.KernelIdeal Cert.KernelIdeal.Gen Cert.KernelIdeal.GenP Cert.RowSpec Cert.BodyRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 4: 50000 rows in blocks of 2000 -/

/-- The block index maps over the grid: a row window's block at point `t` is block row `t`, column block 0; a matrix or a vector is
    one block. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0
    ∧ win4_13.index t (0 : Fin 2) = t.val
    ∧ win4_13.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 1) = 0
    ∧ win4_10.index t (0 : Fin 1) = 0
    ∧ win4_11.index t (0 : Fin 1) = 0
    ∧ win4_12.index t (0 : Fin 1) = 0 :=
  (by decide +kernel : ∀ t : Fin grid4.N, _)

/-- The array row that row `p` of point `t`'s block is. -/
def row4 (t : Fin cfg4.N) (p : Fin 2000) : Fin 50000 :=
  ⟨t.val * 2000 + p.val, by have h := lt_of_lt_of_eq t.isLt N_4; have := p.isLt; omega⟩

theorem blk4_0 (c : Dev nD) (t : Fin cfg4.N) (p : Fin 2000) (k : Fin 128) :
    iblk4 V c 0 t (ix2 p k) = (V c main_v233 : S50000x128.Idx → EReal) (ix2 (row4 t p) k) := by
  show (V c main_v233 : S50000x128.Idx → EReal) (((cfg4.win 0).blk t).view.emb (ix2 p k)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_0.index t (0 : Fin 2) * 2000 + 1 * p.val = t.val * 2000 + p.val; rw [f0]; omega
  | ⟨1, _⟩ => show win4_0.index t (1 : Fin 2) * 128 + 1 * k.val = k.val; rw [f1]; omega

theorem blk4_2 (c : Dev nD) (t : Fin cfg4.N) (p : Fin 2000) (k : Fin 128) :
    iblk4 V c 2 t (ix2 p k) = (V c main_v283 : S50000x128.Idx → EReal) (ix2 (row4 t p) k) := by
  show (V c main_v283 : S50000x128.Idx → EReal) (((cfg4.win 2).blk t).view.emb (ix2 p k)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_2.index t (0 : Fin 2) * 2000 + 1 * p.val = t.val * 2000 + p.val; rw [f4]; omega
  | ⟨1, _⟩ => show win4_2.index t (1 : Fin 2) * 128 + 1 * k.val = k.val; rw [f5]; omega

theorem blk4_4 (c : Dev nD) (t : Fin cfg4.N) (p : Fin 2000) (k : Fin 128) :
    iblk4 V c 4 t (ix2 p k) = (V c main_v196 : S50000x128.Idx → EReal) (ix2 (row4 t p) k) := by
  show (V c main_v196 : S50000x128.Idx → EReal) (((cfg4.win 4).blk t).view.emb (ix2 p k)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_4.index t (0 : Fin 2) * 2000 + 1 * p.val = t.val * 2000 + p.val; rw [f8]; omega
  | ⟨1, _⟩ => show win4_4.index t (1 : Fin 2) * 128 + 1 * k.val = k.val; rw [f9]; omega

theorem blk4_1 (c : Dev nD) (t : Fin cfg4.N) (p : Fin 2000) :
    iblk4 V c 1 t (ix2 p (0 : Fin 1)) = (V c main_v47 : S50000x1.Idx → EReal) (ix2 (row4 t p) (0 : Fin 1)) := by
  show (V c main_v47 : S50000x1.Idx → EReal) (((cfg4.win 1).blk t).view.emb (ix2 p (0 : Fin 1))) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_1.index t (0 : Fin 2) * 2000 + 1 * p.val = t.val * 2000 + p.val; rw [f2]; omega
  | ⟨1, _⟩ => show win4_1.index t (1 : Fin 2) * 1 + 1 * 0 = 0; rw [f3]

theorem blk4_3 (c : Dev nD) (t : Fin cfg4.N) (p : Fin 2000) :
    iblk4 V c 3 t (ix2 p (0 : Fin 1)) = (V c main_v92 : S50000x1.Idx → EReal) (ix2 (row4 t p) (0 : Fin 1)) := by
  show (V c main_v92 : S50000x1.Idx → EReal) (((cfg4.win 3).blk t).view.emb (ix2 p (0 : Fin 1))) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_3.index t (0 : Fin 2) * 2000 + 1 * p.val = t.val * 2000 + p.val; rw [f6]; omega
  | ⟨1, _⟩ => show win4_3.index t (1 : Fin 2) * 1 + 1 * 0 = 0; rw [f7]

theorem blk4_5 (c : Dev nD) (t : Fin cfg4.N) (k j : Fin 128) :
    iblk4 V c 5 t (ix2 k j) = (V c main_v302 : S128x128.Idx → EReal) (ix2 k j) := by
  show (V c main_v302 : S128x128.Idx → EReal) (((cfg4.win 5).blk t).view.emb (ix2 k j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_5.index t (0 : Fin 2) * 128 + 1 * k.val = k.val; rw [f12]; omega
  | ⟨1, _⟩ => show win4_5.index t (1 : Fin 2) * 128 + 1 * j.val = j.val; rw [f13]; omega

theorem blk4_6 (c : Dev nD) (t : Fin cfg4.N) (k j : Fin 128) :
    iblk4 V c 6 t (ix2 k j) = (V c main_v304 : S128x128.Idx → EReal) (ix2 k j) := by
  show (V c main_v304 : S128x128.Idx → EReal) (((cfg4.win 6).blk t).view.emb (ix2 k j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_6.index t (0 : Fin 2) * 128 + 1 * k.val = k.val; rw [f14]; omega
  | ⟨1, _⟩ => show win4_6.index t (1 : Fin 2) * 128 + 1 * j.val = j.val; rw [f15]; omega

theorem blk4_7 (c : Dev nD) (t : Fin cfg4.N) (k j : Fin 128) :
    iblk4 V c 7 t (ix2 k j) = (V c main_v306 : S128x128.Idx → EReal) (ix2 k j) := by
  show (V c main_v306 : S128x128.Idx → EReal) (((cfg4.win 7).blk t).view.emb (ix2 k j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_7.index t (0 : Fin 2) * 128 + 1 * k.val = k.val; rw [f16]; omega
  | ⟨1, _⟩ => show win4_7.index t (1 : Fin 2) * 128 + 1 * j.val = j.val; rw [f17]; omega

theorem blk4_8 (c : Dev nD) (t : Fin cfg4.N) (k j : Fin 128) :
    iblk4 V c 8 t (ix2 k j) = (V c main_v308 : S128x128.Idx → EReal) (ix2 k j) := by
  show (V c main_v308 : S128x128.Idx → EReal) (((cfg4.win 8).blk t).view.emb (ix2 k j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_8.index t (0 : Fin 2) * 128 + 1 * k.val = k.val; rw [f18]; omega
  | ⟨1, _⟩ => show win4_8.index t (1 : Fin 2) * 128 + 1 * j.val = j.val; rw [f19]; omega

theorem blk4_9 (c : Dev nD) (t : Fin cfg4.N) (j : Fin 128) :
    iblk4 V c 9 t (ix1 j) = (V c main_v310 : S128.Idx → EReal) (ix1 j) := by
  show (V c main_v310 : S128.Idx → EReal) (((cfg4.win 9).blk t).view.emb (ix1 j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_9.index t (0 : Fin 1) * 128 + 1 * j.val = j.val; rw [f20]; omega

theorem blk4_10 (c : Dev nD) (t : Fin cfg4.N) (j : Fin 128) :
    iblk4 V c 10 t (ix1 j) = (V c main_v312 : S128.Idx → EReal) (ix1 j) := by
  show (V c main_v312 : S128.Idx → EReal) (((cfg4.win 10).blk t).view.emb (ix1 j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_10.index t (0 : Fin 1) * 128 + 1 * j.val = j.val; rw [f21]; omega

theorem blk4_11 (c : Dev nD) (t : Fin cfg4.N) (j : Fin 128) :
    iblk4 V c 11 t (ix1 j) = (V c main_v314 : S128.Idx → EReal) (ix1 j) := by
  show (V c main_v314 : S128.Idx → EReal) (((cfg4.win 11).blk t).view.emb (ix1 j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_11.index t (0 : Fin 1) * 128 + 1 * j.val = j.val; rw [f22]; omega

theorem blk4_12 (c : Dev nD) (t : Fin cfg4.N) (j : Fin 128) :
    iblk4 V c 12 t (ix1 j) = (V c main_v316 : S128.Idx → EReal) (ix1 j) := by
  show (V c main_v316 : S128.Idx → EReal) (((cfg4.win 12).blk t).view.emb (ix1 j)) = _
  obtain ⟨f0, f1, f2, f3, f4, f5, f6, f7, f8, f9, f10, f11, f12, f13, f14, f15, f16, f17, f18, f19, f20, f21, f22, f23⟩ := idx_facts4 t
  refine congrArg _ (funext fun a => Fin.ext ?_)
  match a with
  | ⟨0, _⟩ => show win4_12.index t (0 : Fin 1) * 128 + 1 * j.val = j.val; rw [f23]; omega

/-- The layer's output over the arrays launch 4 reads, as it finds them. -/
def G4 (c : Dev nD) : S50000x128.Idx → EReal := fun i =>
  layerAt (n := 50000) (V c main_v233 : S50000x128.Idx → EReal) (V c main_v47 : S50000x1.Idx → EReal) (V c main_v283 : S50000x128.Idx → EReal) (V c main_v92 : S50000x1.Idx → EReal) (V c main_v196 : S50000x128.Idx → EReal) (V c main_v302 : S128x128.Idx → EReal) (V c main_v304 : S128x128.Idx → EReal) (V c main_v306 : S128x128.Idx → EReal) (V c main_v308 : S128x128.Idx → EReal) (V c main_v310 : S128.Idx → EReal) (V c main_v312 : S128.Idx → EReal) (V c main_v314 : S128.Idx → EReal) (V c main_v316 : S128.Idx → EReal) (i 0) (i 1)

theorem emb4_13 (t : Fin cfg4.N) (p : Fin 2000) (q : Fin 128) :
    ((cfg4.win 13).blk t).view.emb (ix2 p q) = (ix2 (row4 t p) q : S50000x128.Idx) := by
  obtain ⟨f0, f1, f2, f3, f4, f5, f6, f7, f8, f9, f10, f11, f12, f13, f14, f15, f16, f17, f18, f19, f20, f21, f22, f23⟩ := idx_facts4 t
  refine funext fun a => Fin.ext ?_
  match a with
  | ⟨0, _⟩ => show win4_13.index t (0 : Fin 2) * 2000 + 1 * p.val = t.val * 2000 + p.val; rw [f10]; omega
  | ⟨1, _⟩ => show win4_13.index t (1 : Fin 2) * 128 + 1 * q.val = q.val; rw [f11]; omega

set_option maxHeartbeats 4000000 in
/-- What point `t` writes back is block `t` of the layer's output over the entry arrays. -/
theorem flushed4_eq (c : Dev nD) (t : Fin cfg4.N) :
    (dat4 V c).flushed 13 t = ((cfg4.win 13).blk t).view.read (Elt Ideal) (G4 V c) := by
  show (cfg4.win 13).cut (grid4.coords t) ((dat4 V c).after 13 t) = _
  rw [after4_13]
  funext y
  obtain ⟨p, q, rfl⟩ : ∃ (p : Fin 2000) (q : Fin 128), y = ix2 p q := ⟨y 0, y 1, eq_ix2 y⟩
  show out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (ix2 p q) = G4 V c (((cfg4.win 13).blk t).view.emb (ix2 p q))
  rw [emb4_13]
  refine (out4_13_apply (iblk4 V c 0 t) (iblk4 V c 2 t) (iblk4 V c 4 t) (iblk4 V c 1 t) (iblk4 V c 3 t) (iblk4 V c 5 t) (iblk4 V c 6 t) (iblk4 V c 7 t) (iblk4 V c 8 t) (iblk4 V c 9 t) (iblk4 V c 10 t) (iblk4 V c 11 t) (iblk4 V c 12 t) p q).trans ?_
  exact rowOut_congr (fun k => by rw [blk4_0 V c t p k, blk4_1 V c t p]) (fun k => by rw [blk4_2 V c t p k, blk4_3 V c t p]) (fun k => blk4_4 V c t p k)
    (fun k j => blk4_5 V c t k j) (fun k j => blk4_6 V c t k j) (fun k j => blk4_7 V c t k j) (fun k j => blk4_8 V c t k j)
    (fun j => blk4_9 V c t j) (fun j => blk4_10 V c t j) (fun j => blk4_11 V c t j) (fun j => blk4_12 V c t j) rfl

/-- Every row lies in the block of the point its block row names. -/
theorem cover4 (i : S50000x128.Idx) : ∃ t : Fin cfg4.N, (cfg4.win 13).flush t = true ∧ i ∈ ((cfg4.win 13).blk t).view.set := by
  have h0 : (i 0).val < 50000 := (i 0).isLt
  have h1 : (i 1).val < 128 := (i 1).isLt
  have hN : cfg4.N = 25 := N_4
  let t : Fin cfg4.N := ⟨(i 0).val / 2000, by rw [hN]; omega⟩
  refine ⟨t, flush4_13 t, ?_⟩
  show i ∈ ((View.whole main_v317).slice (win4_13.rect t)).set
  rw [View.set_slice_whole, Rect.mem_set_unit]
  obtain ⟨f0, f1, f2, f3, f4, f5, f6, f7, f8, f9, f10, f11, f12, f13, f14, f15, f16, f17, f18, f19, f20, f21, f22, f23⟩ := idx_facts4 t
  intro a
  match a with
  | ⟨0, _⟩ => show win4_13.index t (0 : Fin 2) * 2000 ≤ (i 0).val ∧ (i 0).val < win4_13.index t (0 : Fin 2) * 2000 + 2000; rw [f10]; show (i 0).val / 2000 * 2000 ≤ (i 0).val ∧ (i 0).val < (i 0).val / 2000 * 2000 + 2000; omega
  | ⟨1, _⟩ => show win4_13.index t (1 : Fin 2) * 128 ≤ (i 1).val ∧ (i 1).val < win4_13.index t (1 : Fin 2) * 128 + 128; rw [f11]; omega

/-- After launch 4 its output array holds the layer's output over the arrays it read. -/
theorem final4 (c : Dev nD) : (dat4 V c).arrAt 13 cfg4.N = G4 V c :=
  (dat4 V c).arrAt_eq_of_cover 13 (G4 V c) (fun t _ => flushed4_eq V c t) (cover4)

end Cert.Blocks

end
-- ==== Proof.KBorn4.lean ====
/-
  What stretch 4 of host operations leaves in the buffers the launches read, each as the composition of its
  operations over the buffers the stretch finds.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

set_option maxHeartbeats 4000000 in
theorem born4 (c : Dev nD) :
    W9 m ρ c (Proc.devRef .tc main_v302) = (shapeCast _ (extractStridedSlice S1x128x128 ![0, 0, 0] (W8 m ρ c (Proc.devRef .tc main_v221)) slices_S6x128x128_S1x128x128_0_0_0) shapeCasts_S1x128x128_S128x128)
    ∧ W9 m ρ c (Proc.devRef .tc main_v304) = (shapeCast _ (extractStridedSlice S1x128x128 ![5, 0, 0] (W8 m ρ c (Proc.devRef .tc main_v221)) slices_S6x128x128_S1x128x128_5_0_0) shapeCasts_S1x128x128_S128x128)
    ∧ W9 m ρ c (Proc.devRef .tc main_v306) = (shapeCast _ (extractStridedSlice S1x128x128 ![0, 0, 0] (W8 m ρ c (Proc.devRef .tc main_v223)) slices_S6x128x128_S1x128x128_0_0_0) shapeCasts_S1x128x128_S128x128)
    ∧ W9 m ρ c (Proc.devRef .tc main_v308) = (shapeCast _ (extractStridedSlice S1x128x128 ![5, 0, 0] (W8 m ρ c (Proc.devRef .tc main_v223)) slices_S6x128x128_S1x128x128_5_0_0) shapeCasts_S1x128x128_S128x128)
    ∧ W9 m ρ c (Proc.devRef .tc main_v310) = (shapeCast _ (extractStridedSlice S1x128 ![0, 0] (W8 m ρ c (Proc.devRef .tc main_v217)) slices_S6x128_S1x128_0_0) shapeCasts_S1x128_S128)
    ∧ W9 m ρ c (Proc.devRef .tc main_v312) = (shapeCast _ (extractStridedSlice S1x128 ![5, 0] (W8 m ρ c (Proc.devRef .tc main_v217)) slices_S6x128_S1x128_5_0) shapeCasts_S1x128_S128)
    ∧ W9 m ρ c (Proc.devRef .tc main_v314) = (shapeCast _ (extractStridedSlice S1x1x128 ![1, 1, 0] (W8 m ρ c (Proc.devRef .tc main_arg18)) slices_S2x3x128_S1x1x128_1_1_0) shapeCasts_S1x1x128_S128)
    ∧ W9 m ρ c (Proc.devRef .tc main_v316) = (shapeCast _ (extractStridedSlice S1x1x128 ![1, 1, 0] (W8 m ρ c (Proc.devRef .tc main_arg19)) slices_S2x3x128_S1x1x128_1_1_0) shapeCasts_S1x1x128_S128) := by
  show StableHlo.after hostOps4 (W8 m ρ c) (Proc.devRef .tc main_v302) = (shapeCast _ (extractStridedSlice S1x128x128 ![0, 0, 0] (W8 m ρ c (Proc.devRef .tc main_v221)) slices_S6x128x128_S1x128x128_0_0_0) shapeCasts_S1x128x128_S128x128)
    ∧ StableHlo.after hostOps4 (W8 m ρ c) (Proc.devRef .tc main_v304) = (shapeCast _ (extractStridedSlice S1x128x128 ![5, 0, 0] (W8 m ρ c (Proc.devRef .tc main_v221)) slices_S6x128x128_S1x128x128_5_0_0) shapeCasts_S1x128x128_S128x128)
    ∧ StableHlo.after hostOps4 (W8 m ρ c) (Proc.devRef .tc main_v306) = (shapeCast _ (extractStridedSlice S1x128x128 ![0, 0, 0] (W8 m ρ c (Proc.devRef .tc main_v223)) slices_S6x128x128_S1x128x128_0_0_0) shapeCasts_S1x128x128_S128x128)
    ∧ StableHlo.after hostOps4 (W8 m ρ c) (Proc.devRef .tc main_v308) = (shapeCast _ (extractStridedSlice S1x128x128 ![5, 0, 0] (W8 m ρ c (Proc.devRef .tc main_v223)) slices_S6x128x128_S1x128x128_5_0_0) shapeCasts_S1x128x128_S128x128)
    ∧ StableHlo.after hostOps4 (W8 m ρ c) (Proc.devRef .tc main_v310) = (shapeCast _ (extractStridedSlice S1x128 ![0, 0] (W8 m ρ c (Proc.devRef .tc main_v217)) slices_S6x128_S1x128_0_0) shapeCasts_S1x128_S128)
    ∧ StableHlo.after hostOps4 (W8 m ρ c) (Proc.devRef .tc main_v312) = (shapeCast _ (extractStridedSlice S1x128 ![5, 0] (W8 m ρ c (Proc.devRef .tc main_v217)) slices_S6x128_S1x128_5_0) shapeCasts_S1x128_S128)
    ∧ StableHlo.after hostOps4 (W8 m ρ c) (Proc.devRef .tc main_v314) = (shapeCast _ (extractStridedSlice S1x1x128 ![1, 1, 0] (W8 m ρ c (Proc.devRef .tc main_arg18)) slices_S2x3x128_S1x1x128_1_1_0) shapeCasts_S1x1x128_S128)
    ∧ StableHlo.after hostOps4 (W8 m ρ c) (Proc.devRef .tc main_v316) = (shapeCast _ (extractStridedSlice S1x1x128 ![1, 1, 0] (W8 m ρ c (Proc.devRef .tc main_arg19)) slices_S2x3x128_S1x1x128_1_1_0) shapeCasts_S1x1x128_S128)
  after_results_simp
  all_goals (first | done | (repeat' constructor) <;> rfl)

theorem born_v302 (c : Dev nD) : W9 m ρ c (Proc.devRef .tc main_v302) = (shapeCast _ (extractStridedSlice S1x128x128 ![0, 0, 0] (W8 m ρ c (Proc.devRef .tc main_v221)) slices_S6x128x128_S1x128x128_0_0_0) shapeCasts_S1x128x128_S128x128) :=
  (born4 m ρ c).1

theorem born_v304 (c : Dev nD) : W9 m ρ c (Proc.devRef .tc main_v304) = (shapeCast _ (extractStridedSlice S1x128x128 ![5, 0, 0] (W8 m ρ c (Proc.devRef .tc main_v221)) slices_S6x128x128_S1x128x128_5_0_0) shapeCasts_S1x128x128_S128x128) :=
  (born4 m ρ c).2.1

theorem born_v306 (c : Dev nD) : W9 m ρ c (Proc.devRef .tc main_v306) = (shapeCast _ (extractStridedSlice S1x128x128 ![0, 0, 0] (W8 m ρ c (Proc.devRef .tc main_v223)) slices_S6x128x128_S1x128x128_0_0_0) shapeCasts_S1x128x128_S128x128) :=
  (born4 m ρ c).2.2.1

theorem born_v308 (c : Dev nD) : W9 m ρ c (Proc.devRef .tc main_v308) = (shapeCast _ (extractStridedSlice S1x128x128 ![5, 0, 0] (W8 m ρ c (Proc.devRef .tc main_v223)) slices_S6x128x128_S1x128x128_5_0_0) shapeCasts_S1x128x128_S128x128) :=
  (born4 m ρ c).2.2.2.1

theorem born_v310 (c : Dev nD) : W9 m ρ c (Proc.devRef .tc main_v310) = (shapeCast _ (extractStridedSlice S1x128 ![0, 0] (W8 m ρ c (Proc.devRef .tc main_v217)) slices_S6x128_S1x128_0_0) shapeCasts_S1x128_S128) :=
  (born4 m ρ c).2.2.2.2.1

theorem born_v312 (c : Dev nD) : W9 m ρ c (Proc.devRef .tc main_v312) = (shapeCast _ (extractStridedSlice S1x128 ![5, 0] (W8 m ρ c (Proc.devRef .tc main_v217)) slices_S6x128_S1x128_5_0) shapeCasts_S1x128_S128) :=
  (born4 m ρ c).2.2.2.2.2.1

theorem born_v314 (c : Dev nD) : W9 m ρ c (Proc.devRef .tc main_v314) = (shapeCast _ (extractStridedSlice S1x1x128 ![1, 1, 0] (W8 m ρ c (Proc.devRef .tc main_arg18)) slices_S2x3x128_S1x1x128_1_1_0) shapeCasts_S1x1x128_S128) :=
  (born4 m ρ c).2.2.2.2.2.2.1

theorem born_v316 (c : Dev nD) : W9 m ρ c (Proc.devRef .tc main_v316) = (shapeCast _ (extractStridedSlice S1x1x128 ![1, 1, 0] (W8 m ρ c (Proc.devRef .tc main_arg19)) slices_S2x3x128_S1x1x128_1_1_0) shapeCasts_S1x1x128_S128) :=
  (born4 m ρ c).2.2.2.2.2.2.2

end Cert.KStages

end
-- ==== Proof.RefSite1p.lean ====
/-
  The reference program's node-type output of layer 1 for the product nodes, read at a row and a feature:
  it is the row function `Cert.RowSpec.rowOut` of the two neighbour means (relations 0 and 5), the node's own
  features, and the slices of the weights, biases, scale and shift that the layer and the relations select.
  Every step is unfolding an operation at an index and identifying the composed index maps with coordinates.
-/
import proofs.«172654_j31121333027532_2_alg».proof.Proof.ReadP
import proofs.«172654_j31121333027532_2_alg».proof.Proof.RowSpec

set_option maxHeartbeats 1600000

noncomputable section

namespace Cert.RefSite

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

/-- The neighbour matrix of relation 0, transposed for the product: entry `(k, j)` is `Wl[1, 0, j, k]`. -/
theorem wl_1_p_a (k j : Fin 128) :
    val_main_v374 (F := Ideal) x15 (ix2 k j) = x15 (ix4 (1 : Fin 2) (0 : Fin 6) j k) := by
  rw [val_main_v374_apply, val_main_v346_apply, val_main_v345_apply, val_main_v340_apply, val_main_v339_apply]
  refine congrArg x15 (funext fun e => Fin.ext ?_)
  have hj := j.isLt
  have hk := k.isLt
  match e with
  | ⟨0, _⟩ => rfl
  | ⟨1, _⟩ =>
    show (((0 + 0) * 128 + (j.val * 128 + k.val) / 128 % 128) * 128 + (j.val * 128 + k.val) % 128) / 16384 % 6 = 0
    omega
  | ⟨2, _⟩ =>
    show (((0 + 0) * 128 + (j.val * 128 + k.val) / 128 % 128) * 128 + (j.val * 128 + k.val) % 128) / 128 % 128 = j.val
    omega
  | ⟨3, _⟩ =>
    show (((0 + 0) * 128 + (j.val * 128 + k.val) / 128 % 128) * 128 + (j.val * 128 + k.val) % 128) % 128 = k.val
    omega

/-- The root matrix of relation 0, transposed for the product: entry `(k, j)` is `Wr[1, 0, j, k]`. -/
theorem wr_1_p_a (k j : Fin 128) :
    val_main_v379 (F := Ideal) x17 (ix2 k j) = x17 (ix4 (1 : Fin 2) (0 : Fin 6) j k) := by
  rw [val_main_v379_apply, val_main_v350_apply, val_main_v349_apply, val_main_v344_apply, val_main_v343_apply]
  refine congrArg x17 (funext fun e => Fin.ext ?_)
  have hj := j.isLt
  have hk := k.isLt
  match e with
  | ⟨0, _⟩ => rfl
  | ⟨1, _⟩ =>
    show (((0 + 0) * 128 + (j.val * 128 + k.val) / 128 % 128) * 128 + (j.val * 128 + k.val) % 128) / 16384 % 6 = 0
    omega
  | ⟨2, _⟩ =>
    show (((0 + 0) * 128 + (j.val * 128 + k.val) / 128 % 128) * 128 + (j.val * 128 + k.val) % 128) / 128 % 128 = j.val
    omega
  | ⟨3, _⟩ =>
    show (((0 + 0) * 128 + (j.val * 128 + k.val) / 128 % 128) * 128 + (j.val * 128 + k.val) % 128) % 128 = k.val
    omega

/-- The bias of relation 0, repeated along the rows: entry `(r, j)` is `bl[1, 0, j]`. -/
theorem bl_1_p_a (r : Fin 50000) (j : Fin 128) :
    val_main_v377 (F := Ideal) x16 (ix2 r j) = x16 (ix3 (1 : Fin 2) (0 : Fin 6) j) := by
  rw [val_main_v377_apply, val_main_v376_apply, val_main_v348_apply, val_main_v347_apply, val_main_v342_apply, val_main_v341_apply]
  refine congrArg x16 (funext fun e => Fin.ext ?_)
  have hj := j.isLt
  match e with
  | ⟨0, _⟩ => rfl
  | ⟨1, _⟩ =>
    show ((0 + 0) * 128 + j.val % 128) / 128 % 6 = 0
    omega
  | ⟨2, _⟩ =>
    show ((0 + 0) * 128 + j.val % 128) % 128 = j.val
    omega

/-- The neighbour mean of relation 0: the neighbour sum divided by the larger of the neighbour count and one. -/
theorem msg_1_p_a (r : Fin 50000) (k : Fin 128) :
    val_main_v373 (F := Ideal) x0 x1 x2 x3 x4 x6 x9 x10 x11 x12 x13 x14 x15 x16 x17 x18 x19 (ix2 r k)
      = Ideal.div (val_main_v364 (F := Ideal) x0 x1 x2 x3 x4 x6 x9 x10 x11 x12 x13 x14 x15 x16 x17 x18 x19 (ix2 r k)) (max (val_main_v368 (F := Ideal) x3 (ix1 r)) Cert.RowSpec.one32) := by
  rw [val_main_v373_apply, val_main_v372_apply, val_main_v371_apply, val_main_v370_apply, val_main_v369_apply, val_main_cst_57_apply]
  have h : idx_main_v371 (idx_main_v372 (ix2 r k)) = ix1 r := funext fun e => by match e with | ⟨0, _⟩ => rfl
  rw [h]
  rfl

/-- The output of relation 0 at a row and a feature. -/
theorem rel_1_p_a (r : Fin 50000) (j : Fin 128) :
    val_main_v381 (F := Ideal) x0 x1 x2 x3 x4 x6 x8 x9 x10 x11 x12 x13 x14 x15 x16 x17 x18 x19 (ix2 r j)
      = Cert.RowSpec.rel
          (fun k => Ideal.div (val_main_v364 (F := Ideal) x0 x1 x2 x3 x4 x6 x9 x10 x11 x12 x13 x14 x15 x16 x17 x18 x19 (ix2 r k)) (max (val_main_v368 (F := Ideal) x3 (ix1 r)) Cert.RowSpec.one32))
          (fun k => val_main_v306 (F := Ideal) x0 x1 x2 x3 x8 x9 x10 x11 x12 x13 x14 x15 x16 x17 x18 x19 (ix2 r k))
          (fun k j => x15 (ix4 (1 : Fin 2) (0 : Fin 6) j k)) (fun k j => x17 (ix4 (1 : Fin 2) (0 : Fin 6) j k))
          (fun j => x16 (ix3 (1 : Fin 2) (0 : Fin 6) j)) j := by
  rw [val_main_v381_apply, val_main_v378_apply, val_main_v375_apply, val_main_v380_apply]
  have hl1 : ∀ k, lidx_main_v375 (ix2 r j) k = ix2 r k := fun k => funext fun e => by match e with | ⟨0, _⟩ => rfl | ⟨1, _⟩ => rfl
  have hr1 : ∀ k, ridx_main_v375 (ix2 r j) k = ix2 k j := fun k => funext fun e => by match e with | ⟨0, _⟩ => rfl | ⟨1, _⟩ => rfl
  have hl2 : ∀ k, lidx_main_v380 (ix2 r j) k = ix2 r k := fun k => funext fun e => by match e with | ⟨0, _⟩ => rfl | ⟨1, _⟩ => rfl
  have hr2 : ∀ k, ridx_main_v380 (ix2 r j) k = ix2 k j := fun k => funext fun e => by match e with | ⟨0, _⟩ => rfl | ⟨1, _⟩ => rfl
  simp only [hl1, hr1, hl2, hr2, msg_1_p_a, wl_1_p_a, wr_1_p_a, bl_1_p_a]
  rfl

/-- The neighbour matrix of relation 5, transposed for the product: entry `(k, j)` is `Wl[1, 5, j, k]`. -/
theorem wl_1_p_b (k j : Fin 128) :
    val_main_v559 (F := Ideal) x15 (ix2 k j) = x15 (ix4 (1 : Fin 2) (5 : Fin 6) j k) := by
  rw [val_main_v559_apply, val_main_v531_apply, val_main_v530_apply, val_main_v340_apply, val_main_v339_apply]
  refine congrArg x15 (funext fun e => Fin.ext ?_)
  have hj := j.isLt
  have hk := k.isLt
  match e with
  | ⟨0, _⟩ => rfl
  | ⟨1, _⟩ =>
    show (((5 + 0) * 128 + (j.val * 128 + k.val) / 128 % 128) * 128 + (j.val * 128 + k.val) % 128) / 16384 % 6 = 5
    omega
  | ⟨2, _⟩ =>
    show (((5 + 0) * 128 + (j.val * 128 + k.val) / 128 % 128) * 128 + (j.val * 128 + k.val) % 128) / 128 % 128 = j.val
    omega
  | ⟨3, _⟩ =>
    show (((5 + 0) * 128 + (j.val * 128 + k.val) / 128 % 128) * 128 + (j.val * 128 + k.val) % 128) % 128 = k.val
    omega

/-- The root matrix of relation 5, transposed for the product: entry `(k, j)` is `Wr[1, 5, j, k]`. -/
theorem wr_1_p_b (k j : Fin 128) :
    val_main_v564 (F := Ideal) x17 (ix2 k j) = x17 (ix4 (1 : Fin 2) (5 : Fin 6) j k) := by
  rw [val_main_v564_apply, val_main_v535_apply, val_main_v534_apply, val_main_v344_apply, val_main_v343_apply]
  refine congrArg x17 (funext fun e => Fin.ext ?_)
  have hj := j.isLt
  have hk := k.isLt
  match e with
  | ⟨0, _⟩ => rfl
  | ⟨1, _⟩ =>
    show (((5 + 0) * 128 + (j.val * 128 + k.val) / 128 % 128) * 128 + (j.val * 128 + k.val) % 128) / 16384 % 6 = 5
    omega
  | ⟨2, _⟩ =>
    show (((5 + 0) * 128 + (j.val * 128 + k.val) / 128 % 128) * 128 + (j.val * 128 + k.val) % 128) / 128 % 128 = j.val
    omega
  | ⟨3, _⟩ =>
    show (((5 + 0) * 128 + (j.val * 128 + k.val) / 128 % 128) * 128 + (j.val * 128 + k.val) % 128) % 128 = k.val
    omega

/-- The bias of relation 5, repeated along the rows: entry `(r, j)` is `bl[1, 5, j]`. -/
theorem bl_1_p_b (r : Fin 50000) (j : Fin 128) :
    val_main_v562 (F := Ideal) x16 (ix2 r j) = x16 (ix3 (1 : Fin 2) (5 : Fin 6) j) := by
  rw [val_main_v562_apply, val_main_v561_apply, val_main_v533_apply, val_main_v532_apply, val_main_v342_apply, val_main_v341_apply]
  refine congrArg x16 (funext fun e => Fin.ext ?_)
  have hj := j.isLt
  match e with
  | ⟨0, _⟩ => rfl
  | ⟨1, _⟩ =>
    show ((5 + 0) * 128 + j.val % 128) / 128 % 6 = 5
    omega
  | ⟨2, _⟩ =>
    show ((5 + 0) * 128 + j.val % 128) % 128 = j.val
    omega

/-- The neighbour mean of relation 5: the neighbour sum divided by the larger of the neighbour count and one. -/
theorem msg_1_p_b (r : Fin 50000) (k : Fin 128) :
    val_main_v558 (F := Ideal) x0 x1 x2 x5 x7 x8 x9 x10 x11 x12 x13 x14 x15 x16 x17 x18 x19 (ix2 r k)
      = Ideal.div (val_main_v549 (F := Ideal) x0 x1 x2 x5 x7 x8 x9 x10 x11 x12 x13 x14 x15 x16 x17 x18 x19 (ix2 r k)) (max (val_main_v553 (F := Ideal) x8 (ix1 r)) Cert.RowSpec.one32) := by
  rw [val_main_v558_apply, val_main_v557_apply, val_main_v556_apply, val_main_v555_apply, val_main_v554_apply, val_main_cst_87_apply]
  have h : idx_main_v556 (idx_main_v557 (ix2 r k)) = ix1 r := funext fun e => by match e with | ⟨0, _⟩ => rfl
  rw [h]
  rfl

/-- The output of relation 5 at a row and a feature. -/
theorem rel_1_p_b (r : Fin 50000) (j : Fin 128) :
    val_main_v566 (F := Ideal) x0 x1 x2 x3 x5 x7 x8 x9 x10 x11 x12 x13 x14 x15 x16 x17 x18 x19 (ix2 r j)
      = Cert.RowSpec.rel
          (fun k => Ideal.div (val_main_v549 (F := Ideal) x0 x1 x2 x5 x7 x8 x9 x10 x11 x12 x13 x14 x15 x16 x17 x18 x19 (ix2 r k)) (max (val_main_v553 (F := Ideal) x8 (ix1 r)) Cert.RowSpec.one32))
          (fun k => val_main_v306 (F := Ideal) x0 x1 x2 x3 x8 x9 x10 x11 x12 x13 x14 x15 x16 x17 x18 x19 (ix2 r k))
          (fun k j => x15 (ix4 (1 : Fin 2) (5 : Fin 6) j k)) (fun k j => x17 (ix4 (1 : Fin 2) (5 : Fin 6) j k))
          (fun j => x16 (ix3 (1 : Fin 2) (5 : Fin 6) j)) j := by
  rw [val_main_v566_apply, val_main_v563_apply, val_main_v560_apply, val_main_v565_apply]
  have hl1 : ∀ k, lidx_main_v560 (ix2 r j) k = ix2 r k := fun k => funext fun e => by match e with | ⟨0, _⟩ => rfl | ⟨1, _⟩ => rfl
  have hr1 : ∀ k, ridx_main_v560 (ix2 r j) k = ix2 k j := fun k => funext fun e => by match e with | ⟨0, _⟩ => rfl | ⟨1, _⟩ => rfl
  have hl2 : ∀ k, lidx_main_v565 (ix2 r j) k = ix2 r k := fun k => funext fun e => by match e with | ⟨0, _⟩ => rfl | ⟨1, _⟩ => rfl
  have hr2 : ∀ k, ridx_main_v565 (ix2 r j) k = ix2 k j := fun k => funext fun e => by match e with | ⟨0, _⟩ => rfl | ⟨1, _⟩ => rfl
  simp only [hl1, hr1, hl2, hr2, msg_1_p_b, wl_1_p_b, wr_1_p_b, bl_1_p_b]
  rfl

/-- The averaged row before normalisation: one half of the sum of the two relations' outputs. -/
theorem avg_1_p (r : Fin 50000) (j : Fin 128) :
    val_main_v601 (F := Ideal) x0 x1 x2 x3 x4 x5 x6 x7 x8 x9 x10 x11 x12 x13 x14 x15 x16 x17 x18 x19 (ix2 r j)
      = Cert.RowSpec.half32 * (val_main_v381 (F := Ideal) x0 x1 x2 x3 x4 x6 x8 x9 x10 x11 x12 x13 x14 x15 x16 x17 x18 x19 (ix2 r j) + val_main_v566 (F := Ideal) x0 x1 x2 x3 x5 x7 x8 x9 x10 x11 x12 x13 x14 x15 x16 x17 x18 x19 (ix2 r j)) := by
  rw [val_main_v601_apply, val_main_v600_apply, val_main_cst_94_apply, val_main_v599_apply]
  rfl

/-- The row's mean, as the program forms it: the sum from zero over the 128 features, divided by 128. -/
theorem mean_1_p (r : Fin 50000) :
    val_main_v609 (F := Ideal) x0 x1 x2 x3 x4 x5 x6 x7 x8 x9 x10 x11 x12 x13 x14 x15 x16 x17 x18 x19 (ix2 r (0 : Fin 1))
      = Cert.RowSpec.mean (fun j => val_main_v601 (F := Ideal) x0 x1 x2 x3 x4 x5 x6 x7 x8 x9 x10 x11 x12 x13 x14 x15 x16 x17 x18 x19 (ix2 r j)) := by
  rw [val_main_v609_apply, val_main_v607_apply, val_main_v606_apply, val_main_cst_95_apply, val_main_v608_apply, val_main_cst_96_apply]
  have h : ∀ k, idx_main_v606 (idx_main_v607 (ix2 r (0 : Fin 1))) k = ix2 r k := fun k => funext fun e => by match e with | ⟨0, _⟩ => rfl | ⟨1, _⟩ => rfl
  simp only [h]
  rfl

/-- The row's variance: the mean of the squared deviations from the mean. -/
theorem var_1_p (r : Fin 50000) :
    val_main_v616 (F := Ideal) x0 x1 x2 x3 x4 x5 x6 x7 x8 x9 x10 x11 x12 x13 x14 x15 x16 x17 x18 x19 (ix2 r (0 : Fin 1))
      = Cert.RowSpec.mean (fun i =>
          (val_main_v601 (F := Ideal) x0 x1 x2 x3 x4 x5 x6 x7 x8 x9 x10 x11 x12 x13 x14 x15 x16 x17 x18 x19 (ix2 r i) - Cert.RowSpec.mean (fun j => val_main_v601 (F := Ideal) x0 x1 x2 x3 x4 x5 x6 x7 x8 x9 x10 x11 x12 x13 x14 x15 x16 x17 x18 x19 (ix2 r j)))
            * (val_main_v601 (F := Ideal) x0 x1 x2 x3 x4 x5 x6 x7 x8 x9 x10 x11 x12 x13 x14 x15 x16 x17 x18 x19 (ix2 r i) - Cert.RowSpec.mean (fun j => val_main_v601 (F := Ideal) x0 x1 x2 x3 x4 x5 x6 x7 x8 x9 x10 x11 x12 x13 x14 x15 x16 x17 x18 x19 (ix2 r j)))) := by
  rw [val_main_v616_apply, val_main_v614_apply, val_main_v613_apply, val_main_cst_97_apply, val_main_v615_apply, val_main_cst_98_apply]
  have h : ∀ k, idx_main_v613 (idx_main_v614 (ix2 r (0 : Fin 1))) k = ix2 r k := fun k => funext fun e => by match e with | ⟨0, _⟩ => rfl | ⟨1, _⟩ => rfl
  have h0 : ∀ k : Fin 128, idx_main_v610 (ix2 r k) = ix2 r (0 : Fin 1) := fun k => funext fun e => by match e with | ⟨0, _⟩ => rfl | ⟨1, _⟩ => rfl
  simp only [h, val_main_v612_apply, val_main_v611_apply, val_main_v610_apply, h0, mean_1_p]
  rfl

/-- The scale of the normalisation, repeated along the rows: entry `(r, j)` is `gamma[1, 1, j]`. -/
theorem gamma_1_p (r : Fin 50000) (j : Fin 128) :
    val_main_v625 (F := Ideal) x18 (ix2 r j) = x18 (ix3 (1 : Fin 2) (1 : Fin 3) j) := by
  rw [val_main_v625_apply, val_main_v624_apply, val_main_v603_apply, val_main_v602_apply]
  refine congrArg x18 (funext fun e => Fin.ext ?_)
  have hj := j.isLt
  match e with
  | ⟨0, _⟩ => rfl
  | ⟨1, _⟩ => rfl
  | ⟨2, _⟩ =>
    show j.val % 128 = j.val
    omega

/-- The shift of the normalisation, repeated along the rows: entry `(r, j)` is `beta[1, 1, j]`. -/
theorem beta_1_p (r : Fin 50000) (j : Fin 128) :
    val_main_v628 (F := Ideal) x19 (ix2 r j) = x19 (ix3 (1 : Fin 2) (1 : Fin 3) j) := by
  rw [val_main_v628_apply, val_main_v627_apply, val_main_v605_apply, val_main_v604_apply]
  refine congrArg x19 (funext fun e => Fin.ext ?_)
  have hj := j.isLt
  match e with
  | ⟨0, _⟩ => rfl
  | ⟨1, _⟩ => rfl
  | ⟨2, _⟩ =>
    show j.val % 128 = j.val
    omega

/-- The normalised, scaled, shifted row with its negative entries replaced by zero, in terms of the averaged row. -/
theorem out_1_p (r : Fin 50000) (j : Fin 128) :
    val_main_v630 (F := Ideal) x0 x1 x2 x3 x4 x5 x6 x7 x8 x9 x10 x11 x12 x13 x14 x15 x16 x17 x18 x19 (ix2 r j)
      = Cert.RowSpec.lnrelu (fun j => val_main_v601 (F := Ideal) x0 x1 x2 x3 x4 x5 x6 x7 x8 x9 x10 x11 x12 x13 x14 x15 x16 x17 x18 x19 (ix2 r j))
          (fun j => x18 (ix3 (1 : Fin 2) (1 : Fin 3) j)) (fun j => x19 (ix3 (1 : Fin 2) (1 : Fin 3) j)) j := by
  rw [val_main_v630_apply, val_main_call4_v0_apply, val_main_call4_cst_apply, val_main_v629_apply, val_main_v626_apply, val_main_v623_apply,
    val_main_v618_apply, val_main_v617_apply, val_main_v622_apply, val_main_v621_apply, val_main_v620_apply, val_main_v619_apply, val_main_cst_99_apply,
    gamma_1_p, beta_1_p]
  have h0 : idx_main_v617 (ix2 r j) = ix2 r (0 : Fin 1) := funext fun e => by match e with | ⟨0, _⟩ => rfl | ⟨1, _⟩ => rfl
  have h1 : idx_main_v622 (ix2 r j) = ix2 r (0 : Fin 1) := funext fun e => by match e with | ⟨0, _⟩ => rfl | ⟨1, _⟩ => rfl
  rw [h0, h1, mean_1_p, var_1_p]
  rfl

/-- The layer-1 output for the product nodes at row `r` and feature `j` is the row function of the two
    neighbour means, the node's own features and the selected parameter slices. -/
theorem site_1_p (r : Fin 50000) (j : Fin 128) :
    val_main_v630 (F := Ideal) x0 x1 x2 x3 x4 x5 x6 x7 x8 x9 x10 x11 x12 x13 x14 x15 x16 x17 x18 x19 (ix2 r j)
      = Cert.RowSpec.rowOut
          (fun k => Ideal.div (val_main_v364 (F := Ideal) x0 x1 x2 x3 x4 x6 x9 x10 x11 x12 x13 x14 x15 x16 x17 x18 x19 (ix2 r k)) (max (val_main_v368 (F := Ideal) x3 (ix1 r)) Cert.RowSpec.one32))
          (fun k => Ideal.div (val_main_v549 (F := Ideal) x0 x1 x2 x5 x7 x8 x9 x10 x11 x12 x13 x14 x15 x16 x17 x18 x19 (ix2 r k)) (max (val_main_v553 (F := Ideal) x8 (ix1 r)) Cert.RowSpec.one32))
          (fun k => val_main_v306 (F := Ideal) x0 x1 x2 x3 x8 x9 x10 x11 x12 x13 x14 x15 x16 x17 x18 x19 (ix2 r k))
          (fun k j => x15 (ix4 (1 : Fin 2) (0 : Fin 6) j k)) (fun k j => x15 (ix4 (1 : Fin 2) (5 : Fin 6) j k))
          (fun k j => x17 (ix4 (1 : Fin 2) (0 : Fin 6) j k)) (fun k j => x17 (ix4 (1 : Fin 2) (5 : Fin 6) j k))
          (fun j => x16 (ix3 (1 : Fin 2) (0 : Fin 6) j)) (fun j => x16 (ix3 (1 : Fin 2) (5 : Fin 6) j))
          (fun j => x18 (ix3 (1 : Fin 2) (1 : Fin 3) j)) (fun j => x19 (ix3 (1 : Fin 2) (1 : Fin 3) j)) j := by
  rw [out_1_p]
  unfold Cert.RowSpec.rowOut
  simp only [avg_1_p, rel_1_p_a, rel_1_p_b]

end Cert.RefSite

end
-- ==== Proof.KSite4.lean ====
/-
  Launch 4: the arrays it reads, and the array it leaves, against the reference's stages at the same site.
-/
import proofs.«172654_j31121333027532_2_alg».proof.Proof.Blocks4
import proofs.«172654_j31121333027532_2_alg».proof.Proof.Bridge
import proofs.«172654_j31121333027532_2_alg».proof.Proof.HostReads
import proofs.«172654_j31121333027532_2_alg».proof.Proof.KKeep
import proofs.«172654_j31121333027532_2_alg».proof.Proof.KBorn4
import proofs.«172654_j31121333027532_2_alg».proof.Proof.RefSite1p
import proofs.«172654_j31121333027532_2_alg».proof.Proof.KBorn0
import proofs.«172654_j31121333027532_2_alg».proof.Proof.KBorn3
import proofs.«172654_j31121333027532_2_alg».proof.Proof.KSite0
import proofs.«172654_j31121333027532_2_alg».proof.Proof.KSite1
import proofs.«172654_j31121333027532_2_alg».proof.Proof.KSite2
import proofs.«172654_j31121333027532_2_alg».proof.Proof.KSite3

set_option maxRecDepth 16384

noncomputable section

namespace Cert.KStages

open Cert.KernelIdeal Cert.KernelIdeal.Gen Cert.KernelIdeal.GenP Cert.RowSpec Cert.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

theorem win4_0 (c : Dev nD) : (W9 m ρ c (Proc.devRef .tc main_v233)) = (Cert.ReferenceIdeal.ReadP.val_main_v364 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v233_7_9 m ρ c, born_v233 m ρ c, keep_v18_1_6 m ρ c, born_v18 m ρ c, keep_v179_2_6 m ρ c, out0 m ρ c, keep_v16_1_6 m ρ c, born_v16 m ρ c]
  all_goals rfl

theorem win4_2 (c : Dev nD) : (W9 m ρ c (Proc.devRef .tc main_v283)) = (Cert.ReferenceIdeal.ReadP.val_main_v549 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v283_7_9 m ρ c, born_v283 m ρ c, keep_v38_1_6 m ρ c, born_v38 m ρ c, out2 m ρ c, keep_v36_1_6 m ρ c, born_v36 m ρ c]
  all_goals rfl

theorem win4_4 (c : Dev nD) : (W9 m ρ c (Proc.devRef .tc main_v196)) = (Cert.ReferenceIdeal.ReadP.val_main_v306 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v196_4_9 m ρ c, out1 m ρ c]
  all_goals rfl

theorem win4_1 (c : Dev nD) (r : Fin 50000) : (W9 m ρ c (Proc.devRef .tc main_v47)) (ix2 r (0 : Fin 1)) = Ideal.div one32 (max ((Cert.ReferenceIdeal.ReadP.val_main_v368 (F := Ideal) (m ((c : Thread nD τ).loc main_arg3))) (ix1 r)) one32) := by
  rw [keep_v47_1_9 m ρ c, born_v47 m ρ c]
  exact recip_col_apply (n := 50000) (Cert.ReferenceIdeal.ReadP.val_main_v368 (F := Ideal) (m ((c : Thread nD τ).loc main_arg3))) bcast_S_S50000 bcast_S_S50000 bcast_S50000_S50000x1_0 r

theorem win4_3 (c : Dev nD) (r : Fin 50000) : (W9 m ρ c (Proc.devRef .tc main_v92)) (ix2 r (0 : Fin 1)) = Ideal.div one32 (max ((Cert.ReferenceIdeal.ReadP.val_main_v553 (F := Ideal) (m ((c : Thread nD τ).loc main_arg8))) (ix1 r)) one32) := by
  rw [keep_v92_1_9 m ρ c, born_v92 m ρ c]
  exact recip_col_apply (n := 50000) (Cert.ReferenceIdeal.ReadP.val_main_v553 (F := Ideal) (m ((c : Thread nD τ).loc main_arg8))) bcast_S_S50000 bcast_S_S50000 bcast_S50000_S50000x1_0 r

theorem win4_5 (c : Dev nD) (k j : Fin 128) : (W9 m ρ c (Proc.devRef .tc main_v302)) (ix2 k j) = (m ((c : Thread nD τ).loc main_arg15)) (ix4 (1 : Fin 2) (0 : Fin 6) j k) := by
  rw [born_v302 m ρ c, keep_v221_7_8 m ρ c, born_v221 m ρ c, keep_arg15_0_6 m ρ c]
  exact (swapped_slice_apply _ 0 (by decide) _ _ _ _ k j).trans (layer4_apply (W0 m ρ c (Proc.devRef .tc main_arg15)) 1 (by decide) _ _ (0 : Fin 6) j k)

theorem win4_6 (c : Dev nD) (k j : Fin 128) : (W9 m ρ c (Proc.devRef .tc main_v304)) (ix2 k j) = (m ((c : Thread nD τ).loc main_arg15)) (ix4 (1 : Fin 2) (5 : Fin 6) j k) := by
  rw [born_v304 m ρ c, keep_v221_7_8 m ρ c, born_v221 m ρ c, keep_arg15_0_6 m ρ c]
  exact (swapped_slice_apply _ 5 (by decide) _ _ _ _ k j).trans (layer4_apply (W0 m ρ c (Proc.devRef .tc main_arg15)) 1 (by decide) _ _ (5 : Fin 6) j k)

theorem win4_7 (c : Dev nD) (k j : Fin 128) : (W9 m ρ c (Proc.devRef .tc main_v306)) (ix2 k j) = (m ((c : Thread nD τ).loc main_arg17)) (ix4 (1 : Fin 2) (0 : Fin 6) j k) := by
  rw [born_v306 m ρ c, keep_v223_7_8 m ρ c, born_v223 m ρ c, keep_arg17_0_6 m ρ c]
  exact (swapped_slice_apply _ 0 (by decide) _ _ _ _ k j).trans (layer4_apply (W0 m ρ c (Proc.devRef .tc main_arg17)) 1 (by decide) _ _ (0 : Fin 6) j k)

theorem win4_8 (c : Dev nD) (k j : Fin 128) : (W9 m ρ c (Proc.devRef .tc main_v308)) (ix2 k j) = (m ((c : Thread nD τ).loc main_arg17)) (ix4 (1 : Fin 2) (5 : Fin 6) j k) := by
  rw [born_v308 m ρ c, keep_v223_7_8 m ρ c, born_v223 m ρ c, keep_arg17_0_6 m ρ c]
  exact (swapped_slice_apply _ 5 (by decide) _ _ _ _ k j).trans (layer4_apply (W0 m ρ c (Proc.devRef .tc main_arg17)) 1 (by decide) _ _ (5 : Fin 6) j k)

theorem win4_9 (c : Dev nD) (j : Fin 128) : (W9 m ρ c (Proc.devRef .tc main_v310)) (ix1 j) = (m ((c : Thread nD τ).loc main_arg16)) (ix3 (1 : Fin 2) (0 : Fin 6) j) := by
  rw [born_v310 m ρ c, keep_v217_7_8 m ρ c, born_v217 m ρ c, keep_arg16_0_6 m ρ c]
  exact (row_apply _ 0 (by decide) _ _ j).trans (layer3_apply (W0 m ρ c (Proc.devRef .tc main_arg16)) 1 (by decide) _ _ (0 : Fin 6) j)

theorem win4_10 (c : Dev nD) (j : Fin 128) : (W9 m ρ c (Proc.devRef .tc main_v312)) (ix1 j) = (m ((c : Thread nD τ).loc main_arg16)) (ix3 (1 : Fin 2) (5 : Fin 6) j) := by
  rw [born_v312 m ρ c, keep_v217_7_8 m ρ c, born_v217 m ρ c, keep_arg16_0_6 m ρ c]
  exact (row_apply _ 5 (by decide) _ _ j).trans (layer3_apply (W0 m ρ c (Proc.devRef .tc main_arg16)) 1 (by decide) _ _ (5 : Fin 6) j)

theorem win4_11 (c : Dev nD) (j : Fin 128) : (W9 m ρ c (Proc.devRef .tc main_v314)) (ix1 j) = (m ((c : Thread nD τ).loc main_arg18)) (ix3 (1 : Fin 2) (1 : Fin 3) j) := by
  rw [born_v314 m ρ c, keep_arg18_0_8 m ρ c]
  exact norm_param_apply (W0 m ρ c (Proc.devRef .tc main_arg18)) 1 1 (by decide) (by decide) _ _ j

theorem win4_12 (c : Dev nD) (j : Fin 128) : (W9 m ρ c (Proc.devRef .tc main_v316)) (ix1 j) = (m ((c : Thread nD τ).loc main_arg19)) (ix3 (1 : Fin 2) (1 : Fin 3) j) := by
  rw [born_v316 m ρ c, keep_arg19_0_8 m ρ c]
  exact norm_param_apply (W0 m ρ c (Proc.devRef .tc main_arg19)) 1 1 (by decide) (by decide) _ _ j

/-- After launch 4 its output array is the reference's output at the same site. -/
theorem out4 (c : Dev nD) : W10 m ρ c (Proc.devRef .tc main_v317) = (Cert.ReferenceIdeal.ReadP.val_main_v630 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W10_arr m ρ c 13).trans ?_
  refine (Cert.Blocks.final4 (V9 m ρ) c).trans ?_
  funext i
  obtain ⟨r, j, rfl⟩ : ∃ (r : Fin 50000) (j : Fin 128), i = ix2 r j := ⟨i 0, i 1, eq_ix2 i⟩
  refine (site_bridge (n := 50000) _ _ _ _ _ _ _ _ _ _ _ _ _ (Cert.ReferenceIdeal.ReadP.val_main_v364 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v549 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v306 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v368 (F := Ideal) (m ((c : Thread nD τ).loc main_arg3))) (Cert.ReferenceIdeal.ReadP.val_main_v553 (F := Ideal) (m ((c : Thread nD τ).loc main_arg8)))
    _ _ _ _ _ _ _ _
    (win4_0 m ρ c) (win4_2 m ρ c) (win4_4 m ρ c) (win4_1 m ρ c) (win4_3 m ρ c)
    (win4_5 m ρ c) (win4_6 m ρ c) (win4_7 m ρ c) (win4_8 m ρ c) (win4_9 m ρ c) (win4_10 m ρ c) (win4_11 m ρ c) (win4_12 m ρ c) r j).trans ?_
  exact (Cert.RefSite.site_1_p (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r j).symm

end Cert.KStages

end
-- ==== Proof.Blocks5.lean ====
/-
  Launch 5, from blocks to the array: the grid points' blocks tile the output array row block by row block, each input
  block is the matching rows of its array (a matrix or a vector is one block), so the output array ends holding the
  layer's output over the arrays the launch finds.
-/
import proofs.«172654_j31121333027532_2_alg».proof.Proof.FrameIdealP
import proofs.«172654_j31121333027532_2_alg».proof.Proof.RowSpec
import proofs.«172654_j31121333027532_2_alg».proof.Proof.BodyRow1000
import Idealize.ShloMosaic.Lib.Pipeline.Value
import Idealize.ShloMosaic.Lib.ValueIdx

set_option maxRecDepth 16384

noncomputable section

namespace Cert.Blocks

open Cert.KernelIdeal Cert.KernelIdeal.Gen Cert.KernelIdeal.GenP Cert.RowSpec Cert.BodyRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Launch 5: 5000 rows in blocks of 1000 -/

/-- The block index maps over the grid: a row window's block at point `t` is block row `t`, column block 0; a matrix or a vector is
    one block. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0
    ∧ win5_4.index t (0 : Fin 2) = t.val
    ∧ win5_4.index t (1 : Fin 2) = 0
    ∧ win5_13.index t (0 : Fin 2) = t.val
    ∧ win5_13.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 1) = 0
    ∧ win5_10.index t (0 : Fin 1) = 0
    ∧ win5_11.index t (0 : Fin 1) = 0
    ∧ win5_12.index t (0 : Fin 1) = 0 :=
  (by decide +kernel : ∀ t : Fin grid5.N, _)

/-- The array row that row `p` of point `t`'s block is. -/
def row5 (t : Fin cfg5.N) (p : Fin 1000) : Fin 5000 :=
  ⟨t.val * 1000 + p.val, by have h := lt_of_lt_of_eq t.isLt N_5; have := p.isLt; omega⟩

theorem blk5_0 (c : Dev nD) (t : Fin cfg5.N) (p : Fin 1000) (k : Fin 128) :
    iblk5 V c 0 t (ix2 p k) = (V c main_v253 : S5000x128.Idx → EReal) (ix2 (row5 t p) k) := by
  show (V c main_v253 : S5000x128.Idx → EReal) (((cfg5.win 0).blk t).view.emb (ix2 p k)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_0.index t (0 : Fin 2) * 1000 + 1 * p.val = t.val * 1000 + p.val; rw [f0]; omega
  | ⟨1, _⟩ => show win5_0.index t (1 : Fin 2) * 128 + 1 * k.val = k.val; rw [f1]; omega

theorem blk5_2 (c : Dev nD) (t : Fin cfg5.N) (p : Fin 1000) (k : Fin 128) :
    iblk5 V c 2 t (ix2 p k) = (V c main_v273 : S5000x128.Idx → EReal) (ix2 (row5 t p) k) := by
  show (V c main_v273 : S5000x128.Idx → EReal) (((cfg5.win 2).blk t).view.emb (ix2 p k)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_2.index t (0 : Fin 2) * 1000 + 1 * p.val = t.val * 1000 + p.val; rw [f4]; omega
  | ⟨1, _⟩ => show win5_2.index t (1 : Fin 2) * 128 + 1 * k.val = k.val; rw [f5]; omega

theorem blk5_4 (c : Dev nD) (t : Fin cfg5.N) (p : Fin 1000) (k : Fin 128) :
    iblk5 V c 4 t (ix2 p k) = (V c main_v213 : S5000x128.Idx → EReal) (ix2 (row5 t p) k) := by
  show (V c main_v213 : S5000x128.Idx → EReal) (((cfg5.win 4).blk t).view.emb (ix2 p k)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_4.index t (0 : Fin 2) * 1000 + 1 * p.val = t.val * 1000 + p.val; rw [f8]; omega
  | ⟨1, _⟩ => show win5_4.index t (1 : Fin 2) * 128 + 1 * k.val = k.val; rw [f9]; omega

theorem blk5_1 (c : Dev nD) (t : Fin cfg5.N) (p : Fin 1000) :
    iblk5 V c 1 t (ix2 p (0 : Fin 1)) = (V c main_v65 : S5000x1.Idx → EReal) (ix2 (row5 t p) (0 : Fin 1)) := by
  show (V c main_v65 : S5000x1.Idx → EReal) (((cfg5.win 1).blk t).view.emb (ix2 p (0 : Fin 1))) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_1.index t (0 : Fin 2) * 1000 + 1 * p.val = t.val * 1000 + p.val; rw [f2]; omega
  | ⟨1, _⟩ => show win5_1.index t (1 : Fin 2) * 1 + 1 * 0 = 0; rw [f3]

theorem blk5_3 (c : Dev nD) (t : Fin cfg5.N) (p : Fin 1000) :
    iblk5 V c 3 t (ix2 p (0 : Fin 1)) = (V c main_v83 : S5000x1.Idx → EReal) (ix2 (row5 t p) (0 : Fin 1)) := by
  show (V c main_v83 : S5000x1.Idx → EReal) (((cfg5.win 3).blk t).view.emb (ix2 p (0 : Fin 1))) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_3.index t (0 : Fin 2) * 1000 + 1 * p.val = t.val * 1000 + p.val; rw [f6]; omega
  | ⟨1, _⟩ => show win5_3.index t (1 : Fin 2) * 1 + 1 * 0 = 0; rw [f7]

theorem blk5_5 (c : Dev nD) (t : Fin cfg5.N) (k j : Fin 128) :
    iblk5 V c 5 t (ix2 k j) = (V c main_v319 : S128x128.Idx → EReal) (ix2 k j) := by
  show (V c main_v319 : S128x128.Idx → EReal) (((cfg5.win 5).blk t).view.emb (ix2 k j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_5.index t (0 : Fin 2) * 128 + 1 * k.val = k.val; rw [f12]; omega
  | ⟨1, _⟩ => show win5_5.index t (1 : Fin 2) * 128 + 1 * j.val = j.val; rw [f13]; omega

theorem blk5_6 (c : Dev nD) (t : Fin cfg5.N) (k j : Fin 128) :
    iblk5 V c 6 t (ix2 k j) = (V c main_v321 : S128x128.Idx → EReal) (ix2 k j) := by
  show (V c main_v321 : S128x128.Idx → EReal) (((cfg5.win 6).blk t).view.emb (ix2 k j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_6.index t (0 : Fin 2) * 128 + 1 * k.val = k.val; rw [f14]; omega
  | ⟨1, _⟩ => show win5_6.index t (1 : Fin 2) * 128 + 1 * j.val = j.val; rw [f15]; omega

theorem blk5_7 (c : Dev nD) (t : Fin cfg5.N) (k j : Fin 128) :
    iblk5 V c 7 t (ix2 k j) = (V c main_v323 : S128x128.Idx → EReal) (ix2 k j) := by
  show (V c main_v323 : S128x128.Idx → EReal) (((cfg5.win 7).blk t).view.emb (ix2 k j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_7.index t (0 : Fin 2) * 128 + 1 * k.val = k.val; rw [f16]; omega
  | ⟨1, _⟩ => show win5_7.index t (1 : Fin 2) * 128 + 1 * j.val = j.val; rw [f17]; omega

theorem blk5_8 (c : Dev nD) (t : Fin cfg5.N) (k j : Fin 128) :
    iblk5 V c 8 t (ix2 k j) = (V c main_v325 : S128x128.Idx → EReal) (ix2 k j) := by
  show (V c main_v325 : S128x128.Idx → EReal) (((cfg5.win 8).blk t).view.emb (ix2 k j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_8.index t (0 : Fin 2) * 128 + 1 * k.val = k.val; rw [f18]; omega
  | ⟨1, _⟩ => show win5_8.index t (1 : Fin 2) * 128 + 1 * j.val = j.val; rw [f19]; omega

theorem blk5_9 (c : Dev nD) (t : Fin cfg5.N) (j : Fin 128) :
    iblk5 V c 9 t (ix1 j) = (V c main_v327 : S128.Idx → EReal) (ix1 j) := by
  show (V c main_v327 : S128.Idx → EReal) (((cfg5.win 9).blk t).view.emb (ix1 j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_9.index t (0 : Fin 1) * 128 + 1 * j.val = j.val; rw [f20]; omega

theorem blk5_10 (c : Dev nD) (t : Fin cfg5.N) (j : Fin 128) :
    iblk5 V c 10 t (ix1 j) = (V c main_v329 : S128.Idx → EReal) (ix1 j) := by
  show (V c main_v329 : S128.Idx → EReal) (((cfg5.win 10).blk t).view.emb (ix1 j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_10.index t (0 : Fin 1) * 128 + 1 * j.val = j.val; rw [f21]; omega

theorem blk5_11 (c : Dev nD) (t : Fin cfg5.N) (j : Fin 128) :
    iblk5 V c 11 t (ix1 j) = (V c main_v331 : S128.Idx → EReal) (ix1 j) := by
  show (V c main_v331 : S128.Idx → EReal) (((cfg5.win 11).blk t).view.emb (ix1 j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_11.index t (0 : Fin 1) * 128 + 1 * j.val = j.val; rw [f22]; omega

theorem blk5_12 (c : Dev nD) (t : Fin cfg5.N) (j : Fin 128) :
    iblk5 V c 12 t (ix1 j) = (V c main_v333 : S128.Idx → EReal) (ix1 j) := by
  show (V c main_v333 : S128.Idx → EReal) (((cfg5.win 12).blk t).view.emb (ix1 j)) = _
  obtain ⟨f0, f1, f2, f3, f4, f5, f6, f7, f8, f9, f10, f11, f12, f13, f14, f15, f16, f17, f18, f19, f20, f21, f22, f23⟩ := idx_facts5 t
  refine congrArg _ (funext fun a => Fin.ext ?_)
  match a with
  | ⟨0, _⟩ => show win5_12.index t (0 : Fin 1) * 128 + 1 * j.val = j.val; rw [f23]; omega

/-- The layer's output over the arrays launch 5 reads, as it finds them. -/
def G5 (c : Dev nD) : S5000x128.Idx → EReal := fun i =>
  layerAt (n := 5000) (V c main_v253 : S5000x128.Idx → EReal) (V c main_v65 : S5000x1.Idx → EReal) (V c main_v273 : S5000x128.Idx → EReal) (V c main_v83 : S5000x1.Idx → EReal) (V c main_v213 : S5000x128.Idx → EReal) (V c main_v319 : S128x128.Idx → EReal) (V c main_v321 : S128x128.Idx → EReal) (V c main_v323 : S128x128.Idx → EReal) (V c main_v325 : S128x128.Idx → EReal) (V c main_v327 : S128.Idx → EReal) (V c main_v329 : S128.Idx → EReal) (V c main_v331 : S128.Idx → EReal) (V c main_v333 : S128.Idx → EReal) (i 0) (i 1)

theorem emb5_13 (t : Fin cfg5.N) (p : Fin 1000) (q : Fin 128) :
    ((cfg5.win 13).blk t).view.emb (ix2 p q) = (ix2 (row5 t p) q : S5000x128.Idx) := by
  obtain ⟨f0, f1, f2, f3, f4, f5, f6, f7, f8, f9, f10, f11, f12, f13, f14, f15, f16, f17, f18, f19, f20, f21, f22, f23⟩ := idx_facts5 t
  refine funext fun a => Fin.ext ?_
  match a with
  | ⟨0, _⟩ => show win5_13.index t (0 : Fin 2) * 1000 + 1 * p.val = t.val * 1000 + p.val; rw [f10]; omega
  | ⟨1, _⟩ => show win5_13.index t (1 : Fin 2) * 128 + 1 * q.val = q.val; rw [f11]; omega

set_option maxHeartbeats 4000000 in
/-- What point `t` writes back is block `t` of the layer's output over the entry arrays. -/
theorem flushed5_eq (c : Dev nD) (t : Fin cfg5.N) :
    (dat5 V c).flushed 13 t = ((cfg5.win 13).blk t).view.read (Elt Ideal) (G5 V c) := by
  show (cfg5.win 13).cut (grid5.coords t) ((dat5 V c).after 13 t) = _
  rw [after5_13]
  funext y
  obtain ⟨p, q, rfl⟩ : ∃ (p : Fin 1000) (q : Fin 128), y = ix2 p q := ⟨y 0, y 1, eq_ix2 y⟩
  show out5_13 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (ix2 p q) = G5 V c (((cfg5.win 13).blk t).view.emb (ix2 p q))
  rw [emb5_13]
  refine (out5_13_apply (iblk5 V c 0 t) (iblk5 V c 2 t) (iblk5 V c 4 t) (iblk5 V c 1 t) (iblk5 V c 3 t) (iblk5 V c 5 t) (iblk5 V c 6 t) (iblk5 V c 7 t) (iblk5 V c 8 t) (iblk5 V c 9 t) (iblk5 V c 10 t) (iblk5 V c 11 t) (iblk5 V c 12 t) p q).trans ?_
  exact rowOut_congr (fun k => by rw [blk5_0 V c t p k, blk5_1 V c t p]) (fun k => by rw [blk5_2 V c t p k, blk5_3 V c t p]) (fun k => blk5_4 V c t p k)
    (fun k j => blk5_5 V c t k j) (fun k j => blk5_6 V c t k j) (fun k j => blk5_7 V c t k j) (fun k j => blk5_8 V c t k j)
    (fun j => blk5_9 V c t j) (fun j => blk5_10 V c t j) (fun j => blk5_11 V c t j) (fun j => blk5_12 V c t j) rfl

/-- Every row lies in the block of the point its block row names. -/
theorem cover5 (i : S5000x128.Idx) : ∃ t : Fin cfg5.N, (cfg5.win 13).flush t = true ∧ i ∈ ((cfg5.win 13).blk t).view.set := by
  have h0 : (i 0).val < 5000 := (i 0).isLt
  have h1 : (i 1).val < 128 := (i 1).isLt
  have hN : cfg5.N = 5 := N_5
  let t : Fin cfg5.N := ⟨(i 0).val / 1000, by rw [hN]; omega⟩
  refine ⟨t, flush5_13 t, ?_⟩
  show i ∈ ((View.whole main_v334).slice (win5_13.rect t)).set
  rw [View.set_slice_whole, Rect.mem_set_unit]
  obtain ⟨f0, f1, f2, f3, f4, f5, f6, f7, f8, f9, f10, f11, f12, f13, f14, f15, f16, f17, f18, f19, f20, f21, f22, f23⟩ := idx_facts5 t
  intro a
  match a with
  | ⟨0, _⟩ => show win5_13.index t (0 : Fin 2) * 1000 ≤ (i 0).val ∧ (i 0).val < win5_13.index t (0 : Fin 2) * 1000 + 1000; rw [f10]; show (i 0).val / 1000 * 1000 ≤ (i 0).val ∧ (i 0).val < (i 0).val / 1000 * 1000 + 1000; omega
  | ⟨1, _⟩ => show win5_13.index t (1 : Fin 2) * 128 ≤ (i 1).val ∧ (i 1).val < win5_13.index t (1 : Fin 2) * 128 + 128; rw [f11]; omega

/-- After launch 5 its output array holds the layer's output over the arrays it read. -/
theorem final5 (c : Dev nD) : (dat5 V c).arrAt 13 cfg5.N = G5 V c :=
  (dat5 V c).arrAt_eq_of_cover 13 (G5 V c) (fun t _ => flushed5_eq V c t) (cover5)

end Cert.Blocks

end
-- ==== Proof.KBorn5.lean ====
/-
  What stretch 5 of host operations leaves in the buffers the launches read, each as the composition of its
  operations over the buffers the stretch finds.
-/
import proofs.«172654_j31121333027532_2_alg».proof.Proof.FrameIdealP

set_option maxRecDepth 16384
set_option maxHeartbeats 4000000

noncomputable section

namespace Cert.KStages

open Cert.KernelIdeal Cert.KernelIdeal.Gen Cert.KernelIdeal.GenP
open Idealize.ShloMosaic Idealize.ShloMosaic.TcCoe Idealize.SL.Sem

variable {F : FTy → Type} [FloatOps F]

variable (m : (ℓ : Loc nD τ sig) → Buf (Elt F) ℓ) (ρ : Dev nD → PrngReg)

set_option maxHeartbeats 4000000 in
theorem born5 (c : Dev nD) :
    W11 m ρ c (Proc.devRef .tc main_v319) = (shapeCast _ (extractStridedSlice S1x128x128 ![2, 0, 0] (W10 m ρ c (Proc.devRef .tc main_v221)) slices_S6x128x128_S1x128x128_2_0_0) shapeCasts_S1x128x128_S128x128)
    ∧ W11 m ρ c (Proc.devRef .tc main_v321) = (shapeCast _ (extractStridedSlice S1x128x128 ![4, 0, 0] (W10 m ρ c (Proc.devRef .tc main_v221)) slices_S6x128x128_S1x128x128_4_0_0) shapeCasts_S1x128x128_S128x128)
    ∧ W11 m ρ c (Proc.devRef .tc main_v323) = (shapeCast _ (extractStridedSlice S1x128x128 ![2, 0, 0] (W10 m ρ c (Proc.devRef .tc main_v223)) slices_S6x128x128_S1x128x128_2_0_0) shapeCasts_S1x128x128_S128x128)
    ∧ W11 m ρ c (Proc.devRef .tc main_v325) = (shapeCast _ (extractStridedSlice S1x128x128 ![4, 0, 0] (W10 m ρ c (Proc.devRef .tc main_v223)) slices_S6x128x128_S1x128x128_4_0_0) shapeCasts_S1x128x128_S128x128)
    ∧ W11 m ρ c (Proc.devRef .tc main_v327) = (shapeCast _ (extractStridedSlice S1x128 ![2, 0] (W10 m ρ c (Proc.devRef .tc main_v217)) slices_S6x128_S1x128_2_0) shapeCasts_S1x128_S128)
    ∧ W11 m ρ c (Proc.devRef .tc main_v329) = (shapeCast _ (extractStridedSlice S1x128 ![4, 0] (W10 m ρ c (Proc.devRef .tc main_v217)) slices_S6x128_S1x128_4_0) shapeCasts_S1x128_S128)
    ∧ W11 m ρ c (Proc.devRef .tc main_v331) = (shapeCast _ (extractStridedSlice S1x1x128 ![1, 2, 0] (W10 m ρ c (Proc.devRef .tc main_arg18)) slices_S2x3x128_S1x1x128_1_2_0) shapeCasts_S1x1x128_S128)
    ∧ W11 m ρ c (Proc.devRef .tc main_v333) = (shapeCast _ (extractStridedSlice S1x1x128 ![1, 2, 0] (W10 m ρ c (Proc.devRef .tc main_arg19)) slices_S2x3x128_S1x1x128_1_2_0) shapeCasts_S1x1x128_S128) := by
  show StableHlo.after hostOps5 (W10 m ρ c) (Proc.devRef .tc main_v319) = (shapeCast _ (extractStridedSlice S1x128x128 ![2, 0, 0] (W10 m ρ c (Proc.devRef .tc main_v221)) slices_S6x128x128_S1x128x128_2_0_0) shapeCasts_S1x128x128_S128x128)
    ∧ StableHlo.after hostOps5 (W10 m ρ c) (Proc.devRef .tc main_v321) = (shapeCast _ (extractStridedSlice S1x128x128 ![4, 0, 0] (W10 m ρ c (Proc.devRef .tc main_v221)) slices_S6x128x128_S1x128x128_4_0_0) shapeCasts_S1x128x128_S128x128)
    ∧ StableHlo.after hostOps5 (W10 m ρ c) (Proc.devRef .tc main_v323) = (shapeCast _ (extractStridedSlice S1x128x128 ![2, 0, 0] (W10 m ρ c (Proc.devRef .tc main_v223)) slices_S6x128x128_S1x128x128_2_0_0) shapeCasts_S1x128x128_S128x128)
    ∧ StableHlo.after hostOps5 (W10 m ρ c) (Proc.devRef .tc main_v325) = (shapeCast _ (extractStridedSlice S1x128x128 ![4, 0, 0] (W10 m ρ c (Proc.devRef .tc main_v223)) slices_S6x128x128_S1x128x128_4_0_0) shapeCasts_S1x128x128_S128x128)
    ∧ StableHlo.after hostOps5 (W10 m ρ c) (Proc.devRef .tc main_v327) = (shapeCast _ (extractStridedSlice S1x128 ![2, 0] (W10 m ρ c (Proc.devRef .tc main_v217)) slices_S6x128_S1x128_2_0) shapeCasts_S1x128_S128)
    ∧ StableHlo.after hostOps5 (W10 m ρ c) (Proc.devRef .tc main_v329) = (shapeCast _ (extractStridedSlice S1x128 ![4, 0] (W10 m ρ c (Proc.devRef .tc main_v217)) slices_S6x128_S1x128_4_0) shapeCasts_S1x128_S128)
    ∧ StableHlo.after hostOps5 (W10 m ρ c) (Proc.devRef .tc main_v331) = (shapeCast _ (extractStridedSlice S1x1x128 ![1, 2, 0] (W10 m ρ c (Proc.devRef .tc main_arg18)) slices_S2x3x128_S1x1x128_1_2_0) shapeCasts_S1x1x128_S128)
    ∧ StableHlo.after hostOps5 (W10 m ρ c) (Proc.devRef .tc main_v333) = (shapeCast _ (extractStridedSlice S1x1x128 ![1, 2, 0] (W10 m ρ c (Proc.devRef .tc main_arg19)) slices_S2x3x128_S1x1x128_1_2_0) shapeCasts_S1x1x128_S128)
  after_results_simp
  all_goals (first | done | (repeat' constructor) <;> rfl)

theorem born_v319 (c : Dev nD) : W11 m ρ c (Proc.devRef .tc main_v319) = (shapeCast _ (extractStridedSlice S1x128x128 ![2, 0, 0] (W10 m ρ c (Proc.devRef .tc main_v221)) slices_S6x128x128_S1x128x128_2_0_0) shapeCasts_S1x128x128_S128x128) :=
  (born5 m ρ c).1

theorem born_v321 (c : Dev nD) : W11 m ρ c (Proc.devRef .tc main_v321) = (shapeCast _ (extractStridedSlice S1x128x128 ![4, 0, 0] (W10 m ρ c (Proc.devRef .tc main_v221)) slices_S6x128x128_S1x128x128_4_0_0) shapeCasts_S1x128x128_S128x128) :=
  (born5 m ρ c).2.1

theorem born_v323 (c : Dev nD) : W11 m ρ c (Proc.devRef .tc main_v323) = (shapeCast _ (extractStridedSlice S1x128x128 ![2, 0, 0] (W10 m ρ c (Proc.devRef .tc main_v223)) slices_S6x128x128_S1x128x128_2_0_0) shapeCasts_S1x128x128_S128x128) :=
  (born5 m ρ c).2.2.1

theorem born_v325 (c : Dev nD) : W11 m ρ c (Proc.devRef .tc main_v325) = (shapeCast _ (extractStridedSlice S1x128x128 ![4, 0, 0] (W10 m ρ c (Proc.devRef .tc main_v223)) slices_S6x128x128_S1x128x128_4_0_0) shapeCasts_S1x128x128_S128x128) :=
  (born5 m ρ c).2.2.2.1

theorem born_v327 (c : Dev nD) : W11 m ρ c (Proc.devRef .tc main_v327) = (shapeCast _ (extractStridedSlice S1x128 ![2, 0] (W10 m ρ c (Proc.devRef .tc main_v217)) slices_S6x128_S1x128_2_0) shapeCasts_S1x128_S128) :=
  (born5 m ρ c).2.2.2.2.1

theorem born_v329 (c : Dev nD) : W11 m ρ c (Proc.devRef .tc main_v329) = (shapeCast _ (extractStridedSlice S1x128 ![4, 0] (W10 m ρ c (Proc.devRef .tc main_v217)) slices_S6x128_S1x128_4_0) shapeCasts_S1x128_S128) :=
  (born5 m ρ c).2.2.2.2.2.1

theorem born_v331 (c : Dev nD) : W11 m ρ c (Proc.devRef .tc main_v331) = (shapeCast _ (extractStridedSlice S1x1x128 ![1, 2, 0] (W10 m ρ c (Proc.devRef .tc main_arg18)) slices_S2x3x128_S1x1x128_1_2_0) shapeCasts_S1x1x128_S128) :=
  (born5 m ρ c).2.2.2.2.2.2.1

theorem born_v333 (c : Dev nD) : W11 m ρ c (Proc.devRef .tc main_v333) = (shapeCast _ (extractStridedSlice S1x1x128 ![1, 2, 0] (W10 m ρ c (Proc.devRef .tc main_arg19)) slices_S2x3x128_S1x1x128_1_2_0) shapeCasts_S1x1x128_S128) :=
  (born5 m ρ c).2.2.2.2.2.2.2

end Cert.KStages

end
-- ==== Proof.RefSite1s.lean ====
/-
  The reference program's node-type output of layer 1 for the store nodes, read at a row and a feature:
  it is the row function `Cert.RowSpec.rowOut` of the two neighbour means (relations 2 and 4), the node's own
  features, and the slices of the weights, biases, scale and shift that the layer and the relations select.
  Every step is unfolding an operation at an index and identifying the composed index maps with coordinates.
-/
import proofs.«172654_j31121333027532_2_alg».proof.Proof.ReadP
import proofs.«172654_j31121333027532_2_alg».proof.Proof.RowSpec

set_option maxHeartbeats 1600000

noncomputable section

namespace Cert.RefSite

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

/-- The neighbour matrix of relation 2, transposed for the product: entry `(k, j)` is `Wl[1, 2, j, k]`. -/
theorem wl_1_s_a (k j : Fin 128) :
    val_main_v448 (F := Ideal) x15 (ix2 k j) = x15 (ix4 (1 : Fin 2) (2 : Fin 6) j k) := by
  rw [val_main_v448_apply, val_main_v420_apply, val_main_v419_apply, val_main_v340_apply, val_main_v339_apply]
  refine congrArg x15 (funext fun e => Fin.ext ?_)
  have hj := j.isLt
  have hk := k.isLt
  match e with
  | ⟨0, _⟩ => rfl
  | ⟨1, _⟩ =>
    show (((2 + 0) * 128 + (j.val * 128 + k.val) / 128 % 128) * 128 + (j.val * 128 + k.val) % 128) / 16384 % 6 = 2
    omega
  | ⟨2, _⟩ =>
    show (((2 + 0) * 128 + (j.val * 128 + k.val) / 128 % 128) * 128 + (j.val * 128 + k.val) % 128) / 128 % 128 = j.val
    omega
  | ⟨3, _⟩ =>
    show (((2 + 0) * 128 + (j.val * 128 + k.val) / 128 % 128) * 128 + (j.val * 128 + k.val) % 128) % 128 = k.val
    omega

/-- The root matrix of relation 2, transposed for the product: entry `(k, j)` is `Wr[1, 2, j, k]`. -/
theorem wr_1_s_a (k j : Fin 128) :
    val_main_v453 (F := Ideal) x17 (ix2 k j) = x17 (ix4 (1 : Fin 2) (2 : Fin 6) j k) := by
  rw [val_main_v453_apply, val_main_v424_apply, val_main_v423_apply, val_main_v344_apply, val_main_v343_apply]
  refine congrArg x17 (funext fun e => Fin.ext ?_)
  have hj := j.isLt
  have hk := k.isLt
  match e with
  | ⟨0, _⟩ => rfl
  | ⟨1, _⟩ =>
    show (((2 + 0) * 128 + (j.val * 128 + k.val) / 128 % 128) * 128 + (j.val * 128 + k.val) % 128) / 16384 % 6 = 2
    omega
  | ⟨2, _⟩ =>
    show (((2 + 0) * 128 + (j.val * 128 + k.val) / 128 % 128) * 128 + (j.val * 128 + k.val) % 128) / 128 % 128 = j.val
    omega
  | ⟨3, _⟩ =>
    show (((2 + 0) * 128 + (j.val * 128 + k.val) / 128 % 128) * 128 + (j.val * 128 + k.val) % 128) % 128 = k.val
    omega

/-- The bias of relation 2, repeated along the rows: entry `(r, j)` is `bl[1, 2, j]`. -/
theorem bl_1_s_a (r : Fin 5000) (j : Fin 128) :
    val_main_v451 (F := Ideal) x16 (ix2 r j) = x16 (ix3 (1 : Fin 2) (2 : Fin 6) j) := by
  rw [val_main_v451_apply, val_main_v450_apply, val_main_v422_apply, val_main_v421_apply, val_main_v342_apply, val_main_v341_apply]
  refine congrArg x16 (funext fun e => Fin.ext ?_)
  have hj := j.isLt
  match e with
  | ⟨0, _⟩ => rfl
  | ⟨1, _⟩ =>
    show ((2 + 0) * 128 + j.val % 128) / 128 % 6 = 2
    omega
  | ⟨2, _⟩ =>
    show ((2 + 0) * 128 + j.val % 128) % 128 = j.val
    omega

/-- The neighbour mean of relation 2: the neighbour sum divided by the larger of the neighbour count and one. -/
theorem msg_1_s_a (r : Fin 5000) (k : Fin 128) :
    val_main_v447 (F := Ideal) x0 x1 x2 x4 x5 x6 x9 x10 x11 x12 x13 x14 x15 x16 x17 x18 x19 (ix2 r k)
      = Ideal.div (val_main_v438 (F := Ideal) x0 x1 x2 x4 x5 x6 x9 x10 x11 x12 x13 x14 x15 x16 x17 x18 x19 (ix2 r k)) (max (val_main_v442 (F := Ideal) x5 (ix1 r)) Cert.RowSpec.one32) := by
  rw [val_main_v447_apply, val_main_v446_apply, val_main_v445_apply, val_main_v444_apply, val_main_v443_apply, val_main_cst_69_apply]
  have h : idx_main_v445 (idx_main_v446 (ix2 r k)) = ix1 r := funext fun e => by match e with | ⟨0, _⟩ => rfl
  rw [h]
  rfl

/-- The output of relation 2 at a row and a feature. -/
theorem rel_1_s_a (r : Fin 5000) (j : Fin 128) :
    val_main_v455 (F := Ideal) x0 x1 x2 x4 x5 x6 x7 x9 x10 x11 x12 x13 x14 x15 x16 x17 x18 x19 (ix2 r j)
      = Cert.RowSpec.rel
          (fun k => Ideal.div (val_main_v438 (F := Ideal) x0 x1 x2 x4 x5 x6 x9 x10 x11 x12 x13 x14 x15 x16 x17 x18 x19 (ix2 r k)) (max (val_main_v442 (F := Ideal) x5 (ix1 r)) Cert.RowSpec.one32))
          (fun k => val_main_v338 (F := Ideal) x0 x1 x2 x5 x7 x9 x10 x11 x12 x13 x14 x15 x16 x17 x18 x19 (ix2 r k))
          (fun k j => x15 (ix4 (1 : Fin 2) (2 : Fin 6) j k)) (fun k j => x17 (ix4 (1 : Fin 2) (2 : Fin 6) j k))
          (fun j => x16 (ix3 (1 : Fin 2) (2 : Fin 6) j)) j := by
  rw [val_main_v455_apply, val_main_v452_apply, val_main_v449_apply, val_main_v454_apply]
  have hl1 : ∀ k, lidx_main_v449 (ix2 r j) k = ix2 r k := fun k => funext fun e => by match e with | ⟨0, _⟩ => rfl | ⟨1, _⟩ => rfl
  have hr1 : ∀ k, ridx_main_v449 (ix2 r j) k = ix2 k j := fun k => funext fun e => by match e with | ⟨0, _⟩ => rfl | ⟨1, _⟩ => rfl
  have hl2 : ∀ k, lidx_main_v454 (ix2 r j) k = ix2 r k := fun k => funext fun e => by match e with | ⟨0, _⟩ => rfl | ⟨1, _⟩ => rfl
  have hr2 : ∀ k, ridx_main_v454 (ix2 r j) k = ix2 k j := fun k => funext fun e => by match e with | ⟨0, _⟩ => rfl | ⟨1, _⟩ => rfl
  simp only [hl1, hr1, hl2, hr2, msg_1_s_a, wl_1_s_a, wr_1_s_a, bl_1_s_a]
  rfl

/-- The neighbour matrix of relation 4, transposed for the product: entry `(k, j)` is `Wl[1, 4, j, k]`. -/
theorem wl_1_s_b (k j : Fin 128) :
    val_main_v522 (F := Ideal) x15 (ix2 k j) = x15 (ix4 (1 : Fin 2) (4 : Fin 6) j k) := by
  rw [val_main_v522_apply, val_main_v494_apply, val_main_v493_apply, val_main_v340_apply, val_main_v339_apply]
  refine congrArg x15 (funext fun e => Fin.ext ?_)
  have hj := j.isLt
  have hk := k.isLt
  match e with
  | ⟨0, _⟩ => rfl
  | ⟨1, _⟩ =>
    show (((4 + 0) * 128 + (j.val * 128 + k.val) / 128 % 128) * 128 + (j.val * 128 + k.val) % 128) / 16384 % 6 = 4
    omega
  | ⟨2, _⟩ =>
    show (((4 + 0) * 128 + (j.val * 128 + k.val) / 128 % 128) * 128 + (j.val * 128 + k.val) % 128) / 128 % 128 = j.val
    omega
  | ⟨3, _⟩ =>
    show (((4 + 0) * 128 + (j.val * 128 + k.val) / 128 % 128) * 128 + (j.val * 128 + k.val) % 128) % 128 = k.val
    omega

/-- The root matrix of relation 4, transposed for the product: entry `(k, j)` is `Wr[1, 4, j, k]`. -/
theorem wr_1_s_b (k j : Fin 128) :
    val_main_v527 (F := Ideal) x17 (ix2 k j) = x17 (ix4 (1 : Fin 2) (4 : Fin 6) j k) := by
  rw [val_main_v527_apply, val_main_v498_apply, val_main_v497_apply, val_main_v344_apply, val_main_v343_apply]
  refine congrArg x17 (funext fun e => Fin.ext ?_)
  have hj := j.isLt
  have hk := k.isLt
  match e with
  | ⟨0, _⟩ => rfl
  | ⟨1, _⟩ =>
    show (((4 + 0) * 128 + (j.val * 128 + k.val) / 128 % 128) * 128 + (j.val * 128 + k.val) % 128) / 16384 % 6 = 4
    omega
  | ⟨2, _⟩ =>
    show (((4 + 0) * 128 + (j.val * 128 + k.val) / 128 % 128) * 128 + (j.val * 128 + k.val) % 128) / 128 % 128 = j.val
    omega
  | ⟨3, _⟩ =>
    show (((4 + 0) * 128 + (j.val * 128 + k.val) / 128 % 128) * 128 + (j.val * 128 + k.val) % 128) % 128 = k.val
    omega

/-- The bias of relation 4, repeated along the rows: entry `(r, j)` is `bl[1, 4, j]`. -/
theorem bl_1_s_b (r : Fin 5000) (j : Fin 128) :
    val_main_v525 (F := Ideal) x16 (ix2 r j) = x16 (ix3 (1 : Fin 2) (4 : Fin 6) j) := by
  rw [val_main_v525_apply, val_main_v524_apply, val_main_v496_apply, val_main_v495_apply, val_main_v342_apply, val_main_v341_apply]
  refine congrArg x16 (funext fun e => Fin.ext ?_)
  have hj := j.isLt
  match e with
  | ⟨0, _⟩ => rfl
  | ⟨1, _⟩ =>
    show ((4 + 0) * 128 + j.val % 128) / 128 % 6 = 4
    omega
  | ⟨2, _⟩ =>
    show ((4 + 0) * 128 + j.val % 128) % 128 = j.val
    omega

/-- The neighbour mean of relation 4: the neighbour sum divided by the larger of the neighbour count and one. -/
theorem msg_1_s_b (r : Fin 5000) (k : Fin 128) :
    val_main_v521 (F := Ideal) x0 x1 x2 x3 x7 x8 x9 x10 x11 x12 x13 x14 x15 x16 x17 x18 x19 (ix2 r k)
      = Ideal.div (val_main_v512 (F := Ideal) x0 x1 x2 x3 x7 x8 x9 x10 x11 x12 x13 x14 x15 x16 x17 x18 x19 (ix2 r k)) (max (val_main_v516 (F := Ideal) x7 (ix1 r)) Cert.RowSpec.one32) := by
  rw [val_main_v521_apply, val_main_v520_apply, val_main_v519_apply, val_main_v518_apply, val_main_v517_apply, val_main_cst_81_apply]
  have h : idx_main_v519 (idx_main_v520 (ix2 r k)) = ix1 r := funext fun e => by match e with | ⟨0, _⟩ => rfl
  rw [h]
  rfl

/-- The output of relation 4 at a row and a feature. -/
theorem rel_1_s_b (r : Fin 5000) (j : Fin 128) :
    val_main_v529 (F := Ideal) x0 x1 x2 x3 x5 x7 x8 x9 x10 x11 x12 x13 x14 x15 x16 x17 x18 x19 (ix2 r j)
      = Cert.RowSpec.rel
          (fun k => Ideal.div (val_main_v512 (F := Ideal) x0 x1 x2 x3 x7 x8 x9 x10 x11 x12 x13 x14 x15 x16 x17 x18 x19 (ix2 r k)) (max (val_main_v516 (F := Ideal) x7 (ix1 r)) Cert.RowSpec.one32))
          (fun k => val_main_v338 (F := Ideal) x0 x1 x2 x5 x7 x9 x10 x11 x12 x13 x14 x15 x16 x17 x18 x19 (ix2 r k))
          (fun k j => x15 (ix4 (1 : Fin 2) (4 : Fin 6) j k)) (fun k j => x17 (ix4 (1 : Fin 2) (4 : Fin 6) j k))
          (fun j => x16 (ix3 (1 : Fin 2) (4 : Fin 6) j)) j := by
  rw [val_main_v529_apply, val_main_v526_apply, val_main_v523_apply, val_main_v528_apply]
  have hl1 : ∀ k, lidx_main_v523 (ix2 r j) k = ix2 r k := fun k => funext fun e => by match e with | ⟨0, _⟩ => rfl | ⟨1, _⟩ => rfl
  have hr1 : ∀ k, ridx_main_v523 (ix2 r j) k = ix2 k j := fun k => funext fun e => by match e with | ⟨0, _⟩ => rfl | ⟨1, _⟩ => rfl
  have hl2 : ∀ k, lidx_main_v528 (ix2 r j) k = ix2 r k := fun k => funext fun e => by match e with | ⟨0, _⟩ => rfl | ⟨1, _⟩ => rfl
  have hr2 : ∀ k, ridx_main_v528 (ix2 r j) k = ix2 k j := fun k => funext fun e => by match e with | ⟨0, _⟩ => rfl | ⟨1, _⟩ => rfl
  simp only [hl1, hr1, hl2, hr2, msg_1_s_b, wl_1_s_b, wr_1_s_b, bl_1_s_b]
  rfl

/-- The averaged row before normalisation: one half of the sum of the two relations' outputs. -/
theorem avg_1_s (r : Fin 5000) (j : Fin 128) :
    val_main_v633 (F := Ideal) x0 x1 x2 x3 x4 x5 x6 x7 x8 x9 x10 x11 x12 x13 x14 x15 x16 x17 x18 x19 (ix2 r j)
      = Cert.RowSpec.half32 * (val_main_v455 (F := Ideal) x0 x1 x2 x4 x5 x6 x7 x9 x10 x11 x12 x13 x14 x15 x16 x17 x18 x19 (ix2 r j) + val_main_v529 (F := Ideal) x0 x1 x2 x3 x5 x7 x8 x9 x10 x11 x12 x13 x14 x15 x16 x17 x18 x19 (ix2 r j)) := by
  rw [val_main_v633_apply, val_main_v632_apply, val_main_cst_100_apply, val_main_v631_apply]
  rfl

/-- The row's mean, as the program forms it: the sum from zero over the 128 features, divided by 128. -/
theorem mean_1_s (r : Fin 5000) :
    val_main_v641 (F := Ideal) x0 x1 x2 x3 x4 x5 x6 x7 x8 x9 x10 x11 x12 x13 x14 x15 x16 x17 x18 x19 (ix2 r (0 : Fin 1))
      = Cert.RowSpec.mean (fun j => val_main_v633 (F := Ideal) x0 x1 x2 x3 x4 x5 x6 x7 x8 x9 x10 x11 x12 x13 x14 x15 x16 x17 x18 x19 (ix2 r j)) := by
  rw [val_main_v641_apply, val_main_v639_apply, val_main_v638_apply, val_main_cst_101_apply, val_main_v640_apply, val_main_cst_102_apply]
  have h : ∀ k, idx_main_v638 (idx_main_v639 (ix2 r (0 : Fin 1))) k = ix2 r k := fun k => funext fun e => by match e with | ⟨0, _⟩ => rfl | ⟨1, _⟩ => rfl
  simp only [h]
  rfl

/-- The row's variance: the mean of the squared deviations from the mean. -/
theorem var_1_s (r : Fin 5000) :
    val_main_v648 (F := Ideal) x0 x1 x2 x3 x4 x5 x6 x7 x8 x9 x10 x11 x12 x13 x14 x15 x16 x17 x18 x19 (ix2 r (0 : Fin 1))
      = Cert.RowSpec.mean (fun i =>
          (val_main_v633 (F := Ideal) x0 x1 x2 x3 x4 x5 x6 x7 x8 x9 x10 x11 x12 x13 x14 x15 x16 x17 x18 x19 (ix2 r i) - Cert.RowSpec.mean (fun j => val_main_v633 (F := Ideal) x0 x1 x2 x3 x4 x5 x6 x7 x8 x9 x10 x11 x12 x13 x14 x15 x16 x17 x18 x19 (ix2 r j)))
            * (val_main_v633 (F := Ideal) x0 x1 x2 x3 x4 x5 x6 x7 x8 x9 x10 x11 x12 x13 x14 x15 x16 x17 x18 x19 (ix2 r i) - Cert.RowSpec.mean (fun j => val_main_v633 (F := Ideal) x0 x1 x2 x3 x4 x5 x6 x7 x8 x9 x10 x11 x12 x13 x14 x15 x16 x17 x18 x19 (ix2 r j)))) := by
  rw [val_main_v648_apply, val_main_v646_apply, val_main_v645_apply, val_main_cst_103_apply, val_main_v647_apply, val_main_cst_104_apply]
  have h : ∀ k, idx_main_v645 (idx_main_v646 (ix2 r (0 : Fin 1))) k = ix2 r k := fun k => funext fun e => by match e with | ⟨0, _⟩ => rfl | ⟨1, _⟩ => rfl
  have h0 : ∀ k : Fin 128, idx_main_v642 (ix2 r k) = ix2 r (0 : Fin 1) := fun k => funext fun e => by match e with | ⟨0, _⟩ => rfl | ⟨1, _⟩ => rfl
  simp only [h, val_main_v644_apply, val_main_v643_apply, val_main_v642_apply, h0, mean_1_s]
  rfl

/-- The scale of the normalisation, repeated along the rows: entry `(r, j)` is `gamma[1, 2, j]`. -/
theorem gamma_1_s (r : Fin 5000) (j : Fin 128) :
    val_main_v657 (F := Ideal) x18 (ix2 r j) = x18 (ix3 (1 : Fin 2) (2 : Fin 3) j) := by
  rw [val_main_v657_apply, val_main_v656_apply, val_main_v635_apply, val_main_v634_apply]
  refine congrArg x18 (funext fun e => Fin.ext ?_)
  have hj := j.isLt
  match e with
  | ⟨0, _⟩ => rfl
  | ⟨1, _⟩ => rfl
  | ⟨2, _⟩ =>
    show j.val % 128 = j.val
    omega

/-- The shift of the normalisation, repeated along the rows: entry `(r, j)` is `beta[1, 2, j]`. -/
theorem beta_1_s (r : Fin 5000) (j : Fin 128) :
    val_main_v660 (F := Ideal) x19 (ix2 r j) = x19 (ix3 (1 : Fin 2) (2 : Fin 3) j) := by
  rw [val_main_v660_apply, val_main_v659_apply, val_main_v637_apply, val_main_v636_apply]
  refine congrArg x19 (funext fun e => Fin.ext ?_)
  have hj := j.isLt
  match e with
  | ⟨0, _⟩ => rfl
  | ⟨1, _⟩ => rfl
  | ⟨2, _⟩ =>
    show j.val % 128 = j.val
    omega

/-- The normalised, scaled, shifted row with its negative entries replaced by zero, in terms of the averaged row. -/
theorem out_1_s (r : Fin 5000) (j : Fin 128) :
    val_main_v662 (F := Ideal) x0 x1 x2 x3 x4 x5 x6 x7 x8 x9 x10 x11 x12 x13 x14 x15 x16 x17 x18 x19 (ix2 r j)
      = Cert.RowSpec.lnrelu (fun j => val_main_v633 (F := Ideal) x0 x1 x2 x3 x4 x5 x6 x7 x8 x9 x10 x11 x12 x13 x14 x15 x16 x17 x18 x19 (ix2 r j))
          (fun j => x18 (ix3 (1 : Fin 2) (2 : Fin 3) j)) (fun j => x19 (ix3 (1 : Fin 2) (2 : Fin 3) j)) j := by
  rw [val_main_v662_apply, val_main_call5_v0_apply, val_main_call5_cst_apply, val_main_v661_apply, val_main_v658_apply, val_main_v655_apply,
    val_main_v650_apply, val_main_v649_apply, val_main_v654_apply, val_main_v653_apply, val_main_v652_apply, val_main_v651_apply, val_main_cst_105_apply,
    gamma_1_s, beta_1_s]
  have h0 : idx_main_v649 (ix2 r j) = ix2 r (0 : Fin 1) := funext fun e => by match e with | ⟨0, _⟩ => rfl | ⟨1, _⟩ => rfl
  have h1 : idx_main_v654 (ix2 r j) = ix2 r (0 : Fin 1) := funext fun e => by match e with | ⟨0, _⟩ => rfl | ⟨1, _⟩ => rfl
  rw [h0, h1, mean_1_s, var_1_s]
  rfl

/-- The layer-1 output for the store nodes at row `r` and feature `j` is the row function of the two
    neighbour means, the node's own features and the selected parameter slices. -/
theorem site_1_s (r : Fin 5000) (j : Fin 128) :
    val_main_v662 (F := Ideal) x0 x1 x2 x3 x4 x5 x6 x7 x8 x9 x10 x11 x12 x13 x14 x15 x16 x17 x18 x19 (ix2 r j)
      = Cert.RowSpec.rowOut
          (fun k => Ideal.div (val_main_v438 (F := Ideal) x0 x1 x2 x4 x5 x6 x9 x10 x11 x12 x13 x14 x15 x16 x17 x18 x19 (ix2 r k)) (max (val_main_v442 (F := Ideal) x5 (ix1 r)) Cert.RowSpec.one32))
          (fun k => Ideal.div (val_main_v512 (F := Ideal) x0 x1 x2 x3 x7 x8 x9 x10 x11 x12 x13 x14 x15 x16 x17 x18 x19 (ix2 r k)) (max (val_main_v516 (F := Ideal) x7 (ix1 r)) Cert.RowSpec.one32))
          (fun k => val_main_v338 (F := Ideal) x0 x1 x2 x5 x7 x9 x10 x11 x12 x13 x14 x15 x16 x17 x18 x19 (ix2 r k))
          (fun k j => x15 (ix4 (1 : Fin 2) (2 : Fin 6) j k)) (fun k j => x15 (ix4 (1 : Fin 2) (4 : Fin 6) j k))
          (fun k j => x17 (ix4 (1 : Fin 2) (2 : Fin 6) j k)) (fun k j => x17 (ix4 (1 : Fin 2) (4 : Fin 6) j k))
          (fun j => x16 (ix3 (1 : Fin 2) (2 : Fin 6) j)) (fun j => x16 (ix3 (1 : Fin 2) (4 : Fin 6) j))
          (fun j => x18 (ix3 (1 : Fin 2) (2 : Fin 3) j)) (fun j => x19 (ix3 (1 : Fin 2) (2 : Fin 3) j)) j := by
  rw [out_1_s]
  unfold Cert.RowSpec.rowOut
  simp only [avg_1_s, rel_1_s_a, rel_1_s_b]

end Cert.RefSite

end
-- ==== Proof.KSite5.lean ====
/-
  Launch 5: the arrays it reads, and the array it leaves, against the reference's stages at the same site.
-/
import proofs.«172654_j31121333027532_2_alg».proof.Proof.Blocks5
import proofs.«172654_j31121333027532_2_alg».proof.Proof.Bridge
import proofs.«172654_j31121333027532_2_alg».proof.Proof.HostReads
import proofs.«172654_j31121333027532_2_alg».proof.Proof.KKeep
import proofs.«172654_j31121333027532_2_alg».proof.Proof.KBorn5
import proofs.«172654_j31121333027532_2_alg».proof.Proof.RefSite1s
import proofs.«172654_j31121333027532_2_alg».proof.Proof.KBorn0
import proofs.«172654_j31121333027532_2_alg».proof.Proof.KBorn3
import proofs.«172654_j31121333027532_2_alg».proof.Proof.KSite0
import proofs.«172654_j31121333027532_2_alg».proof.Proof.KSite1
import proofs.«172654_j31121333027532_2_alg».proof.Proof.KSite2
import proofs.«172654_j31121333027532_2_alg».proof.Proof.KSite3
import proofs.«172654_j31121333027532_2_alg».proof.Proof.KSite4

set_option maxRecDepth 16384

noncomputable section

namespace Cert.KStages

open Cert.KernelIdeal Cert.KernelIdeal.Gen Cert.KernelIdeal.GenP Cert.RowSpec Cert.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

theorem win5_0 (c : Dev nD) : (W11 m ρ c (Proc.devRef .tc main_v253)) = (Cert.ReferenceIdeal.ReadP.val_main_v438 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v253_7_11 m ρ c, born_v253 m ρ c, keep_v26_1_6 m ρ c, born_v26 m ρ c, keep_v179_2_6 m ρ c, out0 m ρ c, keep_v24_1_6 m ρ c, born_v24 m ρ c]
  all_goals rfl

theorem win5_2 (c : Dev nD) : (W11 m ρ c (Proc.devRef .tc main_v273)) = (Cert.ReferenceIdeal.ReadP.val_main_v512 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v273_7_11 m ρ c, born_v273 m ρ c, keep_v34_1_6 m ρ c, born_v34 m ρ c, keep_v196_4_6 m ρ c, out1 m ρ c, keep_v32_1_6 m ρ c, born_v32 m ρ c]
  all_goals rfl

theorem win5_4 (c : Dev nD) : (W11 m ρ c (Proc.devRef .tc main_v213)) = (Cert.ReferenceIdeal.ReadP.val_main_v338 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [keep_v213_6_11 m ρ c, out2 m ρ c]
  all_goals rfl

theorem win5_1 (c : Dev nD) (r : Fin 5000) : (W11 m ρ c (Proc.devRef .tc main_v65)) (ix2 r (0 : Fin 1)) = Ideal.div one32 (max ((Cert.ReferenceIdeal.ReadP.val_main_v442 (F := Ideal) (m ((c : Thread nD τ).loc main_arg5))) (ix1 r)) one32) := by
  rw [keep_v65_1_11 m ρ c, born_v65 m ρ c]
  exact recip_col_apply (n := 5000) (Cert.ReferenceIdeal.ReadP.val_main_v442 (F := Ideal) (m ((c : Thread nD τ).loc main_arg5))) bcast_S_S5000 bcast_S_S5000 bcast_S5000_S5000x1_0 r

theorem win5_3 (c : Dev nD) (r : Fin 5000) : (W11 m ρ c (Proc.devRef .tc main_v83)) (ix2 r (0 : Fin 1)) = Ideal.div one32 (max ((Cert.ReferenceIdeal.ReadP.val_main_v516 (F := Ideal) (m ((c : Thread nD τ).loc main_arg7))) (ix1 r)) one32) := by
  rw [keep_v83_1_11 m ρ c, born_v83 m ρ c]
  exact recip_col_apply (n := 5000) (Cert.ReferenceIdeal.ReadP.val_main_v516 (F := Ideal) (m ((c : Thread nD τ).loc main_arg7))) bcast_S_S5000 bcast_S_S5000 bcast_S5000_S5000x1_0 r

theorem win5_5 (c : Dev nD) (k j : Fin 128) : (W11 m ρ c (Proc.devRef .tc main_v319)) (ix2 k j) = (m ((c : Thread nD τ).loc main_arg15)) (ix4 (1 : Fin 2) (2 : Fin 6) j k) := by
  rw [born_v319 m ρ c, keep_v221_7_10 m ρ c, born_v221 m ρ c, keep_arg15_0_6 m ρ c]
  exact (swapped_slice_apply _ 2 (by decide) _ _ _ _ k j).trans (layer4_apply (W0 m ρ c (Proc.devRef .tc main_arg15)) 1 (by decide) _ _ (2 : Fin 6) j k)

theorem win5_6 (c : Dev nD) (k j : Fin 128) : (W11 m ρ c (Proc.devRef .tc main_v321)) (ix2 k j) = (m ((c : Thread nD τ).loc main_arg15)) (ix4 (1 : Fin 2) (4 : Fin 6) j k) := by
  rw [born_v321 m ρ c, keep_v221_7_10 m ρ c, born_v221 m ρ c, keep_arg15_0_6 m ρ c]
  exact (swapped_slice_apply _ 4 (by decide) _ _ _ _ k j).trans (layer4_apply (W0 m ρ c (Proc.devRef .tc main_arg15)) 1 (by decide) _ _ (4 : Fin 6) j k)

theorem win5_7 (c : Dev nD) (k j : Fin 128) : (W11 m ρ c (Proc.devRef .tc main_v323)) (ix2 k j) = (m ((c : Thread nD τ).loc main_arg17)) (ix4 (1 : Fin 2) (2 : Fin 6) j k) := by
  rw [born_v323 m ρ c, keep_v223_7_10 m ρ c, born_v223 m ρ c, keep_arg17_0_6 m ρ c]
  exact (swapped_slice_apply _ 2 (by decide) _ _ _ _ k j).trans (layer4_apply (W0 m ρ c (Proc.devRef .tc main_arg17)) 1 (by decide) _ _ (2 : Fin 6) j k)

theorem win5_8 (c : Dev nD) (k j : Fin 128) : (W11 m ρ c (Proc.devRef .tc main_v325)) (ix2 k j) = (m ((c : Thread nD τ).loc main_arg17)) (ix4 (1 : Fin 2) (4 : Fin 6) j k) := by
  rw [born_v325 m ρ c, keep_v223_7_10 m ρ c, born_v223 m ρ c, keep_arg17_0_6 m ρ c]
  exact (swapped_slice_apply _ 4 (by decide) _ _ _ _ k j).trans (layer4_apply (W0 m ρ c (Proc.devRef .tc main_arg17)) 1 (by decide) _ _ (4 : Fin 6) j k)

theorem win5_9 (c : Dev nD) (j : Fin 128) : (W11 m ρ c (Proc.devRef .tc main_v327)) (ix1 j) = (m ((c : Thread nD τ).loc main_arg16)) (ix3 (1 : Fin 2) (2 : Fin 6) j) := by
  rw [born_v327 m ρ c, keep_v217_7_10 m ρ c, born_v217 m ρ c, keep_arg16_0_6 m ρ c]
  exact (row_apply _ 2 (by decide) _ _ j).trans (layer3_apply (W0 m ρ c (Proc.devRef .tc main_arg16)) 1 (by decide) _ _ (2 : Fin 6) j)

theorem win5_10 (c : Dev nD) (j : Fin 128) : (W11 m ρ c (Proc.devRef .tc main_v329)) (ix1 j) = (m ((c : Thread nD τ).loc main_arg16)) (ix3 (1 : Fin 2) (4 : Fin 6) j) := by
  rw [born_v329 m ρ c, keep_v217_7_10 m ρ c, born_v217 m ρ c, keep_arg16_0_6 m ρ c]
  exact (row_apply _ 4 (by decide) _ _ j).trans (layer3_apply (W0 m ρ c (Proc.devRef .tc main_arg16)) 1 (by decide) _ _ (4 : Fin 6) j)

theorem win5_11 (c : Dev nD) (j : Fin 128) : (W11 m ρ c (Proc.devRef .tc main_v331)) (ix1 j) = (m ((c : Thread nD τ).loc main_arg18)) (ix3 (1 : Fin 2) (2 : Fin 3) j) := by
  rw [born_v331 m ρ c, keep_arg18_0_10 m ρ c]
  exact norm_param_apply (W0 m ρ c (Proc.devRef .tc main_arg18)) 1 2 (by decide) (by decide) _ _ j

theorem win5_12 (c : Dev nD) (j : Fin 128) : (W11 m ρ c (Proc.devRef .tc main_v333)) (ix1 j) = (m ((c : Thread nD τ).loc main_arg19)) (ix3 (1 : Fin 2) (2 : Fin 3) j) := by
  rw [born_v333 m ρ c, keep_arg19_0_10 m ρ c]
  exact norm_param_apply (W0 m ρ c (Proc.devRef .tc main_arg19)) 1 2 (by decide) (by decide) _ _ j

/-- After launch 5 its output array is the reference's output at the same site. -/
theorem out5 (c : Dev nD) : W12 m ρ c (Proc.devRef .tc main_v334) = (Cert.ReferenceIdeal.ReadP.val_main_v662 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (W12_arr m ρ c 13).trans ?_
  refine (Cert.Blocks.final5 (V11 m ρ) c).trans ?_
  funext i
  obtain ⟨r, j, rfl⟩ : ∃ (r : Fin 5000) (j : Fin 128), i = ix2 r j := ⟨i 0, i 1, eq_ix2 i⟩
  refine (site_bridge (n := 5000) _ _ _ _ _ _ _ _ _ _ _ _ _ (Cert.ReferenceIdeal.ReadP.val_main_v438 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v512 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v338 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.ReferenceIdeal.ReadP.val_main_v442 (F := Ideal) (m ((c : Thread nD τ).loc main_arg5))) (Cert.ReferenceIdeal.ReadP.val_main_v516 (F := Ideal) (m ((c : Thread nD τ).loc main_arg7)))
    _ _ _ _ _ _ _ _
    (win5_0 m ρ c) (win5_2 m ρ c) (win5_4 m ρ c) (win5_1 m ρ c) (win5_3 m ρ c)
    (win5_5 m ρ c) (win5_6 m ρ c) (win5_7 m ρ c) (win5_8 m ρ c) (win5_9 m ρ c) (win5_10 m ρ c) (win5_11 m ρ c) (win5_12 m ρ c) r j).trans ?_
  exact (Cert.RefSite.site_1_s (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r j).symm

end Cert.KStages

end
-- ==== Proof.RefOpsA1a.lean ====
/-
  Operations 1 to 93 of the reference program's 783, in order, as the generated list spells them (part of chunk A1); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA1a : List (HloOp τ sig (Elt F)) :=
  [
    unary main_arg9 main_v0 ((transpose S6x128 [1, 0] · transposes_S128x6_S6x128_1_0) : (⟨S128x6, .f32⟩ : BufTy).Contents (Elt F) → (⟨S6x128, .f32⟩ : BufTy).Contents (Elt F)),
    binary main_arg0 main_v0 main_v1 ((fun l r => Host.dotGeneral dot_S100000x6_S6x128_S100000x128_1_0_0_1_n_n none l r) : (⟨S100000x6, .f32⟩ : BufTy).Contents (Elt F) → (⟨S6x128, .f32⟩ : BufTy).Contents (Elt F) → (⟨S100000x128, .f32⟩ : BufTy).Contents (Elt F)),
    unary main_arg10 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    unary main_arg11 main_v5 ((transpose S4x128 [1, 0] · transposes_S128x4_S4x128_1_0) : (⟨S128x4, .f32⟩ : BufTy).Contents (Elt F) → (⟨S4x128, .f32⟩ : BufTy).Contents (Elt F)),
    binary main_arg1 main_v5 main_v6 ((fun l r => Host.dotGeneral dot_S50000x4_S4x128_S50000x128_1_0_0_1_n_n none l r) : (⟨S50000x4, .f32⟩ : BufTy).Contents (Elt F) → (⟨S4x128, .f32⟩ : BufTy).Contents (Elt F) → (⟨S50000x128, .f32⟩ : BufTy).Contents (Elt F)),
    unary main_arg12 main_v7 (broadcastInDim S1x128 ![1] bcast_S128_S1x128_1 : (⟨S128, .f32⟩ : BufTy).Contents (Elt F) → (⟨S1x128, .f32⟩ : BufTy).Contents (Elt F)),
    unary main_v7 main_v8 (broadcastInDim S50000x128 ![0, 1] bcast_S1x128_S50000x128_0_1 : (⟨S1x128, .f32⟩ : BufTy).Contents (Elt F) → (⟨S50000x128, .f32⟩ : BufTy).Contents (Elt F)),
    binary main_v6 main_v8 main_v9 (addf : (⟨S50000x128, .f32⟩ : BufTy).Contents (Elt F) → (⟨S50000x128, .f32⟩ : BufTy).Contents (Elt F) → (⟨S50000x128, .f32⟩ : BufTy).Contents (Elt F)),
    unary main_arg13 main_v10 ((transpose S3x128 [1, 0] · transposes_S128x3_S3x128_1_0) : (⟨S128x3, .f32⟩ : BufTy).Contents (Elt F) → (⟨S3x128, .f32⟩ : BufTy).Contents (Elt F)),
    binary main_arg2 main_v10 main_v11 ((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)),
    unary main_arg14 main_v12 (broadcastInDim S1x128 ![1] bcast_S128_S1x128_1 : (⟨S128, .f32⟩ : BufTy).Contents (Elt F) → (⟨S1x128, .f32⟩ : BufTy).Contents (Elt F)),
    unary main_v12 main_v13 (broadcastInDim S5000x128 ![0, 1] bcast_S1x128_S5000x128_0_1 : (⟨S1x128, .f32⟩ : BufTy).Contents (Elt F) → (⟨S5000x128, .f32⟩ : BufTy).Contents (Elt F)),
    binary main_v11 main_v13 main_v14 (addf : (⟨S5000x128, .f32⟩ : BufTy).Contents (Elt F) → (⟨S5000x128, .f32⟩ : BufTy).Contents (Elt F) → (⟨S5000x128, .f32⟩ : BufTy).Contents (Elt F)),
    unary main_arg15 main_v15 ((extractStridedSlice S1x6x128x128 ![0, 0, 0, 0] · slices_S2x6x128x128_S1x6x128x128_0_0_0_0) : (⟨S2x6x128x128, .f32⟩ : BufTy).Contents (Elt F) → (⟨S1x6x128x128, .f32⟩ : BufTy).Contents (Elt F)),
    reshape main_v15 main_v16 rfl shapeCasts_S1x6x128x128_S6x128x128,
    unary main_arg16 main_v17 ((extractStridedSlice S1x6x128 ![0, 0, 0] · slices_S2x6x128_S1x6x128_0_0_0) : (⟨S2x6x128, .f32⟩ : BufTy).Contents (Elt F) → (⟨S1x6x128, .f32⟩ : BufTy).Contents (Elt F)),
    reshape main_v17 main_v18 rfl shapeCasts_S1x6x128_S6x128,
    unary main_arg17 main_v19 ((extractStridedSlice S1x6x128x128 ![0, 0, 0, 0] · slices_S2x6x128x128_S1x6x128x128_0_0_0_0) : (⟨S2x6x128x128, .f32⟩ : BufTy).Contents (Elt F) → (⟨S1x6x128x128, .f32⟩ : BufTy).Contents (Elt F)),
    reshape main_v19 main_v20 rfl shapeCasts_S1x6x128x128_S6x128x128,
    unary main_v16 main_v21 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v21 main_v22 rfl shapeCasts_S1x128x128_S128x128,
    unary main_v18 main_v23 ((extractStridedSlice S1x128 ![0, 0] · slices_S6x128_S1x128_0_0) : (⟨S6x128, .f32⟩ : BufTy).Contents (Elt F) → (⟨S1x128, .f32⟩ : BufTy).Contents (Elt F)),
    reshape main_v23 main_v24 rfl shapeCasts_S1x128_S128,
    unary main_v20 main_v25 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v25 main_v26 rfl shapeCasts_S1x128x128_S128x128,
    unary main_arg3 main_v27 ((extractStridedSlice S1x500000 ![0, 0] · slices_S2x500000_S1x500000_0_0) : (⟨S2x500000, .i32⟩ : BufTy).Contents (Elt F) → (⟨S1x500000, .i32⟩ : BufTy).Contents (Elt F)),
    reshape main_v27 main_v28 rfl shapeCasts_S1x500000_S500000,
    unary main_arg3 main_v29 ((extractStridedSlice S1x500000 ![1, 0] · slices_S2x500000_S1x500000_1_0) : (⟨S2x500000, .i32⟩ : BufTy).Contents (Elt F) → (⟨S1x500000, .i32⟩ : BufTy).Contents (Elt F)),
    reshape main_v29 main_v30 rfl shapeCasts_S1x500000_S500000,
    nullary main_c (constantI S_ 32 0#32),
    unary main_c main_v31 (broadcastInDim S500000 ![] bcast_S_S500000 : (⟨S_, .i32⟩ : BufTy).Contents (Elt F) → (⟨S500000, .i32⟩ : BufTy).Contents (Elt F)),
    binary main_v28 main_v31 main_v32 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v33 (broadcastInDim S500000 ![] bcast_S_S500000 : (⟨S_, .i32⟩ : BufTy).Contents (Elt F) → (⟨S500000, .i32⟩ : BufTy).Contents (Elt F)),
    binary main_v28 main_v33 main_v34 (addi : (⟨S500000, .i32⟩ : BufTy).Contents (Elt F) → (⟨S500000, .i32⟩ : BufTy).Contents (Elt F) → (⟨S500000, .i32⟩ : BufTy).Contents (Elt F)),
    ternary main_v32 main_v34 main_v28 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v35 main_v36 (broadcastInDim S500000x1 ![0] bcast_S500000_S500000x1_0 : (⟨S500000, .i32⟩ : BufTy).Contents (Elt F) → (⟨S500000x1, .i32⟩ : BufTy).Contents (Elt F)),
    binary main_v4 main_v36 main_v37 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v38 (broadcastInDim S50000x128 ![] bcast_S_S50000x128 : (⟨S_, .f32⟩ : BufTy).Contents (Elt F) → (⟨S50000x128, .f32⟩ : BufTy).Contents (Elt F)),
    unary main_v30 main_v39 (broadcastInDim S500000x1 ![0] bcast_S500000_S500000x1_0 : (⟨S500000, .i32⟩ : BufTy).Contents (Elt F) → (⟨S500000x1, .i32⟩ : BufTy).Contents (Elt F)),
    ternary main_v38 main_v39 main_v37 main_v40 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_1 (constant S_ .f32 0x3F800000#32),
    unary main_cst_1 main_v41 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v42 (broadcastInDim S50000 ![] bcast_S_S50000 : (⟨S_, .f32⟩ : BufTy).Contents (Elt F) → (⟨S50000, .f32⟩ : BufTy).Contents (Elt F)),
    unary main_v30 main_v43 (broadcastInDim S500000x1 ![0] bcast_S500000_S500000x1_0 : (⟨S500000, .i32⟩ : BufTy).Contents (Elt F) → (⟨S500000x1, .i32⟩ : BufTy).Contents (Elt F)),
    ternary main_v42 main_v43 main_v41 main_v44 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_3 (constant S_ .f32 0x3F800000#32),
    unary main_cst_3 main_v45 (broadcastInDim S50000 ![] bcast_S_S50000 : (⟨S_, .f32⟩ : BufTy).Contents (Elt F) → (⟨S50000, .f32⟩ : BufTy).Contents (Elt F)),
    binary main_v44 main_v45 main_v46 (maximumf : (⟨S50000, .f32⟩ : BufTy).Contents (Elt F) → (⟨S50000, .f32⟩ : BufTy).Contents (Elt F) → (⟨S50000, .f32⟩ : BufTy).Contents (Elt F)),
    unary main_v46 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v40 main_v48 main_v49 (Host.divf : (⟨S50000x128, .f32⟩ : BufTy).Contents (Elt F) → (⟨S50000x128, .f32⟩ : BufTy).Contents (Elt F) → (⟨S50000x128, .f32⟩ : BufTy).Contents (Elt F)),
    unary main_v22 main_v50 ((transpose S128x128 [1, 0] · transposes_S128x128_S128x128_1_0) : (⟨S128x128, .f32⟩ : BufTy).Contents (Elt F) → (⟨S128x128, .f32⟩ : BufTy).Contents (Elt F)),
    binary main_v49 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v24 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    unary main_v26 main_v55 ((transpose S128x128 [1, 0] · transposes_S128x128_S128x128_1_0) : (⟨S128x128, .f32⟩ : BufTy).Contents (Elt F) → (⟨S128x128, .f32⟩ : BufTy).Contents (Elt F)),
    binary main_v9 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    unary main_v16 main_v58 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v58 main_v59 rfl shapeCasts_S1x128x128_S128x128,
    unary main_v18 main_v60 ((extractStridedSlice S1x128 ![1, 0] · slices_S6x128_S1x128_1_0) : (⟨S6x128, .f32⟩ : BufTy).Contents (Elt F) → (⟨S1x128, .f32⟩ : BufTy).Contents (Elt F)),
    reshape main_v60 main_v61 rfl shapeCasts_S1x128_S128,
    unary main_v20 main_v62 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v62 main_v63 rfl shapeCasts_S1x128x128_S128x128,
    unary main_arg4 main_v64 ((extractStridedSlice S1x500000 ![0, 0] · slices_S2x500000_S1x500000_0_0) : (⟨S2x500000, .i32⟩ : BufTy).Contents (Elt F) → (⟨S1x500000, .i32⟩ : BufTy).Contents (Elt F)),
    reshape main_v64 main_v65 rfl shapeCasts_S1x500000_S500000,
    unary main_arg4 main_v66 ((extractStridedSlice S1x500000 ![1, 0] · slices_S2x500000_S1x500000_1_0) : (⟨S2x500000, .i32⟩ : BufTy).Contents (Elt F) → (⟨S1x500000, .i32⟩ : BufTy).Contents (Elt F)),
    reshape main_v66 main_v67 rfl shapeCasts_S1x500000_S500000,
    nullary main_c_4 (constantI S_ 32 0#32),
    unary main_c_4 main_v68 (broadcastInDim S500000 ![] bcast_S_S500000 : (⟨S_, .i32⟩ : BufTy).Contents (Elt F) → (⟨S500000, .i32⟩ : BufTy).Contents (Elt F)),
    binary main_v65 main_v68 main_v69 (cmpi .slt : (⟨S500000, .i32⟩ : BufTy).Contents (Elt F) → (⟨S500000, .i32⟩ : BufTy).Contents (Elt F) → (⟨S500000, .i1⟩ : BufTy).Contents (Elt F)),
    nullary main_c_5 (constantI S_ 32 50000#32),
    unary main_c_5 main_v70 (broadcastInDim S500000 ![] bcast_S_S500000 : (⟨S_, .i32⟩ : BufTy).Contents (Elt F) → (⟨S500000, .i32⟩ : BufTy).Contents (Elt F)),
    binary main_v65 main_v70 main_v71 (addi : (⟨S500000, .i32⟩ : BufTy).Contents (Elt F) → (⟨S500000, .i32⟩ : BufTy).Contents (Elt F) → (⟨S500000, .i32⟩ : BufTy).Contents (Elt F)),
    ternary main_v69 main_v71 main_v65 main_v72 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v72 main_v73 (broadcastInDim S500000x1 ![0] bcast_S500000_S500000x1_0 : (⟨S500000, .i32⟩ : BufTy).Contents (Elt F) → (⟨S500000x1, .i32⟩ : BufTy).Contents (Elt F)),
    binary main_v9 main_v73 main_v74 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_6 (constant S_ .f32 0x00000000#32),
    unary main_cst_6 main_v75 (broadcastInDim S100000x128 ![] bcast_S_S100000x128 : (⟨S_, .f32⟩ : BufTy).Contents (Elt F) → (⟨S100000x128, .f32⟩ : BufTy).Contents (Elt F)),
    unary main_v67 main_v76 (broadcastInDim S500000x1 ![0] bcast_S500000_S500000x1_0 : (⟨S500000, .i32⟩ : BufTy).Contents (Elt F) → (⟨S500000x1, .i32⟩ : BufTy).Contents (Elt F)),
    ternary main_v75 main_v76 main_v74 main_v77 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_7 (constant S_ .f32 0x3F800000#32),
    unary main_cst_7 main_v78 (broadcastInDim S500000 ![] bcast_S_S500000 : (⟨S_, .f32⟩ : BufTy).Contents (Elt F) → (⟨S500000, .f32⟩ : BufTy).Contents (Elt F)),
    nullary main_cst_8 (constant S_ .f32 0x00000000#32),
    unary main_cst_8 main_v79 (broadcastInDim S100000 ![] bcast_S_S100000 : (⟨S_, .f32⟩ : BufTy).Contents (Elt F) → (⟨S100000, .f32⟩ : BufTy).Contents (Elt F)),
    unary main_v67 main_v80 (broadcastInDim S500000x1 ![0] bcast_S500000_S500000x1_0 : (⟨S500000, .i32⟩ : BufTy).Contents (Elt F) → (⟨S500000x1, .i32⟩ : BufTy).Contents (Elt F)),
    ternary main_v79 main_v80 main_v78 main_v81 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)) ]

theorem opsA1a_sub : (opsA1a : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩

theorem opsA1a_fresh : ∀ op ∈ (opsA1a : List (HloOp τ sig (Elt F))), op.fresh = ∅ := by
  intro _ h; (repeat (cases h with | head => rfl | tail _ h => ?_)); exact nomatch h

end Cert.ReferenceIdeal.ValueP

end
-- ==== Proof.RefOpsA1b.lean ====
/-
  Operations 94 to 186 of the reference program's 783, in order, as the generated list spells them (part of chunk A1); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA1b : List (HloOp τ sig (Elt F)) :=
  [
    nullary main_cst_9 (constant S_ .f32 0x3F800000#32),
    unary main_cst_9 main_v82 (broadcastInDim S100000 ![] bcast_S_S100000 : (⟨S_, .f32⟩ : BufTy).Contents (Elt F) → (⟨S100000, .f32⟩ : BufTy).Contents (Elt F)),
    binary main_v81 main_v82 main_v83 (maximumf : (⟨S100000, .f32⟩ : BufTy).Contents (Elt F) → (⟨S100000, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x128 ![0, 1] bcast_S100000x1_S100000x128_0_1 : (⟨S100000x1, .f32⟩ : BufTy).Contents (Elt F) → (⟨S100000x128, .f32⟩ : BufTy).Contents (Elt F)),
    binary main_v77 main_v85 main_v86 (Host.divf : (⟨S100000x128, .f32⟩ : BufTy).Contents (Elt F) → (⟨S100000x128, .f32⟩ : BufTy).Contents (Elt F) → (⟨S100000x128, .f32⟩ : BufTy).Contents (Elt F)),
    unary main_v59 main_v87 ((transpose S128x128 [1, 0] · transposes_S128x128_S128x128_1_0) : (⟨S128x128, .f32⟩ : BufTy).Contents (Elt F) → (⟨S128x128, .f32⟩ : BufTy).Contents (Elt F)),
    binary main_v86 main_v87 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v61 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v88 main_v90 main_v91 (addf : (⟨S100000x128, .f32⟩ : BufTy).Contents (Elt F) → (⟨S100000x128, .f32⟩ : BufTy).Contents (Elt F) → (⟨S100000x128, .f32⟩ : BufTy).Contents (Elt F)),
    unary main_v63 main_v92 ((transpose S128x128 [1, 0] · transposes_S128x128_S128x128_1_0) : (⟨S128x128, .f32⟩ : BufTy).Contents (Elt F) → (⟨S128x128, .f32⟩ : BufTy).Contents (Elt F)),
    binary main_v4 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    unary main_v16 main_v95 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v95 main_v96 rfl shapeCasts_S1x128x128_S128x128,
    unary main_v18 main_v97 ((extractStridedSlice S1x128 ![2, 0] · slices_S6x128_S1x128_2_0) : (⟨S6x128, .f32⟩ : BufTy).Contents (Elt F) → (⟨S1x128, .f32⟩ : BufTy).Contents (Elt F)),
    reshape main_v97 main_v98 rfl shapeCasts_S1x128_S128,
    unary main_v20 main_v99 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v99 main_v100 rfl shapeCasts_S1x128x128_S128x128,
    unary main_arg5 main_v101 ((extractStridedSlice S1x300000 ![0, 0] · slices_S2x300000_S1x300000_0_0) : (⟨S2x300000, .i32⟩ : BufTy).Contents (Elt F) → (⟨S1x300000, .i32⟩ : BufTy).Contents (Elt F)),
    reshape main_v101 main_v102 rfl shapeCasts_S1x300000_S300000,
    unary main_arg5 main_v103 ((extractStridedSlice S1x300000 ![1, 0] · slices_S2x300000_S1x300000_1_0) : (⟨S2x300000, .i32⟩ : BufTy).Contents (Elt F) → (⟨S1x300000, .i32⟩ : BufTy).Contents (Elt F)),
    reshape main_v103 main_v104 rfl shapeCasts_S1x300000_S300000,
    nullary main_c_10 (constantI S_ 32 0#32),
    unary main_c_10 main_v105 (broadcastInDim S300000 ![] bcast_S_S300000 : (⟨S_, .i32⟩ : BufTy).Contents (Elt F) → (⟨S300000, .i32⟩ : BufTy).Contents (Elt F)),
    binary main_v102 main_v105 main_v106 (cmpi .slt : (⟨S300000, .i32⟩ : BufTy).Contents (Elt F) → (⟨S300000, .i32⟩ : BufTy).Contents (Elt F) → (⟨S300000, .i1⟩ : BufTy).Contents (Elt F)),
    nullary main_c_11 (constantI S_ 32 100000#32),
    unary main_c_11 main_v107 (broadcastInDim S300000 ![] bcast_S_S300000 : (⟨S_, .i32⟩ : BufTy).Contents (Elt F) → (⟨S300000, .i32⟩ : BufTy).Contents (Elt F)),
    binary main_v102 main_v107 main_v108 (addi : (⟨S300000, .i32⟩ : BufTy).Contents (Elt F) → (⟨S300000, .i32⟩ : BufTy).Contents (Elt F) → (⟨S300000, .i32⟩ : BufTy).Contents (Elt F)),
    ternary main_v106 main_v108 main_v102 main_v109 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v109 main_v110 (broadcastInDim S300000x1 ![0] bcast_S300000_S300000x1_0 : (⟨S300000, .i32⟩ : BufTy).Contents (Elt F) → (⟨S300000x1, .i32⟩ : BufTy).Contents (Elt F)),
    binary main_v4 main_v110 main_v111 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nullary main_cst_12 (constant S_ .f32 0x00000000#32),
    unary main_cst_12 main_v112 (broadcastInDim S5000x128 ![] bcast_S_S5000x128 : (⟨S_, .f32⟩ : BufTy).Contents (Elt F) → (⟨S5000x128, .f32⟩ : BufTy).Contents (Elt F)),
    unary main_v104 main_v113 (broadcastInDim S300000x1 ![0] bcast_S300000_S300000x1_0 : (⟨S300000, .i32⟩ : BufTy).Contents (Elt F) → (⟨S300000x1, .i32⟩ : BufTy).Contents (Elt F)),
    ternary main_v112 main_v113 main_v111 main_v114 ((fun x i u => Host.scatterAdd scatter_S5000x128_S300000x1_S300000x128_1_0_0_1 x i u) : (⟨S5000x128, .f32⟩ : BufTy).Contents (Elt F) → (⟨S300000x1, .i32⟩ : BufTy).Contents (Elt F) → (⟨S300000x128, .f32⟩ : BufTy).Contents (Elt F) → (⟨S5000x128, .f32⟩ : BufTy).Contents (Elt F)),
    nullary main_cst_13 (constant S_ .f32 0x3F800000#32),
    unary main_cst_13 main_v115 (broadcastInDim S300000 ![] bcast_S_S300000 : (⟨S_, .f32⟩ : BufTy).Contents (Elt F) → (⟨S300000, .f32⟩ : BufTy).Contents (Elt F)),
    nullary main_cst_14 (constant S_ .f32 0x00000000#32),
    unary main_cst_14 main_v116 (broadcastInDim S5000 ![] bcast_S_S5000 : (⟨S_, .f32⟩ : BufTy).Contents (Elt F) → (⟨S5000, .f32⟩ : BufTy).Contents (Elt F)),
    unary main_v104 main_v117 (broadcastInDim S300000x1 ![0] bcast_S300000_S300000x1_0 : (⟨S300000, .i32⟩ : BufTy).Contents (Elt F) → (⟨S300000x1, .i32⟩ : BufTy).Contents (Elt F)),
    ternary main_v116 main_v117 main_v115 main_v118 ((fun x i u => Host.scatterAdd scatter_S5000_S300000x1_S300000_n_0_0_1 x i u) : (⟨S5000, .f32⟩ : BufTy).Contents (Elt F) → (⟨S300000x1, .i32⟩ : BufTy).Contents (Elt F) → (⟨S300000, .f32⟩ : BufTy).Contents (Elt F) → (⟨S5000, .f32⟩ : BufTy).Contents (Elt F)),
    nullary main_cst_15 (constant S_ .f32 0x3F800000#32),
    unary main_cst_15 main_v119 (broadcastInDim S5000 ![] bcast_S_S5000 : (⟨S_, .f32⟩ : BufTy).Contents (Elt F) → (⟨S5000, .f32⟩ : BufTy).Contents (Elt F)),
    binary main_v118 main_v119 main_v120 (maximumf : (⟨S5000, .f32⟩ : BufTy).Contents (Elt F) → (⟨S5000, .f32⟩ : BufTy).Contents (Elt F) → (⟨S5000, .f32⟩ : BufTy).Contents (Elt F)),
    unary main_v120 main_v121 (broadcastInDim S5000x1 ![0] bcast_S5000_S5000x1_0 : (⟨S5000, .f32⟩ : BufTy).Contents (Elt F) → (⟨S5000x1, .f32⟩ : BufTy).Contents (Elt F)),
    unary main_v121 main_v122 (broadcastInDim S5000x128 ![0, 1] bcast_S5000x1_S5000x128_0_1 : (⟨S5000x1, .f32⟩ : BufTy).Contents (Elt F) → (⟨S5000x128, .f32⟩ : BufTy).Contents (Elt F)),
    binary main_v114 main_v122 main_v123 (Host.divf : (⟨S5000x128, .f32⟩ : BufTy).Contents (Elt F) → (⟨S5000x128, .f32⟩ : BufTy).Contents (Elt F) → (⟨S5000x128, .f32⟩ : BufTy).Contents (Elt F)),
    unary main_v96 main_v124 ((transpose S128x128 [1, 0] · transposes_S128x128_S128x128_1_0) : (⟨S128x128, .f32⟩ : BufTy).Contents (Elt F) → (⟨S128x128, .f32⟩ : BufTy).Contents (Elt F)),
    binary main_v123 main_v124 main_v125 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v98 main_v126 (broadcastInDim S1x128 ![1] bcast_S128_S1x128_1 : (⟨S128, .f32⟩ : BufTy).Contents (Elt F) → (⟨S1x128, .f32⟩ : BufTy).Contents (Elt F)),
    unary main_v126 main_v127 (broadcastInDim S5000x128 ![0, 1] bcast_S1x128_S5000x128_0_1 : (⟨S1x128, .f32⟩ : BufTy).Contents (Elt F) → (⟨S5000x128, .f32⟩ : BufTy).Contents (Elt F)),
    binary main_v125 main_v127 main_v128 (addf : (⟨S5000x128, .f32⟩ : BufTy).Contents (Elt F) → (⟨S5000x128, .f32⟩ : BufTy).Contents (Elt F) → (⟨S5000x128, .f32⟩ : BufTy).Contents (Elt F)),
    unary main_v100 main_v129 ((transpose S128x128 [1, 0] · transposes_S128x128_S128x128_1_0) : (⟨S128x128, .f32⟩ : BufTy).Contents (Elt F) → (⟨S128x128, .f32⟩ : BufTy).Contents (Elt F)),
    binary main_v14 main_v129 main_v130 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v128 main_v130 main_v131 (addf : (⟨S5000x128, .f32⟩ : BufTy).Contents (Elt F) → (⟨S5000x128, .f32⟩ : BufTy).Contents (Elt F) → (⟨S5000x128, .f32⟩ : BufTy).Contents (Elt F)),
    unary main_v16 main_v132 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v132 main_v133 rfl shapeCasts_S1x128x128_S128x128,
    unary main_v18 main_v134 ((extractStridedSlice S1x128 ![3, 0] · slices_S6x128_S1x128_3_0) : (⟨S6x128, .f32⟩ : BufTy).Contents (Elt F) → (⟨S1x128, .f32⟩ : BufTy).Contents (Elt F)),
    reshape main_v134 main_v135 rfl shapeCasts_S1x128_S128,
    unary main_v20 main_v136 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v136 main_v137 rfl shapeCasts_S1x128x128_S128x128,
    unary main_arg6 main_v138 ((extractStridedSlice S1x300000 ![0, 0] · slices_S2x300000_S1x300000_0_0) : (⟨S2x300000, .i32⟩ : BufTy).Contents (Elt F) → (⟨S1x300000, .i32⟩ : BufTy).Contents (Elt F)),
    reshape main_v138 main_v139 rfl shapeCasts_S1x300000_S300000,
    unary main_arg6 main_v140 ((extractStridedSlice S1x300000 ![1, 0] · slices_S2x300000_S1x300000_1_0) : (⟨S2x300000, .i32⟩ : BufTy).Contents (Elt F) → (⟨S1x300000, .i32⟩ : BufTy).Contents (Elt F)),
    reshape main_v140 main_v141 rfl shapeCasts_S1x300000_S300000,
    nullary main_c_16 (constantI S_ 32 0#32),
    unary main_c_16 main_v142 (broadcastInDim S300000 ![] bcast_S_S300000 : (⟨S_, .i32⟩ : BufTy).Contents (Elt F) → (⟨S300000, .i32⟩ : BufTy).Contents (Elt F)),
    binary main_v139 main_v142 main_v143 (cmpi .slt : (⟨S300000, .i32⟩ : BufTy).Contents (Elt F) → (⟨S300000, .i32⟩ : BufTy).Contents (Elt F) → (⟨S300000, .i1⟩ : BufTy).Contents (Elt F)),
    nullary main_c_17 (constantI S_ 32 5000#32),
    unary main_c_17 main_v144 (broadcastInDim S300000 ![] bcast_S_S300000 : (⟨S_, .i32⟩ : BufTy).Contents (Elt F) → (⟨S300000, .i32⟩ : BufTy).Contents (Elt F)),
    binary main_v139 main_v144 main_v145 (addi : (⟨S300000, .i32⟩ : BufTy).Contents (Elt F) → (⟨S300000, .i32⟩ : BufTy).Contents (Elt F) → (⟨S300000, .i32⟩ : BufTy).Contents (Elt F)),
    ternary main_v143 main_v145 main_v139 main_v146 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v146 main_v147 (broadcastInDim S300000x1 ![0] bcast_S300000_S300000x1_0 : (⟨S300000, .i32⟩ : BufTy).Contents (Elt F) → (⟨S300000x1, .i32⟩ : BufTy).Contents (Elt F)),
    binary main_v14 main_v147 main_v148 ((fun x i => Host.gather gather_S5000x128_S300000x1_S300000x128_1_0_n_n_0_1_1128 x i) : (⟨S5000x128, .f32⟩ : BufTy).Contents (Elt F) → (⟨S300000x1, .i32⟩ : BufTy).Contents (Elt F) → (⟨S300000x128, .f32⟩ : BufTy).Contents (Elt F)),
    nullary main_cst_18 (constant S_ .f32 0x00000000#32),
    unary main_cst_18 main_v149 (broadcastInDim S100000x128 ![] bcast_S_S100000x128 : (⟨S_, .f32⟩ : BufTy).Contents (Elt F) → (⟨S100000x128, .f32⟩ : BufTy).Contents (Elt F)),
    unary main_v141 main_v150 (broadcastInDim S300000x1 ![0] bcast_S300000_S300000x1_0 : (⟨S300000, .i32⟩ : BufTy).Contents (Elt F) → (⟨S300000x1, .i32⟩ : BufTy).Contents (Elt F)),
    ternary main_v149 main_v150 main_v148 main_v151 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    nullary main_cst_19 (constant S_ .f32 0x3F800000#32),
    unary main_cst_19 main_v152 (broadcastInDim S300000 ![] bcast_S_S300000 : (⟨S_, .f32⟩ : BufTy).Contents (Elt F) → (⟨S300000, .f32⟩ : BufTy).Contents (Elt F)),
    nullary main_cst_20 (constant S_ .f32 0x00000000#32),
    unary main_cst_20 main_v153 (broadcastInDim S100000 ![] bcast_S_S100000 : (⟨S_, .f32⟩ : BufTy).Contents (Elt F) → (⟨S100000, .f32⟩ : BufTy).Contents (Elt F)),
    unary main_v141 main_v154 (broadcastInDim S300000x1 ![0] bcast_S300000_S300000x1_0 : (⟨S300000, .i32⟩ : BufTy).Contents (Elt F) → (⟨S300000x1, .i32⟩ : BufTy).Contents (Elt F)),
    ternary main_v153 main_v154 main_v152 main_v155 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    nullary main_cst_21 (constant S_ .f32 0x3F800000#32),
    unary main_cst_21 main_v156 (broadcastInDim S100000 ![] bcast_S_S100000 : (⟨S_, .f32⟩ : BufTy).Contents (Elt F) → (⟨S100000, .f32⟩ : BufTy).Contents (Elt F)),
    binary main_v155 main_v156 main_v157 (maximumf : (⟨S100000, .f32⟩ : BufTy).Contents (Elt F) → (⟨S100000, .f32⟩ : BufTy).Contents (Elt F) → (⟨S100000, .f32⟩ : BufTy).Contents (Elt F)),
    unary main_v157 main_v158 (broadcastInDim S100000x1 ![0] bcast_S100000_S100000x1_0 : (⟨S100000, .f32⟩ : BufTy).Contents (Elt F) → (⟨S100000x1, .f32⟩ : BufTy).Contents (Elt F)),
    unary main_v158 main_v159 (broadcastInDim S100000x128 ![0, 1] bcast_S100000x1_S100000x128_0_1 : (⟨S100000x1, .f32⟩ : BufTy).Contents (Elt F) → (⟨S100000x128, .f32⟩ : BufTy).Contents (Elt F)),
    binary main_v151 main_v159 main_v160 (Host.divf : (⟨S100000x128, .f32⟩ : BufTy).Contents (Elt F) → (⟨S100000x128, .f32⟩ : BufTy).Contents (Elt F) → (⟨S100000x128, .f32⟩ : BufTy).Contents (Elt F)),
    unary main_v133 main_v161 ((transpose S128x128 [1, 0] · transposes_S128x128_S128x128_1_0) : (⟨S128x128, .f32⟩ : BufTy).Contents (Elt F) → (⟨S128x128, .f32⟩ : BufTy).Contents (Elt F)) ]

theorem opsA1b_sub : (opsA1b : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub ..⟩

theorem opsA1b_fresh : ∀ op ∈ (opsA1b : List (HloOp τ sig (Elt F))), op.fresh = ∅ := by
  intro _ h; (repeat (cases h with | head => rfl | tail _ h => ?_)); exact nomatch h

end Cert.ReferenceIdeal.ValueP

end
-- ==== Proof.RefOpsA1c.lean ====
/-
  Operations 187 to 279 of the reference program's 783, in order, as the generated list spells them (part of chunk A1); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA1c : List (HloOp τ sig (Elt F)) :=
  [
    binary main_v160 main_v161 main_v162 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v135 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v162 main_v164 main_v165 (addf : (⟨S100000x128, .f32⟩ : BufTy).Contents (Elt F) → (⟨S100000x128, .f32⟩ : BufTy).Contents (Elt F) → (⟨S100000x128, .f32⟩ : BufTy).Contents (Elt F)),
    unary main_v137 main_v166 ((transpose S128x128 [1, 0] · transposes_S128x128_S128x128_1_0) : (⟨S128x128, .f32⟩ : BufTy).Contents (Elt F) → (⟨S128x128, .f32⟩ : BufTy).Contents (Elt F)),
    binary main_v4 main_v166 main_v167 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v165 main_v167 main_v168 (addf : (⟨S100000x128, .f32⟩ : BufTy).Contents (Elt F) → (⟨S100000x128, .f32⟩ : BufTy).Contents (Elt F) → (⟨S100000x128, .f32⟩ : BufTy).Contents (Elt F)),
    unary main_v16 main_v169 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v169 main_v170 rfl shapeCasts_S1x128x128_S128x128,
    unary main_v18 main_v171 ((extractStridedSlice S1x128 ![4, 0] · slices_S6x128_S1x128_4_0) : (⟨S6x128, .f32⟩ : BufTy).Contents (Elt F) → (⟨S1x128, .f32⟩ : BufTy).Contents (Elt F)),
    reshape main_v171 main_v172 rfl shapeCasts_S1x128_S128,
    unary main_v20 main_v173 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v173 main_v174 rfl shapeCasts_S1x128x128_S128x128,
    unary main_arg7 main_v175 ((extractStridedSlice S1x150000 ![0, 0] · slices_S2x150000_S1x150000_0_0) : (⟨S2x150000, .i32⟩ : BufTy).Contents (Elt F) → (⟨S1x150000, .i32⟩ : BufTy).Contents (Elt F)),
    reshape main_v175 main_v176 rfl shapeCasts_S1x150000_S150000,
    unary main_arg7 main_v177 ((extractStridedSlice S1x150000 ![1, 0] · slices_S2x150000_S1x150000_1_0) : (⟨S2x150000, .i32⟩ : BufTy).Contents (Elt F) → (⟨S1x150000, .i32⟩ : BufTy).Contents (Elt F)),
    reshape main_v177 main_v178 rfl shapeCasts_S1x150000_S150000,
    nullary main_c_22 (constantI S_ 32 0#32),
    unary main_c_22 main_v179 (broadcastInDim S150000 ![] bcast_S_S150000 : (⟨S_, .i32⟩ : BufTy).Contents (Elt F) → (⟨S150000, .i32⟩ : BufTy).Contents (Elt F)),
    binary main_v176 main_v179 main_v180 (cmpi .slt : (⟨S150000, .i32⟩ : BufTy).Contents (Elt F) → (⟨S150000, .i32⟩ : BufTy).Contents (Elt F) → (⟨S150000, .i1⟩ : BufTy).Contents (Elt F)),
    nullary main_c_23 (constantI S_ 32 50000#32),
    unary main_c_23 main_v181 (broadcastInDim S150000 ![] bcast_S_S150000 : (⟨S_, .i32⟩ : BufTy).Contents (Elt F) → (⟨S150000, .i32⟩ : BufTy).Contents (Elt F)),
    binary main_v176 main_v181 main_v182 (addi : (⟨S150000, .i32⟩ : BufTy).Contents (Elt F) → (⟨S150000, .i32⟩ : BufTy).Contents (Elt F) → (⟨S150000, .i32⟩ : BufTy).Contents (Elt F)),
    ternary main_v180 main_v182 main_v176 main_v183 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v183 main_v184 (broadcastInDim S150000x1 ![0] bcast_S150000_S150000x1_0 : (⟨S150000, .i32⟩ : BufTy).Contents (Elt F) → (⟨S150000x1, .i32⟩ : BufTy).Contents (Elt F)),
    binary main_v9 main_v184 main_v185 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    nullary main_cst_24 (constant S_ .f32 0x00000000#32),
    unary main_cst_24 main_v186 (broadcastInDim S5000x128 ![] bcast_S_S5000x128 : (⟨S_, .f32⟩ : BufTy).Contents (Elt F) → (⟨S5000x128, .f32⟩ : BufTy).Contents (Elt F)),
    unary main_v178 main_v187 (broadcastInDim S150000x1 ![0] bcast_S150000_S150000x1_0 : (⟨S150000, .i32⟩ : BufTy).Contents (Elt F) → (⟨S150000x1, .i32⟩ : BufTy).Contents (Elt F)),
    ternary main_v186 main_v187 main_v185 main_v188 ((fun x i u => Host.scatterAdd scatter_S5000x128_S150000x1_S150000x128_1_0_0_1 x i u) : (⟨S5000x128, .f32⟩ : BufTy).Contents (Elt F) → (⟨S150000x1, .i32⟩ : BufTy).Contents (Elt F) → (⟨S150000x128, .f32⟩ : BufTy).Contents (Elt F) → (⟨S5000x128, .f32⟩ : BufTy).Contents (Elt F)),
    nullary main_cst_25 (constant S_ .f32 0x3F800000#32),
    unary main_cst_25 main_v189 (broadcastInDim S150000 ![] bcast_S_S150000 : (⟨S_, .f32⟩ : BufTy).Contents (Elt F) → (⟨S150000, .f32⟩ : BufTy).Contents (Elt F)),
    nullary main_cst_26 (constant S_ .f32 0x00000000#32),
    unary main_cst_26 main_v190 (broadcastInDim S5000 ![] bcast_S_S5000 : (⟨S_, .f32⟩ : BufTy).Contents (Elt F) → (⟨S5000, .f32⟩ : BufTy).Contents (Elt F)),
    unary main_v178 main_v191 (broadcastInDim S150000x1 ![0] bcast_S150000_S150000x1_0 : (⟨S150000, .i32⟩ : BufTy).Contents (Elt F) → (⟨S150000x1, .i32⟩ : BufTy).Contents (Elt F)),
    ternary main_v190 main_v191 main_v189 main_v192 ((fun x i u => Host.scatterAdd scatter_S5000_S150000x1_S150000_n_0_0_1 x i u) : (⟨S5000, .f32⟩ : BufTy).Contents (Elt F) → (⟨S150000x1, .i32⟩ : BufTy).Contents (Elt F) → (⟨S150000, .f32⟩ : BufTy).Contents (Elt F) → (⟨S5000, .f32⟩ : BufTy).Contents (Elt F)),
    nullary main_cst_27 (constant S_ .f32 0x3F800000#32),
    unary main_cst_27 main_v193 (broadcastInDim S5000 ![] bcast_S_S5000 : (⟨S_, .f32⟩ : BufTy).Contents (Elt F) → (⟨S5000, .f32⟩ : BufTy).Contents (Elt F)),
    binary main_v192 main_v193 main_v194 (maximumf : (⟨S5000, .f32⟩ : BufTy).Contents (Elt F) → (⟨S5000, .f32⟩ : BufTy).Contents (Elt F) → (⟨S5000, .f32⟩ : BufTy).Contents (Elt F)),
    unary main_v194 main_v195 (broadcastInDim S5000x1 ![0] bcast_S5000_S5000x1_0 : (⟨S5000, .f32⟩ : BufTy).Contents (Elt F) → (⟨S5000x1, .f32⟩ : BufTy).Contents (Elt F)),
    unary main_v195 main_v196 (broadcastInDim S5000x128 ![0, 1] bcast_S5000x1_S5000x128_0_1 : (⟨S5000x1, .f32⟩ : BufTy).Contents (Elt F) → (⟨S5000x128, .f32⟩ : BufTy).Contents (Elt F)),
    binary main_v188 main_v196 main_v197 (Host.divf : (⟨S5000x128, .f32⟩ : BufTy).Contents (Elt F) → (⟨S5000x128, .f32⟩ : BufTy).Contents (Elt F) → (⟨S5000x128, .f32⟩ : BufTy).Contents (Elt F)),
    unary main_v170 main_v198 ((transpose S128x128 [1, 0] · transposes_S128x128_S128x128_1_0) : (⟨S128x128, .f32⟩ : BufTy).Contents (Elt F) → (⟨S128x128, .f32⟩ : BufTy).Contents (Elt F)),
    binary main_v197 main_v198 main_v199 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v172 main_v200 (broadcastInDim S1x128 ![1] bcast_S128_S1x128_1 : (⟨S128, .f32⟩ : BufTy).Contents (Elt F) → (⟨S1x128, .f32⟩ : BufTy).Contents (Elt F)),
    unary main_v200 main_v201 (broadcastInDim S5000x128 ![0, 1] bcast_S1x128_S5000x128_0_1 : (⟨S1x128, .f32⟩ : BufTy).Contents (Elt F) → (⟨S5000x128, .f32⟩ : BufTy).Contents (Elt F)),
    binary main_v199 main_v201 main_v202 (addf : (⟨S5000x128, .f32⟩ : BufTy).Contents (Elt F) → (⟨S5000x128, .f32⟩ : BufTy).Contents (Elt F) → (⟨S5000x128, .f32⟩ : BufTy).Contents (Elt F)),
    unary main_v174 main_v203 ((transpose S128x128 [1, 0] · transposes_S128x128_S128x128_1_0) : (⟨S128x128, .f32⟩ : BufTy).Contents (Elt F) → (⟨S128x128, .f32⟩ : BufTy).Contents (Elt F)),
    binary main_v14 main_v203 main_v204 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v202 main_v204 main_v205 (addf : (⟨S5000x128, .f32⟩ : BufTy).Contents (Elt F) → (⟨S5000x128, .f32⟩ : BufTy).Contents (Elt F) → (⟨S5000x128, .f32⟩ : BufTy).Contents (Elt F)),
    unary main_v16 main_v206 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v206 main_v207 rfl shapeCasts_S1x128x128_S128x128,
    unary main_v18 main_v208 ((extractStridedSlice S1x128 ![5, 0] · slices_S6x128_S1x128_5_0) : (⟨S6x128, .f32⟩ : BufTy).Contents (Elt F) → (⟨S1x128, .f32⟩ : BufTy).Contents (Elt F)),
    reshape main_v208 main_v209 rfl shapeCasts_S1x128_S128,
    unary main_v20 main_v210 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v210 main_v211 rfl shapeCasts_S1x128x128_S128x128,
    unary main_arg8 main_v212 ((extractStridedSlice S1x150000 ![0, 0] · slices_S2x150000_S1x150000_0_0) : (⟨S2x150000, .i32⟩ : BufTy).Contents (Elt F) → (⟨S1x150000, .i32⟩ : BufTy).Contents (Elt F)),
    reshape main_v212 main_v213 rfl shapeCasts_S1x150000_S150000,
    unary main_arg8 main_v214 ((extractStridedSlice S1x150000 ![1, 0] · slices_S2x150000_S1x150000_1_0) : (⟨S2x150000, .i32⟩ : BufTy).Contents (Elt F) → (⟨S1x150000, .i32⟩ : BufTy).Contents (Elt F)),
    reshape main_v214 main_v215 rfl shapeCasts_S1x150000_S150000,
    nullary main_c_28 (constantI S_ 32 0#32),
    unary main_c_28 main_v216 (broadcastInDim S150000 ![] bcast_S_S150000 : (⟨S_, .i32⟩ : BufTy).Contents (Elt F) → (⟨S150000, .i32⟩ : BufTy).Contents (Elt F)),
    binary main_v213 main_v216 main_v217 (cmpi .slt : (⟨S150000, .i32⟩ : BufTy).Contents (Elt F) → (⟨S150000, .i32⟩ : BufTy).Contents (Elt F) → (⟨S150000, .i1⟩ : BufTy).Contents (Elt F)),
    nullary main_c_29 (constantI S_ 32 5000#32),
    unary main_c_29 main_v218 (broadcastInDim S150000 ![] bcast_S_S150000 : (⟨S_, .i32⟩ : BufTy).Contents (Elt F) → (⟨S150000, .i32⟩ : BufTy).Contents (Elt F)),
    binary main_v213 main_v218 main_v219 (addi : (⟨S150000, .i32⟩ : BufTy).Contents (Elt F) → (⟨S150000, .i32⟩ : BufTy).Contents (Elt F) → (⟨S150000, .i32⟩ : BufTy).Contents (Elt F)),
    ternary main_v217 main_v219 main_v213 main_v220 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v220 main_v221 (broadcastInDim S150000x1 ![0] bcast_S150000_S150000x1_0 : (⟨S150000, .i32⟩ : BufTy).Contents (Elt F) → (⟨S150000x1, .i32⟩ : BufTy).Contents (Elt F)),
    binary main_v14 main_v221 main_v222 ((fun x i => Host.gather gather_S5000x128_S150000x1_S150000x128_1_0_n_n_0_1_1128 x i) : (⟨S5000x128, .f32⟩ : BufTy).Contents (Elt F) → (⟨S150000x1, .i32⟩ : BufTy).Contents (Elt F) → (⟨S150000x128, .f32⟩ : BufTy).Contents (Elt F)),
    nullary main_cst_30 (constant S_ .f32 0x00000000#32),
    unary main_cst_30 main_v223 (broadcastInDim S50000x128 ![] bcast_S_S50000x128 : (⟨S_, .f32⟩ : BufTy).Contents (Elt F) → (⟨S50000x128, .f32⟩ : BufTy).Contents (Elt F)),
    unary main_v215 main_v224 (broadcastInDim S150000x1 ![0] bcast_S150000_S150000x1_0 : (⟨S150000, .i32⟩ : BufTy).Contents (Elt F) → (⟨S150000x1, .i32⟩ : BufTy).Contents (Elt F)),
    ternary main_v223 main_v224 main_v222 main_v225 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    nullary main_cst_31 (constant S_ .f32 0x3F800000#32),
    unary main_cst_31 main_v226 (broadcastInDim S150000 ![] bcast_S_S150000 : (⟨S_, .f32⟩ : BufTy).Contents (Elt F) → (⟨S150000, .f32⟩ : BufTy).Contents (Elt F)),
    nullary main_cst_32 (constant S_ .f32 0x00000000#32),
    unary main_cst_32 main_v227 (broadcastInDim S50000 ![] bcast_S_S50000 : (⟨S_, .f32⟩ : BufTy).Contents (Elt F) → (⟨S50000, .f32⟩ : BufTy).Contents (Elt F)),
    unary main_v215 main_v228 (broadcastInDim S150000x1 ![0] bcast_S150000_S150000x1_0 : (⟨S150000, .i32⟩ : BufTy).Contents (Elt F) → (⟨S150000x1, .i32⟩ : BufTy).Contents (Elt F)),
    ternary main_v227 main_v228 main_v226 main_v229 ((fun x i u => Host.scatterAdd scatter_S50000_S150000x1_S150000_n_0_0_1 x i u) : (⟨S50000, .f32⟩ : BufTy).Contents (Elt F) → (⟨S150000x1, .i32⟩ : BufTy).Contents (Elt F) → (⟨S150000, .f32⟩ : BufTy).Contents (Elt F) → (⟨S50000, .f32⟩ : BufTy).Contents (Elt F)),
    nullary main_cst_33 (constant S_ .f32 0x3F800000#32),
    unary main_cst_33 main_v230 (broadcastInDim S50000 ![] bcast_S_S50000 : (⟨S_, .f32⟩ : BufTy).Contents (Elt F) → (⟨S50000, .f32⟩ : BufTy).Contents (Elt F)),
    binary main_v229 main_v230 main_v231 (maximumf : (⟨S50000, .f32⟩ : BufTy).Contents (Elt F) → (⟨S50000, .f32⟩ : BufTy).Contents (Elt F) → (⟨S50000, .f32⟩ : BufTy).Contents (Elt F)),
    unary main_v231 main_v232 (broadcastInDim S50000x1 ![0] bcast_S50000_S50000x1_0 : (⟨S50000, .f32⟩ : BufTy).Contents (Elt F) → (⟨S50000x1, .f32⟩ : BufTy).Contents (Elt F)),
    unary main_v232 main_v233 (broadcastInDim S50000x128 ![0, 1] bcast_S50000x1_S50000x128_0_1 : (⟨S50000x1, .f32⟩ : BufTy).Contents (Elt F) → (⟨S50000x128, .f32⟩ : BufTy).Contents (Elt F)),
    binary main_v225 main_v233 main_v234 (Host.divf : (⟨S50000x128, .f32⟩ : BufTy).Contents (Elt F) → (⟨S50000x128, .f32⟩ : BufTy).Contents (Elt F) → (⟨S50000x128, .f32⟩ : BufTy).Contents (Elt F)),
    unary main_v207 main_v235 ((transpose S128x128 [1, 0] · transposes_S128x128_S128x128_1_0) : (⟨S128x128, .f32⟩ : BufTy).Contents (Elt F) → (⟨S128x128, .f32⟩ : BufTy).Contents (Elt F)),
    binary main_v234 main_v235 main_v236 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v209 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v236 main_v238 main_v239 (addf : (⟨S50000x128, .f32⟩ : BufTy).Contents (Elt F) → (⟨S50000x128, .f32⟩ : BufTy).Contents (Elt F) → (⟨S50000x128, .f32⟩ : BufTy).Contents (Elt F)),
    unary main_v211 main_v240 ((transpose S128x128 [1, 0] · transposes_S128x128_S128x128_1_0) : (⟨S128x128, .f32⟩ : BufTy).Contents (Elt F) → (⟨S128x128, .f32⟩ : BufTy).Contents (Elt F)),
    binary main_v9 main_v240 main_v241 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v239 main_v241 main_v242 (addf : (⟨S50000x128, .f32⟩ : BufTy).Contents (Elt F) → (⟨S50000x128, .f32⟩ : BufTy).Contents (Elt F) → (⟨S50000x128, .f32⟩ : BufTy).Contents (Elt F)) ]

theorem opsA1c_sub : (opsA1c : List (HloOp τ sig (Elt F))).Forall fun op => op.bufs ⊆ tcRefs τ sig :=
  ⟨binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem opsA1c_fresh : ∀ op ∈ (opsA1c : List (HloOp τ sig (Elt F))), op.fresh = ∅ := by
  intro _ h; (repeat (cases h with | head => rfl | tail _ h => ?_)); exact nomatch h

end Cert.ReferenceIdeal.ValueP

end
-- ==== Proof.RefOpsA1.lean ====
/-
  Chunk A1 of the reference program's operations: its parts in order.
-/
import proofs.«172654_j31121333027532_2_alg».proof.Proof.RefOpsA1a
import proofs.«172654_j31121333027532_2_alg».proof.Proof.RefOpsA1b
import proofs.«172654_j31121333027532_2_alg».proof.Proof.RefOpsA1c

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA1 : List (HloOp τ sig (Elt F)) := opsA1a ++ (opsA1b ++ (opsA1c))

theorem opsA1_sub : (opsA1 : List (HloOp τ sig (Elt F))).Forall fun op => op.bufs ⊆ tcRefs τ sig :=
  List.forall_iff_forall_mem.mpr fun op h => by
    rcases List.mem_append.mp h with h | h
    · exact List.forall_iff_forall_mem.mp opsA1a_sub op h
    rcases List.mem_append.mp h with h | h
    · exact List.forall_iff_forall_mem.mp opsA1b_sub op h
    · exact List.forall_iff_forall_mem.mp opsA1c_sub op h

theorem opsA1_fresh : ∀ op ∈ (opsA1 : List (HloOp τ sig (Elt F))), op.fresh = ∅ := fun op h => by
    rcases List.mem_append.mp h with h | h
    · exact opsA1a_fresh op h
    rcases List.mem_append.mp h with h | h
    · exact opsA1b_fresh op h
    · exact opsA1c_fresh op h

end Cert.ReferenceIdeal.ValueP

end
-- ==== Proof.RefOpsA2a.lean ====
/-
  Operations 280 to 339 of the reference program's 783, in order, as the generated list spells them (part of chunk A2); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA2a : List (HloOp τ sig (Elt F)) :=
  [
    binary main_v94 main_v168 main_v243 (addf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x3F000000#32),
    unary main_cst_34 main_v244 (broadcastInDim S100000x128 ![] bcast_S_S100000x128 : (⟨S_, .f32⟩ : BufTy).Contents (Elt F) → (⟨S100000x128, .f32⟩ : BufTy).Contents (Elt F)),
    binary main_v244 main_v243 main_v245 (mulf : (⟨S100000x128, .f32⟩ : BufTy).Contents (Elt F) → (⟨S100000x128, .f32⟩ : BufTy).Contents (Elt F) → (⟨S100000x128, .f32⟩ : BufTy).Contents (Elt F)),
    unary main_arg18 main_v246 ((extractStridedSlice S1x1x128 ![0, 0, 0] · slices_S2x3x128_S1x1x128_0_0_0) : (⟨S2x3x128, .f32⟩ : BufTy).Contents (Elt F) → (⟨S1x1x128, .f32⟩ : BufTy).Contents (Elt F)),
    reshape main_v246 main_v247 rfl shapeCasts_S1x1x128_S128,
    unary main_arg19 main_v248 ((extractStridedSlice S1x1x128 ![0, 0, 0] · slices_S2x3x128_S1x1x128_0_0_0) : (⟨S2x3x128, .f32⟩ : BufTy).Contents (Elt F) → (⟨S1x1x128, .f32⟩ : BufTy).Contents (Elt F)),
    reshape main_v248 main_v249 rfl shapeCasts_S1x1x128_S128,
    nullary main_cst_35 (constant S_ .f32 0x00000000#32),
    binary main_v245 main_cst_35 main_v250 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v250 main_v251 (broadcastInDim S100000x1 ![0] bcast_S100000_S100000x1_0 : (⟨S100000, .f32⟩ : BufTy).Contents (Elt F) → (⟨S100000x1, .f32⟩ : BufTy).Contents (Elt F)),
    nullary main_cst_36 (constant S_ .f32 0x43000000#32),
    unary main_cst_36 main_v252 (broadcastInDim S100000x1 ![] bcast_S_S100000x1 : (⟨S_, .f32⟩ : BufTy).Contents (Elt F) → (⟨S100000x1, .f32⟩ : BufTy).Contents (Elt F)),
    binary main_v251 main_v252 main_v253 (Host.divf : (⟨S100000x1, .f32⟩ : BufTy).Contents (Elt F) → (⟨S100000x1, .f32⟩ : BufTy).Contents (Elt F) → (⟨S100000x1, .f32⟩ : BufTy).Contents (Elt F)),
    unary main_v253 main_v254 (broadcastInDim S100000x128 ![0, 1] bcast_S100000x1_S100000x128_0_1 : (⟨S100000x1, .f32⟩ : BufTy).Contents (Elt F) → (⟨S100000x128, .f32⟩ : BufTy).Contents (Elt F)),
    binary main_v245 main_v254 main_v255 (subf : (⟨S100000x128, .f32⟩ : BufTy).Contents (Elt F) → (⟨S100000x128, .f32⟩ : BufTy).Contents (Elt F) → (⟨S100000x128, .f32⟩ : BufTy).Contents (Elt F)),
    binary main_v255 main_v255 main_v256 (mulf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x00000000#32),
    binary main_v256 main_cst_37 main_v257 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v257 main_v258 (broadcastInDim S100000x1 ![0] bcast_S100000_S100000x1_0 : (⟨S100000, .f32⟩ : BufTy).Contents (Elt F) → (⟨S100000x1, .f32⟩ : BufTy).Contents (Elt F)),
    nullary main_cst_38 (constant S_ .f32 0x43000000#32),
    unary main_cst_38 main_v259 (broadcastInDim S100000x1 ![] bcast_S_S100000x1 : (⟨S_, .f32⟩ : BufTy).Contents (Elt F) → (⟨S100000x1, .f32⟩ : BufTy).Contents (Elt F)),
    binary main_v258 main_v259 main_v260 (Host.divf : (⟨S100000x1, .f32⟩ : BufTy).Contents (Elt F) → (⟨S100000x1, .f32⟩ : BufTy).Contents (Elt F) → (⟨S100000x1, .f32⟩ : BufTy).Contents (Elt F)),
    unary main_v253 main_v261 (broadcastInDim S100000x128 ![0, 1] bcast_S100000x1_S100000x128_0_1 : (⟨S100000x1, .f32⟩ : BufTy).Contents (Elt F) → (⟨S100000x128, .f32⟩ : BufTy).Contents (Elt F)),
    binary main_v245 main_v261 main_v262 (subf : (⟨S100000x128, .f32⟩ : BufTy).Contents (Elt F) → (⟨S100000x128, .f32⟩ : BufTy).Contents (Elt F) → (⟨S100000x128, .f32⟩ : BufTy).Contents (Elt F)),
    nullary main_cst_39 (constant S_ .f32 0x3727C5AC#32),
    unary main_cst_39 main_v263 (broadcastInDim S100000x1 ![] bcast_S_S100000x1 : (⟨S_, .f32⟩ : BufTy).Contents (Elt F) → (⟨S100000x1, .f32⟩ : BufTy).Contents (Elt F)),
    binary main_v260 main_v263 main_v264 (addf : (⟨S100000x1, .f32⟩ : BufTy).Contents (Elt F) → (⟨S100000x1, .f32⟩ : BufTy).Contents (Elt F) → (⟨S100000x1, .f32⟩ : BufTy).Contents (Elt F)),
    unary main_v264 main_v265 (Host.rsqrt : (⟨S100000x1, .f32⟩ : BufTy).Contents (Elt F) → (⟨S100000x1, .f32⟩ : BufTy).Contents (Elt F)),
    unary main_v265 main_v266 (broadcastInDim S100000x128 ![0, 1] bcast_S100000x1_S100000x128_0_1 : (⟨S100000x1, .f32⟩ : BufTy).Contents (Elt F) → (⟨S100000x128, .f32⟩ : BufTy).Contents (Elt F)),
    binary main_v262 main_v266 main_v267 (mulf : (⟨S100000x128, .f32⟩ : BufTy).Contents (Elt F) → (⟨S100000x128, .f32⟩ : BufTy).Contents (Elt F) → (⟨S100000x128, .f32⟩ : BufTy).Contents (Elt F)),
    unary main_v247 main_v268 (broadcastInDim S1x128 ![1] bcast_S128_S1x128_1 : (⟨S128, .f32⟩ : BufTy).Contents (Elt F) → (⟨S1x128, .f32⟩ : BufTy).Contents (Elt F)),
    unary main_v268 main_v269 (broadcastInDim S100000x128 ![0, 1] bcast_S1x128_S100000x128_0_1 : (⟨S1x128, .f32⟩ : BufTy).Contents (Elt F) → (⟨S100000x128, .f32⟩ : BufTy).Contents (Elt F)),
    binary main_v267 main_v269 main_v270 (mulf : (⟨S100000x128, .f32⟩ : BufTy).Contents (Elt F) → (⟨S100000x128, .f32⟩ : BufTy).Contents (Elt F) → (⟨S100000x128, .f32⟩ : BufTy).Contents (Elt F)),
    unary main_v249 main_v271 (broadcastInDim S1x128 ![1] bcast_S128_S1x128_1 : (⟨S128, .f32⟩ : BufTy).Contents (Elt F) → (⟨S1x128, .f32⟩ : BufTy).Contents (Elt F)),
    unary main_v271 main_v272 (broadcastInDim S100000x128 ![0, 1] bcast_S1x128_S100000x128_0_1 : (⟨S1x128, .f32⟩ : BufTy).Contents (Elt F) → (⟨S100000x128, .f32⟩ : BufTy).Contents (Elt F)),
    binary main_v270 main_v272 main_v273 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v273) (TRef.of (T := ⟨S100000x128, .f32⟩) main_call0_v0) (TRef.of (T := ⟨S100000x128, .f32⟩) main_v274) maximumf,
    binary main_v57 main_v242 main_v275 (addf : (⟨S50000x128, .f32⟩ : BufTy).Contents (Elt F) → (⟨S50000x128, .f32⟩ : BufTy).Contents (Elt F) → (⟨S50000x128, .f32⟩ : BufTy).Contents (Elt F)),
    nullary main_cst_40 (constant S_ .f32 0x3F000000#32),
    unary main_cst_40 main_v276 (broadcastInDim S50000x128 ![] bcast_S_S50000x128 : (⟨S_, .f32⟩ : BufTy).Contents (Elt F) → (⟨S50000x128, .f32⟩ : BufTy).Contents (Elt F)),
    binary main_v276 main_v275 main_v277 (mulf : (⟨S50000x128, .f32⟩ : BufTy).Contents (Elt F) → (⟨S50000x128, .f32⟩ : BufTy).Contents (Elt F) → (⟨S50000x128, .f32⟩ : BufTy).Contents (Elt F)),
    unary main_arg18 main_v278 ((extractStridedSlice S1x1x128 ![0, 1, 0] · slices_S2x3x128_S1x1x128_0_1_0) : (⟨S2x3x128, .f32⟩ : BufTy).Contents (Elt F) → (⟨S1x1x128, .f32⟩ : BufTy).Contents (Elt F)),
    reshape main_v278 main_v279 rfl shapeCasts_S1x1x128_S128,
    unary main_arg19 main_v280 ((extractStridedSlice S1x1x128 ![0, 1, 0] · slices_S2x3x128_S1x1x128_0_1_0) : (⟨S2x3x128, .f32⟩ : BufTy).Contents (Elt F) → (⟨S1x1x128, .f32⟩ : BufTy).Contents (Elt F)),
    reshape main_v280 main_v281 rfl shapeCasts_S1x1x128_S128,
    nullary main_cst_41 (constant S_ .f32 0x00000000#32),
    binary main_v277 main_cst_41 main_v282 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v282 main_v283 (broadcastInDim S50000x1 ![0] bcast_S50000_S50000x1_0 : (⟨S50000, .f32⟩ : BufTy).Contents (Elt F) → (⟨S50000x1, .f32⟩ : BufTy).Contents (Elt F)),
    nullary main_cst_42 (constant S_ .f32 0x43000000#32),
    unary main_cst_42 main_v284 (broadcastInDim S50000x1 ![] bcast_S_S50000x1 : (⟨S_, .f32⟩ : BufTy).Contents (Elt F) → (⟨S50000x1, .f32⟩ : BufTy).Contents (Elt F)),
    binary main_v283 main_v284 main_v285 (Host.divf : (⟨S50000x1, .f32⟩ : BufTy).Contents (Elt F) → (⟨S50000x1, .f32⟩ : BufTy).Contents (Elt F) → (⟨S50000x1, .f32⟩ : BufTy).Contents (Elt F)),
    unary main_v285 main_v286 (broadcastInDim S50000x128 ![0, 1] bcast_S50000x1_S50000x128_0_1 : (⟨S50000x1, .f32⟩ : BufTy).Contents (Elt F) → (⟨S50000x128, .f32⟩ : BufTy).Contents (Elt F)),
    binary main_v277 main_v286 main_v287 (subf : (⟨S50000x128, .f32⟩ : BufTy).Contents (Elt F) → (⟨S50000x128, .f32⟩ : BufTy).Contents (Elt F) → (⟨S50000x128, .f32⟩ : BufTy).Contents (Elt F)),
    binary main_v287 main_v287 main_v288 (mulf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x00000000#32),
    binary main_v288 main_cst_43 main_v289 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v289 main_v290 (broadcastInDim S50000x1 ![0] bcast_S50000_S50000x1_0 : (⟨S50000, .f32⟩ : BufTy).Contents (Elt F) → (⟨S50000x1, .f32⟩ : BufTy).Contents (Elt F)) ]

theorem opsA2a_sub : (opsA2a : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub ..⟩

theorem opsA2a_fresh : ∀ op ∈ (opsA2a : List (HloOp τ sig (Elt F))), op.fresh = ∅ := by
  intro _ h; (repeat (cases h with | head => rfl | tail _ h => ?_)); exact nomatch h

end Cert.ReferenceIdeal.ValueP

end
-- ==== Proof.RefOpsA2b.lean ====
/-
  Operations 340 to 399 of the reference program's 783, in order, as the generated list spells them (part of chunk A2); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA2b : List (HloOp τ sig (Elt F)) :=
  [
    nullary main_cst_44 (constant S_ .f32 0x43000000#32),
    unary main_cst_44 main_v291 (broadcastInDim S50000x1 ![] bcast_S_S50000x1 : (⟨S_, .f32⟩ : BufTy).Contents (Elt F) → (⟨S50000x1, .f32⟩ : BufTy).Contents (Elt F)),
    binary main_v290 main_v291 main_v292 (Host.divf : (⟨S50000x1, .f32⟩ : BufTy).Contents (Elt F) → (⟨S50000x1, .f32⟩ : BufTy).Contents (Elt F) → (⟨S50000x1, .f32⟩ : BufTy).Contents (Elt F)),
    unary main_v285 main_v293 (broadcastInDim S50000x128 ![0, 1] bcast_S50000x1_S50000x128_0_1 : (⟨S50000x1, .f32⟩ : BufTy).Contents (Elt F) → (⟨S50000x128, .f32⟩ : BufTy).Contents (Elt F)),
    binary main_v277 main_v293 main_v294 (subf : (⟨S50000x128, .f32⟩ : BufTy).Contents (Elt F) → (⟨S50000x128, .f32⟩ : BufTy).Contents (Elt F) → (⟨S50000x128, .f32⟩ : BufTy).Contents (Elt F)),
    nullary main_cst_45 (constant S_ .f32 0x3727C5AC#32),
    unary main_cst_45 main_v295 (broadcastInDim S50000x1 ![] bcast_S_S50000x1 : (⟨S_, .f32⟩ : BufTy).Contents (Elt F) → (⟨S50000x1, .f32⟩ : BufTy).Contents (Elt F)),
    binary main_v292 main_v295 main_v296 (addf : (⟨S50000x1, .f32⟩ : BufTy).Contents (Elt F) → (⟨S50000x1, .f32⟩ : BufTy).Contents (Elt F) → (⟨S50000x1, .f32⟩ : BufTy).Contents (Elt F)),
    unary main_v296 main_v297 (Host.rsqrt : (⟨S50000x1, .f32⟩ : BufTy).Contents (Elt F) → (⟨S50000x1, .f32⟩ : BufTy).Contents (Elt F)),
    unary main_v297 main_v298 (broadcastInDim S50000x128 ![0, 1] bcast_S50000x1_S50000x128_0_1 : (⟨S50000x1, .f32⟩ : BufTy).Contents (Elt F) → (⟨S50000x128, .f32⟩ : BufTy).Contents (Elt F)),
    binary main_v294 main_v298 main_v299 (mulf : (⟨S50000x128, .f32⟩ : BufTy).Contents (Elt F) → (⟨S50000x128, .f32⟩ : BufTy).Contents (Elt F) → (⟨S50000x128, .f32⟩ : BufTy).Contents (Elt F)),
    unary main_v279 main_v300 (broadcastInDim S1x128 ![1] bcast_S128_S1x128_1 : (⟨S128, .f32⟩ : BufTy).Contents (Elt F) → (⟨S1x128, .f32⟩ : BufTy).Contents (Elt F)),
    unary main_v300 main_v301 (broadcastInDim S50000x128 ![0, 1] bcast_S1x128_S50000x128_0_1 : (⟨S1x128, .f32⟩ : BufTy).Contents (Elt F) → (⟨S50000x128, .f32⟩ : BufTy).Contents (Elt F)),
    binary main_v299 main_v301 main_v302 (mulf : (⟨S50000x128, .f32⟩ : BufTy).Contents (Elt F) → (⟨S50000x128, .f32⟩ : BufTy).Contents (Elt F) → (⟨S50000x128, .f32⟩ : BufTy).Contents (Elt F)),
    unary main_v281 main_v303 (broadcastInDim S1x128 ![1] bcast_S128_S1x128_1 : (⟨S128, .f32⟩ : BufTy).Contents (Elt F) → (⟨S1x128, .f32⟩ : BufTy).Contents (Elt F)),
    unary main_v303 main_v304 (broadcastInDim S50000x128 ![0, 1] bcast_S1x128_S50000x128_0_1 : (⟨S1x128, .f32⟩ : BufTy).Contents (Elt F) → (⟨S50000x128, .f32⟩ : BufTy).Contents (Elt F)),
    binary main_v302 main_v304 main_v305 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v305) (TRef.of (T := ⟨S50000x128, .f32⟩) main_call1_v0) (TRef.of (T := ⟨S50000x128, .f32⟩) main_v306) maximumf,
    binary main_v131 main_v205 main_v307 (addf : (⟨S5000x128, .f32⟩ : BufTy).Contents (Elt F) → (⟨S5000x128, .f32⟩ : BufTy).Contents (Elt F) → (⟨S5000x128, .f32⟩ : BufTy).Contents (Elt F)),
    nullary main_cst_46 (constant S_ .f32 0x3F000000#32),
    unary main_cst_46 main_v308 (broadcastInDim S5000x128 ![] bcast_S_S5000x128 : (⟨S_, .f32⟩ : BufTy).Contents (Elt F) → (⟨S5000x128, .f32⟩ : BufTy).Contents (Elt F)),
    binary main_v308 main_v307 main_v309 (mulf : (⟨S5000x128, .f32⟩ : BufTy).Contents (Elt F) → (⟨S5000x128, .f32⟩ : BufTy).Contents (Elt F) → (⟨S5000x128, .f32⟩ : BufTy).Contents (Elt F)),
    unary main_arg18 main_v310 ((extractStridedSlice S1x1x128 ![0, 2, 0] · slices_S2x3x128_S1x1x128_0_2_0) : (⟨S2x3x128, .f32⟩ : BufTy).Contents (Elt F) → (⟨S1x1x128, .f32⟩ : BufTy).Contents (Elt F)),
    reshape main_v310 main_v311 rfl shapeCasts_S1x1x128_S128,
    unary main_arg19 main_v312 ((extractStridedSlice S1x1x128 ![0, 2, 0] · slices_S2x3x128_S1x1x128_0_2_0) : (⟨S2x3x128, .f32⟩ : BufTy).Contents (Elt F) → (⟨S1x1x128, .f32⟩ : BufTy).Contents (Elt F)),
    reshape main_v312 main_v313 rfl shapeCasts_S1x1x128_S128,
    nullary main_cst_47 (constant S_ .f32 0x00000000#32),
    binary main_v309 main_cst_47 main_v314 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v314 main_v315 (broadcastInDim S5000x1 ![0] bcast_S5000_S5000x1_0 : (⟨S5000, .f32⟩ : BufTy).Contents (Elt F) → (⟨S5000x1, .f32⟩ : BufTy).Contents (Elt F)),
    nullary main_cst_48 (constant S_ .f32 0x43000000#32),
    unary main_cst_48 main_v316 (broadcastInDim S5000x1 ![] bcast_S_S5000x1 : (⟨S_, .f32⟩ : BufTy).Contents (Elt F) → (⟨S5000x1, .f32⟩ : BufTy).Contents (Elt F)),
    binary main_v315 main_v316 main_v317 (Host.divf : (⟨S5000x1, .f32⟩ : BufTy).Contents (Elt F) → (⟨S5000x1, .f32⟩ : BufTy).Contents (Elt F) → (⟨S5000x1, .f32⟩ : BufTy).Contents (Elt F)),
    unary main_v317 main_v318 (broadcastInDim S5000x128 ![0, 1] bcast_S5000x1_S5000x128_0_1 : (⟨S5000x1, .f32⟩ : BufTy).Contents (Elt F) → (⟨S5000x128, .f32⟩ : BufTy).Contents (Elt F)),
    binary main_v309 main_v318 main_v319 (subf : (⟨S5000x128, .f32⟩ : BufTy).Contents (Elt F) → (⟨S5000x128, .f32⟩ : BufTy).Contents (Elt F) → (⟨S5000x128, .f32⟩ : BufTy).Contents (Elt F)),
    binary main_v319 main_v319 main_v320 (mulf : (⟨S5000x128, .f32⟩ : BufTy).Contents (Elt F) → (⟨S5000x128, .f32⟩ : BufTy).Contents (Elt F) → (⟨S5000x128, .f32⟩ : BufTy).Contents (Elt F)),
    nullary main_cst_49 (constant S_ .f32 0x00000000#32),
    binary main_v320 main_cst_49 main_v321 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v321 main_v322 (broadcastInDim S5000x1 ![0] bcast_S5000_S5000x1_0 : (⟨S5000, .f32⟩ : BufTy).Contents (Elt F) → (⟨S5000x1, .f32⟩ : BufTy).Contents (Elt F)),
    nullary main_cst_50 (constant S_ .f32 0x43000000#32),
    unary main_cst_50 main_v323 (broadcastInDim S5000x1 ![] bcast_S_S5000x1 : (⟨S_, .f32⟩ : BufTy).Contents (Elt F) → (⟨S5000x1, .f32⟩ : BufTy).Contents (Elt F)),
    binary main_v322 main_v323 main_v324 (Host.divf : (⟨S5000x1, .f32⟩ : BufTy).Contents (Elt F) → (⟨S5000x1, .f32⟩ : BufTy).Contents (Elt F) → (⟨S5000x1, .f32⟩ : BufTy).Contents (Elt F)),
    unary main_v317 main_v325 (broadcastInDim S5000x128 ![0, 1] bcast_S5000x1_S5000x128_0_1 : (⟨S5000x1, .f32⟩ : BufTy).Contents (Elt F) → (⟨S5000x128, .f32⟩ : BufTy).Contents (Elt F)),
    binary main_v309 main_v325 main_v326 (subf : (⟨S5000x128, .f32⟩ : BufTy).Contents (Elt F) → (⟨S5000x128, .f32⟩ : BufTy).Contents (Elt F) → (⟨S5000x128, .f32⟩ : BufTy).Contents (Elt F)),
    nullary main_cst_51 (constant S_ .f32 0x3727C5AC#32),
    unary main_cst_51 main_v327 (broadcastInDim S5000x1 ![] bcast_S_S5000x1 : (⟨S_, .f32⟩ : BufTy).Contents (Elt F) → (⟨S5000x1, .f32⟩ : BufTy).Contents (Elt F)),
    binary main_v324 main_v327 main_v328 (addf : (⟨S5000x1, .f32⟩ : BufTy).Contents (Elt F) → (⟨S5000x1, .f32⟩ : BufTy).Contents (Elt F) → (⟨S5000x1, .f32⟩ : BufTy).Contents (Elt F)),
    unary main_v328 main_v329 (Host.rsqrt : (⟨S5000x1, .f32⟩ : BufTy).Contents (Elt F) → (⟨S5000x1, .f32⟩ : BufTy).Contents (Elt F)),
    unary main_v329 main_v330 (broadcastInDim S5000x128 ![0, 1] bcast_S5000x1_S5000x128_0_1 : (⟨S5000x1, .f32⟩ : BufTy).Contents (Elt F) → (⟨S5000x128, .f32⟩ : BufTy).Contents (Elt F)),
    binary main_v326 main_v330 main_v331 (mulf : (⟨S5000x128, .f32⟩ : BufTy).Contents (Elt F) → (⟨S5000x128, .f32⟩ : BufTy).Contents (Elt F) → (⟨S5000x128, .f32⟩ : BufTy).Contents (Elt F)),
    unary main_v311 main_v332 (broadcastInDim S1x128 ![1] bcast_S128_S1x128_1 : (⟨S128, .f32⟩ : BufTy).Contents (Elt F) → (⟨S1x128, .f32⟩ : BufTy).Contents (Elt F)),
    unary main_v332 main_v333 (broadcastInDim S5000x128 ![0, 1] bcast_S1x128_S5000x128_0_1 : (⟨S1x128, .f32⟩ : BufTy).Contents (Elt F) → (⟨S5000x128, .f32⟩ : BufTy).Contents (Elt F)),
    binary main_v331 main_v333 main_v334 (mulf : (⟨S5000x128, .f32⟩ : BufTy).Contents (Elt F) → (⟨S5000x128, .f32⟩ : BufTy).Contents (Elt F) → (⟨S5000x128, .f32⟩ : BufTy).Contents (Elt F)),
    unary main_v313 main_v335 (broadcastInDim S1x128 ![1] bcast_S128_S1x128_1 : (⟨S128, .f32⟩ : BufTy).Contents (Elt F) → (⟨S1x128, .f32⟩ : BufTy).Contents (Elt F)),
    unary main_v335 main_v336 (broadcastInDim S5000x128 ![0, 1] bcast_S1x128_S5000x128_0_1 : (⟨S1x128, .f32⟩ : BufTy).Contents (Elt F) → (⟨S5000x128, .f32⟩ : BufTy).Contents (Elt F)),
    binary main_v334 main_v336 main_v337 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S5000x128, .f32⟩) main_call2_v0) (broadcastInDim S5000x128 ![] bcast_S_S5000x128),
    TRef.binary (TRef.of (T := ⟨S5000x128, .f32⟩) main_v337) (TRef.of (T := ⟨S5000x128, .f32⟩) main_call2_v0) (TRef.of (T := ⟨S5000x128, .f32⟩) main_v338) maximumf ]

theorem opsA2b_sub : (opsA2b : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsA2b_fresh : ∀ op ∈ (opsA2b : List (HloOp τ sig (Elt F))), op.fresh = ∅ := by
  intro _ h; (repeat (cases h with | head => rfl | tail _ h => ?_)); exact nomatch h

end Cert.ReferenceIdeal.ValueP

end
-- ==== Proof.RefOpsA2.lean ====
/-
  Chunk A2 of the reference program's operations: its parts in order.
-/
import proofs.«172654_j31121333027532_2_alg».proof.Proof.RefOpsA2a
import proofs.«172654_j31121333027532_2_alg».proof.Proof.RefOpsA2b

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsA2 : List (HloOp τ sig (Elt F)) := opsA2a ++ (opsA2b)

theorem opsA2_sub : (opsA2 : List (HloOp τ sig (Elt F))).Forall fun op => op.bufs ⊆ tcRefs τ sig :=
  List.forall_iff_forall_mem.mpr fun op h => by
    rcases List.mem_append.mp h with h | h
    · exact List.forall_iff_forall_mem.mp opsA2a_sub op h
    · exact List.forall_iff_forall_mem.mp opsA2b_sub op h

theorem opsA2_fresh : ∀ op ∈ (opsA2 : List (HloOp τ sig (Elt F))), op.fresh = ∅ := fun op h => by
    rcases List.mem_append.mp h with h | h
    · exact opsA2a_fresh op h
    · exact opsA2b_fresh op h

end Cert.ReferenceIdeal.ValueP

end
-- ==== Proof.RefOpsB1a.lean ====
/-
  Operations 400 to 487 of the reference program's 783, in order, as the generated list spells them (part of chunk B1); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB1a : List (HloOp τ sig (Elt F)) :=
  [
    unary main_arg15 main_v339 ((extractStridedSlice S1x6x128x128 ![1, 0, 0, 0] · slices_S2x6x128x128_S1x6x128x128_1_0_0_0) : (⟨S2x6x128x128, .f32⟩ : BufTy).Contents (Elt F) → (⟨S1x6x128x128, .f32⟩ : BufTy).Contents (Elt F)),
    reshape main_v339 main_v340 rfl shapeCasts_S1x6x128x128_S6x128x128,
    unary main_arg16 main_v341 ((extractStridedSlice S1x6x128 ![1, 0, 0] · slices_S2x6x128_S1x6x128_1_0_0) : (⟨S2x6x128, .f32⟩ : BufTy).Contents (Elt F) → (⟨S1x6x128, .f32⟩ : BufTy).Contents (Elt F)),
    reshape main_v341 main_v342 rfl shapeCasts_S1x6x128_S6x128,
    unary main_arg17 main_v343 ((extractStridedSlice S1x6x128x128 ![1, 0, 0, 0] · slices_S2x6x128x128_S1x6x128x128_1_0_0_0) : (⟨S2x6x128x128, .f32⟩ : BufTy).Contents (Elt F) → (⟨S1x6x128x128, .f32⟩ : BufTy).Contents (Elt F)),
    reshape main_v343 main_v344 rfl shapeCasts_S1x6x128x128_S6x128x128,
    unary main_v340 main_v345 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v345 main_v346 rfl shapeCasts_S1x128x128_S128x128,
    unary main_v342 main_v347 ((extractStridedSlice S1x128 ![0, 0] · slices_S6x128_S1x128_0_0) : (⟨S6x128, .f32⟩ : BufTy).Contents (Elt F) → (⟨S1x128, .f32⟩ : BufTy).Contents (Elt F)),
    reshape main_v347 main_v348 rfl shapeCasts_S1x128_S128,
    unary main_v344 main_v349 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v349 main_v350 rfl shapeCasts_S1x128x128_S128x128,
    unary main_arg3 main_v351 ((extractStridedSlice S1x500000 ![0, 0] · slices_S2x500000_S1x500000_0_0) : (⟨S2x500000, .i32⟩ : BufTy).Contents (Elt F) → (⟨S1x500000, .i32⟩ : BufTy).Contents (Elt F)),
    reshape main_v351 main_v352 rfl shapeCasts_S1x500000_S500000,
    unary main_arg3 main_v353 ((extractStridedSlice S1x500000 ![1, 0] · slices_S2x500000_S1x500000_1_0) : (⟨S2x500000, .i32⟩ : BufTy).Contents (Elt F) → (⟨S1x500000, .i32⟩ : BufTy).Contents (Elt F)),
    reshape main_v353 main_v354 rfl shapeCasts_S1x500000_S500000,
    nullary main_c_52 (constantI S_ 32 0#32),
    unary main_c_52 main_v355 (broadcastInDim S500000 ![] bcast_S_S500000 : (⟨S_, .i32⟩ : BufTy).Contents (Elt F) → (⟨S500000, .i32⟩ : BufTy).Contents (Elt F)),
    binary main_v352 main_v355 main_v356 (cmpi .slt : (⟨S500000, .i32⟩ : BufTy).Contents (Elt F) → (⟨S500000, .i32⟩ : BufTy).Contents (Elt F) → (⟨S500000, .i1⟩ : BufTy).Contents (Elt F)),
    nullary main_c_53 (constantI S_ 32 100000#32),
    unary main_c_53 main_v357 (broadcastInDim S500000 ![] bcast_S_S500000 : (⟨S_, .i32⟩ : BufTy).Contents (Elt F) → (⟨S500000, .i32⟩ : BufTy).Contents (Elt F)),
    binary main_v352 main_v357 main_v358 (addi : (⟨S500000, .i32⟩ : BufTy).Contents (Elt F) → (⟨S500000, .i32⟩ : BufTy).Contents (Elt F) → (⟨S500000, .i32⟩ : BufTy).Contents (Elt F)),
    ternary main_v356 main_v358 main_v352 main_v359 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v359 main_v360 (broadcastInDim S500000x1 ![0] bcast_S500000_S500000x1_0 : (⟨S500000, .i32⟩ : BufTy).Contents (Elt F) → (⟨S500000x1, .i32⟩ : BufTy).Contents (Elt F)),
    binary main_v274 main_v360 main_v361 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_54 (constant S_ .f32 0x00000000#32),
    unary main_cst_54 main_v362 (broadcastInDim S50000x128 ![] bcast_S_S50000x128 : (⟨S_, .f32⟩ : BufTy).Contents (Elt F) → (⟨S50000x128, .f32⟩ : BufTy).Contents (Elt F)),
    unary main_v354 main_v363 (broadcastInDim S500000x1 ![0] bcast_S500000_S500000x1_0 : (⟨S500000, .i32⟩ : BufTy).Contents (Elt F) → (⟨S500000x1, .i32⟩ : BufTy).Contents (Elt F)),
    ternary main_v362 main_v363 main_v361 main_v364 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_55 (constant S_ .f32 0x3F800000#32),
    unary main_cst_55 main_v365 (broadcastInDim S500000 ![] bcast_S_S500000 : (⟨S_, .f32⟩ : BufTy).Contents (Elt F) → (⟨S500000, .f32⟩ : BufTy).Contents (Elt F)),
    nullary main_cst_56 (constant S_ .f32 0x00000000#32),
    unary main_cst_56 main_v366 (broadcastInDim S50000 ![] bcast_S_S50000 : (⟨S_, .f32⟩ : BufTy).Contents (Elt F) → (⟨S50000, .f32⟩ : BufTy).Contents (Elt F)),
    unary main_v354 main_v367 (broadcastInDim S500000x1 ![0] bcast_S500000_S500000x1_0 : (⟨S500000, .i32⟩ : BufTy).Contents (Elt F) → (⟨S500000x1, .i32⟩ : BufTy).Contents (Elt F)),
    ternary main_v366 main_v367 main_v365 main_v368 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_57 (constant S_ .f32 0x3F800000#32),
    unary main_cst_57 main_v369 (broadcastInDim S50000 ![] bcast_S_S50000 : (⟨S_, .f32⟩ : BufTy).Contents (Elt F) → (⟨S50000, .f32⟩ : BufTy).Contents (Elt F)),
    binary main_v368 main_v369 main_v370 (maximumf : (⟨S50000, .f32⟩ : BufTy).Contents (Elt F) → (⟨S50000, .f32⟩ : BufTy).Contents (Elt F) → (⟨S50000, .f32⟩ : BufTy).Contents (Elt F)),
    unary main_v370 main_v371 (broadcastInDim S50000x1 ![0] bcast_S50000_S50000x1_0 : (⟨S50000, .f32⟩ : BufTy).Contents (Elt F) → (⟨S50000x1, .f32⟩ : BufTy).Contents (Elt F)),
    unary main_v371 main_v372 (broadcastInDim S50000x128 ![0, 1] bcast_S50000x1_S50000x128_0_1 : (⟨S50000x1, .f32⟩ : BufTy).Contents (Elt F) → (⟨S50000x128, .f32⟩ : BufTy).Contents (Elt F)),
    binary main_v364 main_v372 main_v373 (Host.divf : (⟨S50000x128, .f32⟩ : BufTy).Contents (Elt F) → (⟨S50000x128, .f32⟩ : BufTy).Contents (Elt F) → (⟨S50000x128, .f32⟩ : BufTy).Contents (Elt F)),
    unary main_v346 main_v374 ((transpose S128x128 [1, 0] · transposes_S128x128_S128x128_1_0) : (⟨S128x128, .f32⟩ : BufTy).Contents (Elt F) → (⟨S128x128, .f32⟩ : BufTy).Contents (Elt F)),
    binary main_v373 main_v374 main_v375 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v348 main_v376 (broadcastInDim S1x128 ![1] bcast_S128_S1x128_1 : (⟨S128, .f32⟩ : BufTy).Contents (Elt F) → (⟨S1x128, .f32⟩ : BufTy).Contents (Elt F)),
    unary main_v376 main_v377 (broadcastInDim S50000x128 ![0, 1] bcast_S1x128_S50000x128_0_1 : (⟨S1x128, .f32⟩ : BufTy).Contents (Elt F) → (⟨S50000x128, .f32⟩ : BufTy).Contents (Elt F)),
    binary main_v375 main_v377 main_v378 (addf : (⟨S50000x128, .f32⟩ : BufTy).Contents (Elt F) → (⟨S50000x128, .f32⟩ : BufTy).Contents (Elt F) → (⟨S50000x128, .f32⟩ : BufTy).Contents (Elt F)),
    unary main_v350 main_v379 ((transpose S128x128 [1, 0] · transposes_S128x128_S128x128_1_0) : (⟨S128x128, .f32⟩ : BufTy).Contents (Elt F) → (⟨S128x128, .f32⟩ : BufTy).Contents (Elt F)),
    binary main_v306 main_v379 main_v380 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v378 main_v380 main_v381 (addf : (⟨S50000x128, .f32⟩ : BufTy).Contents (Elt F) → (⟨S50000x128, .f32⟩ : BufTy).Contents (Elt F) → (⟨S50000x128, .f32⟩ : BufTy).Contents (Elt F)),
    unary main_v340 main_v382 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v382 main_v383 rfl shapeCasts_S1x128x128_S128x128,
    unary main_v342 main_v384 ((extractStridedSlice S1x128 ![1, 0] · slices_S6x128_S1x128_1_0) : (⟨S6x128, .f32⟩ : BufTy).Contents (Elt F) → (⟨S1x128, .f32⟩ : BufTy).Contents (Elt F)),
    reshape main_v384 main_v385 rfl shapeCasts_S1x128_S128,
    unary main_v344 main_v386 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v386 main_v387 rfl shapeCasts_S1x128x128_S128x128,
    unary main_arg4 main_v388 ((extractStridedSlice S1x500000 ![0, 0] · slices_S2x500000_S1x500000_0_0) : (⟨S2x500000, .i32⟩ : BufTy).Contents (Elt F) → (⟨S1x500000, .i32⟩ : BufTy).Contents (Elt F)),
    reshape main_v388 main_v389 rfl shapeCasts_S1x500000_S500000,
    unary main_arg4 main_v390 ((extractStridedSlice S1x500000 ![1, 0] · slices_S2x500000_S1x500000_1_0) : (⟨S2x500000, .i32⟩ : BufTy).Contents (Elt F) → (⟨S1x500000, .i32⟩ : BufTy).Contents (Elt F)),
    reshape main_v390 main_v391 rfl shapeCasts_S1x500000_S500000,
    nullary main_c_58 (constantI S_ 32 0#32),
    unary main_c_58 main_v392 (broadcastInDim S500000 ![] bcast_S_S500000 : (⟨S_, .i32⟩ : BufTy).Contents (Elt F) → (⟨S500000, .i32⟩ : BufTy).Contents (Elt F)),
    binary main_v389 main_v392 main_v393 (cmpi .slt : (⟨S500000, .i32⟩ : BufTy).Contents (Elt F) → (⟨S500000, .i32⟩ : BufTy).Contents (Elt F) → (⟨S500000, .i1⟩ : BufTy).Contents (Elt F)),
    nullary main_c_59 (constantI S_ 32 50000#32),
    unary main_c_59 main_v394 (broadcastInDim S500000 ![] bcast_S_S500000 : (⟨S_, .i32⟩ : BufTy).Contents (Elt F) → (⟨S500000, .i32⟩ : BufTy).Contents (Elt F)),
    binary main_v389 main_v394 main_v395 (addi : (⟨S500000, .i32⟩ : BufTy).Contents (Elt F) → (⟨S500000, .i32⟩ : BufTy).Contents (Elt F) → (⟨S500000, .i32⟩ : BufTy).Contents (Elt F)),
    ternary main_v393 main_v395 main_v389 main_v396 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v396 main_v397 (broadcastInDim S500000x1 ![0] bcast_S500000_S500000x1_0 : (⟨S500000, .i32⟩ : BufTy).Contents (Elt F) → (⟨S500000x1, .i32⟩ : BufTy).Contents (Elt F)),
    binary main_v306 main_v397 main_v398 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_60 (constant S_ .f32 0x00000000#32),
    unary main_cst_60 main_v399 (broadcastInDim S100000x128 ![] bcast_S_S100000x128 : (⟨S_, .f32⟩ : BufTy).Contents (Elt F) → (⟨S100000x128, .f32⟩ : BufTy).Contents (Elt F)),
    unary main_v391 main_v400 (broadcastInDim S500000x1 ![0] bcast_S500000_S500000x1_0 : (⟨S500000, .i32⟩ : BufTy).Contents (Elt F) → (⟨S500000x1, .i32⟩ : BufTy).Contents (Elt F)),
    ternary main_v399 main_v400 main_v398 main_v401 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_61 (constant S_ .f32 0x3F800000#32),
    unary main_cst_61 main_v402 (broadcastInDim S500000 ![] bcast_S_S500000 : (⟨S_, .f32⟩ : BufTy).Contents (Elt F) → (⟨S500000, .f32⟩ : BufTy).Contents (Elt F)),
    nullary main_cst_62 (constant S_ .f32 0x00000000#32),
    unary main_cst_62 main_v403 (broadcastInDim S100000 ![] bcast_S_S100000 : (⟨S_, .f32⟩ : BufTy).Contents (Elt F) → (⟨S100000, .f32⟩ : BufTy).Contents (Elt F)),
    unary main_v391 main_v404 (broadcastInDim S500000x1 ![0] bcast_S500000_S500000x1_0 : (⟨S500000, .i32⟩ : BufTy).Contents (Elt F) → (⟨S500000x1, .i32⟩ : BufTy).Contents (Elt F)),
    ternary main_v403 main_v404 main_v402 main_v405 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_63 (constant S_ .f32 0x3F800000#32),
    unary main_cst_63 main_v406 (broadcastInDim S100000 ![] bcast_S_S100000 : (⟨S_, .f32⟩ : BufTy).Contents (Elt F) → (⟨S100000, .f32⟩ : BufTy).Contents (Elt F)),
    binary main_v405 main_v406 main_v407 (maximumf : (⟨S100000, .f32⟩ : BufTy).Contents (Elt F) → (⟨S100000, .f32⟩ : BufTy).Contents (Elt F) → (⟨S100000, .f32⟩ : BufTy).Contents (Elt F)),
    unary main_v407 main_v408 (broadcastInDim S100000x1 ![0] bcast_S100000_S100000x1_0 : (⟨S100000, .f32⟩ : BufTy).Contents (Elt F) → (⟨S100000x1, .f32⟩ : BufTy).Contents (Elt F)),
    unary main_v408 main_v409 (broadcastInDim S100000x128 ![0, 1] bcast_S100000x1_S100000x128_0_1 : (⟨S100000x1, .f32⟩ : BufTy).Contents (Elt F) → (⟨S100000x128, .f32⟩ : BufTy).Contents (Elt F)),
    binary main_v401 main_v409 main_v410 (Host.divf : (⟨S100000x128, .f32⟩ : BufTy).Contents (Elt F) → (⟨S100000x128, .f32⟩ : BufTy).Contents (Elt F) → (⟨S100000x128, .f32⟩ : BufTy).Contents (Elt F)),
    unary main_v383 main_v411 ((transpose S128x128 [1, 0] · transposes_S128x128_S128x128_1_0) : (⟨S128x128, .f32⟩ : BufTy).Contents (Elt F) → (⟨S128x128, .f32⟩ : BufTy).Contents (Elt F)),
    binary main_v410 main_v411 main_v412 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v385 main_v413 (broadcastInDim S1x128 ![1] bcast_S128_S1x128_1 : (⟨S128, .f32⟩ : BufTy).Contents (Elt F) → (⟨S1x128, .f32⟩ : BufTy).Contents (Elt F)),
    unary main_v413 main_v414 (broadcastInDim S100000x128 ![0, 1] bcast_S1x128_S100000x128_0_1 : (⟨S1x128, .f32⟩ : BufTy).Contents (Elt F) → (⟨S100000x128, .f32⟩ : BufTy).Contents (Elt F)) ]

theorem opsB1a_sub : (opsB1a : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub ..⟩

theorem opsB1a_fresh : ∀ op ∈ (opsB1a : List (HloOp τ sig (Elt F))), op.fresh = ∅ := by
  intro _ h; (repeat (cases h with | head => rfl | tail _ h => ?_)); exact nomatch h

end Cert.ReferenceIdeal.ValueP

end
-- ==== Proof.RefOpsB1b.lean ====
/-
  Operations 488 to 575 of the reference program's 783, in order, as the generated list spells them (part of chunk B1); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB1b : List (HloOp τ sig (Elt F)) :=
  [
    binary main_v412 main_v414 main_v415 (addf : (⟨S100000x128, .f32⟩ : BufTy).Contents (Elt F) → (⟨S100000x128, .f32⟩ : BufTy).Contents (Elt F) → (⟨S100000x128, .f32⟩ : BufTy).Contents (Elt F)),
    unary main_v387 main_v416 ((transpose S128x128 [1, 0] · transposes_S128x128_S128x128_1_0) : (⟨S128x128, .f32⟩ : BufTy).Contents (Elt F) → (⟨S128x128, .f32⟩ : BufTy).Contents (Elt F)),
    binary main_v274 main_v416 main_v417 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v415 main_v417 main_v418 (addf : (⟨S100000x128, .f32⟩ : BufTy).Contents (Elt F) → (⟨S100000x128, .f32⟩ : BufTy).Contents (Elt F) → (⟨S100000x128, .f32⟩ : BufTy).Contents (Elt F)),
    unary main_v340 main_v419 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v419 main_v420 rfl shapeCasts_S1x128x128_S128x128,
    unary main_v342 main_v421 ((extractStridedSlice S1x128 ![2, 0] · slices_S6x128_S1x128_2_0) : (⟨S6x128, .f32⟩ : BufTy).Contents (Elt F) → (⟨S1x128, .f32⟩ : BufTy).Contents (Elt F)),
    reshape main_v421 main_v422 rfl shapeCasts_S1x128_S128,
    unary main_v344 main_v423 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v423 main_v424 rfl shapeCasts_S1x128x128_S128x128,
    unary main_arg5 main_v425 ((extractStridedSlice S1x300000 ![0, 0] · slices_S2x300000_S1x300000_0_0) : (⟨S2x300000, .i32⟩ : BufTy).Contents (Elt F) → (⟨S1x300000, .i32⟩ : BufTy).Contents (Elt F)),
    reshape main_v425 main_v426 rfl shapeCasts_S1x300000_S300000,
    unary main_arg5 main_v427 ((extractStridedSlice S1x300000 ![1, 0] · slices_S2x300000_S1x300000_1_0) : (⟨S2x300000, .i32⟩ : BufTy).Contents (Elt F) → (⟨S1x300000, .i32⟩ : BufTy).Contents (Elt F)),
    reshape main_v427 main_v428 rfl shapeCasts_S1x300000_S300000,
    nullary main_c_64 (constantI S_ 32 0#32),
    unary main_c_64 main_v429 (broadcastInDim S300000 ![] bcast_S_S300000 : (⟨S_, .i32⟩ : BufTy).Contents (Elt F) → (⟨S300000, .i32⟩ : BufTy).Contents (Elt F)),
    binary main_v426 main_v429 main_v430 (cmpi .slt : (⟨S300000, .i32⟩ : BufTy).Contents (Elt F) → (⟨S300000, .i32⟩ : BufTy).Contents (Elt F) → (⟨S300000, .i1⟩ : BufTy).Contents (Elt F)),
    nullary main_c_65 (constantI S_ 32 100000#32),
    unary main_c_65 main_v431 (broadcastInDim S300000 ![] bcast_S_S300000 : (⟨S_, .i32⟩ : BufTy).Contents (Elt F) → (⟨S300000, .i32⟩ : BufTy).Contents (Elt F)),
    binary main_v426 main_v431 main_v432 (addi : (⟨S300000, .i32⟩ : BufTy).Contents (Elt F) → (⟨S300000, .i32⟩ : BufTy).Contents (Elt F) → (⟨S300000, .i32⟩ : BufTy).Contents (Elt F)),
    ternary main_v430 main_v432 main_v426 main_v433 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v433 main_v434 (broadcastInDim S300000x1 ![0] bcast_S300000_S300000x1_0 : (⟨S300000, .i32⟩ : BufTy).Contents (Elt F) → (⟨S300000x1, .i32⟩ : BufTy).Contents (Elt F)),
    binary main_v274 main_v434 main_v435 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nullary main_cst_66 (constant S_ .f32 0x00000000#32),
    unary main_cst_66 main_v436 (broadcastInDim S5000x128 ![] bcast_S_S5000x128 : (⟨S_, .f32⟩ : BufTy).Contents (Elt F) → (⟨S5000x128, .f32⟩ : BufTy).Contents (Elt F)),
    unary main_v428 main_v437 (broadcastInDim S300000x1 ![0] bcast_S300000_S300000x1_0 : (⟨S300000, .i32⟩ : BufTy).Contents (Elt F) → (⟨S300000x1, .i32⟩ : BufTy).Contents (Elt F)),
    ternary main_v436 main_v437 main_v435 main_v438 ((fun x i u => Host.scatterAdd scatter_S5000x128_S300000x1_S300000x128_1_0_0_1 x i u) : (⟨S5000x128, .f32⟩ : BufTy).Contents (Elt F) → (⟨S300000x1, .i32⟩ : BufTy).Contents (Elt F) → (⟨S300000x128, .f32⟩ : BufTy).Contents (Elt F) → (⟨S5000x128, .f32⟩ : BufTy).Contents (Elt F)),
    nullary main_cst_67 (constant S_ .f32 0x3F800000#32),
    unary main_cst_67 main_v439 (broadcastInDim S300000 ![] bcast_S_S300000 : (⟨S_, .f32⟩ : BufTy).Contents (Elt F) → (⟨S300000, .f32⟩ : BufTy).Contents (Elt F)),
    nullary main_cst_68 (constant S_ .f32 0x00000000#32),
    unary main_cst_68 main_v440 (broadcastInDim S5000 ![] bcast_S_S5000 : (⟨S_, .f32⟩ : BufTy).Contents (Elt F) → (⟨S5000, .f32⟩ : BufTy).Contents (Elt F)),
    unary main_v428 main_v441 (broadcastInDim S300000x1 ![0] bcast_S300000_S300000x1_0 : (⟨S300000, .i32⟩ : BufTy).Contents (Elt F) → (⟨S300000x1, .i32⟩ : BufTy).Contents (Elt F)),
    ternary main_v440 main_v441 main_v439 main_v442 ((fun x i u => Host.scatterAdd scatter_S5000_S300000x1_S300000_n_0_0_1 x i u) : (⟨S5000, .f32⟩ : BufTy).Contents (Elt F) → (⟨S300000x1, .i32⟩ : BufTy).Contents (Elt F) → (⟨S300000, .f32⟩ : BufTy).Contents (Elt F) → (⟨S5000, .f32⟩ : BufTy).Contents (Elt F)),
    nullary main_cst_69 (constant S_ .f32 0x3F800000#32),
    unary main_cst_69 main_v443 (broadcastInDim S5000 ![] bcast_S_S5000 : (⟨S_, .f32⟩ : BufTy).Contents (Elt F) → (⟨S5000, .f32⟩ : BufTy).Contents (Elt F)),
    binary main_v442 main_v443 main_v444 (maximumf : (⟨S5000, .f32⟩ : BufTy).Contents (Elt F) → (⟨S5000, .f32⟩ : BufTy).Contents (Elt F) → (⟨S5000, .f32⟩ : BufTy).Contents (Elt F)),
    unary main_v444 main_v445 (broadcastInDim S5000x1 ![0] bcast_S5000_S5000x1_0 : (⟨S5000, .f32⟩ : BufTy).Contents (Elt F) → (⟨S5000x1, .f32⟩ : BufTy).Contents (Elt F)),
    unary main_v445 main_v446 (broadcastInDim S5000x128 ![0, 1] bcast_S5000x1_S5000x128_0_1 : (⟨S5000x1, .f32⟩ : BufTy).Contents (Elt F) → (⟨S5000x128, .f32⟩ : BufTy).Contents (Elt F)),
    binary main_v438 main_v446 main_v447 (Host.divf : (⟨S5000x128, .f32⟩ : BufTy).Contents (Elt F) → (⟨S5000x128, .f32⟩ : BufTy).Contents (Elt F) → (⟨S5000x128, .f32⟩ : BufTy).Contents (Elt F)),
    unary main_v420 main_v448 ((transpose S128x128 [1, 0] · transposes_S128x128_S128x128_1_0) : (⟨S128x128, .f32⟩ : BufTy).Contents (Elt F) → (⟨S128x128, .f32⟩ : BufTy).Contents (Elt F)),
    binary main_v447 main_v448 main_v449 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v422 main_v450 (broadcastInDim S1x128 ![1] bcast_S128_S1x128_1 : (⟨S128, .f32⟩ : BufTy).Contents (Elt F) → (⟨S1x128, .f32⟩ : BufTy).Contents (Elt F)),
    unary main_v450 main_v451 (broadcastInDim S5000x128 ![0, 1] bcast_S1x128_S5000x128_0_1 : (⟨S1x128, .f32⟩ : BufTy).Contents (Elt F) → (⟨S5000x128, .f32⟩ : BufTy).Contents (Elt F)),
    binary main_v449 main_v451 main_v452 (addf : (⟨S5000x128, .f32⟩ : BufTy).Contents (Elt F) → (⟨S5000x128, .f32⟩ : BufTy).Contents (Elt F) → (⟨S5000x128, .f32⟩ : BufTy).Contents (Elt F)),
    unary main_v424 main_v453 ((transpose S128x128 [1, 0] · transposes_S128x128_S128x128_1_0) : (⟨S128x128, .f32⟩ : BufTy).Contents (Elt F) → (⟨S128x128, .f32⟩ : BufTy).Contents (Elt F)),
    binary main_v338 main_v453 main_v454 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v452 main_v454 main_v455 (addf : (⟨S5000x128, .f32⟩ : BufTy).Contents (Elt F) → (⟨S5000x128, .f32⟩ : BufTy).Contents (Elt F) → (⟨S5000x128, .f32⟩ : BufTy).Contents (Elt F)),
    unary main_v340 main_v456 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v456 main_v457 rfl shapeCasts_S1x128x128_S128x128,
    unary main_v342 main_v458 ((extractStridedSlice S1x128 ![3, 0] · slices_S6x128_S1x128_3_0) : (⟨S6x128, .f32⟩ : BufTy).Contents (Elt F) → (⟨S1x128, .f32⟩ : BufTy).Contents (Elt F)),
    reshape main_v458 main_v459 rfl shapeCasts_S1x128_S128,
    unary main_v344 main_v460 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v460 main_v461 rfl shapeCasts_S1x128x128_S128x128,
    unary main_arg6 main_v462 ((extractStridedSlice S1x300000 ![0, 0] · slices_S2x300000_S1x300000_0_0) : (⟨S2x300000, .i32⟩ : BufTy).Contents (Elt F) → (⟨S1x300000, .i32⟩ : BufTy).Contents (Elt F)),
    reshape main_v462 main_v463 rfl shapeCasts_S1x300000_S300000,
    unary main_arg6 main_v464 ((extractStridedSlice S1x300000 ![1, 0] · slices_S2x300000_S1x300000_1_0) : (⟨S2x300000, .i32⟩ : BufTy).Contents (Elt F) → (⟨S1x300000, .i32⟩ : BufTy).Contents (Elt F)),
    reshape main_v464 main_v465 rfl shapeCasts_S1x300000_S300000,
    nullary main_c_70 (constantI S_ 32 0#32),
    unary main_c_70 main_v466 (broadcastInDim S300000 ![] bcast_S_S300000 : (⟨S_, .i32⟩ : BufTy).Contents (Elt F) → (⟨S300000, .i32⟩ : BufTy).Contents (Elt F)),
    binary main_v463 main_v466 main_v467 (cmpi .slt : (⟨S300000, .i32⟩ : BufTy).Contents (Elt F) → (⟨S300000, .i32⟩ : BufTy).Contents (Elt F) → (⟨S300000, .i1⟩ : BufTy).Contents (Elt F)),
    nullary main_c_71 (constantI S_ 32 5000#32),
    unary main_c_71 main_v468 (broadcastInDim S300000 ![] bcast_S_S300000 : (⟨S_, .i32⟩ : BufTy).Contents (Elt F) → (⟨S300000, .i32⟩ : BufTy).Contents (Elt F)),
    binary main_v463 main_v468 main_v469 (addi : (⟨S300000, .i32⟩ : BufTy).Contents (Elt F) → (⟨S300000, .i32⟩ : BufTy).Contents (Elt F) → (⟨S300000, .i32⟩ : BufTy).Contents (Elt F)),
    ternary main_v467 main_v469 main_v463 main_v470 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v470 main_v471 (broadcastInDim S300000x1 ![0] bcast_S300000_S300000x1_0 : (⟨S300000, .i32⟩ : BufTy).Contents (Elt F) → (⟨S300000x1, .i32⟩ : BufTy).Contents (Elt F)),
    binary main_v338 main_v471 main_v472 ((fun x i => Host.gather gather_S5000x128_S300000x1_S300000x128_1_0_n_n_0_1_1128 x i) : (⟨S5000x128, .f32⟩ : BufTy).Contents (Elt F) → (⟨S300000x1, .i32⟩ : BufTy).Contents (Elt F) → (⟨S300000x128, .f32⟩ : BufTy).Contents (Elt F)),
    nullary main_cst_72 (constant S_ .f32 0x00000000#32),
    unary main_cst_72 main_v473 (broadcastInDim S100000x128 ![] bcast_S_S100000x128 : (⟨S_, .f32⟩ : BufTy).Contents (Elt F) → (⟨S100000x128, .f32⟩ : BufTy).Contents (Elt F)),
    unary main_v465 main_v474 (broadcastInDim S300000x1 ![0] bcast_S300000_S300000x1_0 : (⟨S300000, .i32⟩ : BufTy).Contents (Elt F) → (⟨S300000x1, .i32⟩ : BufTy).Contents (Elt F)),
    ternary main_v473 main_v474 main_v472 main_v475 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    nullary main_cst_73 (constant S_ .f32 0x3F800000#32),
    unary main_cst_73 main_v476 (broadcastInDim S300000 ![] bcast_S_S300000 : (⟨S_, .f32⟩ : BufTy).Contents (Elt F) → (⟨S300000, .f32⟩ : BufTy).Contents (Elt F)),
    nullary main_cst_74 (constant S_ .f32 0x00000000#32),
    unary main_cst_74 main_v477 (broadcastInDim S100000 ![] bcast_S_S100000 : (⟨S_, .f32⟩ : BufTy).Contents (Elt F) → (⟨S100000, .f32⟩ : BufTy).Contents (Elt F)),
    unary main_v465 main_v478 (broadcastInDim S300000x1 ![0] bcast_S300000_S300000x1_0 : (⟨S300000, .i32⟩ : BufTy).Contents (Elt F) → (⟨S300000x1, .i32⟩ : BufTy).Contents (Elt F)),
    ternary main_v477 main_v478 main_v476 main_v479 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    nullary main_cst_75 (constant S_ .f32 0x3F800000#32),
    unary main_cst_75 main_v480 (broadcastInDim S100000 ![] bcast_S_S100000 : (⟨S_, .f32⟩ : BufTy).Contents (Elt F) → (⟨S100000, .f32⟩ : BufTy).Contents (Elt F)),
    binary main_v479 main_v480 main_v481 (maximumf : (⟨S100000, .f32⟩ : BufTy).Contents (Elt F) → (⟨S100000, .f32⟩ : BufTy).Contents (Elt F) → (⟨S100000, .f32⟩ : BufTy).Contents (Elt F)),
    unary main_v481 main_v482 (broadcastInDim S100000x1 ![0] bcast_S100000_S100000x1_0 : (⟨S100000, .f32⟩ : BufTy).Contents (Elt F) → (⟨S100000x1, .f32⟩ : BufTy).Contents (Elt F)),
    unary main_v482 main_v483 (broadcastInDim S100000x128 ![0, 1] bcast_S100000x1_S100000x128_0_1 : (⟨S100000x1, .f32⟩ : BufTy).Contents (Elt F) → (⟨S100000x128, .f32⟩ : BufTy).Contents (Elt F)),
    binary main_v475 main_v483 main_v484 (Host.divf : (⟨S100000x128, .f32⟩ : BufTy).Contents (Elt F) → (⟨S100000x128, .f32⟩ : BufTy).Contents (Elt F) → (⟨S100000x128, .f32⟩ : BufTy).Contents (Elt F)),
    unary main_v457 main_v485 ((transpose S128x128 [1, 0] · transposes_S128x128_S128x128_1_0) : (⟨S128x128, .f32⟩ : BufTy).Contents (Elt F) → (⟨S128x128, .f32⟩ : BufTy).Contents (Elt F)),
    binary main_v484 main_v485 main_v486 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v459 main_v487 (broadcastInDim S1x128 ![1] bcast_S128_S1x128_1 : (⟨S128, .f32⟩ : BufTy).Contents (Elt F) → (⟨S1x128, .f32⟩ : BufTy).Contents (Elt F)),
    unary main_v487 main_v488 (broadcastInDim S100000x128 ![0, 1] bcast_S1x128_S100000x128_0_1 : (⟨S1x128, .f32⟩ : BufTy).Contents (Elt F) → (⟨S100000x128, .f32⟩ : BufTy).Contents (Elt F)),
    binary main_v486 main_v488 main_v489 (addf : (⟨S100000x128, .f32⟩ : BufTy).Contents (Elt F) → (⟨S100000x128, .f32⟩ : BufTy).Contents (Elt F) → (⟨S100000x128, .f32⟩ : BufTy).Contents (Elt F)),
    unary main_v461 main_v490 ((transpose S128x128 [1, 0] · transposes_S128x128_S128x128_1_0) : (⟨S128x128, .f32⟩ : BufTy).Contents (Elt F) → (⟨S128x128, .f32⟩ : BufTy).Contents (Elt F)) ]

theorem opsB1b_sub : (opsB1b : List (HloOp τ sig (Elt F))).Forall fun op => op.bufs ⊆ tcRefs τ sig :=
  ⟨binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem opsB1b_fresh : ∀ op ∈ (opsB1b : List (HloOp τ sig (Elt F))), op.fresh = ∅ := by
  intro _ h; (repeat (cases h with | head => rfl | tail _ h => ?_)); exact nomatch h

end Cert.ReferenceIdeal.ValueP

end
-- ==== Proof.RefOpsB1c.lean ====
/-
  Operations 576 to 663 of the reference program's 783, in order, as the generated list spells them (part of chunk B1); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB1c : List (HloOp τ sig (Elt F)) :=
  [
    binary main_v274 main_v490 main_v491 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v489 main_v491 main_v492 (addf : (⟨S100000x128, .f32⟩ : BufTy).Contents (Elt F) → (⟨S100000x128, .f32⟩ : BufTy).Contents (Elt F) → (⟨S100000x128, .f32⟩ : BufTy).Contents (Elt F)),
    unary main_v340 main_v493 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v493 main_v494 rfl shapeCasts_S1x128x128_S128x128,
    unary main_v342 main_v495 ((extractStridedSlice S1x128 ![4, 0] · slices_S6x128_S1x128_4_0) : (⟨S6x128, .f32⟩ : BufTy).Contents (Elt F) → (⟨S1x128, .f32⟩ : BufTy).Contents (Elt F)),
    reshape main_v495 main_v496 rfl shapeCasts_S1x128_S128,
    unary main_v344 main_v497 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v497 main_v498 rfl shapeCasts_S1x128x128_S128x128,
    unary main_arg7 main_v499 ((extractStridedSlice S1x150000 ![0, 0] · slices_S2x150000_S1x150000_0_0) : (⟨S2x150000, .i32⟩ : BufTy).Contents (Elt F) → (⟨S1x150000, .i32⟩ : BufTy).Contents (Elt F)),
    reshape main_v499 main_v500 rfl shapeCasts_S1x150000_S150000,
    unary main_arg7 main_v501 ((extractStridedSlice S1x150000 ![1, 0] · slices_S2x150000_S1x150000_1_0) : (⟨S2x150000, .i32⟩ : BufTy).Contents (Elt F) → (⟨S1x150000, .i32⟩ : BufTy).Contents (Elt F)),
    reshape main_v501 main_v502 rfl shapeCasts_S1x150000_S150000,
    nullary main_c_76 (constantI S_ 32 0#32),
    unary main_c_76 main_v503 (broadcastInDim S150000 ![] bcast_S_S150000 : (⟨S_, .i32⟩ : BufTy).Contents (Elt F) → (⟨S150000, .i32⟩ : BufTy).Contents (Elt F)),
    binary main_v500 main_v503 main_v504 (cmpi .slt : (⟨S150000, .i32⟩ : BufTy).Contents (Elt F) → (⟨S150000, .i32⟩ : BufTy).Contents (Elt F) → (⟨S150000, .i1⟩ : BufTy).Contents (Elt F)),
    nullary main_c_77 (constantI S_ 32 50000#32),
    unary main_c_77 main_v505 (broadcastInDim S150000 ![] bcast_S_S150000 : (⟨S_, .i32⟩ : BufTy).Contents (Elt F) → (⟨S150000, .i32⟩ : BufTy).Contents (Elt F)),
    binary main_v500 main_v505 main_v506 (addi : (⟨S150000, .i32⟩ : BufTy).Contents (Elt F) → (⟨S150000, .i32⟩ : BufTy).Contents (Elt F) → (⟨S150000, .i32⟩ : BufTy).Contents (Elt F)),
    ternary main_v504 main_v506 main_v500 main_v507 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v507 main_v508 (broadcastInDim S150000x1 ![0] bcast_S150000_S150000x1_0 : (⟨S150000, .i32⟩ : BufTy).Contents (Elt F) → (⟨S150000x1, .i32⟩ : BufTy).Contents (Elt F)),
    binary main_v306 main_v508 main_v509 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    nullary main_cst_78 (constant S_ .f32 0x00000000#32),
    unary main_cst_78 main_v510 (broadcastInDim S5000x128 ![] bcast_S_S5000x128 : (⟨S_, .f32⟩ : BufTy).Contents (Elt F) → (⟨S5000x128, .f32⟩ : BufTy).Contents (Elt F)),
    unary main_v502 main_v511 (broadcastInDim S150000x1 ![0] bcast_S150000_S150000x1_0 : (⟨S150000, .i32⟩ : BufTy).Contents (Elt F) → (⟨S150000x1, .i32⟩ : BufTy).Contents (Elt F)),
    ternary main_v510 main_v511 main_v509 main_v512 ((fun x i u => Host.scatterAdd scatter_S5000x128_S150000x1_S150000x128_1_0_0_1 x i u) : (⟨S5000x128, .f32⟩ : BufTy).Contents (Elt F) → (⟨S150000x1, .i32⟩ : BufTy).Contents (Elt F) → (⟨S150000x128, .f32⟩ : BufTy).Contents (Elt F) → (⟨S5000x128, .f32⟩ : BufTy).Contents (Elt F)),
    nullary main_cst_79 (constant S_ .f32 0x3F800000#32),
    unary main_cst_79 main_v513 (broadcastInDim S150000 ![] bcast_S_S150000 : (⟨S_, .f32⟩ : BufTy).Contents (Elt F) → (⟨S150000, .f32⟩ : BufTy).Contents (Elt F)),
    nullary main_cst_80 (constant S_ .f32 0x00000000#32),
    unary main_cst_80 main_v514 (broadcastInDim S5000 ![] bcast_S_S5000 : (⟨S_, .f32⟩ : BufTy).Contents (Elt F) → (⟨S5000, .f32⟩ : BufTy).Contents (Elt F)),
    unary main_v502 main_v515 (broadcastInDim S150000x1 ![0] bcast_S150000_S150000x1_0 : (⟨S150000, .i32⟩ : BufTy).Contents (Elt F) → (⟨S150000x1, .i32⟩ : BufTy).Contents (Elt F)),
    ternary main_v514 main_v515 main_v513 main_v516 ((fun x i u => Host.scatterAdd scatter_S5000_S150000x1_S150000_n_0_0_1 x i u) : (⟨S5000, .f32⟩ : BufTy).Contents (Elt F) → (⟨S150000x1, .i32⟩ : BufTy).Contents (Elt F) → (⟨S150000, .f32⟩ : BufTy).Contents (Elt F) → (⟨S5000, .f32⟩ : BufTy).Contents (Elt F)),
    nullary main_cst_81 (constant S_ .f32 0x3F800000#32),
    unary main_cst_81 main_v517 (broadcastInDim S5000 ![] bcast_S_S5000 : (⟨S_, .f32⟩ : BufTy).Contents (Elt F) → (⟨S5000, .f32⟩ : BufTy).Contents (Elt F)),
    binary main_v516 main_v517 main_v518 (maximumf : (⟨S5000, .f32⟩ : BufTy).Contents (Elt F) → (⟨S5000, .f32⟩ : BufTy).Contents (Elt F) → (⟨S5000, .f32⟩ : BufTy).Contents (Elt F)),
    unary main_v518 main_v519 (broadcastInDim S5000x1 ![0] bcast_S5000_S5000x1_0 : (⟨S5000, .f32⟩ : BufTy).Contents (Elt F) → (⟨S5000x1, .f32⟩ : BufTy).Contents (Elt F)),
    unary main_v519 main_v520 (broadcastInDim S5000x128 ![0, 1] bcast_S5000x1_S5000x128_0_1 : (⟨S5000x1, .f32⟩ : BufTy).Contents (Elt F) → (⟨S5000x128, .f32⟩ : BufTy).Contents (Elt F)),
    binary main_v512 main_v520 main_v521 (Host.divf : (⟨S5000x128, .f32⟩ : BufTy).Contents (Elt F) → (⟨S5000x128, .f32⟩ : BufTy).Contents (Elt F) → (⟨S5000x128, .f32⟩ : BufTy).Contents (Elt F)),
    unary main_v494 main_v522 ((transpose S128x128 [1, 0] · transposes_S128x128_S128x128_1_0) : (⟨S128x128, .f32⟩ : BufTy).Contents (Elt F) → (⟨S128x128, .f32⟩ : BufTy).Contents (Elt F)),
    binary main_v521 main_v522 main_v523 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v496 main_v524 (broadcastInDim S1x128 ![1] bcast_S128_S1x128_1 : (⟨S128, .f32⟩ : BufTy).Contents (Elt F) → (⟨S1x128, .f32⟩ : BufTy).Contents (Elt F)),
    unary main_v524 main_v525 (broadcastInDim S5000x128 ![0, 1] bcast_S1x128_S5000x128_0_1 : (⟨S1x128, .f32⟩ : BufTy).Contents (Elt F) → (⟨S5000x128, .f32⟩ : BufTy).Contents (Elt F)),
    binary main_v523 main_v525 main_v526 (addf : (⟨S5000x128, .f32⟩ : BufTy).Contents (Elt F) → (⟨S5000x128, .f32⟩ : BufTy).Contents (Elt F) → (⟨S5000x128, .f32⟩ : BufTy).Contents (Elt F)),
    unary main_v498 main_v527 ((transpose S128x128 [1, 0] · transposes_S128x128_S128x128_1_0) : (⟨S128x128, .f32⟩ : BufTy).Contents (Elt F) → (⟨S128x128, .f32⟩ : BufTy).Contents (Elt F)),
    binary main_v338 main_v527 main_v528 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v526 main_v528 main_v529 (addf : (⟨S5000x128, .f32⟩ : BufTy).Contents (Elt F) → (⟨S5000x128, .f32⟩ : BufTy).Contents (Elt F) → (⟨S5000x128, .f32⟩ : BufTy).Contents (Elt F)),
    unary main_v340 main_v530 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v530 main_v531 rfl shapeCasts_S1x128x128_S128x128,
    unary main_v342 main_v532 ((extractStridedSlice S1x128 ![5, 0] · slices_S6x128_S1x128_5_0) : (⟨S6x128, .f32⟩ : BufTy).Contents (Elt F) → (⟨S1x128, .f32⟩ : BufTy).Contents (Elt F)),
    reshape main_v532 main_v533 rfl shapeCasts_S1x128_S128,
    unary main_v344 main_v534 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v534 main_v535 rfl shapeCasts_S1x128x128_S128x128,
    unary main_arg8 main_v536 ((extractStridedSlice S1x150000 ![0, 0] · slices_S2x150000_S1x150000_0_0) : (⟨S2x150000, .i32⟩ : BufTy).Contents (Elt F) → (⟨S1x150000, .i32⟩ : BufTy).Contents (Elt F)),
    reshape main_v536 main_v537 rfl shapeCasts_S1x150000_S150000,
    unary main_arg8 main_v538 ((extractStridedSlice S1x150000 ![1, 0] · slices_S2x150000_S1x150000_1_0) : (⟨S2x150000, .i32⟩ : BufTy).Contents (Elt F) → (⟨S1x150000, .i32⟩ : BufTy).Contents (Elt F)),
    reshape main_v538 main_v539 rfl shapeCasts_S1x150000_S150000,
    nullary main_c_82 (constantI S_ 32 0#32),
    unary main_c_82 main_v540 (broadcastInDim S150000 ![] bcast_S_S150000 : (⟨S_, .i32⟩ : BufTy).Contents (Elt F) → (⟨S150000, .i32⟩ : BufTy).Contents (Elt F)),
    binary main_v537 main_v540 main_v541 (cmpi .slt : (⟨S150000, .i32⟩ : BufTy).Contents (Elt F) → (⟨S150000, .i32⟩ : BufTy).Contents (Elt F) → (⟨S150000, .i1⟩ : BufTy).Contents (Elt F)),
    nullary main_c_83 (constantI S_ 32 5000#32),
    unary main_c_83 main_v542 (broadcastInDim S150000 ![] bcast_S_S150000 : (⟨S_, .i32⟩ : BufTy).Contents (Elt F) → (⟨S150000, .i32⟩ : BufTy).Contents (Elt F)),
    binary main_v537 main_v542 main_v543 (addi : (⟨S150000, .i32⟩ : BufTy).Contents (Elt F) → (⟨S150000, .i32⟩ : BufTy).Contents (Elt F) → (⟨S150000, .i32⟩ : BufTy).Contents (Elt F)),
    ternary main_v541 main_v543 main_v537 main_v544 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v544 main_v545 (broadcastInDim S150000x1 ![0] bcast_S150000_S150000x1_0 : (⟨S150000, .i32⟩ : BufTy).Contents (Elt F) → (⟨S150000x1, .i32⟩ : BufTy).Contents (Elt F)),
    binary main_v338 main_v545 main_v546 ((fun x i => Host.gather gather_S5000x128_S150000x1_S150000x128_1_0_n_n_0_1_1128 x i) : (⟨S5000x128, .f32⟩ : BufTy).Contents (Elt F) → (⟨S150000x1, .i32⟩ : BufTy).Contents (Elt F) → (⟨S150000x128, .f32⟩ : BufTy).Contents (Elt F)),
    nullary main_cst_84 (constant S_ .f32 0x00000000#32),
    unary main_cst_84 main_v547 (broadcastInDim S50000x128 ![] bcast_S_S50000x128 : (⟨S_, .f32⟩ : BufTy).Contents (Elt F) → (⟨S50000x128, .f32⟩ : BufTy).Contents (Elt F)),
    unary main_v539 main_v548 (broadcastInDim S150000x1 ![0] bcast_S150000_S150000x1_0 : (⟨S150000, .i32⟩ : BufTy).Contents (Elt F) → (⟨S150000x1, .i32⟩ : BufTy).Contents (Elt F)),
    ternary main_v547 main_v548 main_v546 main_v549 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    nullary main_cst_85 (constant S_ .f32 0x3F800000#32),
    unary main_cst_85 main_v550 (broadcastInDim S150000 ![] bcast_S_S150000 : (⟨S_, .f32⟩ : BufTy).Contents (Elt F) → (⟨S150000, .f32⟩ : BufTy).Contents (Elt F)),
    nullary main_cst_86 (constant S_ .f32 0x00000000#32),
    unary main_cst_86 main_v551 (broadcastInDim S50000 ![] bcast_S_S50000 : (⟨S_, .f32⟩ : BufTy).Contents (Elt F) → (⟨S50000, .f32⟩ : BufTy).Contents (Elt F)),
    unary main_v539 main_v552 (broadcastInDim S150000x1 ![0] bcast_S150000_S150000x1_0 : (⟨S150000, .i32⟩ : BufTy).Contents (Elt F) → (⟨S150000x1, .i32⟩ : BufTy).Contents (Elt F)),
    ternary main_v551 main_v552 main_v550 main_v553 ((fun x i u => Host.scatterAdd scatter_S50000_S150000x1_S150000_n_0_0_1 x i u) : (⟨S50000, .f32⟩ : BufTy).Contents (Elt F) → (⟨S150000x1, .i32⟩ : BufTy).Contents (Elt F) → (⟨S150000, .f32⟩ : BufTy).Contents (Elt F) → (⟨S50000, .f32⟩ : BufTy).Contents (Elt F)),
    nullary main_cst_87 (constant S_ .f32 0x3F800000#32),
    unary main_cst_87 main_v554 (broadcastInDim S50000 ![] bcast_S_S50000 : (⟨S_, .f32⟩ : BufTy).Contents (Elt F) → (⟨S50000, .f32⟩ : BufTy).Contents (Elt F)),
    binary main_v553 main_v554 main_v555 (maximumf : (⟨S50000, .f32⟩ : BufTy).Contents (Elt F) → (⟨S50000, .f32⟩ : BufTy).Contents (Elt F) → (⟨S50000, .f32⟩ : BufTy).Contents (Elt F)),
    unary main_v555 main_v556 (broadcastInDim S50000x1 ![0] bcast_S50000_S50000x1_0 : (⟨S50000, .f32⟩ : BufTy).Contents (Elt F) → (⟨S50000x1, .f32⟩ : BufTy).Contents (Elt F)),
    unary main_v556 main_v557 (broadcastInDim S50000x128 ![0, 1] bcast_S50000x1_S50000x128_0_1 : (⟨S50000x1, .f32⟩ : BufTy).Contents (Elt F) → (⟨S50000x128, .f32⟩ : BufTy).Contents (Elt F)),
    binary main_v549 main_v557 main_v558 (Host.divf : (⟨S50000x128, .f32⟩ : BufTy).Contents (Elt F) → (⟨S50000x128, .f32⟩ : BufTy).Contents (Elt F) → (⟨S50000x128, .f32⟩ : BufTy).Contents (Elt F)),
    unary main_v531 main_v559 ((transpose S128x128 [1, 0] · transposes_S128x128_S128x128_1_0) : (⟨S128x128, .f32⟩ : BufTy).Contents (Elt F) → (⟨S128x128, .f32⟩ : BufTy).Contents (Elt F)),
    binary main_v558 main_v559 main_v560 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v533 main_v561 (broadcastInDim S1x128 ![1] bcast_S128_S1x128_1 : (⟨S128, .f32⟩ : BufTy).Contents (Elt F) → (⟨S1x128, .f32⟩ : BufTy).Contents (Elt F)),
    unary main_v561 main_v562 (broadcastInDim S50000x128 ![0, 1] bcast_S1x128_S50000x128_0_1 : (⟨S1x128, .f32⟩ : BufTy).Contents (Elt F) → (⟨S50000x128, .f32⟩ : BufTy).Contents (Elt F)),
    binary main_v560 main_v562 main_v563 (addf : (⟨S50000x128, .f32⟩ : BufTy).Contents (Elt F) → (⟨S50000x128, .f32⟩ : BufTy).Contents (Elt F) → (⟨S50000x128, .f32⟩ : BufTy).Contents (Elt F)),
    unary main_v535 main_v564 ((transpose S128x128 [1, 0] · transposes_S128x128_S128x128_1_0) : (⟨S128x128, .f32⟩ : BufTy).Contents (Elt F) → (⟨S128x128, .f32⟩ : BufTy).Contents (Elt F)),
    binary main_v306 main_v564 main_v565 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v563 main_v565 main_v566 (addf : (⟨S50000x128, .f32⟩ : BufTy).Contents (Elt F) → (⟨S50000x128, .f32⟩ : BufTy).Contents (Elt F) → (⟨S50000x128, .f32⟩ : BufTy).Contents (Elt F)) ]

theorem opsB1c_sub : (opsB1c : List (HloOp τ sig (Elt F))).Forall fun op => op.bufs ⊆ tcRefs τ sig :=
  ⟨binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem opsB1c_fresh : ∀ op ∈ (opsB1c : List (HloOp τ sig (Elt F))), op.fresh = ∅ := by
  intro _ h; (repeat (cases h with | head => rfl | tail _ h => ?_)); exact nomatch h

end Cert.ReferenceIdeal.ValueP

end
-- ==== Proof.RefOpsB1.lean ====
/-
  Chunk B1 of the reference program's operations: its parts in order.
-/
import proofs.«172654_j31121333027532_2_alg».proof.Proof.RefOpsB1a
import proofs.«172654_j31121333027532_2_alg».proof.Proof.RefOpsB1b
import proofs.«172654_j31121333027532_2_alg».proof.Proof.RefOpsB1c

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB1 : List (HloOp τ sig (Elt F)) := opsB1a ++ (opsB1b ++ (opsB1c))

theorem opsB1_sub : (opsB1 : List (HloOp τ sig (Elt F))).Forall fun op => op.bufs ⊆ tcRefs τ sig :=
  List.forall_iff_forall_mem.mpr fun op h => by
    rcases List.mem_append.mp h with h | h
    · exact List.forall_iff_forall_mem.mp opsB1a_sub op h
    rcases List.mem_append.mp h with h | h
    · exact List.forall_iff_forall_mem.mp opsB1b_sub op h
    · exact List.forall_iff_forall_mem.mp opsB1c_sub op h

theorem opsB1_fresh : ∀ op ∈ (opsB1 : List (HloOp τ sig (Elt F))), op.fresh = ∅ := fun op h => by
    rcases List.mem_append.mp h with h | h
    · exact opsB1a_fresh op h
    rcases List.mem_append.mp h with h | h
    · exact opsB1b_fresh op h
    · exact opsB1c_fresh op h

end Cert.ReferenceIdeal.ValueP

end
-- ==== Proof.RefOpsB2a.lean ====
/-
  Operations 664 to 723 of the reference program's 783, in order, as the generated list spells them (part of chunk B2); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB2a : List (HloOp τ sig (Elt F)) :=
  [
    binary main_v418 main_v492 main_v567 (addf : (⟨S100000x128, .f32⟩ : BufTy).Contents (Elt F) → (⟨S100000x128, .f32⟩ : BufTy).Contents (Elt F) → (⟨S100000x128, .f32⟩ : BufTy).Contents (Elt F)),
    nullary main_cst_88 (constant S_ .f32 0x3F000000#32),
    unary main_cst_88 main_v568 (broadcastInDim S100000x128 ![] bcast_S_S100000x128 : (⟨S_, .f32⟩ : BufTy).Contents (Elt F) → (⟨S100000x128, .f32⟩ : BufTy).Contents (Elt F)),
    binary main_v568 main_v567 main_v569 (mulf : (⟨S100000x128, .f32⟩ : BufTy).Contents (Elt F) → (⟨S100000x128, .f32⟩ : BufTy).Contents (Elt F) → (⟨S100000x128, .f32⟩ : BufTy).Contents (Elt F)),
    unary main_arg18 main_v570 ((extractStridedSlice S1x1x128 ![1, 0, 0] · slices_S2x3x128_S1x1x128_1_0_0) : (⟨S2x3x128, .f32⟩ : BufTy).Contents (Elt F) → (⟨S1x1x128, .f32⟩ : BufTy).Contents (Elt F)),
    reshape main_v570 main_v571 rfl shapeCasts_S1x1x128_S128,
    unary main_arg19 main_v572 ((extractStridedSlice S1x1x128 ![1, 0, 0] · slices_S2x3x128_S1x1x128_1_0_0) : (⟨S2x3x128, .f32⟩ : BufTy).Contents (Elt F) → (⟨S1x1x128, .f32⟩ : BufTy).Contents (Elt F)),
    reshape main_v572 main_v573 rfl shapeCasts_S1x1x128_S128,
    nullary main_cst_89 (constant S_ .f32 0x00000000#32),
    binary main_v569 main_cst_89 main_v574 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v574 main_v575 (broadcastInDim S100000x1 ![0] bcast_S100000_S100000x1_0 : (⟨S100000, .f32⟩ : BufTy).Contents (Elt F) → (⟨S100000x1, .f32⟩ : BufTy).Contents (Elt F)),
    nullary main_cst_90 (constant S_ .f32 0x43000000#32),
    unary main_cst_90 main_v576 (broadcastInDim S100000x1 ![] bcast_S_S100000x1 : (⟨S_, .f32⟩ : BufTy).Contents (Elt F) → (⟨S100000x1, .f32⟩ : BufTy).Contents (Elt F)),
    binary main_v575 main_v576 main_v577 (Host.divf : (⟨S100000x1, .f32⟩ : BufTy).Contents (Elt F) → (⟨S100000x1, .f32⟩ : BufTy).Contents (Elt F) → (⟨S100000x1, .f32⟩ : BufTy).Contents (Elt F)),
    unary main_v577 main_v578 (broadcastInDim S100000x128 ![0, 1] bcast_S100000x1_S100000x128_0_1 : (⟨S100000x1, .f32⟩ : BufTy).Contents (Elt F) → (⟨S100000x128, .f32⟩ : BufTy).Contents (Elt F)),
    binary main_v569 main_v578 main_v579 (subf : (⟨S100000x128, .f32⟩ : BufTy).Contents (Elt F) → (⟨S100000x128, .f32⟩ : BufTy).Contents (Elt F) → (⟨S100000x128, .f32⟩ : BufTy).Contents (Elt F)),
    binary main_v579 main_v579 main_v580 (mulf : (⟨S100000x128, .f32⟩ : BufTy).Contents (Elt F) → (⟨S100000x128, .f32⟩ : BufTy).Contents (Elt F) → (⟨S100000x128, .f32⟩ : BufTy).Contents (Elt F)),
    nullary main_cst_91 (constant S_ .f32 0x00000000#32),
    binary main_v580 main_cst_91 main_v581 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v581 main_v582 (broadcastInDim S100000x1 ![0] bcast_S100000_S100000x1_0 : (⟨S100000, .f32⟩ : BufTy).Contents (Elt F) → (⟨S100000x1, .f32⟩ : BufTy).Contents (Elt F)),
    nullary main_cst_92 (constant S_ .f32 0x43000000#32),
    unary main_cst_92 main_v583 (broadcastInDim S100000x1 ![] bcast_S_S100000x1 : (⟨S_, .f32⟩ : BufTy).Contents (Elt F) → (⟨S100000x1, .f32⟩ : BufTy).Contents (Elt F)),
    binary main_v582 main_v583 main_v584 (Host.divf : (⟨S100000x1, .f32⟩ : BufTy).Contents (Elt F) → (⟨S100000x1, .f32⟩ : BufTy).Contents (Elt F) → (⟨S100000x1, .f32⟩ : BufTy).Contents (Elt F)),
    unary main_v577 main_v585 (broadcastInDim S100000x128 ![0, 1] bcast_S100000x1_S100000x128_0_1 : (⟨S100000x1, .f32⟩ : BufTy).Contents (Elt F) → (⟨S100000x128, .f32⟩ : BufTy).Contents (Elt F)),
    binary main_v569 main_v585 main_v586 (subf : (⟨S100000x128, .f32⟩ : BufTy).Contents (Elt F) → (⟨S100000x128, .f32⟩ : BufTy).Contents (Elt F) → (⟨S100000x128, .f32⟩ : BufTy).Contents (Elt F)),
    nullary main_cst_93 (constant S_ .f32 0x3727C5AC#32),
    unary main_cst_93 main_v587 (broadcastInDim S100000x1 ![] bcast_S_S100000x1 : (⟨S_, .f32⟩ : BufTy).Contents (Elt F) → (⟨S100000x1, .f32⟩ : BufTy).Contents (Elt F)),
    binary main_v584 main_v587 main_v588 (addf : (⟨S100000x1, .f32⟩ : BufTy).Contents (Elt F) → (⟨S100000x1, .f32⟩ : BufTy).Contents (Elt F) → (⟨S100000x1, .f32⟩ : BufTy).Contents (Elt F)),
    unary main_v588 main_v589 (Host.rsqrt : (⟨S100000x1, .f32⟩ : BufTy).Contents (Elt F) → (⟨S100000x1, .f32⟩ : BufTy).Contents (Elt F)),
    unary main_v589 main_v590 (broadcastInDim S100000x128 ![0, 1] bcast_S100000x1_S100000x128_0_1 : (⟨S100000x1, .f32⟩ : BufTy).Contents (Elt F) → (⟨S100000x128, .f32⟩ : BufTy).Contents (Elt F)),
    binary main_v586 main_v590 main_v591 (mulf : (⟨S100000x128, .f32⟩ : BufTy).Contents (Elt F) → (⟨S100000x128, .f32⟩ : BufTy).Contents (Elt F) → (⟨S100000x128, .f32⟩ : BufTy).Contents (Elt F)),
    unary main_v571 main_v592 (broadcastInDim S1x128 ![1] bcast_S128_S1x128_1 : (⟨S128, .f32⟩ : BufTy).Contents (Elt F) → (⟨S1x128, .f32⟩ : BufTy).Contents (Elt F)),
    unary main_v592 main_v593 (broadcastInDim S100000x128 ![0, 1] bcast_S1x128_S100000x128_0_1 : (⟨S1x128, .f32⟩ : BufTy).Contents (Elt F) → (⟨S100000x128, .f32⟩ : BufTy).Contents (Elt F)),
    binary main_v591 main_v593 main_v594 (mulf : (⟨S100000x128, .f32⟩ : BufTy).Contents (Elt F) → (⟨S100000x128, .f32⟩ : BufTy).Contents (Elt F) → (⟨S100000x128, .f32⟩ : BufTy).Contents (Elt F)),
    unary main_v573 main_v595 (broadcastInDim S1x128 ![1] bcast_S128_S1x128_1 : (⟨S128, .f32⟩ : BufTy).Contents (Elt F) → (⟨S1x128, .f32⟩ : BufTy).Contents (Elt F)),
    unary main_v595 main_v596 (broadcastInDim S100000x128 ![0, 1] bcast_S1x128_S100000x128_0_1 : (⟨S1x128, .f32⟩ : BufTy).Contents (Elt F) → (⟨S100000x128, .f32⟩ : BufTy).Contents (Elt F)),
    binary main_v594 main_v596 main_v597 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v597) (TRef.of (T := ⟨S100000x128, .f32⟩) main_call3_v0) (TRef.of (T := ⟨S100000x128, .f32⟩) main_v598) maximumf,
    binary main_v381 main_v566 main_v599 (addf : (⟨S50000x128, .f32⟩ : BufTy).Contents (Elt F) → (⟨S50000x128, .f32⟩ : BufTy).Contents (Elt F) → (⟨S50000x128, .f32⟩ : BufTy).Contents (Elt F)),
    nullary main_cst_94 (constant S_ .f32 0x3F000000#32),
    unary main_cst_94 main_v600 (broadcastInDim S50000x128 ![] bcast_S_S50000x128 : (⟨S_, .f32⟩ : BufTy).Contents (Elt F) → (⟨S50000x128, .f32⟩ : BufTy).Contents (Elt F)),
    binary main_v600 main_v599 main_v601 (mulf : (⟨S50000x128, .f32⟩ : BufTy).Contents (Elt F) → (⟨S50000x128, .f32⟩ : BufTy).Contents (Elt F) → (⟨S50000x128, .f32⟩ : BufTy).Contents (Elt F)),
    unary main_arg18 main_v602 ((extractStridedSlice S1x1x128 ![1, 1, 0] · slices_S2x3x128_S1x1x128_1_1_0) : (⟨S2x3x128, .f32⟩ : BufTy).Contents (Elt F) → (⟨S1x1x128, .f32⟩ : BufTy).Contents (Elt F)),
    reshape main_v602 main_v603 rfl shapeCasts_S1x1x128_S128,
    unary main_arg19 main_v604 ((extractStridedSlice S1x1x128 ![1, 1, 0] · slices_S2x3x128_S1x1x128_1_1_0) : (⟨S2x3x128, .f32⟩ : BufTy).Contents (Elt F) → (⟨S1x1x128, .f32⟩ : BufTy).Contents (Elt F)),
    reshape main_v604 main_v605 rfl shapeCasts_S1x1x128_S128,
    nullary main_cst_95 (constant S_ .f32 0x00000000#32),
    binary main_v601 main_cst_95 main_v606 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v606 main_v607 (broadcastInDim S50000x1 ![0] bcast_S50000_S50000x1_0 : (⟨S50000, .f32⟩ : BufTy).Contents (Elt F) → (⟨S50000x1, .f32⟩ : BufTy).Contents (Elt F)),
    nullary main_cst_96 (constant S_ .f32 0x43000000#32),
    unary main_cst_96 main_v608 (broadcastInDim S50000x1 ![] bcast_S_S50000x1 : (⟨S_, .f32⟩ : BufTy).Contents (Elt F) → (⟨S50000x1, .f32⟩ : BufTy).Contents (Elt F)),
    binary main_v607 main_v608 main_v609 (Host.divf : (⟨S50000x1, .f32⟩ : BufTy).Contents (Elt F) → (⟨S50000x1, .f32⟩ : BufTy).Contents (Elt F) → (⟨S50000x1, .f32⟩ : BufTy).Contents (Elt F)),
    unary main_v609 main_v610 (broadcastInDim S50000x128 ![0, 1] bcast_S50000x1_S50000x128_0_1 : (⟨S50000x1, .f32⟩ : BufTy).Contents (Elt F) → (⟨S50000x128, .f32⟩ : BufTy).Contents (Elt F)),
    binary main_v601 main_v610 main_v611 (subf : (⟨S50000x128, .f32⟩ : BufTy).Contents (Elt F) → (⟨S50000x128, .f32⟩ : BufTy).Contents (Elt F) → (⟨S50000x128, .f32⟩ : BufTy).Contents (Elt F)),
    binary main_v611 main_v611 main_v612 (mulf : (⟨S50000x128, .f32⟩ : BufTy).Contents (Elt F) → (⟨S50000x128, .f32⟩ : BufTy).Contents (Elt F) → (⟨S50000x128, .f32⟩ : BufTy).Contents (Elt F)),
    nullary main_cst_97 (constant S_ .f32 0x00000000#32),
    binary main_v612 main_cst_97 main_v613 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v613 main_v614 (broadcastInDim S50000x1 ![0] bcast_S50000_S50000x1_0 : (⟨S50000, .f32⟩ : BufTy).Contents (Elt F) → (⟨S50000x1, .f32⟩ : BufTy).Contents (Elt F)) ]

theorem opsB2a_sub : (opsB2a : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub ..⟩

theorem opsB2a_fresh : ∀ op ∈ (opsB2a : List (HloOp τ sig (Elt F))), op.fresh = ∅ := by
  intro _ h; (repeat (cases h with | head => rfl | tail _ h => ?_)); exact nomatch h

end Cert.ReferenceIdeal.ValueP

end
-- ==== Proof.RefOpsB2b.lean ====
/-
  Operations 724 to 783 of the reference program's 783, in order, as the generated list spells them (part of chunk B2); each touches
  TensorCore references only and determines its result.
-/
import proofs.«172654_j31121333027532_2_alg».proof.Proof.Gen.ReferenceIdeal
import Idealize.ShloMosaic.Lib.StableHlo.Run

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB2b : List (HloOp τ sig (Elt F)) :=
  [
    nullary main_cst_98 (constant S_ .f32 0x43000000#32),
    unary main_cst_98 main_v615 (broadcastInDim S50000x1 ![] bcast_S_S50000x1 : (⟨S_, .f32⟩ : BufTy).Contents (Elt F) → (⟨S50000x1, .f32⟩ : BufTy).Contents (Elt F)),
    binary main_v614 main_v615 main_v616 (Host.divf : (⟨S50000x1, .f32⟩ : BufTy).Contents (Elt F) → (⟨S50000x1, .f32⟩ : BufTy).Contents (Elt F) → (⟨S50000x1, .f32⟩ : BufTy).Contents (Elt F)),
    unary main_v609 main_v617 (broadcastInDim S50000x128 ![0, 1] bcast_S50000x1_S50000x128_0_1 : (⟨S50000x1, .f32⟩ : BufTy).Contents (Elt F) → (⟨S50000x128, .f32⟩ : BufTy).Contents (Elt F)),
    binary main_v601 main_v617 main_v618 (subf : (⟨S50000x128, .f32⟩ : BufTy).Contents (Elt F) → (⟨S50000x128, .f32⟩ : BufTy).Contents (Elt F) → (⟨S50000x128, .f32⟩ : BufTy).Contents (Elt F)),
    nullary main_cst_99 (constant S_ .f32 0x3727C5AC#32),
    unary main_cst_99 main_v619 (broadcastInDim S50000x1 ![] bcast_S_S50000x1 : (⟨S_, .f32⟩ : BufTy).Contents (Elt F) → (⟨S50000x1, .f32⟩ : BufTy).Contents (Elt F)),
    binary main_v616 main_v619 main_v620 (addf : (⟨S50000x1, .f32⟩ : BufTy).Contents (Elt F) → (⟨S50000x1, .f32⟩ : BufTy).Contents (Elt F) → (⟨S50000x1, .f32⟩ : BufTy).Contents (Elt F)),
    unary main_v620 main_v621 (Host.rsqrt : (⟨S50000x1, .f32⟩ : BufTy).Contents (Elt F) → (⟨S50000x1, .f32⟩ : BufTy).Contents (Elt F)),
    unary main_v621 main_v622 (broadcastInDim S50000x128 ![0, 1] bcast_S50000x1_S50000x128_0_1 : (⟨S50000x1, .f32⟩ : BufTy).Contents (Elt F) → (⟨S50000x128, .f32⟩ : BufTy).Contents (Elt F)),
    binary main_v618 main_v622 main_v623 (mulf : (⟨S50000x128, .f32⟩ : BufTy).Contents (Elt F) → (⟨S50000x128, .f32⟩ : BufTy).Contents (Elt F) → (⟨S50000x128, .f32⟩ : BufTy).Contents (Elt F)),
    unary main_v603 main_v624 (broadcastInDim S1x128 ![1] bcast_S128_S1x128_1 : (⟨S128, .f32⟩ : BufTy).Contents (Elt F) → (⟨S1x128, .f32⟩ : BufTy).Contents (Elt F)),
    unary main_v624 main_v625 (broadcastInDim S50000x128 ![0, 1] bcast_S1x128_S50000x128_0_1 : (⟨S1x128, .f32⟩ : BufTy).Contents (Elt F) → (⟨S50000x128, .f32⟩ : BufTy).Contents (Elt F)),
    binary main_v623 main_v625 main_v626 (mulf : (⟨S50000x128, .f32⟩ : BufTy).Contents (Elt F) → (⟨S50000x128, .f32⟩ : BufTy).Contents (Elt F) → (⟨S50000x128, .f32⟩ : BufTy).Contents (Elt F)),
    unary main_v605 main_v627 (broadcastInDim S1x128 ![1] bcast_S128_S1x128_1 : (⟨S128, .f32⟩ : BufTy).Contents (Elt F) → (⟨S1x128, .f32⟩ : BufTy).Contents (Elt F)),
    unary main_v627 main_v628 (broadcastInDim S50000x128 ![0, 1] bcast_S1x128_S50000x128_0_1 : (⟨S1x128, .f32⟩ : BufTy).Contents (Elt F) → (⟨S50000x128, .f32⟩ : BufTy).Contents (Elt F)),
    binary main_v626 main_v628 main_v629 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v629) (TRef.of (T := ⟨S50000x128, .f32⟩) main_call4_v0) (TRef.of (T := ⟨S50000x128, .f32⟩) main_v630) maximumf,
    binary main_v455 main_v529 main_v631 (addf : (⟨S5000x128, .f32⟩ : BufTy).Contents (Elt F) → (⟨S5000x128, .f32⟩ : BufTy).Contents (Elt F) → (⟨S5000x128, .f32⟩ : BufTy).Contents (Elt F)),
    nullary main_cst_100 (constant S_ .f32 0x3F000000#32),
    unary main_cst_100 main_v632 (broadcastInDim S5000x128 ![] bcast_S_S5000x128 : (⟨S_, .f32⟩ : BufTy).Contents (Elt F) → (⟨S5000x128, .f32⟩ : BufTy).Contents (Elt F)),
    binary main_v632 main_v631 main_v633 (mulf : (⟨S5000x128, .f32⟩ : BufTy).Contents (Elt F) → (⟨S5000x128, .f32⟩ : BufTy).Contents (Elt F) → (⟨S5000x128, .f32⟩ : BufTy).Contents (Elt F)),
    unary main_arg18 main_v634 ((extractStridedSlice S1x1x128 ![1, 2, 0] · slices_S2x3x128_S1x1x128_1_2_0) : (⟨S2x3x128, .f32⟩ : BufTy).Contents (Elt F) → (⟨S1x1x128, .f32⟩ : BufTy).Contents (Elt F)),
    reshape main_v634 main_v635 rfl shapeCasts_S1x1x128_S128,
    unary main_arg19 main_v636 ((extractStridedSlice S1x1x128 ![1, 2, 0] · slices_S2x3x128_S1x1x128_1_2_0) : (⟨S2x3x128, .f32⟩ : BufTy).Contents (Elt F) → (⟨S1x1x128, .f32⟩ : BufTy).Contents (Elt F)),
    reshape main_v636 main_v637 rfl shapeCasts_S1x1x128_S128,
    nullary main_cst_101 (constant S_ .f32 0x00000000#32),
    binary main_v633 main_cst_101 main_v638 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v638 main_v639 (broadcastInDim S5000x1 ![0] bcast_S5000_S5000x1_0 : (⟨S5000, .f32⟩ : BufTy).Contents (Elt F) → (⟨S5000x1, .f32⟩ : BufTy).Contents (Elt F)),
    nullary main_cst_102 (constant S_ .f32 0x43000000#32),
    unary main_cst_102 main_v640 (broadcastInDim S5000x1 ![] bcast_S_S5000x1 : (⟨S_, .f32⟩ : BufTy).Contents (Elt F) → (⟨S5000x1, .f32⟩ : BufTy).Contents (Elt F)),
    binary main_v639 main_v640 main_v641 (Host.divf : (⟨S5000x1, .f32⟩ : BufTy).Contents (Elt F) → (⟨S5000x1, .f32⟩ : BufTy).Contents (Elt F) → (⟨S5000x1, .f32⟩ : BufTy).Contents (Elt F)),
    unary main_v641 main_v642 (broadcastInDim S5000x128 ![0, 1] bcast_S5000x1_S5000x128_0_1 : (⟨S5000x1, .f32⟩ : BufTy).Contents (Elt F) → (⟨S5000x128, .f32⟩ : BufTy).Contents (Elt F)),
    binary main_v633 main_v642 main_v643 (subf : (⟨S5000x128, .f32⟩ : BufTy).Contents (Elt F) → (⟨S5000x128, .f32⟩ : BufTy).Contents (Elt F) → (⟨S5000x128, .f32⟩ : BufTy).Contents (Elt F)),
    binary main_v643 main_v643 main_v644 (mulf : (⟨S5000x128, .f32⟩ : BufTy).Contents (Elt F) → (⟨S5000x128, .f32⟩ : BufTy).Contents (Elt F) → (⟨S5000x128, .f32⟩ : BufTy).Contents (Elt F)),
    nullary main_cst_103 (constant S_ .f32 0x00000000#32),
    binary main_v644 main_cst_103 main_v645 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v645 main_v646 (broadcastInDim S5000x1 ![0] bcast_S5000_S5000x1_0 : (⟨S5000, .f32⟩ : BufTy).Contents (Elt F) → (⟨S5000x1, .f32⟩ : BufTy).Contents (Elt F)),
    nullary main_cst_104 (constant S_ .f32 0x43000000#32),
    unary main_cst_104 main_v647 (broadcastInDim S5000x1 ![] bcast_S_S5000x1 : (⟨S_, .f32⟩ : BufTy).Contents (Elt F) → (⟨S5000x1, .f32⟩ : BufTy).Contents (Elt F)),
    binary main_v646 main_v647 main_v648 (Host.divf : (⟨S5000x1, .f32⟩ : BufTy).Contents (Elt F) → (⟨S5000x1, .f32⟩ : BufTy).Contents (Elt F) → (⟨S5000x1, .f32⟩ : BufTy).Contents (Elt F)),
    unary main_v641 main_v649 (broadcastInDim S5000x128 ![0, 1] bcast_S5000x1_S5000x128_0_1 : (⟨S5000x1, .f32⟩ : BufTy).Contents (Elt F) → (⟨S5000x128, .f32⟩ : BufTy).Contents (Elt F)),
    binary main_v633 main_v649 main_v650 (subf : (⟨S5000x128, .f32⟩ : BufTy).Contents (Elt F) → (⟨S5000x128, .f32⟩ : BufTy).Contents (Elt F) → (⟨S5000x128, .f32⟩ : BufTy).Contents (Elt F)),
    nullary main_cst_105 (constant S_ .f32 0x3727C5AC#32),
    unary main_cst_105 main_v651 (broadcastInDim S5000x1 ![] bcast_S_S5000x1 : (⟨S_, .f32⟩ : BufTy).Contents (Elt F) → (⟨S5000x1, .f32⟩ : BufTy).Contents (Elt F)),
    binary main_v648 main_v651 main_v652 (addf : (⟨S5000x1, .f32⟩ : BufTy).Contents (Elt F) → (⟨S5000x1, .f32⟩ : BufTy).Contents (Elt F) → (⟨S5000x1, .f32⟩ : BufTy).Contents (Elt F)),
    unary main_v652 main_v653 (Host.rsqrt : (⟨S5000x1, .f32⟩ : BufTy).Contents (Elt F) → (⟨S5000x1, .f32⟩ : BufTy).Contents (Elt F)),
    unary main_v653 main_v654 (broadcastInDim S5000x128 ![0, 1] bcast_S5000x1_S5000x128_0_1 : (⟨S5000x1, .f32⟩ : BufTy).Contents (Elt F) → (⟨S5000x128, .f32⟩ : BufTy).Contents (Elt F)),
    binary main_v650 main_v654 main_v655 (mulf : (⟨S5000x128, .f32⟩ : BufTy).Contents (Elt F) → (⟨S5000x128, .f32⟩ : BufTy).Contents (Elt F) → (⟨S5000x128, .f32⟩ : BufTy).Contents (Elt F)),
    unary main_v635 main_v656 (broadcastInDim S1x128 ![1] bcast_S128_S1x128_1 : (⟨S128, .f32⟩ : BufTy).Contents (Elt F) → (⟨S1x128, .f32⟩ : BufTy).Contents (Elt F)),
    unary main_v656 main_v657 (broadcastInDim S5000x128 ![0, 1] bcast_S1x128_S5000x128_0_1 : (⟨S1x128, .f32⟩ : BufTy).Contents (Elt F) → (⟨S5000x128, .f32⟩ : BufTy).Contents (Elt F)),
    binary main_v655 main_v657 main_v658 (mulf : (⟨S5000x128, .f32⟩ : BufTy).Contents (Elt F) → (⟨S5000x128, .f32⟩ : BufTy).Contents (Elt F) → (⟨S5000x128, .f32⟩ : BufTy).Contents (Elt F)),
    unary main_v637 main_v659 (broadcastInDim S1x128 ![1] bcast_S128_S1x128_1 : (⟨S128, .f32⟩ : BufTy).Contents (Elt F) → (⟨S1x128, .f32⟩ : BufTy).Contents (Elt F)),
    unary main_v659 main_v660 (broadcastInDim S5000x128 ![0, 1] bcast_S1x128_S5000x128_0_1 : (⟨S1x128, .f32⟩ : BufTy).Contents (Elt F) → (⟨S5000x128, .f32⟩ : BufTy).Contents (Elt F)),
    binary main_v658 main_v660 main_v661 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S5000x128, .f32⟩) main_call5_v0) (broadcastInDim S5000x128 ![] bcast_S_S5000x128),
    TRef.binary (TRef.of (T := ⟨S5000x128, .f32⟩) main_v661) (TRef.of (T := ⟨S5000x128, .f32⟩) main_call5_v0) (TRef.of (T := ⟨S5000x128, .f32⟩) main_v662) maximumf ]

theorem opsB2b_sub : (opsB2b : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsB2b_fresh : ∀ op ∈ (opsB2b : List (HloOp τ sig (Elt F))), op.fresh = ∅ := by
  intro _ h; (repeat (cases h with | head => rfl | tail _ h => ?_)); exact nomatch h

end Cert.ReferenceIdeal.ValueP

end
-- ==== Proof.RefOpsB2.lean ====
/-
  Chunk B2 of the reference program's operations: its parts in order.
-/
import proofs.«172654_j31121333027532_2_alg».proof.Proof.RefOpsB2a
import proofs.«172654_j31121333027532_2_alg».proof.Proof.RefOpsB2b

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsB2 : List (HloOp τ sig (Elt F)) := opsB2a ++ (opsB2b)

theorem opsB2_sub : (opsB2 : List (HloOp τ sig (Elt F))).Forall fun op => op.bufs ⊆ tcRefs τ sig :=
  List.forall_iff_forall_mem.mpr fun op h => by
    rcases List.mem_append.mp h with h | h
    · exact List.forall_iff_forall_mem.mp opsB2a_sub op h
    · exact List.forall_iff_forall_mem.mp opsB2b_sub op h

theorem opsB2_fresh : ∀ op ∈ (opsB2 : List (HloOp τ sig (Elt F))), op.fresh = ∅ := fun op h => by
    rcases List.mem_append.mp h with h | h
    · exact opsB2a_fresh op h
    · exact opsB2b_fresh op h

end Cert.ReferenceIdeal.ValueP

end
-- ==== Proof.RefMain.lean ====
/-
  The reference program is the four chunks of operations run in order: @main is their concatenation's run (checked by
  the kernel's definitional unfolding), every operation touches TensorCore references only and determines its result,
  and the signature scopes no buffer and no semaphore.
-/
import proofs.«172654_j31121333027532_2_alg».proof.Proof.RefOpsA1
import proofs.«172654_j31121333027532_2_alg».proof.Proof.RefOpsA2
import proofs.«172654_j31121333027532_2_alg».proof.Proof.RefOpsB1
import proofs.«172654_j31121333027532_2_alg».proof.Proof.RefOpsB2
import Idealize.ShloMosaic.Lib.Pipeline.Regions

set_option maxRecDepth 16384
set_option maxHeartbeats 40000000

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- All the operations: the four chunks in order. -/
abbrev opsAll : List (HloOp τ sig (Elt F)) := opsA1 ++ (opsA2 ++ (opsB1 ++ opsB2))

theorem main_eq (c : Dev nD) : main (F := F) c = seq opsAll := by chain_rfl
theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_iff_forall_mem.mpr fun op h => by
    rcases List.mem_append.mp h with h | h
    · exact List.forall_iff_forall_mem.mp opsA1_sub op h
    rcases List.mem_append.mp h with h | h
    · exact List.forall_iff_forall_mem.mp opsA2_sub op h
    rcases List.mem_append.mp h with h | h
    · exact List.forall_iff_forall_mem.mp opsB1_sub op h
    · exact List.forall_iff_forall_mem.mp opsB2_sub op h

theorem opsAll_fresh : ∀ op ∈ (opsAll : List (HloOp τ sig (Elt F))), op.fresh = ∅ := fun op h => by
    rcases List.mem_append.mp h with h | h
    · exact opsA1_fresh op h
    rcases List.mem_append.mp h with h | h
    · exact opsA2_fresh op h
    rcases List.mem_append.mp h with h | h
    · exact opsB1_fresh op h
    · exact opsB2_fresh op h

end Cert.ReferenceIdeal.ValueP

end
-- ==== Proof.RefChunkA1.lean ====
/-
  Chunk A1 of the reference: from any contents at which the buffers the chunk reads hold the reference's stages
  (and the arguments it reads hold given arrays), the buffers the next chunk reads hold the reference's stages; and the
  chunk writes no argument.
-/
import proofs.«172654_j31121333027532_2_alg».proof.Proof.RefOpsA1
import proofs.«172654_j31121333027532_2_alg».proof.Proof.ReadP

set_option maxRecDepth 16384
set_option maxHeartbeats 40000000

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable (V : Valuation τ sig (Elt Ideal))
  (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

include V x0 x1 x2 x3 x4 x5 x6 x7 x8 x9 x10 x11 x12 x13 x14 x15 x16 x17 x18 x19 in
theorem chunkA1
    (ha0 : V (Proc.devRef .tc main_arg0) = x0)
    (ha1 : V (Proc.devRef .tc main_arg1) = x1)
    (ha2 : V (Proc.devRef .tc main_arg2) = x2)
    (ha3 : V (Proc.devRef .tc main_arg3) = x3)
    (ha4 : V (Proc.devRef .tc main_arg4) = x4)
    (ha5 : V (Proc.devRef .tc main_arg5) = x5)
    (ha6 : V (Proc.devRef .tc main_arg6) = x6)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17) :
    after opsA1 V (Proc.devRef .tc main_v57) = val_main_v57 (F := Ideal) x0 x1 x3 x9 x10 x11 x12 x15 x16 x17
    ∧ after opsA1 V (Proc.devRef .tc main_v94) = val_main_v94 (F := Ideal) x0 x1 x4 x9 x10 x11 x12 x15 x16 x17
    ∧ after opsA1 V (Proc.devRef .tc main_v131) = val_main_v131 (F := Ideal) x0 x2 x5 x9 x10 x13 x14 x15 x16 x17
    ∧ after opsA1 V (Proc.devRef .tc main_v168) = val_main_v168 (F := Ideal) x0 x2 x6 x9 x10 x13 x14 x15 x16 x17
    ∧ after opsA1 V (Proc.devRef .tc main_v205) = val_main_v205 (F := Ideal) x1 x2 x7 x11 x12 x13 x14 x15 x16 x17
    ∧ after opsA1 V (Proc.devRef .tc main_v242) = val_main_v242 (F := Ideal) x1 x2 x8 x11 x12 x13 x14 x15 x16 x17 := by
  simp only [opsA1, opsA1a, opsA1b, opsA1c, List.cons_append, List.nil_append]
  after_results_simp
  simp only [ha0, ha1, ha2, ha3, ha4, ha5, ha6, ha7, ha8, ha9, ha10, ha11, ha12, ha13, ha14, ha15, ha16, ha17]
  all_goals (first | done | (repeat' constructor) <;> rfl)

theorem keptA1_0 : after opsA1 V (Proc.devRef .tc main_arg0) = V (Proc.devRef .tc main_arg0) :=
  StableHlo.after_of_forall_not_mem (b := Proc.devRef .tc main_arg0) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_1 : after opsA1 V (Proc.devRef .tc main_arg1) = V (Proc.devRef .tc main_arg1) :=
  StableHlo.after_of_forall_not_mem (b := Proc.devRef .tc main_arg1) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_2 : after opsA1 V (Proc.devRef .tc main_arg2) = V (Proc.devRef .tc main_arg2) :=
  StableHlo.after_of_forall_not_mem (b := Proc.devRef .tc main_arg2) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_3 : after opsA1 V (Proc.devRef .tc main_arg3) = V (Proc.devRef .tc main_arg3) :=
  StableHlo.after_of_forall_not_mem (b := Proc.devRef .tc main_arg3) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_4 : after opsA1 V (Proc.devRef .tc main_arg4) = V (Proc.devRef .tc main_arg4) :=
  StableHlo.after_of_forall_not_mem (b := Proc.devRef .tc main_arg4) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_5 : after opsA1 V (Proc.devRef .tc main_arg5) = V (Proc.devRef .tc main_arg5) :=
  StableHlo.after_of_forall_not_mem (b := Proc.devRef .tc main_arg5) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_6 : after opsA1 V (Proc.devRef .tc main_arg6) = V (Proc.devRef .tc main_arg6) :=
  StableHlo.after_of_forall_not_mem (b := Proc.devRef .tc main_arg6) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_7 : after opsA1 V (Proc.devRef .tc main_arg7) = V (Proc.devRef .tc main_arg7) :=
  StableHlo.after_of_forall_not_mem (b := Proc.devRef .tc main_arg7) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_8 : after opsA1 V (Proc.devRef .tc main_arg8) = V (Proc.devRef .tc main_arg8) :=
  StableHlo.after_of_forall_not_mem (b := Proc.devRef .tc main_arg8) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_9 : after opsA1 V (Proc.devRef .tc main_arg9) = V (Proc.devRef .tc main_arg9) :=
  StableHlo.after_of_forall_not_mem (b := Proc.devRef .tc main_arg9) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_10 : after opsA1 V (Proc.devRef .tc main_arg10) = V (Proc.devRef .tc main_arg10) :=
  StableHlo.after_of_forall_not_mem (b := Proc.devRef .tc main_arg10) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_11 : after opsA1 V (Proc.devRef .tc main_arg11) = V (Proc.devRef .tc main_arg11) :=
  StableHlo.after_of_forall_not_mem (b := Proc.devRef .tc main_arg11) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_12 : after opsA1 V (Proc.devRef .tc main_arg12) = V (Proc.devRef .tc main_arg12) :=
  StableHlo.after_of_forall_not_mem (b := Proc.devRef .tc main_arg12) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_13 : after opsA1 V (Proc.devRef .tc main_arg13) = V (Proc.devRef .tc main_arg13) :=
  StableHlo.after_of_forall_not_mem (b := Proc.devRef .tc main_arg13) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_14 : after opsA1 V (Proc.devRef .tc main_arg14) = V (Proc.devRef .tc main_arg14) :=
  StableHlo.after_of_forall_not_mem (b := Proc.devRef .tc main_arg14) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_15 : after opsA1 V (Proc.devRef .tc main_arg15) = V (Proc.devRef .tc main_arg15) :=
  StableHlo.after_of_forall_not_mem (b := Proc.devRef .tc main_arg15) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_16 : after opsA1 V (Proc.devRef .tc main_arg16) = V (Proc.devRef .tc main_arg16) :=
  StableHlo.after_of_forall_not_mem (b := Proc.devRef .tc main_arg16) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_17 : after opsA1 V (Proc.devRef .tc main_arg17) = V (Proc.devRef .tc main_arg17) :=
  StableHlo.after_of_forall_not_mem (b := Proc.devRef .tc main_arg17) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_18 : after opsA1 V (Proc.devRef .tc main_arg18) = V (Proc.devRef .tc main_arg18) :=
  StableHlo.after_of_forall_not_mem (b := Proc.devRef .tc main_arg18) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA1_19 : after opsA1 V (Proc.devRef .tc main_arg19) = V (Proc.devRef .tc main_arg19) :=
  StableHlo.after_of_forall_not_mem (b := Proc.devRef .tc main_arg19) _ _ (List.forall_iff_forall_mem.mp (by
    simp only [opsA1, opsA1a, opsA1b, opsA1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

end Cert.ReferenceIdeal.ValueP

end
-- ==== Proof.RefChunkA2.lean ====
/-
  Chunk A2 of the reference: from any contents at which the buffers the chunk reads hold the reference's stages
  (and the arguments it reads hold given arrays), the buffers the next chunk reads hold the reference's stages; and the
  chunk writes no argument.
-/
import proofs.«172654_j31121333027532_2_alg».proof.Proof.RefOpsA2
import proofs.«172654_j31121333027532_2_alg».proof.Proof.ReadP

set_option maxRecDepth 16384
set_option maxHeartbeats 40000000

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable (V : Valuation τ sig (Elt Ideal))
  (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

include V x0 x1 x2 x3 x4 x5 x6 x7 x8 x9 x10 x11 x12 x13 x14 x15 x16 x17 x18 x19 in
theorem chunkA2
    (ha18 : V (Proc.devRef .tc main_arg18) = x18)
    (ha19 : V (Proc.devRef .tc main_arg19) = x19)
    (hv57 : V (Proc.devRef .tc main_v57) = val_main_v57 (F := Ideal) x0 x1 x3 x9 x10 x11 x12 x15 x16 x17)
    (hv94 : V (Proc.devRef .tc main_v94) = val_main_v94 (F := Ideal) x0 x1 x4 x9 x10 x11 x12 x15 x16 x17)
    (hv131 : V (Proc.devRef .tc main_v131) = val_main_v131 (F := Ideal) x0 x2 x5 x9 x10 x13 x14 x15 x16 x17)
    (hv168 : V (Proc.devRef .tc main_v168) = val_main_v168 (F := Ideal) x0 x2 x6 x9 x10 x13 x14 x15 x16 x17)
    (hv205 : V (Proc.devRef .tc main_v205) = val_main_v205 (F := Ideal) x1 x2 x7 x11 x12 x13 x14 x15 x16 x17)
    (hv242 : V (Proc.devRef .tc main_v242) = val_main_v242 (F := Ideal) x1 x2 x8 x11 x12 x13 x14 x15 x16 x17) :
    after opsA2 V (Proc.devRef .tc main_v274) = val_main_v274 (F := Ideal) x0 x1 x2 x4 x6 x9 x10 x11 x12 x13 x14 x15 x16 x17 x18 x19
    ∧ after opsA2 V (Proc.devRef .tc main_v306) = val_main_v306 (F := Ideal) x0 x1 x2 x3 x8 x9 x10 x11 x12 x13 x14 x15 x16 x17 x18 x19
    ∧ after opsA2 V (Proc.devRef .tc main_v338) = val_main_v338 (F := Ideal) x0 x1 x2 x5 x7 x9 x10 x11 x12 x13 x14 x15 x16 x17 x18 x19 := by
  simp only [opsA2, opsA2a, opsA2b, List.cons_append, List.nil_append]
  after_results_simp
  simp only [ha18, ha19, hv57, hv94, hv131, hv168, hv205, hv242]
  all_goals (first | done | (repeat' constructor) <;> rfl)

theorem keptA2_0 : after opsA2 V (Proc.devRef .tc main_arg0) = V (Proc.devRef .tc main_arg0) :=
  StableHlo.after_of_forall_not_mem (b := Proc.devRef .tc main_arg0) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_1 : after opsA2 V (Proc.devRef .tc main_arg1) = V (Proc.devRef .tc main_arg1) :=
  StableHlo.after_of_forall_not_mem (b := Proc.devRef .tc main_arg1) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_2 : after opsA2 V (Proc.devRef .tc main_arg2) = V (Proc.devRef .tc main_arg2) :=
  StableHlo.after_of_forall_not_mem (b := Proc.devRef .tc main_arg2) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_3 : after opsA2 V (Proc.devRef .tc main_arg3) = V (Proc.devRef .tc main_arg3) :=
  StableHlo.after_of_forall_not_mem (b := Proc.devRef .tc main_arg3) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_4 : after opsA2 V (Proc.devRef .tc main_arg4) = V (Proc.devRef .tc main_arg4) :=
  StableHlo.after_of_forall_not_mem (b := Proc.devRef .tc main_arg4) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_5 : after opsA2 V (Proc.devRef .tc main_arg5) = V (Proc.devRef .tc main_arg5) :=
  StableHlo.after_of_forall_not_mem (b := Proc.devRef .tc main_arg5) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_6 : after opsA2 V (Proc.devRef .tc main_arg6) = V (Proc.devRef .tc main_arg6) :=
  StableHlo.after_of_forall_not_mem (b := Proc.devRef .tc main_arg6) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_7 : after opsA2 V (Proc.devRef .tc main_arg7) = V (Proc.devRef .tc main_arg7) :=
  StableHlo.after_of_forall_not_mem (b := Proc.devRef .tc main_arg7) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_8 : after opsA2 V (Proc.devRef .tc main_arg8) = V (Proc.devRef .tc main_arg8) :=
  StableHlo.after_of_forall_not_mem (b := Proc.devRef .tc main_arg8) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_9 : after opsA2 V (Proc.devRef .tc main_arg9) = V (Proc.devRef .tc main_arg9) :=
  StableHlo.after_of_forall_not_mem (b := Proc.devRef .tc main_arg9) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_10 : after opsA2 V (Proc.devRef .tc main_arg10) = V (Proc.devRef .tc main_arg10) :=
  StableHlo.after_of_forall_not_mem (b := Proc.devRef .tc main_arg10) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_11 : after opsA2 V (Proc.devRef .tc main_arg11) = V (Proc.devRef .tc main_arg11) :=
  StableHlo.after_of_forall_not_mem (b := Proc.devRef .tc main_arg11) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_12 : after opsA2 V (Proc.devRef .tc main_arg12) = V (Proc.devRef .tc main_arg12) :=
  StableHlo.after_of_forall_not_mem (b := Proc.devRef .tc main_arg12) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_13 : after opsA2 V (Proc.devRef .tc main_arg13) = V (Proc.devRef .tc main_arg13) :=
  StableHlo.after_of_forall_not_mem (b := Proc.devRef .tc main_arg13) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_14 : after opsA2 V (Proc.devRef .tc main_arg14) = V (Proc.devRef .tc main_arg14) :=
  StableHlo.after_of_forall_not_mem (b := Proc.devRef .tc main_arg14) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_15 : after opsA2 V (Proc.devRef .tc main_arg15) = V (Proc.devRef .tc main_arg15) :=
  StableHlo.after_of_forall_not_mem (b := Proc.devRef .tc main_arg15) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_16 : after opsA2 V (Proc.devRef .tc main_arg16) = V (Proc.devRef .tc main_arg16) :=
  StableHlo.after_of_forall_not_mem (b := Proc.devRef .tc main_arg16) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_17 : after opsA2 V (Proc.devRef .tc main_arg17) = V (Proc.devRef .tc main_arg17) :=
  StableHlo.after_of_forall_not_mem (b := Proc.devRef .tc main_arg17) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_18 : after opsA2 V (Proc.devRef .tc main_arg18) = V (Proc.devRef .tc main_arg18) :=
  StableHlo.after_of_forall_not_mem (b := Proc.devRef .tc main_arg18) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptA2_19 : after opsA2 V (Proc.devRef .tc main_arg19) = V (Proc.devRef .tc main_arg19) :=
  StableHlo.after_of_forall_not_mem (b := Proc.devRef .tc main_arg19) _ _ (List.forall_iff_forall_mem.mp (by
    simp only [opsA2, opsA2a, opsA2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

end Cert.ReferenceIdeal.ValueP

end
-- ==== Proof.RefChunkB1.lean ====
/-
  Chunk B1 of the reference: from any contents at which the buffers the chunk reads hold the reference's stages
  (and the arguments it reads hold given arrays), the buffers the next chunk reads hold the reference's stages; and the
  chunk writes no argument.
-/
import proofs.«172654_j31121333027532_2_alg».proof.Proof.RefOpsB1
import proofs.«172654_j31121333027532_2_alg».proof.Proof.ReadP

set_option maxRecDepth 16384
set_option maxHeartbeats 40000000

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable (V : Valuation τ sig (Elt Ideal))
  (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

include V x0 x1 x2 x3 x4 x5 x6 x7 x8 x9 x10 x11 x12 x13 x14 x15 x16 x17 x18 x19 in
theorem chunkB1
    (ha3 : V (Proc.devRef .tc main_arg3) = x3)
    (ha4 : V (Proc.devRef .tc main_arg4) = x4)
    (ha5 : V (Proc.devRef .tc main_arg5) = x5)
    (ha6 : V (Proc.devRef .tc main_arg6) = x6)
    (ha7 : V (Proc.devRef .tc main_arg7) = x7)
    (ha8 : V (Proc.devRef .tc main_arg8) = x8)
    (ha15 : V (Proc.devRef .tc main_arg15) = x15)
    (ha16 : V (Proc.devRef .tc main_arg16) = x16)
    (ha17 : V (Proc.devRef .tc main_arg17) = x17)
    (hv274 : V (Proc.devRef .tc main_v274) = val_main_v274 (F := Ideal) x0 x1 x2 x4 x6 x9 x10 x11 x12 x13 x14 x15 x16 x17 x18 x19)
    (hv306 : V (Proc.devRef .tc main_v306) = val_main_v306 (F := Ideal) x0 x1 x2 x3 x8 x9 x10 x11 x12 x13 x14 x15 x16 x17 x18 x19)
    (hv338 : V (Proc.devRef .tc main_v338) = val_main_v338 (F := Ideal) x0 x1 x2 x5 x7 x9 x10 x11 x12 x13 x14 x15 x16 x17 x18 x19) :
    after opsB1 V (Proc.devRef .tc main_v381) = val_main_v381 (F := Ideal) x0 x1 x2 x3 x4 x6 x8 x9 x10 x11 x12 x13 x14 x15 x16 x17 x18 x19
    ∧ after opsB1 V (Proc.devRef .tc main_v418) = val_main_v418 (F := Ideal) x0 x1 x2 x3 x4 x6 x8 x9 x10 x11 x12 x13 x14 x15 x16 x17 x18 x19
    ∧ after opsB1 V (Proc.devRef .tc main_v455) = val_main_v455 (F := Ideal) x0 x1 x2 x4 x5 x6 x7 x9 x10 x11 x12 x13 x14 x15 x16 x17 x18 x19
    ∧ after opsB1 V (Proc.devRef .tc main_v492) = val_main_v492 (F := Ideal) x0 x1 x2 x4 x5 x6 x7 x9 x10 x11 x12 x13 x14 x15 x16 x17 x18 x19
    ∧ after opsB1 V (Proc.devRef .tc main_v529) = val_main_v529 (F := Ideal) x0 x1 x2 x3 x5 x7 x8 x9 x10 x11 x12 x13 x14 x15 x16 x17 x18 x19
    ∧ after opsB1 V (Proc.devRef .tc main_v566) = val_main_v566 (F := Ideal) x0 x1 x2 x3 x5 x7 x8 x9 x10 x11 x12 x13 x14 x15 x16 x17 x18 x19 := by
  simp only [opsB1, opsB1a, opsB1b, opsB1c, List.cons_append, List.nil_append]
  after_results_simp
  simp only [ha3, ha4, ha5, ha6, ha7, ha8, ha15, ha16, ha17, hv274, hv306, hv338]
  all_goals (first | done | (repeat' constructor) <;> rfl)

theorem keptB1_0 : after opsB1 V (Proc.devRef .tc main_arg0) = V (Proc.devRef .tc main_arg0) :=
  StableHlo.after_of_forall_not_mem (b := Proc.devRef .tc main_arg0) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_1 : after opsB1 V (Proc.devRef .tc main_arg1) = V (Proc.devRef .tc main_arg1) :=
  StableHlo.after_of_forall_not_mem (b := Proc.devRef .tc main_arg1) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_2 : after opsB1 V (Proc.devRef .tc main_arg2) = V (Proc.devRef .tc main_arg2) :=
  StableHlo.after_of_forall_not_mem (b := Proc.devRef .tc main_arg2) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_3 : after opsB1 V (Proc.devRef .tc main_arg3) = V (Proc.devRef .tc main_arg3) :=
  StableHlo.after_of_forall_not_mem (b := Proc.devRef .tc main_arg3) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_4 : after opsB1 V (Proc.devRef .tc main_arg4) = V (Proc.devRef .tc main_arg4) :=
  StableHlo.after_of_forall_not_mem (b := Proc.devRef .tc main_arg4) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_5 : after opsB1 V (Proc.devRef .tc main_arg5) = V (Proc.devRef .tc main_arg5) :=
  StableHlo.after_of_forall_not_mem (b := Proc.devRef .tc main_arg5) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_6 : after opsB1 V (Proc.devRef .tc main_arg6) = V (Proc.devRef .tc main_arg6) :=
  StableHlo.after_of_forall_not_mem (b := Proc.devRef .tc main_arg6) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_7 : after opsB1 V (Proc.devRef .tc main_arg7) = V (Proc.devRef .tc main_arg7) :=
  StableHlo.after_of_forall_not_mem (b := Proc.devRef .tc main_arg7) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_8 : after opsB1 V (Proc.devRef .tc main_arg8) = V (Proc.devRef .tc main_arg8) :=
  StableHlo.after_of_forall_not_mem (b := Proc.devRef .tc main_arg8) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_9 : after opsB1 V (Proc.devRef .tc main_arg9) = V (Proc.devRef .tc main_arg9) :=
  StableHlo.after_of_forall_not_mem (b := Proc.devRef .tc main_arg9) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_10 : after opsB1 V (Proc.devRef .tc main_arg10) = V (Proc.devRef .tc main_arg10) :=
  StableHlo.after_of_forall_not_mem (b := Proc.devRef .tc main_arg10) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_11 : after opsB1 V (Proc.devRef .tc main_arg11) = V (Proc.devRef .tc main_arg11) :=
  StableHlo.after_of_forall_not_mem (b := Proc.devRef .tc main_arg11) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_12 : after opsB1 V (Proc.devRef .tc main_arg12) = V (Proc.devRef .tc main_arg12) :=
  StableHlo.after_of_forall_not_mem (b := Proc.devRef .tc main_arg12) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_13 : after opsB1 V (Proc.devRef .tc main_arg13) = V (Proc.devRef .tc main_arg13) :=
  StableHlo.after_of_forall_not_mem (b := Proc.devRef .tc main_arg13) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_14 : after opsB1 V (Proc.devRef .tc main_arg14) = V (Proc.devRef .tc main_arg14) :=
  StableHlo.after_of_forall_not_mem (b := Proc.devRef .tc main_arg14) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_15 : after opsB1 V (Proc.devRef .tc main_arg15) = V (Proc.devRef .tc main_arg15) :=
  StableHlo.after_of_forall_not_mem (b := Proc.devRef .tc main_arg15) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_16 : after opsB1 V (Proc.devRef .tc main_arg16) = V (Proc.devRef .tc main_arg16) :=
  StableHlo.after_of_forall_not_mem (b := Proc.devRef .tc main_arg16) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_17 : after opsB1 V (Proc.devRef .tc main_arg17) = V (Proc.devRef .tc main_arg17) :=
  StableHlo.after_of_forall_not_mem (b := Proc.devRef .tc main_arg17) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_18 : after opsB1 V (Proc.devRef .tc main_arg18) = V (Proc.devRef .tc main_arg18) :=
  StableHlo.after_of_forall_not_mem (b := Proc.devRef .tc main_arg18) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB1_19 : after opsB1 V (Proc.devRef .tc main_arg19) = V (Proc.devRef .tc main_arg19) :=
  StableHlo.after_of_forall_not_mem (b := Proc.devRef .tc main_arg19) _ _ (List.forall_iff_forall_mem.mp (by
    simp only [opsB1, opsB1a, opsB1b, opsB1c, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

end Cert.ReferenceIdeal.ValueP

end
-- ==== Proof.RefChunkB2.lean ====
/-
  Chunk B2 of the reference: from any contents at which the buffers the chunk reads hold the reference's stages
  (and the arguments it reads hold given arrays), the buffers the next chunk reads hold the reference's stages; and the
  chunk writes no argument.
-/
import proofs.«172654_j31121333027532_2_alg».proof.Proof.RefOpsB2
import proofs.«172654_j31121333027532_2_alg».proof.Proof.ReadP

set_option maxRecDepth 16384
set_option maxHeartbeats 40000000

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable (V : Valuation τ sig (Elt Ideal))
  (x0 : (⟨S100000x6, .f32⟩ : BufTy).Contents (Elt Ideal))
  (x1 : (⟨S50000x4, .f32⟩ : BufTy).Contents (Elt Ideal))
  (x2 : (⟨S5000x3, .f32⟩ : BufTy).Contents (Elt Ideal))
  (x3 : (⟨S2x500000, .i32⟩ : BufTy).Contents (Elt Ideal))
  (x4 : (⟨S2x500000, .i32⟩ : BufTy).Contents (Elt Ideal))
  (x5 : (⟨S2x300000, .i32⟩ : BufTy).Contents (Elt Ideal))
  (x6 : (⟨S2x300000, .i32⟩ : BufTy).Contents (Elt Ideal))
  (x7 : (⟨S2x150000, .i32⟩ : BufTy).Contents (Elt Ideal))
  (x8 : (⟨S2x150000, .i32⟩ : BufTy).Contents (Elt Ideal))
  (x9 : (⟨S128x6, .f32⟩ : BufTy).Contents (Elt Ideal))
  (x10 : (⟨S128, .f32⟩ : BufTy).Contents (Elt Ideal))
  (x11 : (⟨S128x4, .f32⟩ : BufTy).Contents (Elt Ideal))
  (x12 : (⟨S128, .f32⟩ : BufTy).Contents (Elt Ideal))
  (x13 : (⟨S128x3, .f32⟩ : BufTy).Contents (Elt Ideal))
  (x14 : (⟨S128, .f32⟩ : BufTy).Contents (Elt Ideal))
  (x15 : (⟨S2x6x128x128, .f32⟩ : BufTy).Contents (Elt Ideal))
  (x16 : (⟨S2x6x128, .f32⟩ : BufTy).Contents (Elt Ideal))
  (x17 : (⟨S2x6x128x128, .f32⟩ : BufTy).Contents (Elt Ideal))
  (x18 : (⟨S2x3x128, .f32⟩ : BufTy).Contents (Elt Ideal))
  (x19 : (⟨S2x3x128, .f32⟩ : BufTy).Contents (Elt Ideal))

include V x0 x1 x2 x3 x4 x5 x6 x7 x8 x9 x10 x11 x12 x13 x14 x15 x16 x17 x18 x19 in
theorem chunkB2
    (ha18 : V (Proc.devRef .tc main_arg18) = x18)
    (ha19 : V (Proc.devRef .tc main_arg19) = x19)
    (hv381 : V (Proc.devRef .tc main_v381) = val_main_v381 (F := Ideal) x0 x1 x2 x3 x4 x6 x8 x9 x10 x11 x12 x13 x14 x15 x16 x17 x18 x19)
    (hv418 : V (Proc.devRef .tc main_v418) = val_main_v418 (F := Ideal) x0 x1 x2 x3 x4 x6 x8 x9 x10 x11 x12 x13 x14 x15 x16 x17 x18 x19)
    (hv455 : V (Proc.devRef .tc main_v455) = val_main_v455 (F := Ideal) x0 x1 x2 x4 x5 x6 x7 x9 x10 x11 x12 x13 x14 x15 x16 x17 x18 x19)
    (hv492 : V (Proc.devRef .tc main_v492) = val_main_v492 (F := Ideal) x0 x1 x2 x4 x5 x6 x7 x9 x10 x11 x12 x13 x14 x15 x16 x17 x18 x19)
    (hv529 : V (Proc.devRef .tc main_v529) = val_main_v529 (F := Ideal) x0 x1 x2 x3 x5 x7 x8 x9 x10 x11 x12 x13 x14 x15 x16 x17 x18 x19)
    (hv566 : V (Proc.devRef .tc main_v566) = val_main_v566 (F := Ideal) x0 x1 x2 x3 x5 x7 x8 x9 x10 x11 x12 x13 x14 x15 x16 x17 x18 x19) :
    after opsB2 V (Proc.devRef .tc main_v598) = val_main_v598 (F := Ideal) x0 x1 x2 x3 x4 x5 x6 x7 x8 x9 x10 x11 x12 x13 x14 x15 x16 x17 x18 x19
    ∧ after opsB2 V (Proc.devRef .tc main_v630) = val_main_v630 (F := Ideal) x0 x1 x2 x3 x4 x5 x6 x7 x8 x9 x10 x11 x12 x13 x14 x15 x16 x17 x18 x19
    ∧ after opsB2 V (Proc.devRef .tc main_v662) = val_main_v662 (F := Ideal) x0 x1 x2 x3 x4 x5 x6 x7 x8 x9 x10 x11 x12 x13 x14 x15 x16 x17 x18 x19 := by
  simp only [opsB2, opsB2a, opsB2b, List.cons_append, List.nil_append]
  after_results_simp
  simp only [ha18, ha19, hv381, hv418, hv455, hv492, hv529, hv566]
  all_goals (first | done | (repeat' constructor) <;> rfl)

theorem keptB2_0 : after opsB2 V (Proc.devRef .tc main_arg0) = V (Proc.devRef .tc main_arg0) :=
  StableHlo.after_of_forall_not_mem (b := Proc.devRef .tc main_arg0) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_1 : after opsB2 V (Proc.devRef .tc main_arg1) = V (Proc.devRef .tc main_arg1) :=
  StableHlo.after_of_forall_not_mem (b := Proc.devRef .tc main_arg1) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_2 : after opsB2 V (Proc.devRef .tc main_arg2) = V (Proc.devRef .tc main_arg2) :=
  StableHlo.after_of_forall_not_mem (b := Proc.devRef .tc main_arg2) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_3 : after opsB2 V (Proc.devRef .tc main_arg3) = V (Proc.devRef .tc main_arg3) :=
  StableHlo.after_of_forall_not_mem (b := Proc.devRef .tc main_arg3) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_4 : after opsB2 V (Proc.devRef .tc main_arg4) = V (Proc.devRef .tc main_arg4) :=
  StableHlo.after_of_forall_not_mem (b := Proc.devRef .tc main_arg4) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_5 : after opsB2 V (Proc.devRef .tc main_arg5) = V (Proc.devRef .tc main_arg5) :=
  StableHlo.after_of_forall_not_mem (b := Proc.devRef .tc main_arg5) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_6 : after opsB2 V (Proc.devRef .tc main_arg6) = V (Proc.devRef .tc main_arg6) :=
  StableHlo.after_of_forall_not_mem (b := Proc.devRef .tc main_arg6) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_7 : after opsB2 V (Proc.devRef .tc main_arg7) = V (Proc.devRef .tc main_arg7) :=
  StableHlo.after_of_forall_not_mem (b := Proc.devRef .tc main_arg7) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_8 : after opsB2 V (Proc.devRef .tc main_arg8) = V (Proc.devRef .tc main_arg8) :=
  StableHlo.after_of_forall_not_mem (b := Proc.devRef .tc main_arg8) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_9 : after opsB2 V (Proc.devRef .tc main_arg9) = V (Proc.devRef .tc main_arg9) :=
  StableHlo.after_of_forall_not_mem (b := Proc.devRef .tc main_arg9) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_10 : after opsB2 V (Proc.devRef .tc main_arg10) = V (Proc.devRef .tc main_arg10) :=
  StableHlo.after_of_forall_not_mem (b := Proc.devRef .tc main_arg10) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_11 : after opsB2 V (Proc.devRef .tc main_arg11) = V (Proc.devRef .tc main_arg11) :=
  StableHlo.after_of_forall_not_mem (b := Proc.devRef .tc main_arg11) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_12 : after opsB2 V (Proc.devRef .tc main_arg12) = V (Proc.devRef .tc main_arg12) :=
  StableHlo.after_of_forall_not_mem (b := Proc.devRef .tc main_arg12) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_13 : after opsB2 V (Proc.devRef .tc main_arg13) = V (Proc.devRef .tc main_arg13) :=
  StableHlo.after_of_forall_not_mem (b := Proc.devRef .tc main_arg13) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_14 : after opsB2 V (Proc.devRef .tc main_arg14) = V (Proc.devRef .tc main_arg14) :=
  StableHlo.after_of_forall_not_mem (b := Proc.devRef .tc main_arg14) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_15 : after opsB2 V (Proc.devRef .tc main_arg15) = V (Proc.devRef .tc main_arg15) :=
  StableHlo.after_of_forall_not_mem (b := Proc.devRef .tc main_arg15) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_16 : after opsB2 V (Proc.devRef .tc main_arg16) = V (Proc.devRef .tc main_arg16) :=
  StableHlo.after_of_forall_not_mem (b := Proc.devRef .tc main_arg16) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_17 : after opsB2 V (Proc.devRef .tc main_arg17) = V (Proc.devRef .tc main_arg17) :=
  StableHlo.after_of_forall_not_mem (b := Proc.devRef .tc main_arg17) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_18 : after opsB2 V (Proc.devRef .tc main_arg18) = V (Proc.devRef .tc main_arg18) :=
  StableHlo.after_of_forall_not_mem (b := Proc.devRef .tc main_arg18) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

theorem keptB2_19 : after opsB2 V (Proc.devRef .tc main_arg19) = V (Proc.devRef .tc main_arg19) :=
  StableHlo.after_of_forall_not_mem (b := Proc.devRef .tc main_arg19) _ _ (List.forall_iff_forall_mem.mp (by
    simp only [opsB2, opsB2a, opsB2b, List.cons_append, List.nil_append, List.Forall, StableHlo.nullary_writes, StableHlo.unary_writes, StableHlo.binary_writes, StableHlo.ternary_writes, StableHlo.quaternary_writes, StableHlo.reshape_writes, StableHlo.binaryIndexed_writes, TRef.nullary, TRef.unary, TRef.binary, TRef.ternary, TRef.of, Finset.mem_singleton]
    repeat' apply And.intro
    all_goals exact StableHlo.devRef_ne_of_ne (by decide)))

end Cert.ReferenceIdeal.ValueP

end
-- ==== Proof.RefRun.lean ====
/-
  The reference's run.

  The reference is a straight line of host operations.  Read in four chunks — the input projections and layer 0's six
  relation outputs, layer 0's three normalised outputs, and the same two for layer 1 — each chunk leaves, in the buffers
  the next one reads, the stages that the read-at-an-index module names, provided the buffers it reads hold the
  stages before them; the outputs of a layer stand as names while the next layer is read, so no term grows with the
  number of uses.  No chunk writes an argument.  The library's run of a straight line then says that every weakly fair
  execution terminates with each buffer at the fold of all the operations over the launch contents, which is the fold of
  the four chunks in order.
-/
import proofs.«172654_j31121333027532_2_alg».proof.Proof.RefMain
import proofs.«172654_j31121333027532_2_alg».proof.Proof.RefChunkA1
import proofs.«172654_j31121333027532_2_alg».proof.Proof.RefChunkA2
import proofs.«172654_j31121333027532_2_alg».proof.Proof.RefChunkB1
import proofs.«172654_j31121333027532_2_alg».proof.Proof.RefChunkB2

set_option maxRecDepth 16384
set_option maxHeartbeats 40000000

noncomputable section

namespace Cert.ReferenceIdeal.ValueP

open Cert.ReferenceIdeal Cert.ReferenceIdeal.Gen Cert.ReferenceIdeal.ReadP
open Idealize.ShloMosaic Idealize.ShloMosaic.TcCoe Idealize.SL.Sem Idealize.ShloMosaic.StableHlo

/-- The fold of all the operations is the fold of the four chunks in order. -/
theorem after_ops (W : Valuation τ sig (Elt Ideal)) :
    after (opsAll (F := Ideal)) W = after opsB2 (after opsB1 (after opsA2 (after opsA1 W))) := by
  show after (opsA1 ++ (opsA2 ++ (opsB1 ++ opsB2))) W = _
  rw [StableHlo.after_append, StableHlo.after_append, StableHlo.after_append]

/-- After all the operations the three results hold the reference's three final stages of the contents the arguments
    had before them. -/
theorem results (W : Valuation τ sig (Elt Ideal)) :
    after (opsAll (F := Ideal)) W (Proc.devRef .tc main_v598) = val_main_v598 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))
    ∧ after (opsAll (F := Ideal)) W (Proc.devRef .tc main_v630) = val_main_v630 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))
    ∧ after (opsAll (F := Ideal)) W (Proc.devRef .tc main_v662) = val_main_v662 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  rw [after_ops]
  have s1 := chunkA1 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) rfl rfl rfl rfl rfl rfl rfl rfl rfl rfl rfl rfl rfl rfl rfl rfl rfl rfl
  have s2 := chunkA2 (after opsA1 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (keptA1_18 W) (keptA1_19 W) (s1.1) (s1.2.1) (s1.2.2.1) (s1.2.2.2.1) (s1.2.2.2.2.1) (s1.2.2.2.2.2)
  have s3 := chunkB1 (after opsA2 (after opsA1 W)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) ((keptA2_3 (after opsA1 W)).trans (keptA1_3 W)) ((keptA2_4 (after opsA1 W)).trans (keptA1_4 W)) ((keptA2_5 (after opsA1 W)).trans (keptA1_5 W)) ((keptA2_6 (after opsA1 W)).trans (keptA1_6 W)) ((keptA2_7 (after opsA1 W)).trans (keptA1_7 W)) ((keptA2_8 (after opsA1 W)).trans (keptA1_8 W)) ((keptA2_15 (after opsA1 W)).trans (keptA1_15 W)) ((keptA2_16 (after opsA1 W)).trans (keptA1_16 W)) ((keptA2_17 (after opsA1 W)).trans (keptA1_17 W)) (s2.1) (s2.2.1) (s2.2.2)
  exact chunkB2 (after opsB1 (after opsA2 (after opsA1 W))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (((keptB1_18 (after opsA2 (after opsA1 W))).trans (keptA2_18 (after opsA1 W))).trans (keptA1_18 W)) (((keptB1_19 (after opsA2 (after opsA1 W))).trans (keptA2_19 (after opsA1 W))).trans (keptA1_19 W)) (s3.1) (s3.2.1) (s3.2.2.1) (s3.2.2.2.1) (s3.2.2.2.2.1) (s3.2.2.2.2.2)

/-- No operation writes an argument. -/
theorem kept (W : Valuation τ sig (Elt Ideal)) :
    after (opsAll (F := Ideal)) W (Proc.devRef .tc main_arg0) = W (Proc.devRef .tc main_arg0)
    ∧ after (opsAll (F := Ideal)) W (Proc.devRef .tc main_arg1) = W (Proc.devRef .tc main_arg1)
    ∧ after (opsAll (F := Ideal)) W (Proc.devRef .tc main_arg2) = W (Proc.devRef .tc main_arg2)
    ∧ after (opsAll (F := Ideal)) W (Proc.devRef .tc main_arg3) = W (Proc.devRef .tc main_arg3)
    ∧ after (opsAll (F := Ideal)) W (Proc.devRef .tc main_arg4) = W (Proc.devRef .tc main_arg4)
    ∧ after (opsAll (F := Ideal)) W (Proc.devRef .tc main_arg5) = W (Proc.devRef .tc main_arg5)
    ∧ after (opsAll (F := Ideal)) W (Proc.devRef .tc main_arg6) = W (Proc.devRef .tc main_arg6)
    ∧ after (opsAll (F := Ideal)) W (Proc.devRef .tc main_arg7) = W (Proc.devRef .tc main_arg7)
    ∧ after (opsAll (F := Ideal)) W (Proc.devRef .tc main_arg8) = W (Proc.devRef .tc main_arg8)
    ∧ after (opsAll (F := Ideal)) W (Proc.devRef .tc main_arg9) = W (Proc.devRef .tc main_arg9)
    ∧ after (opsAll (F := Ideal)) W (Proc.devRef .tc main_arg10) = W (Proc.devRef .tc main_arg10)
    ∧ after (opsAll (F := Ideal)) W (Proc.devRef .tc main_arg11) = W (Proc.devRef .tc main_arg11)
    ∧ after (opsAll (F := Ideal)) W (Proc.devRef .tc main_arg12) = W (Proc.devRef .tc main_arg12)
    ∧ after (opsAll (F := Ideal)) W (Proc.devRef .tc main_arg13) = W (Proc.devRef .tc main_arg13)
    ∧ after (opsAll (F := Ideal)) W (Proc.devRef .tc main_arg14) = W (Proc.devRef .tc main_arg14)
    ∧ after (opsAll (F := Ideal)) W (Proc.devRef .tc main_arg15) = W (Proc.devRef .tc main_arg15)
    ∧ after (opsAll (F := Ideal)) W (Proc.devRef .tc main_arg16) = W (Proc.devRef .tc main_arg16)
    ∧ after (opsAll (F := Ideal)) W (Proc.devRef .tc main_arg17) = W (Proc.devRef .tc main_arg17)
    ∧ after (opsAll (F := Ideal)) W (Proc.devRef .tc main_arg18) = W (Proc.devRef .tc main_arg18)
    ∧ after (opsAll (F := Ideal)) W (Proc.devRef .tc main_arg19) = W (Proc.devRef .tc main_arg19) := by
  rw [after_ops]
  exact ⟨((keptB2_0 (after opsB1 (after opsA2 (after opsA1 W)))).trans (keptB1_0 (after opsA2 (after opsA1 W)))).trans ((keptA2_0 (after opsA1 W)).trans (keptA1_0 W)),
    ((keptB2_1 (after opsB1 (after opsA2 (after opsA1 W)))).trans (keptB1_1 (after opsA2 (after opsA1 W)))).trans ((keptA2_1 (after opsA1 W)).trans (keptA1_1 W)),
    ((keptB2_2 (after opsB1 (after opsA2 (after opsA1 W)))).trans (keptB1_2 (after opsA2 (after opsA1 W)))).trans ((keptA2_2 (after opsA1 W)).trans (keptA1_2 W)),
    ((keptB2_3 (after opsB1 (after opsA2 (after opsA1 W)))).trans (keptB1_3 (after opsA2 (after opsA1 W)))).trans ((keptA2_3 (after opsA1 W)).trans (keptA1_3 W)),
    ((keptB2_4 (after opsB1 (after opsA2 (after opsA1 W)))).trans (keptB1_4 (after opsA2 (after opsA1 W)))).trans ((keptA2_4 (after opsA1 W)).trans (keptA1_4 W)),
    ((keptB2_5 (after opsB1 (after opsA2 (after opsA1 W)))).trans (keptB1_5 (after opsA2 (after opsA1 W)))).trans ((keptA2_5 (after opsA1 W)).trans (keptA1_5 W)),
    ((keptB2_6 (after opsB1 (after opsA2 (after opsA1 W)))).trans (keptB1_6 (after opsA2 (after opsA1 W)))).trans ((keptA2_6 (after opsA1 W)).trans (keptA1_6 W)),
    ((keptB2_7 (after opsB1 (after opsA2 (after opsA1 W)))).trans (keptB1_7 (after opsA2 (after opsA1 W)))).trans ((keptA2_7 (after opsA1 W)).trans (keptA1_7 W)),
    ((keptB2_8 (after opsB1 (after opsA2 (after opsA1 W)))).trans (keptB1_8 (after opsA2 (after opsA1 W)))).trans ((keptA2_8 (after opsA1 W)).trans (keptA1_8 W)),
    ((keptB2_9 (after opsB1 (after opsA2 (after opsA1 W)))).trans (keptB1_9 (after opsA2 (after opsA1 W)))).trans ((keptA2_9 (after opsA1 W)).trans (keptA1_9 W)),
    ((keptB2_10 (after opsB1 (after opsA2 (after opsA1 W)))).trans (keptB1_10 (after opsA2 (after opsA1 W)))).trans ((keptA2_10 (after opsA1 W)).trans (keptA1_10 W)),
    ((keptB2_11 (after opsB1 (after opsA2 (after opsA1 W)))).trans (keptB1_11 (after opsA2 (after opsA1 W)))).trans ((keptA2_11 (after opsA1 W)).trans (keptA1_11 W)),
    ((keptB2_12 (after opsB1 (after opsA2 (after opsA1 W)))).trans (keptB1_12 (after opsA2 (after opsA1 W)))).trans ((keptA2_12 (after opsA1 W)).trans (keptA1_12 W)),
    ((keptB2_13 (after opsB1 (after opsA2 (after opsA1 W)))).trans (keptB1_13 (after opsA2 (after opsA1 W)))).trans ((keptA2_13 (after opsA1 W)).trans (keptA1_13 W)),
    ((keptB2_14 (after opsB1 (after opsA2 (after opsA1 W)))).trans (keptB1_14 (after opsA2 (after opsA1 W)))).trans ((keptA2_14 (after opsA1 W)).trans (keptA1_14 W)),
    ((keptB2_15 (after opsB1 (after opsA2 (after opsA1 W)))).trans (keptB1_15 (after opsA2 (after opsA1 W)))).trans ((keptA2_15 (after opsA1 W)).trans (keptA1_15 W)),
    ((keptB2_16 (after opsB1 (after opsA2 (after opsA1 W)))).trans (keptB1_16 (after opsA2 (after opsA1 W)))).trans ((keptA2_16 (after opsA1 W)).trans (keptA1_16 W)),
    ((keptB2_17 (after opsB1 (after opsA2 (after opsA1 W)))).trans (keptB1_17 (after opsA2 (after opsA1 W)))).trans ((keptA2_17 (after opsA1 W)).trans (keptA1_17 W)),
    ((keptB2_18 (after opsB1 (after opsA2 (after opsA1 W)))).trans (keptB1_18 (after opsA2 (after opsA1 W)))).trans ((keptA2_18 (after opsA1 W)).trans (keptA1_18 W)),
    ((keptB2_19 (after opsB1 (after opsA2 (after opsA1 W)))).trans (keptB1_19 (after opsA2 (after opsA1 W)))).trans ((keptA2_19 (after opsA1 W)).trans (keptA1_19 W))⟩

/-- Every weakly fair execution of the reference terminates without a fault, with the three results at the final stages
    of its argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v598) = val_main_v598 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v630) = val_main_v630 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v662) = val_main_v662 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
      ⟨(h c main_v598).trans (results (launchContents m c)).1,
       (h c main_v630).trans (results (launchContents m c)).2.1,
       (h c main_v662).trans (results (launchContents m c)).2.2,
       (h c main_arg0).trans ((kept (launchContents m c)).1),
       (h c main_arg1).trans ((kept (launchContents m c)).2.1),
       (h c main_arg2).trans ((kept (launchContents m c)).2.2.1),
       (h c main_arg3).trans ((kept (launchContents m c)).2.2.2.1),
       (h c main_arg4).trans ((kept (launchContents m c)).2.2.2.2.1),
       (h c main_arg5).trans ((kept (launchContents m c)).2.2.2.2.2.1),
       (h c main_arg6).trans ((kept (launchContents m c)).2.2.2.2.2.2.1),
       (h c main_arg7).trans ((kept (launchContents m c)).2.2.2.2.2.2.2.1),
       (h c main_arg8).trans ((kept (launchContents m c)).2.2.2.2.2.2.2.2.1),
       (h c main_arg9).trans ((kept (launchContents m c)).2.2.2.2.2.2.2.2.2.1),
       (h c main_arg10).trans ((kept (launchContents m c)).2.2.2.2.2.2.2.2.2.2.1),
       (h c main_arg11).trans ((kept (launchContents m c)).2.2.2.2.2.2.2.2.2.2.2.1),
       (h c main_arg12).trans ((kept (launchContents m c)).2.2.2.2.2.2.2.2.2.2.2.2.1),
       (h c main_arg13).trans ((kept (launchContents m c)).2.2.2.2.2.2.2.2.2.2.2.2.2.1),
       (h c main_arg14).trans ((kept (launchContents m c)).2.2.2.2.2.2.2.2.2.2.2.2.2.2.1),
       (h c main_arg15).trans ((kept (launchContents m c)).2.2.2.2.2.2.2.2.2.2.2.2.2.2.2.1),
       (h c main_arg16).trans ((kept (launchContents m c)).2.2.2.2.2.2.2.2.2.2.2.2.2.2.2.2.1),
       (h c main_arg17).trans ((kept (launchContents m c)).2.2.2.2.2.2.2.2.2.2.2.2.2.2.2.2.2.1),
       (h c main_arg18).trans ((kept (launchContents m c)).2.2.2.2.2.2.2.2.2.2.2.2.2.2.2.2.2.2.1),
       (h c main_arg19).trans ((kept (launchContents m c)).2.2.2.2.2.2.2.2.2.2.2.2.2.2.2.2.2.2.2)⟩)
    (run_seq scopedRefs_eq scopedSems_eq defs main (fun _ => opsAll) main_eq (fun _ => opsAll_sub) m ρ (fun _ => opsAll_fresh))

end Cert.ReferenceIdeal.ValueP

end
-- ==== Proof.Claims.lean ====
/-
  The five claims.

  The idealized kernel runs six launches of the fused layer; after each launch its output array is the reference's
  output at the same site (the modules of the launches), so the three results are the reference's three final stages
  applied to the kernel's argument arrays.  The reference's run ends with the same three stages applied to its own
  argument arrays, which agree with the kernel's.  The word-level kernel and the idealized kernel keep their arguments
  (their frames); the reference keeps its arguments (its run, read chunk by chunk); the idealization rewrote no operation.
-/
import proofs.«172654_j31121333027532_2_alg».proof.Proof.KernelRun
import proofs.«172654_j31121333027532_2_alg».proof.Proof.KSite3
import proofs.«172654_j31121333027532_2_alg».proof.Proof.KSite4
import proofs.«172654_j31121333027532_2_alg».proof.Proof.KSite5
import proofs.«172654_j31121333027532_2_alg».proof.Proof.FrameBitsP
import proofs.«172654_j31121333027532_2_alg».proof.Proof.RefRun
import proofs.«172654_j31121333027532_2_alg».proof.Proof.ReadP
import proofs.«172654_j31121333027532_2_alg».proof.Proof.Gen.Kernel
import proofs.«172654_j31121333027532_2_alg».proof.Proof.Gen.KernelIdeal
import proofs.«172654_j31121333027532_2_alg».proof.Proof.Gen.ReferenceIdeal
import proofs.«172654_j31121333027532_2_alg».proof.Proof.Gen.Pre_finite_inputs
import proofs.«172654_j31121333027532_2_alg».proof.Defs

set_option maxRecDepth 16384
set_option maxHeartbeats 4000000

noncomputable section

namespace Cert.Proof.Claims

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2.2) (Cert.ReferenceIdeal.ValueP.run m ρ)

theorem preserves : Cert.preserves_Kernel_KernelIdeal := trivial

/-- Both programs end with the reference's three final stages of the kernel's argument arrays. -/
theorem algebraic : Cert.algebraic_KernelIdeal_ReferenceIdeal := by
  intro m ρ m' ρ' _ hagree
  refine ⟨fun c => Cert.ReferenceIdeal.ReadP.val_main_v598 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.ReadP.val_main_v630 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.ReadP.val_main_v662 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ?_) (Cert.KernelIdeal.Results.run (F := Ideal) m ρ)
    obtain ⟨h0, h1, h2, hargs⟩ := h c
    exact ⟨h0.trans ((Cert.KStages.keep_v300_8_12 m ρ c).trans (Cert.KStages.out3 m ρ c)),
      h1.trans ((Cert.KStages.keep_v317_10_12 m ρ c).trans (Cert.KStages.out4 m ρ c)),
      h2.trans (Cert.KStages.out5 m ρ c), hargs⟩
  · refine (θ_run Cert.ReferenceIdeal.defs _ _).mono (fun r h c => ?_) (Cert.ReferenceIdeal.ValueP.run m' ρ')
    obtain ⟨h0, h1, h2, hargs⟩ := h c
    obtain ⟨e0, e1, e2, e3, e4, e5, e6, e7, e8, e9, e10, e11, e12, e13, e14, e15, e16, e17, e18, e19⟩ := hagree c
    refine ⟨h0.trans ?_, h1.trans ?_, h2.trans ?_, hargs⟩
    · rw [e0, e1, e2, e3, e4, e5, e6, e7, e8, e9, e10, e11, e12, e13, e14, e15, e16, e17, e18, e19]
    · rw [e0, e1, e2, e3, e4, e5, e6, e7, e8, e9, e10, e11, e12, e13, e14, e15, e16, e17, e18, e19]
    · rw [e0, e1, e2, e3, e4, e5, e6, e7, e8, e9, e10, e11, e12, e13, e14, e15, e16, e17, e18, e19]

end Cert.Proof.Claims

end
-- ==== Proof.lean ====
/-
  The certificate's claim, assembled.

  The five conjuncts are proved in the module of the claims: the two kernels' frames, the reference's frame as its run
  with the results dropped, the trivial statement that the idealization rewrote nothing, and the equality of the two
  idealized programs' results — both are the reference's final stages of the argument arrays, the kernel's launch by
  launch.
-/
import proofs.«172654_j31121333027532_2_alg».proof.Defs
import proofs.«172654_j31121333027532_2_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
